-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x32 : Shape := ⟨2, ![16384, 32]⟩
abbrev S16384x200 : Shape := ⟨2, ![16384, 200]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x200 : S_.BroadcastsInDim S16384x200 (![] : Fin 0 → Fin S16384x200.rank)
  reducesTo_S16384x200_S_d0_1 : S16384x200.ReducesTo [0, 1] S_
  reducesTo_S_S_d : S_.ReducesTo [] S_

variable [Facts]

def fn {F : FTy → Type} [FloatOps F] (main_arg0 : FVec F S16384x32 .f32) (main_arg1 : IVec S16384x200 32) (main_arg2 : IVec S_ 32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_c_0 : IVec S_ 32 := constantI S_ 32 0#32
  let main_v4 : IVec S16384x200 32 := broadcastInDim S16384x200 ![] bcast_S_S16384x200 main_c_0
  let main_v5 : IVec S16384x200 1 := cmpi .sge main_arg1 main_v4
  let main_c_1 : IVec S_ 32 := constantI S_ 32 31#32
  let main_v6 : IVec S16384x200 32 := broadcastInDim S16384x200 ![] bcast_S_S16384x200 main_c_1
  let main_v7 : IVec S16384x200 1 := cmpi .sle main_arg1 main_v6
  let main_v8 : IVec S16384x200 1 := andi main_v5 main_v7
  let main_c_2 : IVec S_ 1 := constantI S_ 1 1#1
  let main_v9 : IVec S_ 1 := (fun x v => Host.reduce IntOp.andi x v reducesTo_S16384x200_S_d0_1 h_S_) main_v8 main_c_2
  let main_v10 : IVec S_ 1 := andi main_v3 main_v9
  let main_c_3 : IVec S_ 32 := constantI S_ 32 200#32
  let main_v11 : IVec S_ 1 := cmpi .sge main_arg2 main_c_3
  let main_c_4 : IVec S_ 32 := constantI S_ 32 200#32
  let main_v12 : IVec S_ 1 := cmpi .sle main_arg2 main_c_4
  let main_v13 : IVec S_ 1 := andi main_v11 main_v12
  let main_c_5 : IVec S_ 1 := constantI S_ 1 1#1
  let main_v14 : IVec S_ 1 := (fun x v => Host.reduce IntOp.andi x v reducesTo_S_S_d h_S_) main_v13 main_c_5
  let main_v15 : IVec S_ 1 := andi main_v10 main_v14
  main_v15
-- ==== Kernel.lean ====
abbrev S16384x32 : Shape := ⟨2, ![16384, 32]⟩
abbrev S16384x200 : Shape := ⟨2, ![16384, 200]⟩
abbrev S_ : Shape := ⟨0, ![]⟩
abbrev S32 : Shape := ⟨1, ![32]⟩
abbrev S128x200 : Shape := ⟨2, ![128, 200]⟩
abbrev S128x32 : Shape := ⟨2, ![128, 32]⟩
abbrev S16 : Shape := ⟨1, ![16]⟩

abbrev nBuf : Table → Nat
  | .hbm => 5
  | .local .scVector .vmem => 3
  | _ => 0

abbrev bufTy : (tb : Table) → Fin (nBuf tb) → BufTy
  | .hbm, ⟨0, _⟩ => ⟨S16384x32, .f32⟩
  | .hbm, ⟨1, _⟩ => ⟨S16384x200, .i32⟩
  | .hbm, ⟨2, _⟩ => ⟨S_, .i32⟩
  | .hbm, ⟨3, _⟩ => ⟨S32, .i32⟩
  | .hbm, ⟨4, _⟩ => ⟨S16384x32, .f32⟩
  | .local .scVector .vmem, ⟨0, _⟩ => ⟨S128x200, .i32⟩
  | .local .scVector .vmem, ⟨1, _⟩ => ⟨S128x32, .f32⟩
  | .local .scVector .vmem, ⟨2, _⟩ => ⟨S32, .i32⟩
  | _, _ => ⟨S16384x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_arg1_scv : Ref sig .scVector := ⟨.hbm, 1, rfl⟩
abbrev main_arg0_scv : Ref sig .scVector := ⟨.hbm, 0, rfl⟩
abbrev main_c_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c512_i32 : BitVec 32 := 512#32
  let v3 : BitVec 32 := Scalar.muli v2 c512_i32
  let c0_i32 : BitVec 32 := 0#32
  let v4 : BitVec 32 := Scalar.addi v3 c0_i32
  let c0_i32_1006_r1 : BitVec 32 := 0#32
  ![v4.toNat, 0]
def k0_off2 (i : grid0.Coords) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c512_i32 : BitVec 32 := 512#32
  let v3 : BitVec 32 := Scalar.muli v2 c512_i32
  let c0_i32 : BitVec 32 := 0#32
  let v4 : BitVec 32 := Scalar.addi v3 c0_i32
  let c0_i32_1006_r2 : BitVec 32 := 0#32
  ![v4.toNat, 0]

def k0_chk1 (v6 : IVec S16 32) (v7 : IVec S16 32) : Prop :=
  (∀ a x, ((![v6, v7] : Fin 2 → IVec S16 32) a x).toNat < S128x200.size a)
instance k0_chk1.dec : ∀ (v6 : IVec S16 32) (v7 : IVec S16 32), Decidable (k0_chk1 v6 v7) := fun v6 v7 => decidable_of_iff' _ (Iff.of_eq (k0_chk1.eq_1 v6 v7))
theorem k0_idx1_inb : ∀ (v6 : IVec S16 32) (v7 : IVec S16 32) (k0_hw1 : k0_chk1 v6 v7), ∀ a x, ((![v6, v7] : Fin 2 → IVec S16 32) a x).toNat < S128x200.size a := fun v6 v7 k0_hw1 => k0_hw1

def k0_chk2 (v6 : IVec S16 32) (v9 : IVec S16 32) : Prop :=
  (∀ a x, ((![v6, v9] : Fin 2 → IVec S16 32) a x).toNat < S128x200.size a)
instance k0_chk2.dec : ∀ (v6 : IVec S16 32) (v9 : IVec S16 32), Decidable (k0_chk2 v6 v9) := fun v6 v9 => decidable_of_iff' _ (Iff.of_eq (k0_chk2.eq_1 v6 v9))
theorem k0_idx2_inb : ∀ (v6 : IVec S16 32) (v9 : IVec S16 32) (k0_hw2 : k0_chk2 v6 v9), ∀ a x, ((![v6, v9] : Fin 2 → IVec S16 32) a x).toNat < S128x200.size a := fun v6 v9 k0_hw2 => k0_hw2

def k0_chk3 (v6 : IVec S16 32) (v11 : IVec S16 32) : Prop :=
  (∀ a x, ((![v6, v11] : Fin 2 → IVec S16 32) a x).toNat < S128x200.size a)
instance k0_chk3.dec : ∀ (v6 : IVec S16 32) (v11 : IVec S16 32), Decidable (k0_chk3 v6 v11) := fun v6 v11 => decidable_of_iff' _ (Iff.of_eq (k0_chk3.eq_1 v6 v11))
theorem k0_idx3_inb : ∀ (v6 : IVec S16 32) (v11 : IVec S16 32) (k0_hw3 : k0_chk3 v6 v11), ∀ a x, ((![v6, v11] : Fin 2 → IVec S16 32) a x).toNat < S128x200.size a := fun v6 v11 k0_hw3 => k0_hw3
@[reducible] def k0_t1_loop : Scf.Loop 32 :=
  let c0_i32_2 : BitVec 32 := 0#32
  let c25_i32 : BitVec 32 := 25#32
  let v15 : BitVec 32 := Scalar.addi c0_i32_2 c25_i32
  let c1_i32 : BitVec 32 := 1#32
  ⟨c0_i32_2, v15, c1_i32⟩

def k0_chk4 (v6 : IVec S16 32) (arg10 : IVec S16 32) : Prop :=
  (∀ a x, ((![v6, arg10] : Fin 2 → IVec S16 32) a x).toNat < S128x200.size a)
instance k0_chk4.dec : ∀ (v6 : IVec S16 32) (arg10 : IVec S16 32), Decidable (k0_chk4 v6 arg10) := fun v6 arg10 => decidable_of_iff' _ (Iff.of_eq (k0_chk4.eq_1 v6 arg10))
theorem k0_idx4_inb : ∀ (v6 : IVec S16 32) (arg10 : IVec S16 32) (k0_hw4 : k0_chk4 v6 arg10), ∀ a x, ((![v6, arg10] : Fin 2 → IVec S16 32) a x).toNat < S128x200.size a := fun v6 arg10 k0_hw4 => k0_hw4

def k0_chk5 (v2027 : IVec S16 32) : Prop :=
  (∀ a x, ((![v2027] : Fin 1 → IVec S16 32) a x).toNat < S32.size a)
instance k0_chk5.dec : ∀ (v2027 : IVec S16 32), Decidable (k0_chk5 v2027) := fun v2027 => decidable_of_iff' _ (Iff.of_eq (k0_chk5.eq_1 v2027))
theorem k0_idx5_inb : ∀ (v2027 : IVec S16 32) (k0_hw5 : k0_chk5 v2027), ∀ a x, ((![v2027] : Fin 1 → IVec S16 32) a x).toNat < S32.size a := fun v2027 k0_hw5 => k0_hw5

def k0_chk6 (v6 : IVec S16 32) (v2039 : IVec S16 32) : Prop :=
  (∀ a x, ((![v6, v2039] : Fin 2 → IVec S16 32) a x).toNat < S128x200.size a)
instance k0_chk6.dec : ∀ (v6 : IVec S16 32) (v2039 : IVec S16 32), Decidable (k0_chk6 v6 v2039) := fun v6 v2039 => decidable_of_iff' _ (Iff.of_eq (k0_chk6.eq_1 v6 v2039))
theorem k0_idx6_inb : ∀ (v6 : IVec S16 32) (v2039 : IVec S16 32) (k0_hw6 : k0_chk6 v6 v2039), ∀ a x, ((![v6, v2039] : Fin 2 → IVec S16 32) a x).toNat < S128x200.size a := fun v6 v2039 k0_hw6 => k0_hw6

def k0_chk7 (v2040 : IVec S16 32) : Prop :=
  (∀ a x, ((![v2040] : Fin 1 → IVec S16 32) a x).toNat < S32.size a)
instance k0_chk7.dec : ∀ (v2040 : IVec S16 32), Decidable (k0_chk7 v2040) := fun v2040 => decidable_of_iff' _ (Iff.of_eq (k0_chk7.eq_1 v2040))
theorem k0_idx7_inb : ∀ (v2040 : IVec S16 32) (k0_hw7 : k0_chk7 v2040), ∀ a x, ((![v2040] : Fin 1 → IVec S16 32) a x).toNat < S32.size a := fun v2040 k0_hw7 => k0_hw7

def k0_chk8 (v6 : IVec S16 32) (v2052 : IVec S16 32) : Prop :=
  (∀ a x, ((![v6, v2052] : Fin 2 → IVec S16 32) a x).toNat < S128x200.size a)
instance k0_chk8.dec : ∀ (v6 : IVec S16 32) (v2052 : IVec S16 32), Decidable (k0_chk8 v6 v2052) := fun v6 v2052 => decidable_of_iff' _ (Iff.of_eq (k0_chk8.eq_1 v6 v2052))
theorem k0_idx8_inb : ∀ (v6 : IVec S16 32) (v2052 : IVec S16 32) (k0_hw8 : k0_chk8 v6 v2052), ∀ a x, ((![v6, v2052] : Fin 2 → IVec S16 32) a x).toNat < S128x200.size a := fun v6 v2052 k0_hw8 => k0_hw8

def k0_chk9 (v2053 : IVec S16 32) : Prop :=
  (∀ a x, ((![v2053] : Fin 1 → IVec S16 32) a x).toNat < S32.size a)
instance k0_chk9.dec : ∀ (v2053 : IVec S16 32), Decidable (k0_chk9 v2053) := fun v2053 => decidable_of_iff' _ (Iff.of_eq (k0_chk9.eq_1 v2053))
theorem k0_idx9_inb : ∀ (v2053 : IVec S16 32) (k0_hw9 : k0_chk9 v2053), ∀ a x, ((![v2053] : Fin 1 → IVec S16 32) a x).toNat < S32.size a := fun v2053 k0_hw9 => k0_hw9

def k0_chk10 (v6 : IVec S16 32) (v2065 : IVec S16 32) : Prop :=
  (∀ a x, ((![v6, v2065] : Fin 2 → IVec S16 32) a x).toNat < S128x200.size a)
instance k0_chk10.dec : ∀ (v6 : IVec S16 32) (v2065 : IVec S16 32), Decidable (k0_chk10 v6 v2065) := fun v6 v2065 => decidable_of_iff' _ (Iff.of_eq (k0_chk10.eq_1 v6 v2065))
theorem k0_idx10_inb : ∀ (v6 : IVec S16 32) (v2065 : IVec S16 32) (k0_hw10 : k0_chk10 v6 v2065), ∀ a x, ((![v6, v2065] : Fin 2 → IVec S16 32) a x).toNat < S128x200.size a := fun v6 v2065 k0_hw10 => k0_hw10

def k0_chk11 (v2066 : IVec S16 32) : Prop :=
  (∀ a x, ((![v2066] : Fin 1 → IVec S16 32) a x).toNat < S32.size a)
instance k0_chk11.dec : ∀ (v2066 : IVec S16 32), Decidable (k0_chk11 v2066) := fun v2066 => decidable_of_iff' _ (Iff.of_eq (k0_chk11.eq_1 v2066))
theorem k0_idx11_inb : ∀ (v2066 : IVec S16 32) (k0_hw11 : k0_chk11 v2066), ∀ a x, ((![v2066] : Fin 1 → IVec S16 32) a x).toNat < S32.size a := fun v2066 k0_hw11 => k0_hw11

def k0_chk12 (v6 : IVec S16 32) (v2078 : IVec S16 32) : Prop :=
  (∀ a x, ((![v6, v2078] : Fin 2 → IVec S16 32) a x).toNat < S128x200.size a)
instance k0_chk12.dec : ∀ (v6 : IVec S16 32) (v2078 : IVec S16 32), Decidable (k0_chk12 v6 v2078) := fun v6 v2078 => decidable_of_iff' _ (Iff.of_eq (k0_chk12.eq_1 v6 v2078))
theorem k0_idx12_inb : ∀ (v6 : IVec S16 32) (v2078 : IVec S16 32) (k0_hw12 : k0_chk12 v6 v2078), ∀ a x, ((![v6, v2078] : Fin 2 → IVec S16 32) a x).toNat < S128x200.size a := fun v6 v2078 k0_hw12 => k0_hw12

def k0_chk13 (v2079 : IVec S16 32) : Prop :=
  (∀ a x, ((![v2079] : Fin 1 → IVec S16 32) a x).toNat < S32.size a)
instance k0_chk13.dec : ∀ (v2079 : IVec S16 32), Decidable (k0_chk13 v2079) := fun v2079 => decidable_of_iff' _ (Iff.of_eq (k0_chk13.eq_1 v2079))
theorem k0_idx13_inb : ∀ (v2079 : IVec S16 32) (k0_hw13 : k0_chk13 v2079), ∀ a x, ((![v2079] : Fin 1 → IVec S16 32) a x).toNat < S32.size a := fun v2079 k0_hw13 => k0_hw13

def k0_chk14 (v6 : IVec S16 32) (v2091 : IVec S16 32) : Prop :=
  (∀ a x, ((![v6, v2091] : Fin 2 → IVec S16 32) a x).toNat < S128x200.size a)
instance k0_chk14.dec : ∀ (v6 : IVec S16 32) (v2091 : IVec S16 32), Decidable (k0_chk14 v6 v2091) := fun v6 v2091 => decidable_of_iff' _ (Iff.of_eq (k0_chk14.eq_1 v6 v2091))
theorem k0_idx14_inb : ∀ (v6 : IVec S16 32) (v2091 : IVec S16 32) (k0_hw14 : k0_chk14 v6 v2091), ∀ a x, ((![v6, v2091] : Fin 2 → IVec S16 32) a x).toNat < S128x200.size a := fun v6 v2091 k0_hw14 => k0_hw14

def k0_chk15 (v2092 : IVec S16 32) : Prop :=
  (∀ a x, ((![v2092] : Fin 1 → IVec S16 32) a x).toNat < S32.size a)
instance k0_chk15.dec : ∀ (v2092 : IVec S16 32), Decidable (k0_chk15 v2092) := fun v2092 => decidable_of_iff' _ (Iff.of_eq (k0_chk15.eq_1 v2092))
theorem k0_idx15_inb : ∀ (v2092 : IVec S16 32) (k0_hw15 : k0_chk15 v2092), ∀ a x, ((![v2092] : Fin 1 → IVec S16 32) a x).toNat < S32.size a := fun v2092 k0_hw15 => k0_hw15

def k0_chk16 (v6 : IVec S16 32) (v2104 : IVec S16 32) : Prop :=
  (∀ a x, ((![v6, v2104] : Fin 2 → IVec S16 32) a x).toNat < S128x200.size a)
instance k0_chk16.dec : ∀ (v6 : IVec S16 32) (v2104 : IVec S16 32), Decidable (k0_chk16 v6 v2104) := fun v6 v2104 => decidable_of_iff' _ (Iff.of_eq (k0_chk16.eq_1 v6 v2104))
theorem k0_idx16_inb : ∀ (v6 : IVec S16 32) (v2104 : IVec S16 32) (k0_hw16 : k0_chk16 v6 v2104), ∀ a x, ((![v6, v2104] : Fin 2 → IVec S16 32) a x).toNat < S128x200.size a := fun v6 v2104 k0_hw16 => k0_hw16

def k0_chk17 (v2105 : IVec S16 32) : Prop :=
  (∀ a x, ((![v2105] : Fin 1 → IVec S16 32) a x).toNat < S32.size a)
instance k0_chk17.dec : ∀ (v2105 : IVec S16 32), Decidable (k0_chk17 v2105) := fun v2105 => decidable_of_iff' _ (Iff.of_eq (k0_chk17.eq_1 v2105))
theorem k0_idx17_inb : ∀ (v2105 : IVec S16 32) (k0_hw17 : k0_chk17 v2105), ∀ a x, ((![v2105] : Fin 1 → IVec S16 32) a x).toNat < S32.size a := fun v2105 k0_hw17 => k0_hw17

def k0_chk18 (v6 : IVec S16 32) (v2117 : IVec S16 32) : Prop :=
  (∀ a x, ((![v6, v2117] : Fin 2 → IVec S16 32) a x).toNat < S128x200.size a)
instance k0_chk18.dec : ∀ (v6 : IVec S16 32) (v2117 : IVec S16 32), Decidable (k0_chk18 v6 v2117) := fun v6 v2117 => decidable_of_iff' _ (Iff.of_eq (k0_chk18.eq_1 v6 v2117))
theorem k0_idx18_inb : ∀ (v6 : IVec S16 32) (v2117 : IVec S16 32) (k0_hw18 : k0_chk18 v6 v2117), ∀ a x, ((![v6, v2117] : Fin 2 → IVec S16 32) a x).toNat < S128x200.size a := fun v6 v2117 k0_hw18 => k0_hw18

def k0_chk19 (v2118 : IVec S16 32) : Prop :=
  (∀ a x, ((![v2118] : Fin 1 → IVec S16 32) a x).toNat < S32.size a)
instance k0_chk19.dec : ∀ (v2118 : IVec S16 32), Decidable (k0_chk19 v2118) := fun v2118 => decidable_of_iff' _ (Iff.of_eq (k0_chk19.eq_1 v2118))
theorem k0_idx19_inb : ∀ (v2118 : IVec S16 32) (k0_hw19 : k0_chk19 v2118), ∀ a x, ((![v2118] : Fin 1 → IVec S16 32) a x).toNat < S32.size a := fun v2118 k0_hw19 => k0_hw19

def k0_chk20 (v6 : IVec S16 32) (v65 : IVec S16 32) : Prop :=
  (∀ a x, ((![v6, v65] : Fin 2 → IVec S16 32) a x).toNat < S128x32.size a)
instance k0_chk20.dec : ∀ (v6 : IVec S16 32) (v65 : IVec S16 32), Decidable (k0_chk20 v6 v65) := fun v6 v65 => decidable_of_iff' _ (Iff.of_eq (k0_chk20.eq_1 v6 v65))
theorem k0_idx20_inb : ∀ (v6 : IVec S16 32) (v65 : IVec S16 32) (k0_hw20 : k0_chk20 v6 v65), ∀ a x, ((![v6, v65] : Fin 2 → IVec S16 32) a x).toNat < S128x32.size a := fun v6 v65 k0_hw20 => k0_hw20

def k0_chk21 (v6 : IVec S16 32) (v8 : IVec S16 32) : Prop :=
  (∀ a x, ((![v6, v8] : Fin 2 → IVec S16 32) a x).toNat < S128x32.size a)
instance k0_chk21.dec : ∀ (v6 : IVec S16 32) (v8 : IVec S16 32), Decidable (k0_chk21 v6 v8) := fun v6 v8 => decidable_of_iff' _ (Iff.of_eq (k0_chk21.eq_1 v6 v8))
theorem k0_idx21_inb : ∀ (v6 : IVec S16 32) (v8 : IVec S16 32) (k0_hw21 : k0_chk21 v6 v8), ∀ a x, ((![v6, v8] : Fin 2 → IVec S16 32) a x).toNat < S128x32.size a := fun v6 v8 k0_hw21 => k0_hw21

def k0_chk22 (v6 : IVec S16 32) (v66 : IVec S16 32) : Prop :=
  (∀ a x, ((![v6, v66] : Fin 2 → IVec S16 32) a x).toNat < S128x32.size a)
instance k0_chk22.dec : ∀ (v6 : IVec S16 32) (v66 : IVec S16 32), Decidable (k0_chk22 v6 v66) := fun v6 v66 => decidable_of_iff' _ (Iff.of_eq (k0_chk22.eq_1 v6 v66))
theorem k0_idx22_inb : ∀ (v6 : IVec S16 32) (v66 : IVec S16 32) (k0_hw22 : k0_chk22 v6 v66), ∀ a x, ((![v6, v66] : Fin 2 → IVec S16 32) a x).toNat < S128x32.size a := fun v6 v66 k0_hw22 => k0_hw22

def k0_chk23 (v6 : IVec S16 32) (v67 : IVec S16 32) : Prop :=
  (∀ a x, ((![v6, v67] : Fin 2 → IVec S16 32) a x).toNat < S128x32.size a)
instance k0_chk23.dec : ∀ (v6 : IVec S16 32) (v67 : IVec S16 32), Decidable (k0_chk23 v6 v67) := fun v6 v67 => decidable_of_iff' _ (Iff.of_eq (k0_chk23.eq_1 v6 v67))
theorem k0_idx23_inb : ∀ (v6 : IVec S16 32) (v67 : IVec S16 32) (k0_hw23 : k0_chk23 v6 v67), ∀ a x, ((![v6, v67] : Fin 2 → IVec S16 32) a x).toNat < S128x32.size a := fun v6 v67 k0_hw23 => k0_hw23

def k0_chk24 (v69 : IVec S16 32) (v70 : IVec S16 32) : Prop :=
  (∀ a x, ((![v69, v70] : Fin 2 → IVec S16 32) a x).toNat < S128x200.size a)
instance k0_chk24.dec : ∀ (v69 : IVec S16 32) (v70 : IVec S16 32), Decidable (k0_chk24 v69 v70) := fun v69 v70 => decidable_of_iff' _ (Iff.of_eq (k0_chk24.eq_1 v69 v70))
theorem k0_idx24_inb : ∀ (v69 : IVec S16 32) (v70 : IVec S16 32) (k0_hw24 : k0_chk24 v69 v70), ∀ a x, ((![v69, v70] : Fin 2 → IVec S16 32) a x).toNat < S128x200.size a := fun v69 v70 k0_hw24 => k0_hw24

def k0_chk25 (v69 : IVec S16 32) (v72 : IVec S16 32) : Prop :=
  (∀ a x, ((![v69, v72] : Fin 2 → IVec S16 32) a x).toNat < S128x200.size a)
instance k0_chk25.dec : ∀ (v69 : IVec S16 32) (v72 : IVec S16 32), Decidable (k0_chk25 v69 v72) := fun v69 v72 => decidable_of_iff' _ (Iff.of_eq (k0_chk25.eq_1 v69 v72))
theorem k0_idx25_inb : ∀ (v69 : IVec S16 32) (v72 : IVec S16 32) (k0_hw25 : k0_chk25 v69 v72), ∀ a x, ((![v69, v72] : Fin 2 → IVec S16 32) a x).toNat < S128x200.size a := fun v69 v72 k0_hw25 => k0_hw25

def k0_chk26 (v69 : IVec S16 32) (v74 : IVec S16 32) : Prop :=
  (∀ a x, ((![v69, v74] : Fin 2 → IVec S16 32) a x).toNat < S128x200.size a)
instance k0_chk26.dec : ∀ (v69 : IVec S16 32) (v74 : IVec S16 32), Decidable (k0_chk26 v69 v74) := fun v69 v74 => decidable_of_iff' _ (Iff.of_eq (k0_chk26.eq_1 v69 v74))
theorem k0_idx26_inb : ∀ (v69 : IVec S16 32) (v74 : IVec S16 32) (k0_hw26 : k0_chk26 v69 v74), ∀ a x, ((![v69, v74] : Fin 2 → IVec S16 32) a x).toNat < S128x200.size a := fun v69 v74 k0_hw26 => k0_hw26
@[reducible] def k0_t2_loop : Scf.Loop 32 :=
  let c0_i32_23 : BitVec 32 := 0#32
  let c25_i32_24 : BitVec 32 := 25#32
  let v78 : BitVec 32 := Scalar.addi c0_i32_23 c25_i32_24
  let c1_i32_25 : BitVec 32 := 1#32
  ⟨c0_i32_23, v78, c1_i32_25⟩

def k0_chk27 (v69 : IVec S16 32) (arg10 : IVec S16 32) : Prop :=
  (∀ a x, ((![v69, arg10] : Fin 2 → IVec S16 32) a x).toNat < S128x200.size a)
instance k0_chk27.dec : ∀ (v69 : IVec S16 32) (arg10 : IVec S16 32), Decidable (k0_chk27 v69 arg10) := fun v69 arg10 => decidable_of_iff' _ (Iff.of_eq (k0_chk27.eq_1 v69 arg10))
theorem k0_idx27_inb : ∀ (v69 : IVec S16 32) (arg10 : IVec S16 32) (k0_hw27 : k0_chk27 v69 arg10), ∀ a x, ((![v69, arg10] : Fin 2 → IVec S16 32) a x).toNat < S128x200.size a := fun v69 arg10 k0_hw27 => k0_hw27

def k0_chk28 (v2027 : IVec S16 32) : Prop :=
  (∀ a x, ((![v2027] : Fin 1 → IVec S16 32) a x).toNat < S32.size a)
instance k0_chk28.dec : ∀ (v2027 : IVec S16 32), Decidable (k0_chk28 v2027) := fun v2027 => decidable_of_iff' _ (Iff.of_eq (k0_chk28.eq_1 v2027))
theorem k0_idx28_inb : ∀ (v2027 : IVec S16 32) (k0_hw28 : k0_chk28 v2027), ∀ a x, ((![v2027] : Fin 1 → IVec S16 32) a x).toNat < S32.size a := fun v2027 k0_hw28 => k0_hw28

def k0_chk29 (v69 : IVec S16 32) (v2039 : IVec S16 32) : Prop :=
  (∀ a x, ((![v69, v2039] : Fin 2 → IVec S16 32) a x).toNat < S128x200.size a)
instance k0_chk29.dec : ∀ (v69 : IVec S16 32) (v2039 : IVec S16 32), Decidable (k0_chk29 v69 v2039) := fun v69 v2039 => decidable_of_iff' _ (Iff.of_eq (k0_chk29.eq_1 v69 v2039))
theorem k0_idx29_inb : ∀ (v69 : IVec S16 32) (v2039 : IVec S16 32) (k0_hw29 : k0_chk29 v69 v2039), ∀ a x, ((![v69, v2039] : Fin 2 → IVec S16 32) a x).toNat < S128x200.size a := fun v69 v2039 k0_hw29 => k0_hw29

def k0_chk30 (v2040 : IVec S16 32) : Prop :=
  (∀ a x, ((![v2040] : Fin 1 → IVec S16 32) a x).toNat < S32.size a)
instance k0_chk30.dec : ∀ (v2040 : IVec S16 32), Decidable (k0_chk30 v2040) := fun v2040 => decidable_of_iff' _ (Iff.of_eq (k0_chk30.eq_1 v2040))
theorem k0_idx30_inb : ∀ (v2040 : IVec S16 32) (k0_hw30 : k0_chk30 v2040), ∀ a x, ((![v2040] : Fin 1 → IVec S16 32) a x).toNat < S32.size a := fun v2040 k0_hw30 => k0_hw30

def k0_chk31 (v69 : IVec S16 32) (v2052 : IVec S16 32) : Prop :=
  (∀ a x, ((![v69, v2052] : Fin 2 → IVec S16 32) a x).toNat < S128x200.size a)
instance k0_chk31.dec : ∀ (v69 : IVec S16 32) (v2052 : IVec S16 32), Decidable (k0_chk31 v69 v2052) := fun v69 v2052 => decidable_of_iff' _ (Iff.of_eq (k0_chk31.eq_1 v69 v2052))
theorem k0_idx31_inb : ∀ (v69 : IVec S16 32) (v2052 : IVec S16 32) (k0_hw31 : k0_chk31 v69 v2052), ∀ a x, ((![v69, v2052] : Fin 2 → IVec S16 32) a x).toNat < S128x200.size a := fun v69 v2052 k0_hw31 => k0_hw31

def k0_chk32 (v2053 : IVec S16 32) : Prop :=
  (∀ a x, ((![v2053] : Fin 1 → IVec S16 32) a x).toNat < S32.size a)
instance k0_chk32.dec : ∀ (v2053 : IVec S16 32), Decidable (k0_chk32 v2053) := fun v2053 => decidable_of_iff' _ (Iff.of_eq (k0_chk32.eq_1 v2053))
theorem k0_idx32_inb : ∀ (v2053 : IVec S16 32) (k0_hw32 : k0_chk32 v2053), ∀ a x, ((![v2053] : Fin 1 → IVec S16 32) a x).toNat < S32.size a := fun v2053 k0_hw32 => k0_hw32

def k0_chk33 (v69 : IVec S16 32) (v2065 : IVec S16 32) : Prop :=
  (∀ a x, ((![v69, v2065] : Fin 2 → IVec S16 32) a x).toNat < S128x200.size a)
instance k0_chk33.dec : ∀ (v69 : IVec S16 32) (v2065 : IVec S16 32), Decidable (k0_chk33 v69 v2065) := fun v69 v2065 => decidable_of_iff' _ (Iff.of_eq (k0_chk33.eq_1 v69 v2065))
theorem k0_idx33_inb : ∀ (v69 : IVec S16 32) (v2065 : IVec S16 32) (k0_hw33 : k0_chk33 v69 v2065), ∀ a x, ((![v69, v2065] : Fin 2 → IVec S16 32) a x).toNat < S128x200.size a := fun v69 v2065 k0_hw33 => k0_hw33

def k0_chk34 (v2066 : IVec S16 32) : Prop :=
  (∀ a x, ((![v2066] : Fin 1 → IVec S16 32) a x).toNat < S32.size a)
instance k0_chk34.dec : ∀ (v2066 : IVec S16 32), Decidable (k0_chk34 v2066) := fun v2066 => decidable_of_iff' _ (Iff.of_eq (k0_chk34.eq_1 v2066))
theorem k0_idx34_inb : ∀ (v2066 : IVec S16 32) (k0_hw34 : k0_chk34 v2066), ∀ a x, ((![v2066] : Fin 1 → IVec S16 32) a x).toNat < S32.size a := fun v2066 k0_hw34 => k0_hw34

def k0_chk35 (v69 : IVec S16 32) (v2078 : IVec S16 32) : Prop :=
  (∀ a x, ((![v69, v2078] : Fin 2 → IVec S16 32) a x).toNat < S128x200.size a)
instance k0_chk35.dec : ∀ (v69 : IVec S16 32) (v2078 : IVec S16 32), Decidable (k0_chk35 v69 v2078) := fun v69 v2078 => decidable_of_iff' _ (Iff.of_eq (k0_chk35.eq_1 v69 v2078))
theorem k0_idx35_inb : ∀ (v69 : IVec S16 32) (v2078 : IVec S16 32) (k0_hw35 : k0_chk35 v69 v2078), ∀ a x, ((![v69, v2078] : Fin 2 → IVec S16 32) a x).toNat < S128x200.size a := fun v69 v2078 k0_hw35 => k0_hw35

def k0_chk36 (v2079 : IVec S16 32) : Prop :=
  (∀ a x, ((![v2079] : Fin 1 → IVec S16 32) a x).toNat < S32.size a)
instance k0_chk36.dec : ∀ (v2079 : IVec S16 32), Decidable (k0_chk36 v2079) := fun v2079 => decidable_of_iff' _ (Iff.of_eq (k0_chk36.eq_1 v2079))
theorem k0_idx36_inb : ∀ (v2079 : IVec S16 32) (k0_hw36 : k0_chk36 v2079), ∀ a x, ((![v2079] : Fin 1 → IVec S16 32) a x).toNat < S32.size a := fun v2079 k0_hw36 => k0_hw36

def k0_chk37 (v69 : IVec S16 32) (v2091 : IVec S16 32) : Prop :=
  (∀ a x, ((![v69, v2091] : Fin 2 → IVec S16 32) a x).toNat < S128x200.size a)
instance k0_chk37.dec : ∀ (v69 : IVec S16 32) (v2091 : IVec S16 32), Decidable (k0_chk37 v69 v2091) := fun v69 v2091 => decidable_of_iff' _ (Iff.of_eq (k0_chk37.eq_1 v69 v2091))
theorem k0_idx37_inb : ∀ (v69 : IVec S16 32) (v2091 : IVec S16 32) (k0_hw37 : k0_chk37 v69 v2091), ∀ a x, ((![v69, v2091] : Fin 2 → IVec S16 32) a x).toNat < S128x200.size a := fun v69 v2091 k0_hw37 => k0_hw37

def k0_chk38 (v2092 : IVec S16 32) : Prop :=
  (∀ a x, ((![v2092] : Fin 1 → IVec S16 32) a x).toNat < S32.size a)
instance k0_chk38.dec : ∀ (v2092 : IVec S16 32), Decidable (k0_chk38 v2092) := fun v2092 => decidable_of_iff' _ (Iff.of_eq (k0_chk38.eq_1 v2092))
theorem k0_idx38_inb : ∀ (v2092 : IVec S16 32) (k0_hw38 : k0_chk38 v2092), ∀ a x, ((![v2092] : Fin 1 → IVec S16 32) a x).toNat < S32.size a := fun v2092 k0_hw38 => k0_hw38

def k0_chk39 (v69 : IVec S16 32) (v2104 : IVec S16 32) : Prop :=
  (∀ a x, ((![v69, v2104] : Fin 2 → IVec S16 32) a x).toNat < S128x200.size a)
instance k0_chk39.dec : ∀ (v69 : IVec S16 32) (v2104 : IVec S16 32), Decidable (k0_chk39 v69 v2104) := fun v69 v2104 => decidable_of_iff' _ (Iff.of_eq (k0_chk39.eq_1 v69 v2104))
theorem k0_idx39_inb : ∀ (v69 : IVec S16 32) (v2104 : IVec S16 32) (k0_hw39 : k0_chk39 v69 v2104), ∀ a x, ((![v69, v2104] : Fin 2 → IVec S16 32) a x).toNat < S128x200.size a := fun v69 v2104 k0_hw39 => k0_hw39

def k0_chk40 (v2105 : IVec S16 32) : Prop :=
  (∀ a x, ((![v2105] : Fin 1 → IVec S16 32) a x).toNat < S32.size a)
instance k0_chk40.dec : ∀ (v2105 : IVec S16 32), Decidable (k0_chk40 v2105) := fun v2105 => decidable_of_iff' _ (Iff.of_eq (k0_chk40.eq_1 v2105))
theorem k0_idx40_inb : ∀ (v2105 : IVec S16 32) (k0_hw40 : k0_chk40 v2105), ∀ a x, ((![v2105] : Fin 1 → IVec S16 32) a x).toNat < S32.size a := fun v2105 k0_hw40 => k0_hw40

def k0_chk41 (v69 : IVec S16 32) (v2117 : IVec S16 32) : Prop :=
  (∀ a x, ((![v69, v2117] : Fin 2 → IVec S16 32) a x).toNat < S128x200.size a)
instance k0_chk41.dec : ∀ (v69 : IVec S16 32) (v2117 : IVec S16 32), Decidable (k0_chk41 v69 v2117) := fun v69 v2117 => decidable_of_iff' _ (Iff.of_eq (k0_chk41.eq_1 v69 v2117))
theorem k0_idx41_inb : ∀ (v69 : IVec S16 32) (v2117 : IVec S16 32) (k0_hw41 : k0_chk41 v69 v2117), ∀ a x, ((![v69, v2117] : Fin 2 → IVec S16 32) a x).toNat < S128x200.size a := fun v69 v2117 k0_hw41 => k0_hw41

def k0_chk42 (v2118 : IVec S16 32) : Prop :=
  (∀ a x, ((![v2118] : Fin 1 → IVec S16 32) a x).toNat < S32.size a)
instance k0_chk42.dec : ∀ (v2118 : IVec S16 32), Decidable (k0_chk42 v2118) := fun v2118 => decidable_of_iff' _ (Iff.of_eq (k0_chk42.eq_1 v2118))
theorem k0_idx42_inb : ∀ (v2118 : IVec S16 32) (k0_hw42 : k0_chk42 v2118), ∀ a x, ((![v2118] : Fin 1 → IVec S16 32) a x).toNat < S32.size a := fun v2118 k0_hw42 => k0_hw42

def k0_chk43 (v69 : IVec S16 32) (v128 : IVec S16 32) : Prop :=
  (∀ a x, ((![v69, v128] : Fin 2 → IVec S16 32) a x).toNat < S128x32.size a)
instance k0_chk43.dec : ∀ (v69 : IVec S16 32) (v128 : IVec S16 32), Decidable (k0_chk43 v69 v128) := fun v69 v128 => decidable_of_iff' _ (Iff.of_eq (k0_chk43.eq_1 v69 v128))
theorem k0_idx43_inb : ∀ (v69 : IVec S16 32) (v128 : IVec S16 32) (k0_hw43 : k0_chk43 v69 v128), ∀ a x, ((![v69, v128] : Fin 2 → IVec S16 32) a x).toNat < S128x32.size a := fun v69 v128 k0_hw43 => k0_hw43

def k0_chk44 (v69 : IVec S16 32) (v71 : IVec S16 32) : Prop :=
  (∀ a x, ((![v69, v71] : Fin 2 → IVec S16 32) a x).toNat < S128x32.size a)
instance k0_chk44.dec : ∀ (v69 : IVec S16 32) (v71 : IVec S16 32), Decidable (k0_chk44 v69 v71) := fun v69 v71 => decidable_of_iff' _ (Iff.of_eq (k0_chk44.eq_1 v69 v71))
theorem k0_idx44_inb : ∀ (v69 : IVec S16 32) (v71 : IVec S16 32) (k0_hw44 : k0_chk44 v69 v71), ∀ a x, ((![v69, v71] : Fin 2 → IVec S16 32) a x).toNat < S128x32.size a := fun v69 v71 k0_hw44 => k0_hw44

def k0_chk45 (v69 : IVec S16 32) (v129 : IVec S16 32) : Prop :=
  (∀ a x, ((![v69, v129] : Fin 2 → IVec S16 32) a x).toNat < S128x32.size a)
instance k0_chk45.dec : ∀ (v69 : IVec S16 32) (v129 : IVec S16 32), Decidable (k0_chk45 v69 v129) := fun v69 v129 => decidable_of_iff' _ (Iff.of_eq (k0_chk45.eq_1 v69 v129))
theorem k0_idx45_inb : ∀ (v69 : IVec S16 32) (v129 : IVec S16 32) (k0_hw45 : k0_chk45 v69 v129), ∀ a x, ((![v69, v129] : Fin 2 → IVec S16 32) a x).toNat < S128x32.size a := fun v69 v129 k0_hw45 => k0_hw45

def k0_chk46 (v69 : IVec S16 32) (v130 : IVec S16 32) : Prop :=
  (∀ a x, ((![v69, v130] : Fin 2 → IVec S16 32) a x).toNat < S128x32.size a)
instance k0_chk46.dec : ∀ (v69 : IVec S16 32) (v130 : IVec S16 32), Decidable (k0_chk46 v69 v130) := fun v69 v130 => decidable_of_iff' _ (Iff.of_eq (k0_chk46.eq_1 v69 v130))
theorem k0_idx46_inb : ∀ (v69 : IVec S16 32) (v130 : IVec S16 32) (k0_hw46 : k0_chk46 v69 v130), ∀ a x, ((![v69, v130] : Fin 2 → IVec S16 32) a x).toNat < S128x32.size a := fun v69 v130 k0_hw46 => k0_hw46

def k0_chk47 (v132 : IVec S16 32) (v133 : IVec S16 32) : Prop :=
  (∀ a x, ((![v132, v133] : Fin 2 → IVec S16 32) a x).toNat < S128x200.size a)
instance k0_chk47.dec : ∀ (v132 : IVec S16 32) (v133 : IVec S16 32), Decidable (k0_chk47 v132 v133) := fun v132 v133 => decidable_of_iff' _ (Iff.of_eq (k0_chk47.eq_1 v132 v133))
theorem k0_idx47_inb : ∀ (v132 : IVec S16 32) (v133 : IVec S16 32) (k0_hw47 : k0_chk47 v132 v133), ∀ a x, ((![v132, v133] : Fin 2 → IVec S16 32) a x).toNat < S128x200.size a := fun v132 v133 k0_hw47 => k0_hw47

def k0_chk48 (v132 : IVec S16 32) (v135 : IVec S16 32) : Prop :=
  (∀ a x, ((![v132, v135] : Fin 2 → IVec S16 32) a x).toNat < S128x200.size a)
instance k0_chk48.dec : ∀ (v132 : IVec S16 32) (v135 : IVec S16 32), Decidable (k0_chk48 v132 v135) := fun v132 v135 => decidable_of_iff' _ (Iff.of_eq (k0_chk48.eq_1 v132 v135))
theorem k0_idx48_inb : ∀ (v132 : IVec S16 32) (v135 : IVec S16 32) (k0_hw48 : k0_chk48 v132 v135), ∀ a x, ((![v132, v135] : Fin 2 → IVec S16 32) a x).toNat < S128x200.size a := fun v132 v135 k0_hw48 => k0_hw48

def k0_chk49 (v132 : IVec S16 32) (v137 : IVec S16 32) : Prop :=
  (∀ a x, ((![v132, v137] : Fin 2 → IVec S16 32) a x).toNat < S128x200.size a)
instance k0_chk49.dec : ∀ (v132 : IVec S16 32) (v137 : IVec S16 32), Decidable (k0_chk49 v132 v137) := fun v132 v137 => decidable_of_iff' _ (Iff.of_eq (k0_chk49.eq_1 v132 v137))
theorem k0_idx49_inb : ∀ (v132 : IVec S16 32) (v137 : IVec S16 32) (k0_hw49 : k0_chk49 v132 v137), ∀ a x, ((![v132, v137] : Fin 2 → IVec S16 32) a x).toNat < S128x200.size a := fun v132 v137 k0_hw49 => k0_hw49
@[reducible] def k0_t3_loop : Scf.Loop 32 :=
  let c0_i32_54 : BitVec 32 := 0#32
  let c25_i32_55 : BitVec 32 := 25#32
  let v141 : BitVec 32 := Scalar.addi c0_i32_54 c25_i32_55
  let c1_i32_56 : BitVec 32 := 1#32
  ⟨c0_i32_54, v141, c1_i32_56⟩

def k0_chk50 (v132 : IVec S16 32) (arg10 : IVec S16 32) : Prop :=
  (∀ a x, ((![v132, arg10] : Fin 2 → IVec S16 32) a x).toNat < S128x200.size a)
instance k0_chk50.dec : ∀ (v132 : IVec S16 32) (arg10 : IVec S16 32), Decidable (k0_chk50 v132 arg10) := fun v132 arg10 => decidable_of_iff' _ (Iff.of_eq (k0_chk50.eq_1 v132 arg10))
theorem k0_idx50_inb : ∀ (v132 : IVec S16 32) (arg10 : IVec S16 32) (k0_hw50 : k0_chk50 v132 arg10), ∀ a x, ((![v132, arg10] : Fin 2 → IVec S16 32) a x).toNat < S128x200.size a := fun v132 arg10 k0_hw50 => k0_hw50

def k0_chk51 (v2027 : IVec S16 32) : Prop :=
  (∀ a x, ((![v2027] : Fin 1 → IVec S16 32) a x).toNat < S32.size a)
instance k0_chk51.dec : ∀ (v2027 : IVec S16 32), Decidable (k0_chk51 v2027) := fun v2027 => decidable_of_iff' _ (Iff.of_eq (k0_chk51.eq_1 v2027))
theorem k0_idx51_inb : ∀ (v2027 : IVec S16 32) (k0_hw51 : k0_chk51 v2027), ∀ a x, ((![v2027] : Fin 1 → IVec S16 32) a x).toNat < S32.size a := fun v2027 k0_hw51 => k0_hw51

def k0_chk52 (v132 : IVec S16 32) (v2039 : IVec S16 32) : Prop :=
  (∀ a x, ((![v132, v2039] : Fin 2 → IVec S16 32) a x).toNat < S128x200.size a)
instance k0_chk52.dec : ∀ (v132 : IVec S16 32) (v2039 : IVec S16 32), Decidable (k0_chk52 v132 v2039) := fun v132 v2039 => decidable_of_iff' _ (Iff.of_eq (k0_chk52.eq_1 v132 v2039))
theorem k0_idx52_inb : ∀ (v132 : IVec S16 32) (v2039 : IVec S16 32) (k0_hw52 : k0_chk52 v132 v2039), ∀ a x, ((![v132, v2039] : Fin 2 → IVec S16 32) a x).toNat < S128x200.size a := fun v132 v2039 k0_hw52 => k0_hw52

def k0_chk53 (v2040 : IVec S16 32) : Prop :=
  (∀ a x, ((![v2040] : Fin 1 → IVec S16 32) a x).toNat < S32.size a)
instance k0_chk53.dec : ∀ (v2040 : IVec S16 32), Decidable (k0_chk53 v2040) := fun v2040 => decidable_of_iff' _ (Iff.of_eq (k0_chk53.eq_1 v2040))
theorem k0_idx53_inb : ∀ (v2040 : IVec S16 32) (k0_hw53 : k0_chk53 v2040), ∀ a x, ((![v2040] : Fin 1 → IVec S16 32) a x).toNat < S32.size a := fun v2040 k0_hw53 => k0_hw53

def k0_chk54 (v132 : IVec S16 32) (v2052 : IVec S16 32) : Prop :=
  (∀ a x, ((![v132, v2052] : Fin 2 → IVec S16 32) a x).toNat < S128x200.size a)
instance k0_chk54.dec : ∀ (v132 : IVec S16 32) (v2052 : IVec S16 32), Decidable (k0_chk54 v132 v2052) := fun v132 v2052 => decidable_of_iff' _ (Iff.of_eq (k0_chk54.eq_1 v132 v2052))
theorem k0_idx54_inb : ∀ (v132 : IVec S16 32) (v2052 : IVec S16 32) (k0_hw54 : k0_chk54 v132 v2052), ∀ a x, ((![v132, v2052] : Fin 2 → IVec S16 32) a x).toNat < S128x200.size a := fun v132 v2052 k0_hw54 => k0_hw54

def k0_chk55 (v2053 : IVec S16 32) : Prop :=
  (∀ a x, ((![v2053] : Fin 1 → IVec S16 32) a x).toNat < S32.size a)
instance k0_chk55.dec : ∀ (v2053 : IVec S16 32), Decidable (k0_chk55 v2053) := fun v2053 => decidable_of_iff' _ (Iff.of_eq (k0_chk55.eq_1 v2053))
theorem k0_idx55_inb : ∀ (v2053 : IVec S16 32) (k0_hw55 : k0_chk55 v2053), ∀ a x, ((![v2053] : Fin 1 → IVec S16 32) a x).toNat < S32.size a := fun v2053 k0_hw55 => k0_hw55

def k0_chk56 (v132 : IVec S16 32) (v2065 : IVec S16 32) : Prop :=
  (∀ a x, ((![v132, v2065] : Fin 2 → IVec S16 32) a x).toNat < S128x200.size a)
instance k0_chk56.dec : ∀ (v132 : IVec S16 32) (v2065 : IVec S16 32), Decidable (k0_chk56 v132 v2065) := fun v132 v2065 => decidable_of_iff' _ (Iff.of_eq (k0_chk56.eq_1 v132 v2065))
theorem k0_idx56_inb : ∀ (v132 : IVec S16 32) (v2065 : IVec S16 32) (k0_hw56 : k0_chk56 v132 v2065), ∀ a x, ((![v132, v2065] : Fin 2 → IVec S16 32) a x).toNat < S128x200.size a := fun v132 v2065 k0_hw56 => k0_hw56

def k0_chk57 (v2066 : IVec S16 32) : Prop :=
  (∀ a x, ((![v2066] : Fin 1 → IVec S16 32) a x).toNat < S32.size a)
instance k0_chk57.dec : ∀ (v2066 : IVec S16 32), Decidable (k0_chk57 v2066) := fun v2066 => decidable_of_iff' _ (Iff.of_eq (k0_chk57.eq_1 v2066))
theorem k0_idx57_inb : ∀ (v2066 : IVec S16 32) (k0_hw57 : k0_chk57 v2066), ∀ a x, ((![v2066] : Fin 1 → IVec S16 32) a x).toNat < S32.size a := fun v2066 k0_hw57 => k0_hw57

def k0_chk58 (v132 : IVec S16 32) (v2078 : IVec S16 32) : Prop :=
  (∀ a x, ((![v132, v2078] : Fin 2 → IVec S16 32) a x).toNat < S128x200.size a)
instance k0_chk58.dec : ∀ (v132 : IVec S16 32) (v2078 : IVec S16 32), Decidable (k0_chk58 v132 v2078) := fun v132 v2078 => decidable_of_iff' _ (Iff.of_eq (k0_chk58.eq_1 v132 v2078))
theorem k0_idx58_inb : ∀ (v132 : IVec S16 32) (v2078 : IVec S16 32) (k0_hw58 : k0_chk58 v132 v2078), ∀ a x, ((![v132, v2078] : Fin 2 → IVec S16 32) a x).toNat < S128x200.size a := fun v132 v2078 k0_hw58 => k0_hw58

def k0_chk59 (v2079 : IVec S16 32) : Prop :=
  (∀ a x, ((![v2079] : Fin 1 → IVec S16 32) a x).toNat < S32.size a)
instance k0_chk59.dec : ∀ (v2079 : IVec S16 32), Decidable (k0_chk59 v2079) := fun v2079 => decidable_of_iff' _ (Iff.of_eq (k0_chk59.eq_1 v2079))
theorem k0_idx59_inb : ∀ (v2079 : IVec S16 32) (k0_hw59 : k0_chk59 v2079), ∀ a x, ((![v2079] : Fin 1 → IVec S16 32) a x).toNat < S32.size a := fun v2079 k0_hw59 => k0_hw59

def k0_chk60 (v132 : IVec S16 32) (v2091 : IVec S16 32) : Prop :=
  (∀ a x, ((![v132, v2091] : Fin 2 → IVec S16 32) a x).toNat < S128x200.size a)
instance k0_chk60.dec : ∀ (v132 : IVec S16 32) (v2091 : IVec S16 32), Decidable (k0_chk60 v132 v2091) := fun v132 v2091 => decidable_of_iff' _ (Iff.of_eq (k0_chk60.eq_1 v132 v2091))
theorem k0_idx60_inb : ∀ (v132 : IVec S16 32) (v2091 : IVec S16 32) (k0_hw60 : k0_chk60 v132 v2091), ∀ a x, ((![v132, v2091] : Fin 2 → IVec S16 32) a x).toNat < S128x200.size a := fun v132 v2091 k0_hw60 => k0_hw60

def k0_chk61 (v2092 : IVec S16 32) : Prop :=
  (∀ a x, ((![v2092] : Fin 1 → IVec S16 32) a x).toNat < S32.size a)
instance k0_chk61.dec : ∀ (v2092 : IVec S16 32), Decidable (k0_chk61 v2092) := fun v2092 => decidable_of_iff' _ (Iff.of_eq (k0_chk61.eq_1 v2092))
theorem k0_idx61_inb : ∀ (v2092 : IVec S16 32) (k0_hw61 : k0_chk61 v2092), ∀ a x, ((![v2092] : Fin 1 → IVec S16 32) a x).toNat < S32.size a := fun v2092 k0_hw61 => k0_hw61

def k0_chk62 (v132 : IVec S16 32) (v2104 : IVec S16 32) : Prop :=
  (∀ a x, ((![v132, v2104] : Fin 2 → IVec S16 32) a x).toNat < S128x200.size a)
instance k0_chk62.dec : ∀ (v132 : IVec S16 32) (v2104 : IVec S16 32), Decidable (k0_chk62 v132 v2104) := fun v132 v2104 => decidable_of_iff' _ (Iff.of_eq (k0_chk62.eq_1 v132 v2104))
theorem k0_idx62_inb : ∀ (v132 : IVec S16 32) (v2104 : IVec S16 32) (k0_hw62 : k0_chk62 v132 v2104), ∀ a x, ((![v132, v2104] : Fin 2 → IVec S16 32) a x).toNat < S128x200.size a := fun v132 v2104 k0_hw62 => k0_hw62

def k0_chk63 (v2105 : IVec S16 32) : Prop :=
  (∀ a x, ((![v2105] : Fin 1 → IVec S16 32) a x).toNat < S32.size a)
instance k0_chk63.dec : ∀ (v2105 : IVec S16 32), Decidable (k0_chk63 v2105) := fun v2105 => decidable_of_iff' _ (Iff.of_eq (k0_chk63.eq_1 v2105))
theorem k0_idx63_inb : ∀ (v2105 : IVec S16 32) (k0_hw63 : k0_chk63 v2105), ∀ a x, ((![v2105] : Fin 1 → IVec S16 32) a x).toNat < S32.size a := fun v2105 k0_hw63 => k0_hw63

def k0_chk64 (v132 : IVec S16 32) (v2117 : IVec S16 32) : Prop :=
  (∀ a x, ((![v132, v2117] : Fin 2 → IVec S16 32) a x).toNat < S128x200.size a)
instance k0_chk64.dec : ∀ (v132 : IVec S16 32) (v2117 : IVec S16 32), Decidable (k0_chk64 v132 v2117) := fun v132 v2117 => decidable_of_iff' _ (Iff.of_eq (k0_chk64.eq_1 v132 v2117))
theorem k0_idx64_inb : ∀ (v132 : IVec S16 32) (v2117 : IVec S16 32) (k0_hw64 : k0_chk64 v132 v2117), ∀ a x, ((![v132, v2117] : Fin 2 → IVec S16 32) a x).toNat < S128x200.size a := fun v132 v2117 k0_hw64 => k0_hw64

def k0_chk65 (v2118 : IVec S16 32) : Prop :=
  (∀ a x, ((![v2118] : Fin 1 → IVec S16 32) a x).toNat < S32.size a)
instance k0_chk65.dec : ∀ (v2118 : IVec S16 32), Decidable (k0_chk65 v2118) := fun v2118 => decidable_of_iff' _ (Iff.of_eq (k0_chk65.eq_1 v2118))
theorem k0_idx65_inb : ∀ (v2118 : IVec S16 32) (k0_hw65 : k0_chk65 v2118), ∀ a x, ((![v2118] : Fin 1 → IVec S16 32) a x).toNat < S32.size a := fun v2118 k0_hw65 => k0_hw65

def k0_chk66 (v132 : IVec S16 32) (v191 : IVec S16 32) : Prop :=
  (∀ a x, ((![v132, v191] : Fin 2 → IVec S16 32) a x).toNat < S128x32.size a)
instance k0_chk66.dec : ∀ (v132 : IVec S16 32) (v191 : IVec S16 32), Decidable (k0_chk66 v132 v191) := fun v132 v191 => decidable_of_iff' _ (Iff.of_eq (k0_chk66.eq_1 v132 v191))
theorem k0_idx66_inb : ∀ (v132 : IVec S16 32) (v191 : IVec S16 32) (k0_hw66 : k0_chk66 v132 v191), ∀ a x, ((![v132, v191] : Fin 2 → IVec S16 32) a x).toNat < S128x32.size a := fun v132 v191 k0_hw66 => k0_hw66

def k0_chk67 (v132 : IVec S16 32) (v134 : IVec S16 32) : Prop :=
  (∀ a x, ((![v132, v134] : Fin 2 → IVec S16 32) a x).toNat < S128x32.size a)
instance k0_chk67.dec : ∀ (v132 : IVec S16 32) (v134 : IVec S16 32), Decidable (k0_chk67 v132 v134) := fun v132 v134 => decidable_of_iff' _ (Iff.of_eq (k0_chk67.eq_1 v132 v134))
theorem k0_idx67_inb : ∀ (v132 : IVec S16 32) (v134 : IVec S16 32) (k0_hw67 : k0_chk67 v132 v134), ∀ a x, ((![v132, v134] : Fin 2 → IVec S16 32) a x).toNat < S128x32.size a := fun v132 v134 k0_hw67 => k0_hw67

def k0_chk68 (v132 : IVec S16 32) (v192 : IVec S16 32) : Prop :=
  (∀ a x, ((![v132, v192] : Fin 2 → IVec S16 32) a x).toNat < S128x32.size a)
instance k0_chk68.dec : ∀ (v132 : IVec S16 32) (v192 : IVec S16 32), Decidable (k0_chk68 v132 v192) := fun v132 v192 => decidable_of_iff' _ (Iff.of_eq (k0_chk68.eq_1 v132 v192))
theorem k0_idx68_inb : ∀ (v132 : IVec S16 32) (v192 : IVec S16 32) (k0_hw68 : k0_chk68 v132 v192), ∀ a x, ((![v132, v192] : Fin 2 → IVec S16 32) a x).toNat < S128x32.size a := fun v132 v192 k0_hw68 => k0_hw68

def k0_chk69 (v132 : IVec S16 32) (v193 : IVec S16 32) : Prop :=
  (∀ a x, ((![v132, v193] : Fin 2 → IVec S16 32) a x).toNat < S128x32.size a)
instance k0_chk69.dec : ∀ (v132 : IVec S16 32) (v193 : IVec S16 32), Decidable (k0_chk69 v132 v193) := fun v132 v193 => decidable_of_iff' _ (Iff.of_eq (k0_chk69.eq_1 v132 v193))
theorem k0_idx69_inb : ∀ (v132 : IVec S16 32) (v193 : IVec S16 32) (k0_hw69 : k0_chk69 v132 v193), ∀ a x, ((![v132, v193] : Fin 2 → IVec S16 32) a x).toNat < S128x32.size a := fun v132 v193 k0_hw69 => k0_hw69

def k0_chk70 (v195 : IVec S16 32) (v196 : IVec S16 32) : Prop :=
  (∀ a x, ((![v195, v196] : Fin 2 → IVec S16 32) a x).toNat < S128x200.size a)
instance k0_chk70.dec : ∀ (v195 : IVec S16 32) (v196 : IVec S16 32), Decidable (k0_chk70 v195 v196) := fun v195 v196 => decidable_of_iff' _ (Iff.of_eq (k0_chk70.eq_1 v195 v196))
theorem k0_idx70_inb : ∀ (v195 : IVec S16 32) (v196 : IVec S16 32) (k0_hw70 : k0_chk70 v195 v196), ∀ a x, ((![v195, v196] : Fin 2 → IVec S16 32) a x).toNat < S128x200.size a := fun v195 v196 k0_hw70 => k0_hw70

def k0_chk71 (v195 : IVec S16 32) (v198 : IVec S16 32) : Prop :=
  (∀ a x, ((![v195, v198] : Fin 2 → IVec S16 32) a x).toNat < S128x200.size a)
instance k0_chk71.dec : ∀ (v195 : IVec S16 32) (v198 : IVec S16 32), Decidable (k0_chk71 v195 v198) := fun v195 v198 => decidable_of_iff' _ (Iff.of_eq (k0_chk71.eq_1 v195 v198))
theorem k0_idx71_inb : ∀ (v195 : IVec S16 32) (v198 : IVec S16 32) (k0_hw71 : k0_chk71 v195 v198), ∀ a x, ((![v195, v198] : Fin 2 → IVec S16 32) a x).toNat < S128x200.size a := fun v195 v198 k0_hw71 => k0_hw71

def k0_chk72 (v195 : IVec S16 32) (v200 : IVec S16 32) : Prop :=
  (∀ a x, ((![v195, v200] : Fin 2 → IVec S16 32) a x).toNat < S128x200.size a)
instance k0_chk72.dec : ∀ (v195 : IVec S16 32) (v200 : IVec S16 32), Decidable (k0_chk72 v195 v200) := fun v195 v200 => decidable_of_iff' _ (Iff.of_eq (k0_chk72.eq_1 v195 v200))
theorem k0_idx72_inb : ∀ (v195 : IVec S16 32) (v200 : IVec S16 32) (k0_hw72 : k0_chk72 v195 v200), ∀ a x, ((![v195, v200] : Fin 2 → IVec S16 32) a x).toNat < S128x200.size a := fun v195 v200 k0_hw72 => k0_hw72
@[reducible] def k0_t4_loop : Scf.Loop 32 :=
  let c0_i32_85 : BitVec 32 := 0#32
  let c25_i32_86 : BitVec 32 := 25#32
  let v204 : BitVec 32 := Scalar.addi c0_i32_85 c25_i32_86
  let c1_i32_87 : BitVec 32 := 1#32
  ⟨c0_i32_85, v204, c1_i32_87⟩

def k0_chk73 (v195 : IVec S16 32) (arg10 : IVec S16 32) : Prop :=
  (∀ a x, ((![v195, arg10] : Fin 2 → IVec S16 32) a x).toNat < S128x200.size a)
instance k0_chk73.dec : ∀ (v195 : IVec S16 32) (arg10 : IVec S16 32), Decidable (k0_chk73 v195 arg10) := fun v195 arg10 => decidable_of_iff' _ (Iff.of_eq (k0_chk73.eq_1 v195 arg10))
theorem k0_idx73_inb : ∀ (v195 : IVec S16 32) (arg10 : IVec S16 32) (k0_hw73 : k0_chk73 v195 arg10), ∀ a x, ((![v195, arg10] : Fin 2 → IVec S16 32) a x).toNat < S128x200.size a := fun v195 arg10 k0_hw73 => k0_hw73

def k0_chk74 (v2027 : IVec S16 32) : Prop :=
  (∀ a x, ((![v2027] : Fin 1 → IVec S16 32) a x).toNat < S32.size a)
instance k0_chk74.dec : ∀ (v2027 : IVec S16 32), Decidable (k0_chk74 v2027) := fun v2027 => decidable_of_iff' _ (Iff.of_eq (k0_chk74.eq_1 v2027))
theorem k0_idx74_inb : ∀ (v2027 : IVec S16 32) (k0_hw74 : k0_chk74 v2027), ∀ a x, ((![v2027] : Fin 1 → IVec S16 32) a x).toNat < S32.size a := fun v2027 k0_hw74 => k0_hw74

def k0_chk75 (v195 : IVec S16 32) (v2039 : IVec S16 32) : Prop :=
  (∀ a x, ((![v195, v2039] : Fin 2 → IVec S16 32) a x).toNat < S128x200.size a)
instance k0_chk75.dec : ∀ (v195 : IVec S16 32) (v2039 : IVec S16 32), Decidable (k0_chk75 v195 v2039) := fun v195 v2039 => decidable_of_iff' _ (Iff.of_eq (k0_chk75.eq_1 v195 v2039))
theorem k0_idx75_inb : ∀ (v195 : IVec S16 32) (v2039 : IVec S16 32) (k0_hw75 : k0_chk75 v195 v2039), ∀ a x, ((![v195, v2039] : Fin 2 → IVec S16 32) a x).toNat < S128x200.size a := fun v195 v2039 k0_hw75 => k0_hw75

def k0_chk76 (v2040 : IVec S16 32) : Prop :=
  (∀ a x, ((![v2040] : Fin 1 → IVec S16 32) a x).toNat < S32.size a)
instance k0_chk76.dec : ∀ (v2040 : IVec S16 32), Decidable (k0_chk76 v2040) := fun v2040 => decidable_of_iff' _ (Iff.of_eq (k0_chk76.eq_1 v2040))
theorem k0_idx76_inb : ∀ (v2040 : IVec S16 32) (k0_hw76 : k0_chk76 v2040), ∀ a x, ((![v2040] : Fin 1 → IVec S16 32) a x).toNat < S32.size a := fun v2040 k0_hw76 => k0_hw76

def k0_chk77 (v195 : IVec S16 32) (v2052 : IVec S16 32) : Prop :=
  (∀ a x, ((![v195, v2052] : Fin 2 → IVec S16 32) a x).toNat < S128x200.size a)
instance k0_chk77.dec : ∀ (v195 : IVec S16 32) (v2052 : IVec S16 32), Decidable (k0_chk77 v195 v2052) := fun v195 v2052 => decidable_of_iff' _ (Iff.of_eq (k0_chk77.eq_1 v195 v2052))
theorem k0_idx77_inb : ∀ (v195 : IVec S16 32) (v2052 : IVec S16 32) (k0_hw77 : k0_chk77 v195 v2052), ∀ a x, ((![v195, v2052] : Fin 2 → IVec S16 32) a x).toNat < S128x200.size a := fun v195 v2052 k0_hw77 => k0_hw77

def k0_chk78 (v2053 : IVec S16 32) : Prop :=
  (∀ a x, ((![v2053] : Fin 1 → IVec S16 32) a x).toNat < S32.size a)
instance k0_chk78.dec : ∀ (v2053 : IVec S16 32), Decidable (k0_chk78 v2053) := fun v2053 => decidable_of_iff' _ (Iff.of_eq (k0_chk78.eq_1 v2053))
theorem k0_idx78_inb : ∀ (v2053 : IVec S16 32) (k0_hw78 : k0_chk78 v2053), ∀ a x, ((![v2053] : Fin 1 → IVec S16 32) a x).toNat < S32.size a := fun v2053 k0_hw78 => k0_hw78

def k0_chk79 (v195 : IVec S16 32) (v2065 : IVec S16 32) : Prop :=
  (∀ a x, ((![v195, v2065] : Fin 2 → IVec S16 32) a x).toNat < S128x200.size a)
instance k0_chk79.dec : ∀ (v195 : IVec S16 32) (v2065 : IVec S16 32), Decidable (k0_chk79 v195 v2065) := fun v195 v2065 => decidable_of_iff' _ (Iff.of_eq (k0_chk79.eq_1 v195 v2065))
theorem k0_idx79_inb : ∀ (v195 : IVec S16 32) (v2065 : IVec S16 32) (k0_hw79 : k0_chk79 v195 v2065), ∀ a x, ((![v195, v2065] : Fin 2 → IVec S16 32) a x).toNat < S128x200.size a := fun v195 v2065 k0_hw79 => k0_hw79

def k0_chk80 (v2066 : IVec S16 32) : Prop :=
  (∀ a x, ((![v2066] : Fin 1 → IVec S16 32) a x).toNat < S32.size a)
instance k0_chk80.dec : ∀ (v2066 : IVec S16 32), Decidable (k0_chk80 v2066) := fun v2066 => decidable_of_iff' _ (Iff.of_eq (k0_chk80.eq_1 v2066))
theorem k0_idx80_inb : ∀ (v2066 : IVec S16 32) (k0_hw80 : k0_chk80 v2066), ∀ a x, ((![v2066] : Fin 1 → IVec S16 32) a x).toNat < S32.size a := fun v2066 k0_hw80 => k0_hw80

def k0_chk81 (v195 : IVec S16 32) (v2078 : IVec S16 32) : Prop :=
  (∀ a x, ((![v195, v2078] : Fin 2 → IVec S16 32) a x).toNat < S128x200.size a)
instance k0_chk81.dec : ∀ (v195 : IVec S16 32) (v2078 : IVec S16 32), Decidable (k0_chk81 v195 v2078) := fun v195 v2078 => decidable_of_iff' _ (Iff.of_eq (k0_chk81.eq_1 v195 v2078))
theorem k0_idx81_inb : ∀ (v195 : IVec S16 32) (v2078 : IVec S16 32) (k0_hw81 : k0_chk81 v195 v2078), ∀ a x, ((![v195, v2078] : Fin 2 → IVec S16 32) a x).toNat < S128x200.size a := fun v195 v2078 k0_hw81 => k0_hw81

def k0_chk82 (v2079 : IVec S16 32) : Prop :=
  (∀ a x, ((![v2079] : Fin 1 → IVec S16 32) a x).toNat < S32.size a)
instance k0_chk82.dec : ∀ (v2079 : IVec S16 32), Decidable (k0_chk82 v2079) := fun v2079 => decidable_of_iff' _ (Iff.of_eq (k0_chk82.eq_1 v2079))
theorem k0_idx82_inb : ∀ (v2079 : IVec S16 32) (k0_hw82 : k0_chk82 v2079), ∀ a x, ((![v2079] : Fin 1 → IVec S16 32) a x).toNat < S32.size a := fun v2079 k0_hw82 => k0_hw82

def k0_chk83 (v195 : IVec S16 32) (v2091 : IVec S16 32) : Prop :=
  (∀ a x, ((![v195, v2091] : Fin 2 → IVec S16 32) a x).toNat < S128x200.size a)
instance k0_chk83.dec : ∀ (v195 : IVec S16 32) (v2091 : IVec S16 32), Decidable (k0_chk83 v195 v2091) := fun v195 v2091 => decidable_of_iff' _ (Iff.of_eq (k0_chk83.eq_1 v195 v2091))
theorem k0_idx83_inb : ∀ (v195 : IVec S16 32) (v2091 : IVec S16 32) (k0_hw83 : k0_chk83 v195 v2091), ∀ a x, ((![v195, v2091] : Fin 2 → IVec S16 32) a x).toNat < S128x200.size a := fun v195 v2091 k0_hw83 => k0_hw83

def k0_chk84 (v2092 : IVec S16 32) : Prop :=
  (∀ a x, ((![v2092] : Fin 1 → IVec S16 32) a x).toNat < S32.size a)
instance k0_chk84.dec : ∀ (v2092 : IVec S16 32), Decidable (k0_chk84 v2092) := fun v2092 => decidable_of_iff' _ (Iff.of_eq (k0_chk84.eq_1 v2092))
theorem k0_idx84_inb : ∀ (v2092 : IVec S16 32) (k0_hw84 : k0_chk84 v2092), ∀ a x, ((![v2092] : Fin 1 → IVec S16 32) a x).toNat < S32.size a := fun v2092 k0_hw84 => k0_hw84

def k0_chk85 (v195 : IVec S16 32) (v2104 : IVec S16 32) : Prop :=
  (∀ a x, ((![v195, v2104] : Fin 2 → IVec S16 32) a x).toNat < S128x200.size a)
instance k0_chk85.dec : ∀ (v195 : IVec S16 32) (v2104 : IVec S16 32), Decidable (k0_chk85 v195 v2104) := fun v195 v2104 => decidable_of_iff' _ (Iff.of_eq (k0_chk85.eq_1 v195 v2104))
theorem k0_idx85_inb : ∀ (v195 : IVec S16 32) (v2104 : IVec S16 32) (k0_hw85 : k0_chk85 v195 v2104), ∀ a x, ((![v195, v2104] : Fin 2 → IVec S16 32) a x).toNat < S128x200.size a := fun v195 v2104 k0_hw85 => k0_hw85

def k0_chk86 (v2105 : IVec S16 32) : Prop :=
  (∀ a x, ((![v2105] : Fin 1 → IVec S16 32) a x).toNat < S32.size a)
instance k0_chk86.dec : ∀ (v2105 : IVec S16 32), Decidable (k0_chk86 v2105) := fun v2105 => decidable_of_iff' _ (Iff.of_eq (k0_chk86.eq_1 v2105))
theorem k0_idx86_inb : ∀ (v2105 : IVec S16 32) (k0_hw86 : k0_chk86 v2105), ∀ a x, ((![v2105] : Fin 1 → IVec S16 32) a x).toNat < S32.size a := fun v2105 k0_hw86 => k0_hw86

def k0_chk87 (v195 : IVec S16 32) (v2117 : IVec S16 32) : Prop :=
  (∀ a x, ((![v195, v2117] : Fin 2 → IVec S16 32) a x).toNat < S128x200.size a)
instance k0_chk87.dec : ∀ (v195 : IVec S16 32) (v2117 : IVec S16 32), Decidable (k0_chk87 v195 v2117) := fun v195 v2117 => decidable_of_iff' _ (Iff.of_eq (k0_chk87.eq_1 v195 v2117))
theorem k0_idx87_inb : ∀ (v195 : IVec S16 32) (v2117 : IVec S16 32) (k0_hw87 : k0_chk87 v195 v2117), ∀ a x, ((![v195, v2117] : Fin 2 → IVec S16 32) a x).toNat < S128x200.size a := fun v195 v2117 k0_hw87 => k0_hw87

def k0_chk88 (v2118 : IVec S16 32) : Prop :=
  (∀ a x, ((![v2118] : Fin 1 → IVec S16 32) a x).toNat < S32.size a)
instance k0_chk88.dec : ∀ (v2118 : IVec S16 32), Decidable (k0_chk88 v2118) := fun v2118 => decidable_of_iff' _ (Iff.of_eq (k0_chk88.eq_1 v2118))
theorem k0_idx88_inb : ∀ (v2118 : IVec S16 32) (k0_hw88 : k0_chk88 v2118), ∀ a x, ((![v2118] : Fin 1 → IVec S16 32) a x).toNat < S32.size a := fun v2118 k0_hw88 => k0_hw88

def k0_chk89 (v195 : IVec S16 32) (v254 : IVec S16 32) : Prop :=
  (∀ a x, ((![v195, v254] : Fin 2 → IVec S16 32) a x).toNat < S128x32.size a)
instance k0_chk89.dec : ∀ (v195 : IVec S16 32) (v254 : IVec S16 32), Decidable (k0_chk89 v195 v254) := fun v195 v254 => decidable_of_iff' _ (Iff.of_eq (k0_chk89.eq_1 v195 v254))
theorem k0_idx89_inb : ∀ (v195 : IVec S16 32) (v254 : IVec S16 32) (k0_hw89 : k0_chk89 v195 v254), ∀ a x, ((![v195, v254] : Fin 2 → IVec S16 32) a x).toNat < S128x32.size a := fun v195 v254 k0_hw89 => k0_hw89

def k0_chk90 (v195 : IVec S16 32) (v197 : IVec S16 32) : Prop :=
  (∀ a x, ((![v195, v197] : Fin 2 → IVec S16 32) a x).toNat < S128x32.size a)
instance k0_chk90.dec : ∀ (v195 : IVec S16 32) (v197 : IVec S16 32), Decidable (k0_chk90 v195 v197) := fun v195 v197 => decidable_of_iff' _ (Iff.of_eq (k0_chk90.eq_1 v195 v197))
theorem k0_idx90_inb : ∀ (v195 : IVec S16 32) (v197 : IVec S16 32) (k0_hw90 : k0_chk90 v195 v197), ∀ a x, ((![v195, v197] : Fin 2 → IVec S16 32) a x).toNat < S128x32.size a := fun v195 v197 k0_hw90 => k0_hw90

def k0_chk91 (v195 : IVec S16 32) (v255 : IVec S16 32) : Prop :=
  (∀ a x, ((![v195, v255] : Fin 2 → IVec S16 32) a x).toNat < S128x32.size a)
instance k0_chk91.dec : ∀ (v195 : IVec S16 32) (v255 : IVec S16 32), Decidable (k0_chk91 v195 v255) := fun v195 v255 => decidable_of_iff' _ (Iff.of_eq (k0_chk91.eq_1 v195 v255))
theorem k0_idx91_inb : ∀ (v195 : IVec S16 32) (v255 : IVec S16 32) (k0_hw91 : k0_chk91 v195 v255), ∀ a x, ((![v195, v255] : Fin 2 → IVec S16 32) a x).toNat < S128x32.size a := fun v195 v255 k0_hw91 => k0_hw91

def k0_chk92 (v195 : IVec S16 32) (v256 : IVec S16 32) : Prop :=
  (∀ a x, ((![v195, v256] : Fin 2 → IVec S16 32) a x).toNat < S128x32.size a)
instance k0_chk92.dec : ∀ (v195 : IVec S16 32) (v256 : IVec S16 32), Decidable (k0_chk92 v195 v256) := fun v195 v256 => decidable_of_iff' _ (Iff.of_eq (k0_chk92.eq_1 v195 v256))
theorem k0_idx92_inb : ∀ (v195 : IVec S16 32) (v256 : IVec S16 32) (k0_hw92 : k0_chk92 v195 v256), ∀ a x, ((![v195, v256] : Fin 2 → IVec S16 32) a x).toNat < S128x32.size a := fun v195 v256 k0_hw92 => k0_hw92

def k0_chk93 (v258 : IVec S16 32) (v259 : IVec S16 32) : Prop :=
  (∀ a x, ((![v258, v259] : Fin 2 → IVec S16 32) a x).toNat < S128x200.size a)
instance k0_chk93.dec : ∀ (v258 : IVec S16 32) (v259 : IVec S16 32), Decidable (k0_chk93 v258 v259) := fun v258 v259 => decidable_of_iff' _ (Iff.of_eq (k0_chk93.eq_1 v258 v259))
theorem k0_idx93_inb : ∀ (v258 : IVec S16 32) (v259 : IVec S16 32) (k0_hw93 : k0_chk93 v258 v259), ∀ a x, ((![v258, v259] : Fin 2 → IVec S16 32) a x).toNat < S128x200.size a := fun v258 v259 k0_hw93 => k0_hw93

def k0_chk94 (v258 : IVec S16 32) (v261 : IVec S16 32) : Prop :=
  (∀ a x, ((![v258, v261] : Fin 2 → IVec S16 32) a x).toNat < S128x200.size a)
instance k0_chk94.dec : ∀ (v258 : IVec S16 32) (v261 : IVec S16 32), Decidable (k0_chk94 v258 v261) := fun v258 v261 => decidable_of_iff' _ (Iff.of_eq (k0_chk94.eq_1 v258 v261))
theorem k0_idx94_inb : ∀ (v258 : IVec S16 32) (v261 : IVec S16 32) (k0_hw94 : k0_chk94 v258 v261), ∀ a x, ((![v258, v261] : Fin 2 → IVec S16 32) a x).toNat < S128x200.size a := fun v258 v261 k0_hw94 => k0_hw94

def k0_chk95 (v258 : IVec S16 32) (v263 : IVec S16 32) : Prop :=
  (∀ a x, ((![v258, v263] : Fin 2 → IVec S16 32) a x).toNat < S128x200.size a)
instance k0_chk95.dec : ∀ (v258 : IVec S16 32) (v263 : IVec S16 32), Decidable (k0_chk95 v258 v263) := fun v258 v263 => decidable_of_iff' _ (Iff.of_eq (k0_chk95.eq_1 v258 v263))
theorem k0_idx95_inb : ∀ (v258 : IVec S16 32) (v263 : IVec S16 32) (k0_hw95 : k0_chk95 v258 v263), ∀ a x, ((![v258, v263] : Fin 2 → IVec S16 32) a x).toNat < S128x200.size a := fun v258 v263 k0_hw95 => k0_hw95
@[reducible] def k0_t5_loop : Scf.Loop 32 :=
  let c0_i32_116 : BitVec 32 := 0#32
  let c25_i32_117 : BitVec 32 := 25#32
  let v267 : BitVec 32 := Scalar.addi c0_i32_116 c25_i32_117
  let c1_i32_118 : BitVec 32 := 1#32
  ⟨c0_i32_116, v267, c1_i32_118⟩

def k0_chk96 (v258 : IVec S16 32) (arg10 : IVec S16 32) : Prop :=
  (∀ a x, ((![v258, arg10] : Fin 2 → IVec S16 32) a x).toNat < S128x200.size a)
instance k0_chk96.dec : ∀ (v258 : IVec S16 32) (arg10 : IVec S16 32), Decidable (k0_chk96 v258 arg10) := fun v258 arg10 => decidable_of_iff' _ (Iff.of_eq (k0_chk96.eq_1 v258 arg10))
theorem k0_idx96_inb : ∀ (v258 : IVec S16 32) (arg10 : IVec S16 32) (k0_hw96 : k0_chk96 v258 arg10), ∀ a x, ((![v258, arg10] : Fin 2 → IVec S16 32) a x).toNat < S128x200.size a := fun v258 arg10 k0_hw96 => k0_hw96

def k0_chk97 (v2027 : IVec S16 32) : Prop :=
  (∀ a x, ((![v2027] : Fin 1 → IVec S16 32) a x).toNat < S32.size a)
instance k0_chk97.dec : ∀ (v2027 : IVec S16 32), Decidable (k0_chk97 v2027) := fun v2027 => decidable_of_iff' _ (Iff.of_eq (k0_chk97.eq_1 v2027))
theorem k0_idx97_inb : ∀ (v2027 : IVec S16 32) (k0_hw97 : k0_chk97 v2027), ∀ a x, ((![v2027] : Fin 1 → IVec S16 32) a x).toNat < S32.size a := fun v2027 k0_hw97 => k0_hw97

def k0_chk98 (v258 : IVec S16 32) (v2039 : IVec S16 32) : Prop :=
  (∀ a x, ((![v258, v2039] : Fin 2 → IVec S16 32) a x).toNat < S128x200.size a)
instance k0_chk98.dec : ∀ (v258 : IVec S16 32) (v2039 : IVec S16 32), Decidable (k0_chk98 v258 v2039) := fun v258 v2039 => decidable_of_iff' _ (Iff.of_eq (k0_chk98.eq_1 v258 v2039))
theorem k0_idx98_inb : ∀ (v258 : IVec S16 32) (v2039 : IVec S16 32) (k0_hw98 : k0_chk98 v258 v2039), ∀ a x, ((![v258, v2039] : Fin 2 → IVec S16 32) a x).toNat < S128x200.size a := fun v258 v2039 k0_hw98 => k0_hw98

def k0_chk99 (v2040 : IVec S16 32) : Prop :=
  (∀ a x, ((![v2040] : Fin 1 → IVec S16 32) a x).toNat < S32.size a)
instance k0_chk99.dec : ∀ (v2040 : IVec S16 32), Decidable (k0_chk99 v2040) := fun v2040 => decidable_of_iff' _ (Iff.of_eq (k0_chk99.eq_1 v2040))
theorem k0_idx99_inb : ∀ (v2040 : IVec S16 32) (k0_hw99 : k0_chk99 v2040), ∀ a x, ((![v2040] : Fin 1 → IVec S16 32) a x).toNat < S32.size a := fun v2040 k0_hw99 => k0_hw99

def k0_chk100 (v258 : IVec S16 32) (v2052 : IVec S16 32) : Prop :=
  (∀ a x, ((![v258, v2052] : Fin 2 → IVec S16 32) a x).toNat < S128x200.size a)
instance k0_chk100.dec : ∀ (v258 : IVec S16 32) (v2052 : IVec S16 32), Decidable (k0_chk100 v258 v2052) := fun v258 v2052 => decidable_of_iff' _ (Iff.of_eq (k0_chk100.eq_1 v258 v2052))
theorem k0_idx100_inb : ∀ (v258 : IVec S16 32) (v2052 : IVec S16 32) (k0_hw100 : k0_chk100 v258 v2052), ∀ a x, ((![v258, v2052] : Fin 2 → IVec S16 32) a x).toNat < S128x200.size a := fun v258 v2052 k0_hw100 => k0_hw100

def k0_chk101 (v2053 : IVec S16 32) : Prop :=
  (∀ a x, ((![v2053] : Fin 1 → IVec S16 32) a x).toNat < S32.size a)
instance k0_chk101.dec : ∀ (v2053 : IVec S16 32), Decidable (k0_chk101 v2053) := fun v2053 => decidable_of_iff' _ (Iff.of_eq (k0_chk101.eq_1 v2053))
theorem k0_idx101_inb : ∀ (v2053 : IVec S16 32) (k0_hw101 : k0_chk101 v2053), ∀ a x, ((![v2053] : Fin 1 → IVec S16 32) a x).toNat < S32.size a := fun v2053 k0_hw101 => k0_hw101

def k0_chk102 (v258 : IVec S16 32) (v2065 : IVec S16 32) : Prop :=
  (∀ a x, ((![v258, v2065] : Fin 2 → IVec S16 32) a x).toNat < S128x200.size a)
instance k0_chk102.dec : ∀ (v258 : IVec S16 32) (v2065 : IVec S16 32), Decidable (k0_chk102 v258 v2065) := fun v258 v2065 => decidable_of_iff' _ (Iff.of_eq (k0_chk102.eq_1 v258 v2065))
theorem k0_idx102_inb : ∀ (v258 : IVec S16 32) (v2065 : IVec S16 32) (k0_hw102 : k0_chk102 v258 v2065), ∀ a x, ((![v258, v2065] : Fin 2 → IVec S16 32) a x).toNat < S128x200.size a := fun v258 v2065 k0_hw102 => k0_hw102

def k0_chk103 (v2066 : IVec S16 32) : Prop :=
  (∀ a x, ((![v2066] : Fin 1 → IVec S16 32) a x).toNat < S32.size a)
instance k0_chk103.dec : ∀ (v2066 : IVec S16 32), Decidable (k0_chk103 v2066) := fun v2066 => decidable_of_iff' _ (Iff.of_eq (k0_chk103.eq_1 v2066))
theorem k0_idx103_inb : ∀ (v2066 : IVec S16 32) (k0_hw103 : k0_chk103 v2066), ∀ a x, ((![v2066] : Fin 1 → IVec S16 32) a x).toNat < S32.size a := fun v2066 k0_hw103 => k0_hw103

def k0_chk104 (v258 : IVec S16 32) (v2078 : IVec S16 32) : Prop :=
  (∀ a x, ((![v258, v2078] : Fin 2 → IVec S16 32) a x).toNat < S128x200.size a)
instance k0_chk104.dec : ∀ (v258 : IVec S16 32) (v2078 : IVec S16 32), Decidable (k0_chk104 v258 v2078) := fun v258 v2078 => decidable_of_iff' _ (Iff.of_eq (k0_chk104.eq_1 v258 v2078))
theorem k0_idx104_inb : ∀ (v258 : IVec S16 32) (v2078 : IVec S16 32) (k0_hw104 : k0_chk104 v258 v2078), ∀ a x, ((![v258, v2078] : Fin 2 → IVec S16 32) a x).toNat < S128x200.size a := fun v258 v2078 k0_hw104 => k0_hw104

def k0_chk105 (v2079 : IVec S16 32) : Prop :=
  (∀ a x, ((![v2079] : Fin 1 → IVec S16 32) a x).toNat < S32.size a)
instance k0_chk105.dec : ∀ (v2079 : IVec S16 32), Decidable (k0_chk105 v2079) := fun v2079 => decidable_of_iff' _ (Iff.of_eq (k0_chk105.eq_1 v2079))
theorem k0_idx105_inb : ∀ (v2079 : IVec S16 32) (k0_hw105 : k0_chk105 v2079), ∀ a x, ((![v2079] : Fin 1 → IVec S16 32) a x).toNat < S32.size a := fun v2079 k0_hw105 => k0_hw105

def k0_chk106 (v258 : IVec S16 32) (v2091 : IVec S16 32) : Prop :=
  (∀ a x, ((![v258, v2091] : Fin 2 → IVec S16 32) a x).toNat < S128x200.size a)
instance k0_chk106.dec : ∀ (v258 : IVec S16 32) (v2091 : IVec S16 32), Decidable (k0_chk106 v258 v2091) := fun v258 v2091 => decidable_of_iff' _ (Iff.of_eq (k0_chk106.eq_1 v258 v2091))
theorem k0_idx106_inb : ∀ (v258 : IVec S16 32) (v2091 : IVec S16 32) (k0_hw106 : k0_chk106 v258 v2091), ∀ a x, ((![v258, v2091] : Fin 2 → IVec S16 32) a x).toNat < S128x200.size a := fun v258 v2091 k0_hw106 => k0_hw106

def k0_chk107 (v2092 : IVec S16 32) : Prop :=
  (∀ a x, ((![v2092] : Fin 1 → IVec S16 32) a x).toNat < S32.size a)
instance k0_chk107.dec : ∀ (v2092 : IVec S16 32), Decidable (k0_chk107 v2092) := fun v2092 => decidable_of_iff' _ (Iff.of_eq (k0_chk107.eq_1 v2092))
theorem k0_idx107_inb : ∀ (v2092 : IVec S16 32) (k0_hw107 : k0_chk107 v2092), ∀ a x, ((![v2092] : Fin 1 → IVec S16 32) a x).toNat < S32.size a := fun v2092 k0_hw107 => k0_hw107

def k0_chk108 (v258 : IVec S16 32) (v2104 : IVec S16 32) : Prop :=
  (∀ a x, ((![v258, v2104] : Fin 2 → IVec S16 32) a x).toNat < S128x200.size a)
instance k0_chk108.dec : ∀ (v258 : IVec S16 32) (v2104 : IVec S16 32), Decidable (k0_chk108 v258 v2104) := fun v258 v2104 => decidable_of_iff' _ (Iff.of_eq (k0_chk108.eq_1 v258 v2104))
theorem k0_idx108_inb : ∀ (v258 : IVec S16 32) (v2104 : IVec S16 32) (k0_hw108 : k0_chk108 v258 v2104), ∀ a x, ((![v258, v2104] : Fin 2 → IVec S16 32) a x).toNat < S128x200.size a := fun v258 v2104 k0_hw108 => k0_hw108

def k0_chk109 (v2105 : IVec S16 32) : Prop :=
  (∀ a x, ((![v2105] : Fin 1 → IVec S16 32) a x).toNat < S32.size a)
instance k0_chk109.dec : ∀ (v2105 : IVec S16 32), Decidable (k0_chk109 v2105) := fun v2105 => decidable_of_iff' _ (Iff.of_eq (k0_chk109.eq_1 v2105))
theorem k0_idx109_inb : ∀ (v2105 : IVec S16 32) (k0_hw109 : k0_chk109 v2105), ∀ a x, ((![v2105] : Fin 1 → IVec S16 32) a x).toNat < S32.size a := fun v2105 k0_hw109 => k0_hw109

def k0_chk110 (v258 : IVec S16 32) (v2117 : IVec S16 32) : Prop :=
  (∀ a x, ((![v258, v2117] : Fin 2 → IVec S16 32) a x).toNat < S128x200.size a)
instance k0_chk110.dec : ∀ (v258 : IVec S16 32) (v2117 : IVec S16 32), Decidable (k0_chk110 v258 v2117) := fun v258 v2117 => decidable_of_iff' _ (Iff.of_eq (k0_chk110.eq_1 v258 v2117))
theorem k0_idx110_inb : ∀ (v258 : IVec S16 32) (v2117 : IVec S16 32) (k0_hw110 : k0_chk110 v258 v2117), ∀ a x, ((![v258, v2117] : Fin 2 → IVec S16 32) a x).toNat < S128x200.size a := fun v258 v2117 k0_hw110 => k0_hw110

def k0_chk111 (v2118 : IVec S16 32) : Prop :=
  (∀ a x, ((![v2118] : Fin 1 → IVec S16 32) a x).toNat < S32.size a)
instance k0_chk111.dec : ∀ (v2118 : IVec S16 32), Decidable (k0_chk111 v2118) := fun v2118 => decidable_of_iff' _ (Iff.of_eq (k0_chk111.eq_1 v2118))
theorem k0_idx111_inb : ∀ (v2118 : IVec S16 32) (k0_hw111 : k0_chk111 v2118), ∀ a x, ((![v2118] : Fin 1 → IVec S16 32) a x).toNat < S32.size a := fun v2118 k0_hw111 => k0_hw111

def k0_chk112 (v258 : IVec S16 32) (v317 : IVec S16 32) : Prop :=
  (∀ a x, ((![v258, v317] : Fin 2 → IVec S16 32) a x).toNat < S128x32.size a)
instance k0_chk112.dec : ∀ (v258 : IVec S16 32) (v317 : IVec S16 32), Decidable (k0_chk112 v258 v317) := fun v258 v317 => decidable_of_iff' _ (Iff.of_eq (k0_chk112.eq_1 v258 v317))
theorem k0_idx112_inb : ∀ (v258 : IVec S16 32) (v317 : IVec S16 32) (k0_hw112 : k0_chk112 v258 v317), ∀ a x, ((![v258, v317] : Fin 2 → IVec S16 32) a x).toNat < S128x32.size a := fun v258 v317 k0_hw112 => k0_hw112

def k0_chk113 (v258 : IVec S16 32) (v260 : IVec S16 32) : Prop :=
  (∀ a x, ((![v258, v260] : Fin 2 → IVec S16 32) a x).toNat < S128x32.size a)
instance k0_chk113.dec : ∀ (v258 : IVec S16 32) (v260 : IVec S16 32), Decidable (k0_chk113 v258 v260) := fun v258 v260 => decidable_of_iff' _ (Iff.of_eq (k0_chk113.eq_1 v258 v260))
theorem k0_idx113_inb : ∀ (v258 : IVec S16 32) (v260 : IVec S16 32) (k0_hw113 : k0_chk113 v258 v260), ∀ a x, ((![v258, v260] : Fin 2 → IVec S16 32) a x).toNat < S128x32.size a := fun v258 v260 k0_hw113 => k0_hw113

def k0_chk114 (v258 : IVec S16 32) (v318 : IVec S16 32) : Prop :=
  (∀ a x, ((![v258, v318] : Fin 2 → IVec S16 32) a x).toNat < S128x32.size a)
instance k0_chk114.dec : ∀ (v258 : IVec S16 32) (v318 : IVec S16 32), Decidable (k0_chk114 v258 v318) := fun v258 v318 => decidable_of_iff' _ (Iff.of_eq (k0_chk114.eq_1 v258 v318))
theorem k0_idx114_inb : ∀ (v258 : IVec S16 32) (v318 : IVec S16 32) (k0_hw114 : k0_chk114 v258 v318), ∀ a x, ((![v258, v318] : Fin 2 → IVec S16 32) a x).toNat < S128x32.size a := fun v258 v318 k0_hw114 => k0_hw114

def k0_chk115 (v258 : IVec S16 32) (v319 : IVec S16 32) : Prop :=
  (∀ a x, ((![v258, v319] : Fin 2 → IVec S16 32) a x).toNat < S128x32.size a)
instance k0_chk115.dec : ∀ (v258 : IVec S16 32) (v319 : IVec S16 32), Decidable (k0_chk115 v258 v319) := fun v258 v319 => decidable_of_iff' _ (Iff.of_eq (k0_chk115.eq_1 v258 v319))
theorem k0_idx115_inb : ∀ (v258 : IVec S16 32) (v319 : IVec S16 32) (k0_hw115 : k0_chk115 v258 v319), ∀ a x, ((![v258, v319] : Fin 2 → IVec S16 32) a x).toNat < S128x32.size a := fun v258 v319 k0_hw115 => k0_hw115

def k0_chk116 (v321 : IVec S16 32) (v322 : IVec S16 32) : Prop :=
  (∀ a x, ((![v321, v322] : Fin 2 → IVec S16 32) a x).toNat < S128x200.size a)
instance k0_chk116.dec : ∀ (v321 : IVec S16 32) (v322 : IVec S16 32), Decidable (k0_chk116 v321 v322) := fun v321 v322 => decidable_of_iff' _ (Iff.of_eq (k0_chk116.eq_1 v321 v322))
theorem k0_idx116_inb : ∀ (v321 : IVec S16 32) (v322 : IVec S16 32) (k0_hw116 : k0_chk116 v321 v322), ∀ a x, ((![v321, v322] : Fin 2 → IVec S16 32) a x).toNat < S128x200.size a := fun v321 v322 k0_hw116 => k0_hw116

def k0_chk117 (v321 : IVec S16 32) (v324 : IVec S16 32) : Prop :=
  (∀ a x, ((![v321, v324] : Fin 2 → IVec S16 32) a x).toNat < S128x200.size a)
instance k0_chk117.dec : ∀ (v321 : IVec S16 32) (v324 : IVec S16 32), Decidable (k0_chk117 v321 v324) := fun v321 v324 => decidable_of_iff' _ (Iff.of_eq (k0_chk117.eq_1 v321 v324))
theorem k0_idx117_inb : ∀ (v321 : IVec S16 32) (v324 : IVec S16 32) (k0_hw117 : k0_chk117 v321 v324), ∀ a x, ((![v321, v324] : Fin 2 → IVec S16 32) a x).toNat < S128x200.size a := fun v321 v324 k0_hw117 => k0_hw117

def k0_chk118 (v321 : IVec S16 32) (v326 : IVec S16 32) : Prop :=
  (∀ a x, ((![v321, v326] : Fin 2 → IVec S16 32) a x).toNat < S128x200.size a)
instance k0_chk118.dec : ∀ (v321 : IVec S16 32) (v326 : IVec S16 32), Decidable (k0_chk118 v321 v326) := fun v321 v326 => decidable_of_iff' _ (Iff.of_eq (k0_chk118.eq_1 v321 v326))
theorem k0_idx118_inb : ∀ (v321 : IVec S16 32) (v326 : IVec S16 32) (k0_hw118 : k0_chk118 v321 v326), ∀ a x, ((![v321, v326] : Fin 2 → IVec S16 32) a x).toNat < S128x200.size a := fun v321 v326 k0_hw118 => k0_hw118
@[reducible] def k0_t6_loop : Scf.Loop 32 :=
  let c0_i32_147 : BitVec 32 := 0#32
  let c25_i32_148 : BitVec 32 := 25#32
  let v330 : BitVec 32 := Scalar.addi c0_i32_147 c25_i32_148
  let c1_i32_149 : BitVec 32 := 1#32
  ⟨c0_i32_147, v330, c1_i32_149⟩

def k0_chk119 (v321 : IVec S16 32) (arg10 : IVec S16 32) : Prop :=
  (∀ a x, ((![v321, arg10] : Fin 2 → IVec S16 32) a x).toNat < S128x200.size a)
instance k0_chk119.dec : ∀ (v321 : IVec S16 32) (arg10 : IVec S16 32), Decidable (k0_chk119 v321 arg10) := fun v321 arg10 => decidable_of_iff' _ (Iff.of_eq (k0_chk119.eq_1 v321 arg10))
theorem k0_idx119_inb : ∀ (v321 : IVec S16 32) (arg10 : IVec S16 32) (k0_hw119 : k0_chk119 v321 arg10), ∀ a x, ((![v321, arg10] : Fin 2 → IVec S16 32) a x).toNat < S128x200.size a := fun v321 arg10 k0_hw119 => k0_hw119

def k0_chk120 (v2027 : IVec S16 32) : Prop :=
  (∀ a x, ((![v2027] : Fin 1 → IVec S16 32) a x).toNat < S32.size a)
instance k0_chk120.dec : ∀ (v2027 : IVec S16 32), Decidable (k0_chk120 v2027) := fun v2027 => decidable_of_iff' _ (Iff.of_eq (k0_chk120.eq_1 v2027))
theorem k0_idx120_inb : ∀ (v2027 : IVec S16 32) (k0_hw120 : k0_chk120 v2027), ∀ a x, ((![v2027] : Fin 1 → IVec S16 32) a x).toNat < S32.size a := fun v2027 k0_hw120 => k0_hw120

def k0_chk121 (v321 : IVec S16 32) (v2039 : IVec S16 32) : Prop :=
  (∀ a x, ((![v321, v2039] : Fin 2 → IVec S16 32) a x).toNat < S128x200.size a)
instance k0_chk121.dec : ∀ (v321 : IVec S16 32) (v2039 : IVec S16 32), Decidable (k0_chk121 v321 v2039) := fun v321 v2039 => decidable_of_iff' _ (Iff.of_eq (k0_chk121.eq_1 v321 v2039))
theorem k0_idx121_inb : ∀ (v321 : IVec S16 32) (v2039 : IVec S16 32) (k0_hw121 : k0_chk121 v321 v2039), ∀ a x, ((![v321, v2039] : Fin 2 → IVec S16 32) a x).toNat < S128x200.size a := fun v321 v2039 k0_hw121 => k0_hw121

def k0_chk122 (v2040 : IVec S16 32) : Prop :=
  (∀ a x, ((![v2040] : Fin 1 → IVec S16 32) a x).toNat < S32.size a)
instance k0_chk122.dec : ∀ (v2040 : IVec S16 32), Decidable (k0_chk122 v2040) := fun v2040 => decidable_of_iff' _ (Iff.of_eq (k0_chk122.eq_1 v2040))
theorem k0_idx122_inb : ∀ (v2040 : IVec S16 32) (k0_hw122 : k0_chk122 v2040), ∀ a x, ((![v2040] : Fin 1 → IVec S16 32) a x).toNat < S32.size a := fun v2040 k0_hw122 => k0_hw122

def k0_chk123 (v321 : IVec S16 32) (v2052 : IVec S16 32) : Prop :=
  (∀ a x, ((![v321, v2052] : Fin 2 → IVec S16 32) a x).toNat < S128x200.size a)
instance k0_chk123.dec : ∀ (v321 : IVec S16 32) (v2052 : IVec S16 32), Decidable (k0_chk123 v321 v2052) := fun v321 v2052 => decidable_of_iff' _ (Iff.of_eq (k0_chk123.eq_1 v321 v2052))
theorem k0_idx123_inb : ∀ (v321 : IVec S16 32) (v2052 : IVec S16 32) (k0_hw123 : k0_chk123 v321 v2052), ∀ a x, ((![v321, v2052] : Fin 2 → IVec S16 32) a x).toNat < S128x200.size a := fun v321 v2052 k0_hw123 => k0_hw123

def k0_chk124 (v2053 : IVec S16 32) : Prop :=
  (∀ a x, ((![v2053] : Fin 1 → IVec S16 32) a x).toNat < S32.size a)
instance k0_chk124.dec : ∀ (v2053 : IVec S16 32), Decidable (k0_chk124 v2053) := fun v2053 => decidable_of_iff' _ (Iff.of_eq (k0_chk124.eq_1 v2053))
theorem k0_idx124_inb : ∀ (v2053 : IVec S16 32) (k0_hw124 : k0_chk124 v2053), ∀ a x, ((![v2053] : Fin 1 → IVec S16 32) a x).toNat < S32.size a := fun v2053 k0_hw124 => k0_hw124

def k0_chk125 (v321 : IVec S16 32) (v2065 : IVec S16 32) : Prop :=
  (∀ a x, ((![v321, v2065] : Fin 2 → IVec S16 32) a x).toNat < S128x200.size a)
instance k0_chk125.dec : ∀ (v321 : IVec S16 32) (v2065 : IVec S16 32), Decidable (k0_chk125 v321 v2065) := fun v321 v2065 => decidable_of_iff' _ (Iff.of_eq (k0_chk125.eq_1 v321 v2065))
theorem k0_idx125_inb : ∀ (v321 : IVec S16 32) (v2065 : IVec S16 32) (k0_hw125 : k0_chk125 v321 v2065), ∀ a x, ((![v321, v2065] : Fin 2 → IVec S16 32) a x).toNat < S128x200.size a := fun v321 v2065 k0_hw125 => k0_hw125

def k0_chk126 (v2066 : IVec S16 32) : Prop :=
  (∀ a x, ((![v2066] : Fin 1 → IVec S16 32) a x).toNat < S32.size a)
instance k0_chk126.dec : ∀ (v2066 : IVec S16 32), Decidable (k0_chk126 v2066) := fun v2066 => decidable_of_iff' _ (Iff.of_eq (k0_chk126.eq_1 v2066))
theorem k0_idx126_inb : ∀ (v2066 : IVec S16 32) (k0_hw126 : k0_chk126 v2066), ∀ a x, ((![v2066] : Fin 1 → IVec S16 32) a x).toNat < S32.size a := fun v2066 k0_hw126 => k0_hw126

def k0_chk127 (v321 : IVec S16 32) (v2078 : IVec S16 32) : Prop :=
  (∀ a x, ((![v321, v2078] : Fin 2 → IVec S16 32) a x).toNat < S128x200.size a)
instance k0_chk127.dec : ∀ (v321 : IVec S16 32) (v2078 : IVec S16 32), Decidable (k0_chk127 v321 v2078) := fun v321 v2078 => decidable_of_iff' _ (Iff.of_eq (k0_chk127.eq_1 v321 v2078))
theorem k0_idx127_inb : ∀ (v321 : IVec S16 32) (v2078 : IVec S16 32) (k0_hw127 : k0_chk127 v321 v2078), ∀ a x, ((![v321, v2078] : Fin 2 → IVec S16 32) a x).toNat < S128x200.size a := fun v321 v2078 k0_hw127 => k0_hw127

def k0_chk128 (v2079 : IVec S16 32) : Prop :=
  (∀ a x, ((![v2079] : Fin 1 → IVec S16 32) a x).toNat < S32.size a)
instance k0_chk128.dec : ∀ (v2079 : IVec S16 32), Decidable (k0_chk128 v2079) := fun v2079 => decidable_of_iff' _ (Iff.of_eq (k0_chk128.eq_1 v2079))
theorem k0_idx128_inb : ∀ (v2079 : IVec S16 32) (k0_hw128 : k0_chk128 v2079), ∀ a x, ((![v2079] : Fin 1 → IVec S16 32) a x).toNat < S32.size a := fun v2079 k0_hw128 => k0_hw128

def k0_chk129 (v321 : IVec S16 32) (v2091 : IVec S16 32) : Prop :=
  (∀ a x, ((![v321, v2091] : Fin 2 → IVec S16 32) a x).toNat < S128x200.size a)
instance k0_chk129.dec : ∀ (v321 : IVec S16 32) (v2091 : IVec S16 32), Decidable (k0_chk129 v321 v2091) := fun v321 v2091 => decidable_of_iff' _ (Iff.of_eq (k0_chk129.eq_1 v321 v2091))
theorem k0_idx129_inb : ∀ (v321 : IVec S16 32) (v2091 : IVec S16 32) (k0_hw129 : k0_chk129 v321 v2091), ∀ a x, ((![v321, v2091] : Fin 2 → IVec S16 32) a x).toNat < S128x200.size a := fun v321 v2091 k0_hw129 => k0_hw129

def k0_chk130 (v2092 : IVec S16 32) : Prop :=
  (∀ a x, ((![v2092] : Fin 1 → IVec S16 32) a x).toNat < S32.size a)
instance k0_chk130.dec : ∀ (v2092 : IVec S16 32), Decidable (k0_chk130 v2092) := fun v2092 => decidable_of_iff' _ (Iff.of_eq (k0_chk130.eq_1 v2092))
theorem k0_idx130_inb : ∀ (v2092 : IVec S16 32) (k0_hw130 : k0_chk130 v2092), ∀ a x, ((![v2092] : Fin 1 → IVec S16 32) a x).toNat < S32.size a := fun v2092 k0_hw130 => k0_hw130

def k0_chk131 (v321 : IVec S16 32) (v2104 : IVec S16 32) : Prop :=
  (∀ a x, ((![v321, v2104] : Fin 2 → IVec S16 32) a x).toNat < S128x200.size a)
instance k0_chk131.dec : ∀ (v321 : IVec S16 32) (v2104 : IVec S16 32), Decidable (k0_chk131 v321 v2104) := fun v321 v2104 => decidable_of_iff' _ (Iff.of_eq (k0_chk131.eq_1 v321 v2104))
theorem k0_idx131_inb : ∀ (v321 : IVec S16 32) (v2104 : IVec S16 32) (k0_hw131 : k0_chk131 v321 v2104), ∀ a x, ((![v321, v2104] : Fin 2 → IVec S16 32) a x).toNat < S128x200.size a := fun v321 v2104 k0_hw131 => k0_hw131

def k0_chk132 (v2105 : IVec S16 32) : Prop :=
  (∀ a x, ((![v2105] : Fin 1 → IVec S16 32) a x).toNat < S32.size a)
instance k0_chk132.dec : ∀ (v2105 : IVec S16 32), Decidable (k0_chk132 v2105) := fun v2105 => decidable_of_iff' _ (Iff.of_eq (k0_chk132.eq_1 v2105))
theorem k0_idx132_inb : ∀ (v2105 : IVec S16 32) (k0_hw132 : k0_chk132 v2105), ∀ a x, ((![v2105] : Fin 1 → IVec S16 32) a x).toNat < S32.size a := fun v2105 k0_hw132 => k0_hw132

def k0_chk133 (v321 : IVec S16 32) (v2117 : IVec S16 32) : Prop :=
  (∀ a x, ((![v321, v2117] : Fin 2 → IVec S16 32) a x).toNat < S128x200.size a)
instance k0_chk133.dec : ∀ (v321 : IVec S16 32) (v2117 : IVec S16 32), Decidable (k0_chk133 v321 v2117) := fun v321 v2117 => decidable_of_iff' _ (Iff.of_eq (k0_chk133.eq_1 v321 v2117))
theorem k0_idx133_inb : ∀ (v321 : IVec S16 32) (v2117 : IVec S16 32) (k0_hw133 : k0_chk133 v321 v2117), ∀ a x, ((![v321, v2117] : Fin 2 → IVec S16 32) a x).toNat < S128x200.size a := fun v321 v2117 k0_hw133 => k0_hw133

def k0_chk134 (v2118 : IVec S16 32) : Prop :=
  (∀ a x, ((![v2118] : Fin 1 → IVec S16 32) a x).toNat < S32.size a)
instance k0_chk134.dec : ∀ (v2118 : IVec S16 32), Decidable (k0_chk134 v2118) := fun v2118 => decidable_of_iff' _ (Iff.of_eq (k0_chk134.eq_1 v2118))
theorem k0_idx134_inb : ∀ (v2118 : IVec S16 32) (k0_hw134 : k0_chk134 v2118), ∀ a x, ((![v2118] : Fin 1 → IVec S16 32) a x).toNat < S32.size a := fun v2118 k0_hw134 => k0_hw134

def k0_chk135 (v321 : IVec S16 32) (v380 : IVec S16 32) : Prop :=
  (∀ a x, ((![v321, v380] : Fin 2 → IVec S16 32) a x).toNat < S128x32.size a)
instance k0_chk135.dec : ∀ (v321 : IVec S16 32) (v380 : IVec S16 32), Decidable (k0_chk135 v321 v380) := fun v321 v380 => decidable_of_iff' _ (Iff.of_eq (k0_chk135.eq_1 v321 v380))
theorem k0_idx135_inb : ∀ (v321 : IVec S16 32) (v380 : IVec S16 32) (k0_hw135 : k0_chk135 v321 v380), ∀ a x, ((![v321, v380] : Fin 2 → IVec S16 32) a x).toNat < S128x32.size a := fun v321 v380 k0_hw135 => k0_hw135

def k0_chk136 (v321 : IVec S16 32) (v323 : IVec S16 32) : Prop :=
  (∀ a x, ((![v321, v323] : Fin 2 → IVec S16 32) a x).toNat < S128x32.size a)
instance k0_chk136.dec : ∀ (v321 : IVec S16 32) (v323 : IVec S16 32), Decidable (k0_chk136 v321 v323) := fun v321 v323 => decidable_of_iff' _ (Iff.of_eq (k0_chk136.eq_1 v321 v323))
theorem k0_idx136_inb : ∀ (v321 : IVec S16 32) (v323 : IVec S16 32) (k0_hw136 : k0_chk136 v321 v323), ∀ a x, ((![v321, v323] : Fin 2 → IVec S16 32) a x).toNat < S128x32.size a := fun v321 v323 k0_hw136 => k0_hw136

def k0_chk137 (v321 : IVec S16 32) (v381 : IVec S16 32) : Prop :=
  (∀ a x, ((![v321, v381] : Fin 2 → IVec S16 32) a x).toNat < S128x32.size a)
instance k0_chk137.dec : ∀ (v321 : IVec S16 32) (v381 : IVec S16 32), Decidable (k0_chk137 v321 v381) := fun v321 v381 => decidable_of_iff' _ (Iff.of_eq (k0_chk137.eq_1 v321 v381))
theorem k0_idx137_inb : ∀ (v321 : IVec S16 32) (v381 : IVec S16 32) (k0_hw137 : k0_chk137 v321 v381), ∀ a x, ((![v321, v381] : Fin 2 → IVec S16 32) a x).toNat < S128x32.size a := fun v321 v381 k0_hw137 => k0_hw137

def k0_chk138 (v321 : IVec S16 32) (v382 : IVec S16 32) : Prop :=
  (∀ a x, ((![v321, v382] : Fin 2 → IVec S16 32) a x).toNat < S128x32.size a)
instance k0_chk138.dec : ∀ (v321 : IVec S16 32) (v382 : IVec S16 32), Decidable (k0_chk138 v321 v382) := fun v321 v382 => decidable_of_iff' _ (Iff.of_eq (k0_chk138.eq_1 v321 v382))
theorem k0_idx138_inb : ∀ (v321 : IVec S16 32) (v382 : IVec S16 32) (k0_hw138 : k0_chk138 v321 v382), ∀ a x, ((![v321, v382] : Fin 2 → IVec S16 32) a x).toNat < S128x32.size a := fun v321 v382 k0_hw138 => k0_hw138

def k0_chk139 (v384 : IVec S16 32) (v385 : IVec S16 32) : Prop :=
  (∀ a x, ((![v384, v385] : Fin 2 → IVec S16 32) a x).toNat < S128x200.size a)
instance k0_chk139.dec : ∀ (v384 : IVec S16 32) (v385 : IVec S16 32), Decidable (k0_chk139 v384 v385) := fun v384 v385 => decidable_of_iff' _ (Iff.of_eq (k0_chk139.eq_1 v384 v385))
theorem k0_idx139_inb : ∀ (v384 : IVec S16 32) (v385 : IVec S16 32) (k0_hw139 : k0_chk139 v384 v385), ∀ a x, ((![v384, v385] : Fin 2 → IVec S16 32) a x).toNat < S128x200.size a := fun v384 v385 k0_hw139 => k0_hw139

def k0_chk140 (v384 : IVec S16 32) (v387 : IVec S16 32) : Prop :=
  (∀ a x, ((![v384, v387] : Fin 2 → IVec S16 32) a x).toNat < S128x200.size a)
instance k0_chk140.dec : ∀ (v384 : IVec S16 32) (v387 : IVec S16 32), Decidable (k0_chk140 v384 v387) := fun v384 v387 => decidable_of_iff' _ (Iff.of_eq (k0_chk140.eq_1 v384 v387))
theorem k0_idx140_inb : ∀ (v384 : IVec S16 32) (v387 : IVec S16 32) (k0_hw140 : k0_chk140 v384 v387), ∀ a x, ((![v384, v387] : Fin 2 → IVec S16 32) a x).toNat < S128x200.size a := fun v384 v387 k0_hw140 => k0_hw140

def k0_chk141 (v384 : IVec S16 32) (v389 : IVec S16 32) : Prop :=
  (∀ a x, ((![v384, v389] : Fin 2 → IVec S16 32) a x).toNat < S128x200.size a)
instance k0_chk141.dec : ∀ (v384 : IVec S16 32) (v389 : IVec S16 32), Decidable (k0_chk141 v384 v389) := fun v384 v389 => decidable_of_iff' _ (Iff.of_eq (k0_chk141.eq_1 v384 v389))
theorem k0_idx141_inb : ∀ (v384 : IVec S16 32) (v389 : IVec S16 32) (k0_hw141 : k0_chk141 v384 v389), ∀ a x, ((![v384, v389] : Fin 2 → IVec S16 32) a x).toNat < S128x200.size a := fun v384 v389 k0_hw141 => k0_hw141
@[reducible] def k0_t7_loop : Scf.Loop 32 :=
  let c0_i32_178 : BitVec 32 := 0#32
  let c25_i32_179 : BitVec 32 := 25#32
  let v393 : BitVec 32 := Scalar.addi c0_i32_178 c25_i32_179
  let c1_i32_180 : BitVec 32 := 1#32
  ⟨c0_i32_178, v393, c1_i32_180⟩

def k0_chk142 (v384 : IVec S16 32) (arg10 : IVec S16 32) : Prop :=
  (∀ a x, ((![v384, arg10] : Fin 2 → IVec S16 32) a x).toNat < S128x200.size a)
instance k0_chk142.dec : ∀ (v384 : IVec S16 32) (arg10 : IVec S16 32), Decidable (k0_chk142 v384 arg10) := fun v384 arg10 => decidable_of_iff' _ (Iff.of_eq (k0_chk142.eq_1 v384 arg10))
theorem k0_idx142_inb : ∀ (v384 : IVec S16 32) (arg10 : IVec S16 32) (k0_hw142 : k0_chk142 v384 arg10), ∀ a x, ((![v384, arg10] : Fin 2 → IVec S16 32) a x).toNat < S128x200.size a := fun v384 arg10 k0_hw142 => k0_hw142

def k0_chk143 (v2027 : IVec S16 32) : Prop :=
  (∀ a x, ((![v2027] : Fin 1 → IVec S16 32) a x).toNat < S32.size a)
instance k0_chk143.dec : ∀ (v2027 : IVec S16 32), Decidable (k0_chk143 v2027) := fun v2027 => decidable_of_iff' _ (Iff.of_eq (k0_chk143.eq_1 v2027))
theorem k0_idx143_inb : ∀ (v2027 : IVec S16 32) (k0_hw143 : k0_chk143 v2027), ∀ a x, ((![v2027] : Fin 1 → IVec S16 32) a x).toNat < S32.size a := fun v2027 k0_hw143 => k0_hw143

def k0_chk144 (v384 : IVec S16 32) (v2039 : IVec S16 32) : Prop :=
  (∀ a x, ((![v384, v2039] : Fin 2 → IVec S16 32) a x).toNat < S128x200.size a)
instance k0_chk144.dec : ∀ (v384 : IVec S16 32) (v2039 : IVec S16 32), Decidable (k0_chk144 v384 v2039) := fun v384 v2039 => decidable_of_iff' _ (Iff.of_eq (k0_chk144.eq_1 v384 v2039))
theorem k0_idx144_inb : ∀ (v384 : IVec S16 32) (v2039 : IVec S16 32) (k0_hw144 : k0_chk144 v384 v2039), ∀ a x, ((![v384, v2039] : Fin 2 → IVec S16 32) a x).toNat < S128x200.size a := fun v384 v2039 k0_hw144 => k0_hw144

def k0_chk145 (v2040 : IVec S16 32) : Prop :=
  (∀ a x, ((![v2040] : Fin 1 → IVec S16 32) a x).toNat < S32.size a)
instance k0_chk145.dec : ∀ (v2040 : IVec S16 32), Decidable (k0_chk145 v2040) := fun v2040 => decidable_of_iff' _ (Iff.of_eq (k0_chk145.eq_1 v2040))
theorem k0_idx145_inb : ∀ (v2040 : IVec S16 32) (k0_hw145 : k0_chk145 v2040), ∀ a x, ((![v2040] : Fin 1 → IVec S16 32) a x).toNat < S32.size a := fun v2040 k0_hw145 => k0_hw145

def k0_chk146 (v384 : IVec S16 32) (v2052 : IVec S16 32) : Prop :=
  (∀ a x, ((![v384, v2052] : Fin 2 → IVec S16 32) a x).toNat < S128x200.size a)
instance k0_chk146.dec : ∀ (v384 : IVec S16 32) (v2052 : IVec S16 32), Decidable (k0_chk146 v384 v2052) := fun v384 v2052 => decidable_of_iff' _ (Iff.of_eq (k0_chk146.eq_1 v384 v2052))
theorem k0_idx146_inb : ∀ (v384 : IVec S16 32) (v2052 : IVec S16 32) (k0_hw146 : k0_chk146 v384 v2052), ∀ a x, ((![v384, v2052] : Fin 2 → IVec S16 32) a x).toNat < S128x200.size a := fun v384 v2052 k0_hw146 => k0_hw146

def k0_chk147 (v2053 : IVec S16 32) : Prop :=
  (∀ a x, ((![v2053] : Fin 1 → IVec S16 32) a x).toNat < S32.size a)
instance k0_chk147.dec : ∀ (v2053 : IVec S16 32), Decidable (k0_chk147 v2053) := fun v2053 => decidable_of_iff' _ (Iff.of_eq (k0_chk147.eq_1 v2053))
theorem k0_idx147_inb : ∀ (v2053 : IVec S16 32) (k0_hw147 : k0_chk147 v2053), ∀ a x, ((![v2053] : Fin 1 → IVec S16 32) a x).toNat < S32.size a := fun v2053 k0_hw147 => k0_hw147

def k0_chk148 (v384 : IVec S16 32) (v2065 : IVec S16 32) : Prop :=
  (∀ a x, ((![v384, v2065] : Fin 2 → IVec S16 32) a x).toNat < S128x200.size a)
instance k0_chk148.dec : ∀ (v384 : IVec S16 32) (v2065 : IVec S16 32), Decidable (k0_chk148 v384 v2065) := fun v384 v2065 => decidable_of_iff' _ (Iff.of_eq (k0_chk148.eq_1 v384 v2065))
theorem k0_idx148_inb : ∀ (v384 : IVec S16 32) (v2065 : IVec S16 32) (k0_hw148 : k0_chk148 v384 v2065), ∀ a x, ((![v384, v2065] : Fin 2 → IVec S16 32) a x).toNat < S128x200.size a := fun v384 v2065 k0_hw148 => k0_hw148

def k0_chk149 (v2066 : IVec S16 32) : Prop :=
  (∀ a x, ((![v2066] : Fin 1 → IVec S16 32) a x).toNat < S32.size a)
instance k0_chk149.dec : ∀ (v2066 : IVec S16 32), Decidable (k0_chk149 v2066) := fun v2066 => decidable_of_iff' _ (Iff.of_eq (k0_chk149.eq_1 v2066))
theorem k0_idx149_inb : ∀ (v2066 : IVec S16 32) (k0_hw149 : k0_chk149 v2066), ∀ a x, ((![v2066] : Fin 1 → IVec S16 32) a x).toNat < S32.size a := fun v2066 k0_hw149 => k0_hw149

def k0_chk150 (v384 : IVec S16 32) (v2078 : IVec S16 32) : Prop :=
  (∀ a x, ((![v384, v2078] : Fin 2 → IVec S16 32) a x).toNat < S128x200.size a)
instance k0_chk150.dec : ∀ (v384 : IVec S16 32) (v2078 : IVec S16 32), Decidable (k0_chk150 v384 v2078) := fun v384 v2078 => decidable_of_iff' _ (Iff.of_eq (k0_chk150.eq_1 v384 v2078))
theorem k0_idx150_inb : ∀ (v384 : IVec S16 32) (v2078 : IVec S16 32) (k0_hw150 : k0_chk150 v384 v2078), ∀ a x, ((![v384, v2078] : Fin 2 → IVec S16 32) a x).toNat < S128x200.size a := fun v384 v2078 k0_hw150 => k0_hw150

def k0_chk151 (v2079 : IVec S16 32) : Prop :=
  (∀ a x, ((![v2079] : Fin 1 → IVec S16 32) a x).toNat < S32.size a)
instance k0_chk151.dec : ∀ (v2079 : IVec S16 32), Decidable (k0_chk151 v2079) := fun v2079 => decidable_of_iff' _ (Iff.of_eq (k0_chk151.eq_1 v2079))
theorem k0_idx151_inb : ∀ (v2079 : IVec S16 32) (k0_hw151 : k0_chk151 v2079), ∀ a x, ((![v2079] : Fin 1 → IVec S16 32) a x).toNat < S32.size a := fun v2079 k0_hw151 => k0_hw151

def k0_chk152 (v384 : IVec S16 32) (v2091 : IVec S16 32) : Prop :=
  (∀ a x, ((![v384, v2091] : Fin 2 → IVec S16 32) a x).toNat < S128x200.size a)
instance k0_chk152.dec : ∀ (v384 : IVec S16 32) (v2091 : IVec S16 32), Decidable (k0_chk152 v384 v2091) := fun v384 v2091 => decidable_of_iff' _ (Iff.of_eq (k0_chk152.eq_1 v384 v2091))
theorem k0_idx152_inb : ∀ (v384 : IVec S16 32) (v2091 : IVec S16 32) (k0_hw152 : k0_chk152 v384 v2091), ∀ a x, ((![v384, v2091] : Fin 2 → IVec S16 32) a x).toNat < S128x200.size a := fun v384 v2091 k0_hw152 => k0_hw152

def k0_chk153 (v2092 : IVec S16 32) : Prop :=
  (∀ a x, ((![v2092] : Fin 1 → IVec S16 32) a x).toNat < S32.size a)
instance k0_chk153.dec : ∀ (v2092 : IVec S16 32), Decidable (k0_chk153 v2092) := fun v2092 => decidable_of_iff' _ (Iff.of_eq (k0_chk153.eq_1 v2092))
theorem k0_idx153_inb : ∀ (v2092 : IVec S16 32) (k0_hw153 : k0_chk153 v2092), ∀ a x, ((![v2092] : Fin 1 → IVec S16 32) a x).toNat < S32.size a := fun v2092 k0_hw153 => k0_hw153

def k0_chk154 (v384 : IVec S16 32) (v2104 : IVec S16 32) : Prop :=
  (∀ a x, ((![v384, v2104] : Fin 2 → IVec S16 32) a x).toNat < S128x200.size a)
instance k0_chk154.dec : ∀ (v384 : IVec S16 32) (v2104 : IVec S16 32), Decidable (k0_chk154 v384 v2104) := fun v384 v2104 => decidable_of_iff' _ (Iff.of_eq (k0_chk154.eq_1 v384 v2104))
theorem k0_idx154_inb : ∀ (v384 : IVec S16 32) (v2104 : IVec S16 32) (k0_hw154 : k0_chk154 v384 v2104), ∀ a x, ((![v384, v2104] : Fin 2 → IVec S16 32) a x).toNat < S128x200.size a := fun v384 v2104 k0_hw154 => k0_hw154

def k0_chk155 (v2105 : IVec S16 32) : Prop :=
  (∀ a x, ((![v2105] : Fin 1 → IVec S16 32) a x).toNat < S32.size a)
instance k0_chk155.dec : ∀ (v2105 : IVec S16 32), Decidable (k0_chk155 v2105) := fun v2105 => decidable_of_iff' _ (Iff.of_eq (k0_chk155.eq_1 v2105))
theorem k0_idx155_inb : ∀ (v2105 : IVec S16 32) (k0_hw155 : k0_chk155 v2105), ∀ a x, ((![v2105] : Fin 1 → IVec S16 32) a x).toNat < S32.size a := fun v2105 k0_hw155 => k0_hw155

def k0_chk156 (v384 : IVec S16 32) (v2117 : IVec S16 32) : Prop :=
  (∀ a x, ((![v384, v2117] : Fin 2 → IVec S16 32) a x).toNat < S128x200.size a)
instance k0_chk156.dec : ∀ (v384 : IVec S16 32) (v2117 : IVec S16 32), Decidable (k0_chk156 v384 v2117) := fun v384 v2117 => decidable_of_iff' _ (Iff.of_eq (k0_chk156.eq_1 v384 v2117))
theorem k0_idx156_inb : ∀ (v384 : IVec S16 32) (v2117 : IVec S16 32) (k0_hw156 : k0_chk156 v384 v2117), ∀ a x, ((![v384, v2117] : Fin 2 → IVec S16 32) a x).toNat < S128x200.size a := fun v384 v2117 k0_hw156 => k0_hw156

def k0_chk157 (v2118 : IVec S16 32) : Prop :=
  (∀ a x, ((![v2118] : Fin 1 → IVec S16 32) a x).toNat < S32.size a)
instance k0_chk157.dec : ∀ (v2118 : IVec S16 32), Decidable (k0_chk157 v2118) := fun v2118 => decidable_of_iff' _ (Iff.of_eq (k0_chk157.eq_1 v2118))
theorem k0_idx157_inb : ∀ (v2118 : IVec S16 32) (k0_hw157 : k0_chk157 v2118), ∀ a x, ((![v2118] : Fin 1 → IVec S16 32) a x).toNat < S32.size a := fun v2118 k0_hw157 => k0_hw157

def k0_chk158 (v384 : IVec S16 32) (v443 : IVec S16 32) : Prop :=
  (∀ a x, ((![v384, v443] : Fin 2 → IVec S16 32) a x).toNat < S128x32.size a)
instance k0_chk158.dec : ∀ (v384 : IVec S16 32) (v443 : IVec S16 32), Decidable (k0_chk158 v384 v443) := fun v384 v443 => decidable_of_iff' _ (Iff.of_eq (k0_chk158.eq_1 v384 v443))
theorem k0_idx158_inb : ∀ (v384 : IVec S16 32) (v443 : IVec S16 32) (k0_hw158 : k0_chk158 v384 v443), ∀ a x, ((![v384, v443] : Fin 2 → IVec S16 32) a x).toNat < S128x32.size a := fun v384 v443 k0_hw158 => k0_hw158

def k0_chk159 (v384 : IVec S16 32) (v386 : IVec S16 32) : Prop :=
  (∀ a x, ((![v384, v386] : Fin 2 → IVec S16 32) a x).toNat < S128x32.size a)
instance k0_chk159.dec : ∀ (v384 : IVec S16 32) (v386 : IVec S16 32), Decidable (k0_chk159 v384 v386) := fun v384 v386 => decidable_of_iff' _ (Iff.of_eq (k0_chk159.eq_1 v384 v386))
theorem k0_idx159_inb : ∀ (v384 : IVec S16 32) (v386 : IVec S16 32) (k0_hw159 : k0_chk159 v384 v386), ∀ a x, ((![v384, v386] : Fin 2 → IVec S16 32) a x).toNat < S128x32.size a := fun v384 v386 k0_hw159 => k0_hw159

def k0_chk160 (v384 : IVec S16 32) (v444 : IVec S16 32) : Prop :=
  (∀ a x, ((![v384, v444] : Fin 2 → IVec S16 32) a x).toNat < S128x32.size a)
instance k0_chk160.dec : ∀ (v384 : IVec S16 32) (v444 : IVec S16 32), Decidable (k0_chk160 v384 v444) := fun v384 v444 => decidable_of_iff' _ (Iff.of_eq (k0_chk160.eq_1 v384 v444))
theorem k0_idx160_inb : ∀ (v384 : IVec S16 32) (v444 : IVec S16 32) (k0_hw160 : k0_chk160 v384 v444), ∀ a x, ((![v384, v444] : Fin 2 → IVec S16 32) a x).toNat < S128x32.size a := fun v384 v444 k0_hw160 => k0_hw160

def k0_chk161 (v384 : IVec S16 32) (v445 : IVec S16 32) : Prop :=
  (∀ a x, ((![v384, v445] : Fin 2 → IVec S16 32) a x).toNat < S128x32.size a)
instance k0_chk161.dec : ∀ (v384 : IVec S16 32) (v445 : IVec S16 32), Decidable (k0_chk161 v384 v445) := fun v384 v445 => decidable_of_iff' _ (Iff.of_eq (k0_chk161.eq_1 v384 v445))
theorem k0_idx161_inb : ∀ (v384 : IVec S16 32) (v445 : IVec S16 32) (k0_hw161 : k0_chk161 v384 v445), ∀ a x, ((![v384, v445] : Fin 2 → IVec S16 32) a x).toNat < S128x32.size a := fun v384 v445 k0_hw161 => k0_hw161

def k0_chk162 (v447 : IVec S16 32) (v448 : IVec S16 32) : Prop :=
  (∀ a x, ((![v447, v448] : Fin 2 → IVec S16 32) a x).toNat < S128x200.size a)
instance k0_chk162.dec : ∀ (v447 : IVec S16 32) (v448 : IVec S16 32), Decidable (k0_chk162 v447 v448) := fun v447 v448 => decidable_of_iff' _ (Iff.of_eq (k0_chk162.eq_1 v447 v448))
theorem k0_idx162_inb : ∀ (v447 : IVec S16 32) (v448 : IVec S16 32) (k0_hw162 : k0_chk162 v447 v448), ∀ a x, ((![v447, v448] : Fin 2 → IVec S16 32) a x).toNat < S128x200.size a := fun v447 v448 k0_hw162 => k0_hw162

def k0_chk163 (v447 : IVec S16 32) (v450 : IVec S16 32) : Prop :=
  (∀ a x, ((![v447, v450] : Fin 2 → IVec S16 32) a x).toNat < S128x200.size a)
instance k0_chk163.dec : ∀ (v447 : IVec S16 32) (v450 : IVec S16 32), Decidable (k0_chk163 v447 v450) := fun v447 v450 => decidable_of_iff' _ (Iff.of_eq (k0_chk163.eq_1 v447 v450))
theorem k0_idx163_inb : ∀ (v447 : IVec S16 32) (v450 : IVec S16 32) (k0_hw163 : k0_chk163 v447 v450), ∀ a x, ((![v447, v450] : Fin 2 → IVec S16 32) a x).toNat < S128x200.size a := fun v447 v450 k0_hw163 => k0_hw163

def k0_chk164 (v447 : IVec S16 32) (v452 : IVec S16 32) : Prop :=
  (∀ a x, ((![v447, v452] : Fin 2 → IVec S16 32) a x).toNat < S128x200.size a)
instance k0_chk164.dec : ∀ (v447 : IVec S16 32) (v452 : IVec S16 32), Decidable (k0_chk164 v447 v452) := fun v447 v452 => decidable_of_iff' _ (Iff.of_eq (k0_chk164.eq_1 v447 v452))
theorem k0_idx164_inb : ∀ (v447 : IVec S16 32) (v452 : IVec S16 32) (k0_hw164 : k0_chk164 v447 v452), ∀ a x, ((![v447, v452] : Fin 2 → IVec S16 32) a x).toNat < S128x200.size a := fun v447 v452 k0_hw164 => k0_hw164
@[reducible] def k0_t8_loop : Scf.Loop 32 :=
  let c0_i32_209 : BitVec 32 := 0#32
  let c25_i32_210 : BitVec 32 := 25#32
  let v456 : BitVec 32 := Scalar.addi c0_i32_209 c25_i32_210
  let c1_i32_211 : BitVec 32 := 1#32
  ⟨c0_i32_209, v456, c1_i32_211⟩

def k0_chk165 (v447 : IVec S16 32) (arg10 : IVec S16 32) : Prop :=
  (∀ a x, ((![v447, arg10] : Fin 2 → IVec S16 32) a x).toNat < S128x200.size a)
instance k0_chk165.dec : ∀ (v447 : IVec S16 32) (arg10 : IVec S16 32), Decidable (k0_chk165 v447 arg10) := fun v447 arg10 => decidable_of_iff' _ (Iff.of_eq (k0_chk165.eq_1 v447 arg10))
theorem k0_idx165_inb : ∀ (v447 : IVec S16 32) (arg10 : IVec S16 32) (k0_hw165 : k0_chk165 v447 arg10), ∀ a x, ((![v447, arg10] : Fin 2 → IVec S16 32) a x).toNat < S128x200.size a := fun v447 arg10 k0_hw165 => k0_hw165

def k0_chk166 (v2027 : IVec S16 32) : Prop :=
  (∀ a x, ((![v2027] : Fin 1 → IVec S16 32) a x).toNat < S32.size a)
instance k0_chk166.dec : ∀ (v2027 : IVec S16 32), Decidable (k0_chk166 v2027) := fun v2027 => decidable_of_iff' _ (Iff.of_eq (k0_chk166.eq_1 v2027))
theorem k0_idx166_inb : ∀ (v2027 : IVec S16 32) (k0_hw166 : k0_chk166 v2027), ∀ a x, ((![v2027] : Fin 1 → IVec S16 32) a x).toNat < S32.size a := fun v2027 k0_hw166 => k0_hw166

def k0_chk167 (v447 : IVec S16 32) (v2039 : IVec S16 32) : Prop :=
  (∀ a x, ((![v447, v2039] : Fin 2 → IVec S16 32) a x).toNat < S128x200.size a)
instance k0_chk167.dec : ∀ (v447 : IVec S16 32) (v2039 : IVec S16 32), Decidable (k0_chk167 v447 v2039) := fun v447 v2039 => decidable_of_iff' _ (Iff.of_eq (k0_chk167.eq_1 v447 v2039))
theorem k0_idx167_inb : ∀ (v447 : IVec S16 32) (v2039 : IVec S16 32) (k0_hw167 : k0_chk167 v447 v2039), ∀ a x, ((![v447, v2039] : Fin 2 → IVec S16 32) a x).toNat < S128x200.size a := fun v447 v2039 k0_hw167 => k0_hw167

def k0_chk168 (v2040 : IVec S16 32) : Prop :=
  (∀ a x, ((![v2040] : Fin 1 → IVec S16 32) a x).toNat < S32.size a)
instance k0_chk168.dec : ∀ (v2040 : IVec S16 32), Decidable (k0_chk168 v2040) := fun v2040 => decidable_of_iff' _ (Iff.of_eq (k0_chk168.eq_1 v2040))
theorem k0_idx168_inb : ∀ (v2040 : IVec S16 32) (k0_hw168 : k0_chk168 v2040), ∀ a x, ((![v2040] : Fin 1 → IVec S16 32) a x).toNat < S32.size a := fun v2040 k0_hw168 => k0_hw168

def k0_chk169 (v447 : IVec S16 32) (v2052 : IVec S16 32) : Prop :=
  (∀ a x, ((![v447, v2052] : Fin 2 → IVec S16 32) a x).toNat < S128x200.size a)
instance k0_chk169.dec : ∀ (v447 : IVec S16 32) (v2052 : IVec S16 32), Decidable (k0_chk169 v447 v2052) := fun v447 v2052 => decidable_of_iff' _ (Iff.of_eq (k0_chk169.eq_1 v447 v2052))
theorem k0_idx169_inb : ∀ (v447 : IVec S16 32) (v2052 : IVec S16 32) (k0_hw169 : k0_chk169 v447 v2052), ∀ a x, ((![v447, v2052] : Fin 2 → IVec S16 32) a x).toNat < S128x200.size a := fun v447 v2052 k0_hw169 => k0_hw169

def k0_chk170 (v2053 : IVec S16 32) : Prop :=
  (∀ a x, ((![v2053] : Fin 1 → IVec S16 32) a x).toNat < S32.size a)
instance k0_chk170.dec : ∀ (v2053 : IVec S16 32), Decidable (k0_chk170 v2053) := fun v2053 => decidable_of_iff' _ (Iff.of_eq (k0_chk170.eq_1 v2053))
theorem k0_idx170_inb : ∀ (v2053 : IVec S16 32) (k0_hw170 : k0_chk170 v2053), ∀ a x, ((![v2053] : Fin 1 → IVec S16 32) a x).toNat < S32.size a := fun v2053 k0_hw170 => k0_hw170

def k0_chk171 (v447 : IVec S16 32) (v2065 : IVec S16 32) : Prop :=
  (∀ a x, ((![v447, v2065] : Fin 2 → IVec S16 32) a x).toNat < S128x200.size a)
instance k0_chk171.dec : ∀ (v447 : IVec S16 32) (v2065 : IVec S16 32), Decidable (k0_chk171 v447 v2065) := fun v447 v2065 => decidable_of_iff' _ (Iff.of_eq (k0_chk171.eq_1 v447 v2065))
theorem k0_idx171_inb : ∀ (v447 : IVec S16 32) (v2065 : IVec S16 32) (k0_hw171 : k0_chk171 v447 v2065), ∀ a x, ((![v447, v2065] : Fin 2 → IVec S16 32) a x).toNat < S128x200.size a := fun v447 v2065 k0_hw171 => k0_hw171

def k0_chk172 (v2066 : IVec S16 32) : Prop :=
  (∀ a x, ((![v2066] : Fin 1 → IVec S16 32) a x).toNat < S32.size a)
instance k0_chk172.dec : ∀ (v2066 : IVec S16 32), Decidable (k0_chk172 v2066) := fun v2066 => decidable_of_iff' _ (Iff.of_eq (k0_chk172.eq_1 v2066))
theorem k0_idx172_inb : ∀ (v2066 : IVec S16 32) (k0_hw172 : k0_chk172 v2066), ∀ a x, ((![v2066] : Fin 1 → IVec S16 32) a x).toNat < S32.size a := fun v2066 k0_hw172 => k0_hw172

def k0_chk173 (v447 : IVec S16 32) (v2078 : IVec S16 32) : Prop :=
  (∀ a x, ((![v447, v2078] : Fin 2 → IVec S16 32) a x).toNat < S128x200.size a)
instance k0_chk173.dec : ∀ (v447 : IVec S16 32) (v2078 : IVec S16 32), Decidable (k0_chk173 v447 v2078) := fun v447 v2078 => decidable_of_iff' _ (Iff.of_eq (k0_chk173.eq_1 v447 v2078))
theorem k0_idx173_inb : ∀ (v447 : IVec S16 32) (v2078 : IVec S16 32) (k0_hw173 : k0_chk173 v447 v2078), ∀ a x, ((![v447, v2078] : Fin 2 → IVec S16 32) a x).toNat < S128x200.size a := fun v447 v2078 k0_hw173 => k0_hw173

def k0_chk174 (v2079 : IVec S16 32) : Prop :=
  (∀ a x, ((![v2079] : Fin 1 → IVec S16 32) a x).toNat < S32.size a)
instance k0_chk174.dec : ∀ (v2079 : IVec S16 32), Decidable (k0_chk174 v2079) := fun v2079 => decidable_of_iff' _ (Iff.of_eq (k0_chk174.eq_1 v2079))
theorem k0_idx174_inb : ∀ (v2079 : IVec S16 32) (k0_hw174 : k0_chk174 v2079), ∀ a x, ((![v2079] : Fin 1 → IVec S16 32) a x).toNat < S32.size a := fun v2079 k0_hw174 => k0_hw174

def k0_chk175 (v447 : IVec S16 32) (v2091 : IVec S16 32) : Prop :=
  (∀ a x, ((![v447, v2091] : Fin 2 → IVec S16 32) a x).toNat < S128x200.size a)
instance k0_chk175.dec : ∀ (v447 : IVec S16 32) (v2091 : IVec S16 32), Decidable (k0_chk175 v447 v2091) := fun v447 v2091 => decidable_of_iff' _ (Iff.of_eq (k0_chk175.eq_1 v447 v2091))
theorem k0_idx175_inb : ∀ (v447 : IVec S16 32) (v2091 : IVec S16 32) (k0_hw175 : k0_chk175 v447 v2091), ∀ a x, ((![v447, v2091] : Fin 2 → IVec S16 32) a x).toNat < S128x200.size a := fun v447 v2091 k0_hw175 => k0_hw175

def k0_chk176 (v2092 : IVec S16 32) : Prop :=
  (∀ a x, ((![v2092] : Fin 1 → IVec S16 32) a x).toNat < S32.size a)
instance k0_chk176.dec : ∀ (v2092 : IVec S16 32), Decidable (k0_chk176 v2092) := fun v2092 => decidable_of_iff' _ (Iff.of_eq (k0_chk176.eq_1 v2092))
theorem k0_idx176_inb : ∀ (v2092 : IVec S16 32) (k0_hw176 : k0_chk176 v2092), ∀ a x, ((![v2092] : Fin 1 → IVec S16 32) a x).toNat < S32.size a := fun v2092 k0_hw176 => k0_hw176

def k0_chk177 (v447 : IVec S16 32) (v2104 : IVec S16 32) : Prop :=
  (∀ a x, ((![v447, v2104] : Fin 2 → IVec S16 32) a x).toNat < S128x200.size a)
instance k0_chk177.dec : ∀ (v447 : IVec S16 32) (v2104 : IVec S16 32), Decidable (k0_chk177 v447 v2104) := fun v447 v2104 => decidable_of_iff' _ (Iff.of_eq (k0_chk177.eq_1 v447 v2104))
theorem k0_idx177_inb : ∀ (v447 : IVec S16 32) (v2104 : IVec S16 32) (k0_hw177 : k0_chk177 v447 v2104), ∀ a x, ((![v447, v2104] : Fin 2 → IVec S16 32) a x).toNat < S128x200.size a := fun v447 v2104 k0_hw177 => k0_hw177

def k0_chk178 (v2105 : IVec S16 32) : Prop :=
  (∀ a x, ((![v2105] : Fin 1 → IVec S16 32) a x).toNat < S32.size a)
instance k0_chk178.dec : ∀ (v2105 : IVec S16 32), Decidable (k0_chk178 v2105) := fun v2105 => decidable_of_iff' _ (Iff.of_eq (k0_chk178.eq_1 v2105))
theorem k0_idx178_inb : ∀ (v2105 : IVec S16 32) (k0_hw178 : k0_chk178 v2105), ∀ a x, ((![v2105] : Fin 1 → IVec S16 32) a x).toNat < S32.size a := fun v2105 k0_hw178 => k0_hw178

def k0_chk179 (v447 : IVec S16 32) (v2117 : IVec S16 32) : Prop :=
  (∀ a x, ((![v447, v2117] : Fin 2 → IVec S16 32) a x).toNat < S128x200.size a)
instance k0_chk179.dec : ∀ (v447 : IVec S16 32) (v2117 : IVec S16 32), Decidable (k0_chk179 v447 v2117) := fun v447 v2117 => decidable_of_iff' _ (Iff.of_eq (k0_chk179.eq_1 v447 v2117))
theorem k0_idx179_inb : ∀ (v447 : IVec S16 32) (v2117 : IVec S16 32) (k0_hw179 : k0_chk179 v447 v2117), ∀ a x, ((![v447, v2117] : Fin 2 → IVec S16 32) a x).toNat < S128x200.size a := fun v447 v2117 k0_hw179 => k0_hw179

def k0_chk180 (v2118 : IVec S16 32) : Prop :=
  (∀ a x, ((![v2118] : Fin 1 → IVec S16 32) a x).toNat < S32.size a)
instance k0_chk180.dec : ∀ (v2118 : IVec S16 32), Decidable (k0_chk180 v2118) := fun v2118 => decidable_of_iff' _ (Iff.of_eq (k0_chk180.eq_1 v2118))
theorem k0_idx180_inb : ∀ (v2118 : IVec S16 32) (k0_hw180 : k0_chk180 v2118), ∀ a x, ((![v2118] : Fin 1 → IVec S16 32) a x).toNat < S32.size a := fun v2118 k0_hw180 => k0_hw180

def k0_chk181 (v447 : IVec S16 32) (v506 : IVec S16 32) : Prop :=
  (∀ a x, ((![v447, v506] : Fin 2 → IVec S16 32) a x).toNat < S128x32.size a)
instance k0_chk181.dec : ∀ (v447 : IVec S16 32) (v506 : IVec S16 32), Decidable (k0_chk181 v447 v506) := fun v447 v506 => decidable_of_iff' _ (Iff.of_eq (k0_chk181.eq_1 v447 v506))
theorem k0_idx181_inb : ∀ (v447 : IVec S16 32) (v506 : IVec S16 32) (k0_hw181 : k0_chk181 v447 v506), ∀ a x, ((![v447, v506] : Fin 2 → IVec S16 32) a x).toNat < S128x32.size a := fun v447 v506 k0_hw181 => k0_hw181

def k0_chk182 (v447 : IVec S16 32) (v449 : IVec S16 32) : Prop :=
  (∀ a x, ((![v447, v449] : Fin 2 → IVec S16 32) a x).toNat < S128x32.size a)
instance k0_chk182.dec : ∀ (v447 : IVec S16 32) (v449 : IVec S16 32), Decidable (k0_chk182 v447 v449) := fun v447 v449 => decidable_of_iff' _ (Iff.of_eq (k0_chk182.eq_1 v447 v449))
theorem k0_idx182_inb : ∀ (v447 : IVec S16 32) (v449 : IVec S16 32) (k0_hw182 : k0_chk182 v447 v449), ∀ a x, ((![v447, v449] : Fin 2 → IVec S16 32) a x).toNat < S128x32.size a := fun v447 v449 k0_hw182 => k0_hw182

def k0_chk183 (v447 : IVec S16 32) (v507 : IVec S16 32) : Prop :=
  (∀ a x, ((![v447, v507] : Fin 2 → IVec S16 32) a x).toNat < S128x32.size a)
instance k0_chk183.dec : ∀ (v447 : IVec S16 32) (v507 : IVec S16 32), Decidable (k0_chk183 v447 v507) := fun v447 v507 => decidable_of_iff' _ (Iff.of_eq (k0_chk183.eq_1 v447 v507))
theorem k0_idx183_inb : ∀ (v447 : IVec S16 32) (v507 : IVec S16 32) (k0_hw183 : k0_chk183 v447 v507), ∀ a x, ((![v447, v507] : Fin 2 → IVec S16 32) a x).toNat < S128x32.size a := fun v447 v507 k0_hw183 => k0_hw183

def k0_chk184 (v447 : IVec S16 32) (v508 : IVec S16 32) : Prop :=
  (∀ a x, ((![v447, v508] : Fin 2 → IVec S16 32) a x).toNat < S128x32.size a)
instance k0_chk184.dec : ∀ (v447 : IVec S16 32) (v508 : IVec S16 32), Decidable (k0_chk184 v447 v508) := fun v447 v508 => decidable_of_iff' _ (Iff.of_eq (k0_chk184.eq_1 v447 v508))
theorem k0_idx184_inb : ∀ (v447 : IVec S16 32) (v508 : IVec S16 32) (k0_hw184 : k0_chk184 v447 v508), ∀ a x, ((![v447, v508] : Fin 2 → IVec S16 32) a x).toNat < S128x32.size a := fun v447 v508 k0_hw184 => k0_hw184
def k0_off3 (i : grid0.Coords) (c0_i32 : BitVec 32) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c512_i32 : BitVec 32 := 512#32
  let v3 : BitVec 32 := Scalar.muli v2 c512_i32
  let v4 : BitVec 32 := Scalar.addi v3 c0_i32
  let c0_i32_1006_r3 : BitVec 32 := 0#32
  ![v4.toNat, 0]
def k0_off4 (i : grid0.Coords) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c512_i32_235 : BitVec 32 := 512#32
  let v509 : BitVec 32 := Scalar.muli v2 c512_i32_235
  let c128_i32 : BitVec 32 := 128#32
  let v510 : BitVec 32 := Scalar.addi v509 c128_i32
  let c0_i32_1006_r4 : BitVec 32 := 0#32
  ![v510.toNat, 0]

def k0_chk185 (v512 : IVec S16 32) (v513 : IVec S16 32) : Prop :=
  (∀ a x, ((![v512, v513] : Fin 2 → IVec S16 32) a x).toNat < S128x200.size a)
instance k0_chk185.dec : ∀ (v512 : IVec S16 32) (v513 : IVec S16 32), Decidable (k0_chk185 v512 v513) := fun v512 v513 => decidable_of_iff' _ (Iff.of_eq (k0_chk185.eq_1 v512 v513))
theorem k0_idx185_inb : ∀ (v512 : IVec S16 32) (v513 : IVec S16 32) (k0_hw185 : k0_chk185 v512 v513), ∀ a x, ((![v512, v513] : Fin 2 → IVec S16 32) a x).toNat < S128x200.size a := fun v512 v513 k0_hw185 => k0_hw185

def k0_chk186 (v512 : IVec S16 32) (v515 : IVec S16 32) : Prop :=
  (∀ a x, ((![v512, v515] : Fin 2 → IVec S16 32) a x).toNat < S128x200.size a)
instance k0_chk186.dec : ∀ (v512 : IVec S16 32) (v515 : IVec S16 32), Decidable (k0_chk186 v512 v515) := fun v512 v515 => decidable_of_iff' _ (Iff.of_eq (k0_chk186.eq_1 v512 v515))
theorem k0_idx186_inb : ∀ (v512 : IVec S16 32) (v515 : IVec S16 32) (k0_hw186 : k0_chk186 v512 v515), ∀ a x, ((![v512, v515] : Fin 2 → IVec S16 32) a x).toNat < S128x200.size a := fun v512 v515 k0_hw186 => k0_hw186

def k0_chk187 (v512 : IVec S16 32) (v517 : IVec S16 32) : Prop :=
  (∀ a x, ((![v512, v517] : Fin 2 → IVec S16 32) a x).toNat < S128x200.size a)
instance k0_chk187.dec : ∀ (v512 : IVec S16 32) (v517 : IVec S16 32), Decidable (k0_chk187 v512 v517) := fun v512 v517 => decidable_of_iff' _ (Iff.of_eq (k0_chk187.eq_1 v512 v517))
theorem k0_idx187_inb : ∀ (v512 : IVec S16 32) (v517 : IVec S16 32) (k0_hw187 : k0_chk187 v512 v517), ∀ a x, ((![v512, v517] : Fin 2 → IVec S16 32) a x).toNat < S128x200.size a := fun v512 v517 k0_hw187 => k0_hw187
@[reducible] def k0_t9_loop : Scf.Loop 32 :=
  let c0_i32_242 : BitVec 32 := 0#32
  let c25_i32_243 : BitVec 32 := 25#32
  let v521 : BitVec 32 := Scalar.addi c0_i32_242 c25_i32_243
  let c1_i32_244 : BitVec 32 := 1#32
  ⟨c0_i32_242, v521, c1_i32_244⟩

def k0_chk188 (v512 : IVec S16 32) (arg10 : IVec S16 32) : Prop :=
  (∀ a x, ((![v512, arg10] : Fin 2 → IVec S16 32) a x).toNat < S128x200.size a)
instance k0_chk188.dec : ∀ (v512 : IVec S16 32) (arg10 : IVec S16 32), Decidable (k0_chk188 v512 arg10) := fun v512 arg10 => decidable_of_iff' _ (Iff.of_eq (k0_chk188.eq_1 v512 arg10))
theorem k0_idx188_inb : ∀ (v512 : IVec S16 32) (arg10 : IVec S16 32) (k0_hw188 : k0_chk188 v512 arg10), ∀ a x, ((![v512, arg10] : Fin 2 → IVec S16 32) a x).toNat < S128x200.size a := fun v512 arg10 k0_hw188 => k0_hw188

def k0_chk189 (v2027 : IVec S16 32) : Prop :=
  (∀ a x, ((![v2027] : Fin 1 → IVec S16 32) a x).toNat < S32.size a)
instance k0_chk189.dec : ∀ (v2027 : IVec S16 32), Decidable (k0_chk189 v2027) := fun v2027 => decidable_of_iff' _ (Iff.of_eq (k0_chk189.eq_1 v2027))
theorem k0_idx189_inb : ∀ (v2027 : IVec S16 32) (k0_hw189 : k0_chk189 v2027), ∀ a x, ((![v2027] : Fin 1 → IVec S16 32) a x).toNat < S32.size a := fun v2027 k0_hw189 => k0_hw189

def k0_chk190 (v512 : IVec S16 32) (v2039 : IVec S16 32) : Prop :=
  (∀ a x, ((![v512, v2039] : Fin 2 → IVec S16 32) a x).toNat < S128x200.size a)
instance k0_chk190.dec : ∀ (v512 : IVec S16 32) (v2039 : IVec S16 32), Decidable (k0_chk190 v512 v2039) := fun v512 v2039 => decidable_of_iff' _ (Iff.of_eq (k0_chk190.eq_1 v512 v2039))
theorem k0_idx190_inb : ∀ (v512 : IVec S16 32) (v2039 : IVec S16 32) (k0_hw190 : k0_chk190 v512 v2039), ∀ a x, ((![v512, v2039] : Fin 2 → IVec S16 32) a x).toNat < S128x200.size a := fun v512 v2039 k0_hw190 => k0_hw190

def k0_chk191 (v2040 : IVec S16 32) : Prop :=
  (∀ a x, ((![v2040] : Fin 1 → IVec S16 32) a x).toNat < S32.size a)
instance k0_chk191.dec : ∀ (v2040 : IVec S16 32), Decidable (k0_chk191 v2040) := fun v2040 => decidable_of_iff' _ (Iff.of_eq (k0_chk191.eq_1 v2040))
theorem k0_idx191_inb : ∀ (v2040 : IVec S16 32) (k0_hw191 : k0_chk191 v2040), ∀ a x, ((![v2040] : Fin 1 → IVec S16 32) a x).toNat < S32.size a := fun v2040 k0_hw191 => k0_hw191

def k0_chk192 (v512 : IVec S16 32) (v2052 : IVec S16 32) : Prop :=
  (∀ a x, ((![v512, v2052] : Fin 2 → IVec S16 32) a x).toNat < S128x200.size a)
instance k0_chk192.dec : ∀ (v512 : IVec S16 32) (v2052 : IVec S16 32), Decidable (k0_chk192 v512 v2052) := fun v512 v2052 => decidable_of_iff' _ (Iff.of_eq (k0_chk192.eq_1 v512 v2052))
theorem k0_idx192_inb : ∀ (v512 : IVec S16 32) (v2052 : IVec S16 32) (k0_hw192 : k0_chk192 v512 v2052), ∀ a x, ((![v512, v2052] : Fin 2 → IVec S16 32) a x).toNat < S128x200.size a := fun v512 v2052 k0_hw192 => k0_hw192

def k0_chk193 (v2053 : IVec S16 32) : Prop :=
  (∀ a x, ((![v2053] : Fin 1 → IVec S16 32) a x).toNat < S32.size a)
instance k0_chk193.dec : ∀ (v2053 : IVec S16 32), Decidable (k0_chk193 v2053) := fun v2053 => decidable_of_iff' _ (Iff.of_eq (k0_chk193.eq_1 v2053))
theorem k0_idx193_inb : ∀ (v2053 : IVec S16 32) (k0_hw193 : k0_chk193 v2053), ∀ a x, ((![v2053] : Fin 1 → IVec S16 32) a x).toNat < S32.size a := fun v2053 k0_hw193 => k0_hw193

def k0_chk194 (v512 : IVec S16 32) (v2065 : IVec S16 32) : Prop :=
  (∀ a x, ((![v512, v2065] : Fin 2 → IVec S16 32) a x).toNat < S128x200.size a)
instance k0_chk194.dec : ∀ (v512 : IVec S16 32) (v2065 : IVec S16 32), Decidable (k0_chk194 v512 v2065) := fun v512 v2065 => decidable_of_iff' _ (Iff.of_eq (k0_chk194.eq_1 v512 v2065))
theorem k0_idx194_inb : ∀ (v512 : IVec S16 32) (v2065 : IVec S16 32) (k0_hw194 : k0_chk194 v512 v2065), ∀ a x, ((![v512, v2065] : Fin 2 → IVec S16 32) a x).toNat < S128x200.size a := fun v512 v2065 k0_hw194 => k0_hw194

def k0_chk195 (v2066 : IVec S16 32) : Prop :=
  (∀ a x, ((![v2066] : Fin 1 → IVec S16 32) a x).toNat < S32.size a)
instance k0_chk195.dec : ∀ (v2066 : IVec S16 32), Decidable (k0_chk195 v2066) := fun v2066 => decidable_of_iff' _ (Iff.of_eq (k0_chk195.eq_1 v2066))
theorem k0_idx195_inb : ∀ (v2066 : IVec S16 32) (k0_hw195 : k0_chk195 v2066), ∀ a x, ((![v2066] : Fin 1 → IVec S16 32) a x).toNat < S32.size a := fun v2066 k0_hw195 => k0_hw195

def k0_chk196 (v512 : IVec S16 32) (v2078 : IVec S16 32) : Prop :=
  (∀ a x, ((![v512, v2078] : Fin 2 → IVec S16 32) a x).toNat < S128x200.size a)
instance k0_chk196.dec : ∀ (v512 : IVec S16 32) (v2078 : IVec S16 32), Decidable (k0_chk196 v512 v2078) := fun v512 v2078 => decidable_of_iff' _ (Iff.of_eq (k0_chk196.eq_1 v512 v2078))
theorem k0_idx196_inb : ∀ (v512 : IVec S16 32) (v2078 : IVec S16 32) (k0_hw196 : k0_chk196 v512 v2078), ∀ a x, ((![v512, v2078] : Fin 2 → IVec S16 32) a x).toNat < S128x200.size a := fun v512 v2078 k0_hw196 => k0_hw196

def k0_chk197 (v2079 : IVec S16 32) : Prop :=
  (∀ a x, ((![v2079] : Fin 1 → IVec S16 32) a x).toNat < S32.size a)
instance k0_chk197.dec : ∀ (v2079 : IVec S16 32), Decidable (k0_chk197 v2079) := fun v2079 => decidable_of_iff' _ (Iff.of_eq (k0_chk197.eq_1 v2079))
theorem k0_idx197_inb : ∀ (v2079 : IVec S16 32) (k0_hw197 : k0_chk197 v2079), ∀ a x, ((![v2079] : Fin 1 → IVec S16 32) a x).toNat < S32.size a := fun v2079 k0_hw197 => k0_hw197

def k0_chk198 (v512 : IVec S16 32) (v2091 : IVec S16 32) : Prop :=
  (∀ a x, ((![v512, v2091] : Fin 2 → IVec S16 32) a x).toNat < S128x200.size a)
instance k0_chk198.dec : ∀ (v512 : IVec S16 32) (v2091 : IVec S16 32), Decidable (k0_chk198 v512 v2091) := fun v512 v2091 => decidable_of_iff' _ (Iff.of_eq (k0_chk198.eq_1 v512 v2091))
theorem k0_idx198_inb : ∀ (v512 : IVec S16 32) (v2091 : IVec S16 32) (k0_hw198 : k0_chk198 v512 v2091), ∀ a x, ((![v512, v2091] : Fin 2 → IVec S16 32) a x).toNat < S128x200.size a := fun v512 v2091 k0_hw198 => k0_hw198

def k0_chk199 (v2092 : IVec S16 32) : Prop :=
  (∀ a x, ((![v2092] : Fin 1 → IVec S16 32) a x).toNat < S32.size a)
instance k0_chk199.dec : ∀ (v2092 : IVec S16 32), Decidable (k0_chk199 v2092) := fun v2092 => decidable_of_iff' _ (Iff.of_eq (k0_chk199.eq_1 v2092))
theorem k0_idx199_inb : ∀ (v2092 : IVec S16 32) (k0_hw199 : k0_chk199 v2092), ∀ a x, ((![v2092] : Fin 1 → IVec S16 32) a x).toNat < S32.size a := fun v2092 k0_hw199 => k0_hw199

def k0_chk200 (v512 : IVec S16 32) (v2104 : IVec S16 32) : Prop :=
  (∀ a x, ((![v512, v2104] : Fin 2 → IVec S16 32) a x).toNat < S128x200.size a)
instance k0_chk200.dec : ∀ (v512 : IVec S16 32) (v2104 : IVec S16 32), Decidable (k0_chk200 v512 v2104) := fun v512 v2104 => decidable_of_iff' _ (Iff.of_eq (k0_chk200.eq_1 v512 v2104))
theorem k0_idx200_inb : ∀ (v512 : IVec S16 32) (v2104 : IVec S16 32) (k0_hw200 : k0_chk200 v512 v2104), ∀ a x, ((![v512, v2104] : Fin 2 → IVec S16 32) a x).toNat < S128x200.size a := fun v512 v2104 k0_hw200 => k0_hw200

def k0_chk201 (v2105 : IVec S16 32) : Prop :=
  (∀ a x, ((![v2105] : Fin 1 → IVec S16 32) a x).toNat < S32.size a)
instance k0_chk201.dec : ∀ (v2105 : IVec S16 32), Decidable (k0_chk201 v2105) := fun v2105 => decidable_of_iff' _ (Iff.of_eq (k0_chk201.eq_1 v2105))
theorem k0_idx201_inb : ∀ (v2105 : IVec S16 32) (k0_hw201 : k0_chk201 v2105), ∀ a x, ((![v2105] : Fin 1 → IVec S16 32) a x).toNat < S32.size a := fun v2105 k0_hw201 => k0_hw201

def k0_chk202 (v512 : IVec S16 32) (v2117 : IVec S16 32) : Prop :=
  (∀ a x, ((![v512, v2117] : Fin 2 → IVec S16 32) a x).toNat < S128x200.size a)
instance k0_chk202.dec : ∀ (v512 : IVec S16 32) (v2117 : IVec S16 32), Decidable (k0_chk202 v512 v2117) := fun v512 v2117 => decidable_of_iff' _ (Iff.of_eq (k0_chk202.eq_1 v512 v2117))
theorem k0_idx202_inb : ∀ (v512 : IVec S16 32) (v2117 : IVec S16 32) (k0_hw202 : k0_chk202 v512 v2117), ∀ a x, ((![v512, v2117] : Fin 2 → IVec S16 32) a x).toNat < S128x200.size a := fun v512 v2117 k0_hw202 => k0_hw202

def k0_chk203 (v2118 : IVec S16 32) : Prop :=
  (∀ a x, ((![v2118] : Fin 1 → IVec S16 32) a x).toNat < S32.size a)
instance k0_chk203.dec : ∀ (v2118 : IVec S16 32), Decidable (k0_chk203 v2118) := fun v2118 => decidable_of_iff' _ (Iff.of_eq (k0_chk203.eq_1 v2118))
theorem k0_idx203_inb : ∀ (v2118 : IVec S16 32) (k0_hw203 : k0_chk203 v2118), ∀ a x, ((![v2118] : Fin 1 → IVec S16 32) a x).toNat < S32.size a := fun v2118 k0_hw203 => k0_hw203

def k0_chk204 (v512 : IVec S16 32) (v571 : IVec S16 32) : Prop :=
  (∀ a x, ((![v512, v571] : Fin 2 → IVec S16 32) a x).toNat < S128x32.size a)
instance k0_chk204.dec : ∀ (v512 : IVec S16 32) (v571 : IVec S16 32), Decidable (k0_chk204 v512 v571) := fun v512 v571 => decidable_of_iff' _ (Iff.of_eq (k0_chk204.eq_1 v512 v571))
theorem k0_idx204_inb : ∀ (v512 : IVec S16 32) (v571 : IVec S16 32) (k0_hw204 : k0_chk204 v512 v571), ∀ a x, ((![v512, v571] : Fin 2 → IVec S16 32) a x).toNat < S128x32.size a := fun v512 v571 k0_hw204 => k0_hw204

def k0_chk205 (v512 : IVec S16 32) (v514 : IVec S16 32) : Prop :=
  (∀ a x, ((![v512, v514] : Fin 2 → IVec S16 32) a x).toNat < S128x32.size a)
instance k0_chk205.dec : ∀ (v512 : IVec S16 32) (v514 : IVec S16 32), Decidable (k0_chk205 v512 v514) := fun v512 v514 => decidable_of_iff' _ (Iff.of_eq (k0_chk205.eq_1 v512 v514))
theorem k0_idx205_inb : ∀ (v512 : IVec S16 32) (v514 : IVec S16 32) (k0_hw205 : k0_chk205 v512 v514), ∀ a x, ((![v512, v514] : Fin 2 → IVec S16 32) a x).toNat < S128x32.size a := fun v512 v514 k0_hw205 => k0_hw205

def k0_chk206 (v512 : IVec S16 32) (v572 : IVec S16 32) : Prop :=
  (∀ a x, ((![v512, v572] : Fin 2 → IVec S16 32) a x).toNat < S128x32.size a)
instance k0_chk206.dec : ∀ (v512 : IVec S16 32) (v572 : IVec S16 32), Decidable (k0_chk206 v512 v572) := fun v512 v572 => decidable_of_iff' _ (Iff.of_eq (k0_chk206.eq_1 v512 v572))
theorem k0_idx206_inb : ∀ (v512 : IVec S16 32) (v572 : IVec S16 32) (k0_hw206 : k0_chk206 v512 v572), ∀ a x, ((![v512, v572] : Fin 2 → IVec S16 32) a x).toNat < S128x32.size a := fun v512 v572 k0_hw206 => k0_hw206

def k0_chk207 (v512 : IVec S16 32) (v573 : IVec S16 32) : Prop :=
  (∀ a x, ((![v512, v573] : Fin 2 → IVec S16 32) a x).toNat < S128x32.size a)
instance k0_chk207.dec : ∀ (v512 : IVec S16 32) (v573 : IVec S16 32), Decidable (k0_chk207 v512 v573) := fun v512 v573 => decidable_of_iff' _ (Iff.of_eq (k0_chk207.eq_1 v512 v573))
theorem k0_idx207_inb : ∀ (v512 : IVec S16 32) (v573 : IVec S16 32) (k0_hw207 : k0_chk207 v512 v573), ∀ a x, ((![v512, v573] : Fin 2 → IVec S16 32) a x).toNat < S128x32.size a := fun v512 v573 k0_hw207 => k0_hw207

def k0_chk208 (v575 : IVec S16 32) (v576 : IVec S16 32) : Prop :=
  (∀ a x, ((![v575, v576] : Fin 2 → IVec S16 32) a x).toNat < S128x200.size a)
instance k0_chk208.dec : ∀ (v575 : IVec S16 32) (v576 : IVec S16 32), Decidable (k0_chk208 v575 v576) := fun v575 v576 => decidable_of_iff' _ (Iff.of_eq (k0_chk208.eq_1 v575 v576))
theorem k0_idx208_inb : ∀ (v575 : IVec S16 32) (v576 : IVec S16 32) (k0_hw208 : k0_chk208 v575 v576), ∀ a x, ((![v575, v576] : Fin 2 → IVec S16 32) a x).toNat < S128x200.size a := fun v575 v576 k0_hw208 => k0_hw208

def k0_chk209 (v575 : IVec S16 32) (v578 : IVec S16 32) : Prop :=
  (∀ a x, ((![v575, v578] : Fin 2 → IVec S16 32) a x).toNat < S128x200.size a)
instance k0_chk209.dec : ∀ (v575 : IVec S16 32) (v578 : IVec S16 32), Decidable (k0_chk209 v575 v578) := fun v575 v578 => decidable_of_iff' _ (Iff.of_eq (k0_chk209.eq_1 v575 v578))
theorem k0_idx209_inb : ∀ (v575 : IVec S16 32) (v578 : IVec S16 32) (k0_hw209 : k0_chk209 v575 v578), ∀ a x, ((![v575, v578] : Fin 2 → IVec S16 32) a x).toNat < S128x200.size a := fun v575 v578 k0_hw209 => k0_hw209

def k0_chk210 (v575 : IVec S16 32) (v580 : IVec S16 32) : Prop :=
  (∀ a x, ((![v575, v580] : Fin 2 → IVec S16 32) a x).toNat < S128x200.size a)
instance k0_chk210.dec : ∀ (v575 : IVec S16 32) (v580 : IVec S16 32), Decidable (k0_chk210 v575 v580) := fun v575 v580 => decidable_of_iff' _ (Iff.of_eq (k0_chk210.eq_1 v575 v580))
theorem k0_idx210_inb : ∀ (v575 : IVec S16 32) (v580 : IVec S16 32) (k0_hw210 : k0_chk210 v575 v580), ∀ a x, ((![v575, v580] : Fin 2 → IVec S16 32) a x).toNat < S128x200.size a := fun v575 v580 k0_hw210 => k0_hw210
@[reducible] def k0_t10_loop : Scf.Loop 32 :=
  let c0_i32_274 : BitVec 32 := 0#32
  let c25_i32_275 : BitVec 32 := 25#32
  let v584 : BitVec 32 := Scalar.addi c0_i32_274 c25_i32_275
  let c1_i32_276 : BitVec 32 := 1#32
  ⟨c0_i32_274, v584, c1_i32_276⟩

def k0_chk211 (v575 : IVec S16 32) (arg10 : IVec S16 32) : Prop :=
  (∀ a x, ((![v575, arg10] : Fin 2 → IVec S16 32) a x).toNat < S128x200.size a)
instance k0_chk211.dec : ∀ (v575 : IVec S16 32) (arg10 : IVec S16 32), Decidable (k0_chk211 v575 arg10) := fun v575 arg10 => decidable_of_iff' _ (Iff.of_eq (k0_chk211.eq_1 v575 arg10))
theorem k0_idx211_inb : ∀ (v575 : IVec S16 32) (arg10 : IVec S16 32) (k0_hw211 : k0_chk211 v575 arg10), ∀ a x, ((![v575, arg10] : Fin 2 → IVec S16 32) a x).toNat < S128x200.size a := fun v575 arg10 k0_hw211 => k0_hw211

def k0_chk212 (v2027 : IVec S16 32) : Prop :=
  (∀ a x, ((![v2027] : Fin 1 → IVec S16 32) a x).toNat < S32.size a)
instance k0_chk212.dec : ∀ (v2027 : IVec S16 32), Decidable (k0_chk212 v2027) := fun v2027 => decidable_of_iff' _ (Iff.of_eq (k0_chk212.eq_1 v2027))
theorem k0_idx212_inb : ∀ (v2027 : IVec S16 32) (k0_hw212 : k0_chk212 v2027), ∀ a x, ((![v2027] : Fin 1 → IVec S16 32) a x).toNat < S32.size a := fun v2027 k0_hw212 => k0_hw212

def k0_chk213 (v575 : IVec S16 32) (v2039 : IVec S16 32) : Prop :=
  (∀ a x, ((![v575, v2039] : Fin 2 → IVec S16 32) a x).toNat < S128x200.size a)
instance k0_chk213.dec : ∀ (v575 : IVec S16 32) (v2039 : IVec S16 32), Decidable (k0_chk213 v575 v2039) := fun v575 v2039 => decidable_of_iff' _ (Iff.of_eq (k0_chk213.eq_1 v575 v2039))
theorem k0_idx213_inb : ∀ (v575 : IVec S16 32) (v2039 : IVec S16 32) (k0_hw213 : k0_chk213 v575 v2039), ∀ a x, ((![v575, v2039] : Fin 2 → IVec S16 32) a x).toNat < S128x200.size a := fun v575 v2039 k0_hw213 => k0_hw213

def k0_chk214 (v2040 : IVec S16 32) : Prop :=
  (∀ a x, ((![v2040] : Fin 1 → IVec S16 32) a x).toNat < S32.size a)
instance k0_chk214.dec : ∀ (v2040 : IVec S16 32), Decidable (k0_chk214 v2040) := fun v2040 => decidable_of_iff' _ (Iff.of_eq (k0_chk214.eq_1 v2040))
theorem k0_idx214_inb : ∀ (v2040 : IVec S16 32) (k0_hw214 : k0_chk214 v2040), ∀ a x, ((![v2040] : Fin 1 → IVec S16 32) a x).toNat < S32.size a := fun v2040 k0_hw214 => k0_hw214

def k0_chk215 (v575 : IVec S16 32) (v2052 : IVec S16 32) : Prop :=
  (∀ a x, ((![v575, v2052] : Fin 2 → IVec S16 32) a x).toNat < S128x200.size a)
instance k0_chk215.dec : ∀ (v575 : IVec S16 32) (v2052 : IVec S16 32), Decidable (k0_chk215 v575 v2052) := fun v575 v2052 => decidable_of_iff' _ (Iff.of_eq (k0_chk215.eq_1 v575 v2052))
theorem k0_idx215_inb : ∀ (v575 : IVec S16 32) (v2052 : IVec S16 32) (k0_hw215 : k0_chk215 v575 v2052), ∀ a x, ((![v575, v2052] : Fin 2 → IVec S16 32) a x).toNat < S128x200.size a := fun v575 v2052 k0_hw215 => k0_hw215

def k0_chk216 (v2053 : IVec S16 32) : Prop :=
  (∀ a x, ((![v2053] : Fin 1 → IVec S16 32) a x).toNat < S32.size a)
instance k0_chk216.dec : ∀ (v2053 : IVec S16 32), Decidable (k0_chk216 v2053) := fun v2053 => decidable_of_iff' _ (Iff.of_eq (k0_chk216.eq_1 v2053))
theorem k0_idx216_inb : ∀ (v2053 : IVec S16 32) (k0_hw216 : k0_chk216 v2053), ∀ a x, ((![v2053] : Fin 1 → IVec S16 32) a x).toNat < S32.size a := fun v2053 k0_hw216 => k0_hw216

def k0_chk217 (v575 : IVec S16 32) (v2065 : IVec S16 32) : Prop :=
  (∀ a x, ((![v575, v2065] : Fin 2 → IVec S16 32) a x).toNat < S128x200.size a)
instance k0_chk217.dec : ∀ (v575 : IVec S16 32) (v2065 : IVec S16 32), Decidable (k0_chk217 v575 v2065) := fun v575 v2065 => decidable_of_iff' _ (Iff.of_eq (k0_chk217.eq_1 v575 v2065))
theorem k0_idx217_inb : ∀ (v575 : IVec S16 32) (v2065 : IVec S16 32) (k0_hw217 : k0_chk217 v575 v2065), ∀ a x, ((![v575, v2065] : Fin 2 → IVec S16 32) a x).toNat < S128x200.size a := fun v575 v2065 k0_hw217 => k0_hw217

def k0_chk218 (v2066 : IVec S16 32) : Prop :=
  (∀ a x, ((![v2066] : Fin 1 → IVec S16 32) a x).toNat < S32.size a)
instance k0_chk218.dec : ∀ (v2066 : IVec S16 32), Decidable (k0_chk218 v2066) := fun v2066 => decidable_of_iff' _ (Iff.of_eq (k0_chk218.eq_1 v2066))
theorem k0_idx218_inb : ∀ (v2066 : IVec S16 32) (k0_hw218 : k0_chk218 v2066), ∀ a x, ((![v2066] : Fin 1 → IVec S16 32) a x).toNat < S32.size a := fun v2066 k0_hw218 => k0_hw218

def k0_chk219 (v575 : IVec S16 32) (v2078 : IVec S16 32) : Prop :=
  (∀ a x, ((![v575, v2078] : Fin 2 → IVec S16 32) a x).toNat < S128x200.size a)
instance k0_chk219.dec : ∀ (v575 : IVec S16 32) (v2078 : IVec S16 32), Decidable (k0_chk219 v575 v2078) := fun v575 v2078 => decidable_of_iff' _ (Iff.of_eq (k0_chk219.eq_1 v575 v2078))
theorem k0_idx219_inb : ∀ (v575 : IVec S16 32) (v2078 : IVec S16 32) (k0_hw219 : k0_chk219 v575 v2078), ∀ a x, ((![v575, v2078] : Fin 2 → IVec S16 32) a x).toNat < S128x200.size a := fun v575 v2078 k0_hw219 => k0_hw219

def k0_chk220 (v2079 : IVec S16 32) : Prop :=
  (∀ a x, ((![v2079] : Fin 1 → IVec S16 32) a x).toNat < S32.size a)
instance k0_chk220.dec : ∀ (v2079 : IVec S16 32), Decidable (k0_chk220 v2079) := fun v2079 => decidable_of_iff' _ (Iff.of_eq (k0_chk220.eq_1 v2079))
theorem k0_idx220_inb : ∀ (v2079 : IVec S16 32) (k0_hw220 : k0_chk220 v2079), ∀ a x, ((![v2079] : Fin 1 → IVec S16 32) a x).toNat < S32.size a := fun v2079 k0_hw220 => k0_hw220

def k0_chk221 (v575 : IVec S16 32) (v2091 : IVec S16 32) : Prop :=
  (∀ a x, ((![v575, v2091] : Fin 2 → IVec S16 32) a x).toNat < S128x200.size a)
instance k0_chk221.dec : ∀ (v575 : IVec S16 32) (v2091 : IVec S16 32), Decidable (k0_chk221 v575 v2091) := fun v575 v2091 => decidable_of_iff' _ (Iff.of_eq (k0_chk221.eq_1 v575 v2091))
theorem k0_idx221_inb : ∀ (v575 : IVec S16 32) (v2091 : IVec S16 32) (k0_hw221 : k0_chk221 v575 v2091), ∀ a x, ((![v575, v2091] : Fin 2 → IVec S16 32) a x).toNat < S128x200.size a := fun v575 v2091 k0_hw221 => k0_hw221

def k0_chk222 (v2092 : IVec S16 32) : Prop :=
  (∀ a x, ((![v2092] : Fin 1 → IVec S16 32) a x).toNat < S32.size a)
instance k0_chk222.dec : ∀ (v2092 : IVec S16 32), Decidable (k0_chk222 v2092) := fun v2092 => decidable_of_iff' _ (Iff.of_eq (k0_chk222.eq_1 v2092))
theorem k0_idx222_inb : ∀ (v2092 : IVec S16 32) (k0_hw222 : k0_chk222 v2092), ∀ a x, ((![v2092] : Fin 1 → IVec S16 32) a x).toNat < S32.size a := fun v2092 k0_hw222 => k0_hw222

def k0_chk223 (v575 : IVec S16 32) (v2104 : IVec S16 32) : Prop :=
  (∀ a x, ((![v575, v2104] : Fin 2 → IVec S16 32) a x).toNat < S128x200.size a)
instance k0_chk223.dec : ∀ (v575 : IVec S16 32) (v2104 : IVec S16 32), Decidable (k0_chk223 v575 v2104) := fun v575 v2104 => decidable_of_iff' _ (Iff.of_eq (k0_chk223.eq_1 v575 v2104))
theorem k0_idx223_inb : ∀ (v575 : IVec S16 32) (v2104 : IVec S16 32) (k0_hw223 : k0_chk223 v575 v2104), ∀ a x, ((![v575, v2104] : Fin 2 → IVec S16 32) a x).toNat < S128x200.size a := fun v575 v2104 k0_hw223 => k0_hw223

def k0_chk224 (v2105 : IVec S16 32) : Prop :=
  (∀ a x, ((![v2105] : Fin 1 → IVec S16 32) a x).toNat < S32.size a)
instance k0_chk224.dec : ∀ (v2105 : IVec S16 32), Decidable (k0_chk224 v2105) := fun v2105 => decidable_of_iff' _ (Iff.of_eq (k0_chk224.eq_1 v2105))
theorem k0_idx224_inb : ∀ (v2105 : IVec S16 32) (k0_hw224 : k0_chk224 v2105), ∀ a x, ((![v2105] : Fin 1 → IVec S16 32) a x).toNat < S32.size a := fun v2105 k0_hw224 => k0_hw224

def k0_chk225 (v575 : IVec S16 32) (v2117 : IVec S16 32) : Prop :=
  (∀ a x, ((![v575, v2117] : Fin 2 → IVec S16 32) a x).toNat < S128x200.size a)
instance k0_chk225.dec : ∀ (v575 : IVec S16 32) (v2117 : IVec S16 32), Decidable (k0_chk225 v575 v2117) := fun v575 v2117 => decidable_of_iff' _ (Iff.of_eq (k0_chk225.eq_1 v575 v2117))
theorem k0_idx225_inb : ∀ (v575 : IVec S16 32) (v2117 : IVec S16 32) (k0_hw225 : k0_chk225 v575 v2117), ∀ a x, ((![v575, v2117] : Fin 2 → IVec S16 32) a x).toNat < S128x200.size a := fun v575 v2117 k0_hw225 => k0_hw225

def k0_chk226 (v2118 : IVec S16 32) : Prop :=
  (∀ a x, ((![v2118] : Fin 1 → IVec S16 32) a x).toNat < S32.size a)
instance k0_chk226.dec : ∀ (v2118 : IVec S16 32), Decidable (k0_chk226 v2118) := fun v2118 => decidable_of_iff' _ (Iff.of_eq (k0_chk226.eq_1 v2118))
theorem k0_idx226_inb : ∀ (v2118 : IVec S16 32) (k0_hw226 : k0_chk226 v2118), ∀ a x, ((![v2118] : Fin 1 → IVec S16 32) a x).toNat < S32.size a := fun v2118 k0_hw226 => k0_hw226

def k0_chk227 (v575 : IVec S16 32) (v634 : IVec S16 32) : Prop :=
  (∀ a x, ((![v575, v634] : Fin 2 → IVec S16 32) a x).toNat < S128x32.size a)
instance k0_chk227.dec : ∀ (v575 : IVec S16 32) (v634 : IVec S16 32), Decidable (k0_chk227 v575 v634) := fun v575 v634 => decidable_of_iff' _ (Iff.of_eq (k0_chk227.eq_1 v575 v634))
theorem k0_idx227_inb : ∀ (v575 : IVec S16 32) (v634 : IVec S16 32) (k0_hw227 : k0_chk227 v575 v634), ∀ a x, ((![v575, v634] : Fin 2 → IVec S16 32) a x).toNat < S128x32.size a := fun v575 v634 k0_hw227 => k0_hw227

def k0_chk228 (v575 : IVec S16 32) (v577 : IVec S16 32) : Prop :=
  (∀ a x, ((![v575, v577] : Fin 2 → IVec S16 32) a x).toNat < S128x32.size a)
instance k0_chk228.dec : ∀ (v575 : IVec S16 32) (v577 : IVec S16 32), Decidable (k0_chk228 v575 v577) := fun v575 v577 => decidable_of_iff' _ (Iff.of_eq (k0_chk228.eq_1 v575 v577))
theorem k0_idx228_inb : ∀ (v575 : IVec S16 32) (v577 : IVec S16 32) (k0_hw228 : k0_chk228 v575 v577), ∀ a x, ((![v575, v577] : Fin 2 → IVec S16 32) a x).toNat < S128x32.size a := fun v575 v577 k0_hw228 => k0_hw228

def k0_chk229 (v575 : IVec S16 32) (v635 : IVec S16 32) : Prop :=
  (∀ a x, ((![v575, v635] : Fin 2 → IVec S16 32) a x).toNat < S128x32.size a)
instance k0_chk229.dec : ∀ (v575 : IVec S16 32) (v635 : IVec S16 32), Decidable (k0_chk229 v575 v635) := fun v575 v635 => decidable_of_iff' _ (Iff.of_eq (k0_chk229.eq_1 v575 v635))
theorem k0_idx229_inb : ∀ (v575 : IVec S16 32) (v635 : IVec S16 32) (k0_hw229 : k0_chk229 v575 v635), ∀ a x, ((![v575, v635] : Fin 2 → IVec S16 32) a x).toNat < S128x32.size a := fun v575 v635 k0_hw229 => k0_hw229

def k0_chk230 (v575 : IVec S16 32) (v636 : IVec S16 32) : Prop :=
  (∀ a x, ((![v575, v636] : Fin 2 → IVec S16 32) a x).toNat < S128x32.size a)
instance k0_chk230.dec : ∀ (v575 : IVec S16 32) (v636 : IVec S16 32), Decidable (k0_chk230 v575 v636) := fun v575 v636 => decidable_of_iff' _ (Iff.of_eq (k0_chk230.eq_1 v575 v636))
theorem k0_idx230_inb : ∀ (v575 : IVec S16 32) (v636 : IVec S16 32) (k0_hw230 : k0_chk230 v575 v636), ∀ a x, ((![v575, v636] : Fin 2 → IVec S16 32) a x).toNat < S128x32.size a := fun v575 v636 k0_hw230 => k0_hw230

def k0_chk231 (v638 : IVec S16 32) (v639 : IVec S16 32) : Prop :=
  (∀ a x, ((![v638, v639] : Fin 2 → IVec S16 32) a x).toNat < S128x200.size a)
instance k0_chk231.dec : ∀ (v638 : IVec S16 32) (v639 : IVec S16 32), Decidable (k0_chk231 v638 v639) := fun v638 v639 => decidable_of_iff' _ (Iff.of_eq (k0_chk231.eq_1 v638 v639))
theorem k0_idx231_inb : ∀ (v638 : IVec S16 32) (v639 : IVec S16 32) (k0_hw231 : k0_chk231 v638 v639), ∀ a x, ((![v638, v639] : Fin 2 → IVec S16 32) a x).toNat < S128x200.size a := fun v638 v639 k0_hw231 => k0_hw231

def k0_chk232 (v638 : IVec S16 32) (v641 : IVec S16 32) : Prop :=
  (∀ a x, ((![v638, v641] : Fin 2 → IVec S16 32) a x).toNat < S128x200.size a)
instance k0_chk232.dec : ∀ (v638 : IVec S16 32) (v641 : IVec S16 32), Decidable (k0_chk232 v638 v641) := fun v638 v641 => decidable_of_iff' _ (Iff.of_eq (k0_chk232.eq_1 v638 v641))
theorem k0_idx232_inb : ∀ (v638 : IVec S16 32) (v641 : IVec S16 32) (k0_hw232 : k0_chk232 v638 v641), ∀ a x, ((![v638, v641] : Fin 2 → IVec S16 32) a x).toNat < S128x200.size a := fun v638 v641 k0_hw232 => k0_hw232

def k0_chk233 (v638 : IVec S16 32) (v643 : IVec S16 32) : Prop :=
  (∀ a x, ((![v638, v643] : Fin 2 → IVec S16 32) a x).toNat < S128x200.size a)
instance k0_chk233.dec : ∀ (v638 : IVec S16 32) (v643 : IVec S16 32), Decidable (k0_chk233 v638 v643) := fun v638 v643 => decidable_of_iff' _ (Iff.of_eq (k0_chk233.eq_1 v638 v643))
theorem k0_idx233_inb : ∀ (v638 : IVec S16 32) (v643 : IVec S16 32) (k0_hw233 : k0_chk233 v638 v643), ∀ a x, ((![v638, v643] : Fin 2 → IVec S16 32) a x).toNat < S128x200.size a := fun v638 v643 k0_hw233 => k0_hw233
@[reducible] def k0_t11_loop : Scf.Loop 32 :=
  let c0_i32_306 : BitVec 32 := 0#32
  let c25_i32_307 : BitVec 32 := 25#32
  let v647 : BitVec 32 := Scalar.addi c0_i32_306 c25_i32_307
  let c1_i32_308 : BitVec 32 := 1#32
  ⟨c0_i32_306, v647, c1_i32_308⟩

def k0_chk234 (v638 : IVec S16 32) (arg10 : IVec S16 32) : Prop :=
  (∀ a x, ((![v638, arg10] : Fin 2 → IVec S16 32) a x).toNat < S128x200.size a)
instance k0_chk234.dec : ∀ (v638 : IVec S16 32) (arg10 : IVec S16 32), Decidable (k0_chk234 v638 arg10) := fun v638 arg10 => decidable_of_iff' _ (Iff.of_eq (k0_chk234.eq_1 v638 arg10))
theorem k0_idx234_inb : ∀ (v638 : IVec S16 32) (arg10 : IVec S16 32) (k0_hw234 : k0_chk234 v638 arg10), ∀ a x, ((![v638, arg10] : Fin 2 → IVec S16 32) a x).toNat < S128x200.size a := fun v638 arg10 k0_hw234 => k0_hw234

def k0_chk235 (v2027 : IVec S16 32) : Prop :=
  (∀ a x, ((![v2027] : Fin 1 → IVec S16 32) a x).toNat < S32.size a)
instance k0_chk235.dec : ∀ (v2027 : IVec S16 32), Decidable (k0_chk235 v2027) := fun v2027 => decidable_of_iff' _ (Iff.of_eq (k0_chk235.eq_1 v2027))
theorem k0_idx235_inb : ∀ (v2027 : IVec S16 32) (k0_hw235 : k0_chk235 v2027), ∀ a x, ((![v2027] : Fin 1 → IVec S16 32) a x).toNat < S32.size a := fun v2027 k0_hw235 => k0_hw235

def k0_chk236 (v638 : IVec S16 32) (v2039 : IVec S16 32) : Prop :=
  (∀ a x, ((![v638, v2039] : Fin 2 → IVec S16 32) a x).toNat < S128x200.size a)
instance k0_chk236.dec : ∀ (v638 : IVec S16 32) (v2039 : IVec S16 32), Decidable (k0_chk236 v638 v2039) := fun v638 v2039 => decidable_of_iff' _ (Iff.of_eq (k0_chk236.eq_1 v638 v2039))
theorem k0_idx236_inb : ∀ (v638 : IVec S16 32) (v2039 : IVec S16 32) (k0_hw236 : k0_chk236 v638 v2039), ∀ a x, ((![v638, v2039] : Fin 2 → IVec S16 32) a x).toNat < S128x200.size a := fun v638 v2039 k0_hw236 => k0_hw236

def k0_chk237 (v2040 : IVec S16 32) : Prop :=
  (∀ a x, ((![v2040] : Fin 1 → IVec S16 32) a x).toNat < S32.size a)
instance k0_chk237.dec : ∀ (v2040 : IVec S16 32), Decidable (k0_chk237 v2040) := fun v2040 => decidable_of_iff' _ (Iff.of_eq (k0_chk237.eq_1 v2040))
theorem k0_idx237_inb : ∀ (v2040 : IVec S16 32) (k0_hw237 : k0_chk237 v2040), ∀ a x, ((![v2040] : Fin 1 → IVec S16 32) a x).toNat < S32.size a := fun v2040 k0_hw237 => k0_hw237

def k0_chk238 (v638 : IVec S16 32) (v2052 : IVec S16 32) : Prop :=
  (∀ a x, ((![v638, v2052] : Fin 2 → IVec S16 32) a x).toNat < S128x200.size a)
instance k0_chk238.dec : ∀ (v638 : IVec S16 32) (v2052 : IVec S16 32), Decidable (k0_chk238 v638 v2052) := fun v638 v2052 => decidable_of_iff' _ (Iff.of_eq (k0_chk238.eq_1 v638 v2052))
theorem k0_idx238_inb : ∀ (v638 : IVec S16 32) (v2052 : IVec S16 32) (k0_hw238 : k0_chk238 v638 v2052), ∀ a x, ((![v638, v2052] : Fin 2 → IVec S16 32) a x).toNat < S128x200.size a := fun v638 v2052 k0_hw238 => k0_hw238

def k0_chk239 (v2053 : IVec S16 32) : Prop :=
  (∀ a x, ((![v2053] : Fin 1 → IVec S16 32) a x).toNat < S32.size a)
instance k0_chk239.dec : ∀ (v2053 : IVec S16 32), Decidable (k0_chk239 v2053) := fun v2053 => decidable_of_iff' _ (Iff.of_eq (k0_chk239.eq_1 v2053))
theorem k0_idx239_inb : ∀ (v2053 : IVec S16 32) (k0_hw239 : k0_chk239 v2053), ∀ a x, ((![v2053] : Fin 1 → IVec S16 32) a x).toNat < S32.size a := fun v2053 k0_hw239 => k0_hw239

def k0_chk240 (v638 : IVec S16 32) (v2065 : IVec S16 32) : Prop :=
  (∀ a x, ((![v638, v2065] : Fin 2 → IVec S16 32) a x).toNat < S128x200.size a)
instance k0_chk240.dec : ∀ (v638 : IVec S16 32) (v2065 : IVec S16 32), Decidable (k0_chk240 v638 v2065) := fun v638 v2065 => decidable_of_iff' _ (Iff.of_eq (k0_chk240.eq_1 v638 v2065))
theorem k0_idx240_inb : ∀ (v638 : IVec S16 32) (v2065 : IVec S16 32) (k0_hw240 : k0_chk240 v638 v2065), ∀ a x, ((![v638, v2065] : Fin 2 → IVec S16 32) a x).toNat < S128x200.size a := fun v638 v2065 k0_hw240 => k0_hw240

def k0_chk241 (v2066 : IVec S16 32) : Prop :=
  (∀ a x, ((![v2066] : Fin 1 → IVec S16 32) a x).toNat < S32.size a)
instance k0_chk241.dec : ∀ (v2066 : IVec S16 32), Decidable (k0_chk241 v2066) := fun v2066 => decidable_of_iff' _ (Iff.of_eq (k0_chk241.eq_1 v2066))
theorem k0_idx241_inb : ∀ (v2066 : IVec S16 32) (k0_hw241 : k0_chk241 v2066), ∀ a x, ((![v2066] : Fin 1 → IVec S16 32) a x).toNat < S32.size a := fun v2066 k0_hw241 => k0_hw241

def k0_chk242 (v638 : IVec S16 32) (v2078 : IVec S16 32) : Prop :=
  (∀ a x, ((![v638, v2078] : Fin 2 → IVec S16 32) a x).toNat < S128x200.size a)
instance k0_chk242.dec : ∀ (v638 : IVec S16 32) (v2078 : IVec S16 32), Decidable (k0_chk242 v638 v2078) := fun v638 v2078 => decidable_of_iff' _ (Iff.of_eq (k0_chk242.eq_1 v638 v2078))
theorem k0_idx242_inb : ∀ (v638 : IVec S16 32) (v2078 : IVec S16 32) (k0_hw242 : k0_chk242 v638 v2078), ∀ a x, ((![v638, v2078] : Fin 2 → IVec S16 32) a x).toNat < S128x200.size a := fun v638 v2078 k0_hw242 => k0_hw242

def k0_chk243 (v2079 : IVec S16 32) : Prop :=
  (∀ a x, ((![v2079] : Fin 1 → IVec S16 32) a x).toNat < S32.size a)
instance k0_chk243.dec : ∀ (v2079 : IVec S16 32), Decidable (k0_chk243 v2079) := fun v2079 => decidable_of_iff' _ (Iff.of_eq (k0_chk243.eq_1 v2079))
theorem k0_idx243_inb : ∀ (v2079 : IVec S16 32) (k0_hw243 : k0_chk243 v2079), ∀ a x, ((![v2079] : Fin 1 → IVec S16 32) a x).toNat < S32.size a := fun v2079 k0_hw243 => k0_hw243

def k0_chk244 (v638 : IVec S16 32) (v2091 : IVec S16 32) : Prop :=
  (∀ a x, ((![v638, v2091] : Fin 2 → IVec S16 32) a x).toNat < S128x200.size a)
instance k0_chk244.dec : ∀ (v638 : IVec S16 32) (v2091 : IVec S16 32), Decidable (k0_chk244 v638 v2091) := fun v638 v2091 => decidable_of_iff' _ (Iff.of_eq (k0_chk244.eq_1 v638 v2091))
theorem k0_idx244_inb : ∀ (v638 : IVec S16 32) (v2091 : IVec S16 32) (k0_hw244 : k0_chk244 v638 v2091), ∀ a x, ((![v638, v2091] : Fin 2 → IVec S16 32) a x).toNat < S128x200.size a := fun v638 v2091 k0_hw244 => k0_hw244

def k0_chk245 (v2092 : IVec S16 32) : Prop :=
  (∀ a x, ((![v2092] : Fin 1 → IVec S16 32) a x).toNat < S32.size a)
instance k0_chk245.dec : ∀ (v2092 : IVec S16 32), Decidable (k0_chk245 v2092) := fun v2092 => decidable_of_iff' _ (Iff.of_eq (k0_chk245.eq_1 v2092))
theorem k0_idx245_inb : ∀ (v2092 : IVec S16 32) (k0_hw245 : k0_chk245 v2092), ∀ a x, ((![v2092] : Fin 1 → IVec S16 32) a x).toNat < S32.size a := fun v2092 k0_hw245 => k0_hw245

def k0_chk246 (v638 : IVec S16 32) (v2104 : IVec S16 32) : Prop :=
  (∀ a x, ((![v638, v2104] : Fin 2 → IVec S16 32) a x).toNat < S128x200.size a)
instance k0_chk246.dec : ∀ (v638 : IVec S16 32) (v2104 : IVec S16 32), Decidable (k0_chk246 v638 v2104) := fun v638 v2104 => decidable_of_iff' _ (Iff.of_eq (k0_chk246.eq_1 v638 v2104))
theorem k0_idx246_inb : ∀ (v638 : IVec S16 32) (v2104 : IVec S16 32) (k0_hw246 : k0_chk246 v638 v2104), ∀ a x, ((![v638, v2104] : Fin 2 → IVec S16 32) a x).toNat < S128x200.size a := fun v638 v2104 k0_hw246 => k0_hw246

def k0_chk247 (v2105 : IVec S16 32) : Prop :=
  (∀ a x, ((![v2105] : Fin 1 → IVec S16 32) a x).toNat < S32.size a)
instance k0_chk247.dec : ∀ (v2105 : IVec S16 32), Decidable (k0_chk247 v2105) := fun v2105 => decidable_of_iff' _ (Iff.of_eq (k0_chk247.eq_1 v2105))
theorem k0_idx247_inb : ∀ (v2105 : IVec S16 32) (k0_hw247 : k0_chk247 v2105), ∀ a x, ((![v2105] : Fin 1 → IVec S16 32) a x).toNat < S32.size a := fun v2105 k0_hw247 => k0_hw247

def k0_chk248 (v638 : IVec S16 32) (v2117 : IVec S16 32) : Prop :=
  (∀ a x, ((![v638, v2117] : Fin 2 → IVec S16 32) a x).toNat < S128x200.size a)
instance k0_chk248.dec : ∀ (v638 : IVec S16 32) (v2117 : IVec S16 32), Decidable (k0_chk248 v638 v2117) := fun v638 v2117 => decidable_of_iff' _ (Iff.of_eq (k0_chk248.eq_1 v638 v2117))
theorem k0_idx248_inb : ∀ (v638 : IVec S16 32) (v2117 : IVec S16 32) (k0_hw248 : k0_chk248 v638 v2117), ∀ a x, ((![v638, v2117] : Fin 2 → IVec S16 32) a x).toNat < S128x200.size a := fun v638 v2117 k0_hw248 => k0_hw248

def k0_chk249 (v2118 : IVec S16 32) : Prop :=
  (∀ a x, ((![v2118] : Fin 1 → IVec S16 32) a x).toNat < S32.size a)
instance k0_chk249.dec : ∀ (v2118 : IVec S16 32), Decidable (k0_chk249 v2118) := fun v2118 => decidable_of_iff' _ (Iff.of_eq (k0_chk249.eq_1 v2118))
theorem k0_idx249_inb : ∀ (v2118 : IVec S16 32) (k0_hw249 : k0_chk249 v2118), ∀ a x, ((![v2118] : Fin 1 → IVec S16 32) a x).toNat < S32.size a := fun v2118 k0_hw249 => k0_hw249

def k0_chk250 (v638 : IVec S16 32) (v697 : IVec S16 32) : Prop :=
  (∀ a x, ((![v638, v697] : Fin 2 → IVec S16 32) a x).toNat < S128x32.size a)
instance k0_chk250.dec : ∀ (v638 : IVec S16 32) (v697 : IVec S16 32), Decidable (k0_chk250 v638 v697) := fun v638 v697 => decidable_of_iff' _ (Iff.of_eq (k0_chk250.eq_1 v638 v697))
theorem k0_idx250_inb : ∀ (v638 : IVec S16 32) (v697 : IVec S16 32) (k0_hw250 : k0_chk250 v638 v697), ∀ a x, ((![v638, v697] : Fin 2 → IVec S16 32) a x).toNat < S128x32.size a := fun v638 v697 k0_hw250 => k0_hw250

def k0_chk251 (v638 : IVec S16 32) (v640 : IVec S16 32) : Prop :=
  (∀ a x, ((![v638, v640] : Fin 2 → IVec S16 32) a x).toNat < S128x32.size a)
instance k0_chk251.dec : ∀ (v638 : IVec S16 32) (v640 : IVec S16 32), Decidable (k0_chk251 v638 v640) := fun v638 v640 => decidable_of_iff' _ (Iff.of_eq (k0_chk251.eq_1 v638 v640))
theorem k0_idx251_inb : ∀ (v638 : IVec S16 32) (v640 : IVec S16 32) (k0_hw251 : k0_chk251 v638 v640), ∀ a x, ((![v638, v640] : Fin 2 → IVec S16 32) a x).toNat < S128x32.size a := fun v638 v640 k0_hw251 => k0_hw251

def k0_chk252 (v638 : IVec S16 32) (v698 : IVec S16 32) : Prop :=
  (∀ a x, ((![v638, v698] : Fin 2 → IVec S16 32) a x).toNat < S128x32.size a)
instance k0_chk252.dec : ∀ (v638 : IVec S16 32) (v698 : IVec S16 32), Decidable (k0_chk252 v638 v698) := fun v638 v698 => decidable_of_iff' _ (Iff.of_eq (k0_chk252.eq_1 v638 v698))
theorem k0_idx252_inb : ∀ (v638 : IVec S16 32) (v698 : IVec S16 32) (k0_hw252 : k0_chk252 v638 v698), ∀ a x, ((![v638, v698] : Fin 2 → IVec S16 32) a x).toNat < S128x32.size a := fun v638 v698 k0_hw252 => k0_hw252

def k0_chk253 (v638 : IVec S16 32) (v699 : IVec S16 32) : Prop :=
  (∀ a x, ((![v638, v699] : Fin 2 → IVec S16 32) a x).toNat < S128x32.size a)
instance k0_chk253.dec : ∀ (v638 : IVec S16 32) (v699 : IVec S16 32), Decidable (k0_chk253 v638 v699) := fun v638 v699 => decidable_of_iff' _ (Iff.of_eq (k0_chk253.eq_1 v638 v699))
theorem k0_idx253_inb : ∀ (v638 : IVec S16 32) (v699 : IVec S16 32) (k0_hw253 : k0_chk253 v638 v699), ∀ a x, ((![v638, v699] : Fin 2 → IVec S16 32) a x).toNat < S128x32.size a := fun v638 v699 k0_hw253 => k0_hw253

def k0_chk254 (v701 : IVec S16 32) (v702 : IVec S16 32) : Prop :=
  (∀ a x, ((![v701, v702] : Fin 2 → IVec S16 32) a x).toNat < S128x200.size a)
instance k0_chk254.dec : ∀ (v701 : IVec S16 32) (v702 : IVec S16 32), Decidable (k0_chk254 v701 v702) := fun v701 v702 => decidable_of_iff' _ (Iff.of_eq (k0_chk254.eq_1 v701 v702))
theorem k0_idx254_inb : ∀ (v701 : IVec S16 32) (v702 : IVec S16 32) (k0_hw254 : k0_chk254 v701 v702), ∀ a x, ((![v701, v702] : Fin 2 → IVec S16 32) a x).toNat < S128x200.size a := fun v701 v702 k0_hw254 => k0_hw254

def k0_chk255 (v701 : IVec S16 32) (v704 : IVec S16 32) : Prop :=
  (∀ a x, ((![v701, v704] : Fin 2 → IVec S16 32) a x).toNat < S128x200.size a)
instance k0_chk255.dec : ∀ (v701 : IVec S16 32) (v704 : IVec S16 32), Decidable (k0_chk255 v701 v704) := fun v701 v704 => decidable_of_iff' _ (Iff.of_eq (k0_chk255.eq_1 v701 v704))
theorem k0_idx255_inb : ∀ (v701 : IVec S16 32) (v704 : IVec S16 32) (k0_hw255 : k0_chk255 v701 v704), ∀ a x, ((![v701, v704] : Fin 2 → IVec S16 32) a x).toNat < S128x200.size a := fun v701 v704 k0_hw255 => k0_hw255

def k0_chk256 (v701 : IVec S16 32) (v706 : IVec S16 32) : Prop :=
  (∀ a x, ((![v701, v706] : Fin 2 → IVec S16 32) a x).toNat < S128x200.size a)
instance k0_chk256.dec : ∀ (v701 : IVec S16 32) (v706 : IVec S16 32), Decidable (k0_chk256 v701 v706) := fun v701 v706 => decidable_of_iff' _ (Iff.of_eq (k0_chk256.eq_1 v701 v706))
theorem k0_idx256_inb : ∀ (v701 : IVec S16 32) (v706 : IVec S16 32) (k0_hw256 : k0_chk256 v701 v706), ∀ a x, ((![v701, v706] : Fin 2 → IVec S16 32) a x).toNat < S128x200.size a := fun v701 v706 k0_hw256 => k0_hw256
@[reducible] def k0_t12_loop : Scf.Loop 32 :=
  let c0_i32_338 : BitVec 32 := 0#32
  let c25_i32_339 : BitVec 32 := 25#32
  let v710 : BitVec 32 := Scalar.addi c0_i32_338 c25_i32_339
  let c1_i32_340 : BitVec 32 := 1#32
  ⟨c0_i32_338, v710, c1_i32_340⟩

def k0_chk257 (v701 : IVec S16 32) (arg10 : IVec S16 32) : Prop :=
  (∀ a x, ((![v701, arg10] : Fin 2 → IVec S16 32) a x).toNat < S128x200.size a)
instance k0_chk257.dec : ∀ (v701 : IVec S16 32) (arg10 : IVec S16 32), Decidable (k0_chk257 v701 arg10) := fun v701 arg10 => decidable_of_iff' _ (Iff.of_eq (k0_chk257.eq_1 v701 arg10))
theorem k0_idx257_inb : ∀ (v701 : IVec S16 32) (arg10 : IVec S16 32) (k0_hw257 : k0_chk257 v701 arg10), ∀ a x, ((![v701, arg10] : Fin 2 → IVec S16 32) a x).toNat < S128x200.size a := fun v701 arg10 k0_hw257 => k0_hw257

def k0_chk258 (v2027 : IVec S16 32) : Prop :=
  (∀ a x, ((![v2027] : Fin 1 → IVec S16 32) a x).toNat < S32.size a)
instance k0_chk258.dec : ∀ (v2027 : IVec S16 32), Decidable (k0_chk258 v2027) := fun v2027 => decidable_of_iff' _ (Iff.of_eq (k0_chk258.eq_1 v2027))
theorem k0_idx258_inb : ∀ (v2027 : IVec S16 32) (k0_hw258 : k0_chk258 v2027), ∀ a x, ((![v2027] : Fin 1 → IVec S16 32) a x).toNat < S32.size a := fun v2027 k0_hw258 => k0_hw258

def k0_chk259 (v701 : IVec S16 32) (v2039 : IVec S16 32) : Prop :=
  (∀ a x, ((![v701, v2039] : Fin 2 → IVec S16 32) a x).toNat < S128x200.size a)
instance k0_chk259.dec : ∀ (v701 : IVec S16 32) (v2039 : IVec S16 32), Decidable (k0_chk259 v701 v2039) := fun v701 v2039 => decidable_of_iff' _ (Iff.of_eq (k0_chk259.eq_1 v701 v2039))
theorem k0_idx259_inb : ∀ (v701 : IVec S16 32) (v2039 : IVec S16 32) (k0_hw259 : k0_chk259 v701 v2039), ∀ a x, ((![v701, v2039] : Fin 2 → IVec S16 32) a x).toNat < S128x200.size a := fun v701 v2039 k0_hw259 => k0_hw259

def k0_chk260 (v2040 : IVec S16 32) : Prop :=
  (∀ a x, ((![v2040] : Fin 1 → IVec S16 32) a x).toNat < S32.size a)
instance k0_chk260.dec : ∀ (v2040 : IVec S16 32), Decidable (k0_chk260 v2040) := fun v2040 => decidable_of_iff' _ (Iff.of_eq (k0_chk260.eq_1 v2040))
theorem k0_idx260_inb : ∀ (v2040 : IVec S16 32) (k0_hw260 : k0_chk260 v2040), ∀ a x, ((![v2040] : Fin 1 → IVec S16 32) a x).toNat < S32.size a := fun v2040 k0_hw260 => k0_hw260

def k0_chk261 (v701 : IVec S16 32) (v2052 : IVec S16 32) : Prop :=
  (∀ a x, ((![v701, v2052] : Fin 2 → IVec S16 32) a x).toNat < S128x200.size a)
instance k0_chk261.dec : ∀ (v701 : IVec S16 32) (v2052 : IVec S16 32), Decidable (k0_chk261 v701 v2052) := fun v701 v2052 => decidable_of_iff' _ (Iff.of_eq (k0_chk261.eq_1 v701 v2052))
theorem k0_idx261_inb : ∀ (v701 : IVec S16 32) (v2052 : IVec S16 32) (k0_hw261 : k0_chk261 v701 v2052), ∀ a x, ((![v701, v2052] : Fin 2 → IVec S16 32) a x).toNat < S128x200.size a := fun v701 v2052 k0_hw261 => k0_hw261

def k0_chk262 (v2053 : IVec S16 32) : Prop :=
  (∀ a x, ((![v2053] : Fin 1 → IVec S16 32) a x).toNat < S32.size a)
instance k0_chk262.dec : ∀ (v2053 : IVec S16 32), Decidable (k0_chk262 v2053) := fun v2053 => decidable_of_iff' _ (Iff.of_eq (k0_chk262.eq_1 v2053))
theorem k0_idx262_inb : ∀ (v2053 : IVec S16 32) (k0_hw262 : k0_chk262 v2053), ∀ a x, ((![v2053] : Fin 1 → IVec S16 32) a x).toNat < S32.size a := fun v2053 k0_hw262 => k0_hw262

def k0_chk263 (v701 : IVec S16 32) (v2065 : IVec S16 32) : Prop :=
  (∀ a x, ((![v701, v2065] : Fin 2 → IVec S16 32) a x).toNat < S128x200.size a)
instance k0_chk263.dec : ∀ (v701 : IVec S16 32) (v2065 : IVec S16 32), Decidable (k0_chk263 v701 v2065) := fun v701 v2065 => decidable_of_iff' _ (Iff.of_eq (k0_chk263.eq_1 v701 v2065))
theorem k0_idx263_inb : ∀ (v701 : IVec S16 32) (v2065 : IVec S16 32) (k0_hw263 : k0_chk263 v701 v2065), ∀ a x, ((![v701, v2065] : Fin 2 → IVec S16 32) a x).toNat < S128x200.size a := fun v701 v2065 k0_hw263 => k0_hw263

def k0_chk264 (v2066 : IVec S16 32) : Prop :=
  (∀ a x, ((![v2066] : Fin 1 → IVec S16 32) a x).toNat < S32.size a)
instance k0_chk264.dec : ∀ (v2066 : IVec S16 32), Decidable (k0_chk264 v2066) := fun v2066 => decidable_of_iff' _ (Iff.of_eq (k0_chk264.eq_1 v2066))
theorem k0_idx264_inb : ∀ (v2066 : IVec S16 32) (k0_hw264 : k0_chk264 v2066), ∀ a x, ((![v2066] : Fin 1 → IVec S16 32) a x).toNat < S32.size a := fun v2066 k0_hw264 => k0_hw264

def k0_chk265 (v701 : IVec S16 32) (v2078 : IVec S16 32) : Prop :=
  (∀ a x, ((![v701, v2078] : Fin 2 → IVec S16 32) a x).toNat < S128x200.size a)
instance k0_chk265.dec : ∀ (v701 : IVec S16 32) (v2078 : IVec S16 32), Decidable (k0_chk265 v701 v2078) := fun v701 v2078 => decidable_of_iff' _ (Iff.of_eq (k0_chk265.eq_1 v701 v2078))
theorem k0_idx265_inb : ∀ (v701 : IVec S16 32) (v2078 : IVec S16 32) (k0_hw265 : k0_chk265 v701 v2078), ∀ a x, ((![v701, v2078] : Fin 2 → IVec S16 32) a x).toNat < S128x200.size a := fun v701 v2078 k0_hw265 => k0_hw265

def k0_chk266 (v2079 : IVec S16 32) : Prop :=
  (∀ a x, ((![v2079] : Fin 1 → IVec S16 32) a x).toNat < S32.size a)
instance k0_chk266.dec : ∀ (v2079 : IVec S16 32), Decidable (k0_chk266 v2079) := fun v2079 => decidable_of_iff' _ (Iff.of_eq (k0_chk266.eq_1 v2079))
theorem k0_idx266_inb : ∀ (v2079 : IVec S16 32) (k0_hw266 : k0_chk266 v2079), ∀ a x, ((![v2079] : Fin 1 → IVec S16 32) a x).toNat < S32.size a := fun v2079 k0_hw266 => k0_hw266

def k0_chk267 (v701 : IVec S16 32) (v2091 : IVec S16 32) : Prop :=
  (∀ a x, ((![v701, v2091] : Fin 2 → IVec S16 32) a x).toNat < S128x200.size a)
instance k0_chk267.dec : ∀ (v701 : IVec S16 32) (v2091 : IVec S16 32), Decidable (k0_chk267 v701 v2091) := fun v701 v2091 => decidable_of_iff' _ (Iff.of_eq (k0_chk267.eq_1 v701 v2091))
theorem k0_idx267_inb : ∀ (v701 : IVec S16 32) (v2091 : IVec S16 32) (k0_hw267 : k0_chk267 v701 v2091), ∀ a x, ((![v701, v2091] : Fin 2 → IVec S16 32) a x).toNat < S128x200.size a := fun v701 v2091 k0_hw267 => k0_hw267

def k0_chk268 (v2092 : IVec S16 32) : Prop :=
  (∀ a x, ((![v2092] : Fin 1 → IVec S16 32) a x).toNat < S32.size a)
instance k0_chk268.dec : ∀ (v2092 : IVec S16 32), Decidable (k0_chk268 v2092) := fun v2092 => decidable_of_iff' _ (Iff.of_eq (k0_chk268.eq_1 v2092))
theorem k0_idx268_inb : ∀ (v2092 : IVec S16 32) (k0_hw268 : k0_chk268 v2092), ∀ a x, ((![v2092] : Fin 1 → IVec S16 32) a x).toNat < S32.size a := fun v2092 k0_hw268 => k0_hw268

def k0_chk269 (v701 : IVec S16 32) (v2104 : IVec S16 32) : Prop :=
  (∀ a x, ((![v701, v2104] : Fin 2 → IVec S16 32) a x).toNat < S128x200.size a)
instance k0_chk269.dec : ∀ (v701 : IVec S16 32) (v2104 : IVec S16 32), Decidable (k0_chk269 v701 v2104) := fun v701 v2104 => decidable_of_iff' _ (Iff.of_eq (k0_chk269.eq_1 v701 v2104))
theorem k0_idx269_inb : ∀ (v701 : IVec S16 32) (v2104 : IVec S16 32) (k0_hw269 : k0_chk269 v701 v2104), ∀ a x, ((![v701, v2104] : Fin 2 → IVec S16 32) a x).toNat < S128x200.size a := fun v701 v2104 k0_hw269 => k0_hw269

def k0_chk270 (v2105 : IVec S16 32) : Prop :=
  (∀ a x, ((![v2105] : Fin 1 → IVec S16 32) a x).toNat < S32.size a)
instance k0_chk270.dec : ∀ (v2105 : IVec S16 32), Decidable (k0_chk270 v2105) := fun v2105 => decidable_of_iff' _ (Iff.of_eq (k0_chk270.eq_1 v2105))
theorem k0_idx270_inb : ∀ (v2105 : IVec S16 32) (k0_hw270 : k0_chk270 v2105), ∀ a x, ((![v2105] : Fin 1 → IVec S16 32) a x).toNat < S32.size a := fun v2105 k0_hw270 => k0_hw270

def k0_chk271 (v701 : IVec S16 32) (v2117 : IVec S16 32) : Prop :=
  (∀ a x, ((![v701, v2117] : Fin 2 → IVec S16 32) a x).toNat < S128x200.size a)
instance k0_chk271.dec : ∀ (v701 : IVec S16 32) (v2117 : IVec S16 32), Decidable (k0_chk271 v701 v2117) := fun v701 v2117 => decidable_of_iff' _ (Iff.of_eq (k0_chk271.eq_1 v701 v2117))
theorem k0_idx271_inb : ∀ (v701 : IVec S16 32) (v2117 : IVec S16 32) (k0_hw271 : k0_chk271 v701 v2117), ∀ a x, ((![v701, v2117] : Fin 2 → IVec S16 32) a x).toNat < S128x200.size a := fun v701 v2117 k0_hw271 => k0_hw271

def k0_chk272 (v2118 : IVec S16 32) : Prop :=
  (∀ a x, ((![v2118] : Fin 1 → IVec S16 32) a x).toNat < S32.size a)
instance k0_chk272.dec : ∀ (v2118 : IVec S16 32), Decidable (k0_chk272 v2118) := fun v2118 => decidable_of_iff' _ (Iff.of_eq (k0_chk272.eq_1 v2118))
theorem k0_idx272_inb : ∀ (v2118 : IVec S16 32) (k0_hw272 : k0_chk272 v2118), ∀ a x, ((![v2118] : Fin 1 → IVec S16 32) a x).toNat < S32.size a := fun v2118 k0_hw272 => k0_hw272

def k0_chk273 (v701 : IVec S16 32) (v760 : IVec S16 32) : Prop :=
  (∀ a x, ((![v701, v760] : Fin 2 → IVec S16 32) a x).toNat < S128x32.size a)
instance k0_chk273.dec : ∀ (v701 : IVec S16 32) (v760 : IVec S16 32), Decidable (k0_chk273 v701 v760) := fun v701 v760 => decidable_of_iff' _ (Iff.of_eq (k0_chk273.eq_1 v701 v760))
theorem k0_idx273_inb : ∀ (v701 : IVec S16 32) (v760 : IVec S16 32) (k0_hw273 : k0_chk273 v701 v760), ∀ a x, ((![v701, v760] : Fin 2 → IVec S16 32) a x).toNat < S128x32.size a := fun v701 v760 k0_hw273 => k0_hw273

def k0_chk274 (v701 : IVec S16 32) (v703 : IVec S16 32) : Prop :=
  (∀ a x, ((![v701, v703] : Fin 2 → IVec S16 32) a x).toNat < S128x32.size a)
instance k0_chk274.dec : ∀ (v701 : IVec S16 32) (v703 : IVec S16 32), Decidable (k0_chk274 v701 v703) := fun v701 v703 => decidable_of_iff' _ (Iff.of_eq (k0_chk274.eq_1 v701 v703))
theorem k0_idx274_inb : ∀ (v701 : IVec S16 32) (v703 : IVec S16 32) (k0_hw274 : k0_chk274 v701 v703), ∀ a x, ((![v701, v703] : Fin 2 → IVec S16 32) a x).toNat < S128x32.size a := fun v701 v703 k0_hw274 => k0_hw274

def k0_chk275 (v701 : IVec S16 32) (v761 : IVec S16 32) : Prop :=
  (∀ a x, ((![v701, v761] : Fin 2 → IVec S16 32) a x).toNat < S128x32.size a)
instance k0_chk275.dec : ∀ (v701 : IVec S16 32) (v761 : IVec S16 32), Decidable (k0_chk275 v701 v761) := fun v701 v761 => decidable_of_iff' _ (Iff.of_eq (k0_chk275.eq_1 v701 v761))
theorem k0_idx275_inb : ∀ (v701 : IVec S16 32) (v761 : IVec S16 32) (k0_hw275 : k0_chk275 v701 v761), ∀ a x, ((![v701, v761] : Fin 2 → IVec S16 32) a x).toNat < S128x32.size a := fun v701 v761 k0_hw275 => k0_hw275

def k0_chk276 (v701 : IVec S16 32) (v762 : IVec S16 32) : Prop :=
  (∀ a x, ((![v701, v762] : Fin 2 → IVec S16 32) a x).toNat < S128x32.size a)
instance k0_chk276.dec : ∀ (v701 : IVec S16 32) (v762 : IVec S16 32), Decidable (k0_chk276 v701 v762) := fun v701 v762 => decidable_of_iff' _ (Iff.of_eq (k0_chk276.eq_1 v701 v762))
theorem k0_idx276_inb : ∀ (v701 : IVec S16 32) (v762 : IVec S16 32) (k0_hw276 : k0_chk276 v701 v762), ∀ a x, ((![v701, v762] : Fin 2 → IVec S16 32) a x).toNat < S128x32.size a := fun v701 v762 k0_hw276 => k0_hw276

def k0_chk277 (v764 : IVec S16 32) (v765 : IVec S16 32) : Prop :=
  (∀ a x, ((![v764, v765] : Fin 2 → IVec S16 32) a x).toNat < S128x200.size a)
instance k0_chk277.dec : ∀ (v764 : IVec S16 32) (v765 : IVec S16 32), Decidable (k0_chk277 v764 v765) := fun v764 v765 => decidable_of_iff' _ (Iff.of_eq (k0_chk277.eq_1 v764 v765))
theorem k0_idx277_inb : ∀ (v764 : IVec S16 32) (v765 : IVec S16 32) (k0_hw277 : k0_chk277 v764 v765), ∀ a x, ((![v764, v765] : Fin 2 → IVec S16 32) a x).toNat < S128x200.size a := fun v764 v765 k0_hw277 => k0_hw277

def k0_chk278 (v764 : IVec S16 32) (v767 : IVec S16 32) : Prop :=
  (∀ a x, ((![v764, v767] : Fin 2 → IVec S16 32) a x).toNat < S128x200.size a)
instance k0_chk278.dec : ∀ (v764 : IVec S16 32) (v767 : IVec S16 32), Decidable (k0_chk278 v764 v767) := fun v764 v767 => decidable_of_iff' _ (Iff.of_eq (k0_chk278.eq_1 v764 v767))
theorem k0_idx278_inb : ∀ (v764 : IVec S16 32) (v767 : IVec S16 32) (k0_hw278 : k0_chk278 v764 v767), ∀ a x, ((![v764, v767] : Fin 2 → IVec S16 32) a x).toNat < S128x200.size a := fun v764 v767 k0_hw278 => k0_hw278

def k0_chk279 (v764 : IVec S16 32) (v769 : IVec S16 32) : Prop :=
  (∀ a x, ((![v764, v769] : Fin 2 → IVec S16 32) a x).toNat < S128x200.size a)
instance k0_chk279.dec : ∀ (v764 : IVec S16 32) (v769 : IVec S16 32), Decidable (k0_chk279 v764 v769) := fun v764 v769 => decidable_of_iff' _ (Iff.of_eq (k0_chk279.eq_1 v764 v769))
theorem k0_idx279_inb : ∀ (v764 : IVec S16 32) (v769 : IVec S16 32) (k0_hw279 : k0_chk279 v764 v769), ∀ a x, ((![v764, v769] : Fin 2 → IVec S16 32) a x).toNat < S128x200.size a := fun v764 v769 k0_hw279 => k0_hw279
@[reducible] def k0_t13_loop : Scf.Loop 32 :=
  let c0_i32_370 : BitVec 32 := 0#32
  let c25_i32_371 : BitVec 32 := 25#32
  let v773 : BitVec 32 := Scalar.addi c0_i32_370 c25_i32_371
  let c1_i32_372 : BitVec 32 := 1#32
  ⟨c0_i32_370, v773, c1_i32_372⟩

def k0_chk280 (v764 : IVec S16 32) (arg10 : IVec S16 32) : Prop :=
  (∀ a x, ((![v764, arg10] : Fin 2 → IVec S16 32) a x).toNat < S128x200.size a)
instance k0_chk280.dec : ∀ (v764 : IVec S16 32) (arg10 : IVec S16 32), Decidable (k0_chk280 v764 arg10) := fun v764 arg10 => decidable_of_iff' _ (Iff.of_eq (k0_chk280.eq_1 v764 arg10))
theorem k0_idx280_inb : ∀ (v764 : IVec S16 32) (arg10 : IVec S16 32) (k0_hw280 : k0_chk280 v764 arg10), ∀ a x, ((![v764, arg10] : Fin 2 → IVec S16 32) a x).toNat < S128x200.size a := fun v764 arg10 k0_hw280 => k0_hw280

def k0_chk281 (v2027 : IVec S16 32) : Prop :=
  (∀ a x, ((![v2027] : Fin 1 → IVec S16 32) a x).toNat < S32.size a)
instance k0_chk281.dec : ∀ (v2027 : IVec S16 32), Decidable (k0_chk281 v2027) := fun v2027 => decidable_of_iff' _ (Iff.of_eq (k0_chk281.eq_1 v2027))
theorem k0_idx281_inb : ∀ (v2027 : IVec S16 32) (k0_hw281 : k0_chk281 v2027), ∀ a x, ((![v2027] : Fin 1 → IVec S16 32) a x).toNat < S32.size a := fun v2027 k0_hw281 => k0_hw281

def k0_chk282 (v764 : IVec S16 32) (v2039 : IVec S16 32) : Prop :=
  (∀ a x, ((![v764, v2039] : Fin 2 → IVec S16 32) a x).toNat < S128x200.size a)
instance k0_chk282.dec : ∀ (v764 : IVec S16 32) (v2039 : IVec S16 32), Decidable (k0_chk282 v764 v2039) := fun v764 v2039 => decidable_of_iff' _ (Iff.of_eq (k0_chk282.eq_1 v764 v2039))
theorem k0_idx282_inb : ∀ (v764 : IVec S16 32) (v2039 : IVec S16 32) (k0_hw282 : k0_chk282 v764 v2039), ∀ a x, ((![v764, v2039] : Fin 2 → IVec S16 32) a x).toNat < S128x200.size a := fun v764 v2039 k0_hw282 => k0_hw282

def k0_chk283 (v2040 : IVec S16 32) : Prop :=
  (∀ a x, ((![v2040] : Fin 1 → IVec S16 32) a x).toNat < S32.size a)
instance k0_chk283.dec : ∀ (v2040 : IVec S16 32), Decidable (k0_chk283 v2040) := fun v2040 => decidable_of_iff' _ (Iff.of_eq (k0_chk283.eq_1 v2040))
theorem k0_idx283_inb : ∀ (v2040 : IVec S16 32) (k0_hw283 : k0_chk283 v2040), ∀ a x, ((![v2040] : Fin 1 → IVec S16 32) a x).toNat < S32.size a := fun v2040 k0_hw283 => k0_hw283

def k0_chk284 (v764 : IVec S16 32) (v2052 : IVec S16 32) : Prop :=
  (∀ a x, ((![v764, v2052] : Fin 2 → IVec S16 32) a x).toNat < S128x200.size a)
instance k0_chk284.dec : ∀ (v764 : IVec S16 32) (v2052 : IVec S16 32), Decidable (k0_chk284 v764 v2052) := fun v764 v2052 => decidable_of_iff' _ (Iff.of_eq (k0_chk284.eq_1 v764 v2052))
theorem k0_idx284_inb : ∀ (v764 : IVec S16 32) (v2052 : IVec S16 32) (k0_hw284 : k0_chk284 v764 v2052), ∀ a x, ((![v764, v2052] : Fin 2 → IVec S16 32) a x).toNat < S128x200.size a := fun v764 v2052 k0_hw284 => k0_hw284

def k0_chk285 (v2053 : IVec S16 32) : Prop :=
  (∀ a x, ((![v2053] : Fin 1 → IVec S16 32) a x).toNat < S32.size a)
instance k0_chk285.dec : ∀ (v2053 : IVec S16 32), Decidable (k0_chk285 v2053) := fun v2053 => decidable_of_iff' _ (Iff.of_eq (k0_chk285.eq_1 v2053))
theorem k0_idx285_inb : ∀ (v2053 : IVec S16 32) (k0_hw285 : k0_chk285 v2053), ∀ a x, ((![v2053] : Fin 1 → IVec S16 32) a x).toNat < S32.size a := fun v2053 k0_hw285 => k0_hw285

def k0_chk286 (v764 : IVec S16 32) (v2065 : IVec S16 32) : Prop :=
  (∀ a x, ((![v764, v2065] : Fin 2 → IVec S16 32) a x).toNat < S128x200.size a)
instance k0_chk286.dec : ∀ (v764 : IVec S16 32) (v2065 : IVec S16 32), Decidable (k0_chk286 v764 v2065) := fun v764 v2065 => decidable_of_iff' _ (Iff.of_eq (k0_chk286.eq_1 v764 v2065))
theorem k0_idx286_inb : ∀ (v764 : IVec S16 32) (v2065 : IVec S16 32) (k0_hw286 : k0_chk286 v764 v2065), ∀ a x, ((![v764, v2065] : Fin 2 → IVec S16 32) a x).toNat < S128x200.size a := fun v764 v2065 k0_hw286 => k0_hw286

def k0_chk287 (v2066 : IVec S16 32) : Prop :=
  (∀ a x, ((![v2066] : Fin 1 → IVec S16 32) a x).toNat < S32.size a)
instance k0_chk287.dec : ∀ (v2066 : IVec S16 32), Decidable (k0_chk287 v2066) := fun v2066 => decidable_of_iff' _ (Iff.of_eq (k0_chk287.eq_1 v2066))
theorem k0_idx287_inb : ∀ (v2066 : IVec S16 32) (k0_hw287 : k0_chk287 v2066), ∀ a x, ((![v2066] : Fin 1 → IVec S16 32) a x).toNat < S32.size a := fun v2066 k0_hw287 => k0_hw287

def k0_chk288 (v764 : IVec S16 32) (v2078 : IVec S16 32) : Prop :=
  (∀ a x, ((![v764, v2078] : Fin 2 → IVec S16 32) a x).toNat < S128x200.size a)
instance k0_chk288.dec : ∀ (v764 : IVec S16 32) (v2078 : IVec S16 32), Decidable (k0_chk288 v764 v2078) := fun v764 v2078 => decidable_of_iff' _ (Iff.of_eq (k0_chk288.eq_1 v764 v2078))
theorem k0_idx288_inb : ∀ (v764 : IVec S16 32) (v2078 : IVec S16 32) (k0_hw288 : k0_chk288 v764 v2078), ∀ a x, ((![v764, v2078] : Fin 2 → IVec S16 32) a x).toNat < S128x200.size a := fun v764 v2078 k0_hw288 => k0_hw288

def k0_chk289 (v2079 : IVec S16 32) : Prop :=
  (∀ a x, ((![v2079] : Fin 1 → IVec S16 32) a x).toNat < S32.size a)
instance k0_chk289.dec : ∀ (v2079 : IVec S16 32), Decidable (k0_chk289 v2079) := fun v2079 => decidable_of_iff' _ (Iff.of_eq (k0_chk289.eq_1 v2079))
theorem k0_idx289_inb : ∀ (v2079 : IVec S16 32) (k0_hw289 : k0_chk289 v2079), ∀ a x, ((![v2079] : Fin 1 → IVec S16 32) a x).toNat < S32.size a := fun v2079 k0_hw289 => k0_hw289

def k0_chk290 (v764 : IVec S16 32) (v2091 : IVec S16 32) : Prop :=
  (∀ a x, ((![v764, v2091] : Fin 2 → IVec S16 32) a x).toNat < S128x200.size a)
instance k0_chk290.dec : ∀ (v764 : IVec S16 32) (v2091 : IVec S16 32), Decidable (k0_chk290 v764 v2091) := fun v764 v2091 => decidable_of_iff' _ (Iff.of_eq (k0_chk290.eq_1 v764 v2091))
theorem k0_idx290_inb : ∀ (v764 : IVec S16 32) (v2091 : IVec S16 32) (k0_hw290 : k0_chk290 v764 v2091), ∀ a x, ((![v764, v2091] : Fin 2 → IVec S16 32) a x).toNat < S128x200.size a := fun v764 v2091 k0_hw290 => k0_hw290

def k0_chk291 (v2092 : IVec S16 32) : Prop :=
  (∀ a x, ((![v2092] : Fin 1 → IVec S16 32) a x).toNat < S32.size a)
instance k0_chk291.dec : ∀ (v2092 : IVec S16 32), Decidable (k0_chk291 v2092) := fun v2092 => decidable_of_iff' _ (Iff.of_eq (k0_chk291.eq_1 v2092))
theorem k0_idx291_inb : ∀ (v2092 : IVec S16 32) (k0_hw291 : k0_chk291 v2092), ∀ a x, ((![v2092] : Fin 1 → IVec S16 32) a x).toNat < S32.size a := fun v2092 k0_hw291 => k0_hw291

def k0_chk292 (v764 : IVec S16 32) (v2104 : IVec S16 32) : Prop :=
  (∀ a x, ((![v764, v2104] : Fin 2 → IVec S16 32) a x).toNat < S128x200.size a)
instance k0_chk292.dec : ∀ (v764 : IVec S16 32) (v2104 : IVec S16 32), Decidable (k0_chk292 v764 v2104) := fun v764 v2104 => decidable_of_iff' _ (Iff.of_eq (k0_chk292.eq_1 v764 v2104))
theorem k0_idx292_inb : ∀ (v764 : IVec S16 32) (v2104 : IVec S16 32) (k0_hw292 : k0_chk292 v764 v2104), ∀ a x, ((![v764, v2104] : Fin 2 → IVec S16 32) a x).toNat < S128x200.size a := fun v764 v2104 k0_hw292 => k0_hw292

def k0_chk293 (v2105 : IVec S16 32) : Prop :=
  (∀ a x, ((![v2105] : Fin 1 → IVec S16 32) a x).toNat < S32.size a)
instance k0_chk293.dec : ∀ (v2105 : IVec S16 32), Decidable (k0_chk293 v2105) := fun v2105 => decidable_of_iff' _ (Iff.of_eq (k0_chk293.eq_1 v2105))
theorem k0_idx293_inb : ∀ (v2105 : IVec S16 32) (k0_hw293 : k0_chk293 v2105), ∀ a x, ((![v2105] : Fin 1 → IVec S16 32) a x).toNat < S32.size a := fun v2105 k0_hw293 => k0_hw293

def k0_chk294 (v764 : IVec S16 32) (v2117 : IVec S16 32) : Prop :=
  (∀ a x, ((![v764, v2117] : Fin 2 → IVec S16 32) a x).toNat < S128x200.size a)
instance k0_chk294.dec : ∀ (v764 : IVec S16 32) (v2117 : IVec S16 32), Decidable (k0_chk294 v764 v2117) := fun v764 v2117 => decidable_of_iff' _ (Iff.of_eq (k0_chk294.eq_1 v764 v2117))
theorem k0_idx294_inb : ∀ (v764 : IVec S16 32) (v2117 : IVec S16 32) (k0_hw294 : k0_chk294 v764 v2117), ∀ a x, ((![v764, v2117] : Fin 2 → IVec S16 32) a x).toNat < S128x200.size a := fun v764 v2117 k0_hw294 => k0_hw294

def k0_chk295 (v2118 : IVec S16 32) : Prop :=
  (∀ a x, ((![v2118] : Fin 1 → IVec S16 32) a x).toNat < S32.size a)
instance k0_chk295.dec : ∀ (v2118 : IVec S16 32), Decidable (k0_chk295 v2118) := fun v2118 => decidable_of_iff' _ (Iff.of_eq (k0_chk295.eq_1 v2118))
theorem k0_idx295_inb : ∀ (v2118 : IVec S16 32) (k0_hw295 : k0_chk295 v2118), ∀ a x, ((![v2118] : Fin 1 → IVec S16 32) a x).toNat < S32.size a := fun v2118 k0_hw295 => k0_hw295

def k0_chk296 (v764 : IVec S16 32) (v823 : IVec S16 32) : Prop :=
  (∀ a x, ((![v764, v823] : Fin 2 → IVec S16 32) a x).toNat < S128x32.size a)
instance k0_chk296.dec : ∀ (v764 : IVec S16 32) (v823 : IVec S16 32), Decidable (k0_chk296 v764 v823) := fun v764 v823 => decidable_of_iff' _ (Iff.of_eq (k0_chk296.eq_1 v764 v823))
theorem k0_idx296_inb : ∀ (v764 : IVec S16 32) (v823 : IVec S16 32) (k0_hw296 : k0_chk296 v764 v823), ∀ a x, ((![v764, v823] : Fin 2 → IVec S16 32) a x).toNat < S128x32.size a := fun v764 v823 k0_hw296 => k0_hw296

def k0_chk297 (v764 : IVec S16 32) (v766 : IVec S16 32) : Prop :=
  (∀ a x, ((![v764, v766] : Fin 2 → IVec S16 32) a x).toNat < S128x32.size a)
instance k0_chk297.dec : ∀ (v764 : IVec S16 32) (v766 : IVec S16 32), Decidable (k0_chk297 v764 v766) := fun v764 v766 => decidable_of_iff' _ (Iff.of_eq (k0_chk297.eq_1 v764 v766))
theorem k0_idx297_inb : ∀ (v764 : IVec S16 32) (v766 : IVec S16 32) (k0_hw297 : k0_chk297 v764 v766), ∀ a x, ((![v764, v766] : Fin 2 → IVec S16 32) a x).toNat < S128x32.size a := fun v764 v766 k0_hw297 => k0_hw297

def k0_chk298 (v764 : IVec S16 32) (v824 : IVec S16 32) : Prop :=
  (∀ a x, ((![v764, v824] : Fin 2 → IVec S16 32) a x).toNat < S128x32.size a)
instance k0_chk298.dec : ∀ (v764 : IVec S16 32) (v824 : IVec S16 32), Decidable (k0_chk298 v764 v824) := fun v764 v824 => decidable_of_iff' _ (Iff.of_eq (k0_chk298.eq_1 v764 v824))
theorem k0_idx298_inb : ∀ (v764 : IVec S16 32) (v824 : IVec S16 32) (k0_hw298 : k0_chk298 v764 v824), ∀ a x, ((![v764, v824] : Fin 2 → IVec S16 32) a x).toNat < S128x32.size a := fun v764 v824 k0_hw298 => k0_hw298

def k0_chk299 (v764 : IVec S16 32) (v825 : IVec S16 32) : Prop :=
  (∀ a x, ((![v764, v825] : Fin 2 → IVec S16 32) a x).toNat < S128x32.size a)
instance k0_chk299.dec : ∀ (v764 : IVec S16 32) (v825 : IVec S16 32), Decidable (k0_chk299 v764 v825) := fun v764 v825 => decidable_of_iff' _ (Iff.of_eq (k0_chk299.eq_1 v764 v825))
theorem k0_idx299_inb : ∀ (v764 : IVec S16 32) (v825 : IVec S16 32) (k0_hw299 : k0_chk299 v764 v825), ∀ a x, ((![v764, v825] : Fin 2 → IVec S16 32) a x).toNat < S128x32.size a := fun v764 v825 k0_hw299 => k0_hw299

def k0_chk300 (v827 : IVec S16 32) (v828 : IVec S16 32) : Prop :=
  (∀ a x, ((![v827, v828] : Fin 2 → IVec S16 32) a x).toNat < S128x200.size a)
instance k0_chk300.dec : ∀ (v827 : IVec S16 32) (v828 : IVec S16 32), Decidable (k0_chk300 v827 v828) := fun v827 v828 => decidable_of_iff' _ (Iff.of_eq (k0_chk300.eq_1 v827 v828))
theorem k0_idx300_inb : ∀ (v827 : IVec S16 32) (v828 : IVec S16 32) (k0_hw300 : k0_chk300 v827 v828), ∀ a x, ((![v827, v828] : Fin 2 → IVec S16 32) a x).toNat < S128x200.size a := fun v827 v828 k0_hw300 => k0_hw300

def k0_chk301 (v827 : IVec S16 32) (v830 : IVec S16 32) : Prop :=
  (∀ a x, ((![v827, v830] : Fin 2 → IVec S16 32) a x).toNat < S128x200.size a)
instance k0_chk301.dec : ∀ (v827 : IVec S16 32) (v830 : IVec S16 32), Decidable (k0_chk301 v827 v830) := fun v827 v830 => decidable_of_iff' _ (Iff.of_eq (k0_chk301.eq_1 v827 v830))
theorem k0_idx301_inb : ∀ (v827 : IVec S16 32) (v830 : IVec S16 32) (k0_hw301 : k0_chk301 v827 v830), ∀ a x, ((![v827, v830] : Fin 2 → IVec S16 32) a x).toNat < S128x200.size a := fun v827 v830 k0_hw301 => k0_hw301

def k0_chk302 (v827 : IVec S16 32) (v832 : IVec S16 32) : Prop :=
  (∀ a x, ((![v827, v832] : Fin 2 → IVec S16 32) a x).toNat < S128x200.size a)
instance k0_chk302.dec : ∀ (v827 : IVec S16 32) (v832 : IVec S16 32), Decidable (k0_chk302 v827 v832) := fun v827 v832 => decidable_of_iff' _ (Iff.of_eq (k0_chk302.eq_1 v827 v832))
theorem k0_idx302_inb : ∀ (v827 : IVec S16 32) (v832 : IVec S16 32) (k0_hw302 : k0_chk302 v827 v832), ∀ a x, ((![v827, v832] : Fin 2 → IVec S16 32) a x).toNat < S128x200.size a := fun v827 v832 k0_hw302 => k0_hw302
@[reducible] def k0_t14_loop : Scf.Loop 32 :=
  let c0_i32_402 : BitVec 32 := 0#32
  let c25_i32_403 : BitVec 32 := 25#32
  let v836 : BitVec 32 := Scalar.addi c0_i32_402 c25_i32_403
  let c1_i32_404 : BitVec 32 := 1#32
  ⟨c0_i32_402, v836, c1_i32_404⟩

def k0_chk303 (v827 : IVec S16 32) (arg10 : IVec S16 32) : Prop :=
  (∀ a x, ((![v827, arg10] : Fin 2 → IVec S16 32) a x).toNat < S128x200.size a)
instance k0_chk303.dec : ∀ (v827 : IVec S16 32) (arg10 : IVec S16 32), Decidable (k0_chk303 v827 arg10) := fun v827 arg10 => decidable_of_iff' _ (Iff.of_eq (k0_chk303.eq_1 v827 arg10))
theorem k0_idx303_inb : ∀ (v827 : IVec S16 32) (arg10 : IVec S16 32) (k0_hw303 : k0_chk303 v827 arg10), ∀ a x, ((![v827, arg10] : Fin 2 → IVec S16 32) a x).toNat < S128x200.size a := fun v827 arg10 k0_hw303 => k0_hw303

def k0_chk304 (v2027 : IVec S16 32) : Prop :=
  (∀ a x, ((![v2027] : Fin 1 → IVec S16 32) a x).toNat < S32.size a)
instance k0_chk304.dec : ∀ (v2027 : IVec S16 32), Decidable (k0_chk304 v2027) := fun v2027 => decidable_of_iff' _ (Iff.of_eq (k0_chk304.eq_1 v2027))
theorem k0_idx304_inb : ∀ (v2027 : IVec S16 32) (k0_hw304 : k0_chk304 v2027), ∀ a x, ((![v2027] : Fin 1 → IVec S16 32) a x).toNat < S32.size a := fun v2027 k0_hw304 => k0_hw304

def k0_chk305 (v827 : IVec S16 32) (v2039 : IVec S16 32) : Prop :=
  (∀ a x, ((![v827, v2039] : Fin 2 → IVec S16 32) a x).toNat < S128x200.size a)
instance k0_chk305.dec : ∀ (v827 : IVec S16 32) (v2039 : IVec S16 32), Decidable (k0_chk305 v827 v2039) := fun v827 v2039 => decidable_of_iff' _ (Iff.of_eq (k0_chk305.eq_1 v827 v2039))
theorem k0_idx305_inb : ∀ (v827 : IVec S16 32) (v2039 : IVec S16 32) (k0_hw305 : k0_chk305 v827 v2039), ∀ a x, ((![v827, v2039] : Fin 2 → IVec S16 32) a x).toNat < S128x200.size a := fun v827 v2039 k0_hw305 => k0_hw305

def k0_chk306 (v2040 : IVec S16 32) : Prop :=
  (∀ a x, ((![v2040] : Fin 1 → IVec S16 32) a x).toNat < S32.size a)
instance k0_chk306.dec : ∀ (v2040 : IVec S16 32), Decidable (k0_chk306 v2040) := fun v2040 => decidable_of_iff' _ (Iff.of_eq (k0_chk306.eq_1 v2040))
theorem k0_idx306_inb : ∀ (v2040 : IVec S16 32) (k0_hw306 : k0_chk306 v2040), ∀ a x, ((![v2040] : Fin 1 → IVec S16 32) a x).toNat < S32.size a := fun v2040 k0_hw306 => k0_hw306

def k0_chk307 (v827 : IVec S16 32) (v2052 : IVec S16 32) : Prop :=
  (∀ a x, ((![v827, v2052] : Fin 2 → IVec S16 32) a x).toNat < S128x200.size a)
instance k0_chk307.dec : ∀ (v827 : IVec S16 32) (v2052 : IVec S16 32), Decidable (k0_chk307 v827 v2052) := fun v827 v2052 => decidable_of_iff' _ (Iff.of_eq (k0_chk307.eq_1 v827 v2052))
theorem k0_idx307_inb : ∀ (v827 : IVec S16 32) (v2052 : IVec S16 32) (k0_hw307 : k0_chk307 v827 v2052), ∀ a x, ((![v827, v2052] : Fin 2 → IVec S16 32) a x).toNat < S128x200.size a := fun v827 v2052 k0_hw307 => k0_hw307

def k0_chk308 (v2053 : IVec S16 32) : Prop :=
  (∀ a x, ((![v2053] : Fin 1 → IVec S16 32) a x).toNat < S32.size a)
instance k0_chk308.dec : ∀ (v2053 : IVec S16 32), Decidable (k0_chk308 v2053) := fun v2053 => decidable_of_iff' _ (Iff.of_eq (k0_chk308.eq_1 v2053))
theorem k0_idx308_inb : ∀ (v2053 : IVec S16 32) (k0_hw308 : k0_chk308 v2053), ∀ a x, ((![v2053] : Fin 1 → IVec S16 32) a x).toNat < S32.size a := fun v2053 k0_hw308 => k0_hw308

def k0_chk309 (v827 : IVec S16 32) (v2065 : IVec S16 32) : Prop :=
  (∀ a x, ((![v827, v2065] : Fin 2 → IVec S16 32) a x).toNat < S128x200.size a)
instance k0_chk309.dec : ∀ (v827 : IVec S16 32) (v2065 : IVec S16 32), Decidable (k0_chk309 v827 v2065) := fun v827 v2065 => decidable_of_iff' _ (Iff.of_eq (k0_chk309.eq_1 v827 v2065))
theorem k0_idx309_inb : ∀ (v827 : IVec S16 32) (v2065 : IVec S16 32) (k0_hw309 : k0_chk309 v827 v2065), ∀ a x, ((![v827, v2065] : Fin 2 → IVec S16 32) a x).toNat < S128x200.size a := fun v827 v2065 k0_hw309 => k0_hw309

def k0_chk310 (v2066 : IVec S16 32) : Prop :=
  (∀ a x, ((![v2066] : Fin 1 → IVec S16 32) a x).toNat < S32.size a)
instance k0_chk310.dec : ∀ (v2066 : IVec S16 32), Decidable (k0_chk310 v2066) := fun v2066 => decidable_of_iff' _ (Iff.of_eq (k0_chk310.eq_1 v2066))
theorem k0_idx310_inb : ∀ (v2066 : IVec S16 32) (k0_hw310 : k0_chk310 v2066), ∀ a x, ((![v2066] : Fin 1 → IVec S16 32) a x).toNat < S32.size a := fun v2066 k0_hw310 => k0_hw310

def k0_chk311 (v827 : IVec S16 32) (v2078 : IVec S16 32) : Prop :=
  (∀ a x, ((![v827, v2078] : Fin 2 → IVec S16 32) a x).toNat < S128x200.size a)
instance k0_chk311.dec : ∀ (v827 : IVec S16 32) (v2078 : IVec S16 32), Decidable (k0_chk311 v827 v2078) := fun v827 v2078 => decidable_of_iff' _ (Iff.of_eq (k0_chk311.eq_1 v827 v2078))
theorem k0_idx311_inb : ∀ (v827 : IVec S16 32) (v2078 : IVec S16 32) (k0_hw311 : k0_chk311 v827 v2078), ∀ a x, ((![v827, v2078] : Fin 2 → IVec S16 32) a x).toNat < S128x200.size a := fun v827 v2078 k0_hw311 => k0_hw311

def k0_chk312 (v2079 : IVec S16 32) : Prop :=
  (∀ a x, ((![v2079] : Fin 1 → IVec S16 32) a x).toNat < S32.size a)
instance k0_chk312.dec : ∀ (v2079 : IVec S16 32), Decidable (k0_chk312 v2079) := fun v2079 => decidable_of_iff' _ (Iff.of_eq (k0_chk312.eq_1 v2079))
theorem k0_idx312_inb : ∀ (v2079 : IVec S16 32) (k0_hw312 : k0_chk312 v2079), ∀ a x, ((![v2079] : Fin 1 → IVec S16 32) a x).toNat < S32.size a := fun v2079 k0_hw312 => k0_hw312

def k0_chk313 (v827 : IVec S16 32) (v2091 : IVec S16 32) : Prop :=
  (∀ a x, ((![v827, v2091] : Fin 2 → IVec S16 32) a x).toNat < S128x200.size a)
instance k0_chk313.dec : ∀ (v827 : IVec S16 32) (v2091 : IVec S16 32), Decidable (k0_chk313 v827 v2091) := fun v827 v2091 => decidable_of_iff' _ (Iff.of_eq (k0_chk313.eq_1 v827 v2091))
theorem k0_idx313_inb : ∀ (v827 : IVec S16 32) (v2091 : IVec S16 32) (k0_hw313 : k0_chk313 v827 v2091), ∀ a x, ((![v827, v2091] : Fin 2 → IVec S16 32) a x).toNat < S128x200.size a := fun v827 v2091 k0_hw313 => k0_hw313

def k0_chk314 (v2092 : IVec S16 32) : Prop :=
  (∀ a x, ((![v2092] : Fin 1 → IVec S16 32) a x).toNat < S32.size a)
instance k0_chk314.dec : ∀ (v2092 : IVec S16 32), Decidable (k0_chk314 v2092) := fun v2092 => decidable_of_iff' _ (Iff.of_eq (k0_chk314.eq_1 v2092))
theorem k0_idx314_inb : ∀ (v2092 : IVec S16 32) (k0_hw314 : k0_chk314 v2092), ∀ a x, ((![v2092] : Fin 1 → IVec S16 32) a x).toNat < S32.size a := fun v2092 k0_hw314 => k0_hw314

def k0_chk315 (v827 : IVec S16 32) (v2104 : IVec S16 32) : Prop :=
  (∀ a x, ((![v827, v2104] : Fin 2 → IVec S16 32) a x).toNat < S128x200.size a)
instance k0_chk315.dec : ∀ (v827 : IVec S16 32) (v2104 : IVec S16 32), Decidable (k0_chk315 v827 v2104) := fun v827 v2104 => decidable_of_iff' _ (Iff.of_eq (k0_chk315.eq_1 v827 v2104))
theorem k0_idx315_inb : ∀ (v827 : IVec S16 32) (v2104 : IVec S16 32) (k0_hw315 : k0_chk315 v827 v2104), ∀ a x, ((![v827, v2104] : Fin 2 → IVec S16 32) a x).toNat < S128x200.size a := fun v827 v2104 k0_hw315 => k0_hw315

def k0_chk316 (v2105 : IVec S16 32) : Prop :=
  (∀ a x, ((![v2105] : Fin 1 → IVec S16 32) a x).toNat < S32.size a)
instance k0_chk316.dec : ∀ (v2105 : IVec S16 32), Decidable (k0_chk316 v2105) := fun v2105 => decidable_of_iff' _ (Iff.of_eq (k0_chk316.eq_1 v2105))
theorem k0_idx316_inb : ∀ (v2105 : IVec S16 32) (k0_hw316 : k0_chk316 v2105), ∀ a x, ((![v2105] : Fin 1 → IVec S16 32) a x).toNat < S32.size a := fun v2105 k0_hw316 => k0_hw316

def k0_chk317 (v827 : IVec S16 32) (v2117 : IVec S16 32) : Prop :=
  (∀ a x, ((![v827, v2117] : Fin 2 → IVec S16 32) a x).toNat < S128x200.size a)
instance k0_chk317.dec : ∀ (v827 : IVec S16 32) (v2117 : IVec S16 32), Decidable (k0_chk317 v827 v2117) := fun v827 v2117 => decidable_of_iff' _ (Iff.of_eq (k0_chk317.eq_1 v827 v2117))
theorem k0_idx317_inb : ∀ (v827 : IVec S16 32) (v2117 : IVec S16 32) (k0_hw317 : k0_chk317 v827 v2117), ∀ a x, ((![v827, v2117] : Fin 2 → IVec S16 32) a x).toNat < S128x200.size a := fun v827 v2117 k0_hw317 => k0_hw317

def k0_chk318 (v2118 : IVec S16 32) : Prop :=
  (∀ a x, ((![v2118] : Fin 1 → IVec S16 32) a x).toNat < S32.size a)
instance k0_chk318.dec : ∀ (v2118 : IVec S16 32), Decidable (k0_chk318 v2118) := fun v2118 => decidable_of_iff' _ (Iff.of_eq (k0_chk318.eq_1 v2118))
theorem k0_idx318_inb : ∀ (v2118 : IVec S16 32) (k0_hw318 : k0_chk318 v2118), ∀ a x, ((![v2118] : Fin 1 → IVec S16 32) a x).toNat < S32.size a := fun v2118 k0_hw318 => k0_hw318

def k0_chk319 (v827 : IVec S16 32) (v886 : IVec S16 32) : Prop :=
  (∀ a x, ((![v827, v886] : Fin 2 → IVec S16 32) a x).toNat < S128x32.size a)
instance k0_chk319.dec : ∀ (v827 : IVec S16 32) (v886 : IVec S16 32), Decidable (k0_chk319 v827 v886) := fun v827 v886 => decidable_of_iff' _ (Iff.of_eq (k0_chk319.eq_1 v827 v886))
theorem k0_idx319_inb : ∀ (v827 : IVec S16 32) (v886 : IVec S16 32) (k0_hw319 : k0_chk319 v827 v886), ∀ a x, ((![v827, v886] : Fin 2 → IVec S16 32) a x).toNat < S128x32.size a := fun v827 v886 k0_hw319 => k0_hw319

def k0_chk320 (v827 : IVec S16 32) (v829 : IVec S16 32) : Prop :=
  (∀ a x, ((![v827, v829] : Fin 2 → IVec S16 32) a x).toNat < S128x32.size a)
instance k0_chk320.dec : ∀ (v827 : IVec S16 32) (v829 : IVec S16 32), Decidable (k0_chk320 v827 v829) := fun v827 v829 => decidable_of_iff' _ (Iff.of_eq (k0_chk320.eq_1 v827 v829))
theorem k0_idx320_inb : ∀ (v827 : IVec S16 32) (v829 : IVec S16 32) (k0_hw320 : k0_chk320 v827 v829), ∀ a x, ((![v827, v829] : Fin 2 → IVec S16 32) a x).toNat < S128x32.size a := fun v827 v829 k0_hw320 => k0_hw320

def k0_chk321 (v827 : IVec S16 32) (v887 : IVec S16 32) : Prop :=
  (∀ a x, ((![v827, v887] : Fin 2 → IVec S16 32) a x).toNat < S128x32.size a)
instance k0_chk321.dec : ∀ (v827 : IVec S16 32) (v887 : IVec S16 32), Decidable (k0_chk321 v827 v887) := fun v827 v887 => decidable_of_iff' _ (Iff.of_eq (k0_chk321.eq_1 v827 v887))
theorem k0_idx321_inb : ∀ (v827 : IVec S16 32) (v887 : IVec S16 32) (k0_hw321 : k0_chk321 v827 v887), ∀ a x, ((![v827, v887] : Fin 2 → IVec S16 32) a x).toNat < S128x32.size a := fun v827 v887 k0_hw321 => k0_hw321

def k0_chk322 (v827 : IVec S16 32) (v888 : IVec S16 32) : Prop :=
  (∀ a x, ((![v827, v888] : Fin 2 → IVec S16 32) a x).toNat < S128x32.size a)
instance k0_chk322.dec : ∀ (v827 : IVec S16 32) (v888 : IVec S16 32), Decidable (k0_chk322 v827 v888) := fun v827 v888 => decidable_of_iff' _ (Iff.of_eq (k0_chk322.eq_1 v827 v888))
theorem k0_idx322_inb : ∀ (v827 : IVec S16 32) (v888 : IVec S16 32) (k0_hw322 : k0_chk322 v827 v888), ∀ a x, ((![v827, v888] : Fin 2 → IVec S16 32) a x).toNat < S128x32.size a := fun v827 v888 k0_hw322 => k0_hw322

def k0_chk323 (v890 : IVec S16 32) (v891 : IVec S16 32) : Prop :=
  (∀ a x, ((![v890, v891] : Fin 2 → IVec S16 32) a x).toNat < S128x200.size a)
instance k0_chk323.dec : ∀ (v890 : IVec S16 32) (v891 : IVec S16 32), Decidable (k0_chk323 v890 v891) := fun v890 v891 => decidable_of_iff' _ (Iff.of_eq (k0_chk323.eq_1 v890 v891))
theorem k0_idx323_inb : ∀ (v890 : IVec S16 32) (v891 : IVec S16 32) (k0_hw323 : k0_chk323 v890 v891), ∀ a x, ((![v890, v891] : Fin 2 → IVec S16 32) a x).toNat < S128x200.size a := fun v890 v891 k0_hw323 => k0_hw323

def k0_chk324 (v890 : IVec S16 32) (v893 : IVec S16 32) : Prop :=
  (∀ a x, ((![v890, v893] : Fin 2 → IVec S16 32) a x).toNat < S128x200.size a)
instance k0_chk324.dec : ∀ (v890 : IVec S16 32) (v893 : IVec S16 32), Decidable (k0_chk324 v890 v893) := fun v890 v893 => decidable_of_iff' _ (Iff.of_eq (k0_chk324.eq_1 v890 v893))
theorem k0_idx324_inb : ∀ (v890 : IVec S16 32) (v893 : IVec S16 32) (k0_hw324 : k0_chk324 v890 v893), ∀ a x, ((![v890, v893] : Fin 2 → IVec S16 32) a x).toNat < S128x200.size a := fun v890 v893 k0_hw324 => k0_hw324

def k0_chk325 (v890 : IVec S16 32) (v895 : IVec S16 32) : Prop :=
  (∀ a x, ((![v890, v895] : Fin 2 → IVec S16 32) a x).toNat < S128x200.size a)
instance k0_chk325.dec : ∀ (v890 : IVec S16 32) (v895 : IVec S16 32), Decidable (k0_chk325 v890 v895) := fun v890 v895 => decidable_of_iff' _ (Iff.of_eq (k0_chk325.eq_1 v890 v895))
theorem k0_idx325_inb : ∀ (v890 : IVec S16 32) (v895 : IVec S16 32) (k0_hw325 : k0_chk325 v890 v895), ∀ a x, ((![v890, v895] : Fin 2 → IVec S16 32) a x).toNat < S128x200.size a := fun v890 v895 k0_hw325 => k0_hw325
@[reducible] def k0_t15_loop : Scf.Loop 32 :=
  let c0_i32_434 : BitVec 32 := 0#32
  let c25_i32_435 : BitVec 32 := 25#32
  let v899 : BitVec 32 := Scalar.addi c0_i32_434 c25_i32_435
  let c1_i32_436 : BitVec 32 := 1#32
  ⟨c0_i32_434, v899, c1_i32_436⟩

def k0_chk326 (v890 : IVec S16 32) (arg10 : IVec S16 32) : Prop :=
  (∀ a x, ((![v890, arg10] : Fin 2 → IVec S16 32) a x).toNat < S128x200.size a)
instance k0_chk326.dec : ∀ (v890 : IVec S16 32) (arg10 : IVec S16 32), Decidable (k0_chk326 v890 arg10) := fun v890 arg10 => decidable_of_iff' _ (Iff.of_eq (k0_chk326.eq_1 v890 arg10))
theorem k0_idx326_inb : ∀ (v890 : IVec S16 32) (arg10 : IVec S16 32) (k0_hw326 : k0_chk326 v890 arg10), ∀ a x, ((![v890, arg10] : Fin 2 → IVec S16 32) a x).toNat < S128x200.size a := fun v890 arg10 k0_hw326 => k0_hw326

def k0_chk327 (v2027 : IVec S16 32) : Prop :=
  (∀ a x, ((![v2027] : Fin 1 → IVec S16 32) a x).toNat < S32.size a)
instance k0_chk327.dec : ∀ (v2027 : IVec S16 32), Decidable (k0_chk327 v2027) := fun v2027 => decidable_of_iff' _ (Iff.of_eq (k0_chk327.eq_1 v2027))
theorem k0_idx327_inb : ∀ (v2027 : IVec S16 32) (k0_hw327 : k0_chk327 v2027), ∀ a x, ((![v2027] : Fin 1 → IVec S16 32) a x).toNat < S32.size a := fun v2027 k0_hw327 => k0_hw327

def k0_chk328 (v890 : IVec S16 32) (v2039 : IVec S16 32) : Prop :=
  (∀ a x, ((![v890, v2039] : Fin 2 → IVec S16 32) a x).toNat < S128x200.size a)
instance k0_chk328.dec : ∀ (v890 : IVec S16 32) (v2039 : IVec S16 32), Decidable (k0_chk328 v890 v2039) := fun v890 v2039 => decidable_of_iff' _ (Iff.of_eq (k0_chk328.eq_1 v890 v2039))
theorem k0_idx328_inb : ∀ (v890 : IVec S16 32) (v2039 : IVec S16 32) (k0_hw328 : k0_chk328 v890 v2039), ∀ a x, ((![v890, v2039] : Fin 2 → IVec S16 32) a x).toNat < S128x200.size a := fun v890 v2039 k0_hw328 => k0_hw328

def k0_chk329 (v2040 : IVec S16 32) : Prop :=
  (∀ a x, ((![v2040] : Fin 1 → IVec S16 32) a x).toNat < S32.size a)
instance k0_chk329.dec : ∀ (v2040 : IVec S16 32), Decidable (k0_chk329 v2040) := fun v2040 => decidable_of_iff' _ (Iff.of_eq (k0_chk329.eq_1 v2040))
theorem k0_idx329_inb : ∀ (v2040 : IVec S16 32) (k0_hw329 : k0_chk329 v2040), ∀ a x, ((![v2040] : Fin 1 → IVec S16 32) a x).toNat < S32.size a := fun v2040 k0_hw329 => k0_hw329

def k0_chk330 (v890 : IVec S16 32) (v2052 : IVec S16 32) : Prop :=
  (∀ a x, ((![v890, v2052] : Fin 2 → IVec S16 32) a x).toNat < S128x200.size a)
instance k0_chk330.dec : ∀ (v890 : IVec S16 32) (v2052 : IVec S16 32), Decidable (k0_chk330 v890 v2052) := fun v890 v2052 => decidable_of_iff' _ (Iff.of_eq (k0_chk330.eq_1 v890 v2052))
theorem k0_idx330_inb : ∀ (v890 : IVec S16 32) (v2052 : IVec S16 32) (k0_hw330 : k0_chk330 v890 v2052), ∀ a x, ((![v890, v2052] : Fin 2 → IVec S16 32) a x).toNat < S128x200.size a := fun v890 v2052 k0_hw330 => k0_hw330

def k0_chk331 (v2053 : IVec S16 32) : Prop :=
  (∀ a x, ((![v2053] : Fin 1 → IVec S16 32) a x).toNat < S32.size a)
instance k0_chk331.dec : ∀ (v2053 : IVec S16 32), Decidable (k0_chk331 v2053) := fun v2053 => decidable_of_iff' _ (Iff.of_eq (k0_chk331.eq_1 v2053))
theorem k0_idx331_inb : ∀ (v2053 : IVec S16 32) (k0_hw331 : k0_chk331 v2053), ∀ a x, ((![v2053] : Fin 1 → IVec S16 32) a x).toNat < S32.size a := fun v2053 k0_hw331 => k0_hw331

def k0_chk332 (v890 : IVec S16 32) (v2065 : IVec S16 32) : Prop :=
  (∀ a x, ((![v890, v2065] : Fin 2 → IVec S16 32) a x).toNat < S128x200.size a)
instance k0_chk332.dec : ∀ (v890 : IVec S16 32) (v2065 : IVec S16 32), Decidable (k0_chk332 v890 v2065) := fun v890 v2065 => decidable_of_iff' _ (Iff.of_eq (k0_chk332.eq_1 v890 v2065))
theorem k0_idx332_inb : ∀ (v890 : IVec S16 32) (v2065 : IVec S16 32) (k0_hw332 : k0_chk332 v890 v2065), ∀ a x, ((![v890, v2065] : Fin 2 → IVec S16 32) a x).toNat < S128x200.size a := fun v890 v2065 k0_hw332 => k0_hw332

def k0_chk333 (v2066 : IVec S16 32) : Prop :=
  (∀ a x, ((![v2066] : Fin 1 → IVec S16 32) a x).toNat < S32.size a)
instance k0_chk333.dec : ∀ (v2066 : IVec S16 32), Decidable (k0_chk333 v2066) := fun v2066 => decidable_of_iff' _ (Iff.of_eq (k0_chk333.eq_1 v2066))
theorem k0_idx333_inb : ∀ (v2066 : IVec S16 32) (k0_hw333 : k0_chk333 v2066), ∀ a x, ((![v2066] : Fin 1 → IVec S16 32) a x).toNat < S32.size a := fun v2066 k0_hw333 => k0_hw333

def k0_chk334 (v890 : IVec S16 32) (v2078 : IVec S16 32) : Prop :=
  (∀ a x, ((![v890, v2078] : Fin 2 → IVec S16 32) a x).toNat < S128x200.size a)
instance k0_chk334.dec : ∀ (v890 : IVec S16 32) (v2078 : IVec S16 32), Decidable (k0_chk334 v890 v2078) := fun v890 v2078 => decidable_of_iff' _ (Iff.of_eq (k0_chk334.eq_1 v890 v2078))
theorem k0_idx334_inb : ∀ (v890 : IVec S16 32) (v2078 : IVec S16 32) (k0_hw334 : k0_chk334 v890 v2078), ∀ a x, ((![v890, v2078] : Fin 2 → IVec S16 32) a x).toNat < S128x200.size a := fun v890 v2078 k0_hw334 => k0_hw334

def k0_chk335 (v2079 : IVec S16 32) : Prop :=
  (∀ a x, ((![v2079] : Fin 1 → IVec S16 32) a x).toNat < S32.size a)
instance k0_chk335.dec : ∀ (v2079 : IVec S16 32), Decidable (k0_chk335 v2079) := fun v2079 => decidable_of_iff' _ (Iff.of_eq (k0_chk335.eq_1 v2079))
theorem k0_idx335_inb : ∀ (v2079 : IVec S16 32) (k0_hw335 : k0_chk335 v2079), ∀ a x, ((![v2079] : Fin 1 → IVec S16 32) a x).toNat < S32.size a := fun v2079 k0_hw335 => k0_hw335

def k0_chk336 (v890 : IVec S16 32) (v2091 : IVec S16 32) : Prop :=
  (∀ a x, ((![v890, v2091] : Fin 2 → IVec S16 32) a x).toNat < S128x200.size a)
instance k0_chk336.dec : ∀ (v890 : IVec S16 32) (v2091 : IVec S16 32), Decidable (k0_chk336 v890 v2091) := fun v890 v2091 => decidable_of_iff' _ (Iff.of_eq (k0_chk336.eq_1 v890 v2091))
theorem k0_idx336_inb : ∀ (v890 : IVec S16 32) (v2091 : IVec S16 32) (k0_hw336 : k0_chk336 v890 v2091), ∀ a x, ((![v890, v2091] : Fin 2 → IVec S16 32) a x).toNat < S128x200.size a := fun v890 v2091 k0_hw336 => k0_hw336

def k0_chk337 (v2092 : IVec S16 32) : Prop :=
  (∀ a x, ((![v2092] : Fin 1 → IVec S16 32) a x).toNat < S32.size a)
instance k0_chk337.dec : ∀ (v2092 : IVec S16 32), Decidable (k0_chk337 v2092) := fun v2092 => decidable_of_iff' _ (Iff.of_eq (k0_chk337.eq_1 v2092))
theorem k0_idx337_inb : ∀ (v2092 : IVec S16 32) (k0_hw337 : k0_chk337 v2092), ∀ a x, ((![v2092] : Fin 1 → IVec S16 32) a x).toNat < S32.size a := fun v2092 k0_hw337 => k0_hw337

def k0_chk338 (v890 : IVec S16 32) (v2104 : IVec S16 32) : Prop :=
  (∀ a x, ((![v890, v2104] : Fin 2 → IVec S16 32) a x).toNat < S128x200.size a)
instance k0_chk338.dec : ∀ (v890 : IVec S16 32) (v2104 : IVec S16 32), Decidable (k0_chk338 v890 v2104) := fun v890 v2104 => decidable_of_iff' _ (Iff.of_eq (k0_chk338.eq_1 v890 v2104))
theorem k0_idx338_inb : ∀ (v890 : IVec S16 32) (v2104 : IVec S16 32) (k0_hw338 : k0_chk338 v890 v2104), ∀ a x, ((![v890, v2104] : Fin 2 → IVec S16 32) a x).toNat < S128x200.size a := fun v890 v2104 k0_hw338 => k0_hw338

def k0_chk339 (v2105 : IVec S16 32) : Prop :=
  (∀ a x, ((![v2105] : Fin 1 → IVec S16 32) a x).toNat < S32.size a)
instance k0_chk339.dec : ∀ (v2105 : IVec S16 32), Decidable (k0_chk339 v2105) := fun v2105 => decidable_of_iff' _ (Iff.of_eq (k0_chk339.eq_1 v2105))
theorem k0_idx339_inb : ∀ (v2105 : IVec S16 32) (k0_hw339 : k0_chk339 v2105), ∀ a x, ((![v2105] : Fin 1 → IVec S16 32) a x).toNat < S32.size a := fun v2105 k0_hw339 => k0_hw339

def k0_chk340 (v890 : IVec S16 32) (v2117 : IVec S16 32) : Prop :=
  (∀ a x, ((![v890, v2117] : Fin 2 → IVec S16 32) a x).toNat < S128x200.size a)
instance k0_chk340.dec : ∀ (v890 : IVec S16 32) (v2117 : IVec S16 32), Decidable (k0_chk340 v890 v2117) := fun v890 v2117 => decidable_of_iff' _ (Iff.of_eq (k0_chk340.eq_1 v890 v2117))
theorem k0_idx340_inb : ∀ (v890 : IVec S16 32) (v2117 : IVec S16 32) (k0_hw340 : k0_chk340 v890 v2117), ∀ a x, ((![v890, v2117] : Fin 2 → IVec S16 32) a x).toNat < S128x200.size a := fun v890 v2117 k0_hw340 => k0_hw340

def k0_chk341 (v2118 : IVec S16 32) : Prop :=
  (∀ a x, ((![v2118] : Fin 1 → IVec S16 32) a x).toNat < S32.size a)
instance k0_chk341.dec : ∀ (v2118 : IVec S16 32), Decidable (k0_chk341 v2118) := fun v2118 => decidable_of_iff' _ (Iff.of_eq (k0_chk341.eq_1 v2118))
theorem k0_idx341_inb : ∀ (v2118 : IVec S16 32) (k0_hw341 : k0_chk341 v2118), ∀ a x, ((![v2118] : Fin 1 → IVec S16 32) a x).toNat < S32.size a := fun v2118 k0_hw341 => k0_hw341

def k0_chk342 (v890 : IVec S16 32) (v949 : IVec S16 32) : Prop :=
  (∀ a x, ((![v890, v949] : Fin 2 → IVec S16 32) a x).toNat < S128x32.size a)
instance k0_chk342.dec : ∀ (v890 : IVec S16 32) (v949 : IVec S16 32), Decidable (k0_chk342 v890 v949) := fun v890 v949 => decidable_of_iff' _ (Iff.of_eq (k0_chk342.eq_1 v890 v949))
theorem k0_idx342_inb : ∀ (v890 : IVec S16 32) (v949 : IVec S16 32) (k0_hw342 : k0_chk342 v890 v949), ∀ a x, ((![v890, v949] : Fin 2 → IVec S16 32) a x).toNat < S128x32.size a := fun v890 v949 k0_hw342 => k0_hw342

def k0_chk343 (v890 : IVec S16 32) (v892 : IVec S16 32) : Prop :=
  (∀ a x, ((![v890, v892] : Fin 2 → IVec S16 32) a x).toNat < S128x32.size a)
instance k0_chk343.dec : ∀ (v890 : IVec S16 32) (v892 : IVec S16 32), Decidable (k0_chk343 v890 v892) := fun v890 v892 => decidable_of_iff' _ (Iff.of_eq (k0_chk343.eq_1 v890 v892))
theorem k0_idx343_inb : ∀ (v890 : IVec S16 32) (v892 : IVec S16 32) (k0_hw343 : k0_chk343 v890 v892), ∀ a x, ((![v890, v892] : Fin 2 → IVec S16 32) a x).toNat < S128x32.size a := fun v890 v892 k0_hw343 => k0_hw343

def k0_chk344 (v890 : IVec S16 32) (v950 : IVec S16 32) : Prop :=
  (∀ a x, ((![v890, v950] : Fin 2 → IVec S16 32) a x).toNat < S128x32.size a)
instance k0_chk344.dec : ∀ (v890 : IVec S16 32) (v950 : IVec S16 32), Decidable (k0_chk344 v890 v950) := fun v890 v950 => decidable_of_iff' _ (Iff.of_eq (k0_chk344.eq_1 v890 v950))
theorem k0_idx344_inb : ∀ (v890 : IVec S16 32) (v950 : IVec S16 32) (k0_hw344 : k0_chk344 v890 v950), ∀ a x, ((![v890, v950] : Fin 2 → IVec S16 32) a x).toNat < S128x32.size a := fun v890 v950 k0_hw344 => k0_hw344

def k0_chk345 (v890 : IVec S16 32) (v951 : IVec S16 32) : Prop :=
  (∀ a x, ((![v890, v951] : Fin 2 → IVec S16 32) a x).toNat < S128x32.size a)
instance k0_chk345.dec : ∀ (v890 : IVec S16 32) (v951 : IVec S16 32), Decidable (k0_chk345 v890 v951) := fun v890 v951 => decidable_of_iff' _ (Iff.of_eq (k0_chk345.eq_1 v890 v951))
theorem k0_idx345_inb : ∀ (v890 : IVec S16 32) (v951 : IVec S16 32) (k0_hw345 : k0_chk345 v890 v951), ∀ a x, ((![v890, v951] : Fin 2 → IVec S16 32) a x).toNat < S128x32.size a := fun v890 v951 k0_hw345 => k0_hw345

def k0_chk346 (v953 : IVec S16 32) (v954 : IVec S16 32) : Prop :=
  (∀ a x, ((![v953, v954] : Fin 2 → IVec S16 32) a x).toNat < S128x200.size a)
instance k0_chk346.dec : ∀ (v953 : IVec S16 32) (v954 : IVec S16 32), Decidable (k0_chk346 v953 v954) := fun v953 v954 => decidable_of_iff' _ (Iff.of_eq (k0_chk346.eq_1 v953 v954))
theorem k0_idx346_inb : ∀ (v953 : IVec S16 32) (v954 : IVec S16 32) (k0_hw346 : k0_chk346 v953 v954), ∀ a x, ((![v953, v954] : Fin 2 → IVec S16 32) a x).toNat < S128x200.size a := fun v953 v954 k0_hw346 => k0_hw346

def k0_chk347 (v953 : IVec S16 32) (v956 : IVec S16 32) : Prop :=
  (∀ a x, ((![v953, v956] : Fin 2 → IVec S16 32) a x).toNat < S128x200.size a)
instance k0_chk347.dec : ∀ (v953 : IVec S16 32) (v956 : IVec S16 32), Decidable (k0_chk347 v953 v956) := fun v953 v956 => decidable_of_iff' _ (Iff.of_eq (k0_chk347.eq_1 v953 v956))
theorem k0_idx347_inb : ∀ (v953 : IVec S16 32) (v956 : IVec S16 32) (k0_hw347 : k0_chk347 v953 v956), ∀ a x, ((![v953, v956] : Fin 2 → IVec S16 32) a x).toNat < S128x200.size a := fun v953 v956 k0_hw347 => k0_hw347

def k0_chk348 (v953 : IVec S16 32) (v958 : IVec S16 32) : Prop :=
  (∀ a x, ((![v953, v958] : Fin 2 → IVec S16 32) a x).toNat < S128x200.size a)
instance k0_chk348.dec : ∀ (v953 : IVec S16 32) (v958 : IVec S16 32), Decidable (k0_chk348 v953 v958) := fun v953 v958 => decidable_of_iff' _ (Iff.of_eq (k0_chk348.eq_1 v953 v958))
theorem k0_idx348_inb : ∀ (v953 : IVec S16 32) (v958 : IVec S16 32) (k0_hw348 : k0_chk348 v953 v958), ∀ a x, ((![v953, v958] : Fin 2 → IVec S16 32) a x).toNat < S128x200.size a := fun v953 v958 k0_hw348 => k0_hw348
@[reducible] def k0_t16_loop : Scf.Loop 32 :=
  let c0_i32_466 : BitVec 32 := 0#32
  let c25_i32_467 : BitVec 32 := 25#32
  let v962 : BitVec 32 := Scalar.addi c0_i32_466 c25_i32_467
  let c1_i32_468 : BitVec 32 := 1#32
  ⟨c0_i32_466, v962, c1_i32_468⟩

def k0_chk349 (v953 : IVec S16 32) (arg10 : IVec S16 32) : Prop :=
  (∀ a x, ((![v953, arg10] : Fin 2 → IVec S16 32) a x).toNat < S128x200.size a)
instance k0_chk349.dec : ∀ (v953 : IVec S16 32) (arg10 : IVec S16 32), Decidable (k0_chk349 v953 arg10) := fun v953 arg10 => decidable_of_iff' _ (Iff.of_eq (k0_chk349.eq_1 v953 arg10))
theorem k0_idx349_inb : ∀ (v953 : IVec S16 32) (arg10 : IVec S16 32) (k0_hw349 : k0_chk349 v953 arg10), ∀ a x, ((![v953, arg10] : Fin 2 → IVec S16 32) a x).toNat < S128x200.size a := fun v953 arg10 k0_hw349 => k0_hw349

def k0_chk350 (v2027 : IVec S16 32) : Prop :=
  (∀ a x, ((![v2027] : Fin 1 → IVec S16 32) a x).toNat < S32.size a)
instance k0_chk350.dec : ∀ (v2027 : IVec S16 32), Decidable (k0_chk350 v2027) := fun v2027 => decidable_of_iff' _ (Iff.of_eq (k0_chk350.eq_1 v2027))
theorem k0_idx350_inb : ∀ (v2027 : IVec S16 32) (k0_hw350 : k0_chk350 v2027), ∀ a x, ((![v2027] : Fin 1 → IVec S16 32) a x).toNat < S32.size a := fun v2027 k0_hw350 => k0_hw350

def k0_chk351 (v953 : IVec S16 32) (v2039 : IVec S16 32) : Prop :=
  (∀ a x, ((![v953, v2039] : Fin 2 → IVec S16 32) a x).toNat < S128x200.size a)
instance k0_chk351.dec : ∀ (v953 : IVec S16 32) (v2039 : IVec S16 32), Decidable (k0_chk351 v953 v2039) := fun v953 v2039 => decidable_of_iff' _ (Iff.of_eq (k0_chk351.eq_1 v953 v2039))
theorem k0_idx351_inb : ∀ (v953 : IVec S16 32) (v2039 : IVec S16 32) (k0_hw351 : k0_chk351 v953 v2039), ∀ a x, ((![v953, v2039] : Fin 2 → IVec S16 32) a x).toNat < S128x200.size a := fun v953 v2039 k0_hw351 => k0_hw351

def k0_chk352 (v2040 : IVec S16 32) : Prop :=
  (∀ a x, ((![v2040] : Fin 1 → IVec S16 32) a x).toNat < S32.size a)
instance k0_chk352.dec : ∀ (v2040 : IVec S16 32), Decidable (k0_chk352 v2040) := fun v2040 => decidable_of_iff' _ (Iff.of_eq (k0_chk352.eq_1 v2040))
theorem k0_idx352_inb : ∀ (v2040 : IVec S16 32) (k0_hw352 : k0_chk352 v2040), ∀ a x, ((![v2040] : Fin 1 → IVec S16 32) a x).toNat < S32.size a := fun v2040 k0_hw352 => k0_hw352

def k0_chk353 (v953 : IVec S16 32) (v2052 : IVec S16 32) : Prop :=
  (∀ a x, ((![v953, v2052] : Fin 2 → IVec S16 32) a x).toNat < S128x200.size a)
instance k0_chk353.dec : ∀ (v953 : IVec S16 32) (v2052 : IVec S16 32), Decidable (k0_chk353 v953 v2052) := fun v953 v2052 => decidable_of_iff' _ (Iff.of_eq (k0_chk353.eq_1 v953 v2052))
theorem k0_idx353_inb : ∀ (v953 : IVec S16 32) (v2052 : IVec S16 32) (k0_hw353 : k0_chk353 v953 v2052), ∀ a x, ((![v953, v2052] : Fin 2 → IVec S16 32) a x).toNat < S128x200.size a := fun v953 v2052 k0_hw353 => k0_hw353

def k0_chk354 (v2053 : IVec S16 32) : Prop :=
  (∀ a x, ((![v2053] : Fin 1 → IVec S16 32) a x).toNat < S32.size a)
instance k0_chk354.dec : ∀ (v2053 : IVec S16 32), Decidable (k0_chk354 v2053) := fun v2053 => decidable_of_iff' _ (Iff.of_eq (k0_chk354.eq_1 v2053))
theorem k0_idx354_inb : ∀ (v2053 : IVec S16 32) (k0_hw354 : k0_chk354 v2053), ∀ a x, ((![v2053] : Fin 1 → IVec S16 32) a x).toNat < S32.size a := fun v2053 k0_hw354 => k0_hw354

def k0_chk355 (v953 : IVec S16 32) (v2065 : IVec S16 32) : Prop :=
  (∀ a x, ((![v953, v2065] : Fin 2 → IVec S16 32) a x).toNat < S128x200.size a)
instance k0_chk355.dec : ∀ (v953 : IVec S16 32) (v2065 : IVec S16 32), Decidable (k0_chk355 v953 v2065) := fun v953 v2065 => decidable_of_iff' _ (Iff.of_eq (k0_chk355.eq_1 v953 v2065))
theorem k0_idx355_inb : ∀ (v953 : IVec S16 32) (v2065 : IVec S16 32) (k0_hw355 : k0_chk355 v953 v2065), ∀ a x, ((![v953, v2065] : Fin 2 → IVec S16 32) a x).toNat < S128x200.size a := fun v953 v2065 k0_hw355 => k0_hw355

def k0_chk356 (v2066 : IVec S16 32) : Prop :=
  (∀ a x, ((![v2066] : Fin 1 → IVec S16 32) a x).toNat < S32.size a)
instance k0_chk356.dec : ∀ (v2066 : IVec S16 32), Decidable (k0_chk356 v2066) := fun v2066 => decidable_of_iff' _ (Iff.of_eq (k0_chk356.eq_1 v2066))
theorem k0_idx356_inb : ∀ (v2066 : IVec S16 32) (k0_hw356 : k0_chk356 v2066), ∀ a x, ((![v2066] : Fin 1 → IVec S16 32) a x).toNat < S32.size a := fun v2066 k0_hw356 => k0_hw356

def k0_chk357 (v953 : IVec S16 32) (v2078 : IVec S16 32) : Prop :=
  (∀ a x, ((![v953, v2078] : Fin 2 → IVec S16 32) a x).toNat < S128x200.size a)
instance k0_chk357.dec : ∀ (v953 : IVec S16 32) (v2078 : IVec S16 32), Decidable (k0_chk357 v953 v2078) := fun v953 v2078 => decidable_of_iff' _ (Iff.of_eq (k0_chk357.eq_1 v953 v2078))
theorem k0_idx357_inb : ∀ (v953 : IVec S16 32) (v2078 : IVec S16 32) (k0_hw357 : k0_chk357 v953 v2078), ∀ a x, ((![v953, v2078] : Fin 2 → IVec S16 32) a x).toNat < S128x200.size a := fun v953 v2078 k0_hw357 => k0_hw357

def k0_chk358 (v2079 : IVec S16 32) : Prop :=
  (∀ a x, ((![v2079] : Fin 1 → IVec S16 32) a x).toNat < S32.size a)
instance k0_chk358.dec : ∀ (v2079 : IVec S16 32), Decidable (k0_chk358 v2079) := fun v2079 => decidable_of_iff' _ (Iff.of_eq (k0_chk358.eq_1 v2079))
theorem k0_idx358_inb : ∀ (v2079 : IVec S16 32) (k0_hw358 : k0_chk358 v2079), ∀ a x, ((![v2079] : Fin 1 → IVec S16 32) a x).toNat < S32.size a := fun v2079 k0_hw358 => k0_hw358

def k0_chk359 (v953 : IVec S16 32) (v2091 : IVec S16 32) : Prop :=
  (∀ a x, ((![v953, v2091] : Fin 2 → IVec S16 32) a x).toNat < S128x200.size a)
instance k0_chk359.dec : ∀ (v953 : IVec S16 32) (v2091 : IVec S16 32), Decidable (k0_chk359 v953 v2091) := fun v953 v2091 => decidable_of_iff' _ (Iff.of_eq (k0_chk359.eq_1 v953 v2091))
theorem k0_idx359_inb : ∀ (v953 : IVec S16 32) (v2091 : IVec S16 32) (k0_hw359 : k0_chk359 v953 v2091), ∀ a x, ((![v953, v2091] : Fin 2 → IVec S16 32) a x).toNat < S128x200.size a := fun v953 v2091 k0_hw359 => k0_hw359

def k0_chk360 (v2092 : IVec S16 32) : Prop :=
  (∀ a x, ((![v2092] : Fin 1 → IVec S16 32) a x).toNat < S32.size a)
instance k0_chk360.dec : ∀ (v2092 : IVec S16 32), Decidable (k0_chk360 v2092) := fun v2092 => decidable_of_iff' _ (Iff.of_eq (k0_chk360.eq_1 v2092))
theorem k0_idx360_inb : ∀ (v2092 : IVec S16 32) (k0_hw360 : k0_chk360 v2092), ∀ a x, ((![v2092] : Fin 1 → IVec S16 32) a x).toNat < S32.size a := fun v2092 k0_hw360 => k0_hw360

def k0_chk361 (v953 : IVec S16 32) (v2104 : IVec S16 32) : Prop :=
  (∀ a x, ((![v953, v2104] : Fin 2 → IVec S16 32) a x).toNat < S128x200.size a)
instance k0_chk361.dec : ∀ (v953 : IVec S16 32) (v2104 : IVec S16 32), Decidable (k0_chk361 v953 v2104) := fun v953 v2104 => decidable_of_iff' _ (Iff.of_eq (k0_chk361.eq_1 v953 v2104))
theorem k0_idx361_inb : ∀ (v953 : IVec S16 32) (v2104 : IVec S16 32) (k0_hw361 : k0_chk361 v953 v2104), ∀ a x, ((![v953, v2104] : Fin 2 → IVec S16 32) a x).toNat < S128x200.size a := fun v953 v2104 k0_hw361 => k0_hw361

def k0_chk362 (v2105 : IVec S16 32) : Prop :=
  (∀ a x, ((![v2105] : Fin 1 → IVec S16 32) a x).toNat < S32.size a)
instance k0_chk362.dec : ∀ (v2105 : IVec S16 32), Decidable (k0_chk362 v2105) := fun v2105 => decidable_of_iff' _ (Iff.of_eq (k0_chk362.eq_1 v2105))
theorem k0_idx362_inb : ∀ (v2105 : IVec S16 32) (k0_hw362 : k0_chk362 v2105), ∀ a x, ((![v2105] : Fin 1 → IVec S16 32) a x).toNat < S32.size a := fun v2105 k0_hw362 => k0_hw362

def k0_chk363 (v953 : IVec S16 32) (v2117 : IVec S16 32) : Prop :=
  (∀ a x, ((![v953, v2117] : Fin 2 → IVec S16 32) a x).toNat < S128x200.size a)
instance k0_chk363.dec : ∀ (v953 : IVec S16 32) (v2117 : IVec S16 32), Decidable (k0_chk363 v953 v2117) := fun v953 v2117 => decidable_of_iff' _ (Iff.of_eq (k0_chk363.eq_1 v953 v2117))
theorem k0_idx363_inb : ∀ (v953 : IVec S16 32) (v2117 : IVec S16 32) (k0_hw363 : k0_chk363 v953 v2117), ∀ a x, ((![v953, v2117] : Fin 2 → IVec S16 32) a x).toNat < S128x200.size a := fun v953 v2117 k0_hw363 => k0_hw363

def k0_chk364 (v2118 : IVec S16 32) : Prop :=
  (∀ a x, ((![v2118] : Fin 1 → IVec S16 32) a x).toNat < S32.size a)
instance k0_chk364.dec : ∀ (v2118 : IVec S16 32), Decidable (k0_chk364 v2118) := fun v2118 => decidable_of_iff' _ (Iff.of_eq (k0_chk364.eq_1 v2118))
theorem k0_idx364_inb : ∀ (v2118 : IVec S16 32) (k0_hw364 : k0_chk364 v2118), ∀ a x, ((![v2118] : Fin 1 → IVec S16 32) a x).toNat < S32.size a := fun v2118 k0_hw364 => k0_hw364

def k0_chk365 (v953 : IVec S16 32) (v1012 : IVec S16 32) : Prop :=
  (∀ a x, ((![v953, v1012] : Fin 2 → IVec S16 32) a x).toNat < S128x32.size a)
instance k0_chk365.dec : ∀ (v953 : IVec S16 32) (v1012 : IVec S16 32), Decidable (k0_chk365 v953 v1012) := fun v953 v1012 => decidable_of_iff' _ (Iff.of_eq (k0_chk365.eq_1 v953 v1012))
theorem k0_idx365_inb : ∀ (v953 : IVec S16 32) (v1012 : IVec S16 32) (k0_hw365 : k0_chk365 v953 v1012), ∀ a x, ((![v953, v1012] : Fin 2 → IVec S16 32) a x).toNat < S128x32.size a := fun v953 v1012 k0_hw365 => k0_hw365

def k0_chk366 (v953 : IVec S16 32) (v955 : IVec S16 32) : Prop :=
  (∀ a x, ((![v953, v955] : Fin 2 → IVec S16 32) a x).toNat < S128x32.size a)
instance k0_chk366.dec : ∀ (v953 : IVec S16 32) (v955 : IVec S16 32), Decidable (k0_chk366 v953 v955) := fun v953 v955 => decidable_of_iff' _ (Iff.of_eq (k0_chk366.eq_1 v953 v955))
theorem k0_idx366_inb : ∀ (v953 : IVec S16 32) (v955 : IVec S16 32) (k0_hw366 : k0_chk366 v953 v955), ∀ a x, ((![v953, v955] : Fin 2 → IVec S16 32) a x).toNat < S128x32.size a := fun v953 v955 k0_hw366 => k0_hw366

def k0_chk367 (v953 : IVec S16 32) (v1013 : IVec S16 32) : Prop :=
  (∀ a x, ((![v953, v1013] : Fin 2 → IVec S16 32) a x).toNat < S128x32.size a)
instance k0_chk367.dec : ∀ (v953 : IVec S16 32) (v1013 : IVec S16 32), Decidable (k0_chk367 v953 v1013) := fun v953 v1013 => decidable_of_iff' _ (Iff.of_eq (k0_chk367.eq_1 v953 v1013))
theorem k0_idx367_inb : ∀ (v953 : IVec S16 32) (v1013 : IVec S16 32) (k0_hw367 : k0_chk367 v953 v1013), ∀ a x, ((![v953, v1013] : Fin 2 → IVec S16 32) a x).toNat < S128x32.size a := fun v953 v1013 k0_hw367 => k0_hw367

def k0_chk368 (v953 : IVec S16 32) (v1014 : IVec S16 32) : Prop :=
  (∀ a x, ((![v953, v1014] : Fin 2 → IVec S16 32) a x).toNat < S128x32.size a)
instance k0_chk368.dec : ∀ (v953 : IVec S16 32) (v1014 : IVec S16 32), Decidable (k0_chk368 v953 v1014) := fun v953 v1014 => decidable_of_iff' _ (Iff.of_eq (k0_chk368.eq_1 v953 v1014))
theorem k0_idx368_inb : ∀ (v953 : IVec S16 32) (v1014 : IVec S16 32) (k0_hw368 : k0_chk368 v953 v1014), ∀ a x, ((![v953, v1014] : Fin 2 → IVec S16 32) a x).toNat < S128x32.size a := fun v953 v1014 k0_hw368 => k0_hw368
def k0_off5 (i : grid0.Coords) (c128_i32 : BitVec 32) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c512_i32_235 : BitVec 32 := 512#32
  let v509 : BitVec 32 := Scalar.muli v2 c512_i32_235
  let v510 : BitVec 32 := Scalar.addi v509 c128_i32
  let c0_i32_1006_r6 : BitVec 32 := 0#32
  ![v510.toNat, 0]
def k0_off6 (i : grid0.Coords) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c512_i32_492 : BitVec 32 := 512#32
  let v1015 : BitVec 32 := Scalar.muli v2 c512_i32_492
  let c256_i32 : BitVec 32 := 256#32
  let v1016 : BitVec 32 := Scalar.addi v1015 c256_i32
  let c0_i32_1006_r7 : BitVec 32 := 0#32
  ![v1016.toNat, 0]

def k0_chk369 (v1018 : IVec S16 32) (v1019 : IVec S16 32) : Prop :=
  (∀ a x, ((![v1018, v1019] : Fin 2 → IVec S16 32) a x).toNat < S128x200.size a)
instance k0_chk369.dec : ∀ (v1018 : IVec S16 32) (v1019 : IVec S16 32), Decidable (k0_chk369 v1018 v1019) := fun v1018 v1019 => decidable_of_iff' _ (Iff.of_eq (k0_chk369.eq_1 v1018 v1019))
theorem k0_idx369_inb : ∀ (v1018 : IVec S16 32) (v1019 : IVec S16 32) (k0_hw369 : k0_chk369 v1018 v1019), ∀ a x, ((![v1018, v1019] : Fin 2 → IVec S16 32) a x).toNat < S128x200.size a := fun v1018 v1019 k0_hw369 => k0_hw369

def k0_chk370 (v1018 : IVec S16 32) (v1021 : IVec S16 32) : Prop :=
  (∀ a x, ((![v1018, v1021] : Fin 2 → IVec S16 32) a x).toNat < S128x200.size a)
instance k0_chk370.dec : ∀ (v1018 : IVec S16 32) (v1021 : IVec S16 32), Decidable (k0_chk370 v1018 v1021) := fun v1018 v1021 => decidable_of_iff' _ (Iff.of_eq (k0_chk370.eq_1 v1018 v1021))
theorem k0_idx370_inb : ∀ (v1018 : IVec S16 32) (v1021 : IVec S16 32) (k0_hw370 : k0_chk370 v1018 v1021), ∀ a x, ((![v1018, v1021] : Fin 2 → IVec S16 32) a x).toNat < S128x200.size a := fun v1018 v1021 k0_hw370 => k0_hw370

def k0_chk371 (v1018 : IVec S16 32) (v1023 : IVec S16 32) : Prop :=
  (∀ a x, ((![v1018, v1023] : Fin 2 → IVec S16 32) a x).toNat < S128x200.size a)
instance k0_chk371.dec : ∀ (v1018 : IVec S16 32) (v1023 : IVec S16 32), Decidable (k0_chk371 v1018 v1023) := fun v1018 v1023 => decidable_of_iff' _ (Iff.of_eq (k0_chk371.eq_1 v1018 v1023))
theorem k0_idx371_inb : ∀ (v1018 : IVec S16 32) (v1023 : IVec S16 32) (k0_hw371 : k0_chk371 v1018 v1023), ∀ a x, ((![v1018, v1023] : Fin 2 → IVec S16 32) a x).toNat < S128x200.size a := fun v1018 v1023 k0_hw371 => k0_hw371
@[reducible] def k0_t17_loop : Scf.Loop 32 :=
  let c0_i32_499 : BitVec 32 := 0#32
  let c25_i32_500 : BitVec 32 := 25#32
  let v1027 : BitVec 32 := Scalar.addi c0_i32_499 c25_i32_500
  let c1_i32_501 : BitVec 32 := 1#32
  ⟨c0_i32_499, v1027, c1_i32_501⟩

def k0_chk372 (v1018 : IVec S16 32) (arg10 : IVec S16 32) : Prop :=
  (∀ a x, ((![v1018, arg10] : Fin 2 → IVec S16 32) a x).toNat < S128x200.size a)
instance k0_chk372.dec : ∀ (v1018 : IVec S16 32) (arg10 : IVec S16 32), Decidable (k0_chk372 v1018 arg10) := fun v1018 arg10 => decidable_of_iff' _ (Iff.of_eq (k0_chk372.eq_1 v1018 arg10))
theorem k0_idx372_inb : ∀ (v1018 : IVec S16 32) (arg10 : IVec S16 32) (k0_hw372 : k0_chk372 v1018 arg10), ∀ a x, ((![v1018, arg10] : Fin 2 → IVec S16 32) a x).toNat < S128x200.size a := fun v1018 arg10 k0_hw372 => k0_hw372

def k0_chk373 (v2027 : IVec S16 32) : Prop :=
  (∀ a x, ((![v2027] : Fin 1 → IVec S16 32) a x).toNat < S32.size a)
instance k0_chk373.dec : ∀ (v2027 : IVec S16 32), Decidable (k0_chk373 v2027) := fun v2027 => decidable_of_iff' _ (Iff.of_eq (k0_chk373.eq_1 v2027))
theorem k0_idx373_inb : ∀ (v2027 : IVec S16 32) (k0_hw373 : k0_chk373 v2027), ∀ a x, ((![v2027] : Fin 1 → IVec S16 32) a x).toNat < S32.size a := fun v2027 k0_hw373 => k0_hw373

def k0_chk374 (v1018 : IVec S16 32) (v2039 : IVec S16 32) : Prop :=
  (∀ a x, ((![v1018, v2039] : Fin 2 → IVec S16 32) a x).toNat < S128x200.size a)
instance k0_chk374.dec : ∀ (v1018 : IVec S16 32) (v2039 : IVec S16 32), Decidable (k0_chk374 v1018 v2039) := fun v1018 v2039 => decidable_of_iff' _ (Iff.of_eq (k0_chk374.eq_1 v1018 v2039))
theorem k0_idx374_inb : ∀ (v1018 : IVec S16 32) (v2039 : IVec S16 32) (k0_hw374 : k0_chk374 v1018 v2039), ∀ a x, ((![v1018, v2039] : Fin 2 → IVec S16 32) a x).toNat < S128x200.size a := fun v1018 v2039 k0_hw374 => k0_hw374

def k0_chk375 (v2040 : IVec S16 32) : Prop :=
  (∀ a x, ((![v2040] : Fin 1 → IVec S16 32) a x).toNat < S32.size a)
instance k0_chk375.dec : ∀ (v2040 : IVec S16 32), Decidable (k0_chk375 v2040) := fun v2040 => decidable_of_iff' _ (Iff.of_eq (k0_chk375.eq_1 v2040))
theorem k0_idx375_inb : ∀ (v2040 : IVec S16 32) (k0_hw375 : k0_chk375 v2040), ∀ a x, ((![v2040] : Fin 1 → IVec S16 32) a x).toNat < S32.size a := fun v2040 k0_hw375 => k0_hw375

def k0_chk376 (v1018 : IVec S16 32) (v2052 : IVec S16 32) : Prop :=
  (∀ a x, ((![v1018, v2052] : Fin 2 → IVec S16 32) a x).toNat < S128x200.size a)
instance k0_chk376.dec : ∀ (v1018 : IVec S16 32) (v2052 : IVec S16 32), Decidable (k0_chk376 v1018 v2052) := fun v1018 v2052 => decidable_of_iff' _ (Iff.of_eq (k0_chk376.eq_1 v1018 v2052))
theorem k0_idx376_inb : ∀ (v1018 : IVec S16 32) (v2052 : IVec S16 32) (k0_hw376 : k0_chk376 v1018 v2052), ∀ a x, ((![v1018, v2052] : Fin 2 → IVec S16 32) a x).toNat < S128x200.size a := fun v1018 v2052 k0_hw376 => k0_hw376

def k0_chk377 (v2053 : IVec S16 32) : Prop :=
  (∀ a x, ((![v2053] : Fin 1 → IVec S16 32) a x).toNat < S32.size a)
instance k0_chk377.dec : ∀ (v2053 : IVec S16 32), Decidable (k0_chk377 v2053) := fun v2053 => decidable_of_iff' _ (Iff.of_eq (k0_chk377.eq_1 v2053))
theorem k0_idx377_inb : ∀ (v2053 : IVec S16 32) (k0_hw377 : k0_chk377 v2053), ∀ a x, ((![v2053] : Fin 1 → IVec S16 32) a x).toNat < S32.size a := fun v2053 k0_hw377 => k0_hw377

def k0_chk378 (v1018 : IVec S16 32) (v2065 : IVec S16 32) : Prop :=
  (∀ a x, ((![v1018, v2065] : Fin 2 → IVec S16 32) a x).toNat < S128x200.size a)
instance k0_chk378.dec : ∀ (v1018 : IVec S16 32) (v2065 : IVec S16 32), Decidable (k0_chk378 v1018 v2065) := fun v1018 v2065 => decidable_of_iff' _ (Iff.of_eq (k0_chk378.eq_1 v1018 v2065))
theorem k0_idx378_inb : ∀ (v1018 : IVec S16 32) (v2065 : IVec S16 32) (k0_hw378 : k0_chk378 v1018 v2065), ∀ a x, ((![v1018, v2065] : Fin 2 → IVec S16 32) a x).toNat < S128x200.size a := fun v1018 v2065 k0_hw378 => k0_hw378

def k0_chk379 (v2066 : IVec S16 32) : Prop :=
  (∀ a x, ((![v2066] : Fin 1 → IVec S16 32) a x).toNat < S32.size a)
instance k0_chk379.dec : ∀ (v2066 : IVec S16 32), Decidable (k0_chk379 v2066) := fun v2066 => decidable_of_iff' _ (Iff.of_eq (k0_chk379.eq_1 v2066))
theorem k0_idx379_inb : ∀ (v2066 : IVec S16 32) (k0_hw379 : k0_chk379 v2066), ∀ a x, ((![v2066] : Fin 1 → IVec S16 32) a x).toNat < S32.size a := fun v2066 k0_hw379 => k0_hw379

def k0_chk380 (v1018 : IVec S16 32) (v2078 : IVec S16 32) : Prop :=
  (∀ a x, ((![v1018, v2078] : Fin 2 → IVec S16 32) a x).toNat < S128x200.size a)
instance k0_chk380.dec : ∀ (v1018 : IVec S16 32) (v2078 : IVec S16 32), Decidable (k0_chk380 v1018 v2078) := fun v1018 v2078 => decidable_of_iff' _ (Iff.of_eq (k0_chk380.eq_1 v1018 v2078))
theorem k0_idx380_inb : ∀ (v1018 : IVec S16 32) (v2078 : IVec S16 32) (k0_hw380 : k0_chk380 v1018 v2078), ∀ a x, ((![v1018, v2078] : Fin 2 → IVec S16 32) a x).toNat < S128x200.size a := fun v1018 v2078 k0_hw380 => k0_hw380

def k0_chk381 (v2079 : IVec S16 32) : Prop :=
  (∀ a x, ((![v2079] : Fin 1 → IVec S16 32) a x).toNat < S32.size a)
instance k0_chk381.dec : ∀ (v2079 : IVec S16 32), Decidable (k0_chk381 v2079) := fun v2079 => decidable_of_iff' _ (Iff.of_eq (k0_chk381.eq_1 v2079))
theorem k0_idx381_inb : ∀ (v2079 : IVec S16 32) (k0_hw381 : k0_chk381 v2079), ∀ a x, ((![v2079] : Fin 1 → IVec S16 32) a x).toNat < S32.size a := fun v2079 k0_hw381 => k0_hw381

def k0_chk382 (v1018 : IVec S16 32) (v2091 : IVec S16 32) : Prop :=
  (∀ a x, ((![v1018, v2091] : Fin 2 → IVec S16 32) a x).toNat < S128x200.size a)
instance k0_chk382.dec : ∀ (v1018 : IVec S16 32) (v2091 : IVec S16 32), Decidable (k0_chk382 v1018 v2091) := fun v1018 v2091 => decidable_of_iff' _ (Iff.of_eq (k0_chk382.eq_1 v1018 v2091))
theorem k0_idx382_inb : ∀ (v1018 : IVec S16 32) (v2091 : IVec S16 32) (k0_hw382 : k0_chk382 v1018 v2091), ∀ a x, ((![v1018, v2091] : Fin 2 → IVec S16 32) a x).toNat < S128x200.size a := fun v1018 v2091 k0_hw382 => k0_hw382

def k0_chk383 (v2092 : IVec S16 32) : Prop :=
  (∀ a x, ((![v2092] : Fin 1 → IVec S16 32) a x).toNat < S32.size a)
instance k0_chk383.dec : ∀ (v2092 : IVec S16 32), Decidable (k0_chk383 v2092) := fun v2092 => decidable_of_iff' _ (Iff.of_eq (k0_chk383.eq_1 v2092))
theorem k0_idx383_inb : ∀ (v2092 : IVec S16 32) (k0_hw383 : k0_chk383 v2092), ∀ a x, ((![v2092] : Fin 1 → IVec S16 32) a x).toNat < S32.size a := fun v2092 k0_hw383 => k0_hw383

def k0_chk384 (v1018 : IVec S16 32) (v2104 : IVec S16 32) : Prop :=
  (∀ a x, ((![v1018, v2104] : Fin 2 → IVec S16 32) a x).toNat < S128x200.size a)
instance k0_chk384.dec : ∀ (v1018 : IVec S16 32) (v2104 : IVec S16 32), Decidable (k0_chk384 v1018 v2104) := fun v1018 v2104 => decidable_of_iff' _ (Iff.of_eq (k0_chk384.eq_1 v1018 v2104))
theorem k0_idx384_inb : ∀ (v1018 : IVec S16 32) (v2104 : IVec S16 32) (k0_hw384 : k0_chk384 v1018 v2104), ∀ a x, ((![v1018, v2104] : Fin 2 → IVec S16 32) a x).toNat < S128x200.size a := fun v1018 v2104 k0_hw384 => k0_hw384

def k0_chk385 (v2105 : IVec S16 32) : Prop :=
  (∀ a x, ((![v2105] : Fin 1 → IVec S16 32) a x).toNat < S32.size a)
instance k0_chk385.dec : ∀ (v2105 : IVec S16 32), Decidable (k0_chk385 v2105) := fun v2105 => decidable_of_iff' _ (Iff.of_eq (k0_chk385.eq_1 v2105))
theorem k0_idx385_inb : ∀ (v2105 : IVec S16 32) (k0_hw385 : k0_chk385 v2105), ∀ a x, ((![v2105] : Fin 1 → IVec S16 32) a x).toNat < S32.size a := fun v2105 k0_hw385 => k0_hw385

def k0_chk386 (v1018 : IVec S16 32) (v2117 : IVec S16 32) : Prop :=
  (∀ a x, ((![v1018, v2117] : Fin 2 → IVec S16 32) a x).toNat < S128x200.size a)
instance k0_chk386.dec : ∀ (v1018 : IVec S16 32) (v2117 : IVec S16 32), Decidable (k0_chk386 v1018 v2117) := fun v1018 v2117 => decidable_of_iff' _ (Iff.of_eq (k0_chk386.eq_1 v1018 v2117))
theorem k0_idx386_inb : ∀ (v1018 : IVec S16 32) (v2117 : IVec S16 32) (k0_hw386 : k0_chk386 v1018 v2117), ∀ a x, ((![v1018, v2117] : Fin 2 → IVec S16 32) a x).toNat < S128x200.size a := fun v1018 v2117 k0_hw386 => k0_hw386

def k0_chk387 (v2118 : IVec S16 32) : Prop :=
  (∀ a x, ((![v2118] : Fin 1 → IVec S16 32) a x).toNat < S32.size a)
instance k0_chk387.dec : ∀ (v2118 : IVec S16 32), Decidable (k0_chk387 v2118) := fun v2118 => decidable_of_iff' _ (Iff.of_eq (k0_chk387.eq_1 v2118))
theorem k0_idx387_inb : ∀ (v2118 : IVec S16 32) (k0_hw387 : k0_chk387 v2118), ∀ a x, ((![v2118] : Fin 1 → IVec S16 32) a x).toNat < S32.size a := fun v2118 k0_hw387 => k0_hw387

def k0_chk388 (v1018 : IVec S16 32) (v1077 : IVec S16 32) : Prop :=
  (∀ a x, ((![v1018, v1077] : Fin 2 → IVec S16 32) a x).toNat < S128x32.size a)
instance k0_chk388.dec : ∀ (v1018 : IVec S16 32) (v1077 : IVec S16 32), Decidable (k0_chk388 v1018 v1077) := fun v1018 v1077 => decidable_of_iff' _ (Iff.of_eq (k0_chk388.eq_1 v1018 v1077))
theorem k0_idx388_inb : ∀ (v1018 : IVec S16 32) (v1077 : IVec S16 32) (k0_hw388 : k0_chk388 v1018 v1077), ∀ a x, ((![v1018, v1077] : Fin 2 → IVec S16 32) a x).toNat < S128x32.size a := fun v1018 v1077 k0_hw388 => k0_hw388

def k0_chk389 (v1018 : IVec S16 32) (v1020 : IVec S16 32) : Prop :=
  (∀ a x, ((![v1018, v1020] : Fin 2 → IVec S16 32) a x).toNat < S128x32.size a)
instance k0_chk389.dec : ∀ (v1018 : IVec S16 32) (v1020 : IVec S16 32), Decidable (k0_chk389 v1018 v1020) := fun v1018 v1020 => decidable_of_iff' _ (Iff.of_eq (k0_chk389.eq_1 v1018 v1020))
theorem k0_idx389_inb : ∀ (v1018 : IVec S16 32) (v1020 : IVec S16 32) (k0_hw389 : k0_chk389 v1018 v1020), ∀ a x, ((![v1018, v1020] : Fin 2 → IVec S16 32) a x).toNat < S128x32.size a := fun v1018 v1020 k0_hw389 => k0_hw389

def k0_chk390 (v1018 : IVec S16 32) (v1078 : IVec S16 32) : Prop :=
  (∀ a x, ((![v1018, v1078] : Fin 2 → IVec S16 32) a x).toNat < S128x32.size a)
instance k0_chk390.dec : ∀ (v1018 : IVec S16 32) (v1078 : IVec S16 32), Decidable (k0_chk390 v1018 v1078) := fun v1018 v1078 => decidable_of_iff' _ (Iff.of_eq (k0_chk390.eq_1 v1018 v1078))
theorem k0_idx390_inb : ∀ (v1018 : IVec S16 32) (v1078 : IVec S16 32) (k0_hw390 : k0_chk390 v1018 v1078), ∀ a x, ((![v1018, v1078] : Fin 2 → IVec S16 32) a x).toNat < S128x32.size a := fun v1018 v1078 k0_hw390 => k0_hw390

def k0_chk391 (v1018 : IVec S16 32) (v1079 : IVec S16 32) : Prop :=
  (∀ a x, ((![v1018, v1079] : Fin 2 → IVec S16 32) a x).toNat < S128x32.size a)
instance k0_chk391.dec : ∀ (v1018 : IVec S16 32) (v1079 : IVec S16 32), Decidable (k0_chk391 v1018 v1079) := fun v1018 v1079 => decidable_of_iff' _ (Iff.of_eq (k0_chk391.eq_1 v1018 v1079))
theorem k0_idx391_inb : ∀ (v1018 : IVec S16 32) (v1079 : IVec S16 32) (k0_hw391 : k0_chk391 v1018 v1079), ∀ a x, ((![v1018, v1079] : Fin 2 → IVec S16 32) a x).toNat < S128x32.size a := fun v1018 v1079 k0_hw391 => k0_hw391

def k0_chk392 (v1081 : IVec S16 32) (v1082 : IVec S16 32) : Prop :=
  (∀ a x, ((![v1081, v1082] : Fin 2 → IVec S16 32) a x).toNat < S128x200.size a)
instance k0_chk392.dec : ∀ (v1081 : IVec S16 32) (v1082 : IVec S16 32), Decidable (k0_chk392 v1081 v1082) := fun v1081 v1082 => decidable_of_iff' _ (Iff.of_eq (k0_chk392.eq_1 v1081 v1082))
theorem k0_idx392_inb : ∀ (v1081 : IVec S16 32) (v1082 : IVec S16 32) (k0_hw392 : k0_chk392 v1081 v1082), ∀ a x, ((![v1081, v1082] : Fin 2 → IVec S16 32) a x).toNat < S128x200.size a := fun v1081 v1082 k0_hw392 => k0_hw392

def k0_chk393 (v1081 : IVec S16 32) (v1084 : IVec S16 32) : Prop :=
  (∀ a x, ((![v1081, v1084] : Fin 2 → IVec S16 32) a x).toNat < S128x200.size a)
instance k0_chk393.dec : ∀ (v1081 : IVec S16 32) (v1084 : IVec S16 32), Decidable (k0_chk393 v1081 v1084) := fun v1081 v1084 => decidable_of_iff' _ (Iff.of_eq (k0_chk393.eq_1 v1081 v1084))
theorem k0_idx393_inb : ∀ (v1081 : IVec S16 32) (v1084 : IVec S16 32) (k0_hw393 : k0_chk393 v1081 v1084), ∀ a x, ((![v1081, v1084] : Fin 2 → IVec S16 32) a x).toNat < S128x200.size a := fun v1081 v1084 k0_hw393 => k0_hw393

def k0_chk394 (v1081 : IVec S16 32) (v1086 : IVec S16 32) : Prop :=
  (∀ a x, ((![v1081, v1086] : Fin 2 → IVec S16 32) a x).toNat < S128x200.size a)
instance k0_chk394.dec : ∀ (v1081 : IVec S16 32) (v1086 : IVec S16 32), Decidable (k0_chk394 v1081 v1086) := fun v1081 v1086 => decidable_of_iff' _ (Iff.of_eq (k0_chk394.eq_1 v1081 v1086))
theorem k0_idx394_inb : ∀ (v1081 : IVec S16 32) (v1086 : IVec S16 32) (k0_hw394 : k0_chk394 v1081 v1086), ∀ a x, ((![v1081, v1086] : Fin 2 → IVec S16 32) a x).toNat < S128x200.size a := fun v1081 v1086 k0_hw394 => k0_hw394
@[reducible] def k0_t18_loop : Scf.Loop 32 :=
  let c0_i32_531 : BitVec 32 := 0#32
  let c25_i32_532 : BitVec 32 := 25#32
  let v1090 : BitVec 32 := Scalar.addi c0_i32_531 c25_i32_532
  let c1_i32_533 : BitVec 32 := 1#32
  ⟨c0_i32_531, v1090, c1_i32_533⟩

def k0_chk395 (v1081 : IVec S16 32) (arg10 : IVec S16 32) : Prop :=
  (∀ a x, ((![v1081, arg10] : Fin 2 → IVec S16 32) a x).toNat < S128x200.size a)
instance k0_chk395.dec : ∀ (v1081 : IVec S16 32) (arg10 : IVec S16 32), Decidable (k0_chk395 v1081 arg10) := fun v1081 arg10 => decidable_of_iff' _ (Iff.of_eq (k0_chk395.eq_1 v1081 arg10))
theorem k0_idx395_inb : ∀ (v1081 : IVec S16 32) (arg10 : IVec S16 32) (k0_hw395 : k0_chk395 v1081 arg10), ∀ a x, ((![v1081, arg10] : Fin 2 → IVec S16 32) a x).toNat < S128x200.size a := fun v1081 arg10 k0_hw395 => k0_hw395

def k0_chk396 (v2027 : IVec S16 32) : Prop :=
  (∀ a x, ((![v2027] : Fin 1 → IVec S16 32) a x).toNat < S32.size a)
instance k0_chk396.dec : ∀ (v2027 : IVec S16 32), Decidable (k0_chk396 v2027) := fun v2027 => decidable_of_iff' _ (Iff.of_eq (k0_chk396.eq_1 v2027))
theorem k0_idx396_inb : ∀ (v2027 : IVec S16 32) (k0_hw396 : k0_chk396 v2027), ∀ a x, ((![v2027] : Fin 1 → IVec S16 32) a x).toNat < S32.size a := fun v2027 k0_hw396 => k0_hw396

def k0_chk397 (v1081 : IVec S16 32) (v2039 : IVec S16 32) : Prop :=
  (∀ a x, ((![v1081, v2039] : Fin 2 → IVec S16 32) a x).toNat < S128x200.size a)
instance k0_chk397.dec : ∀ (v1081 : IVec S16 32) (v2039 : IVec S16 32), Decidable (k0_chk397 v1081 v2039) := fun v1081 v2039 => decidable_of_iff' _ (Iff.of_eq (k0_chk397.eq_1 v1081 v2039))
theorem k0_idx397_inb : ∀ (v1081 : IVec S16 32) (v2039 : IVec S16 32) (k0_hw397 : k0_chk397 v1081 v2039), ∀ a x, ((![v1081, v2039] : Fin 2 → IVec S16 32) a x).toNat < S128x200.size a := fun v1081 v2039 k0_hw397 => k0_hw397

def k0_chk398 (v2040 : IVec S16 32) : Prop :=
  (∀ a x, ((![v2040] : Fin 1 → IVec S16 32) a x).toNat < S32.size a)
instance k0_chk398.dec : ∀ (v2040 : IVec S16 32), Decidable (k0_chk398 v2040) := fun v2040 => decidable_of_iff' _ (Iff.of_eq (k0_chk398.eq_1 v2040))
theorem k0_idx398_inb : ∀ (v2040 : IVec S16 32) (k0_hw398 : k0_chk398 v2040), ∀ a x, ((![v2040] : Fin 1 → IVec S16 32) a x).toNat < S32.size a := fun v2040 k0_hw398 => k0_hw398

def k0_chk399 (v1081 : IVec S16 32) (v2052 : IVec S16 32) : Prop :=
  (∀ a x, ((![v1081, v2052] : Fin 2 → IVec S16 32) a x).toNat < S128x200.size a)
instance k0_chk399.dec : ∀ (v1081 : IVec S16 32) (v2052 : IVec S16 32), Decidable (k0_chk399 v1081 v2052) := fun v1081 v2052 => decidable_of_iff' _ (Iff.of_eq (k0_chk399.eq_1 v1081 v2052))
theorem k0_idx399_inb : ∀ (v1081 : IVec S16 32) (v2052 : IVec S16 32) (k0_hw399 : k0_chk399 v1081 v2052), ∀ a x, ((![v1081, v2052] : Fin 2 → IVec S16 32) a x).toNat < S128x200.size a := fun v1081 v2052 k0_hw399 => k0_hw399

def k0_chk400 (v2053 : IVec S16 32) : Prop :=
  (∀ a x, ((![v2053] : Fin 1 → IVec S16 32) a x).toNat < S32.size a)
instance k0_chk400.dec : ∀ (v2053 : IVec S16 32), Decidable (k0_chk400 v2053) := fun v2053 => decidable_of_iff' _ (Iff.of_eq (k0_chk400.eq_1 v2053))
theorem k0_idx400_inb : ∀ (v2053 : IVec S16 32) (k0_hw400 : k0_chk400 v2053), ∀ a x, ((![v2053] : Fin 1 → IVec S16 32) a x).toNat < S32.size a := fun v2053 k0_hw400 => k0_hw400

def k0_chk401 (v1081 : IVec S16 32) (v2065 : IVec S16 32) : Prop :=
  (∀ a x, ((![v1081, v2065] : Fin 2 → IVec S16 32) a x).toNat < S128x200.size a)
instance k0_chk401.dec : ∀ (v1081 : IVec S16 32) (v2065 : IVec S16 32), Decidable (k0_chk401 v1081 v2065) := fun v1081 v2065 => decidable_of_iff' _ (Iff.of_eq (k0_chk401.eq_1 v1081 v2065))
theorem k0_idx401_inb : ∀ (v1081 : IVec S16 32) (v2065 : IVec S16 32) (k0_hw401 : k0_chk401 v1081 v2065), ∀ a x, ((![v1081, v2065] : Fin 2 → IVec S16 32) a x).toNat < S128x200.size a := fun v1081 v2065 k0_hw401 => k0_hw401

def k0_chk402 (v2066 : IVec S16 32) : Prop :=
  (∀ a x, ((![v2066] : Fin 1 → IVec S16 32) a x).toNat < S32.size a)
instance k0_chk402.dec : ∀ (v2066 : IVec S16 32), Decidable (k0_chk402 v2066) := fun v2066 => decidable_of_iff' _ (Iff.of_eq (k0_chk402.eq_1 v2066))
theorem k0_idx402_inb : ∀ (v2066 : IVec S16 32) (k0_hw402 : k0_chk402 v2066), ∀ a x, ((![v2066] : Fin 1 → IVec S16 32) a x).toNat < S32.size a := fun v2066 k0_hw402 => k0_hw402

def k0_chk403 (v1081 : IVec S16 32) (v2078 : IVec S16 32) : Prop :=
  (∀ a x, ((![v1081, v2078] : Fin 2 → IVec S16 32) a x).toNat < S128x200.size a)
instance k0_chk403.dec : ∀ (v1081 : IVec S16 32) (v2078 : IVec S16 32), Decidable (k0_chk403 v1081 v2078) := fun v1081 v2078 => decidable_of_iff' _ (Iff.of_eq (k0_chk403.eq_1 v1081 v2078))
theorem k0_idx403_inb : ∀ (v1081 : IVec S16 32) (v2078 : IVec S16 32) (k0_hw403 : k0_chk403 v1081 v2078), ∀ a x, ((![v1081, v2078] : Fin 2 → IVec S16 32) a x).toNat < S128x200.size a := fun v1081 v2078 k0_hw403 => k0_hw403

def k0_chk404 (v2079 : IVec S16 32) : Prop :=
  (∀ a x, ((![v2079] : Fin 1 → IVec S16 32) a x).toNat < S32.size a)
instance k0_chk404.dec : ∀ (v2079 : IVec S16 32), Decidable (k0_chk404 v2079) := fun v2079 => decidable_of_iff' _ (Iff.of_eq (k0_chk404.eq_1 v2079))
theorem k0_idx404_inb : ∀ (v2079 : IVec S16 32) (k0_hw404 : k0_chk404 v2079), ∀ a x, ((![v2079] : Fin 1 → IVec S16 32) a x).toNat < S32.size a := fun v2079 k0_hw404 => k0_hw404

def k0_chk405 (v1081 : IVec S16 32) (v2091 : IVec S16 32) : Prop :=
  (∀ a x, ((![v1081, v2091] : Fin 2 → IVec S16 32) a x).toNat < S128x200.size a)
instance k0_chk405.dec : ∀ (v1081 : IVec S16 32) (v2091 : IVec S16 32), Decidable (k0_chk405 v1081 v2091) := fun v1081 v2091 => decidable_of_iff' _ (Iff.of_eq (k0_chk405.eq_1 v1081 v2091))
theorem k0_idx405_inb : ∀ (v1081 : IVec S16 32) (v2091 : IVec S16 32) (k0_hw405 : k0_chk405 v1081 v2091), ∀ a x, ((![v1081, v2091] : Fin 2 → IVec S16 32) a x).toNat < S128x200.size a := fun v1081 v2091 k0_hw405 => k0_hw405

def k0_chk406 (v2092 : IVec S16 32) : Prop :=
  (∀ a x, ((![v2092] : Fin 1 → IVec S16 32) a x).toNat < S32.size a)
instance k0_chk406.dec : ∀ (v2092 : IVec S16 32), Decidable (k0_chk406 v2092) := fun v2092 => decidable_of_iff' _ (Iff.of_eq (k0_chk406.eq_1 v2092))
theorem k0_idx406_inb : ∀ (v2092 : IVec S16 32) (k0_hw406 : k0_chk406 v2092), ∀ a x, ((![v2092] : Fin 1 → IVec S16 32) a x).toNat < S32.size a := fun v2092 k0_hw406 => k0_hw406

def k0_chk407 (v1081 : IVec S16 32) (v2104 : IVec S16 32) : Prop :=
  (∀ a x, ((![v1081, v2104] : Fin 2 → IVec S16 32) a x).toNat < S128x200.size a)
instance k0_chk407.dec : ∀ (v1081 : IVec S16 32) (v2104 : IVec S16 32), Decidable (k0_chk407 v1081 v2104) := fun v1081 v2104 => decidable_of_iff' _ (Iff.of_eq (k0_chk407.eq_1 v1081 v2104))
theorem k0_idx407_inb : ∀ (v1081 : IVec S16 32) (v2104 : IVec S16 32) (k0_hw407 : k0_chk407 v1081 v2104), ∀ a x, ((![v1081, v2104] : Fin 2 → IVec S16 32) a x).toNat < S128x200.size a := fun v1081 v2104 k0_hw407 => k0_hw407

def k0_chk408 (v2105 : IVec S16 32) : Prop :=
  (∀ a x, ((![v2105] : Fin 1 → IVec S16 32) a x).toNat < S32.size a)
instance k0_chk408.dec : ∀ (v2105 : IVec S16 32), Decidable (k0_chk408 v2105) := fun v2105 => decidable_of_iff' _ (Iff.of_eq (k0_chk408.eq_1 v2105))
theorem k0_idx408_inb : ∀ (v2105 : IVec S16 32) (k0_hw408 : k0_chk408 v2105), ∀ a x, ((![v2105] : Fin 1 → IVec S16 32) a x).toNat < S32.size a := fun v2105 k0_hw408 => k0_hw408

def k0_chk409 (v1081 : IVec S16 32) (v2117 : IVec S16 32) : Prop :=
  (∀ a x, ((![v1081, v2117] : Fin 2 → IVec S16 32) a x).toNat < S128x200.size a)
instance k0_chk409.dec : ∀ (v1081 : IVec S16 32) (v2117 : IVec S16 32), Decidable (k0_chk409 v1081 v2117) := fun v1081 v2117 => decidable_of_iff' _ (Iff.of_eq (k0_chk409.eq_1 v1081 v2117))
theorem k0_idx409_inb : ∀ (v1081 : IVec S16 32) (v2117 : IVec S16 32) (k0_hw409 : k0_chk409 v1081 v2117), ∀ a x, ((![v1081, v2117] : Fin 2 → IVec S16 32) a x).toNat < S128x200.size a := fun v1081 v2117 k0_hw409 => k0_hw409

def k0_chk410 (v2118 : IVec S16 32) : Prop :=
  (∀ a x, ((![v2118] : Fin 1 → IVec S16 32) a x).toNat < S32.size a)
instance k0_chk410.dec : ∀ (v2118 : IVec S16 32), Decidable (k0_chk410 v2118) := fun v2118 => decidable_of_iff' _ (Iff.of_eq (k0_chk410.eq_1 v2118))
theorem k0_idx410_inb : ∀ (v2118 : IVec S16 32) (k0_hw410 : k0_chk410 v2118), ∀ a x, ((![v2118] : Fin 1 → IVec S16 32) a x).toNat < S32.size a := fun v2118 k0_hw410 => k0_hw410

def k0_chk411 (v1081 : IVec S16 32) (v1140 : IVec S16 32) : Prop :=
  (∀ a x, ((![v1081, v1140] : Fin 2 → IVec S16 32) a x).toNat < S128x32.size a)
instance k0_chk411.dec : ∀ (v1081 : IVec S16 32) (v1140 : IVec S16 32), Decidable (k0_chk411 v1081 v1140) := fun v1081 v1140 => decidable_of_iff' _ (Iff.of_eq (k0_chk411.eq_1 v1081 v1140))
theorem k0_idx411_inb : ∀ (v1081 : IVec S16 32) (v1140 : IVec S16 32) (k0_hw411 : k0_chk411 v1081 v1140), ∀ a x, ((![v1081, v1140] : Fin 2 → IVec S16 32) a x).toNat < S128x32.size a := fun v1081 v1140 k0_hw411 => k0_hw411

def k0_chk412 (v1081 : IVec S16 32) (v1083 : IVec S16 32) : Prop :=
  (∀ a x, ((![v1081, v1083] : Fin 2 → IVec S16 32) a x).toNat < S128x32.size a)
instance k0_chk412.dec : ∀ (v1081 : IVec S16 32) (v1083 : IVec S16 32), Decidable (k0_chk412 v1081 v1083) := fun v1081 v1083 => decidable_of_iff' _ (Iff.of_eq (k0_chk412.eq_1 v1081 v1083))
theorem k0_idx412_inb : ∀ (v1081 : IVec S16 32) (v1083 : IVec S16 32) (k0_hw412 : k0_chk412 v1081 v1083), ∀ a x, ((![v1081, v1083] : Fin 2 → IVec S16 32) a x).toNat < S128x32.size a := fun v1081 v1083 k0_hw412 => k0_hw412

def k0_chk413 (v1081 : IVec S16 32) (v1141 : IVec S16 32) : Prop :=
  (∀ a x, ((![v1081, v1141] : Fin 2 → IVec S16 32) a x).toNat < S128x32.size a)
instance k0_chk413.dec : ∀ (v1081 : IVec S16 32) (v1141 : IVec S16 32), Decidable (k0_chk413 v1081 v1141) := fun v1081 v1141 => decidable_of_iff' _ (Iff.of_eq (k0_chk413.eq_1 v1081 v1141))
theorem k0_idx413_inb : ∀ (v1081 : IVec S16 32) (v1141 : IVec S16 32) (k0_hw413 : k0_chk413 v1081 v1141), ∀ a x, ((![v1081, v1141] : Fin 2 → IVec S16 32) a x).toNat < S128x32.size a := fun v1081 v1141 k0_hw413 => k0_hw413

def k0_chk414 (v1081 : IVec S16 32) (v1142 : IVec S16 32) : Prop :=
  (∀ a x, ((![v1081, v1142] : Fin 2 → IVec S16 32) a x).toNat < S128x32.size a)
instance k0_chk414.dec : ∀ (v1081 : IVec S16 32) (v1142 : IVec S16 32), Decidable (k0_chk414 v1081 v1142) := fun v1081 v1142 => decidable_of_iff' _ (Iff.of_eq (k0_chk414.eq_1 v1081 v1142))
theorem k0_idx414_inb : ∀ (v1081 : IVec S16 32) (v1142 : IVec S16 32) (k0_hw414 : k0_chk414 v1081 v1142), ∀ a x, ((![v1081, v1142] : Fin 2 → IVec S16 32) a x).toNat < S128x32.size a := fun v1081 v1142 k0_hw414 => k0_hw414

def k0_chk415 (v1144 : IVec S16 32) (v1145 : IVec S16 32) : Prop :=
  (∀ a x, ((![v1144, v1145] : Fin 2 → IVec S16 32) a x).toNat < S128x200.size a)
instance k0_chk415.dec : ∀ (v1144 : IVec S16 32) (v1145 : IVec S16 32), Decidable (k0_chk415 v1144 v1145) := fun v1144 v1145 => decidable_of_iff' _ (Iff.of_eq (k0_chk415.eq_1 v1144 v1145))
theorem k0_idx415_inb : ∀ (v1144 : IVec S16 32) (v1145 : IVec S16 32) (k0_hw415 : k0_chk415 v1144 v1145), ∀ a x, ((![v1144, v1145] : Fin 2 → IVec S16 32) a x).toNat < S128x200.size a := fun v1144 v1145 k0_hw415 => k0_hw415

def k0_chk416 (v1144 : IVec S16 32) (v1147 : IVec S16 32) : Prop :=
  (∀ a x, ((![v1144, v1147] : Fin 2 → IVec S16 32) a x).toNat < S128x200.size a)
instance k0_chk416.dec : ∀ (v1144 : IVec S16 32) (v1147 : IVec S16 32), Decidable (k0_chk416 v1144 v1147) := fun v1144 v1147 => decidable_of_iff' _ (Iff.of_eq (k0_chk416.eq_1 v1144 v1147))
theorem k0_idx416_inb : ∀ (v1144 : IVec S16 32) (v1147 : IVec S16 32) (k0_hw416 : k0_chk416 v1144 v1147), ∀ a x, ((![v1144, v1147] : Fin 2 → IVec S16 32) a x).toNat < S128x200.size a := fun v1144 v1147 k0_hw416 => k0_hw416

def k0_chk417 (v1144 : IVec S16 32) (v1149 : IVec S16 32) : Prop :=
  (∀ a x, ((![v1144, v1149] : Fin 2 → IVec S16 32) a x).toNat < S128x200.size a)
instance k0_chk417.dec : ∀ (v1144 : IVec S16 32) (v1149 : IVec S16 32), Decidable (k0_chk417 v1144 v1149) := fun v1144 v1149 => decidable_of_iff' _ (Iff.of_eq (k0_chk417.eq_1 v1144 v1149))
theorem k0_idx417_inb : ∀ (v1144 : IVec S16 32) (v1149 : IVec S16 32) (k0_hw417 : k0_chk417 v1144 v1149), ∀ a x, ((![v1144, v1149] : Fin 2 → IVec S16 32) a x).toNat < S128x200.size a := fun v1144 v1149 k0_hw417 => k0_hw417
@[reducible] def k0_t19_loop : Scf.Loop 32 :=
  let c0_i32_563 : BitVec 32 := 0#32
  let c25_i32_564 : BitVec 32 := 25#32
  let v1153 : BitVec 32 := Scalar.addi c0_i32_563 c25_i32_564
  let c1_i32_565 : BitVec 32 := 1#32
  ⟨c0_i32_563, v1153, c1_i32_565⟩

def k0_chk418 (v1144 : IVec S16 32) (arg10 : IVec S16 32) : Prop :=
  (∀ a x, ((![v1144, arg10] : Fin 2 → IVec S16 32) a x).toNat < S128x200.size a)
instance k0_chk418.dec : ∀ (v1144 : IVec S16 32) (arg10 : IVec S16 32), Decidable (k0_chk418 v1144 arg10) := fun v1144 arg10 => decidable_of_iff' _ (Iff.of_eq (k0_chk418.eq_1 v1144 arg10))
theorem k0_idx418_inb : ∀ (v1144 : IVec S16 32) (arg10 : IVec S16 32) (k0_hw418 : k0_chk418 v1144 arg10), ∀ a x, ((![v1144, arg10] : Fin 2 → IVec S16 32) a x).toNat < S128x200.size a := fun v1144 arg10 k0_hw418 => k0_hw418

def k0_chk419 (v2027 : IVec S16 32) : Prop :=
  (∀ a x, ((![v2027] : Fin 1 → IVec S16 32) a x).toNat < S32.size a)
instance k0_chk419.dec : ∀ (v2027 : IVec S16 32), Decidable (k0_chk419 v2027) := fun v2027 => decidable_of_iff' _ (Iff.of_eq (k0_chk419.eq_1 v2027))
theorem k0_idx419_inb : ∀ (v2027 : IVec S16 32) (k0_hw419 : k0_chk419 v2027), ∀ a x, ((![v2027] : Fin 1 → IVec S16 32) a x).toNat < S32.size a := fun v2027 k0_hw419 => k0_hw419

def k0_chk420 (v1144 : IVec S16 32) (v2039 : IVec S16 32) : Prop :=
  (∀ a x, ((![v1144, v2039] : Fin 2 → IVec S16 32) a x).toNat < S128x200.size a)
instance k0_chk420.dec : ∀ (v1144 : IVec S16 32) (v2039 : IVec S16 32), Decidable (k0_chk420 v1144 v2039) := fun v1144 v2039 => decidable_of_iff' _ (Iff.of_eq (k0_chk420.eq_1 v1144 v2039))
theorem k0_idx420_inb : ∀ (v1144 : IVec S16 32) (v2039 : IVec S16 32) (k0_hw420 : k0_chk420 v1144 v2039), ∀ a x, ((![v1144, v2039] : Fin 2 → IVec S16 32) a x).toNat < S128x200.size a := fun v1144 v2039 k0_hw420 => k0_hw420

def k0_chk421 (v2040 : IVec S16 32) : Prop :=
  (∀ a x, ((![v2040] : Fin 1 → IVec S16 32) a x).toNat < S32.size a)
instance k0_chk421.dec : ∀ (v2040 : IVec S16 32), Decidable (k0_chk421 v2040) := fun v2040 => decidable_of_iff' _ (Iff.of_eq (k0_chk421.eq_1 v2040))
theorem k0_idx421_inb : ∀ (v2040 : IVec S16 32) (k0_hw421 : k0_chk421 v2040), ∀ a x, ((![v2040] : Fin 1 → IVec S16 32) a x).toNat < S32.size a := fun v2040 k0_hw421 => k0_hw421

def k0_chk422 (v1144 : IVec S16 32) (v2052 : IVec S16 32) : Prop :=
  (∀ a x, ((![v1144, v2052] : Fin 2 → IVec S16 32) a x).toNat < S128x200.size a)
instance k0_chk422.dec : ∀ (v1144 : IVec S16 32) (v2052 : IVec S16 32), Decidable (k0_chk422 v1144 v2052) := fun v1144 v2052 => decidable_of_iff' _ (Iff.of_eq (k0_chk422.eq_1 v1144 v2052))
theorem k0_idx422_inb : ∀ (v1144 : IVec S16 32) (v2052 : IVec S16 32) (k0_hw422 : k0_chk422 v1144 v2052), ∀ a x, ((![v1144, v2052] : Fin 2 → IVec S16 32) a x).toNat < S128x200.size a := fun v1144 v2052 k0_hw422 => k0_hw422

def k0_chk423 (v2053 : IVec S16 32) : Prop :=
  (∀ a x, ((![v2053] : Fin 1 → IVec S16 32) a x).toNat < S32.size a)
instance k0_chk423.dec : ∀ (v2053 : IVec S16 32), Decidable (k0_chk423 v2053) := fun v2053 => decidable_of_iff' _ (Iff.of_eq (k0_chk423.eq_1 v2053))
theorem k0_idx423_inb : ∀ (v2053 : IVec S16 32) (k0_hw423 : k0_chk423 v2053), ∀ a x, ((![v2053] : Fin 1 → IVec S16 32) a x).toNat < S32.size a := fun v2053 k0_hw423 => k0_hw423

def k0_chk424 (v1144 : IVec S16 32) (v2065 : IVec S16 32) : Prop :=
  (∀ a x, ((![v1144, v2065] : Fin 2 → IVec S16 32) a x).toNat < S128x200.size a)
instance k0_chk424.dec : ∀ (v1144 : IVec S16 32) (v2065 : IVec S16 32), Decidable (k0_chk424 v1144 v2065) := fun v1144 v2065 => decidable_of_iff' _ (Iff.of_eq (k0_chk424.eq_1 v1144 v2065))
theorem k0_idx424_inb : ∀ (v1144 : IVec S16 32) (v2065 : IVec S16 32) (k0_hw424 : k0_chk424 v1144 v2065), ∀ a x, ((![v1144, v2065] : Fin 2 → IVec S16 32) a x).toNat < S128x200.size a := fun v1144 v2065 k0_hw424 => k0_hw424

def k0_chk425 (v2066 : IVec S16 32) : Prop :=
  (∀ a x, ((![v2066] : Fin 1 → IVec S16 32) a x).toNat < S32.size a)
instance k0_chk425.dec : ∀ (v2066 : IVec S16 32), Decidable (k0_chk425 v2066) := fun v2066 => decidable_of_iff' _ (Iff.of_eq (k0_chk425.eq_1 v2066))
theorem k0_idx425_inb : ∀ (v2066 : IVec S16 32) (k0_hw425 : k0_chk425 v2066), ∀ a x, ((![v2066] : Fin 1 → IVec S16 32) a x).toNat < S32.size a := fun v2066 k0_hw425 => k0_hw425

def k0_chk426 (v1144 : IVec S16 32) (v2078 : IVec S16 32) : Prop :=
  (∀ a x, ((![v1144, v2078] : Fin 2 → IVec S16 32) a x).toNat < S128x200.size a)
instance k0_chk426.dec : ∀ (v1144 : IVec S16 32) (v2078 : IVec S16 32), Decidable (k0_chk426 v1144 v2078) := fun v1144 v2078 => decidable_of_iff' _ (Iff.of_eq (k0_chk426.eq_1 v1144 v2078))
theorem k0_idx426_inb : ∀ (v1144 : IVec S16 32) (v2078 : IVec S16 32) (k0_hw426 : k0_chk426 v1144 v2078), ∀ a x, ((![v1144, v2078] : Fin 2 → IVec S16 32) a x).toNat < S128x200.size a := fun v1144 v2078 k0_hw426 => k0_hw426

def k0_chk427 (v2079 : IVec S16 32) : Prop :=
  (∀ a x, ((![v2079] : Fin 1 → IVec S16 32) a x).toNat < S32.size a)
instance k0_chk427.dec : ∀ (v2079 : IVec S16 32), Decidable (k0_chk427 v2079) := fun v2079 => decidable_of_iff' _ (Iff.of_eq (k0_chk427.eq_1 v2079))
theorem k0_idx427_inb : ∀ (v2079 : IVec S16 32) (k0_hw427 : k0_chk427 v2079), ∀ a x, ((![v2079] : Fin 1 → IVec S16 32) a x).toNat < S32.size a := fun v2079 k0_hw427 => k0_hw427

def k0_chk428 (v1144 : IVec S16 32) (v2091 : IVec S16 32) : Prop :=
  (∀ a x, ((![v1144, v2091] : Fin 2 → IVec S16 32) a x).toNat < S128x200.size a)
instance k0_chk428.dec : ∀ (v1144 : IVec S16 32) (v2091 : IVec S16 32), Decidable (k0_chk428 v1144 v2091) := fun v1144 v2091 => decidable_of_iff' _ (Iff.of_eq (k0_chk428.eq_1 v1144 v2091))
theorem k0_idx428_inb : ∀ (v1144 : IVec S16 32) (v2091 : IVec S16 32) (k0_hw428 : k0_chk428 v1144 v2091), ∀ a x, ((![v1144, v2091] : Fin 2 → IVec S16 32) a x).toNat < S128x200.size a := fun v1144 v2091 k0_hw428 => k0_hw428

def k0_chk429 (v2092 : IVec S16 32) : Prop :=
  (∀ a x, ((![v2092] : Fin 1 → IVec S16 32) a x).toNat < S32.size a)
instance k0_chk429.dec : ∀ (v2092 : IVec S16 32), Decidable (k0_chk429 v2092) := fun v2092 => decidable_of_iff' _ (Iff.of_eq (k0_chk429.eq_1 v2092))
theorem k0_idx429_inb : ∀ (v2092 : IVec S16 32) (k0_hw429 : k0_chk429 v2092), ∀ a x, ((![v2092] : Fin 1 → IVec S16 32) a x).toNat < S32.size a := fun v2092 k0_hw429 => k0_hw429

def k0_chk430 (v1144 : IVec S16 32) (v2104 : IVec S16 32) : Prop :=
  (∀ a x, ((![v1144, v2104] : Fin 2 → IVec S16 32) a x).toNat < S128x200.size a)
instance k0_chk430.dec : ∀ (v1144 : IVec S16 32) (v2104 : IVec S16 32), Decidable (k0_chk430 v1144 v2104) := fun v1144 v2104 => decidable_of_iff' _ (Iff.of_eq (k0_chk430.eq_1 v1144 v2104))
theorem k0_idx430_inb : ∀ (v1144 : IVec S16 32) (v2104 : IVec S16 32) (k0_hw430 : k0_chk430 v1144 v2104), ∀ a x, ((![v1144, v2104] : Fin 2 → IVec S16 32) a x).toNat < S128x200.size a := fun v1144 v2104 k0_hw430 => k0_hw430

def k0_chk431 (v2105 : IVec S16 32) : Prop :=
  (∀ a x, ((![v2105] : Fin 1 → IVec S16 32) a x).toNat < S32.size a)
instance k0_chk431.dec : ∀ (v2105 : IVec S16 32), Decidable (k0_chk431 v2105) := fun v2105 => decidable_of_iff' _ (Iff.of_eq (k0_chk431.eq_1 v2105))
theorem k0_idx431_inb : ∀ (v2105 : IVec S16 32) (k0_hw431 : k0_chk431 v2105), ∀ a x, ((![v2105] : Fin 1 → IVec S16 32) a x).toNat < S32.size a := fun v2105 k0_hw431 => k0_hw431

def k0_chk432 (v1144 : IVec S16 32) (v2117 : IVec S16 32) : Prop :=
  (∀ a x, ((![v1144, v2117] : Fin 2 → IVec S16 32) a x).toNat < S128x200.size a)
instance k0_chk432.dec : ∀ (v1144 : IVec S16 32) (v2117 : IVec S16 32), Decidable (k0_chk432 v1144 v2117) := fun v1144 v2117 => decidable_of_iff' _ (Iff.of_eq (k0_chk432.eq_1 v1144 v2117))
theorem k0_idx432_inb : ∀ (v1144 : IVec S16 32) (v2117 : IVec S16 32) (k0_hw432 : k0_chk432 v1144 v2117), ∀ a x, ((![v1144, v2117] : Fin 2 → IVec S16 32) a x).toNat < S128x200.size a := fun v1144 v2117 k0_hw432 => k0_hw432

def k0_chk433 (v2118 : IVec S16 32) : Prop :=
  (∀ a x, ((![v2118] : Fin 1 → IVec S16 32) a x).toNat < S32.size a)
instance k0_chk433.dec : ∀ (v2118 : IVec S16 32), Decidable (k0_chk433 v2118) := fun v2118 => decidable_of_iff' _ (Iff.of_eq (k0_chk433.eq_1 v2118))
theorem k0_idx433_inb : ∀ (v2118 : IVec S16 32) (k0_hw433 : k0_chk433 v2118), ∀ a x, ((![v2118] : Fin 1 → IVec S16 32) a x).toNat < S32.size a := fun v2118 k0_hw433 => k0_hw433

def k0_chk434 (v1144 : IVec S16 32) (v1203 : IVec S16 32) : Prop :=
  (∀ a x, ((![v1144, v1203] : Fin 2 → IVec S16 32) a x).toNat < S128x32.size a)
instance k0_chk434.dec : ∀ (v1144 : IVec S16 32) (v1203 : IVec S16 32), Decidable (k0_chk434 v1144 v1203) := fun v1144 v1203 => decidable_of_iff' _ (Iff.of_eq (k0_chk434.eq_1 v1144 v1203))
theorem k0_idx434_inb : ∀ (v1144 : IVec S16 32) (v1203 : IVec S16 32) (k0_hw434 : k0_chk434 v1144 v1203), ∀ a x, ((![v1144, v1203] : Fin 2 → IVec S16 32) a x).toNat < S128x32.size a := fun v1144 v1203 k0_hw434 => k0_hw434

def k0_chk435 (v1144 : IVec S16 32) (v1146 : IVec S16 32) : Prop :=
  (∀ a x, ((![v1144, v1146] : Fin 2 → IVec S16 32) a x).toNat < S128x32.size a)
instance k0_chk435.dec : ∀ (v1144 : IVec S16 32) (v1146 : IVec S16 32), Decidable (k0_chk435 v1144 v1146) := fun v1144 v1146 => decidable_of_iff' _ (Iff.of_eq (k0_chk435.eq_1 v1144 v1146))
theorem k0_idx435_inb : ∀ (v1144 : IVec S16 32) (v1146 : IVec S16 32) (k0_hw435 : k0_chk435 v1144 v1146), ∀ a x, ((![v1144, v1146] : Fin 2 → IVec S16 32) a x).toNat < S128x32.size a := fun v1144 v1146 k0_hw435 => k0_hw435

def k0_chk436 (v1144 : IVec S16 32) (v1204 : IVec S16 32) : Prop :=
  (∀ a x, ((![v1144, v1204] : Fin 2 → IVec S16 32) a x).toNat < S128x32.size a)
instance k0_chk436.dec : ∀ (v1144 : IVec S16 32) (v1204 : IVec S16 32), Decidable (k0_chk436 v1144 v1204) := fun v1144 v1204 => decidable_of_iff' _ (Iff.of_eq (k0_chk436.eq_1 v1144 v1204))
theorem k0_idx436_inb : ∀ (v1144 : IVec S16 32) (v1204 : IVec S16 32) (k0_hw436 : k0_chk436 v1144 v1204), ∀ a x, ((![v1144, v1204] : Fin 2 → IVec S16 32) a x).toNat < S128x32.size a := fun v1144 v1204 k0_hw436 => k0_hw436

def k0_chk437 (v1144 : IVec S16 32) (v1205 : IVec S16 32) : Prop :=
  (∀ a x, ((![v1144, v1205] : Fin 2 → IVec S16 32) a x).toNat < S128x32.size a)
instance k0_chk437.dec : ∀ (v1144 : IVec S16 32) (v1205 : IVec S16 32), Decidable (k0_chk437 v1144 v1205) := fun v1144 v1205 => decidable_of_iff' _ (Iff.of_eq (k0_chk437.eq_1 v1144 v1205))
theorem k0_idx437_inb : ∀ (v1144 : IVec S16 32) (v1205 : IVec S16 32) (k0_hw437 : k0_chk437 v1144 v1205), ∀ a x, ((![v1144, v1205] : Fin 2 → IVec S16 32) a x).toNat < S128x32.size a := fun v1144 v1205 k0_hw437 => k0_hw437

def k0_chk438 (v1207 : IVec S16 32) (v1208 : IVec S16 32) : Prop :=
  (∀ a x, ((![v1207, v1208] : Fin 2 → IVec S16 32) a x).toNat < S128x200.size a)
instance k0_chk438.dec : ∀ (v1207 : IVec S16 32) (v1208 : IVec S16 32), Decidable (k0_chk438 v1207 v1208) := fun v1207 v1208 => decidable_of_iff' _ (Iff.of_eq (k0_chk438.eq_1 v1207 v1208))
theorem k0_idx438_inb : ∀ (v1207 : IVec S16 32) (v1208 : IVec S16 32) (k0_hw438 : k0_chk438 v1207 v1208), ∀ a x, ((![v1207, v1208] : Fin 2 → IVec S16 32) a x).toNat < S128x200.size a := fun v1207 v1208 k0_hw438 => k0_hw438

def k0_chk439 (v1207 : IVec S16 32) (v1210 : IVec S16 32) : Prop :=
  (∀ a x, ((![v1207, v1210] : Fin 2 → IVec S16 32) a x).toNat < S128x200.size a)
instance k0_chk439.dec : ∀ (v1207 : IVec S16 32) (v1210 : IVec S16 32), Decidable (k0_chk439 v1207 v1210) := fun v1207 v1210 => decidable_of_iff' _ (Iff.of_eq (k0_chk439.eq_1 v1207 v1210))
theorem k0_idx439_inb : ∀ (v1207 : IVec S16 32) (v1210 : IVec S16 32) (k0_hw439 : k0_chk439 v1207 v1210), ∀ a x, ((![v1207, v1210] : Fin 2 → IVec S16 32) a x).toNat < S128x200.size a := fun v1207 v1210 k0_hw439 => k0_hw439

def k0_chk440 (v1207 : IVec S16 32) (v1212 : IVec S16 32) : Prop :=
  (∀ a x, ((![v1207, v1212] : Fin 2 → IVec S16 32) a x).toNat < S128x200.size a)
instance k0_chk440.dec : ∀ (v1207 : IVec S16 32) (v1212 : IVec S16 32), Decidable (k0_chk440 v1207 v1212) := fun v1207 v1212 => decidable_of_iff' _ (Iff.of_eq (k0_chk440.eq_1 v1207 v1212))
theorem k0_idx440_inb : ∀ (v1207 : IVec S16 32) (v1212 : IVec S16 32) (k0_hw440 : k0_chk440 v1207 v1212), ∀ a x, ((![v1207, v1212] : Fin 2 → IVec S16 32) a x).toNat < S128x200.size a := fun v1207 v1212 k0_hw440 => k0_hw440
@[reducible] def k0_t20_loop : Scf.Loop 32 :=
  let c0_i32_595 : BitVec 32 := 0#32
  let c25_i32_596 : BitVec 32 := 25#32
  let v1216 : BitVec 32 := Scalar.addi c0_i32_595 c25_i32_596
  let c1_i32_597 : BitVec 32 := 1#32
  ⟨c0_i32_595, v1216, c1_i32_597⟩

def k0_chk441 (v1207 : IVec S16 32) (arg10 : IVec S16 32) : Prop :=
  (∀ a x, ((![v1207, arg10] : Fin 2 → IVec S16 32) a x).toNat < S128x200.size a)
instance k0_chk441.dec : ∀ (v1207 : IVec S16 32) (arg10 : IVec S16 32), Decidable (k0_chk441 v1207 arg10) := fun v1207 arg10 => decidable_of_iff' _ (Iff.of_eq (k0_chk441.eq_1 v1207 arg10))
theorem k0_idx441_inb : ∀ (v1207 : IVec S16 32) (arg10 : IVec S16 32) (k0_hw441 : k0_chk441 v1207 arg10), ∀ a x, ((![v1207, arg10] : Fin 2 → IVec S16 32) a x).toNat < S128x200.size a := fun v1207 arg10 k0_hw441 => k0_hw441

def k0_chk442 (v2027 : IVec S16 32) : Prop :=
  (∀ a x, ((![v2027] : Fin 1 → IVec S16 32) a x).toNat < S32.size a)
instance k0_chk442.dec : ∀ (v2027 : IVec S16 32), Decidable (k0_chk442 v2027) := fun v2027 => decidable_of_iff' _ (Iff.of_eq (k0_chk442.eq_1 v2027))
theorem k0_idx442_inb : ∀ (v2027 : IVec S16 32) (k0_hw442 : k0_chk442 v2027), ∀ a x, ((![v2027] : Fin 1 → IVec S16 32) a x).toNat < S32.size a := fun v2027 k0_hw442 => k0_hw442

def k0_chk443 (v1207 : IVec S16 32) (v2039 : IVec S16 32) : Prop :=
  (∀ a x, ((![v1207, v2039] : Fin 2 → IVec S16 32) a x).toNat < S128x200.size a)
instance k0_chk443.dec : ∀ (v1207 : IVec S16 32) (v2039 : IVec S16 32), Decidable (k0_chk443 v1207 v2039) := fun v1207 v2039 => decidable_of_iff' _ (Iff.of_eq (k0_chk443.eq_1 v1207 v2039))
theorem k0_idx443_inb : ∀ (v1207 : IVec S16 32) (v2039 : IVec S16 32) (k0_hw443 : k0_chk443 v1207 v2039), ∀ a x, ((![v1207, v2039] : Fin 2 → IVec S16 32) a x).toNat < S128x200.size a := fun v1207 v2039 k0_hw443 => k0_hw443

def k0_chk444 (v2040 : IVec S16 32) : Prop :=
  (∀ a x, ((![v2040] : Fin 1 → IVec S16 32) a x).toNat < S32.size a)
instance k0_chk444.dec : ∀ (v2040 : IVec S16 32), Decidable (k0_chk444 v2040) := fun v2040 => decidable_of_iff' _ (Iff.of_eq (k0_chk444.eq_1 v2040))
theorem k0_idx444_inb : ∀ (v2040 : IVec S16 32) (k0_hw444 : k0_chk444 v2040), ∀ a x, ((![v2040] : Fin 1 → IVec S16 32) a x).toNat < S32.size a := fun v2040 k0_hw444 => k0_hw444

def k0_chk445 (v1207 : IVec S16 32) (v2052 : IVec S16 32) : Prop :=
  (∀ a x, ((![v1207, v2052] : Fin 2 → IVec S16 32) a x).toNat < S128x200.size a)
instance k0_chk445.dec : ∀ (v1207 : IVec S16 32) (v2052 : IVec S16 32), Decidable (k0_chk445 v1207 v2052) := fun v1207 v2052 => decidable_of_iff' _ (Iff.of_eq (k0_chk445.eq_1 v1207 v2052))
theorem k0_idx445_inb : ∀ (v1207 : IVec S16 32) (v2052 : IVec S16 32) (k0_hw445 : k0_chk445 v1207 v2052), ∀ a x, ((![v1207, v2052] : Fin 2 → IVec S16 32) a x).toNat < S128x200.size a := fun v1207 v2052 k0_hw445 => k0_hw445

def k0_chk446 (v2053 : IVec S16 32) : Prop :=
  (∀ a x, ((![v2053] : Fin 1 → IVec S16 32) a x).toNat < S32.size a)
instance k0_chk446.dec : ∀ (v2053 : IVec S16 32), Decidable (k0_chk446 v2053) := fun v2053 => decidable_of_iff' _ (Iff.of_eq (k0_chk446.eq_1 v2053))
theorem k0_idx446_inb : ∀ (v2053 : IVec S16 32) (k0_hw446 : k0_chk446 v2053), ∀ a x, ((![v2053] : Fin 1 → IVec S16 32) a x).toNat < S32.size a := fun v2053 k0_hw446 => k0_hw446

def k0_chk447 (v1207 : IVec S16 32) (v2065 : IVec S16 32) : Prop :=
  (∀ a x, ((![v1207, v2065] : Fin 2 → IVec S16 32) a x).toNat < S128x200.size a)
instance k0_chk447.dec : ∀ (v1207 : IVec S16 32) (v2065 : IVec S16 32), Decidable (k0_chk447 v1207 v2065) := fun v1207 v2065 => decidable_of_iff' _ (Iff.of_eq (k0_chk447.eq_1 v1207 v2065))
theorem k0_idx447_inb : ∀ (v1207 : IVec S16 32) (v2065 : IVec S16 32) (k0_hw447 : k0_chk447 v1207 v2065), ∀ a x, ((![v1207, v2065] : Fin 2 → IVec S16 32) a x).toNat < S128x200.size a := fun v1207 v2065 k0_hw447 => k0_hw447

def k0_chk448 (v2066 : IVec S16 32) : Prop :=
  (∀ a x, ((![v2066] : Fin 1 → IVec S16 32) a x).toNat < S32.size a)
instance k0_chk448.dec : ∀ (v2066 : IVec S16 32), Decidable (k0_chk448 v2066) := fun v2066 => decidable_of_iff' _ (Iff.of_eq (k0_chk448.eq_1 v2066))
theorem k0_idx448_inb : ∀ (v2066 : IVec S16 32) (k0_hw448 : k0_chk448 v2066), ∀ a x, ((![v2066] : Fin 1 → IVec S16 32) a x).toNat < S32.size a := fun v2066 k0_hw448 => k0_hw448

def k0_chk449 (v1207 : IVec S16 32) (v2078 : IVec S16 32) : Prop :=
  (∀ a x, ((![v1207, v2078] : Fin 2 → IVec S16 32) a x).toNat < S128x200.size a)
instance k0_chk449.dec : ∀ (v1207 : IVec S16 32) (v2078 : IVec S16 32), Decidable (k0_chk449 v1207 v2078) := fun v1207 v2078 => decidable_of_iff' _ (Iff.of_eq (k0_chk449.eq_1 v1207 v2078))
theorem k0_idx449_inb : ∀ (v1207 : IVec S16 32) (v2078 : IVec S16 32) (k0_hw449 : k0_chk449 v1207 v2078), ∀ a x, ((![v1207, v2078] : Fin 2 → IVec S16 32) a x).toNat < S128x200.size a := fun v1207 v2078 k0_hw449 => k0_hw449

def k0_chk450 (v2079 : IVec S16 32) : Prop :=
  (∀ a x, ((![v2079] : Fin 1 → IVec S16 32) a x).toNat < S32.size a)
instance k0_chk450.dec : ∀ (v2079 : IVec S16 32), Decidable (k0_chk450 v2079) := fun v2079 => decidable_of_iff' _ (Iff.of_eq (k0_chk450.eq_1 v2079))
theorem k0_idx450_inb : ∀ (v2079 : IVec S16 32) (k0_hw450 : k0_chk450 v2079), ∀ a x, ((![v2079] : Fin 1 → IVec S16 32) a x).toNat < S32.size a := fun v2079 k0_hw450 => k0_hw450

def k0_chk451 (v1207 : IVec S16 32) (v2091 : IVec S16 32) : Prop :=
  (∀ a x, ((![v1207, v2091] : Fin 2 → IVec S16 32) a x).toNat < S128x200.size a)
instance k0_chk451.dec : ∀ (v1207 : IVec S16 32) (v2091 : IVec S16 32), Decidable (k0_chk451 v1207 v2091) := fun v1207 v2091 => decidable_of_iff' _ (Iff.of_eq (k0_chk451.eq_1 v1207 v2091))
theorem k0_idx451_inb : ∀ (v1207 : IVec S16 32) (v2091 : IVec S16 32) (k0_hw451 : k0_chk451 v1207 v2091), ∀ a x, ((![v1207, v2091] : Fin 2 → IVec S16 32) a x).toNat < S128x200.size a := fun v1207 v2091 k0_hw451 => k0_hw451

def k0_chk452 (v2092 : IVec S16 32) : Prop :=
  (∀ a x, ((![v2092] : Fin 1 → IVec S16 32) a x).toNat < S32.size a)
instance k0_chk452.dec : ∀ (v2092 : IVec S16 32), Decidable (k0_chk452 v2092) := fun v2092 => decidable_of_iff' _ (Iff.of_eq (k0_chk452.eq_1 v2092))
theorem k0_idx452_inb : ∀ (v2092 : IVec S16 32) (k0_hw452 : k0_chk452 v2092), ∀ a x, ((![v2092] : Fin 1 → IVec S16 32) a x).toNat < S32.size a := fun v2092 k0_hw452 => k0_hw452

def k0_chk453 (v1207 : IVec S16 32) (v2104 : IVec S16 32) : Prop :=
  (∀ a x, ((![v1207, v2104] : Fin 2 → IVec S16 32) a x).toNat < S128x200.size a)
instance k0_chk453.dec : ∀ (v1207 : IVec S16 32) (v2104 : IVec S16 32), Decidable (k0_chk453 v1207 v2104) := fun v1207 v2104 => decidable_of_iff' _ (Iff.of_eq (k0_chk453.eq_1 v1207 v2104))
theorem k0_idx453_inb : ∀ (v1207 : IVec S16 32) (v2104 : IVec S16 32) (k0_hw453 : k0_chk453 v1207 v2104), ∀ a x, ((![v1207, v2104] : Fin 2 → IVec S16 32) a x).toNat < S128x200.size a := fun v1207 v2104 k0_hw453 => k0_hw453

def k0_chk454 (v2105 : IVec S16 32) : Prop :=
  (∀ a x, ((![v2105] : Fin 1 → IVec S16 32) a x).toNat < S32.size a)
instance k0_chk454.dec : ∀ (v2105 : IVec S16 32), Decidable (k0_chk454 v2105) := fun v2105 => decidable_of_iff' _ (Iff.of_eq (k0_chk454.eq_1 v2105))
theorem k0_idx454_inb : ∀ (v2105 : IVec S16 32) (k0_hw454 : k0_chk454 v2105), ∀ a x, ((![v2105] : Fin 1 → IVec S16 32) a x).toNat < S32.size a := fun v2105 k0_hw454 => k0_hw454

def k0_chk455 (v1207 : IVec S16 32) (v2117 : IVec S16 32) : Prop :=
  (∀ a x, ((![v1207, v2117] : Fin 2 → IVec S16 32) a x).toNat < S128x200.size a)
instance k0_chk455.dec : ∀ (v1207 : IVec S16 32) (v2117 : IVec S16 32), Decidable (k0_chk455 v1207 v2117) := fun v1207 v2117 => decidable_of_iff' _ (Iff.of_eq (k0_chk455.eq_1 v1207 v2117))
theorem k0_idx455_inb : ∀ (v1207 : IVec S16 32) (v2117 : IVec S16 32) (k0_hw455 : k0_chk455 v1207 v2117), ∀ a x, ((![v1207, v2117] : Fin 2 → IVec S16 32) a x).toNat < S128x200.size a := fun v1207 v2117 k0_hw455 => k0_hw455

def k0_chk456 (v2118 : IVec S16 32) : Prop :=
  (∀ a x, ((![v2118] : Fin 1 → IVec S16 32) a x).toNat < S32.size a)
instance k0_chk456.dec : ∀ (v2118 : IVec S16 32), Decidable (k0_chk456 v2118) := fun v2118 => decidable_of_iff' _ (Iff.of_eq (k0_chk456.eq_1 v2118))
theorem k0_idx456_inb : ∀ (v2118 : IVec S16 32) (k0_hw456 : k0_chk456 v2118), ∀ a x, ((![v2118] : Fin 1 → IVec S16 32) a x).toNat < S32.size a := fun v2118 k0_hw456 => k0_hw456

def k0_chk457 (v1207 : IVec S16 32) (v1266 : IVec S16 32) : Prop :=
  (∀ a x, ((![v1207, v1266] : Fin 2 → IVec S16 32) a x).toNat < S128x32.size a)
instance k0_chk457.dec : ∀ (v1207 : IVec S16 32) (v1266 : IVec S16 32), Decidable (k0_chk457 v1207 v1266) := fun v1207 v1266 => decidable_of_iff' _ (Iff.of_eq (k0_chk457.eq_1 v1207 v1266))
theorem k0_idx457_inb : ∀ (v1207 : IVec S16 32) (v1266 : IVec S16 32) (k0_hw457 : k0_chk457 v1207 v1266), ∀ a x, ((![v1207, v1266] : Fin 2 → IVec S16 32) a x).toNat < S128x32.size a := fun v1207 v1266 k0_hw457 => k0_hw457

def k0_chk458 (v1207 : IVec S16 32) (v1209 : IVec S16 32) : Prop :=
  (∀ a x, ((![v1207, v1209] : Fin 2 → IVec S16 32) a x).toNat < S128x32.size a)
instance k0_chk458.dec : ∀ (v1207 : IVec S16 32) (v1209 : IVec S16 32), Decidable (k0_chk458 v1207 v1209) := fun v1207 v1209 => decidable_of_iff' _ (Iff.of_eq (k0_chk458.eq_1 v1207 v1209))
theorem k0_idx458_inb : ∀ (v1207 : IVec S16 32) (v1209 : IVec S16 32) (k0_hw458 : k0_chk458 v1207 v1209), ∀ a x, ((![v1207, v1209] : Fin 2 → IVec S16 32) a x).toNat < S128x32.size a := fun v1207 v1209 k0_hw458 => k0_hw458

def k0_chk459 (v1207 : IVec S16 32) (v1267 : IVec S16 32) : Prop :=
  (∀ a x, ((![v1207, v1267] : Fin 2 → IVec S16 32) a x).toNat < S128x32.size a)
instance k0_chk459.dec : ∀ (v1207 : IVec S16 32) (v1267 : IVec S16 32), Decidable (k0_chk459 v1207 v1267) := fun v1207 v1267 => decidable_of_iff' _ (Iff.of_eq (k0_chk459.eq_1 v1207 v1267))
theorem k0_idx459_inb : ∀ (v1207 : IVec S16 32) (v1267 : IVec S16 32) (k0_hw459 : k0_chk459 v1207 v1267), ∀ a x, ((![v1207, v1267] : Fin 2 → IVec S16 32) a x).toNat < S128x32.size a := fun v1207 v1267 k0_hw459 => k0_hw459

def k0_chk460 (v1207 : IVec S16 32) (v1268 : IVec S16 32) : Prop :=
  (∀ a x, ((![v1207, v1268] : Fin 2 → IVec S16 32) a x).toNat < S128x32.size a)
instance k0_chk460.dec : ∀ (v1207 : IVec S16 32) (v1268 : IVec S16 32), Decidable (k0_chk460 v1207 v1268) := fun v1207 v1268 => decidable_of_iff' _ (Iff.of_eq (k0_chk460.eq_1 v1207 v1268))
theorem k0_idx460_inb : ∀ (v1207 : IVec S16 32) (v1268 : IVec S16 32) (k0_hw460 : k0_chk460 v1207 v1268), ∀ a x, ((![v1207, v1268] : Fin 2 → IVec S16 32) a x).toNat < S128x32.size a := fun v1207 v1268 k0_hw460 => k0_hw460

def k0_chk461 (v1270 : IVec S16 32) (v1271 : IVec S16 32) : Prop :=
  (∀ a x, ((![v1270, v1271] : Fin 2 → IVec S16 32) a x).toNat < S128x200.size a)
instance k0_chk461.dec : ∀ (v1270 : IVec S16 32) (v1271 : IVec S16 32), Decidable (k0_chk461 v1270 v1271) := fun v1270 v1271 => decidable_of_iff' _ (Iff.of_eq (k0_chk461.eq_1 v1270 v1271))
theorem k0_idx461_inb : ∀ (v1270 : IVec S16 32) (v1271 : IVec S16 32) (k0_hw461 : k0_chk461 v1270 v1271), ∀ a x, ((![v1270, v1271] : Fin 2 → IVec S16 32) a x).toNat < S128x200.size a := fun v1270 v1271 k0_hw461 => k0_hw461

def k0_chk462 (v1270 : IVec S16 32) (v1273 : IVec S16 32) : Prop :=
  (∀ a x, ((![v1270, v1273] : Fin 2 → IVec S16 32) a x).toNat < S128x200.size a)
instance k0_chk462.dec : ∀ (v1270 : IVec S16 32) (v1273 : IVec S16 32), Decidable (k0_chk462 v1270 v1273) := fun v1270 v1273 => decidable_of_iff' _ (Iff.of_eq (k0_chk462.eq_1 v1270 v1273))
theorem k0_idx462_inb : ∀ (v1270 : IVec S16 32) (v1273 : IVec S16 32) (k0_hw462 : k0_chk462 v1270 v1273), ∀ a x, ((![v1270, v1273] : Fin 2 → IVec S16 32) a x).toNat < S128x200.size a := fun v1270 v1273 k0_hw462 => k0_hw462

def k0_chk463 (v1270 : IVec S16 32) (v1275 : IVec S16 32) : Prop :=
  (∀ a x, ((![v1270, v1275] : Fin 2 → IVec S16 32) a x).toNat < S128x200.size a)
instance k0_chk463.dec : ∀ (v1270 : IVec S16 32) (v1275 : IVec S16 32), Decidable (k0_chk463 v1270 v1275) := fun v1270 v1275 => decidable_of_iff' _ (Iff.of_eq (k0_chk463.eq_1 v1270 v1275))
theorem k0_idx463_inb : ∀ (v1270 : IVec S16 32) (v1275 : IVec S16 32) (k0_hw463 : k0_chk463 v1270 v1275), ∀ a x, ((![v1270, v1275] : Fin 2 → IVec S16 32) a x).toNat < S128x200.size a := fun v1270 v1275 k0_hw463 => k0_hw463
@[reducible] def k0_t21_loop : Scf.Loop 32 :=
  let c0_i32_627 : BitVec 32 := 0#32
  let c25_i32_628 : BitVec 32 := 25#32
  let v1279 : BitVec 32 := Scalar.addi c0_i32_627 c25_i32_628
  let c1_i32_629 : BitVec 32 := 1#32
  ⟨c0_i32_627, v1279, c1_i32_629⟩

def k0_chk464 (v1270 : IVec S16 32) (arg10 : IVec S16 32) : Prop :=
  (∀ a x, ((![v1270, arg10] : Fin 2 → IVec S16 32) a x).toNat < S128x200.size a)
instance k0_chk464.dec : ∀ (v1270 : IVec S16 32) (arg10 : IVec S16 32), Decidable (k0_chk464 v1270 arg10) := fun v1270 arg10 => decidable_of_iff' _ (Iff.of_eq (k0_chk464.eq_1 v1270 arg10))
theorem k0_idx464_inb : ∀ (v1270 : IVec S16 32) (arg10 : IVec S16 32) (k0_hw464 : k0_chk464 v1270 arg10), ∀ a x, ((![v1270, arg10] : Fin 2 → IVec S16 32) a x).toNat < S128x200.size a := fun v1270 arg10 k0_hw464 => k0_hw464

def k0_chk465 (v2027 : IVec S16 32) : Prop :=
  (∀ a x, ((![v2027] : Fin 1 → IVec S16 32) a x).toNat < S32.size a)
instance k0_chk465.dec : ∀ (v2027 : IVec S16 32), Decidable (k0_chk465 v2027) := fun v2027 => decidable_of_iff' _ (Iff.of_eq (k0_chk465.eq_1 v2027))
theorem k0_idx465_inb : ∀ (v2027 : IVec S16 32) (k0_hw465 : k0_chk465 v2027), ∀ a x, ((![v2027] : Fin 1 → IVec S16 32) a x).toNat < S32.size a := fun v2027 k0_hw465 => k0_hw465

def k0_chk466 (v1270 : IVec S16 32) (v2039 : IVec S16 32) : Prop :=
  (∀ a x, ((![v1270, v2039] : Fin 2 → IVec S16 32) a x).toNat < S128x200.size a)
instance k0_chk466.dec : ∀ (v1270 : IVec S16 32) (v2039 : IVec S16 32), Decidable (k0_chk466 v1270 v2039) := fun v1270 v2039 => decidable_of_iff' _ (Iff.of_eq (k0_chk466.eq_1 v1270 v2039))
theorem k0_idx466_inb : ∀ (v1270 : IVec S16 32) (v2039 : IVec S16 32) (k0_hw466 : k0_chk466 v1270 v2039), ∀ a x, ((![v1270, v2039] : Fin 2 → IVec S16 32) a x).toNat < S128x200.size a := fun v1270 v2039 k0_hw466 => k0_hw466

def k0_chk467 (v2040 : IVec S16 32) : Prop :=
  (∀ a x, ((![v2040] : Fin 1 → IVec S16 32) a x).toNat < S32.size a)
instance k0_chk467.dec : ∀ (v2040 : IVec S16 32), Decidable (k0_chk467 v2040) := fun v2040 => decidable_of_iff' _ (Iff.of_eq (k0_chk467.eq_1 v2040))
theorem k0_idx467_inb : ∀ (v2040 : IVec S16 32) (k0_hw467 : k0_chk467 v2040), ∀ a x, ((![v2040] : Fin 1 → IVec S16 32) a x).toNat < S32.size a := fun v2040 k0_hw467 => k0_hw467

def k0_chk468 (v1270 : IVec S16 32) (v2052 : IVec S16 32) : Prop :=
  (∀ a x, ((![v1270, v2052] : Fin 2 → IVec S16 32) a x).toNat < S128x200.size a)
instance k0_chk468.dec : ∀ (v1270 : IVec S16 32) (v2052 : IVec S16 32), Decidable (k0_chk468 v1270 v2052) := fun v1270 v2052 => decidable_of_iff' _ (Iff.of_eq (k0_chk468.eq_1 v1270 v2052))
theorem k0_idx468_inb : ∀ (v1270 : IVec S16 32) (v2052 : IVec S16 32) (k0_hw468 : k0_chk468 v1270 v2052), ∀ a x, ((![v1270, v2052] : Fin 2 → IVec S16 32) a x).toNat < S128x200.size a := fun v1270 v2052 k0_hw468 => k0_hw468

def k0_chk469 (v2053 : IVec S16 32) : Prop :=
  (∀ a x, ((![v2053] : Fin 1 → IVec S16 32) a x).toNat < S32.size a)
instance k0_chk469.dec : ∀ (v2053 : IVec S16 32), Decidable (k0_chk469 v2053) := fun v2053 => decidable_of_iff' _ (Iff.of_eq (k0_chk469.eq_1 v2053))
theorem k0_idx469_inb : ∀ (v2053 : IVec S16 32) (k0_hw469 : k0_chk469 v2053), ∀ a x, ((![v2053] : Fin 1 → IVec S16 32) a x).toNat < S32.size a := fun v2053 k0_hw469 => k0_hw469

def k0_chk470 (v1270 : IVec S16 32) (v2065 : IVec S16 32) : Prop :=
  (∀ a x, ((![v1270, v2065] : Fin 2 → IVec S16 32) a x).toNat < S128x200.size a)
instance k0_chk470.dec : ∀ (v1270 : IVec S16 32) (v2065 : IVec S16 32), Decidable (k0_chk470 v1270 v2065) := fun v1270 v2065 => decidable_of_iff' _ (Iff.of_eq (k0_chk470.eq_1 v1270 v2065))
theorem k0_idx470_inb : ∀ (v1270 : IVec S16 32) (v2065 : IVec S16 32) (k0_hw470 : k0_chk470 v1270 v2065), ∀ a x, ((![v1270, v2065] : Fin 2 → IVec S16 32) a x).toNat < S128x200.size a := fun v1270 v2065 k0_hw470 => k0_hw470

def k0_chk471 (v2066 : IVec S16 32) : Prop :=
  (∀ a x, ((![v2066] : Fin 1 → IVec S16 32) a x).toNat < S32.size a)
instance k0_chk471.dec : ∀ (v2066 : IVec S16 32), Decidable (k0_chk471 v2066) := fun v2066 => decidable_of_iff' _ (Iff.of_eq (k0_chk471.eq_1 v2066))
theorem k0_idx471_inb : ∀ (v2066 : IVec S16 32) (k0_hw471 : k0_chk471 v2066), ∀ a x, ((![v2066] : Fin 1 → IVec S16 32) a x).toNat < S32.size a := fun v2066 k0_hw471 => k0_hw471

def k0_chk472 (v1270 : IVec S16 32) (v2078 : IVec S16 32) : Prop :=
  (∀ a x, ((![v1270, v2078] : Fin 2 → IVec S16 32) a x).toNat < S128x200.size a)
instance k0_chk472.dec : ∀ (v1270 : IVec S16 32) (v2078 : IVec S16 32), Decidable (k0_chk472 v1270 v2078) := fun v1270 v2078 => decidable_of_iff' _ (Iff.of_eq (k0_chk472.eq_1 v1270 v2078))
theorem k0_idx472_inb : ∀ (v1270 : IVec S16 32) (v2078 : IVec S16 32) (k0_hw472 : k0_chk472 v1270 v2078), ∀ a x, ((![v1270, v2078] : Fin 2 → IVec S16 32) a x).toNat < S128x200.size a := fun v1270 v2078 k0_hw472 => k0_hw472

def k0_chk473 (v2079 : IVec S16 32) : Prop :=
  (∀ a x, ((![v2079] : Fin 1 → IVec S16 32) a x).toNat < S32.size a)
instance k0_chk473.dec : ∀ (v2079 : IVec S16 32), Decidable (k0_chk473 v2079) := fun v2079 => decidable_of_iff' _ (Iff.of_eq (k0_chk473.eq_1 v2079))
theorem k0_idx473_inb : ∀ (v2079 : IVec S16 32) (k0_hw473 : k0_chk473 v2079), ∀ a x, ((![v2079] : Fin 1 → IVec S16 32) a x).toNat < S32.size a := fun v2079 k0_hw473 => k0_hw473

def k0_chk474 (v1270 : IVec S16 32) (v2091 : IVec S16 32) : Prop :=
  (∀ a x, ((![v1270, v2091] : Fin 2 → IVec S16 32) a x).toNat < S128x200.size a)
instance k0_chk474.dec : ∀ (v1270 : IVec S16 32) (v2091 : IVec S16 32), Decidable (k0_chk474 v1270 v2091) := fun v1270 v2091 => decidable_of_iff' _ (Iff.of_eq (k0_chk474.eq_1 v1270 v2091))
theorem k0_idx474_inb : ∀ (v1270 : IVec S16 32) (v2091 : IVec S16 32) (k0_hw474 : k0_chk474 v1270 v2091), ∀ a x, ((![v1270, v2091] : Fin 2 → IVec S16 32) a x).toNat < S128x200.size a := fun v1270 v2091 k0_hw474 => k0_hw474

def k0_chk475 (v2092 : IVec S16 32) : Prop :=
  (∀ a x, ((![v2092] : Fin 1 → IVec S16 32) a x).toNat < S32.size a)
instance k0_chk475.dec : ∀ (v2092 : IVec S16 32), Decidable (k0_chk475 v2092) := fun v2092 => decidable_of_iff' _ (Iff.of_eq (k0_chk475.eq_1 v2092))
theorem k0_idx475_inb : ∀ (v2092 : IVec S16 32) (k0_hw475 : k0_chk475 v2092), ∀ a x, ((![v2092] : Fin 1 → IVec S16 32) a x).toNat < S32.size a := fun v2092 k0_hw475 => k0_hw475

def k0_chk476 (v1270 : IVec S16 32) (v2104 : IVec S16 32) : Prop :=
  (∀ a x, ((![v1270, v2104] : Fin 2 → IVec S16 32) a x).toNat < S128x200.size a)
instance k0_chk476.dec : ∀ (v1270 : IVec S16 32) (v2104 : IVec S16 32), Decidable (k0_chk476 v1270 v2104) := fun v1270 v2104 => decidable_of_iff' _ (Iff.of_eq (k0_chk476.eq_1 v1270 v2104))
theorem k0_idx476_inb : ∀ (v1270 : IVec S16 32) (v2104 : IVec S16 32) (k0_hw476 : k0_chk476 v1270 v2104), ∀ a x, ((![v1270, v2104] : Fin 2 → IVec S16 32) a x).toNat < S128x200.size a := fun v1270 v2104 k0_hw476 => k0_hw476

def k0_chk477 (v2105 : IVec S16 32) : Prop :=
  (∀ a x, ((![v2105] : Fin 1 → IVec S16 32) a x).toNat < S32.size a)
instance k0_chk477.dec : ∀ (v2105 : IVec S16 32), Decidable (k0_chk477 v2105) := fun v2105 => decidable_of_iff' _ (Iff.of_eq (k0_chk477.eq_1 v2105))
theorem k0_idx477_inb : ∀ (v2105 : IVec S16 32) (k0_hw477 : k0_chk477 v2105), ∀ a x, ((![v2105] : Fin 1 → IVec S16 32) a x).toNat < S32.size a := fun v2105 k0_hw477 => k0_hw477

def k0_chk478 (v1270 : IVec S16 32) (v2117 : IVec S16 32) : Prop :=
  (∀ a x, ((![v1270, v2117] : Fin 2 → IVec S16 32) a x).toNat < S128x200.size a)
instance k0_chk478.dec : ∀ (v1270 : IVec S16 32) (v2117 : IVec S16 32), Decidable (k0_chk478 v1270 v2117) := fun v1270 v2117 => decidable_of_iff' _ (Iff.of_eq (k0_chk478.eq_1 v1270 v2117))
theorem k0_idx478_inb : ∀ (v1270 : IVec S16 32) (v2117 : IVec S16 32) (k0_hw478 : k0_chk478 v1270 v2117), ∀ a x, ((![v1270, v2117] : Fin 2 → IVec S16 32) a x).toNat < S128x200.size a := fun v1270 v2117 k0_hw478 => k0_hw478

def k0_chk479 (v2118 : IVec S16 32) : Prop :=
  (∀ a x, ((![v2118] : Fin 1 → IVec S16 32) a x).toNat < S32.size a)
instance k0_chk479.dec : ∀ (v2118 : IVec S16 32), Decidable (k0_chk479 v2118) := fun v2118 => decidable_of_iff' _ (Iff.of_eq (k0_chk479.eq_1 v2118))
theorem k0_idx479_inb : ∀ (v2118 : IVec S16 32) (k0_hw479 : k0_chk479 v2118), ∀ a x, ((![v2118] : Fin 1 → IVec S16 32) a x).toNat < S32.size a := fun v2118 k0_hw479 => k0_hw479

def k0_chk480 (v1270 : IVec S16 32) (v1329 : IVec S16 32) : Prop :=
  (∀ a x, ((![v1270, v1329] : Fin 2 → IVec S16 32) a x).toNat < S128x32.size a)
instance k0_chk480.dec : ∀ (v1270 : IVec S16 32) (v1329 : IVec S16 32), Decidable (k0_chk480 v1270 v1329) := fun v1270 v1329 => decidable_of_iff' _ (Iff.of_eq (k0_chk480.eq_1 v1270 v1329))
theorem k0_idx480_inb : ∀ (v1270 : IVec S16 32) (v1329 : IVec S16 32) (k0_hw480 : k0_chk480 v1270 v1329), ∀ a x, ((![v1270, v1329] : Fin 2 → IVec S16 32) a x).toNat < S128x32.size a := fun v1270 v1329 k0_hw480 => k0_hw480

def k0_chk481 (v1270 : IVec S16 32) (v1272 : IVec S16 32) : Prop :=
  (∀ a x, ((![v1270, v1272] : Fin 2 → IVec S16 32) a x).toNat < S128x32.size a)
instance k0_chk481.dec : ∀ (v1270 : IVec S16 32) (v1272 : IVec S16 32), Decidable (k0_chk481 v1270 v1272) := fun v1270 v1272 => decidable_of_iff' _ (Iff.of_eq (k0_chk481.eq_1 v1270 v1272))
theorem k0_idx481_inb : ∀ (v1270 : IVec S16 32) (v1272 : IVec S16 32) (k0_hw481 : k0_chk481 v1270 v1272), ∀ a x, ((![v1270, v1272] : Fin 2 → IVec S16 32) a x).toNat < S128x32.size a := fun v1270 v1272 k0_hw481 => k0_hw481

def k0_chk482 (v1270 : IVec S16 32) (v1330 : IVec S16 32) : Prop :=
  (∀ a x, ((![v1270, v1330] : Fin 2 → IVec S16 32) a x).toNat < S128x32.size a)
instance k0_chk482.dec : ∀ (v1270 : IVec S16 32) (v1330 : IVec S16 32), Decidable (k0_chk482 v1270 v1330) := fun v1270 v1330 => decidable_of_iff' _ (Iff.of_eq (k0_chk482.eq_1 v1270 v1330))
theorem k0_idx482_inb : ∀ (v1270 : IVec S16 32) (v1330 : IVec S16 32) (k0_hw482 : k0_chk482 v1270 v1330), ∀ a x, ((![v1270, v1330] : Fin 2 → IVec S16 32) a x).toNat < S128x32.size a := fun v1270 v1330 k0_hw482 => k0_hw482

def k0_chk483 (v1270 : IVec S16 32) (v1331 : IVec S16 32) : Prop :=
  (∀ a x, ((![v1270, v1331] : Fin 2 → IVec S16 32) a x).toNat < S128x32.size a)
instance k0_chk483.dec : ∀ (v1270 : IVec S16 32) (v1331 : IVec S16 32), Decidable (k0_chk483 v1270 v1331) := fun v1270 v1331 => decidable_of_iff' _ (Iff.of_eq (k0_chk483.eq_1 v1270 v1331))
theorem k0_idx483_inb : ∀ (v1270 : IVec S16 32) (v1331 : IVec S16 32) (k0_hw483 : k0_chk483 v1270 v1331), ∀ a x, ((![v1270, v1331] : Fin 2 → IVec S16 32) a x).toNat < S128x32.size a := fun v1270 v1331 k0_hw483 => k0_hw483

def k0_chk484 (v1333 : IVec S16 32) (v1334 : IVec S16 32) : Prop :=
  (∀ a x, ((![v1333, v1334] : Fin 2 → IVec S16 32) a x).toNat < S128x200.size a)
instance k0_chk484.dec : ∀ (v1333 : IVec S16 32) (v1334 : IVec S16 32), Decidable (k0_chk484 v1333 v1334) := fun v1333 v1334 => decidable_of_iff' _ (Iff.of_eq (k0_chk484.eq_1 v1333 v1334))
theorem k0_idx484_inb : ∀ (v1333 : IVec S16 32) (v1334 : IVec S16 32) (k0_hw484 : k0_chk484 v1333 v1334), ∀ a x, ((![v1333, v1334] : Fin 2 → IVec S16 32) a x).toNat < S128x200.size a := fun v1333 v1334 k0_hw484 => k0_hw484

def k0_chk485 (v1333 : IVec S16 32) (v1336 : IVec S16 32) : Prop :=
  (∀ a x, ((![v1333, v1336] : Fin 2 → IVec S16 32) a x).toNat < S128x200.size a)
instance k0_chk485.dec : ∀ (v1333 : IVec S16 32) (v1336 : IVec S16 32), Decidable (k0_chk485 v1333 v1336) := fun v1333 v1336 => decidable_of_iff' _ (Iff.of_eq (k0_chk485.eq_1 v1333 v1336))
theorem k0_idx485_inb : ∀ (v1333 : IVec S16 32) (v1336 : IVec S16 32) (k0_hw485 : k0_chk485 v1333 v1336), ∀ a x, ((![v1333, v1336] : Fin 2 → IVec S16 32) a x).toNat < S128x200.size a := fun v1333 v1336 k0_hw485 => k0_hw485

def k0_chk486 (v1333 : IVec S16 32) (v1338 : IVec S16 32) : Prop :=
  (∀ a x, ((![v1333, v1338] : Fin 2 → IVec S16 32) a x).toNat < S128x200.size a)
instance k0_chk486.dec : ∀ (v1333 : IVec S16 32) (v1338 : IVec S16 32), Decidable (k0_chk486 v1333 v1338) := fun v1333 v1338 => decidable_of_iff' _ (Iff.of_eq (k0_chk486.eq_1 v1333 v1338))
theorem k0_idx486_inb : ∀ (v1333 : IVec S16 32) (v1338 : IVec S16 32) (k0_hw486 : k0_chk486 v1333 v1338), ∀ a x, ((![v1333, v1338] : Fin 2 → IVec S16 32) a x).toNat < S128x200.size a := fun v1333 v1338 k0_hw486 => k0_hw486
@[reducible] def k0_t22_loop : Scf.Loop 32 :=
  let c0_i32_659 : BitVec 32 := 0#32
  let c25_i32_660 : BitVec 32 := 25#32
  let v1342 : BitVec 32 := Scalar.addi c0_i32_659 c25_i32_660
  let c1_i32_661 : BitVec 32 := 1#32
  ⟨c0_i32_659, v1342, c1_i32_661⟩

def k0_chk487 (v1333 : IVec S16 32) (arg10 : IVec S16 32) : Prop :=
  (∀ a x, ((![v1333, arg10] : Fin 2 → IVec S16 32) a x).toNat < S128x200.size a)
instance k0_chk487.dec : ∀ (v1333 : IVec S16 32) (arg10 : IVec S16 32), Decidable (k0_chk487 v1333 arg10) := fun v1333 arg10 => decidable_of_iff' _ (Iff.of_eq (k0_chk487.eq_1 v1333 arg10))
theorem k0_idx487_inb : ∀ (v1333 : IVec S16 32) (arg10 : IVec S16 32) (k0_hw487 : k0_chk487 v1333 arg10), ∀ a x, ((![v1333, arg10] : Fin 2 → IVec S16 32) a x).toNat < S128x200.size a := fun v1333 arg10 k0_hw487 => k0_hw487

def k0_chk488 (v2027 : IVec S16 32) : Prop :=
  (∀ a x, ((![v2027] : Fin 1 → IVec S16 32) a x).toNat < S32.size a)
instance k0_chk488.dec : ∀ (v2027 : IVec S16 32), Decidable (k0_chk488 v2027) := fun v2027 => decidable_of_iff' _ (Iff.of_eq (k0_chk488.eq_1 v2027))
theorem k0_idx488_inb : ∀ (v2027 : IVec S16 32) (k0_hw488 : k0_chk488 v2027), ∀ a x, ((![v2027] : Fin 1 → IVec S16 32) a x).toNat < S32.size a := fun v2027 k0_hw488 => k0_hw488

def k0_chk489 (v1333 : IVec S16 32) (v2039 : IVec S16 32) : Prop :=
  (∀ a x, ((![v1333, v2039] : Fin 2 → IVec S16 32) a x).toNat < S128x200.size a)
instance k0_chk489.dec : ∀ (v1333 : IVec S16 32) (v2039 : IVec S16 32), Decidable (k0_chk489 v1333 v2039) := fun v1333 v2039 => decidable_of_iff' _ (Iff.of_eq (k0_chk489.eq_1 v1333 v2039))
theorem k0_idx489_inb : ∀ (v1333 : IVec S16 32) (v2039 : IVec S16 32) (k0_hw489 : k0_chk489 v1333 v2039), ∀ a x, ((![v1333, v2039] : Fin 2 → IVec S16 32) a x).toNat < S128x200.size a := fun v1333 v2039 k0_hw489 => k0_hw489

def k0_chk490 (v2040 : IVec S16 32) : Prop :=
  (∀ a x, ((![v2040] : Fin 1 → IVec S16 32) a x).toNat < S32.size a)
instance k0_chk490.dec : ∀ (v2040 : IVec S16 32), Decidable (k0_chk490 v2040) := fun v2040 => decidable_of_iff' _ (Iff.of_eq (k0_chk490.eq_1 v2040))
theorem k0_idx490_inb : ∀ (v2040 : IVec S16 32) (k0_hw490 : k0_chk490 v2040), ∀ a x, ((![v2040] : Fin 1 → IVec S16 32) a x).toNat < S32.size a := fun v2040 k0_hw490 => k0_hw490

def k0_chk491 (v1333 : IVec S16 32) (v2052 : IVec S16 32) : Prop :=
  (∀ a x, ((![v1333, v2052] : Fin 2 → IVec S16 32) a x).toNat < S128x200.size a)
instance k0_chk491.dec : ∀ (v1333 : IVec S16 32) (v2052 : IVec S16 32), Decidable (k0_chk491 v1333 v2052) := fun v1333 v2052 => decidable_of_iff' _ (Iff.of_eq (k0_chk491.eq_1 v1333 v2052))
theorem k0_idx491_inb : ∀ (v1333 : IVec S16 32) (v2052 : IVec S16 32) (k0_hw491 : k0_chk491 v1333 v2052), ∀ a x, ((![v1333, v2052] : Fin 2 → IVec S16 32) a x).toNat < S128x200.size a := fun v1333 v2052 k0_hw491 => k0_hw491

def k0_chk492 (v2053 : IVec S16 32) : Prop :=
  (∀ a x, ((![v2053] : Fin 1 → IVec S16 32) a x).toNat < S32.size a)
instance k0_chk492.dec : ∀ (v2053 : IVec S16 32), Decidable (k0_chk492 v2053) := fun v2053 => decidable_of_iff' _ (Iff.of_eq (k0_chk492.eq_1 v2053))
theorem k0_idx492_inb : ∀ (v2053 : IVec S16 32) (k0_hw492 : k0_chk492 v2053), ∀ a x, ((![v2053] : Fin 1 → IVec S16 32) a x).toNat < S32.size a := fun v2053 k0_hw492 => k0_hw492

def k0_chk493 (v1333 : IVec S16 32) (v2065 : IVec S16 32) : Prop :=
  (∀ a x, ((![v1333, v2065] : Fin 2 → IVec S16 32) a x).toNat < S128x200.size a)
instance k0_chk493.dec : ∀ (v1333 : IVec S16 32) (v2065 : IVec S16 32), Decidable (k0_chk493 v1333 v2065) := fun v1333 v2065 => decidable_of_iff' _ (Iff.of_eq (k0_chk493.eq_1 v1333 v2065))
theorem k0_idx493_inb : ∀ (v1333 : IVec S16 32) (v2065 : IVec S16 32) (k0_hw493 : k0_chk493 v1333 v2065), ∀ a x, ((![v1333, v2065] : Fin 2 → IVec S16 32) a x).toNat < S128x200.size a := fun v1333 v2065 k0_hw493 => k0_hw493

def k0_chk494 (v2066 : IVec S16 32) : Prop :=
  (∀ a x, ((![v2066] : Fin 1 → IVec S16 32) a x).toNat < S32.size a)
instance k0_chk494.dec : ∀ (v2066 : IVec S16 32), Decidable (k0_chk494 v2066) := fun v2066 => decidable_of_iff' _ (Iff.of_eq (k0_chk494.eq_1 v2066))
theorem k0_idx494_inb : ∀ (v2066 : IVec S16 32) (k0_hw494 : k0_chk494 v2066), ∀ a x, ((![v2066] : Fin 1 → IVec S16 32) a x).toNat < S32.size a := fun v2066 k0_hw494 => k0_hw494

def k0_chk495 (v1333 : IVec S16 32) (v2078 : IVec S16 32) : Prop :=
  (∀ a x, ((![v1333, v2078] : Fin 2 → IVec S16 32) a x).toNat < S128x200.size a)
instance k0_chk495.dec : ∀ (v1333 : IVec S16 32) (v2078 : IVec S16 32), Decidable (k0_chk495 v1333 v2078) := fun v1333 v2078 => decidable_of_iff' _ (Iff.of_eq (k0_chk495.eq_1 v1333 v2078))
theorem k0_idx495_inb : ∀ (v1333 : IVec S16 32) (v2078 : IVec S16 32) (k0_hw495 : k0_chk495 v1333 v2078), ∀ a x, ((![v1333, v2078] : Fin 2 → IVec S16 32) a x).toNat < S128x200.size a := fun v1333 v2078 k0_hw495 => k0_hw495

def k0_chk496 (v2079 : IVec S16 32) : Prop :=
  (∀ a x, ((![v2079] : Fin 1 → IVec S16 32) a x).toNat < S32.size a)
instance k0_chk496.dec : ∀ (v2079 : IVec S16 32), Decidable (k0_chk496 v2079) := fun v2079 => decidable_of_iff' _ (Iff.of_eq (k0_chk496.eq_1 v2079))
theorem k0_idx496_inb : ∀ (v2079 : IVec S16 32) (k0_hw496 : k0_chk496 v2079), ∀ a x, ((![v2079] : Fin 1 → IVec S16 32) a x).toNat < S32.size a := fun v2079 k0_hw496 => k0_hw496

def k0_chk497 (v1333 : IVec S16 32) (v2091 : IVec S16 32) : Prop :=
  (∀ a x, ((![v1333, v2091] : Fin 2 → IVec S16 32) a x).toNat < S128x200.size a)
instance k0_chk497.dec : ∀ (v1333 : IVec S16 32) (v2091 : IVec S16 32), Decidable (k0_chk497 v1333 v2091) := fun v1333 v2091 => decidable_of_iff' _ (Iff.of_eq (k0_chk497.eq_1 v1333 v2091))
theorem k0_idx497_inb : ∀ (v1333 : IVec S16 32) (v2091 : IVec S16 32) (k0_hw497 : k0_chk497 v1333 v2091), ∀ a x, ((![v1333, v2091] : Fin 2 → IVec S16 32) a x).toNat < S128x200.size a := fun v1333 v2091 k0_hw497 => k0_hw497

def k0_chk498 (v2092 : IVec S16 32) : Prop :=
  (∀ a x, ((![v2092] : Fin 1 → IVec S16 32) a x).toNat < S32.size a)
instance k0_chk498.dec : ∀ (v2092 : IVec S16 32), Decidable (k0_chk498 v2092) := fun v2092 => decidable_of_iff' _ (Iff.of_eq (k0_chk498.eq_1 v2092))
theorem k0_idx498_inb : ∀ (v2092 : IVec S16 32) (k0_hw498 : k0_chk498 v2092), ∀ a x, ((![v2092] : Fin 1 → IVec S16 32) a x).toNat < S32.size a := fun v2092 k0_hw498 => k0_hw498

def k0_chk499 (v1333 : IVec S16 32) (v2104 : IVec S16 32) : Prop :=
  (∀ a x, ((![v1333, v2104] : Fin 2 → IVec S16 32) a x).toNat < S128x200.size a)
instance k0_chk499.dec : ∀ (v1333 : IVec S16 32) (v2104 : IVec S16 32), Decidable (k0_chk499 v1333 v2104) := fun v1333 v2104 => decidable_of_iff' _ (Iff.of_eq (k0_chk499.eq_1 v1333 v2104))
theorem k0_idx499_inb : ∀ (v1333 : IVec S16 32) (v2104 : IVec S16 32) (k0_hw499 : k0_chk499 v1333 v2104), ∀ a x, ((![v1333, v2104] : Fin 2 → IVec S16 32) a x).toNat < S128x200.size a := fun v1333 v2104 k0_hw499 => k0_hw499

def k0_chk500 (v2105 : IVec S16 32) : Prop :=
  (∀ a x, ((![v2105] : Fin 1 → IVec S16 32) a x).toNat < S32.size a)
instance k0_chk500.dec : ∀ (v2105 : IVec S16 32), Decidable (k0_chk500 v2105) := fun v2105 => decidable_of_iff' _ (Iff.of_eq (k0_chk500.eq_1 v2105))
theorem k0_idx500_inb : ∀ (v2105 : IVec S16 32) (k0_hw500 : k0_chk500 v2105), ∀ a x, ((![v2105] : Fin 1 → IVec S16 32) a x).toNat < S32.size a := fun v2105 k0_hw500 => k0_hw500

def k0_chk501 (v1333 : IVec S16 32) (v2117 : IVec S16 32) : Prop :=
  (∀ a x, ((![v1333, v2117] : Fin 2 → IVec S16 32) a x).toNat < S128x200.size a)
instance k0_chk501.dec : ∀ (v1333 : IVec S16 32) (v2117 : IVec S16 32), Decidable (k0_chk501 v1333 v2117) := fun v1333 v2117 => decidable_of_iff' _ (Iff.of_eq (k0_chk501.eq_1 v1333 v2117))
theorem k0_idx501_inb : ∀ (v1333 : IVec S16 32) (v2117 : IVec S16 32) (k0_hw501 : k0_chk501 v1333 v2117), ∀ a x, ((![v1333, v2117] : Fin 2 → IVec S16 32) a x).toNat < S128x200.size a := fun v1333 v2117 k0_hw501 => k0_hw501

def k0_chk502 (v2118 : IVec S16 32) : Prop :=
  (∀ a x, ((![v2118] : Fin 1 → IVec S16 32) a x).toNat < S32.size a)
instance k0_chk502.dec : ∀ (v2118 : IVec S16 32), Decidable (k0_chk502 v2118) := fun v2118 => decidable_of_iff' _ (Iff.of_eq (k0_chk502.eq_1 v2118))
theorem k0_idx502_inb : ∀ (v2118 : IVec S16 32) (k0_hw502 : k0_chk502 v2118), ∀ a x, ((![v2118] : Fin 1 → IVec S16 32) a x).toNat < S32.size a := fun v2118 k0_hw502 => k0_hw502

def k0_chk503 (v1333 : IVec S16 32) (v1392 : IVec S16 32) : Prop :=
  (∀ a x, ((![v1333, v1392] : Fin 2 → IVec S16 32) a x).toNat < S128x32.size a)
instance k0_chk503.dec : ∀ (v1333 : IVec S16 32) (v1392 : IVec S16 32), Decidable (k0_chk503 v1333 v1392) := fun v1333 v1392 => decidable_of_iff' _ (Iff.of_eq (k0_chk503.eq_1 v1333 v1392))
theorem k0_idx503_inb : ∀ (v1333 : IVec S16 32) (v1392 : IVec S16 32) (k0_hw503 : k0_chk503 v1333 v1392), ∀ a x, ((![v1333, v1392] : Fin 2 → IVec S16 32) a x).toNat < S128x32.size a := fun v1333 v1392 k0_hw503 => k0_hw503

def k0_chk504 (v1333 : IVec S16 32) (v1335 : IVec S16 32) : Prop :=
  (∀ a x, ((![v1333, v1335] : Fin 2 → IVec S16 32) a x).toNat < S128x32.size a)
instance k0_chk504.dec : ∀ (v1333 : IVec S16 32) (v1335 : IVec S16 32), Decidable (k0_chk504 v1333 v1335) := fun v1333 v1335 => decidable_of_iff' _ (Iff.of_eq (k0_chk504.eq_1 v1333 v1335))
theorem k0_idx504_inb : ∀ (v1333 : IVec S16 32) (v1335 : IVec S16 32) (k0_hw504 : k0_chk504 v1333 v1335), ∀ a x, ((![v1333, v1335] : Fin 2 → IVec S16 32) a x).toNat < S128x32.size a := fun v1333 v1335 k0_hw504 => k0_hw504

def k0_chk505 (v1333 : IVec S16 32) (v1393 : IVec S16 32) : Prop :=
  (∀ a x, ((![v1333, v1393] : Fin 2 → IVec S16 32) a x).toNat < S128x32.size a)
instance k0_chk505.dec : ∀ (v1333 : IVec S16 32) (v1393 : IVec S16 32), Decidable (k0_chk505 v1333 v1393) := fun v1333 v1393 => decidable_of_iff' _ (Iff.of_eq (k0_chk505.eq_1 v1333 v1393))
theorem k0_idx505_inb : ∀ (v1333 : IVec S16 32) (v1393 : IVec S16 32) (k0_hw505 : k0_chk505 v1333 v1393), ∀ a x, ((![v1333, v1393] : Fin 2 → IVec S16 32) a x).toNat < S128x32.size a := fun v1333 v1393 k0_hw505 => k0_hw505

def k0_chk506 (v1333 : IVec S16 32) (v1394 : IVec S16 32) : Prop :=
  (∀ a x, ((![v1333, v1394] : Fin 2 → IVec S16 32) a x).toNat < S128x32.size a)
instance k0_chk506.dec : ∀ (v1333 : IVec S16 32) (v1394 : IVec S16 32), Decidable (k0_chk506 v1333 v1394) := fun v1333 v1394 => decidable_of_iff' _ (Iff.of_eq (k0_chk506.eq_1 v1333 v1394))
theorem k0_idx506_inb : ∀ (v1333 : IVec S16 32) (v1394 : IVec S16 32) (k0_hw506 : k0_chk506 v1333 v1394), ∀ a x, ((![v1333, v1394] : Fin 2 → IVec S16 32) a x).toNat < S128x32.size a := fun v1333 v1394 k0_hw506 => k0_hw506

def k0_chk507 (v1396 : IVec S16 32) (v1397 : IVec S16 32) : Prop :=
  (∀ a x, ((![v1396, v1397] : Fin 2 → IVec S16 32) a x).toNat < S128x200.size a)
instance k0_chk507.dec : ∀ (v1396 : IVec S16 32) (v1397 : IVec S16 32), Decidable (k0_chk507 v1396 v1397) := fun v1396 v1397 => decidable_of_iff' _ (Iff.of_eq (k0_chk507.eq_1 v1396 v1397))
theorem k0_idx507_inb : ∀ (v1396 : IVec S16 32) (v1397 : IVec S16 32) (k0_hw507 : k0_chk507 v1396 v1397), ∀ a x, ((![v1396, v1397] : Fin 2 → IVec S16 32) a x).toNat < S128x200.size a := fun v1396 v1397 k0_hw507 => k0_hw507

def k0_chk508 (v1396 : IVec S16 32) (v1399 : IVec S16 32) : Prop :=
  (∀ a x, ((![v1396, v1399] : Fin 2 → IVec S16 32) a x).toNat < S128x200.size a)
instance k0_chk508.dec : ∀ (v1396 : IVec S16 32) (v1399 : IVec S16 32), Decidable (k0_chk508 v1396 v1399) := fun v1396 v1399 => decidable_of_iff' _ (Iff.of_eq (k0_chk508.eq_1 v1396 v1399))
theorem k0_idx508_inb : ∀ (v1396 : IVec S16 32) (v1399 : IVec S16 32) (k0_hw508 : k0_chk508 v1396 v1399), ∀ a x, ((![v1396, v1399] : Fin 2 → IVec S16 32) a x).toNat < S128x200.size a := fun v1396 v1399 k0_hw508 => k0_hw508

def k0_chk509 (v1396 : IVec S16 32) (v1401 : IVec S16 32) : Prop :=
  (∀ a x, ((![v1396, v1401] : Fin 2 → IVec S16 32) a x).toNat < S128x200.size a)
instance k0_chk509.dec : ∀ (v1396 : IVec S16 32) (v1401 : IVec S16 32), Decidable (k0_chk509 v1396 v1401) := fun v1396 v1401 => decidable_of_iff' _ (Iff.of_eq (k0_chk509.eq_1 v1396 v1401))
theorem k0_idx509_inb : ∀ (v1396 : IVec S16 32) (v1401 : IVec S16 32) (k0_hw509 : k0_chk509 v1396 v1401), ∀ a x, ((![v1396, v1401] : Fin 2 → IVec S16 32) a x).toNat < S128x200.size a := fun v1396 v1401 k0_hw509 => k0_hw509
@[reducible] def k0_t23_loop : Scf.Loop 32 :=
  let c0_i32_691 : BitVec 32 := 0#32
  let c25_i32_692 : BitVec 32 := 25#32
  let v1405 : BitVec 32 := Scalar.addi c0_i32_691 c25_i32_692
  let c1_i32_693 : BitVec 32 := 1#32
  ⟨c0_i32_691, v1405, c1_i32_693⟩

def k0_chk510 (v1396 : IVec S16 32) (arg10 : IVec S16 32) : Prop :=
  (∀ a x, ((![v1396, arg10] : Fin 2 → IVec S16 32) a x).toNat < S128x200.size a)
instance k0_chk510.dec : ∀ (v1396 : IVec S16 32) (arg10 : IVec S16 32), Decidable (k0_chk510 v1396 arg10) := fun v1396 arg10 => decidable_of_iff' _ (Iff.of_eq (k0_chk510.eq_1 v1396 arg10))
theorem k0_idx510_inb : ∀ (v1396 : IVec S16 32) (arg10 : IVec S16 32) (k0_hw510 : k0_chk510 v1396 arg10), ∀ a x, ((![v1396, arg10] : Fin 2 → IVec S16 32) a x).toNat < S128x200.size a := fun v1396 arg10 k0_hw510 => k0_hw510

def k0_chk511 (v2027 : IVec S16 32) : Prop :=
  (∀ a x, ((![v2027] : Fin 1 → IVec S16 32) a x).toNat < S32.size a)
instance k0_chk511.dec : ∀ (v2027 : IVec S16 32), Decidable (k0_chk511 v2027) := fun v2027 => decidable_of_iff' _ (Iff.of_eq (k0_chk511.eq_1 v2027))
theorem k0_idx511_inb : ∀ (v2027 : IVec S16 32) (k0_hw511 : k0_chk511 v2027), ∀ a x, ((![v2027] : Fin 1 → IVec S16 32) a x).toNat < S32.size a := fun v2027 k0_hw511 => k0_hw511

def k0_chk512 (v1396 : IVec S16 32) (v2039 : IVec S16 32) : Prop :=
  (∀ a x, ((![v1396, v2039] : Fin 2 → IVec S16 32) a x).toNat < S128x200.size a)
instance k0_chk512.dec : ∀ (v1396 : IVec S16 32) (v2039 : IVec S16 32), Decidable (k0_chk512 v1396 v2039) := fun v1396 v2039 => decidable_of_iff' _ (Iff.of_eq (k0_chk512.eq_1 v1396 v2039))
theorem k0_idx512_inb : ∀ (v1396 : IVec S16 32) (v2039 : IVec S16 32) (k0_hw512 : k0_chk512 v1396 v2039), ∀ a x, ((![v1396, v2039] : Fin 2 → IVec S16 32) a x).toNat < S128x200.size a := fun v1396 v2039 k0_hw512 => k0_hw512

def k0_chk513 (v2040 : IVec S16 32) : Prop :=
  (∀ a x, ((![v2040] : Fin 1 → IVec S16 32) a x).toNat < S32.size a)
instance k0_chk513.dec : ∀ (v2040 : IVec S16 32), Decidable (k0_chk513 v2040) := fun v2040 => decidable_of_iff' _ (Iff.of_eq (k0_chk513.eq_1 v2040))
theorem k0_idx513_inb : ∀ (v2040 : IVec S16 32) (k0_hw513 : k0_chk513 v2040), ∀ a x, ((![v2040] : Fin 1 → IVec S16 32) a x).toNat < S32.size a := fun v2040 k0_hw513 => k0_hw513

def k0_chk514 (v1396 : IVec S16 32) (v2052 : IVec S16 32) : Prop :=
  (∀ a x, ((![v1396, v2052] : Fin 2 → IVec S16 32) a x).toNat < S128x200.size a)
instance k0_chk514.dec : ∀ (v1396 : IVec S16 32) (v2052 : IVec S16 32), Decidable (k0_chk514 v1396 v2052) := fun v1396 v2052 => decidable_of_iff' _ (Iff.of_eq (k0_chk514.eq_1 v1396 v2052))
theorem k0_idx514_inb : ∀ (v1396 : IVec S16 32) (v2052 : IVec S16 32) (k0_hw514 : k0_chk514 v1396 v2052), ∀ a x, ((![v1396, v2052] : Fin 2 → IVec S16 32) a x).toNat < S128x200.size a := fun v1396 v2052 k0_hw514 => k0_hw514

def k0_chk515 (v2053 : IVec S16 32) : Prop :=
  (∀ a x, ((![v2053] : Fin 1 → IVec S16 32) a x).toNat < S32.size a)
instance k0_chk515.dec : ∀ (v2053 : IVec S16 32), Decidable (k0_chk515 v2053) := fun v2053 => decidable_of_iff' _ (Iff.of_eq (k0_chk515.eq_1 v2053))
theorem k0_idx515_inb : ∀ (v2053 : IVec S16 32) (k0_hw515 : k0_chk515 v2053), ∀ a x, ((![v2053] : Fin 1 → IVec S16 32) a x).toNat < S32.size a := fun v2053 k0_hw515 => k0_hw515

def k0_chk516 (v1396 : IVec S16 32) (v2065 : IVec S16 32) : Prop :=
  (∀ a x, ((![v1396, v2065] : Fin 2 → IVec S16 32) a x).toNat < S128x200.size a)
instance k0_chk516.dec : ∀ (v1396 : IVec S16 32) (v2065 : IVec S16 32), Decidable (k0_chk516 v1396 v2065) := fun v1396 v2065 => decidable_of_iff' _ (Iff.of_eq (k0_chk516.eq_1 v1396 v2065))
theorem k0_idx516_inb : ∀ (v1396 : IVec S16 32) (v2065 : IVec S16 32) (k0_hw516 : k0_chk516 v1396 v2065), ∀ a x, ((![v1396, v2065] : Fin 2 → IVec S16 32) a x).toNat < S128x200.size a := fun v1396 v2065 k0_hw516 => k0_hw516

def k0_chk517 (v2066 : IVec S16 32) : Prop :=
  (∀ a x, ((![v2066] : Fin 1 → IVec S16 32) a x).toNat < S32.size a)
instance k0_chk517.dec : ∀ (v2066 : IVec S16 32), Decidable (k0_chk517 v2066) := fun v2066 => decidable_of_iff' _ (Iff.of_eq (k0_chk517.eq_1 v2066))
theorem k0_idx517_inb : ∀ (v2066 : IVec S16 32) (k0_hw517 : k0_chk517 v2066), ∀ a x, ((![v2066] : Fin 1 → IVec S16 32) a x).toNat < S32.size a := fun v2066 k0_hw517 => k0_hw517

def k0_chk518 (v1396 : IVec S16 32) (v2078 : IVec S16 32) : Prop :=
  (∀ a x, ((![v1396, v2078] : Fin 2 → IVec S16 32) a x).toNat < S128x200.size a)
instance k0_chk518.dec : ∀ (v1396 : IVec S16 32) (v2078 : IVec S16 32), Decidable (k0_chk518 v1396 v2078) := fun v1396 v2078 => decidable_of_iff' _ (Iff.of_eq (k0_chk518.eq_1 v1396 v2078))
theorem k0_idx518_inb : ∀ (v1396 : IVec S16 32) (v2078 : IVec S16 32) (k0_hw518 : k0_chk518 v1396 v2078), ∀ a x, ((![v1396, v2078] : Fin 2 → IVec S16 32) a x).toNat < S128x200.size a := fun v1396 v2078 k0_hw518 => k0_hw518

def k0_chk519 (v2079 : IVec S16 32) : Prop :=
  (∀ a x, ((![v2079] : Fin 1 → IVec S16 32) a x).toNat < S32.size a)
instance k0_chk519.dec : ∀ (v2079 : IVec S16 32), Decidable (k0_chk519 v2079) := fun v2079 => decidable_of_iff' _ (Iff.of_eq (k0_chk519.eq_1 v2079))
theorem k0_idx519_inb : ∀ (v2079 : IVec S16 32) (k0_hw519 : k0_chk519 v2079), ∀ a x, ((![v2079] : Fin 1 → IVec S16 32) a x).toNat < S32.size a := fun v2079 k0_hw519 => k0_hw519

def k0_chk520 (v1396 : IVec S16 32) (v2091 : IVec S16 32) : Prop :=
  (∀ a x, ((![v1396, v2091] : Fin 2 → IVec S16 32) a x).toNat < S128x200.size a)
instance k0_chk520.dec : ∀ (v1396 : IVec S16 32) (v2091 : IVec S16 32), Decidable (k0_chk520 v1396 v2091) := fun v1396 v2091 => decidable_of_iff' _ (Iff.of_eq (k0_chk520.eq_1 v1396 v2091))
theorem k0_idx520_inb : ∀ (v1396 : IVec S16 32) (v2091 : IVec S16 32) (k0_hw520 : k0_chk520 v1396 v2091), ∀ a x, ((![v1396, v2091] : Fin 2 → IVec S16 32) a x).toNat < S128x200.size a := fun v1396 v2091 k0_hw520 => k0_hw520

def k0_chk521 (v2092 : IVec S16 32) : Prop :=
  (∀ a x, ((![v2092] : Fin 1 → IVec S16 32) a x).toNat < S32.size a)
instance k0_chk521.dec : ∀ (v2092 : IVec S16 32), Decidable (k0_chk521 v2092) := fun v2092 => decidable_of_iff' _ (Iff.of_eq (k0_chk521.eq_1 v2092))
theorem k0_idx521_inb : ∀ (v2092 : IVec S16 32) (k0_hw521 : k0_chk521 v2092), ∀ a x, ((![v2092] : Fin 1 → IVec S16 32) a x).toNat < S32.size a := fun v2092 k0_hw521 => k0_hw521

def k0_chk522 (v1396 : IVec S16 32) (v2104 : IVec S16 32) : Prop :=
  (∀ a x, ((![v1396, v2104] : Fin 2 → IVec S16 32) a x).toNat < S128x200.size a)
instance k0_chk522.dec : ∀ (v1396 : IVec S16 32) (v2104 : IVec S16 32), Decidable (k0_chk522 v1396 v2104) := fun v1396 v2104 => decidable_of_iff' _ (Iff.of_eq (k0_chk522.eq_1 v1396 v2104))
theorem k0_idx522_inb : ∀ (v1396 : IVec S16 32) (v2104 : IVec S16 32) (k0_hw522 : k0_chk522 v1396 v2104), ∀ a x, ((![v1396, v2104] : Fin 2 → IVec S16 32) a x).toNat < S128x200.size a := fun v1396 v2104 k0_hw522 => k0_hw522

def k0_chk523 (v2105 : IVec S16 32) : Prop :=
  (∀ a x, ((![v2105] : Fin 1 → IVec S16 32) a x).toNat < S32.size a)
instance k0_chk523.dec : ∀ (v2105 : IVec S16 32), Decidable (k0_chk523 v2105) := fun v2105 => decidable_of_iff' _ (Iff.of_eq (k0_chk523.eq_1 v2105))
theorem k0_idx523_inb : ∀ (v2105 : IVec S16 32) (k0_hw523 : k0_chk523 v2105), ∀ a x, ((![v2105] : Fin 1 → IVec S16 32) a x).toNat < S32.size a := fun v2105 k0_hw523 => k0_hw523

def k0_chk524 (v1396 : IVec S16 32) (v2117 : IVec S16 32) : Prop :=
  (∀ a x, ((![v1396, v2117] : Fin 2 → IVec S16 32) a x).toNat < S128x200.size a)
instance k0_chk524.dec : ∀ (v1396 : IVec S16 32) (v2117 : IVec S16 32), Decidable (k0_chk524 v1396 v2117) := fun v1396 v2117 => decidable_of_iff' _ (Iff.of_eq (k0_chk524.eq_1 v1396 v2117))
theorem k0_idx524_inb : ∀ (v1396 : IVec S16 32) (v2117 : IVec S16 32) (k0_hw524 : k0_chk524 v1396 v2117), ∀ a x, ((![v1396, v2117] : Fin 2 → IVec S16 32) a x).toNat < S128x200.size a := fun v1396 v2117 k0_hw524 => k0_hw524

def k0_chk525 (v2118 : IVec S16 32) : Prop :=
  (∀ a x, ((![v2118] : Fin 1 → IVec S16 32) a x).toNat < S32.size a)
instance k0_chk525.dec : ∀ (v2118 : IVec S16 32), Decidable (k0_chk525 v2118) := fun v2118 => decidable_of_iff' _ (Iff.of_eq (k0_chk525.eq_1 v2118))
theorem k0_idx525_inb : ∀ (v2118 : IVec S16 32) (k0_hw525 : k0_chk525 v2118), ∀ a x, ((![v2118] : Fin 1 → IVec S16 32) a x).toNat < S32.size a := fun v2118 k0_hw525 => k0_hw525

def k0_chk526 (v1396 : IVec S16 32) (v1455 : IVec S16 32) : Prop :=
  (∀ a x, ((![v1396, v1455] : Fin 2 → IVec S16 32) a x).toNat < S128x32.size a)
instance k0_chk526.dec : ∀ (v1396 : IVec S16 32) (v1455 : IVec S16 32), Decidable (k0_chk526 v1396 v1455) := fun v1396 v1455 => decidable_of_iff' _ (Iff.of_eq (k0_chk526.eq_1 v1396 v1455))
theorem k0_idx526_inb : ∀ (v1396 : IVec S16 32) (v1455 : IVec S16 32) (k0_hw526 : k0_chk526 v1396 v1455), ∀ a x, ((![v1396, v1455] : Fin 2 → IVec S16 32) a x).toNat < S128x32.size a := fun v1396 v1455 k0_hw526 => k0_hw526

def k0_chk527 (v1396 : IVec S16 32) (v1398 : IVec S16 32) : Prop :=
  (∀ a x, ((![v1396, v1398] : Fin 2 → IVec S16 32) a x).toNat < S128x32.size a)
instance k0_chk527.dec : ∀ (v1396 : IVec S16 32) (v1398 : IVec S16 32), Decidable (k0_chk527 v1396 v1398) := fun v1396 v1398 => decidable_of_iff' _ (Iff.of_eq (k0_chk527.eq_1 v1396 v1398))
theorem k0_idx527_inb : ∀ (v1396 : IVec S16 32) (v1398 : IVec S16 32) (k0_hw527 : k0_chk527 v1396 v1398), ∀ a x, ((![v1396, v1398] : Fin 2 → IVec S16 32) a x).toNat < S128x32.size a := fun v1396 v1398 k0_hw527 => k0_hw527

def k0_chk528 (v1396 : IVec S16 32) (v1456 : IVec S16 32) : Prop :=
  (∀ a x, ((![v1396, v1456] : Fin 2 → IVec S16 32) a x).toNat < S128x32.size a)
instance k0_chk528.dec : ∀ (v1396 : IVec S16 32) (v1456 : IVec S16 32), Decidable (k0_chk528 v1396 v1456) := fun v1396 v1456 => decidable_of_iff' _ (Iff.of_eq (k0_chk528.eq_1 v1396 v1456))
theorem k0_idx528_inb : ∀ (v1396 : IVec S16 32) (v1456 : IVec S16 32) (k0_hw528 : k0_chk528 v1396 v1456), ∀ a x, ((![v1396, v1456] : Fin 2 → IVec S16 32) a x).toNat < S128x32.size a := fun v1396 v1456 k0_hw528 => k0_hw528

def k0_chk529 (v1396 : IVec S16 32) (v1457 : IVec S16 32) : Prop :=
  (∀ a x, ((![v1396, v1457] : Fin 2 → IVec S16 32) a x).toNat < S128x32.size a)
instance k0_chk529.dec : ∀ (v1396 : IVec S16 32) (v1457 : IVec S16 32), Decidable (k0_chk529 v1396 v1457) := fun v1396 v1457 => decidable_of_iff' _ (Iff.of_eq (k0_chk529.eq_1 v1396 v1457))
theorem k0_idx529_inb : ∀ (v1396 : IVec S16 32) (v1457 : IVec S16 32) (k0_hw529 : k0_chk529 v1396 v1457), ∀ a x, ((![v1396, v1457] : Fin 2 → IVec S16 32) a x).toNat < S128x32.size a := fun v1396 v1457 k0_hw529 => k0_hw529

def k0_chk530 (v1459 : IVec S16 32) (v1460 : IVec S16 32) : Prop :=
  (∀ a x, ((![v1459, v1460] : Fin 2 → IVec S16 32) a x).toNat < S128x200.size a)
instance k0_chk530.dec : ∀ (v1459 : IVec S16 32) (v1460 : IVec S16 32), Decidable (k0_chk530 v1459 v1460) := fun v1459 v1460 => decidable_of_iff' _ (Iff.of_eq (k0_chk530.eq_1 v1459 v1460))
theorem k0_idx530_inb : ∀ (v1459 : IVec S16 32) (v1460 : IVec S16 32) (k0_hw530 : k0_chk530 v1459 v1460), ∀ a x, ((![v1459, v1460] : Fin 2 → IVec S16 32) a x).toNat < S128x200.size a := fun v1459 v1460 k0_hw530 => k0_hw530

def k0_chk531 (v1459 : IVec S16 32) (v1462 : IVec S16 32) : Prop :=
  (∀ a x, ((![v1459, v1462] : Fin 2 → IVec S16 32) a x).toNat < S128x200.size a)
instance k0_chk531.dec : ∀ (v1459 : IVec S16 32) (v1462 : IVec S16 32), Decidable (k0_chk531 v1459 v1462) := fun v1459 v1462 => decidable_of_iff' _ (Iff.of_eq (k0_chk531.eq_1 v1459 v1462))
theorem k0_idx531_inb : ∀ (v1459 : IVec S16 32) (v1462 : IVec S16 32) (k0_hw531 : k0_chk531 v1459 v1462), ∀ a x, ((![v1459, v1462] : Fin 2 → IVec S16 32) a x).toNat < S128x200.size a := fun v1459 v1462 k0_hw531 => k0_hw531

def k0_chk532 (v1459 : IVec S16 32) (v1464 : IVec S16 32) : Prop :=
  (∀ a x, ((![v1459, v1464] : Fin 2 → IVec S16 32) a x).toNat < S128x200.size a)
instance k0_chk532.dec : ∀ (v1459 : IVec S16 32) (v1464 : IVec S16 32), Decidable (k0_chk532 v1459 v1464) := fun v1459 v1464 => decidable_of_iff' _ (Iff.of_eq (k0_chk532.eq_1 v1459 v1464))
theorem k0_idx532_inb : ∀ (v1459 : IVec S16 32) (v1464 : IVec S16 32) (k0_hw532 : k0_chk532 v1459 v1464), ∀ a x, ((![v1459, v1464] : Fin 2 → IVec S16 32) a x).toNat < S128x200.size a := fun v1459 v1464 k0_hw532 => k0_hw532
@[reducible] def k0_t24_loop : Scf.Loop 32 :=
  let c0_i32_723 : BitVec 32 := 0#32
  let c25_i32_724 : BitVec 32 := 25#32
  let v1468 : BitVec 32 := Scalar.addi c0_i32_723 c25_i32_724
  let c1_i32_725 : BitVec 32 := 1#32
  ⟨c0_i32_723, v1468, c1_i32_725⟩

def k0_chk533 (v1459 : IVec S16 32) (arg10 : IVec S16 32) : Prop :=
  (∀ a x, ((![v1459, arg10] : Fin 2 → IVec S16 32) a x).toNat < S128x200.size a)
instance k0_chk533.dec : ∀ (v1459 : IVec S16 32) (arg10 : IVec S16 32), Decidable (k0_chk533 v1459 arg10) := fun v1459 arg10 => decidable_of_iff' _ (Iff.of_eq (k0_chk533.eq_1 v1459 arg10))
theorem k0_idx533_inb : ∀ (v1459 : IVec S16 32) (arg10 : IVec S16 32) (k0_hw533 : k0_chk533 v1459 arg10), ∀ a x, ((![v1459, arg10] : Fin 2 → IVec S16 32) a x).toNat < S128x200.size a := fun v1459 arg10 k0_hw533 => k0_hw533

def k0_chk534 (v2027 : IVec S16 32) : Prop :=
  (∀ a x, ((![v2027] : Fin 1 → IVec S16 32) a x).toNat < S32.size a)
instance k0_chk534.dec : ∀ (v2027 : IVec S16 32), Decidable (k0_chk534 v2027) := fun v2027 => decidable_of_iff' _ (Iff.of_eq (k0_chk534.eq_1 v2027))
theorem k0_idx534_inb : ∀ (v2027 : IVec S16 32) (k0_hw534 : k0_chk534 v2027), ∀ a x, ((![v2027] : Fin 1 → IVec S16 32) a x).toNat < S32.size a := fun v2027 k0_hw534 => k0_hw534

def k0_chk535 (v1459 : IVec S16 32) (v2039 : IVec S16 32) : Prop :=
  (∀ a x, ((![v1459, v2039] : Fin 2 → IVec S16 32) a x).toNat < S128x200.size a)
instance k0_chk535.dec : ∀ (v1459 : IVec S16 32) (v2039 : IVec S16 32), Decidable (k0_chk535 v1459 v2039) := fun v1459 v2039 => decidable_of_iff' _ (Iff.of_eq (k0_chk535.eq_1 v1459 v2039))
theorem k0_idx535_inb : ∀ (v1459 : IVec S16 32) (v2039 : IVec S16 32) (k0_hw535 : k0_chk535 v1459 v2039), ∀ a x, ((![v1459, v2039] : Fin 2 → IVec S16 32) a x).toNat < S128x200.size a := fun v1459 v2039 k0_hw535 => k0_hw535

def k0_chk536 (v2040 : IVec S16 32) : Prop :=
  (∀ a x, ((![v2040] : Fin 1 → IVec S16 32) a x).toNat < S32.size a)
instance k0_chk536.dec : ∀ (v2040 : IVec S16 32), Decidable (k0_chk536 v2040) := fun v2040 => decidable_of_iff' _ (Iff.of_eq (k0_chk536.eq_1 v2040))
theorem k0_idx536_inb : ∀ (v2040 : IVec S16 32) (k0_hw536 : k0_chk536 v2040), ∀ a x, ((![v2040] : Fin 1 → IVec S16 32) a x).toNat < S32.size a := fun v2040 k0_hw536 => k0_hw536

def k0_chk537 (v1459 : IVec S16 32) (v2052 : IVec S16 32) : Prop :=
  (∀ a x, ((![v1459, v2052] : Fin 2 → IVec S16 32) a x).toNat < S128x200.size a)
instance k0_chk537.dec : ∀ (v1459 : IVec S16 32) (v2052 : IVec S16 32), Decidable (k0_chk537 v1459 v2052) := fun v1459 v2052 => decidable_of_iff' _ (Iff.of_eq (k0_chk537.eq_1 v1459 v2052))
theorem k0_idx537_inb : ∀ (v1459 : IVec S16 32) (v2052 : IVec S16 32) (k0_hw537 : k0_chk537 v1459 v2052), ∀ a x, ((![v1459, v2052] : Fin 2 → IVec S16 32) a x).toNat < S128x200.size a := fun v1459 v2052 k0_hw537 => k0_hw537

def k0_chk538 (v2053 : IVec S16 32) : Prop :=
  (∀ a x, ((![v2053] : Fin 1 → IVec S16 32) a x).toNat < S32.size a)
instance k0_chk538.dec : ∀ (v2053 : IVec S16 32), Decidable (k0_chk538 v2053) := fun v2053 => decidable_of_iff' _ (Iff.of_eq (k0_chk538.eq_1 v2053))
theorem k0_idx538_inb : ∀ (v2053 : IVec S16 32) (k0_hw538 : k0_chk538 v2053), ∀ a x, ((![v2053] : Fin 1 → IVec S16 32) a x).toNat < S32.size a := fun v2053 k0_hw538 => k0_hw538

def k0_chk539 (v1459 : IVec S16 32) (v2065 : IVec S16 32) : Prop :=
  (∀ a x, ((![v1459, v2065] : Fin 2 → IVec S16 32) a x).toNat < S128x200.size a)
instance k0_chk539.dec : ∀ (v1459 : IVec S16 32) (v2065 : IVec S16 32), Decidable (k0_chk539 v1459 v2065) := fun v1459 v2065 => decidable_of_iff' _ (Iff.of_eq (k0_chk539.eq_1 v1459 v2065))
theorem k0_idx539_inb : ∀ (v1459 : IVec S16 32) (v2065 : IVec S16 32) (k0_hw539 : k0_chk539 v1459 v2065), ∀ a x, ((![v1459, v2065] : Fin 2 → IVec S16 32) a x).toNat < S128x200.size a := fun v1459 v2065 k0_hw539 => k0_hw539

def k0_chk540 (v2066 : IVec S16 32) : Prop :=
  (∀ a x, ((![v2066] : Fin 1 → IVec S16 32) a x).toNat < S32.size a)
instance k0_chk540.dec : ∀ (v2066 : IVec S16 32), Decidable (k0_chk540 v2066) := fun v2066 => decidable_of_iff' _ (Iff.of_eq (k0_chk540.eq_1 v2066))
theorem k0_idx540_inb : ∀ (v2066 : IVec S16 32) (k0_hw540 : k0_chk540 v2066), ∀ a x, ((![v2066] : Fin 1 → IVec S16 32) a x).toNat < S32.size a := fun v2066 k0_hw540 => k0_hw540

def k0_chk541 (v1459 : IVec S16 32) (v2078 : IVec S16 32) : Prop :=
  (∀ a x, ((![v1459, v2078] : Fin 2 → IVec S16 32) a x).toNat < S128x200.size a)
instance k0_chk541.dec : ∀ (v1459 : IVec S16 32) (v2078 : IVec S16 32), Decidable (k0_chk541 v1459 v2078) := fun v1459 v2078 => decidable_of_iff' _ (Iff.of_eq (k0_chk541.eq_1 v1459 v2078))
theorem k0_idx541_inb : ∀ (v1459 : IVec S16 32) (v2078 : IVec S16 32) (k0_hw541 : k0_chk541 v1459 v2078), ∀ a x, ((![v1459, v2078] : Fin 2 → IVec S16 32) a x).toNat < S128x200.size a := fun v1459 v2078 k0_hw541 => k0_hw541

def k0_chk542 (v2079 : IVec S16 32) : Prop :=
  (∀ a x, ((![v2079] : Fin 1 → IVec S16 32) a x).toNat < S32.size a)
instance k0_chk542.dec : ∀ (v2079 : IVec S16 32), Decidable (k0_chk542 v2079) := fun v2079 => decidable_of_iff' _ (Iff.of_eq (k0_chk542.eq_1 v2079))
theorem k0_idx542_inb : ∀ (v2079 : IVec S16 32) (k0_hw542 : k0_chk542 v2079), ∀ a x, ((![v2079] : Fin 1 → IVec S16 32) a x).toNat < S32.size a := fun v2079 k0_hw542 => k0_hw542

def k0_chk543 (v1459 : IVec S16 32) (v2091 : IVec S16 32) : Prop :=
  (∀ a x, ((![v1459, v2091] : Fin 2 → IVec S16 32) a x).toNat < S128x200.size a)
instance k0_chk543.dec : ∀ (v1459 : IVec S16 32) (v2091 : IVec S16 32), Decidable (k0_chk543 v1459 v2091) := fun v1459 v2091 => decidable_of_iff' _ (Iff.of_eq (k0_chk543.eq_1 v1459 v2091))
theorem k0_idx543_inb : ∀ (v1459 : IVec S16 32) (v2091 : IVec S16 32) (k0_hw543 : k0_chk543 v1459 v2091), ∀ a x, ((![v1459, v2091] : Fin 2 → IVec S16 32) a x).toNat < S128x200.size a := fun v1459 v2091 k0_hw543 => k0_hw543

def k0_chk544 (v2092 : IVec S16 32) : Prop :=
  (∀ a x, ((![v2092] : Fin 1 → IVec S16 32) a x).toNat < S32.size a)
instance k0_chk544.dec : ∀ (v2092 : IVec S16 32), Decidable (k0_chk544 v2092) := fun v2092 => decidable_of_iff' _ (Iff.of_eq (k0_chk544.eq_1 v2092))
theorem k0_idx544_inb : ∀ (v2092 : IVec S16 32) (k0_hw544 : k0_chk544 v2092), ∀ a x, ((![v2092] : Fin 1 → IVec S16 32) a x).toNat < S32.size a := fun v2092 k0_hw544 => k0_hw544

def k0_chk545 (v1459 : IVec S16 32) (v2104 : IVec S16 32) : Prop :=
  (∀ a x, ((![v1459, v2104] : Fin 2 → IVec S16 32) a x).toNat < S128x200.size a)
instance k0_chk545.dec : ∀ (v1459 : IVec S16 32) (v2104 : IVec S16 32), Decidable (k0_chk545 v1459 v2104) := fun v1459 v2104 => decidable_of_iff' _ (Iff.of_eq (k0_chk545.eq_1 v1459 v2104))
theorem k0_idx545_inb : ∀ (v1459 : IVec S16 32) (v2104 : IVec S16 32) (k0_hw545 : k0_chk545 v1459 v2104), ∀ a x, ((![v1459, v2104] : Fin 2 → IVec S16 32) a x).toNat < S128x200.size a := fun v1459 v2104 k0_hw545 => k0_hw545

def k0_chk546 (v2105 : IVec S16 32) : Prop :=
  (∀ a x, ((![v2105] : Fin 1 → IVec S16 32) a x).toNat < S32.size a)
instance k0_chk546.dec : ∀ (v2105 : IVec S16 32), Decidable (k0_chk546 v2105) := fun v2105 => decidable_of_iff' _ (Iff.of_eq (k0_chk546.eq_1 v2105))
theorem k0_idx546_inb : ∀ (v2105 : IVec S16 32) (k0_hw546 : k0_chk546 v2105), ∀ a x, ((![v2105] : Fin 1 → IVec S16 32) a x).toNat < S32.size a := fun v2105 k0_hw546 => k0_hw546

def k0_chk547 (v1459 : IVec S16 32) (v2117 : IVec S16 32) : Prop :=
  (∀ a x, ((![v1459, v2117] : Fin 2 → IVec S16 32) a x).toNat < S128x200.size a)
instance k0_chk547.dec : ∀ (v1459 : IVec S16 32) (v2117 : IVec S16 32), Decidable (k0_chk547 v1459 v2117) := fun v1459 v2117 => decidable_of_iff' _ (Iff.of_eq (k0_chk547.eq_1 v1459 v2117))
theorem k0_idx547_inb : ∀ (v1459 : IVec S16 32) (v2117 : IVec S16 32) (k0_hw547 : k0_chk547 v1459 v2117), ∀ a x, ((![v1459, v2117] : Fin 2 → IVec S16 32) a x).toNat < S128x200.size a := fun v1459 v2117 k0_hw547 => k0_hw547

def k0_chk548 (v2118 : IVec S16 32) : Prop :=
  (∀ a x, ((![v2118] : Fin 1 → IVec S16 32) a x).toNat < S32.size a)
instance k0_chk548.dec : ∀ (v2118 : IVec S16 32), Decidable (k0_chk548 v2118) := fun v2118 => decidable_of_iff' _ (Iff.of_eq (k0_chk548.eq_1 v2118))
theorem k0_idx548_inb : ∀ (v2118 : IVec S16 32) (k0_hw548 : k0_chk548 v2118), ∀ a x, ((![v2118] : Fin 1 → IVec S16 32) a x).toNat < S32.size a := fun v2118 k0_hw548 => k0_hw548

def k0_chk549 (v1459 : IVec S16 32) (v1518 : IVec S16 32) : Prop :=
  (∀ a x, ((![v1459, v1518] : Fin 2 → IVec S16 32) a x).toNat < S128x32.size a)
instance k0_chk549.dec : ∀ (v1459 : IVec S16 32) (v1518 : IVec S16 32), Decidable (k0_chk549 v1459 v1518) := fun v1459 v1518 => decidable_of_iff' _ (Iff.of_eq (k0_chk549.eq_1 v1459 v1518))
theorem k0_idx549_inb : ∀ (v1459 : IVec S16 32) (v1518 : IVec S16 32) (k0_hw549 : k0_chk549 v1459 v1518), ∀ a x, ((![v1459, v1518] : Fin 2 → IVec S16 32) a x).toNat < S128x32.size a := fun v1459 v1518 k0_hw549 => k0_hw549

def k0_chk550 (v1459 : IVec S16 32) (v1461 : IVec S16 32) : Prop :=
  (∀ a x, ((![v1459, v1461] : Fin 2 → IVec S16 32) a x).toNat < S128x32.size a)
instance k0_chk550.dec : ∀ (v1459 : IVec S16 32) (v1461 : IVec S16 32), Decidable (k0_chk550 v1459 v1461) := fun v1459 v1461 => decidable_of_iff' _ (Iff.of_eq (k0_chk550.eq_1 v1459 v1461))
theorem k0_idx550_inb : ∀ (v1459 : IVec S16 32) (v1461 : IVec S16 32) (k0_hw550 : k0_chk550 v1459 v1461), ∀ a x, ((![v1459, v1461] : Fin 2 → IVec S16 32) a x).toNat < S128x32.size a := fun v1459 v1461 k0_hw550 => k0_hw550

def k0_chk551 (v1459 : IVec S16 32) (v1519 : IVec S16 32) : Prop :=
  (∀ a x, ((![v1459, v1519] : Fin 2 → IVec S16 32) a x).toNat < S128x32.size a)
instance k0_chk551.dec : ∀ (v1459 : IVec S16 32) (v1519 : IVec S16 32), Decidable (k0_chk551 v1459 v1519) := fun v1459 v1519 => decidable_of_iff' _ (Iff.of_eq (k0_chk551.eq_1 v1459 v1519))
theorem k0_idx551_inb : ∀ (v1459 : IVec S16 32) (v1519 : IVec S16 32) (k0_hw551 : k0_chk551 v1459 v1519), ∀ a x, ((![v1459, v1519] : Fin 2 → IVec S16 32) a x).toNat < S128x32.size a := fun v1459 v1519 k0_hw551 => k0_hw551

def k0_chk552 (v1459 : IVec S16 32) (v1520 : IVec S16 32) : Prop :=
  (∀ a x, ((![v1459, v1520] : Fin 2 → IVec S16 32) a x).toNat < S128x32.size a)
instance k0_chk552.dec : ∀ (v1459 : IVec S16 32) (v1520 : IVec S16 32), Decidable (k0_chk552 v1459 v1520) := fun v1459 v1520 => decidable_of_iff' _ (Iff.of_eq (k0_chk552.eq_1 v1459 v1520))
theorem k0_idx552_inb : ∀ (v1459 : IVec S16 32) (v1520 : IVec S16 32) (k0_hw552 : k0_chk552 v1459 v1520), ∀ a x, ((![v1459, v1520] : Fin 2 → IVec S16 32) a x).toNat < S128x32.size a := fun v1459 v1520 k0_hw552 => k0_hw552
def k0_off7 (i : grid0.Coords) (c256_i32 : BitVec 32) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c512_i32_492 : BitVec 32 := 512#32
  let v1015 : BitVec 32 := Scalar.muli v2 c512_i32_492
  let v1016 : BitVec 32 := Scalar.addi v1015 c256_i32
  let c0_i32_1006_r9 : BitVec 32 := 0#32
  ![v1016.toNat, 0]
def k0_off8 (i : grid0.Coords) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c512_i32_749 : BitVec 32 := 512#32
  let v1521 : BitVec 32 := Scalar.muli v2 c512_i32_749
  let c384_i32 : BitVec 32 := 384#32
  let v1522 : BitVec 32 := Scalar.addi v1521 c384_i32
  let c0_i32_1006_r10 : BitVec 32 := 0#32
  ![v1522.toNat, 0]

def k0_chk553 (v1524 : IVec S16 32) (v1525 : IVec S16 32) : Prop :=
  (∀ a x, ((![v1524, v1525] : Fin 2 → IVec S16 32) a x).toNat < S128x200.size a)
instance k0_chk553.dec : ∀ (v1524 : IVec S16 32) (v1525 : IVec S16 32), Decidable (k0_chk553 v1524 v1525) := fun v1524 v1525 => decidable_of_iff' _ (Iff.of_eq (k0_chk553.eq_1 v1524 v1525))
theorem k0_idx553_inb : ∀ (v1524 : IVec S16 32) (v1525 : IVec S16 32) (k0_hw553 : k0_chk553 v1524 v1525), ∀ a x, ((![v1524, v1525] : Fin 2 → IVec S16 32) a x).toNat < S128x200.size a := fun v1524 v1525 k0_hw553 => k0_hw553

def k0_chk554 (v1524 : IVec S16 32) (v1527 : IVec S16 32) : Prop :=
  (∀ a x, ((![v1524, v1527] : Fin 2 → IVec S16 32) a x).toNat < S128x200.size a)
instance k0_chk554.dec : ∀ (v1524 : IVec S16 32) (v1527 : IVec S16 32), Decidable (k0_chk554 v1524 v1527) := fun v1524 v1527 => decidable_of_iff' _ (Iff.of_eq (k0_chk554.eq_1 v1524 v1527))
theorem k0_idx554_inb : ∀ (v1524 : IVec S16 32) (v1527 : IVec S16 32) (k0_hw554 : k0_chk554 v1524 v1527), ∀ a x, ((![v1524, v1527] : Fin 2 → IVec S16 32) a x).toNat < S128x200.size a := fun v1524 v1527 k0_hw554 => k0_hw554

def k0_chk555 (v1524 : IVec S16 32) (v1529 : IVec S16 32) : Prop :=
  (∀ a x, ((![v1524, v1529] : Fin 2 → IVec S16 32) a x).toNat < S128x200.size a)
instance k0_chk555.dec : ∀ (v1524 : IVec S16 32) (v1529 : IVec S16 32), Decidable (k0_chk555 v1524 v1529) := fun v1524 v1529 => decidable_of_iff' _ (Iff.of_eq (k0_chk555.eq_1 v1524 v1529))
theorem k0_idx555_inb : ∀ (v1524 : IVec S16 32) (v1529 : IVec S16 32) (k0_hw555 : k0_chk555 v1524 v1529), ∀ a x, ((![v1524, v1529] : Fin 2 → IVec S16 32) a x).toNat < S128x200.size a := fun v1524 v1529 k0_hw555 => k0_hw555
@[reducible] def k0_t25_loop : Scf.Loop 32 :=
  let c0_i32_756 : BitVec 32 := 0#32
  let c25_i32_757 : BitVec 32 := 25#32
  let v1533 : BitVec 32 := Scalar.addi c0_i32_756 c25_i32_757
  let c1_i32_758 : BitVec 32 := 1#32
  ⟨c0_i32_756, v1533, c1_i32_758⟩

def k0_chk556 (v1524 : IVec S16 32) (arg10 : IVec S16 32) : Prop :=
  (∀ a x, ((![v1524, arg10] : Fin 2 → IVec S16 32) a x).toNat < S128x200.size a)
instance k0_chk556.dec : ∀ (v1524 : IVec S16 32) (arg10 : IVec S16 32), Decidable (k0_chk556 v1524 arg10) := fun v1524 arg10 => decidable_of_iff' _ (Iff.of_eq (k0_chk556.eq_1 v1524 arg10))
theorem k0_idx556_inb : ∀ (v1524 : IVec S16 32) (arg10 : IVec S16 32) (k0_hw556 : k0_chk556 v1524 arg10), ∀ a x, ((![v1524, arg10] : Fin 2 → IVec S16 32) a x).toNat < S128x200.size a := fun v1524 arg10 k0_hw556 => k0_hw556

def k0_chk557 (v2027 : IVec S16 32) : Prop :=
  (∀ a x, ((![v2027] : Fin 1 → IVec S16 32) a x).toNat < S32.size a)
instance k0_chk557.dec : ∀ (v2027 : IVec S16 32), Decidable (k0_chk557 v2027) := fun v2027 => decidable_of_iff' _ (Iff.of_eq (k0_chk557.eq_1 v2027))
theorem k0_idx557_inb : ∀ (v2027 : IVec S16 32) (k0_hw557 : k0_chk557 v2027), ∀ a x, ((![v2027] : Fin 1 → IVec S16 32) a x).toNat < S32.size a := fun v2027 k0_hw557 => k0_hw557

def k0_chk558 (v1524 : IVec S16 32) (v2039 : IVec S16 32) : Prop :=
  (∀ a x, ((![v1524, v2039] : Fin 2 → IVec S16 32) a x).toNat < S128x200.size a)
instance k0_chk558.dec : ∀ (v1524 : IVec S16 32) (v2039 : IVec S16 32), Decidable (k0_chk558 v1524 v2039) := fun v1524 v2039 => decidable_of_iff' _ (Iff.of_eq (k0_chk558.eq_1 v1524 v2039))
theorem k0_idx558_inb : ∀ (v1524 : IVec S16 32) (v2039 : IVec S16 32) (k0_hw558 : k0_chk558 v1524 v2039), ∀ a x, ((![v1524, v2039] : Fin 2 → IVec S16 32) a x).toNat < S128x200.size a := fun v1524 v2039 k0_hw558 => k0_hw558

def k0_chk559 (v2040 : IVec S16 32) : Prop :=
  (∀ a x, ((![v2040] : Fin 1 → IVec S16 32) a x).toNat < S32.size a)
instance k0_chk559.dec : ∀ (v2040 : IVec S16 32), Decidable (k0_chk559 v2040) := fun v2040 => decidable_of_iff' _ (Iff.of_eq (k0_chk559.eq_1 v2040))
theorem k0_idx559_inb : ∀ (v2040 : IVec S16 32) (k0_hw559 : k0_chk559 v2040), ∀ a x, ((![v2040] : Fin 1 → IVec S16 32) a x).toNat < S32.size a := fun v2040 k0_hw559 => k0_hw559

def k0_chk560 (v1524 : IVec S16 32) (v2052 : IVec S16 32) : Prop :=
  (∀ a x, ((![v1524, v2052] : Fin 2 → IVec S16 32) a x).toNat < S128x200.size a)
instance k0_chk560.dec : ∀ (v1524 : IVec S16 32) (v2052 : IVec S16 32), Decidable (k0_chk560 v1524 v2052) := fun v1524 v2052 => decidable_of_iff' _ (Iff.of_eq (k0_chk560.eq_1 v1524 v2052))
theorem k0_idx560_inb : ∀ (v1524 : IVec S16 32) (v2052 : IVec S16 32) (k0_hw560 : k0_chk560 v1524 v2052), ∀ a x, ((![v1524, v2052] : Fin 2 → IVec S16 32) a x).toNat < S128x200.size a := fun v1524 v2052 k0_hw560 => k0_hw560

def k0_chk561 (v2053 : IVec S16 32) : Prop :=
  (∀ a x, ((![v2053] : Fin 1 → IVec S16 32) a x).toNat < S32.size a)
instance k0_chk561.dec : ∀ (v2053 : IVec S16 32), Decidable (k0_chk561 v2053) := fun v2053 => decidable_of_iff' _ (Iff.of_eq (k0_chk561.eq_1 v2053))
theorem k0_idx561_inb : ∀ (v2053 : IVec S16 32) (k0_hw561 : k0_chk561 v2053), ∀ a x, ((![v2053] : Fin 1 → IVec S16 32) a x).toNat < S32.size a := fun v2053 k0_hw561 => k0_hw561

def k0_chk562 (v1524 : IVec S16 32) (v2065 : IVec S16 32) : Prop :=
  (∀ a x, ((![v1524, v2065] : Fin 2 → IVec S16 32) a x).toNat < S128x200.size a)
instance k0_chk562.dec : ∀ (v1524 : IVec S16 32) (v2065 : IVec S16 32), Decidable (k0_chk562 v1524 v2065) := fun v1524 v2065 => decidable_of_iff' _ (Iff.of_eq (k0_chk562.eq_1 v1524 v2065))
theorem k0_idx562_inb : ∀ (v1524 : IVec S16 32) (v2065 : IVec S16 32) (k0_hw562 : k0_chk562 v1524 v2065), ∀ a x, ((![v1524, v2065] : Fin 2 → IVec S16 32) a x).toNat < S128x200.size a := fun v1524 v2065 k0_hw562 => k0_hw562

def k0_chk563 (v2066 : IVec S16 32) : Prop :=
  (∀ a x, ((![v2066] : Fin 1 → IVec S16 32) a x).toNat < S32.size a)
instance k0_chk563.dec : ∀ (v2066 : IVec S16 32), Decidable (k0_chk563 v2066) := fun v2066 => decidable_of_iff' _ (Iff.of_eq (k0_chk563.eq_1 v2066))
theorem k0_idx563_inb : ∀ (v2066 : IVec S16 32) (k0_hw563 : k0_chk563 v2066), ∀ a x, ((![v2066] : Fin 1 → IVec S16 32) a x).toNat < S32.size a := fun v2066 k0_hw563 => k0_hw563

def k0_chk564 (v1524 : IVec S16 32) (v2078 : IVec S16 32) : Prop :=
  (∀ a x, ((![v1524, v2078] : Fin 2 → IVec S16 32) a x).toNat < S128x200.size a)
instance k0_chk564.dec : ∀ (v1524 : IVec S16 32) (v2078 : IVec S16 32), Decidable (k0_chk564 v1524 v2078) := fun v1524 v2078 => decidable_of_iff' _ (Iff.of_eq (k0_chk564.eq_1 v1524 v2078))
theorem k0_idx564_inb : ∀ (v1524 : IVec S16 32) (v2078 : IVec S16 32) (k0_hw564 : k0_chk564 v1524 v2078), ∀ a x, ((![v1524, v2078] : Fin 2 → IVec S16 32) a x).toNat < S128x200.size a := fun v1524 v2078 k0_hw564 => k0_hw564

def k0_chk565 (v2079 : IVec S16 32) : Prop :=
  (∀ a x, ((![v2079] : Fin 1 → IVec S16 32) a x).toNat < S32.size a)
instance k0_chk565.dec : ∀ (v2079 : IVec S16 32), Decidable (k0_chk565 v2079) := fun v2079 => decidable_of_iff' _ (Iff.of_eq (k0_chk565.eq_1 v2079))
theorem k0_idx565_inb : ∀ (v2079 : IVec S16 32) (k0_hw565 : k0_chk565 v2079), ∀ a x, ((![v2079] : Fin 1 → IVec S16 32) a x).toNat < S32.size a := fun v2079 k0_hw565 => k0_hw565

def k0_chk566 (v1524 : IVec S16 32) (v2091 : IVec S16 32) : Prop :=
  (∀ a x, ((![v1524, v2091] : Fin 2 → IVec S16 32) a x).toNat < S128x200.size a)
instance k0_chk566.dec : ∀ (v1524 : IVec S16 32) (v2091 : IVec S16 32), Decidable (k0_chk566 v1524 v2091) := fun v1524 v2091 => decidable_of_iff' _ (Iff.of_eq (k0_chk566.eq_1 v1524 v2091))
theorem k0_idx566_inb : ∀ (v1524 : IVec S16 32) (v2091 : IVec S16 32) (k0_hw566 : k0_chk566 v1524 v2091), ∀ a x, ((![v1524, v2091] : Fin 2 → IVec S16 32) a x).toNat < S128x200.size a := fun v1524 v2091 k0_hw566 => k0_hw566

def k0_chk567 (v2092 : IVec S16 32) : Prop :=
  (∀ a x, ((![v2092] : Fin 1 → IVec S16 32) a x).toNat < S32.size a)
instance k0_chk567.dec : ∀ (v2092 : IVec S16 32), Decidable (k0_chk567 v2092) := fun v2092 => decidable_of_iff' _ (Iff.of_eq (k0_chk567.eq_1 v2092))
theorem k0_idx567_inb : ∀ (v2092 : IVec S16 32) (k0_hw567 : k0_chk567 v2092), ∀ a x, ((![v2092] : Fin 1 → IVec S16 32) a x).toNat < S32.size a := fun v2092 k0_hw567 => k0_hw567

def k0_chk568 (v1524 : IVec S16 32) (v2104 : IVec S16 32) : Prop :=
  (∀ a x, ((![v1524, v2104] : Fin 2 → IVec S16 32) a x).toNat < S128x200.size a)
instance k0_chk568.dec : ∀ (v1524 : IVec S16 32) (v2104 : IVec S16 32), Decidable (k0_chk568 v1524 v2104) := fun v1524 v2104 => decidable_of_iff' _ (Iff.of_eq (k0_chk568.eq_1 v1524 v2104))
theorem k0_idx568_inb : ∀ (v1524 : IVec S16 32) (v2104 : IVec S16 32) (k0_hw568 : k0_chk568 v1524 v2104), ∀ a x, ((![v1524, v2104] : Fin 2 → IVec S16 32) a x).toNat < S128x200.size a := fun v1524 v2104 k0_hw568 => k0_hw568

def k0_chk569 (v2105 : IVec S16 32) : Prop :=
  (∀ a x, ((![v2105] : Fin 1 → IVec S16 32) a x).toNat < S32.size a)
instance k0_chk569.dec : ∀ (v2105 : IVec S16 32), Decidable (k0_chk569 v2105) := fun v2105 => decidable_of_iff' _ (Iff.of_eq (k0_chk569.eq_1 v2105))
theorem k0_idx569_inb : ∀ (v2105 : IVec S16 32) (k0_hw569 : k0_chk569 v2105), ∀ a x, ((![v2105] : Fin 1 → IVec S16 32) a x).toNat < S32.size a := fun v2105 k0_hw569 => k0_hw569

def k0_chk570 (v1524 : IVec S16 32) (v2117 : IVec S16 32) : Prop :=
  (∀ a x, ((![v1524, v2117] : Fin 2 → IVec S16 32) a x).toNat < S128x200.size a)
instance k0_chk570.dec : ∀ (v1524 : IVec S16 32) (v2117 : IVec S16 32), Decidable (k0_chk570 v1524 v2117) := fun v1524 v2117 => decidable_of_iff' _ (Iff.of_eq (k0_chk570.eq_1 v1524 v2117))
theorem k0_idx570_inb : ∀ (v1524 : IVec S16 32) (v2117 : IVec S16 32) (k0_hw570 : k0_chk570 v1524 v2117), ∀ a x, ((![v1524, v2117] : Fin 2 → IVec S16 32) a x).toNat < S128x200.size a := fun v1524 v2117 k0_hw570 => k0_hw570

def k0_chk571 (v2118 : IVec S16 32) : Prop :=
  (∀ a x, ((![v2118] : Fin 1 → IVec S16 32) a x).toNat < S32.size a)
instance k0_chk571.dec : ∀ (v2118 : IVec S16 32), Decidable (k0_chk571 v2118) := fun v2118 => decidable_of_iff' _ (Iff.of_eq (k0_chk571.eq_1 v2118))
theorem k0_idx571_inb : ∀ (v2118 : IVec S16 32) (k0_hw571 : k0_chk571 v2118), ∀ a x, ((![v2118] : Fin 1 → IVec S16 32) a x).toNat < S32.size a := fun v2118 k0_hw571 => k0_hw571

def k0_chk572 (v1524 : IVec S16 32) (v1583 : IVec S16 32) : Prop :=
  (∀ a x, ((![v1524, v1583] : Fin 2 → IVec S16 32) a x).toNat < S128x32.size a)
instance k0_chk572.dec : ∀ (v1524 : IVec S16 32) (v1583 : IVec S16 32), Decidable (k0_chk572 v1524 v1583) := fun v1524 v1583 => decidable_of_iff' _ (Iff.of_eq (k0_chk572.eq_1 v1524 v1583))
theorem k0_idx572_inb : ∀ (v1524 : IVec S16 32) (v1583 : IVec S16 32) (k0_hw572 : k0_chk572 v1524 v1583), ∀ a x, ((![v1524, v1583] : Fin 2 → IVec S16 32) a x).toNat < S128x32.size a := fun v1524 v1583 k0_hw572 => k0_hw572

def k0_chk573 (v1524 : IVec S16 32) (v1526 : IVec S16 32) : Prop :=
  (∀ a x, ((![v1524, v1526] : Fin 2 → IVec S16 32) a x).toNat < S128x32.size a)
instance k0_chk573.dec : ∀ (v1524 : IVec S16 32) (v1526 : IVec S16 32), Decidable (k0_chk573 v1524 v1526) := fun v1524 v1526 => decidable_of_iff' _ (Iff.of_eq (k0_chk573.eq_1 v1524 v1526))
theorem k0_idx573_inb : ∀ (v1524 : IVec S16 32) (v1526 : IVec S16 32) (k0_hw573 : k0_chk573 v1524 v1526), ∀ a x, ((![v1524, v1526] : Fin 2 → IVec S16 32) a x).toNat < S128x32.size a := fun v1524 v1526 k0_hw573 => k0_hw573

def k0_chk574 (v1524 : IVec S16 32) (v1584 : IVec S16 32) : Prop :=
  (∀ a x, ((![v1524, v1584] : Fin 2 → IVec S16 32) a x).toNat < S128x32.size a)
instance k0_chk574.dec : ∀ (v1524 : IVec S16 32) (v1584 : IVec S16 32), Decidable (k0_chk574 v1524 v1584) := fun v1524 v1584 => decidable_of_iff' _ (Iff.of_eq (k0_chk574.eq_1 v1524 v1584))
theorem k0_idx574_inb : ∀ (v1524 : IVec S16 32) (v1584 : IVec S16 32) (k0_hw574 : k0_chk574 v1524 v1584), ∀ a x, ((![v1524, v1584] : Fin 2 → IVec S16 32) a x).toNat < S128x32.size a := fun v1524 v1584 k0_hw574 => k0_hw574

def k0_chk575 (v1524 : IVec S16 32) (v1585 : IVec S16 32) : Prop :=
  (∀ a x, ((![v1524, v1585] : Fin 2 → IVec S16 32) a x).toNat < S128x32.size a)
instance k0_chk575.dec : ∀ (v1524 : IVec S16 32) (v1585 : IVec S16 32), Decidable (k0_chk575 v1524 v1585) := fun v1524 v1585 => decidable_of_iff' _ (Iff.of_eq (k0_chk575.eq_1 v1524 v1585))
theorem k0_idx575_inb : ∀ (v1524 : IVec S16 32) (v1585 : IVec S16 32) (k0_hw575 : k0_chk575 v1524 v1585), ∀ a x, ((![v1524, v1585] : Fin 2 → IVec S16 32) a x).toNat < S128x32.size a := fun v1524 v1585 k0_hw575 => k0_hw575

def k0_chk576 (v1587 : IVec S16 32) (v1588 : IVec S16 32) : Prop :=
  (∀ a x, ((![v1587, v1588] : Fin 2 → IVec S16 32) a x).toNat < S128x200.size a)
instance k0_chk576.dec : ∀ (v1587 : IVec S16 32) (v1588 : IVec S16 32), Decidable (k0_chk576 v1587 v1588) := fun v1587 v1588 => decidable_of_iff' _ (Iff.of_eq (k0_chk576.eq_1 v1587 v1588))
theorem k0_idx576_inb : ∀ (v1587 : IVec S16 32) (v1588 : IVec S16 32) (k0_hw576 : k0_chk576 v1587 v1588), ∀ a x, ((![v1587, v1588] : Fin 2 → IVec S16 32) a x).toNat < S128x200.size a := fun v1587 v1588 k0_hw576 => k0_hw576

def k0_chk577 (v1587 : IVec S16 32) (v1590 : IVec S16 32) : Prop :=
  (∀ a x, ((![v1587, v1590] : Fin 2 → IVec S16 32) a x).toNat < S128x200.size a)
instance k0_chk577.dec : ∀ (v1587 : IVec S16 32) (v1590 : IVec S16 32), Decidable (k0_chk577 v1587 v1590) := fun v1587 v1590 => decidable_of_iff' _ (Iff.of_eq (k0_chk577.eq_1 v1587 v1590))
theorem k0_idx577_inb : ∀ (v1587 : IVec S16 32) (v1590 : IVec S16 32) (k0_hw577 : k0_chk577 v1587 v1590), ∀ a x, ((![v1587, v1590] : Fin 2 → IVec S16 32) a x).toNat < S128x200.size a := fun v1587 v1590 k0_hw577 => k0_hw577

def k0_chk578 (v1587 : IVec S16 32) (v1592 : IVec S16 32) : Prop :=
  (∀ a x, ((![v1587, v1592] : Fin 2 → IVec S16 32) a x).toNat < S128x200.size a)
instance k0_chk578.dec : ∀ (v1587 : IVec S16 32) (v1592 : IVec S16 32), Decidable (k0_chk578 v1587 v1592) := fun v1587 v1592 => decidable_of_iff' _ (Iff.of_eq (k0_chk578.eq_1 v1587 v1592))
theorem k0_idx578_inb : ∀ (v1587 : IVec S16 32) (v1592 : IVec S16 32) (k0_hw578 : k0_chk578 v1587 v1592), ∀ a x, ((![v1587, v1592] : Fin 2 → IVec S16 32) a x).toNat < S128x200.size a := fun v1587 v1592 k0_hw578 => k0_hw578
@[reducible] def k0_t26_loop : Scf.Loop 32 :=
  let c0_i32_788 : BitVec 32 := 0#32
  let c25_i32_789 : BitVec 32 := 25#32
  let v1596 : BitVec 32 := Scalar.addi c0_i32_788 c25_i32_789
  let c1_i32_790 : BitVec 32 := 1#32
  ⟨c0_i32_788, v1596, c1_i32_790⟩

def k0_chk579 (v1587 : IVec S16 32) (arg10 : IVec S16 32) : Prop :=
  (∀ a x, ((![v1587, arg10] : Fin 2 → IVec S16 32) a x).toNat < S128x200.size a)
instance k0_chk579.dec : ∀ (v1587 : IVec S16 32) (arg10 : IVec S16 32), Decidable (k0_chk579 v1587 arg10) := fun v1587 arg10 => decidable_of_iff' _ (Iff.of_eq (k0_chk579.eq_1 v1587 arg10))
theorem k0_idx579_inb : ∀ (v1587 : IVec S16 32) (arg10 : IVec S16 32) (k0_hw579 : k0_chk579 v1587 arg10), ∀ a x, ((![v1587, arg10] : Fin 2 → IVec S16 32) a x).toNat < S128x200.size a := fun v1587 arg10 k0_hw579 => k0_hw579

def k0_chk580 (v2027 : IVec S16 32) : Prop :=
  (∀ a x, ((![v2027] : Fin 1 → IVec S16 32) a x).toNat < S32.size a)
instance k0_chk580.dec : ∀ (v2027 : IVec S16 32), Decidable (k0_chk580 v2027) := fun v2027 => decidable_of_iff' _ (Iff.of_eq (k0_chk580.eq_1 v2027))
theorem k0_idx580_inb : ∀ (v2027 : IVec S16 32) (k0_hw580 : k0_chk580 v2027), ∀ a x, ((![v2027] : Fin 1 → IVec S16 32) a x).toNat < S32.size a := fun v2027 k0_hw580 => k0_hw580

def k0_chk581 (v1587 : IVec S16 32) (v2039 : IVec S16 32) : Prop :=
  (∀ a x, ((![v1587, v2039] : Fin 2 → IVec S16 32) a x).toNat < S128x200.size a)
instance k0_chk581.dec : ∀ (v1587 : IVec S16 32) (v2039 : IVec S16 32), Decidable (k0_chk581 v1587 v2039) := fun v1587 v2039 => decidable_of_iff' _ (Iff.of_eq (k0_chk581.eq_1 v1587 v2039))
theorem k0_idx581_inb : ∀ (v1587 : IVec S16 32) (v2039 : IVec S16 32) (k0_hw581 : k0_chk581 v1587 v2039), ∀ a x, ((![v1587, v2039] : Fin 2 → IVec S16 32) a x).toNat < S128x200.size a := fun v1587 v2039 k0_hw581 => k0_hw581

def k0_chk582 (v2040 : IVec S16 32) : Prop :=
  (∀ a x, ((![v2040] : Fin 1 → IVec S16 32) a x).toNat < S32.size a)
instance k0_chk582.dec : ∀ (v2040 : IVec S16 32), Decidable (k0_chk582 v2040) := fun v2040 => decidable_of_iff' _ (Iff.of_eq (k0_chk582.eq_1 v2040))
theorem k0_idx582_inb : ∀ (v2040 : IVec S16 32) (k0_hw582 : k0_chk582 v2040), ∀ a x, ((![v2040] : Fin 1 → IVec S16 32) a x).toNat < S32.size a := fun v2040 k0_hw582 => k0_hw582

def k0_chk583 (v1587 : IVec S16 32) (v2052 : IVec S16 32) : Prop :=
  (∀ a x, ((![v1587, v2052] : Fin 2 → IVec S16 32) a x).toNat < S128x200.size a)
instance k0_chk583.dec : ∀ (v1587 : IVec S16 32) (v2052 : IVec S16 32), Decidable (k0_chk583 v1587 v2052) := fun v1587 v2052 => decidable_of_iff' _ (Iff.of_eq (k0_chk583.eq_1 v1587 v2052))
theorem k0_idx583_inb : ∀ (v1587 : IVec S16 32) (v2052 : IVec S16 32) (k0_hw583 : k0_chk583 v1587 v2052), ∀ a x, ((![v1587, v2052] : Fin 2 → IVec S16 32) a x).toNat < S128x200.size a := fun v1587 v2052 k0_hw583 => k0_hw583

def k0_chk584 (v2053 : IVec S16 32) : Prop :=
  (∀ a x, ((![v2053] : Fin 1 → IVec S16 32) a x).toNat < S32.size a)
instance k0_chk584.dec : ∀ (v2053 : IVec S16 32), Decidable (k0_chk584 v2053) := fun v2053 => decidable_of_iff' _ (Iff.of_eq (k0_chk584.eq_1 v2053))
theorem k0_idx584_inb : ∀ (v2053 : IVec S16 32) (k0_hw584 : k0_chk584 v2053), ∀ a x, ((![v2053] : Fin 1 → IVec S16 32) a x).toNat < S32.size a := fun v2053 k0_hw584 => k0_hw584

def k0_chk585 (v1587 : IVec S16 32) (v2065 : IVec S16 32) : Prop :=
  (∀ a x, ((![v1587, v2065] : Fin 2 → IVec S16 32) a x).toNat < S128x200.size a)
instance k0_chk585.dec : ∀ (v1587 : IVec S16 32) (v2065 : IVec S16 32), Decidable (k0_chk585 v1587 v2065) := fun v1587 v2065 => decidable_of_iff' _ (Iff.of_eq (k0_chk585.eq_1 v1587 v2065))
theorem k0_idx585_inb : ∀ (v1587 : IVec S16 32) (v2065 : IVec S16 32) (k0_hw585 : k0_chk585 v1587 v2065), ∀ a x, ((![v1587, v2065] : Fin 2 → IVec S16 32) a x).toNat < S128x200.size a := fun v1587 v2065 k0_hw585 => k0_hw585

def k0_chk586 (v2066 : IVec S16 32) : Prop :=
  (∀ a x, ((![v2066] : Fin 1 → IVec S16 32) a x).toNat < S32.size a)
instance k0_chk586.dec : ∀ (v2066 : IVec S16 32), Decidable (k0_chk586 v2066) := fun v2066 => decidable_of_iff' _ (Iff.of_eq (k0_chk586.eq_1 v2066))
theorem k0_idx586_inb : ∀ (v2066 : IVec S16 32) (k0_hw586 : k0_chk586 v2066), ∀ a x, ((![v2066] : Fin 1 → IVec S16 32) a x).toNat < S32.size a := fun v2066 k0_hw586 => k0_hw586

def k0_chk587 (v1587 : IVec S16 32) (v2078 : IVec S16 32) : Prop :=
  (∀ a x, ((![v1587, v2078] : Fin 2 → IVec S16 32) a x).toNat < S128x200.size a)
instance k0_chk587.dec : ∀ (v1587 : IVec S16 32) (v2078 : IVec S16 32), Decidable (k0_chk587 v1587 v2078) := fun v1587 v2078 => decidable_of_iff' _ (Iff.of_eq (k0_chk587.eq_1 v1587 v2078))
theorem k0_idx587_inb : ∀ (v1587 : IVec S16 32) (v2078 : IVec S16 32) (k0_hw587 : k0_chk587 v1587 v2078), ∀ a x, ((![v1587, v2078] : Fin 2 → IVec S16 32) a x).toNat < S128x200.size a := fun v1587 v2078 k0_hw587 => k0_hw587

def k0_chk588 (v2079 : IVec S16 32) : Prop :=
  (∀ a x, ((![v2079] : Fin 1 → IVec S16 32) a x).toNat < S32.size a)
instance k0_chk588.dec : ∀ (v2079 : IVec S16 32), Decidable (k0_chk588 v2079) := fun v2079 => decidable_of_iff' _ (Iff.of_eq (k0_chk588.eq_1 v2079))
theorem k0_idx588_inb : ∀ (v2079 : IVec S16 32) (k0_hw588 : k0_chk588 v2079), ∀ a x, ((![v2079] : Fin 1 → IVec S16 32) a x).toNat < S32.size a := fun v2079 k0_hw588 => k0_hw588

def k0_chk589 (v1587 : IVec S16 32) (v2091 : IVec S16 32) : Prop :=
  (∀ a x, ((![v1587, v2091] : Fin 2 → IVec S16 32) a x).toNat < S128x200.size a)
instance k0_chk589.dec : ∀ (v1587 : IVec S16 32) (v2091 : IVec S16 32), Decidable (k0_chk589 v1587 v2091) := fun v1587 v2091 => decidable_of_iff' _ (Iff.of_eq (k0_chk589.eq_1 v1587 v2091))
theorem k0_idx589_inb : ∀ (v1587 : IVec S16 32) (v2091 : IVec S16 32) (k0_hw589 : k0_chk589 v1587 v2091), ∀ a x, ((![v1587, v2091] : Fin 2 → IVec S16 32) a x).toNat < S128x200.size a := fun v1587 v2091 k0_hw589 => k0_hw589

def k0_chk590 (v2092 : IVec S16 32) : Prop :=
  (∀ a x, ((![v2092] : Fin 1 → IVec S16 32) a x).toNat < S32.size a)
instance k0_chk590.dec : ∀ (v2092 : IVec S16 32), Decidable (k0_chk590 v2092) := fun v2092 => decidable_of_iff' _ (Iff.of_eq (k0_chk590.eq_1 v2092))
theorem k0_idx590_inb : ∀ (v2092 : IVec S16 32) (k0_hw590 : k0_chk590 v2092), ∀ a x, ((![v2092] : Fin 1 → IVec S16 32) a x).toNat < S32.size a := fun v2092 k0_hw590 => k0_hw590

def k0_chk591 (v1587 : IVec S16 32) (v2104 : IVec S16 32) : Prop :=
  (∀ a x, ((![v1587, v2104] : Fin 2 → IVec S16 32) a x).toNat < S128x200.size a)
instance k0_chk591.dec : ∀ (v1587 : IVec S16 32) (v2104 : IVec S16 32), Decidable (k0_chk591 v1587 v2104) := fun v1587 v2104 => decidable_of_iff' _ (Iff.of_eq (k0_chk591.eq_1 v1587 v2104))
theorem k0_idx591_inb : ∀ (v1587 : IVec S16 32) (v2104 : IVec S16 32) (k0_hw591 : k0_chk591 v1587 v2104), ∀ a x, ((![v1587, v2104] : Fin 2 → IVec S16 32) a x).toNat < S128x200.size a := fun v1587 v2104 k0_hw591 => k0_hw591

def k0_chk592 (v2105 : IVec S16 32) : Prop :=
  (∀ a x, ((![v2105] : Fin 1 → IVec S16 32) a x).toNat < S32.size a)
instance k0_chk592.dec : ∀ (v2105 : IVec S16 32), Decidable (k0_chk592 v2105) := fun v2105 => decidable_of_iff' _ (Iff.of_eq (k0_chk592.eq_1 v2105))
theorem k0_idx592_inb : ∀ (v2105 : IVec S16 32) (k0_hw592 : k0_chk592 v2105), ∀ a x, ((![v2105] : Fin 1 → IVec S16 32) a x).toNat < S32.size a := fun v2105 k0_hw592 => k0_hw592

def k0_chk593 (v1587 : IVec S16 32) (v2117 : IVec S16 32) : Prop :=
  (∀ a x, ((![v1587, v2117] : Fin 2 → IVec S16 32) a x).toNat < S128x200.size a)
instance k0_chk593.dec : ∀ (v1587 : IVec S16 32) (v2117 : IVec S16 32), Decidable (k0_chk593 v1587 v2117) := fun v1587 v2117 => decidable_of_iff' _ (Iff.of_eq (k0_chk593.eq_1 v1587 v2117))
theorem k0_idx593_inb : ∀ (v1587 : IVec S16 32) (v2117 : IVec S16 32) (k0_hw593 : k0_chk593 v1587 v2117), ∀ a x, ((![v1587, v2117] : Fin 2 → IVec S16 32) a x).toNat < S128x200.size a := fun v1587 v2117 k0_hw593 => k0_hw593

def k0_chk594 (v2118 : IVec S16 32) : Prop :=
  (∀ a x, ((![v2118] : Fin 1 → IVec S16 32) a x).toNat < S32.size a)
instance k0_chk594.dec : ∀ (v2118 : IVec S16 32), Decidable (k0_chk594 v2118) := fun v2118 => decidable_of_iff' _ (Iff.of_eq (k0_chk594.eq_1 v2118))
theorem k0_idx594_inb : ∀ (v2118 : IVec S16 32) (k0_hw594 : k0_chk594 v2118), ∀ a x, ((![v2118] : Fin 1 → IVec S16 32) a x).toNat < S32.size a := fun v2118 k0_hw594 => k0_hw594

def k0_chk595 (v1587 : IVec S16 32) (v1646 : IVec S16 32) : Prop :=
  (∀ a x, ((![v1587, v1646] : Fin 2 → IVec S16 32) a x).toNat < S128x32.size a)
instance k0_chk595.dec : ∀ (v1587 : IVec S16 32) (v1646 : IVec S16 32), Decidable (k0_chk595 v1587 v1646) := fun v1587 v1646 => decidable_of_iff' _ (Iff.of_eq (k0_chk595.eq_1 v1587 v1646))
theorem k0_idx595_inb : ∀ (v1587 : IVec S16 32) (v1646 : IVec S16 32) (k0_hw595 : k0_chk595 v1587 v1646), ∀ a x, ((![v1587, v1646] : Fin 2 → IVec S16 32) a x).toNat < S128x32.size a := fun v1587 v1646 k0_hw595 => k0_hw595

def k0_chk596 (v1587 : IVec S16 32) (v1589 : IVec S16 32) : Prop :=
  (∀ a x, ((![v1587, v1589] : Fin 2 → IVec S16 32) a x).toNat < S128x32.size a)
instance k0_chk596.dec : ∀ (v1587 : IVec S16 32) (v1589 : IVec S16 32), Decidable (k0_chk596 v1587 v1589) := fun v1587 v1589 => decidable_of_iff' _ (Iff.of_eq (k0_chk596.eq_1 v1587 v1589))
theorem k0_idx596_inb : ∀ (v1587 : IVec S16 32) (v1589 : IVec S16 32) (k0_hw596 : k0_chk596 v1587 v1589), ∀ a x, ((![v1587, v1589] : Fin 2 → IVec S16 32) a x).toNat < S128x32.size a := fun v1587 v1589 k0_hw596 => k0_hw596

def k0_chk597 (v1587 : IVec S16 32) (v1647 : IVec S16 32) : Prop :=
  (∀ a x, ((![v1587, v1647] : Fin 2 → IVec S16 32) a x).toNat < S128x32.size a)
instance k0_chk597.dec : ∀ (v1587 : IVec S16 32) (v1647 : IVec S16 32), Decidable (k0_chk597 v1587 v1647) := fun v1587 v1647 => decidable_of_iff' _ (Iff.of_eq (k0_chk597.eq_1 v1587 v1647))
theorem k0_idx597_inb : ∀ (v1587 : IVec S16 32) (v1647 : IVec S16 32) (k0_hw597 : k0_chk597 v1587 v1647), ∀ a x, ((![v1587, v1647] : Fin 2 → IVec S16 32) a x).toNat < S128x32.size a := fun v1587 v1647 k0_hw597 => k0_hw597

def k0_chk598 (v1587 : IVec S16 32) (v1648 : IVec S16 32) : Prop :=
  (∀ a x, ((![v1587, v1648] : Fin 2 → IVec S16 32) a x).toNat < S128x32.size a)
instance k0_chk598.dec : ∀ (v1587 : IVec S16 32) (v1648 : IVec S16 32), Decidable (k0_chk598 v1587 v1648) := fun v1587 v1648 => decidable_of_iff' _ (Iff.of_eq (k0_chk598.eq_1 v1587 v1648))
theorem k0_idx598_inb : ∀ (v1587 : IVec S16 32) (v1648 : IVec S16 32) (k0_hw598 : k0_chk598 v1587 v1648), ∀ a x, ((![v1587, v1648] : Fin 2 → IVec S16 32) a x).toNat < S128x32.size a := fun v1587 v1648 k0_hw598 => k0_hw598

def k0_chk599 (v1650 : IVec S16 32) (v1651 : IVec S16 32) : Prop :=
  (∀ a x, ((![v1650, v1651] : Fin 2 → IVec S16 32) a x).toNat < S128x200.size a)
instance k0_chk599.dec : ∀ (v1650 : IVec S16 32) (v1651 : IVec S16 32), Decidable (k0_chk599 v1650 v1651) := fun v1650 v1651 => decidable_of_iff' _ (Iff.of_eq (k0_chk599.eq_1 v1650 v1651))
theorem k0_idx599_inb : ∀ (v1650 : IVec S16 32) (v1651 : IVec S16 32) (k0_hw599 : k0_chk599 v1650 v1651), ∀ a x, ((![v1650, v1651] : Fin 2 → IVec S16 32) a x).toNat < S128x200.size a := fun v1650 v1651 k0_hw599 => k0_hw599

def k0_chk600 (v1650 : IVec S16 32) (v1653 : IVec S16 32) : Prop :=
  (∀ a x, ((![v1650, v1653] : Fin 2 → IVec S16 32) a x).toNat < S128x200.size a)
instance k0_chk600.dec : ∀ (v1650 : IVec S16 32) (v1653 : IVec S16 32), Decidable (k0_chk600 v1650 v1653) := fun v1650 v1653 => decidable_of_iff' _ (Iff.of_eq (k0_chk600.eq_1 v1650 v1653))
theorem k0_idx600_inb : ∀ (v1650 : IVec S16 32) (v1653 : IVec S16 32) (k0_hw600 : k0_chk600 v1650 v1653), ∀ a x, ((![v1650, v1653] : Fin 2 → IVec S16 32) a x).toNat < S128x200.size a := fun v1650 v1653 k0_hw600 => k0_hw600

def k0_chk601 (v1650 : IVec S16 32) (v1655 : IVec S16 32) : Prop :=
  (∀ a x, ((![v1650, v1655] : Fin 2 → IVec S16 32) a x).toNat < S128x200.size a)
instance k0_chk601.dec : ∀ (v1650 : IVec S16 32) (v1655 : IVec S16 32), Decidable (k0_chk601 v1650 v1655) := fun v1650 v1655 => decidable_of_iff' _ (Iff.of_eq (k0_chk601.eq_1 v1650 v1655))
theorem k0_idx601_inb : ∀ (v1650 : IVec S16 32) (v1655 : IVec S16 32) (k0_hw601 : k0_chk601 v1650 v1655), ∀ a x, ((![v1650, v1655] : Fin 2 → IVec S16 32) a x).toNat < S128x200.size a := fun v1650 v1655 k0_hw601 => k0_hw601
@[reducible] def k0_t27_loop : Scf.Loop 32 :=
  let c0_i32_820 : BitVec 32 := 0#32
  let c25_i32_821 : BitVec 32 := 25#32
  let v1659 : BitVec 32 := Scalar.addi c0_i32_820 c25_i32_821
  let c1_i32_822 : BitVec 32 := 1#32
  ⟨c0_i32_820, v1659, c1_i32_822⟩

def k0_chk602 (v1650 : IVec S16 32) (arg10 : IVec S16 32) : Prop :=
  (∀ a x, ((![v1650, arg10] : Fin 2 → IVec S16 32) a x).toNat < S128x200.size a)
instance k0_chk602.dec : ∀ (v1650 : IVec S16 32) (arg10 : IVec S16 32), Decidable (k0_chk602 v1650 arg10) := fun v1650 arg10 => decidable_of_iff' _ (Iff.of_eq (k0_chk602.eq_1 v1650 arg10))
theorem k0_idx602_inb : ∀ (v1650 : IVec S16 32) (arg10 : IVec S16 32) (k0_hw602 : k0_chk602 v1650 arg10), ∀ a x, ((![v1650, arg10] : Fin 2 → IVec S16 32) a x).toNat < S128x200.size a := fun v1650 arg10 k0_hw602 => k0_hw602

def k0_chk603 (v2027 : IVec S16 32) : Prop :=
  (∀ a x, ((![v2027] : Fin 1 → IVec S16 32) a x).toNat < S32.size a)
instance k0_chk603.dec : ∀ (v2027 : IVec S16 32), Decidable (k0_chk603 v2027) := fun v2027 => decidable_of_iff' _ (Iff.of_eq (k0_chk603.eq_1 v2027))
theorem k0_idx603_inb : ∀ (v2027 : IVec S16 32) (k0_hw603 : k0_chk603 v2027), ∀ a x, ((![v2027] : Fin 1 → IVec S16 32) a x).toNat < S32.size a := fun v2027 k0_hw603 => k0_hw603

def k0_chk604 (v1650 : IVec S16 32) (v2039 : IVec S16 32) : Prop :=
  (∀ a x, ((![v1650, v2039] : Fin 2 → IVec S16 32) a x).toNat < S128x200.size a)
instance k0_chk604.dec : ∀ (v1650 : IVec S16 32) (v2039 : IVec S16 32), Decidable (k0_chk604 v1650 v2039) := fun v1650 v2039 => decidable_of_iff' _ (Iff.of_eq (k0_chk604.eq_1 v1650 v2039))
theorem k0_idx604_inb : ∀ (v1650 : IVec S16 32) (v2039 : IVec S16 32) (k0_hw604 : k0_chk604 v1650 v2039), ∀ a x, ((![v1650, v2039] : Fin 2 → IVec S16 32) a x).toNat < S128x200.size a := fun v1650 v2039 k0_hw604 => k0_hw604

def k0_chk605 (v2040 : IVec S16 32) : Prop :=
  (∀ a x, ((![v2040] : Fin 1 → IVec S16 32) a x).toNat < S32.size a)
instance k0_chk605.dec : ∀ (v2040 : IVec S16 32), Decidable (k0_chk605 v2040) := fun v2040 => decidable_of_iff' _ (Iff.of_eq (k0_chk605.eq_1 v2040))
theorem k0_idx605_inb : ∀ (v2040 : IVec S16 32) (k0_hw605 : k0_chk605 v2040), ∀ a x, ((![v2040] : Fin 1 → IVec S16 32) a x).toNat < S32.size a := fun v2040 k0_hw605 => k0_hw605

def k0_chk606 (v1650 : IVec S16 32) (v2052 : IVec S16 32) : Prop :=
  (∀ a x, ((![v1650, v2052] : Fin 2 → IVec S16 32) a x).toNat < S128x200.size a)
instance k0_chk606.dec : ∀ (v1650 : IVec S16 32) (v2052 : IVec S16 32), Decidable (k0_chk606 v1650 v2052) := fun v1650 v2052 => decidable_of_iff' _ (Iff.of_eq (k0_chk606.eq_1 v1650 v2052))
theorem k0_idx606_inb : ∀ (v1650 : IVec S16 32) (v2052 : IVec S16 32) (k0_hw606 : k0_chk606 v1650 v2052), ∀ a x, ((![v1650, v2052] : Fin 2 → IVec S16 32) a x).toNat < S128x200.size a := fun v1650 v2052 k0_hw606 => k0_hw606

def k0_chk607 (v2053 : IVec S16 32) : Prop :=
  (∀ a x, ((![v2053] : Fin 1 → IVec S16 32) a x).toNat < S32.size a)
instance k0_chk607.dec : ∀ (v2053 : IVec S16 32), Decidable (k0_chk607 v2053) := fun v2053 => decidable_of_iff' _ (Iff.of_eq (k0_chk607.eq_1 v2053))
theorem k0_idx607_inb : ∀ (v2053 : IVec S16 32) (k0_hw607 : k0_chk607 v2053), ∀ a x, ((![v2053] : Fin 1 → IVec S16 32) a x).toNat < S32.size a := fun v2053 k0_hw607 => k0_hw607

def k0_chk608 (v1650 : IVec S16 32) (v2065 : IVec S16 32) : Prop :=
  (∀ a x, ((![v1650, v2065] : Fin 2 → IVec S16 32) a x).toNat < S128x200.size a)
instance k0_chk608.dec : ∀ (v1650 : IVec S16 32) (v2065 : IVec S16 32), Decidable (k0_chk608 v1650 v2065) := fun v1650 v2065 => decidable_of_iff' _ (Iff.of_eq (k0_chk608.eq_1 v1650 v2065))
theorem k0_idx608_inb : ∀ (v1650 : IVec S16 32) (v2065 : IVec S16 32) (k0_hw608 : k0_chk608 v1650 v2065), ∀ a x, ((![v1650, v2065] : Fin 2 → IVec S16 32) a x).toNat < S128x200.size a := fun v1650 v2065 k0_hw608 => k0_hw608

def k0_chk609 (v2066 : IVec S16 32) : Prop :=
  (∀ a x, ((![v2066] : Fin 1 → IVec S16 32) a x).toNat < S32.size a)
instance k0_chk609.dec : ∀ (v2066 : IVec S16 32), Decidable (k0_chk609 v2066) := fun v2066 => decidable_of_iff' _ (Iff.of_eq (k0_chk609.eq_1 v2066))
theorem k0_idx609_inb : ∀ (v2066 : IVec S16 32) (k0_hw609 : k0_chk609 v2066), ∀ a x, ((![v2066] : Fin 1 → IVec S16 32) a x).toNat < S32.size a := fun v2066 k0_hw609 => k0_hw609

def k0_chk610 (v1650 : IVec S16 32) (v2078 : IVec S16 32) : Prop :=
  (∀ a x, ((![v1650, v2078] : Fin 2 → IVec S16 32) a x).toNat < S128x200.size a)
instance k0_chk610.dec : ∀ (v1650 : IVec S16 32) (v2078 : IVec S16 32), Decidable (k0_chk610 v1650 v2078) := fun v1650 v2078 => decidable_of_iff' _ (Iff.of_eq (k0_chk610.eq_1 v1650 v2078))
theorem k0_idx610_inb : ∀ (v1650 : IVec S16 32) (v2078 : IVec S16 32) (k0_hw610 : k0_chk610 v1650 v2078), ∀ a x, ((![v1650, v2078] : Fin 2 → IVec S16 32) a x).toNat < S128x200.size a := fun v1650 v2078 k0_hw610 => k0_hw610

def k0_chk611 (v2079 : IVec S16 32) : Prop :=
  (∀ a x, ((![v2079] : Fin 1 → IVec S16 32) a x).toNat < S32.size a)
instance k0_chk611.dec : ∀ (v2079 : IVec S16 32), Decidable (k0_chk611 v2079) := fun v2079 => decidable_of_iff' _ (Iff.of_eq (k0_chk611.eq_1 v2079))
theorem k0_idx611_inb : ∀ (v2079 : IVec S16 32) (k0_hw611 : k0_chk611 v2079), ∀ a x, ((![v2079] : Fin 1 → IVec S16 32) a x).toNat < S32.size a := fun v2079 k0_hw611 => k0_hw611

def k0_chk612 (v1650 : IVec S16 32) (v2091 : IVec S16 32) : Prop :=
  (∀ a x, ((![v1650, v2091] : Fin 2 → IVec S16 32) a x).toNat < S128x200.size a)
instance k0_chk612.dec : ∀ (v1650 : IVec S16 32) (v2091 : IVec S16 32), Decidable (k0_chk612 v1650 v2091) := fun v1650 v2091 => decidable_of_iff' _ (Iff.of_eq (k0_chk612.eq_1 v1650 v2091))
theorem k0_idx612_inb : ∀ (v1650 : IVec S16 32) (v2091 : IVec S16 32) (k0_hw612 : k0_chk612 v1650 v2091), ∀ a x, ((![v1650, v2091] : Fin 2 → IVec S16 32) a x).toNat < S128x200.size a := fun v1650 v2091 k0_hw612 => k0_hw612

def k0_chk613 (v2092 : IVec S16 32) : Prop :=
  (∀ a x, ((![v2092] : Fin 1 → IVec S16 32) a x).toNat < S32.size a)
instance k0_chk613.dec : ∀ (v2092 : IVec S16 32), Decidable (k0_chk613 v2092) := fun v2092 => decidable_of_iff' _ (Iff.of_eq (k0_chk613.eq_1 v2092))
theorem k0_idx613_inb : ∀ (v2092 : IVec S16 32) (k0_hw613 : k0_chk613 v2092), ∀ a x, ((![v2092] : Fin 1 → IVec S16 32) a x).toNat < S32.size a := fun v2092 k0_hw613 => k0_hw613

def k0_chk614 (v1650 : IVec S16 32) (v2104 : IVec S16 32) : Prop :=
  (∀ a x, ((![v1650, v2104] : Fin 2 → IVec S16 32) a x).toNat < S128x200.size a)
instance k0_chk614.dec : ∀ (v1650 : IVec S16 32) (v2104 : IVec S16 32), Decidable (k0_chk614 v1650 v2104) := fun v1650 v2104 => decidable_of_iff' _ (Iff.of_eq (k0_chk614.eq_1 v1650 v2104))
theorem k0_idx614_inb : ∀ (v1650 : IVec S16 32) (v2104 : IVec S16 32) (k0_hw614 : k0_chk614 v1650 v2104), ∀ a x, ((![v1650, v2104] : Fin 2 → IVec S16 32) a x).toNat < S128x200.size a := fun v1650 v2104 k0_hw614 => k0_hw614

def k0_chk615 (v2105 : IVec S16 32) : Prop :=
  (∀ a x, ((![v2105] : Fin 1 → IVec S16 32) a x).toNat < S32.size a)
instance k0_chk615.dec : ∀ (v2105 : IVec S16 32), Decidable (k0_chk615 v2105) := fun v2105 => decidable_of_iff' _ (Iff.of_eq (k0_chk615.eq_1 v2105))
theorem k0_idx615_inb : ∀ (v2105 : IVec S16 32) (k0_hw615 : k0_chk615 v2105), ∀ a x, ((![v2105] : Fin 1 → IVec S16 32) a x).toNat < S32.size a := fun v2105 k0_hw615 => k0_hw615

def k0_chk616 (v1650 : IVec S16 32) (v2117 : IVec S16 32) : Prop :=
  (∀ a x, ((![v1650, v2117] : Fin 2 → IVec S16 32) a x).toNat < S128x200.size a)
instance k0_chk616.dec : ∀ (v1650 : IVec S16 32) (v2117 : IVec S16 32), Decidable (k0_chk616 v1650 v2117) := fun v1650 v2117 => decidable_of_iff' _ (Iff.of_eq (k0_chk616.eq_1 v1650 v2117))
theorem k0_idx616_inb : ∀ (v1650 : IVec S16 32) (v2117 : IVec S16 32) (k0_hw616 : k0_chk616 v1650 v2117), ∀ a x, ((![v1650, v2117] : Fin 2 → IVec S16 32) a x).toNat < S128x200.size a := fun v1650 v2117 k0_hw616 => k0_hw616

def k0_chk617 (v2118 : IVec S16 32) : Prop :=
  (∀ a x, ((![v2118] : Fin 1 → IVec S16 32) a x).toNat < S32.size a)
instance k0_chk617.dec : ∀ (v2118 : IVec S16 32), Decidable (k0_chk617 v2118) := fun v2118 => decidable_of_iff' _ (Iff.of_eq (k0_chk617.eq_1 v2118))
theorem k0_idx617_inb : ∀ (v2118 : IVec S16 32) (k0_hw617 : k0_chk617 v2118), ∀ a x, ((![v2118] : Fin 1 → IVec S16 32) a x).toNat < S32.size a := fun v2118 k0_hw617 => k0_hw617

def k0_chk618 (v1650 : IVec S16 32) (v1709 : IVec S16 32) : Prop :=
  (∀ a x, ((![v1650, v1709] : Fin 2 → IVec S16 32) a x).toNat < S128x32.size a)
instance k0_chk618.dec : ∀ (v1650 : IVec S16 32) (v1709 : IVec S16 32), Decidable (k0_chk618 v1650 v1709) := fun v1650 v1709 => decidable_of_iff' _ (Iff.of_eq (k0_chk618.eq_1 v1650 v1709))
theorem k0_idx618_inb : ∀ (v1650 : IVec S16 32) (v1709 : IVec S16 32) (k0_hw618 : k0_chk618 v1650 v1709), ∀ a x, ((![v1650, v1709] : Fin 2 → IVec S16 32) a x).toNat < S128x32.size a := fun v1650 v1709 k0_hw618 => k0_hw618

def k0_chk619 (v1650 : IVec S16 32) (v1652 : IVec S16 32) : Prop :=
  (∀ a x, ((![v1650, v1652] : Fin 2 → IVec S16 32) a x).toNat < S128x32.size a)
instance k0_chk619.dec : ∀ (v1650 : IVec S16 32) (v1652 : IVec S16 32), Decidable (k0_chk619 v1650 v1652) := fun v1650 v1652 => decidable_of_iff' _ (Iff.of_eq (k0_chk619.eq_1 v1650 v1652))
theorem k0_idx619_inb : ∀ (v1650 : IVec S16 32) (v1652 : IVec S16 32) (k0_hw619 : k0_chk619 v1650 v1652), ∀ a x, ((![v1650, v1652] : Fin 2 → IVec S16 32) a x).toNat < S128x32.size a := fun v1650 v1652 k0_hw619 => k0_hw619

def k0_chk620 (v1650 : IVec S16 32) (v1710 : IVec S16 32) : Prop :=
  (∀ a x, ((![v1650, v1710] : Fin 2 → IVec S16 32) a x).toNat < S128x32.size a)
instance k0_chk620.dec : ∀ (v1650 : IVec S16 32) (v1710 : IVec S16 32), Decidable (k0_chk620 v1650 v1710) := fun v1650 v1710 => decidable_of_iff' _ (Iff.of_eq (k0_chk620.eq_1 v1650 v1710))
theorem k0_idx620_inb : ∀ (v1650 : IVec S16 32) (v1710 : IVec S16 32) (k0_hw620 : k0_chk620 v1650 v1710), ∀ a x, ((![v1650, v1710] : Fin 2 → IVec S16 32) a x).toNat < S128x32.size a := fun v1650 v1710 k0_hw620 => k0_hw620

def k0_chk621 (v1650 : IVec S16 32) (v1711 : IVec S16 32) : Prop :=
  (∀ a x, ((![v1650, v1711] : Fin 2 → IVec S16 32) a x).toNat < S128x32.size a)
instance k0_chk621.dec : ∀ (v1650 : IVec S16 32) (v1711 : IVec S16 32), Decidable (k0_chk621 v1650 v1711) := fun v1650 v1711 => decidable_of_iff' _ (Iff.of_eq (k0_chk621.eq_1 v1650 v1711))
theorem k0_idx621_inb : ∀ (v1650 : IVec S16 32) (v1711 : IVec S16 32) (k0_hw621 : k0_chk621 v1650 v1711), ∀ a x, ((![v1650, v1711] : Fin 2 → IVec S16 32) a x).toNat < S128x32.size a := fun v1650 v1711 k0_hw621 => k0_hw621

def k0_chk622 (v1713 : IVec S16 32) (v1714 : IVec S16 32) : Prop :=
  (∀ a x, ((![v1713, v1714] : Fin 2 → IVec S16 32) a x).toNat < S128x200.size a)
instance k0_chk622.dec : ∀ (v1713 : IVec S16 32) (v1714 : IVec S16 32), Decidable (k0_chk622 v1713 v1714) := fun v1713 v1714 => decidable_of_iff' _ (Iff.of_eq (k0_chk622.eq_1 v1713 v1714))
theorem k0_idx622_inb : ∀ (v1713 : IVec S16 32) (v1714 : IVec S16 32) (k0_hw622 : k0_chk622 v1713 v1714), ∀ a x, ((![v1713, v1714] : Fin 2 → IVec S16 32) a x).toNat < S128x200.size a := fun v1713 v1714 k0_hw622 => k0_hw622

def k0_chk623 (v1713 : IVec S16 32) (v1716 : IVec S16 32) : Prop :=
  (∀ a x, ((![v1713, v1716] : Fin 2 → IVec S16 32) a x).toNat < S128x200.size a)
instance k0_chk623.dec : ∀ (v1713 : IVec S16 32) (v1716 : IVec S16 32), Decidable (k0_chk623 v1713 v1716) := fun v1713 v1716 => decidable_of_iff' _ (Iff.of_eq (k0_chk623.eq_1 v1713 v1716))
theorem k0_idx623_inb : ∀ (v1713 : IVec S16 32) (v1716 : IVec S16 32) (k0_hw623 : k0_chk623 v1713 v1716), ∀ a x, ((![v1713, v1716] : Fin 2 → IVec S16 32) a x).toNat < S128x200.size a := fun v1713 v1716 k0_hw623 => k0_hw623

def k0_chk624 (v1713 : IVec S16 32) (v1718 : IVec S16 32) : Prop :=
  (∀ a x, ((![v1713, v1718] : Fin 2 → IVec S16 32) a x).toNat < S128x200.size a)
instance k0_chk624.dec : ∀ (v1713 : IVec S16 32) (v1718 : IVec S16 32), Decidable (k0_chk624 v1713 v1718) := fun v1713 v1718 => decidable_of_iff' _ (Iff.of_eq (k0_chk624.eq_1 v1713 v1718))
theorem k0_idx624_inb : ∀ (v1713 : IVec S16 32) (v1718 : IVec S16 32) (k0_hw624 : k0_chk624 v1713 v1718), ∀ a x, ((![v1713, v1718] : Fin 2 → IVec S16 32) a x).toNat < S128x200.size a := fun v1713 v1718 k0_hw624 => k0_hw624
@[reducible] def k0_t28_loop : Scf.Loop 32 :=
  let c0_i32_852 : BitVec 32 := 0#32
  let c25_i32_853 : BitVec 32 := 25#32
  let v1722 : BitVec 32 := Scalar.addi c0_i32_852 c25_i32_853
  let c1_i32_854 : BitVec 32 := 1#32
  ⟨c0_i32_852, v1722, c1_i32_854⟩

def k0_chk625 (v1713 : IVec S16 32) (arg10 : IVec S16 32) : Prop :=
  (∀ a x, ((![v1713, arg10] : Fin 2 → IVec S16 32) a x).toNat < S128x200.size a)
instance k0_chk625.dec : ∀ (v1713 : IVec S16 32) (arg10 : IVec S16 32), Decidable (k0_chk625 v1713 arg10) := fun v1713 arg10 => decidable_of_iff' _ (Iff.of_eq (k0_chk625.eq_1 v1713 arg10))
theorem k0_idx625_inb : ∀ (v1713 : IVec S16 32) (arg10 : IVec S16 32) (k0_hw625 : k0_chk625 v1713 arg10), ∀ a x, ((![v1713, arg10] : Fin 2 → IVec S16 32) a x).toNat < S128x200.size a := fun v1713 arg10 k0_hw625 => k0_hw625

def k0_chk626 (v2027 : IVec S16 32) : Prop :=
  (∀ a x, ((![v2027] : Fin 1 → IVec S16 32) a x).toNat < S32.size a)
instance k0_chk626.dec : ∀ (v2027 : IVec S16 32), Decidable (k0_chk626 v2027) := fun v2027 => decidable_of_iff' _ (Iff.of_eq (k0_chk626.eq_1 v2027))
theorem k0_idx626_inb : ∀ (v2027 : IVec S16 32) (k0_hw626 : k0_chk626 v2027), ∀ a x, ((![v2027] : Fin 1 → IVec S16 32) a x).toNat < S32.size a := fun v2027 k0_hw626 => k0_hw626

def k0_chk627 (v1713 : IVec S16 32) (v2039 : IVec S16 32) : Prop :=
  (∀ a x, ((![v1713, v2039] : Fin 2 → IVec S16 32) a x).toNat < S128x200.size a)
instance k0_chk627.dec : ∀ (v1713 : IVec S16 32) (v2039 : IVec S16 32), Decidable (k0_chk627 v1713 v2039) := fun v1713 v2039 => decidable_of_iff' _ (Iff.of_eq (k0_chk627.eq_1 v1713 v2039))
theorem k0_idx627_inb : ∀ (v1713 : IVec S16 32) (v2039 : IVec S16 32) (k0_hw627 : k0_chk627 v1713 v2039), ∀ a x, ((![v1713, v2039] : Fin 2 → IVec S16 32) a x).toNat < S128x200.size a := fun v1713 v2039 k0_hw627 => k0_hw627

def k0_chk628 (v2040 : IVec S16 32) : Prop :=
  (∀ a x, ((![v2040] : Fin 1 → IVec S16 32) a x).toNat < S32.size a)
instance k0_chk628.dec : ∀ (v2040 : IVec S16 32), Decidable (k0_chk628 v2040) := fun v2040 => decidable_of_iff' _ (Iff.of_eq (k0_chk628.eq_1 v2040))
theorem k0_idx628_inb : ∀ (v2040 : IVec S16 32) (k0_hw628 : k0_chk628 v2040), ∀ a x, ((![v2040] : Fin 1 → IVec S16 32) a x).toNat < S32.size a := fun v2040 k0_hw628 => k0_hw628

def k0_chk629 (v1713 : IVec S16 32) (v2052 : IVec S16 32) : Prop :=
  (∀ a x, ((![v1713, v2052] : Fin 2 → IVec S16 32) a x).toNat < S128x200.size a)
instance k0_chk629.dec : ∀ (v1713 : IVec S16 32) (v2052 : IVec S16 32), Decidable (k0_chk629 v1713 v2052) := fun v1713 v2052 => decidable_of_iff' _ (Iff.of_eq (k0_chk629.eq_1 v1713 v2052))
theorem k0_idx629_inb : ∀ (v1713 : IVec S16 32) (v2052 : IVec S16 32) (k0_hw629 : k0_chk629 v1713 v2052), ∀ a x, ((![v1713, v2052] : Fin 2 → IVec S16 32) a x).toNat < S128x200.size a := fun v1713 v2052 k0_hw629 => k0_hw629

def k0_chk630 (v2053 : IVec S16 32) : Prop :=
  (∀ a x, ((![v2053] : Fin 1 → IVec S16 32) a x).toNat < S32.size a)
instance k0_chk630.dec : ∀ (v2053 : IVec S16 32), Decidable (k0_chk630 v2053) := fun v2053 => decidable_of_iff' _ (Iff.of_eq (k0_chk630.eq_1 v2053))
theorem k0_idx630_inb : ∀ (v2053 : IVec S16 32) (k0_hw630 : k0_chk630 v2053), ∀ a x, ((![v2053] : Fin 1 → IVec S16 32) a x).toNat < S32.size a := fun v2053 k0_hw630 => k0_hw630

def k0_chk631 (v1713 : IVec S16 32) (v2065 : IVec S16 32) : Prop :=
  (∀ a x, ((![v1713, v2065] : Fin 2 → IVec S16 32) a x).toNat < S128x200.size a)
instance k0_chk631.dec : ∀ (v1713 : IVec S16 32) (v2065 : IVec S16 32), Decidable (k0_chk631 v1713 v2065) := fun v1713 v2065 => decidable_of_iff' _ (Iff.of_eq (k0_chk631.eq_1 v1713 v2065))
theorem k0_idx631_inb : ∀ (v1713 : IVec S16 32) (v2065 : IVec S16 32) (k0_hw631 : k0_chk631 v1713 v2065), ∀ a x, ((![v1713, v2065] : Fin 2 → IVec S16 32) a x).toNat < S128x200.size a := fun v1713 v2065 k0_hw631 => k0_hw631

def k0_chk632 (v2066 : IVec S16 32) : Prop :=
  (∀ a x, ((![v2066] : Fin 1 → IVec S16 32) a x).toNat < S32.size a)
instance k0_chk632.dec : ∀ (v2066 : IVec S16 32), Decidable (k0_chk632 v2066) := fun v2066 => decidable_of_iff' _ (Iff.of_eq (k0_chk632.eq_1 v2066))
theorem k0_idx632_inb : ∀ (v2066 : IVec S16 32) (k0_hw632 : k0_chk632 v2066), ∀ a x, ((![v2066] : Fin 1 → IVec S16 32) a x).toNat < S32.size a := fun v2066 k0_hw632 => k0_hw632

def k0_chk633 (v1713 : IVec S16 32) (v2078 : IVec S16 32) : Prop :=
  (∀ a x, ((![v1713, v2078] : Fin 2 → IVec S16 32) a x).toNat < S128x200.size a)
instance k0_chk633.dec : ∀ (v1713 : IVec S16 32) (v2078 : IVec S16 32), Decidable (k0_chk633 v1713 v2078) := fun v1713 v2078 => decidable_of_iff' _ (Iff.of_eq (k0_chk633.eq_1 v1713 v2078))
theorem k0_idx633_inb : ∀ (v1713 : IVec S16 32) (v2078 : IVec S16 32) (k0_hw633 : k0_chk633 v1713 v2078), ∀ a x, ((![v1713, v2078] : Fin 2 → IVec S16 32) a x).toNat < S128x200.size a := fun v1713 v2078 k0_hw633 => k0_hw633

def k0_chk634 (v2079 : IVec S16 32) : Prop :=
  (∀ a x, ((![v2079] : Fin 1 → IVec S16 32) a x).toNat < S32.size a)
instance k0_chk634.dec : ∀ (v2079 : IVec S16 32), Decidable (k0_chk634 v2079) := fun v2079 => decidable_of_iff' _ (Iff.of_eq (k0_chk634.eq_1 v2079))
theorem k0_idx634_inb : ∀ (v2079 : IVec S16 32) (k0_hw634 : k0_chk634 v2079), ∀ a x, ((![v2079] : Fin 1 → IVec S16 32) a x).toNat < S32.size a := fun v2079 k0_hw634 => k0_hw634

def k0_chk635 (v1713 : IVec S16 32) (v2091 : IVec S16 32) : Prop :=
  (∀ a x, ((![v1713, v2091] : Fin 2 → IVec S16 32) a x).toNat < S128x200.size a)
instance k0_chk635.dec : ∀ (v1713 : IVec S16 32) (v2091 : IVec S16 32), Decidable (k0_chk635 v1713 v2091) := fun v1713 v2091 => decidable_of_iff' _ (Iff.of_eq (k0_chk635.eq_1 v1713 v2091))
theorem k0_idx635_inb : ∀ (v1713 : IVec S16 32) (v2091 : IVec S16 32) (k0_hw635 : k0_chk635 v1713 v2091), ∀ a x, ((![v1713, v2091] : Fin 2 → IVec S16 32) a x).toNat < S128x200.size a := fun v1713 v2091 k0_hw635 => k0_hw635

def k0_chk636 (v2092 : IVec S16 32) : Prop :=
  (∀ a x, ((![v2092] : Fin 1 → IVec S16 32) a x).toNat < S32.size a)
instance k0_chk636.dec : ∀ (v2092 : IVec S16 32), Decidable (k0_chk636 v2092) := fun v2092 => decidable_of_iff' _ (Iff.of_eq (k0_chk636.eq_1 v2092))
theorem k0_idx636_inb : ∀ (v2092 : IVec S16 32) (k0_hw636 : k0_chk636 v2092), ∀ a x, ((![v2092] : Fin 1 → IVec S16 32) a x).toNat < S32.size a := fun v2092 k0_hw636 => k0_hw636

def k0_chk637 (v1713 : IVec S16 32) (v2104 : IVec S16 32) : Prop :=
  (∀ a x, ((![v1713, v2104] : Fin 2 → IVec S16 32) a x).toNat < S128x200.size a)
instance k0_chk637.dec : ∀ (v1713 : IVec S16 32) (v2104 : IVec S16 32), Decidable (k0_chk637 v1713 v2104) := fun v1713 v2104 => decidable_of_iff' _ (Iff.of_eq (k0_chk637.eq_1 v1713 v2104))
theorem k0_idx637_inb : ∀ (v1713 : IVec S16 32) (v2104 : IVec S16 32) (k0_hw637 : k0_chk637 v1713 v2104), ∀ a x, ((![v1713, v2104] : Fin 2 → IVec S16 32) a x).toNat < S128x200.size a := fun v1713 v2104 k0_hw637 => k0_hw637

def k0_chk638 (v2105 : IVec S16 32) : Prop :=
  (∀ a x, ((![v2105] : Fin 1 → IVec S16 32) a x).toNat < S32.size a)
instance k0_chk638.dec : ∀ (v2105 : IVec S16 32), Decidable (k0_chk638 v2105) := fun v2105 => decidable_of_iff' _ (Iff.of_eq (k0_chk638.eq_1 v2105))
theorem k0_idx638_inb : ∀ (v2105 : IVec S16 32) (k0_hw638 : k0_chk638 v2105), ∀ a x, ((![v2105] : Fin 1 → IVec S16 32) a x).toNat < S32.size a := fun v2105 k0_hw638 => k0_hw638

def k0_chk639 (v1713 : IVec S16 32) (v2117 : IVec S16 32) : Prop :=
  (∀ a x, ((![v1713, v2117] : Fin 2 → IVec S16 32) a x).toNat < S128x200.size a)
instance k0_chk639.dec : ∀ (v1713 : IVec S16 32) (v2117 : IVec S16 32), Decidable (k0_chk639 v1713 v2117) := fun v1713 v2117 => decidable_of_iff' _ (Iff.of_eq (k0_chk639.eq_1 v1713 v2117))
theorem k0_idx639_inb : ∀ (v1713 : IVec S16 32) (v2117 : IVec S16 32) (k0_hw639 : k0_chk639 v1713 v2117), ∀ a x, ((![v1713, v2117] : Fin 2 → IVec S16 32) a x).toNat < S128x200.size a := fun v1713 v2117 k0_hw639 => k0_hw639

def k0_chk640 (v2118 : IVec S16 32) : Prop :=
  (∀ a x, ((![v2118] : Fin 1 → IVec S16 32) a x).toNat < S32.size a)
instance k0_chk640.dec : ∀ (v2118 : IVec S16 32), Decidable (k0_chk640 v2118) := fun v2118 => decidable_of_iff' _ (Iff.of_eq (k0_chk640.eq_1 v2118))
theorem k0_idx640_inb : ∀ (v2118 : IVec S16 32) (k0_hw640 : k0_chk640 v2118), ∀ a x, ((![v2118] : Fin 1 → IVec S16 32) a x).toNat < S32.size a := fun v2118 k0_hw640 => k0_hw640

def k0_chk641 (v1713 : IVec S16 32) (v1772 : IVec S16 32) : Prop :=
  (∀ a x, ((![v1713, v1772] : Fin 2 → IVec S16 32) a x).toNat < S128x32.size a)
instance k0_chk641.dec : ∀ (v1713 : IVec S16 32) (v1772 : IVec S16 32), Decidable (k0_chk641 v1713 v1772) := fun v1713 v1772 => decidable_of_iff' _ (Iff.of_eq (k0_chk641.eq_1 v1713 v1772))
theorem k0_idx641_inb : ∀ (v1713 : IVec S16 32) (v1772 : IVec S16 32) (k0_hw641 : k0_chk641 v1713 v1772), ∀ a x, ((![v1713, v1772] : Fin 2 → IVec S16 32) a x).toNat < S128x32.size a := fun v1713 v1772 k0_hw641 => k0_hw641

def k0_chk642 (v1713 : IVec S16 32) (v1715 : IVec S16 32) : Prop :=
  (∀ a x, ((![v1713, v1715] : Fin 2 → IVec S16 32) a x).toNat < S128x32.size a)
instance k0_chk642.dec : ∀ (v1713 : IVec S16 32) (v1715 : IVec S16 32), Decidable (k0_chk642 v1713 v1715) := fun v1713 v1715 => decidable_of_iff' _ (Iff.of_eq (k0_chk642.eq_1 v1713 v1715))
theorem k0_idx642_inb : ∀ (v1713 : IVec S16 32) (v1715 : IVec S16 32) (k0_hw642 : k0_chk642 v1713 v1715), ∀ a x, ((![v1713, v1715] : Fin 2 → IVec S16 32) a x).toNat < S128x32.size a := fun v1713 v1715 k0_hw642 => k0_hw642

def k0_chk643 (v1713 : IVec S16 32) (v1773 : IVec S16 32) : Prop :=
  (∀ a x, ((![v1713, v1773] : Fin 2 → IVec S16 32) a x).toNat < S128x32.size a)
instance k0_chk643.dec : ∀ (v1713 : IVec S16 32) (v1773 : IVec S16 32), Decidable (k0_chk643 v1713 v1773) := fun v1713 v1773 => decidable_of_iff' _ (Iff.of_eq (k0_chk643.eq_1 v1713 v1773))
theorem k0_idx643_inb : ∀ (v1713 : IVec S16 32) (v1773 : IVec S16 32) (k0_hw643 : k0_chk643 v1713 v1773), ∀ a x, ((![v1713, v1773] : Fin 2 → IVec S16 32) a x).toNat < S128x32.size a := fun v1713 v1773 k0_hw643 => k0_hw643

def k0_chk644 (v1713 : IVec S16 32) (v1774 : IVec S16 32) : Prop :=
  (∀ a x, ((![v1713, v1774] : Fin 2 → IVec S16 32) a x).toNat < S128x32.size a)
instance k0_chk644.dec : ∀ (v1713 : IVec S16 32) (v1774 : IVec S16 32), Decidable (k0_chk644 v1713 v1774) := fun v1713 v1774 => decidable_of_iff' _ (Iff.of_eq (k0_chk644.eq_1 v1713 v1774))
theorem k0_idx644_inb : ∀ (v1713 : IVec S16 32) (v1774 : IVec S16 32) (k0_hw644 : k0_chk644 v1713 v1774), ∀ a x, ((![v1713, v1774] : Fin 2 → IVec S16 32) a x).toNat < S128x32.size a := fun v1713 v1774 k0_hw644 => k0_hw644

def k0_chk645 (v1776 : IVec S16 32) (v1777 : IVec S16 32) : Prop :=
  (∀ a x, ((![v1776, v1777] : Fin 2 → IVec S16 32) a x).toNat < S128x200.size a)
instance k0_chk645.dec : ∀ (v1776 : IVec S16 32) (v1777 : IVec S16 32), Decidable (k0_chk645 v1776 v1777) := fun v1776 v1777 => decidable_of_iff' _ (Iff.of_eq (k0_chk645.eq_1 v1776 v1777))
theorem k0_idx645_inb : ∀ (v1776 : IVec S16 32) (v1777 : IVec S16 32) (k0_hw645 : k0_chk645 v1776 v1777), ∀ a x, ((![v1776, v1777] : Fin 2 → IVec S16 32) a x).toNat < S128x200.size a := fun v1776 v1777 k0_hw645 => k0_hw645

def k0_chk646 (v1776 : IVec S16 32) (v1779 : IVec S16 32) : Prop :=
  (∀ a x, ((![v1776, v1779] : Fin 2 → IVec S16 32) a x).toNat < S128x200.size a)
instance k0_chk646.dec : ∀ (v1776 : IVec S16 32) (v1779 : IVec S16 32), Decidable (k0_chk646 v1776 v1779) := fun v1776 v1779 => decidable_of_iff' _ (Iff.of_eq (k0_chk646.eq_1 v1776 v1779))
theorem k0_idx646_inb : ∀ (v1776 : IVec S16 32) (v1779 : IVec S16 32) (k0_hw646 : k0_chk646 v1776 v1779), ∀ a x, ((![v1776, v1779] : Fin 2 → IVec S16 32) a x).toNat < S128x200.size a := fun v1776 v1779 k0_hw646 => k0_hw646

def k0_chk647 (v1776 : IVec S16 32) (v1781 : IVec S16 32) : Prop :=
  (∀ a x, ((![v1776, v1781] : Fin 2 → IVec S16 32) a x).toNat < S128x200.size a)
instance k0_chk647.dec : ∀ (v1776 : IVec S16 32) (v1781 : IVec S16 32), Decidable (k0_chk647 v1776 v1781) := fun v1776 v1781 => decidable_of_iff' _ (Iff.of_eq (k0_chk647.eq_1 v1776 v1781))
theorem k0_idx647_inb : ∀ (v1776 : IVec S16 32) (v1781 : IVec S16 32) (k0_hw647 : k0_chk647 v1776 v1781), ∀ a x, ((![v1776, v1781] : Fin 2 → IVec S16 32) a x).toNat < S128x200.size a := fun v1776 v1781 k0_hw647 => k0_hw647
@[reducible] def k0_t29_loop : Scf.Loop 32 :=
  let c0_i32_884 : BitVec 32 := 0#32
  let c25_i32_885 : BitVec 32 := 25#32
  let v1785 : BitVec 32 := Scalar.addi c0_i32_884 c25_i32_885
  let c1_i32_886 : BitVec 32 := 1#32
  ⟨c0_i32_884, v1785, c1_i32_886⟩

def k0_chk648 (v1776 : IVec S16 32) (arg10 : IVec S16 32) : Prop :=
  (∀ a x, ((![v1776, arg10] : Fin 2 → IVec S16 32) a x).toNat < S128x200.size a)
instance k0_chk648.dec : ∀ (v1776 : IVec S16 32) (arg10 : IVec S16 32), Decidable (k0_chk648 v1776 arg10) := fun v1776 arg10 => decidable_of_iff' _ (Iff.of_eq (k0_chk648.eq_1 v1776 arg10))
theorem k0_idx648_inb : ∀ (v1776 : IVec S16 32) (arg10 : IVec S16 32) (k0_hw648 : k0_chk648 v1776 arg10), ∀ a x, ((![v1776, arg10] : Fin 2 → IVec S16 32) a x).toNat < S128x200.size a := fun v1776 arg10 k0_hw648 => k0_hw648

def k0_chk649 (v2027 : IVec S16 32) : Prop :=
  (∀ a x, ((![v2027] : Fin 1 → IVec S16 32) a x).toNat < S32.size a)
instance k0_chk649.dec : ∀ (v2027 : IVec S16 32), Decidable (k0_chk649 v2027) := fun v2027 => decidable_of_iff' _ (Iff.of_eq (k0_chk649.eq_1 v2027))
theorem k0_idx649_inb : ∀ (v2027 : IVec S16 32) (k0_hw649 : k0_chk649 v2027), ∀ a x, ((![v2027] : Fin 1 → IVec S16 32) a x).toNat < S32.size a := fun v2027 k0_hw649 => k0_hw649

def k0_chk650 (v1776 : IVec S16 32) (v2039 : IVec S16 32) : Prop :=
  (∀ a x, ((![v1776, v2039] : Fin 2 → IVec S16 32) a x).toNat < S128x200.size a)
instance k0_chk650.dec : ∀ (v1776 : IVec S16 32) (v2039 : IVec S16 32), Decidable (k0_chk650 v1776 v2039) := fun v1776 v2039 => decidable_of_iff' _ (Iff.of_eq (k0_chk650.eq_1 v1776 v2039))
theorem k0_idx650_inb : ∀ (v1776 : IVec S16 32) (v2039 : IVec S16 32) (k0_hw650 : k0_chk650 v1776 v2039), ∀ a x, ((![v1776, v2039] : Fin 2 → IVec S16 32) a x).toNat < S128x200.size a := fun v1776 v2039 k0_hw650 => k0_hw650

def k0_chk651 (v2040 : IVec S16 32) : Prop :=
  (∀ a x, ((![v2040] : Fin 1 → IVec S16 32) a x).toNat < S32.size a)
instance k0_chk651.dec : ∀ (v2040 : IVec S16 32), Decidable (k0_chk651 v2040) := fun v2040 => decidable_of_iff' _ (Iff.of_eq (k0_chk651.eq_1 v2040))
theorem k0_idx651_inb : ∀ (v2040 : IVec S16 32) (k0_hw651 : k0_chk651 v2040), ∀ a x, ((![v2040] : Fin 1 → IVec S16 32) a x).toNat < S32.size a := fun v2040 k0_hw651 => k0_hw651

def k0_chk652 (v1776 : IVec S16 32) (v2052 : IVec S16 32) : Prop :=
  (∀ a x, ((![v1776, v2052] : Fin 2 → IVec S16 32) a x).toNat < S128x200.size a)
instance k0_chk652.dec : ∀ (v1776 : IVec S16 32) (v2052 : IVec S16 32), Decidable (k0_chk652 v1776 v2052) := fun v1776 v2052 => decidable_of_iff' _ (Iff.of_eq (k0_chk652.eq_1 v1776 v2052))
theorem k0_idx652_inb : ∀ (v1776 : IVec S16 32) (v2052 : IVec S16 32) (k0_hw652 : k0_chk652 v1776 v2052), ∀ a x, ((![v1776, v2052] : Fin 2 → IVec S16 32) a x).toNat < S128x200.size a := fun v1776 v2052 k0_hw652 => k0_hw652

def k0_chk653 (v2053 : IVec S16 32) : Prop :=
  (∀ a x, ((![v2053] : Fin 1 → IVec S16 32) a x).toNat < S32.size a)
instance k0_chk653.dec : ∀ (v2053 : IVec S16 32), Decidable (k0_chk653 v2053) := fun v2053 => decidable_of_iff' _ (Iff.of_eq (k0_chk653.eq_1 v2053))
theorem k0_idx653_inb : ∀ (v2053 : IVec S16 32) (k0_hw653 : k0_chk653 v2053), ∀ a x, ((![v2053] : Fin 1 → IVec S16 32) a x).toNat < S32.size a := fun v2053 k0_hw653 => k0_hw653

def k0_chk654 (v1776 : IVec S16 32) (v2065 : IVec S16 32) : Prop :=
  (∀ a x, ((![v1776, v2065] : Fin 2 → IVec S16 32) a x).toNat < S128x200.size a)
instance k0_chk654.dec : ∀ (v1776 : IVec S16 32) (v2065 : IVec S16 32), Decidable (k0_chk654 v1776 v2065) := fun v1776 v2065 => decidable_of_iff' _ (Iff.of_eq (k0_chk654.eq_1 v1776 v2065))
theorem k0_idx654_inb : ∀ (v1776 : IVec S16 32) (v2065 : IVec S16 32) (k0_hw654 : k0_chk654 v1776 v2065), ∀ a x, ((![v1776, v2065] : Fin 2 → IVec S16 32) a x).toNat < S128x200.size a := fun v1776 v2065 k0_hw654 => k0_hw654

def k0_chk655 (v2066 : IVec S16 32) : Prop :=
  (∀ a x, ((![v2066] : Fin 1 → IVec S16 32) a x).toNat < S32.size a)
instance k0_chk655.dec : ∀ (v2066 : IVec S16 32), Decidable (k0_chk655 v2066) := fun v2066 => decidable_of_iff' _ (Iff.of_eq (k0_chk655.eq_1 v2066))
theorem k0_idx655_inb : ∀ (v2066 : IVec S16 32) (k0_hw655 : k0_chk655 v2066), ∀ a x, ((![v2066] : Fin 1 → IVec S16 32) a x).toNat < S32.size a := fun v2066 k0_hw655 => k0_hw655

def k0_chk656 (v1776 : IVec S16 32) (v2078 : IVec S16 32) : Prop :=
  (∀ a x, ((![v1776, v2078] : Fin 2 → IVec S16 32) a x).toNat < S128x200.size a)
instance k0_chk656.dec : ∀ (v1776 : IVec S16 32) (v2078 : IVec S16 32), Decidable (k0_chk656 v1776 v2078) := fun v1776 v2078 => decidable_of_iff' _ (Iff.of_eq (k0_chk656.eq_1 v1776 v2078))
theorem k0_idx656_inb : ∀ (v1776 : IVec S16 32) (v2078 : IVec S16 32) (k0_hw656 : k0_chk656 v1776 v2078), ∀ a x, ((![v1776, v2078] : Fin 2 → IVec S16 32) a x).toNat < S128x200.size a := fun v1776 v2078 k0_hw656 => k0_hw656

def k0_chk657 (v2079 : IVec S16 32) : Prop :=
  (∀ a x, ((![v2079] : Fin 1 → IVec S16 32) a x).toNat < S32.size a)
instance k0_chk657.dec : ∀ (v2079 : IVec S16 32), Decidable (k0_chk657 v2079) := fun v2079 => decidable_of_iff' _ (Iff.of_eq (k0_chk657.eq_1 v2079))
theorem k0_idx657_inb : ∀ (v2079 : IVec S16 32) (k0_hw657 : k0_chk657 v2079), ∀ a x, ((![v2079] : Fin 1 → IVec S16 32) a x).toNat < S32.size a := fun v2079 k0_hw657 => k0_hw657

def k0_chk658 (v1776 : IVec S16 32) (v2091 : IVec S16 32) : Prop :=
  (∀ a x, ((![v1776, v2091] : Fin 2 → IVec S16 32) a x).toNat < S128x200.size a)
instance k0_chk658.dec : ∀ (v1776 : IVec S16 32) (v2091 : IVec S16 32), Decidable (k0_chk658 v1776 v2091) := fun v1776 v2091 => decidable_of_iff' _ (Iff.of_eq (k0_chk658.eq_1 v1776 v2091))
theorem k0_idx658_inb : ∀ (v1776 : IVec S16 32) (v2091 : IVec S16 32) (k0_hw658 : k0_chk658 v1776 v2091), ∀ a x, ((![v1776, v2091] : Fin 2 → IVec S16 32) a x).toNat < S128x200.size a := fun v1776 v2091 k0_hw658 => k0_hw658

def k0_chk659 (v2092 : IVec S16 32) : Prop :=
  (∀ a x, ((![v2092] : Fin 1 → IVec S16 32) a x).toNat < S32.size a)
instance k0_chk659.dec : ∀ (v2092 : IVec S16 32), Decidable (k0_chk659 v2092) := fun v2092 => decidable_of_iff' _ (Iff.of_eq (k0_chk659.eq_1 v2092))
theorem k0_idx659_inb : ∀ (v2092 : IVec S16 32) (k0_hw659 : k0_chk659 v2092), ∀ a x, ((![v2092] : Fin 1 → IVec S16 32) a x).toNat < S32.size a := fun v2092 k0_hw659 => k0_hw659

def k0_chk660 (v1776 : IVec S16 32) (v2104 : IVec S16 32) : Prop :=
  (∀ a x, ((![v1776, v2104] : Fin 2 → IVec S16 32) a x).toNat < S128x200.size a)
instance k0_chk660.dec : ∀ (v1776 : IVec S16 32) (v2104 : IVec S16 32), Decidable (k0_chk660 v1776 v2104) := fun v1776 v2104 => decidable_of_iff' _ (Iff.of_eq (k0_chk660.eq_1 v1776 v2104))
theorem k0_idx660_inb : ∀ (v1776 : IVec S16 32) (v2104 : IVec S16 32) (k0_hw660 : k0_chk660 v1776 v2104), ∀ a x, ((![v1776, v2104] : Fin 2 → IVec S16 32) a x).toNat < S128x200.size a := fun v1776 v2104 k0_hw660 => k0_hw660

def k0_chk661 (v2105 : IVec S16 32) : Prop :=
  (∀ a x, ((![v2105] : Fin 1 → IVec S16 32) a x).toNat < S32.size a)
instance k0_chk661.dec : ∀ (v2105 : IVec S16 32), Decidable (k0_chk661 v2105) := fun v2105 => decidable_of_iff' _ (Iff.of_eq (k0_chk661.eq_1 v2105))
theorem k0_idx661_inb : ∀ (v2105 : IVec S16 32) (k0_hw661 : k0_chk661 v2105), ∀ a x, ((![v2105] : Fin 1 → IVec S16 32) a x).toNat < S32.size a := fun v2105 k0_hw661 => k0_hw661

def k0_chk662 (v1776 : IVec S16 32) (v2117 : IVec S16 32) : Prop :=
  (∀ a x, ((![v1776, v2117] : Fin 2 → IVec S16 32) a x).toNat < S128x200.size a)
instance k0_chk662.dec : ∀ (v1776 : IVec S16 32) (v2117 : IVec S16 32), Decidable (k0_chk662 v1776 v2117) := fun v1776 v2117 => decidable_of_iff' _ (Iff.of_eq (k0_chk662.eq_1 v1776 v2117))
theorem k0_idx662_inb : ∀ (v1776 : IVec S16 32) (v2117 : IVec S16 32) (k0_hw662 : k0_chk662 v1776 v2117), ∀ a x, ((![v1776, v2117] : Fin 2 → IVec S16 32) a x).toNat < S128x200.size a := fun v1776 v2117 k0_hw662 => k0_hw662

def k0_chk663 (v2118 : IVec S16 32) : Prop :=
  (∀ a x, ((![v2118] : Fin 1 → IVec S16 32) a x).toNat < S32.size a)
instance k0_chk663.dec : ∀ (v2118 : IVec S16 32), Decidable (k0_chk663 v2118) := fun v2118 => decidable_of_iff' _ (Iff.of_eq (k0_chk663.eq_1 v2118))
theorem k0_idx663_inb : ∀ (v2118 : IVec S16 32) (k0_hw663 : k0_chk663 v2118), ∀ a x, ((![v2118] : Fin 1 → IVec S16 32) a x).toNat < S32.size a := fun v2118 k0_hw663 => k0_hw663

def k0_chk664 (v1776 : IVec S16 32) (v1835 : IVec S16 32) : Prop :=
  (∀ a x, ((![v1776, v1835] : Fin 2 → IVec S16 32) a x).toNat < S128x32.size a)
instance k0_chk664.dec : ∀ (v1776 : IVec S16 32) (v1835 : IVec S16 32), Decidable (k0_chk664 v1776 v1835) := fun v1776 v1835 => decidable_of_iff' _ (Iff.of_eq (k0_chk664.eq_1 v1776 v1835))
theorem k0_idx664_inb : ∀ (v1776 : IVec S16 32) (v1835 : IVec S16 32) (k0_hw664 : k0_chk664 v1776 v1835), ∀ a x, ((![v1776, v1835] : Fin 2 → IVec S16 32) a x).toNat < S128x32.size a := fun v1776 v1835 k0_hw664 => k0_hw664

def k0_chk665 (v1776 : IVec S16 32) (v1778 : IVec S16 32) : Prop :=
  (∀ a x, ((![v1776, v1778] : Fin 2 → IVec S16 32) a x).toNat < S128x32.size a)
instance k0_chk665.dec : ∀ (v1776 : IVec S16 32) (v1778 : IVec S16 32), Decidable (k0_chk665 v1776 v1778) := fun v1776 v1778 => decidable_of_iff' _ (Iff.of_eq (k0_chk665.eq_1 v1776 v1778))
theorem k0_idx665_inb : ∀ (v1776 : IVec S16 32) (v1778 : IVec S16 32) (k0_hw665 : k0_chk665 v1776 v1778), ∀ a x, ((![v1776, v1778] : Fin 2 → IVec S16 32) a x).toNat < S128x32.size a := fun v1776 v1778 k0_hw665 => k0_hw665

def k0_chk666 (v1776 : IVec S16 32) (v1836 : IVec S16 32) : Prop :=
  (∀ a x, ((![v1776, v1836] : Fin 2 → IVec S16 32) a x).toNat < S128x32.size a)
instance k0_chk666.dec : ∀ (v1776 : IVec S16 32) (v1836 : IVec S16 32), Decidable (k0_chk666 v1776 v1836) := fun v1776 v1836 => decidable_of_iff' _ (Iff.of_eq (k0_chk666.eq_1 v1776 v1836))
theorem k0_idx666_inb : ∀ (v1776 : IVec S16 32) (v1836 : IVec S16 32) (k0_hw666 : k0_chk666 v1776 v1836), ∀ a x, ((![v1776, v1836] : Fin 2 → IVec S16 32) a x).toNat < S128x32.size a := fun v1776 v1836 k0_hw666 => k0_hw666

def k0_chk667 (v1776 : IVec S16 32) (v1837 : IVec S16 32) : Prop :=
  (∀ a x, ((![v1776, v1837] : Fin 2 → IVec S16 32) a x).toNat < S128x32.size a)
instance k0_chk667.dec : ∀ (v1776 : IVec S16 32) (v1837 : IVec S16 32), Decidable (k0_chk667 v1776 v1837) := fun v1776 v1837 => decidable_of_iff' _ (Iff.of_eq (k0_chk667.eq_1 v1776 v1837))
theorem k0_idx667_inb : ∀ (v1776 : IVec S16 32) (v1837 : IVec S16 32) (k0_hw667 : k0_chk667 v1776 v1837), ∀ a x, ((![v1776, v1837] : Fin 2 → IVec S16 32) a x).toNat < S128x32.size a := fun v1776 v1837 k0_hw667 => k0_hw667

def k0_chk668 (v1839 : IVec S16 32) (v1840 : IVec S16 32) : Prop :=
  (∀ a x, ((![v1839, v1840] : Fin 2 → IVec S16 32) a x).toNat < S128x200.size a)
instance k0_chk668.dec : ∀ (v1839 : IVec S16 32) (v1840 : IVec S16 32), Decidable (k0_chk668 v1839 v1840) := fun v1839 v1840 => decidable_of_iff' _ (Iff.of_eq (k0_chk668.eq_1 v1839 v1840))
theorem k0_idx668_inb : ∀ (v1839 : IVec S16 32) (v1840 : IVec S16 32) (k0_hw668 : k0_chk668 v1839 v1840), ∀ a x, ((![v1839, v1840] : Fin 2 → IVec S16 32) a x).toNat < S128x200.size a := fun v1839 v1840 k0_hw668 => k0_hw668

def k0_chk669 (v1839 : IVec S16 32) (v1842 : IVec S16 32) : Prop :=
  (∀ a x, ((![v1839, v1842] : Fin 2 → IVec S16 32) a x).toNat < S128x200.size a)
instance k0_chk669.dec : ∀ (v1839 : IVec S16 32) (v1842 : IVec S16 32), Decidable (k0_chk669 v1839 v1842) := fun v1839 v1842 => decidable_of_iff' _ (Iff.of_eq (k0_chk669.eq_1 v1839 v1842))
theorem k0_idx669_inb : ∀ (v1839 : IVec S16 32) (v1842 : IVec S16 32) (k0_hw669 : k0_chk669 v1839 v1842), ∀ a x, ((![v1839, v1842] : Fin 2 → IVec S16 32) a x).toNat < S128x200.size a := fun v1839 v1842 k0_hw669 => k0_hw669

def k0_chk670 (v1839 : IVec S16 32) (v1844 : IVec S16 32) : Prop :=
  (∀ a x, ((![v1839, v1844] : Fin 2 → IVec S16 32) a x).toNat < S128x200.size a)
instance k0_chk670.dec : ∀ (v1839 : IVec S16 32) (v1844 : IVec S16 32), Decidable (k0_chk670 v1839 v1844) := fun v1839 v1844 => decidable_of_iff' _ (Iff.of_eq (k0_chk670.eq_1 v1839 v1844))
theorem k0_idx670_inb : ∀ (v1839 : IVec S16 32) (v1844 : IVec S16 32) (k0_hw670 : k0_chk670 v1839 v1844), ∀ a x, ((![v1839, v1844] : Fin 2 → IVec S16 32) a x).toNat < S128x200.size a := fun v1839 v1844 k0_hw670 => k0_hw670
@[reducible] def k0_t30_loop : Scf.Loop 32 :=
  let c0_i32_916 : BitVec 32 := 0#32
  let c25_i32_917 : BitVec 32 := 25#32
  let v1848 : BitVec 32 := Scalar.addi c0_i32_916 c25_i32_917
  let c1_i32_918 : BitVec 32 := 1#32
  ⟨c0_i32_916, v1848, c1_i32_918⟩

def k0_chk671 (v1839 : IVec S16 32) (arg10 : IVec S16 32) : Prop :=
  (∀ a x, ((![v1839, arg10] : Fin 2 → IVec S16 32) a x).toNat < S128x200.size a)
instance k0_chk671.dec : ∀ (v1839 : IVec S16 32) (arg10 : IVec S16 32), Decidable (k0_chk671 v1839 arg10) := fun v1839 arg10 => decidable_of_iff' _ (Iff.of_eq (k0_chk671.eq_1 v1839 arg10))
theorem k0_idx671_inb : ∀ (v1839 : IVec S16 32) (arg10 : IVec S16 32) (k0_hw671 : k0_chk671 v1839 arg10), ∀ a x, ((![v1839, arg10] : Fin 2 → IVec S16 32) a x).toNat < S128x200.size a := fun v1839 arg10 k0_hw671 => k0_hw671

def k0_chk672 (v2027 : IVec S16 32) : Prop :=
  (∀ a x, ((![v2027] : Fin 1 → IVec S16 32) a x).toNat < S32.size a)
instance k0_chk672.dec : ∀ (v2027 : IVec S16 32), Decidable (k0_chk672 v2027) := fun v2027 => decidable_of_iff' _ (Iff.of_eq (k0_chk672.eq_1 v2027))
theorem k0_idx672_inb : ∀ (v2027 : IVec S16 32) (k0_hw672 : k0_chk672 v2027), ∀ a x, ((![v2027] : Fin 1 → IVec S16 32) a x).toNat < S32.size a := fun v2027 k0_hw672 => k0_hw672

def k0_chk673 (v1839 : IVec S16 32) (v2039 : IVec S16 32) : Prop :=
  (∀ a x, ((![v1839, v2039] : Fin 2 → IVec S16 32) a x).toNat < S128x200.size a)
instance k0_chk673.dec : ∀ (v1839 : IVec S16 32) (v2039 : IVec S16 32), Decidable (k0_chk673 v1839 v2039) := fun v1839 v2039 => decidable_of_iff' _ (Iff.of_eq (k0_chk673.eq_1 v1839 v2039))
theorem k0_idx673_inb : ∀ (v1839 : IVec S16 32) (v2039 : IVec S16 32) (k0_hw673 : k0_chk673 v1839 v2039), ∀ a x, ((![v1839, v2039] : Fin 2 → IVec S16 32) a x).toNat < S128x200.size a := fun v1839 v2039 k0_hw673 => k0_hw673

def k0_chk674 (v2040 : IVec S16 32) : Prop :=
  (∀ a x, ((![v2040] : Fin 1 → IVec S16 32) a x).toNat < S32.size a)
instance k0_chk674.dec : ∀ (v2040 : IVec S16 32), Decidable (k0_chk674 v2040) := fun v2040 => decidable_of_iff' _ (Iff.of_eq (k0_chk674.eq_1 v2040))
theorem k0_idx674_inb : ∀ (v2040 : IVec S16 32) (k0_hw674 : k0_chk674 v2040), ∀ a x, ((![v2040] : Fin 1 → IVec S16 32) a x).toNat < S32.size a := fun v2040 k0_hw674 => k0_hw674

def k0_chk675 (v1839 : IVec S16 32) (v2052 : IVec S16 32) : Prop :=
  (∀ a x, ((![v1839, v2052] : Fin 2 → IVec S16 32) a x).toNat < S128x200.size a)
instance k0_chk675.dec : ∀ (v1839 : IVec S16 32) (v2052 : IVec S16 32), Decidable (k0_chk675 v1839 v2052) := fun v1839 v2052 => decidable_of_iff' _ (Iff.of_eq (k0_chk675.eq_1 v1839 v2052))
theorem k0_idx675_inb : ∀ (v1839 : IVec S16 32) (v2052 : IVec S16 32) (k0_hw675 : k0_chk675 v1839 v2052), ∀ a x, ((![v1839, v2052] : Fin 2 → IVec S16 32) a x).toNat < S128x200.size a := fun v1839 v2052 k0_hw675 => k0_hw675

def k0_chk676 (v2053 : IVec S16 32) : Prop :=
  (∀ a x, ((![v2053] : Fin 1 → IVec S16 32) a x).toNat < S32.size a)
instance k0_chk676.dec : ∀ (v2053 : IVec S16 32), Decidable (k0_chk676 v2053) := fun v2053 => decidable_of_iff' _ (Iff.of_eq (k0_chk676.eq_1 v2053))
theorem k0_idx676_inb : ∀ (v2053 : IVec S16 32) (k0_hw676 : k0_chk676 v2053), ∀ a x, ((![v2053] : Fin 1 → IVec S16 32) a x).toNat < S32.size a := fun v2053 k0_hw676 => k0_hw676

def k0_chk677 (v1839 : IVec S16 32) (v2065 : IVec S16 32) : Prop :=
  (∀ a x, ((![v1839, v2065] : Fin 2 → IVec S16 32) a x).toNat < S128x200.size a)
instance k0_chk677.dec : ∀ (v1839 : IVec S16 32) (v2065 : IVec S16 32), Decidable (k0_chk677 v1839 v2065) := fun v1839 v2065 => decidable_of_iff' _ (Iff.of_eq (k0_chk677.eq_1 v1839 v2065))
theorem k0_idx677_inb : ∀ (v1839 : IVec S16 32) (v2065 : IVec S16 32) (k0_hw677 : k0_chk677 v1839 v2065), ∀ a x, ((![v1839, v2065] : Fin 2 → IVec S16 32) a x).toNat < S128x200.size a := fun v1839 v2065 k0_hw677 => k0_hw677

def k0_chk678 (v2066 : IVec S16 32) : Prop :=
  (∀ a x, ((![v2066] : Fin 1 → IVec S16 32) a x).toNat < S32.size a)
instance k0_chk678.dec : ∀ (v2066 : IVec S16 32), Decidable (k0_chk678 v2066) := fun v2066 => decidable_of_iff' _ (Iff.of_eq (k0_chk678.eq_1 v2066))
theorem k0_idx678_inb : ∀ (v2066 : IVec S16 32) (k0_hw678 : k0_chk678 v2066), ∀ a x, ((![v2066] : Fin 1 → IVec S16 32) a x).toNat < S32.size a := fun v2066 k0_hw678 => k0_hw678

def k0_chk679 (v1839 : IVec S16 32) (v2078 : IVec S16 32) : Prop :=
  (∀ a x, ((![v1839, v2078] : Fin 2 → IVec S16 32) a x).toNat < S128x200.size a)
instance k0_chk679.dec : ∀ (v1839 : IVec S16 32) (v2078 : IVec S16 32), Decidable (k0_chk679 v1839 v2078) := fun v1839 v2078 => decidable_of_iff' _ (Iff.of_eq (k0_chk679.eq_1 v1839 v2078))
theorem k0_idx679_inb : ∀ (v1839 : IVec S16 32) (v2078 : IVec S16 32) (k0_hw679 : k0_chk679 v1839 v2078), ∀ a x, ((![v1839, v2078] : Fin 2 → IVec S16 32) a x).toNat < S128x200.size a := fun v1839 v2078 k0_hw679 => k0_hw679

def k0_chk680 (v2079 : IVec S16 32) : Prop :=
  (∀ a x, ((![v2079] : Fin 1 → IVec S16 32) a x).toNat < S32.size a)
instance k0_chk680.dec : ∀ (v2079 : IVec S16 32), Decidable (k0_chk680 v2079) := fun v2079 => decidable_of_iff' _ (Iff.of_eq (k0_chk680.eq_1 v2079))
theorem k0_idx680_inb : ∀ (v2079 : IVec S16 32) (k0_hw680 : k0_chk680 v2079), ∀ a x, ((![v2079] : Fin 1 → IVec S16 32) a x).toNat < S32.size a := fun v2079 k0_hw680 => k0_hw680

def k0_chk681 (v1839 : IVec S16 32) (v2091 : IVec S16 32) : Prop :=
  (∀ a x, ((![v1839, v2091] : Fin 2 → IVec S16 32) a x).toNat < S128x200.size a)
instance k0_chk681.dec : ∀ (v1839 : IVec S16 32) (v2091 : IVec S16 32), Decidable (k0_chk681 v1839 v2091) := fun v1839 v2091 => decidable_of_iff' _ (Iff.of_eq (k0_chk681.eq_1 v1839 v2091))
theorem k0_idx681_inb : ∀ (v1839 : IVec S16 32) (v2091 : IVec S16 32) (k0_hw681 : k0_chk681 v1839 v2091), ∀ a x, ((![v1839, v2091] : Fin 2 → IVec S16 32) a x).toNat < S128x200.size a := fun v1839 v2091 k0_hw681 => k0_hw681

def k0_chk682 (v2092 : IVec S16 32) : Prop :=
  (∀ a x, ((![v2092] : Fin 1 → IVec S16 32) a x).toNat < S32.size a)
instance k0_chk682.dec : ∀ (v2092 : IVec S16 32), Decidable (k0_chk682 v2092) := fun v2092 => decidable_of_iff' _ (Iff.of_eq (k0_chk682.eq_1 v2092))
theorem k0_idx682_inb : ∀ (v2092 : IVec S16 32) (k0_hw682 : k0_chk682 v2092), ∀ a x, ((![v2092] : Fin 1 → IVec S16 32) a x).toNat < S32.size a := fun v2092 k0_hw682 => k0_hw682

def k0_chk683 (v1839 : IVec S16 32) (v2104 : IVec S16 32) : Prop :=
  (∀ a x, ((![v1839, v2104] : Fin 2 → IVec S16 32) a x).toNat < S128x200.size a)
instance k0_chk683.dec : ∀ (v1839 : IVec S16 32) (v2104 : IVec S16 32), Decidable (k0_chk683 v1839 v2104) := fun v1839 v2104 => decidable_of_iff' _ (Iff.of_eq (k0_chk683.eq_1 v1839 v2104))
theorem k0_idx683_inb : ∀ (v1839 : IVec S16 32) (v2104 : IVec S16 32) (k0_hw683 : k0_chk683 v1839 v2104), ∀ a x, ((![v1839, v2104] : Fin 2 → IVec S16 32) a x).toNat < S128x200.size a := fun v1839 v2104 k0_hw683 => k0_hw683

def k0_chk684 (v2105 : IVec S16 32) : Prop :=
  (∀ a x, ((![v2105] : Fin 1 → IVec S16 32) a x).toNat < S32.size a)
instance k0_chk684.dec : ∀ (v2105 : IVec S16 32), Decidable (k0_chk684 v2105) := fun v2105 => decidable_of_iff' _ (Iff.of_eq (k0_chk684.eq_1 v2105))
theorem k0_idx684_inb : ∀ (v2105 : IVec S16 32) (k0_hw684 : k0_chk684 v2105), ∀ a x, ((![v2105] : Fin 1 → IVec S16 32) a x).toNat < S32.size a := fun v2105 k0_hw684 => k0_hw684

def k0_chk685 (v1839 : IVec S16 32) (v2117 : IVec S16 32) : Prop :=
  (∀ a x, ((![v1839, v2117] : Fin 2 → IVec S16 32) a x).toNat < S128x200.size a)
instance k0_chk685.dec : ∀ (v1839 : IVec S16 32) (v2117 : IVec S16 32), Decidable (k0_chk685 v1839 v2117) := fun v1839 v2117 => decidable_of_iff' _ (Iff.of_eq (k0_chk685.eq_1 v1839 v2117))
theorem k0_idx685_inb : ∀ (v1839 : IVec S16 32) (v2117 : IVec S16 32) (k0_hw685 : k0_chk685 v1839 v2117), ∀ a x, ((![v1839, v2117] : Fin 2 → IVec S16 32) a x).toNat < S128x200.size a := fun v1839 v2117 k0_hw685 => k0_hw685

def k0_chk686 (v2118 : IVec S16 32) : Prop :=
  (∀ a x, ((![v2118] : Fin 1 → IVec S16 32) a x).toNat < S32.size a)
instance k0_chk686.dec : ∀ (v2118 : IVec S16 32), Decidable (k0_chk686 v2118) := fun v2118 => decidable_of_iff' _ (Iff.of_eq (k0_chk686.eq_1 v2118))
theorem k0_idx686_inb : ∀ (v2118 : IVec S16 32) (k0_hw686 : k0_chk686 v2118), ∀ a x, ((![v2118] : Fin 1 → IVec S16 32) a x).toNat < S32.size a := fun v2118 k0_hw686 => k0_hw686

def k0_chk687 (v1839 : IVec S16 32) (v1898 : IVec S16 32) : Prop :=
  (∀ a x, ((![v1839, v1898] : Fin 2 → IVec S16 32) a x).toNat < S128x32.size a)
instance k0_chk687.dec : ∀ (v1839 : IVec S16 32) (v1898 : IVec S16 32), Decidable (k0_chk687 v1839 v1898) := fun v1839 v1898 => decidable_of_iff' _ (Iff.of_eq (k0_chk687.eq_1 v1839 v1898))
theorem k0_idx687_inb : ∀ (v1839 : IVec S16 32) (v1898 : IVec S16 32) (k0_hw687 : k0_chk687 v1839 v1898), ∀ a x, ((![v1839, v1898] : Fin 2 → IVec S16 32) a x).toNat < S128x32.size a := fun v1839 v1898 k0_hw687 => k0_hw687

def k0_chk688 (v1839 : IVec S16 32) (v1841 : IVec S16 32) : Prop :=
  (∀ a x, ((![v1839, v1841] : Fin 2 → IVec S16 32) a x).toNat < S128x32.size a)
instance k0_chk688.dec : ∀ (v1839 : IVec S16 32) (v1841 : IVec S16 32), Decidable (k0_chk688 v1839 v1841) := fun v1839 v1841 => decidable_of_iff' _ (Iff.of_eq (k0_chk688.eq_1 v1839 v1841))
theorem k0_idx688_inb : ∀ (v1839 : IVec S16 32) (v1841 : IVec S16 32) (k0_hw688 : k0_chk688 v1839 v1841), ∀ a x, ((![v1839, v1841] : Fin 2 → IVec S16 32) a x).toNat < S128x32.size a := fun v1839 v1841 k0_hw688 => k0_hw688

def k0_chk689 (v1839 : IVec S16 32) (v1899 : IVec S16 32) : Prop :=
  (∀ a x, ((![v1839, v1899] : Fin 2 → IVec S16 32) a x).toNat < S128x32.size a)
instance k0_chk689.dec : ∀ (v1839 : IVec S16 32) (v1899 : IVec S16 32), Decidable (k0_chk689 v1839 v1899) := fun v1839 v1899 => decidable_of_iff' _ (Iff.of_eq (k0_chk689.eq_1 v1839 v1899))
theorem k0_idx689_inb : ∀ (v1839 : IVec S16 32) (v1899 : IVec S16 32) (k0_hw689 : k0_chk689 v1839 v1899), ∀ a x, ((![v1839, v1899] : Fin 2 → IVec S16 32) a x).toNat < S128x32.size a := fun v1839 v1899 k0_hw689 => k0_hw689

def k0_chk690 (v1839 : IVec S16 32) (v1900 : IVec S16 32) : Prop :=
  (∀ a x, ((![v1839, v1900] : Fin 2 → IVec S16 32) a x).toNat < S128x32.size a)
instance k0_chk690.dec : ∀ (v1839 : IVec S16 32) (v1900 : IVec S16 32), Decidable (k0_chk690 v1839 v1900) := fun v1839 v1900 => decidable_of_iff' _ (Iff.of_eq (k0_chk690.eq_1 v1839 v1900))
theorem k0_idx690_inb : ∀ (v1839 : IVec S16 32) (v1900 : IVec S16 32) (k0_hw690 : k0_chk690 v1839 v1900), ∀ a x, ((![v1839, v1900] : Fin 2 → IVec S16 32) a x).toNat < S128x32.size a := fun v1839 v1900 k0_hw690 => k0_hw690

def k0_chk691 (v1902 : IVec S16 32) (v1903 : IVec S16 32) : Prop :=
  (∀ a x, ((![v1902, v1903] : Fin 2 → IVec S16 32) a x).toNat < S128x200.size a)
instance k0_chk691.dec : ∀ (v1902 : IVec S16 32) (v1903 : IVec S16 32), Decidable (k0_chk691 v1902 v1903) := fun v1902 v1903 => decidable_of_iff' _ (Iff.of_eq (k0_chk691.eq_1 v1902 v1903))
theorem k0_idx691_inb : ∀ (v1902 : IVec S16 32) (v1903 : IVec S16 32) (k0_hw691 : k0_chk691 v1902 v1903), ∀ a x, ((![v1902, v1903] : Fin 2 → IVec S16 32) a x).toNat < S128x200.size a := fun v1902 v1903 k0_hw691 => k0_hw691

def k0_chk692 (v1902 : IVec S16 32) (v1905 : IVec S16 32) : Prop :=
  (∀ a x, ((![v1902, v1905] : Fin 2 → IVec S16 32) a x).toNat < S128x200.size a)
instance k0_chk692.dec : ∀ (v1902 : IVec S16 32) (v1905 : IVec S16 32), Decidable (k0_chk692 v1902 v1905) := fun v1902 v1905 => decidable_of_iff' _ (Iff.of_eq (k0_chk692.eq_1 v1902 v1905))
theorem k0_idx692_inb : ∀ (v1902 : IVec S16 32) (v1905 : IVec S16 32) (k0_hw692 : k0_chk692 v1902 v1905), ∀ a x, ((![v1902, v1905] : Fin 2 → IVec S16 32) a x).toNat < S128x200.size a := fun v1902 v1905 k0_hw692 => k0_hw692

def k0_chk693 (v1902 : IVec S16 32) (v1907 : IVec S16 32) : Prop :=
  (∀ a x, ((![v1902, v1907] : Fin 2 → IVec S16 32) a x).toNat < S128x200.size a)
instance k0_chk693.dec : ∀ (v1902 : IVec S16 32) (v1907 : IVec S16 32), Decidable (k0_chk693 v1902 v1907) := fun v1902 v1907 => decidable_of_iff' _ (Iff.of_eq (k0_chk693.eq_1 v1902 v1907))
theorem k0_idx693_inb : ∀ (v1902 : IVec S16 32) (v1907 : IVec S16 32) (k0_hw693 : k0_chk693 v1902 v1907), ∀ a x, ((![v1902, v1907] : Fin 2 → IVec S16 32) a x).toNat < S128x200.size a := fun v1902 v1907 k0_hw693 => k0_hw693
@[reducible] def k0_t31_loop : Scf.Loop 32 :=
  let c0_i32_948 : BitVec 32 := 0#32
  let c25_i32_949 : BitVec 32 := 25#32
  let v1911 : BitVec 32 := Scalar.addi c0_i32_948 c25_i32_949
  let c1_i32_950 : BitVec 32 := 1#32
  ⟨c0_i32_948, v1911, c1_i32_950⟩

def k0_chk694 (v1902 : IVec S16 32) (arg10 : IVec S16 32) : Prop :=
  (∀ a x, ((![v1902, arg10] : Fin 2 → IVec S16 32) a x).toNat < S128x200.size a)
instance k0_chk694.dec : ∀ (v1902 : IVec S16 32) (arg10 : IVec S16 32), Decidable (k0_chk694 v1902 arg10) := fun v1902 arg10 => decidable_of_iff' _ (Iff.of_eq (k0_chk694.eq_1 v1902 arg10))
theorem k0_idx694_inb : ∀ (v1902 : IVec S16 32) (arg10 : IVec S16 32) (k0_hw694 : k0_chk694 v1902 arg10), ∀ a x, ((![v1902, arg10] : Fin 2 → IVec S16 32) a x).toNat < S128x200.size a := fun v1902 arg10 k0_hw694 => k0_hw694

def k0_chk695 (v2027 : IVec S16 32) : Prop :=
  (∀ a x, ((![v2027] : Fin 1 → IVec S16 32) a x).toNat < S32.size a)
instance k0_chk695.dec : ∀ (v2027 : IVec S16 32), Decidable (k0_chk695 v2027) := fun v2027 => decidable_of_iff' _ (Iff.of_eq (k0_chk695.eq_1 v2027))
theorem k0_idx695_inb : ∀ (v2027 : IVec S16 32) (k0_hw695 : k0_chk695 v2027), ∀ a x, ((![v2027] : Fin 1 → IVec S16 32) a x).toNat < S32.size a := fun v2027 k0_hw695 => k0_hw695

def k0_chk696 (v1902 : IVec S16 32) (v2039 : IVec S16 32) : Prop :=
  (∀ a x, ((![v1902, v2039] : Fin 2 → IVec S16 32) a x).toNat < S128x200.size a)
instance k0_chk696.dec : ∀ (v1902 : IVec S16 32) (v2039 : IVec S16 32), Decidable (k0_chk696 v1902 v2039) := fun v1902 v2039 => decidable_of_iff' _ (Iff.of_eq (k0_chk696.eq_1 v1902 v2039))
theorem k0_idx696_inb : ∀ (v1902 : IVec S16 32) (v2039 : IVec S16 32) (k0_hw696 : k0_chk696 v1902 v2039), ∀ a x, ((![v1902, v2039] : Fin 2 → IVec S16 32) a x).toNat < S128x200.size a := fun v1902 v2039 k0_hw696 => k0_hw696

def k0_chk697 (v2040 : IVec S16 32) : Prop :=
  (∀ a x, ((![v2040] : Fin 1 → IVec S16 32) a x).toNat < S32.size a)
instance k0_chk697.dec : ∀ (v2040 : IVec S16 32), Decidable (k0_chk697 v2040) := fun v2040 => decidable_of_iff' _ (Iff.of_eq (k0_chk697.eq_1 v2040))
theorem k0_idx697_inb : ∀ (v2040 : IVec S16 32) (k0_hw697 : k0_chk697 v2040), ∀ a x, ((![v2040] : Fin 1 → IVec S16 32) a x).toNat < S32.size a := fun v2040 k0_hw697 => k0_hw697

def k0_chk698 (v1902 : IVec S16 32) (v2052 : IVec S16 32) : Prop :=
  (∀ a x, ((![v1902, v2052] : Fin 2 → IVec S16 32) a x).toNat < S128x200.size a)
instance k0_chk698.dec : ∀ (v1902 : IVec S16 32) (v2052 : IVec S16 32), Decidable (k0_chk698 v1902 v2052) := fun v1902 v2052 => decidable_of_iff' _ (Iff.of_eq (k0_chk698.eq_1 v1902 v2052))
theorem k0_idx698_inb : ∀ (v1902 : IVec S16 32) (v2052 : IVec S16 32) (k0_hw698 : k0_chk698 v1902 v2052), ∀ a x, ((![v1902, v2052] : Fin 2 → IVec S16 32) a x).toNat < S128x200.size a := fun v1902 v2052 k0_hw698 => k0_hw698

def k0_chk699 (v2053 : IVec S16 32) : Prop :=
  (∀ a x, ((![v2053] : Fin 1 → IVec S16 32) a x).toNat < S32.size a)
instance k0_chk699.dec : ∀ (v2053 : IVec S16 32), Decidable (k0_chk699 v2053) := fun v2053 => decidable_of_iff' _ (Iff.of_eq (k0_chk699.eq_1 v2053))
theorem k0_idx699_inb : ∀ (v2053 : IVec S16 32) (k0_hw699 : k0_chk699 v2053), ∀ a x, ((![v2053] : Fin 1 → IVec S16 32) a x).toNat < S32.size a := fun v2053 k0_hw699 => k0_hw699

def k0_chk700 (v1902 : IVec S16 32) (v2065 : IVec S16 32) : Prop :=
  (∀ a x, ((![v1902, v2065] : Fin 2 → IVec S16 32) a x).toNat < S128x200.size a)
instance k0_chk700.dec : ∀ (v1902 : IVec S16 32) (v2065 : IVec S16 32), Decidable (k0_chk700 v1902 v2065) := fun v1902 v2065 => decidable_of_iff' _ (Iff.of_eq (k0_chk700.eq_1 v1902 v2065))
theorem k0_idx700_inb : ∀ (v1902 : IVec S16 32) (v2065 : IVec S16 32) (k0_hw700 : k0_chk700 v1902 v2065), ∀ a x, ((![v1902, v2065] : Fin 2 → IVec S16 32) a x).toNat < S128x200.size a := fun v1902 v2065 k0_hw700 => k0_hw700

def k0_chk701 (v2066 : IVec S16 32) : Prop :=
  (∀ a x, ((![v2066] : Fin 1 → IVec S16 32) a x).toNat < S32.size a)
instance k0_chk701.dec : ∀ (v2066 : IVec S16 32), Decidable (k0_chk701 v2066) := fun v2066 => decidable_of_iff' _ (Iff.of_eq (k0_chk701.eq_1 v2066))
theorem k0_idx701_inb : ∀ (v2066 : IVec S16 32) (k0_hw701 : k0_chk701 v2066), ∀ a x, ((![v2066] : Fin 1 → IVec S16 32) a x).toNat < S32.size a := fun v2066 k0_hw701 => k0_hw701

def k0_chk702 (v1902 : IVec S16 32) (v2078 : IVec S16 32) : Prop :=
  (∀ a x, ((![v1902, v2078] : Fin 2 → IVec S16 32) a x).toNat < S128x200.size a)
instance k0_chk702.dec : ∀ (v1902 : IVec S16 32) (v2078 : IVec S16 32), Decidable (k0_chk702 v1902 v2078) := fun v1902 v2078 => decidable_of_iff' _ (Iff.of_eq (k0_chk702.eq_1 v1902 v2078))
theorem k0_idx702_inb : ∀ (v1902 : IVec S16 32) (v2078 : IVec S16 32) (k0_hw702 : k0_chk702 v1902 v2078), ∀ a x, ((![v1902, v2078] : Fin 2 → IVec S16 32) a x).toNat < S128x200.size a := fun v1902 v2078 k0_hw702 => k0_hw702

def k0_chk703 (v2079 : IVec S16 32) : Prop :=
  (∀ a x, ((![v2079] : Fin 1 → IVec S16 32) a x).toNat < S32.size a)
instance k0_chk703.dec : ∀ (v2079 : IVec S16 32), Decidable (k0_chk703 v2079) := fun v2079 => decidable_of_iff' _ (Iff.of_eq (k0_chk703.eq_1 v2079))
theorem k0_idx703_inb : ∀ (v2079 : IVec S16 32) (k0_hw703 : k0_chk703 v2079), ∀ a x, ((![v2079] : Fin 1 → IVec S16 32) a x).toNat < S32.size a := fun v2079 k0_hw703 => k0_hw703

def k0_chk704 (v1902 : IVec S16 32) (v2091 : IVec S16 32) : Prop :=
  (∀ a x, ((![v1902, v2091] : Fin 2 → IVec S16 32) a x).toNat < S128x200.size a)
instance k0_chk704.dec : ∀ (v1902 : IVec S16 32) (v2091 : IVec S16 32), Decidable (k0_chk704 v1902 v2091) := fun v1902 v2091 => decidable_of_iff' _ (Iff.of_eq (k0_chk704.eq_1 v1902 v2091))
theorem k0_idx704_inb : ∀ (v1902 : IVec S16 32) (v2091 : IVec S16 32) (k0_hw704 : k0_chk704 v1902 v2091), ∀ a x, ((![v1902, v2091] : Fin 2 → IVec S16 32) a x).toNat < S128x200.size a := fun v1902 v2091 k0_hw704 => k0_hw704

def k0_chk705 (v2092 : IVec S16 32) : Prop :=
  (∀ a x, ((![v2092] : Fin 1 → IVec S16 32) a x).toNat < S32.size a)
instance k0_chk705.dec : ∀ (v2092 : IVec S16 32), Decidable (k0_chk705 v2092) := fun v2092 => decidable_of_iff' _ (Iff.of_eq (k0_chk705.eq_1 v2092))
theorem k0_idx705_inb : ∀ (v2092 : IVec S16 32) (k0_hw705 : k0_chk705 v2092), ∀ a x, ((![v2092] : Fin 1 → IVec S16 32) a x).toNat < S32.size a := fun v2092 k0_hw705 => k0_hw705

def k0_chk706 (v1902 : IVec S16 32) (v2104 : IVec S16 32) : Prop :=
  (∀ a x, ((![v1902, v2104] : Fin 2 → IVec S16 32) a x).toNat < S128x200.size a)
instance k0_chk706.dec : ∀ (v1902 : IVec S16 32) (v2104 : IVec S16 32), Decidable (k0_chk706 v1902 v2104) := fun v1902 v2104 => decidable_of_iff' _ (Iff.of_eq (k0_chk706.eq_1 v1902 v2104))
theorem k0_idx706_inb : ∀ (v1902 : IVec S16 32) (v2104 : IVec S16 32) (k0_hw706 : k0_chk706 v1902 v2104), ∀ a x, ((![v1902, v2104] : Fin 2 → IVec S16 32) a x).toNat < S128x200.size a := fun v1902 v2104 k0_hw706 => k0_hw706

def k0_chk707 (v2105 : IVec S16 32) : Prop :=
  (∀ a x, ((![v2105] : Fin 1 → IVec S16 32) a x).toNat < S32.size a)
instance k0_chk707.dec : ∀ (v2105 : IVec S16 32), Decidable (k0_chk707 v2105) := fun v2105 => decidable_of_iff' _ (Iff.of_eq (k0_chk707.eq_1 v2105))
theorem k0_idx707_inb : ∀ (v2105 : IVec S16 32) (k0_hw707 : k0_chk707 v2105), ∀ a x, ((![v2105] : Fin 1 → IVec S16 32) a x).toNat < S32.size a := fun v2105 k0_hw707 => k0_hw707

def k0_chk708 (v1902 : IVec S16 32) (v2117 : IVec S16 32) : Prop :=
  (∀ a x, ((![v1902, v2117] : Fin 2 → IVec S16 32) a x).toNat < S128x200.size a)
instance k0_chk708.dec : ∀ (v1902 : IVec S16 32) (v2117 : IVec S16 32), Decidable (k0_chk708 v1902 v2117) := fun v1902 v2117 => decidable_of_iff' _ (Iff.of_eq (k0_chk708.eq_1 v1902 v2117))
theorem k0_idx708_inb : ∀ (v1902 : IVec S16 32) (v2117 : IVec S16 32) (k0_hw708 : k0_chk708 v1902 v2117), ∀ a x, ((![v1902, v2117] : Fin 2 → IVec S16 32) a x).toNat < S128x200.size a := fun v1902 v2117 k0_hw708 => k0_hw708

def k0_chk709 (v2118 : IVec S16 32) : Prop :=
  (∀ a x, ((![v2118] : Fin 1 → IVec S16 32) a x).toNat < S32.size a)
instance k0_chk709.dec : ∀ (v2118 : IVec S16 32), Decidable (k0_chk709 v2118) := fun v2118 => decidable_of_iff' _ (Iff.of_eq (k0_chk709.eq_1 v2118))
theorem k0_idx709_inb : ∀ (v2118 : IVec S16 32) (k0_hw709 : k0_chk709 v2118), ∀ a x, ((![v2118] : Fin 1 → IVec S16 32) a x).toNat < S32.size a := fun v2118 k0_hw709 => k0_hw709

def k0_chk710 (v1902 : IVec S16 32) (v1961 : IVec S16 32) : Prop :=
  (∀ a x, ((![v1902, v1961] : Fin 2 → IVec S16 32) a x).toNat < S128x32.size a)
instance k0_chk710.dec : ∀ (v1902 : IVec S16 32) (v1961 : IVec S16 32), Decidable (k0_chk710 v1902 v1961) := fun v1902 v1961 => decidable_of_iff' _ (Iff.of_eq (k0_chk710.eq_1 v1902 v1961))
theorem k0_idx710_inb : ∀ (v1902 : IVec S16 32) (v1961 : IVec S16 32) (k0_hw710 : k0_chk710 v1902 v1961), ∀ a x, ((![v1902, v1961] : Fin 2 → IVec S16 32) a x).toNat < S128x32.size a := fun v1902 v1961 k0_hw710 => k0_hw710

def k0_chk711 (v1902 : IVec S16 32) (v1904 : IVec S16 32) : Prop :=
  (∀ a x, ((![v1902, v1904] : Fin 2 → IVec S16 32) a x).toNat < S128x32.size a)
instance k0_chk711.dec : ∀ (v1902 : IVec S16 32) (v1904 : IVec S16 32), Decidable (k0_chk711 v1902 v1904) := fun v1902 v1904 => decidable_of_iff' _ (Iff.of_eq (k0_chk711.eq_1 v1902 v1904))
theorem k0_idx711_inb : ∀ (v1902 : IVec S16 32) (v1904 : IVec S16 32) (k0_hw711 : k0_chk711 v1902 v1904), ∀ a x, ((![v1902, v1904] : Fin 2 → IVec S16 32) a x).toNat < S128x32.size a := fun v1902 v1904 k0_hw711 => k0_hw711

def k0_chk712 (v1902 : IVec S16 32) (v1962 : IVec S16 32) : Prop :=
  (∀ a x, ((![v1902, v1962] : Fin 2 → IVec S16 32) a x).toNat < S128x32.size a)
instance k0_chk712.dec : ∀ (v1902 : IVec S16 32) (v1962 : IVec S16 32), Decidable (k0_chk712 v1902 v1962) := fun v1902 v1962 => decidable_of_iff' _ (Iff.of_eq (k0_chk712.eq_1 v1902 v1962))
theorem k0_idx712_inb : ∀ (v1902 : IVec S16 32) (v1962 : IVec S16 32) (k0_hw712 : k0_chk712 v1902 v1962), ∀ a x, ((![v1902, v1962] : Fin 2 → IVec S16 32) a x).toNat < S128x32.size a := fun v1902 v1962 k0_hw712 => k0_hw712

def k0_chk713 (v1902 : IVec S16 32) (v1963 : IVec S16 32) : Prop :=
  (∀ a x, ((![v1902, v1963] : Fin 2 → IVec S16 32) a x).toNat < S128x32.size a)
instance k0_chk713.dec : ∀ (v1902 : IVec S16 32) (v1963 : IVec S16 32), Decidable (k0_chk713 v1902 v1963) := fun v1902 v1963 => decidable_of_iff' _ (Iff.of_eq (k0_chk713.eq_1 v1902 v1963))
theorem k0_idx713_inb : ∀ (v1902 : IVec S16 32) (v1963 : IVec S16 32) (k0_hw713 : k0_chk713 v1902 v1963), ∀ a x, ((![v1902, v1963] : Fin 2 → IVec S16 32) a x).toNat < S128x32.size a := fun v1902 v1963 k0_hw713 => k0_hw713

def k0_chk714 (v1965 : IVec S16 32) (v1966 : IVec S16 32) : Prop :=
  (∀ a x, ((![v1965, v1966] : Fin 2 → IVec S16 32) a x).toNat < S128x200.size a)
instance k0_chk714.dec : ∀ (v1965 : IVec S16 32) (v1966 : IVec S16 32), Decidable (k0_chk714 v1965 v1966) := fun v1965 v1966 => decidable_of_iff' _ (Iff.of_eq (k0_chk714.eq_1 v1965 v1966))
theorem k0_idx714_inb : ∀ (v1965 : IVec S16 32) (v1966 : IVec S16 32) (k0_hw714 : k0_chk714 v1965 v1966), ∀ a x, ((![v1965, v1966] : Fin 2 → IVec S16 32) a x).toNat < S128x200.size a := fun v1965 v1966 k0_hw714 => k0_hw714

def k0_chk715 (v1965 : IVec S16 32) (v1968 : IVec S16 32) : Prop :=
  (∀ a x, ((![v1965, v1968] : Fin 2 → IVec S16 32) a x).toNat < S128x200.size a)
instance k0_chk715.dec : ∀ (v1965 : IVec S16 32) (v1968 : IVec S16 32), Decidable (k0_chk715 v1965 v1968) := fun v1965 v1968 => decidable_of_iff' _ (Iff.of_eq (k0_chk715.eq_1 v1965 v1968))
theorem k0_idx715_inb : ∀ (v1965 : IVec S16 32) (v1968 : IVec S16 32) (k0_hw715 : k0_chk715 v1965 v1968), ∀ a x, ((![v1965, v1968] : Fin 2 → IVec S16 32) a x).toNat < S128x200.size a := fun v1965 v1968 k0_hw715 => k0_hw715

def k0_chk716 (v1965 : IVec S16 32) (v1970 : IVec S16 32) : Prop :=
  (∀ a x, ((![v1965, v1970] : Fin 2 → IVec S16 32) a x).toNat < S128x200.size a)
instance k0_chk716.dec : ∀ (v1965 : IVec S16 32) (v1970 : IVec S16 32), Decidable (k0_chk716 v1965 v1970) := fun v1965 v1970 => decidable_of_iff' _ (Iff.of_eq (k0_chk716.eq_1 v1965 v1970))
theorem k0_idx716_inb : ∀ (v1965 : IVec S16 32) (v1970 : IVec S16 32) (k0_hw716 : k0_chk716 v1965 v1970), ∀ a x, ((![v1965, v1970] : Fin 2 → IVec S16 32) a x).toNat < S128x200.size a := fun v1965 v1970 k0_hw716 => k0_hw716
@[reducible] def k0_t32_loop : Scf.Loop 32 :=
  let c0_i32_980 : BitVec 32 := 0#32
  let c25_i32_981 : BitVec 32 := 25#32
  let v1974 : BitVec 32 := Scalar.addi c0_i32_980 c25_i32_981
  let c1_i32_982 : BitVec 32 := 1#32
  ⟨c0_i32_980, v1974, c1_i32_982⟩

def k0_chk717 (v1965 : IVec S16 32) (arg10 : IVec S16 32) : Prop :=
  (∀ a x, ((![v1965, arg10] : Fin 2 → IVec S16 32) a x).toNat < S128x200.size a)
instance k0_chk717.dec : ∀ (v1965 : IVec S16 32) (arg10 : IVec S16 32), Decidable (k0_chk717 v1965 arg10) := fun v1965 arg10 => decidable_of_iff' _ (Iff.of_eq (k0_chk717.eq_1 v1965 arg10))
theorem k0_idx717_inb : ∀ (v1965 : IVec S16 32) (arg10 : IVec S16 32) (k0_hw717 : k0_chk717 v1965 arg10), ∀ a x, ((![v1965, arg10] : Fin 2 → IVec S16 32) a x).toNat < S128x200.size a := fun v1965 arg10 k0_hw717 => k0_hw717

def k0_chk718 (v2027 : IVec S16 32) : Prop :=
  (∀ a x, ((![v2027] : Fin 1 → IVec S16 32) a x).toNat < S32.size a)
instance k0_chk718.dec : ∀ (v2027 : IVec S16 32), Decidable (k0_chk718 v2027) := fun v2027 => decidable_of_iff' _ (Iff.of_eq (k0_chk718.eq_1 v2027))
theorem k0_idx718_inb : ∀ (v2027 : IVec S16 32) (k0_hw718 : k0_chk718 v2027), ∀ a x, ((![v2027] : Fin 1 → IVec S16 32) a x).toNat < S32.size a := fun v2027 k0_hw718 => k0_hw718

def k0_chk719 (v1965 : IVec S16 32) (v2039 : IVec S16 32) : Prop :=
  (∀ a x, ((![v1965, v2039] : Fin 2 → IVec S16 32) a x).toNat < S128x200.size a)
instance k0_chk719.dec : ∀ (v1965 : IVec S16 32) (v2039 : IVec S16 32), Decidable (k0_chk719 v1965 v2039) := fun v1965 v2039 => decidable_of_iff' _ (Iff.of_eq (k0_chk719.eq_1 v1965 v2039))
theorem k0_idx719_inb : ∀ (v1965 : IVec S16 32) (v2039 : IVec S16 32) (k0_hw719 : k0_chk719 v1965 v2039), ∀ a x, ((![v1965, v2039] : Fin 2 → IVec S16 32) a x).toNat < S128x200.size a := fun v1965 v2039 k0_hw719 => k0_hw719

def k0_chk720 (v2040 : IVec S16 32) : Prop :=
  (∀ a x, ((![v2040] : Fin 1 → IVec S16 32) a x).toNat < S32.size a)
instance k0_chk720.dec : ∀ (v2040 : IVec S16 32), Decidable (k0_chk720 v2040) := fun v2040 => decidable_of_iff' _ (Iff.of_eq (k0_chk720.eq_1 v2040))
theorem k0_idx720_inb : ∀ (v2040 : IVec S16 32) (k0_hw720 : k0_chk720 v2040), ∀ a x, ((![v2040] : Fin 1 → IVec S16 32) a x).toNat < S32.size a := fun v2040 k0_hw720 => k0_hw720

def k0_chk721 (v1965 : IVec S16 32) (v2052 : IVec S16 32) : Prop :=
  (∀ a x, ((![v1965, v2052] : Fin 2 → IVec S16 32) a x).toNat < S128x200.size a)
instance k0_chk721.dec : ∀ (v1965 : IVec S16 32) (v2052 : IVec S16 32), Decidable (k0_chk721 v1965 v2052) := fun v1965 v2052 => decidable_of_iff' _ (Iff.of_eq (k0_chk721.eq_1 v1965 v2052))
theorem k0_idx721_inb : ∀ (v1965 : IVec S16 32) (v2052 : IVec S16 32) (k0_hw721 : k0_chk721 v1965 v2052), ∀ a x, ((![v1965, v2052] : Fin 2 → IVec S16 32) a x).toNat < S128x200.size a := fun v1965 v2052 k0_hw721 => k0_hw721

def k0_chk722 (v2053 : IVec S16 32) : Prop :=
  (∀ a x, ((![v2053] : Fin 1 → IVec S16 32) a x).toNat < S32.size a)
instance k0_chk722.dec : ∀ (v2053 : IVec S16 32), Decidable (k0_chk722 v2053) := fun v2053 => decidable_of_iff' _ (Iff.of_eq (k0_chk722.eq_1 v2053))
theorem k0_idx722_inb : ∀ (v2053 : IVec S16 32) (k0_hw722 : k0_chk722 v2053), ∀ a x, ((![v2053] : Fin 1 → IVec S16 32) a x).toNat < S32.size a := fun v2053 k0_hw722 => k0_hw722

def k0_chk723 (v1965 : IVec S16 32) (v2065 : IVec S16 32) : Prop :=
  (∀ a x, ((![v1965, v2065] : Fin 2 → IVec S16 32) a x).toNat < S128x200.size a)
instance k0_chk723.dec : ∀ (v1965 : IVec S16 32) (v2065 : IVec S16 32), Decidable (k0_chk723 v1965 v2065) := fun v1965 v2065 => decidable_of_iff' _ (Iff.of_eq (k0_chk723.eq_1 v1965 v2065))
theorem k0_idx723_inb : ∀ (v1965 : IVec S16 32) (v2065 : IVec S16 32) (k0_hw723 : k0_chk723 v1965 v2065), ∀ a x, ((![v1965, v2065] : Fin 2 → IVec S16 32) a x).toNat < S128x200.size a := fun v1965 v2065 k0_hw723 => k0_hw723

def k0_chk724 (v2066 : IVec S16 32) : Prop :=
  (∀ a x, ((![v2066] : Fin 1 → IVec S16 32) a x).toNat < S32.size a)
instance k0_chk724.dec : ∀ (v2066 : IVec S16 32), Decidable (k0_chk724 v2066) := fun v2066 => decidable_of_iff' _ (Iff.of_eq (k0_chk724.eq_1 v2066))
theorem k0_idx724_inb : ∀ (v2066 : IVec S16 32) (k0_hw724 : k0_chk724 v2066), ∀ a x, ((![v2066] : Fin 1 → IVec S16 32) a x).toNat < S32.size a := fun v2066 k0_hw724 => k0_hw724

def k0_chk725 (v1965 : IVec S16 32) (v2078 : IVec S16 32) : Prop :=
  (∀ a x, ((![v1965, v2078] : Fin 2 → IVec S16 32) a x).toNat < S128x200.size a)
instance k0_chk725.dec : ∀ (v1965 : IVec S16 32) (v2078 : IVec S16 32), Decidable (k0_chk725 v1965 v2078) := fun v1965 v2078 => decidable_of_iff' _ (Iff.of_eq (k0_chk725.eq_1 v1965 v2078))
theorem k0_idx725_inb : ∀ (v1965 : IVec S16 32) (v2078 : IVec S16 32) (k0_hw725 : k0_chk725 v1965 v2078), ∀ a x, ((![v1965, v2078] : Fin 2 → IVec S16 32) a x).toNat < S128x200.size a := fun v1965 v2078 k0_hw725 => k0_hw725

def k0_chk726 (v2079 : IVec S16 32) : Prop :=
  (∀ a x, ((![v2079] : Fin 1 → IVec S16 32) a x).toNat < S32.size a)
instance k0_chk726.dec : ∀ (v2079 : IVec S16 32), Decidable (k0_chk726 v2079) := fun v2079 => decidable_of_iff' _ (Iff.of_eq (k0_chk726.eq_1 v2079))
theorem k0_idx726_inb : ∀ (v2079 : IVec S16 32) (k0_hw726 : k0_chk726 v2079), ∀ a x, ((![v2079] : Fin 1 → IVec S16 32) a x).toNat < S32.size a := fun v2079 k0_hw726 => k0_hw726

def k0_chk727 (v1965 : IVec S16 32) (v2091 : IVec S16 32) : Prop :=
  (∀ a x, ((![v1965, v2091] : Fin 2 → IVec S16 32) a x).toNat < S128x200.size a)
instance k0_chk727.dec : ∀ (v1965 : IVec S16 32) (v2091 : IVec S16 32), Decidable (k0_chk727 v1965 v2091) := fun v1965 v2091 => decidable_of_iff' _ (Iff.of_eq (k0_chk727.eq_1 v1965 v2091))
theorem k0_idx727_inb : ∀ (v1965 : IVec S16 32) (v2091 : IVec S16 32) (k0_hw727 : k0_chk727 v1965 v2091), ∀ a x, ((![v1965, v2091] : Fin 2 → IVec S16 32) a x).toNat < S128x200.size a := fun v1965 v2091 k0_hw727 => k0_hw727

def k0_chk728 (v2092 : IVec S16 32) : Prop :=
  (∀ a x, ((![v2092] : Fin 1 → IVec S16 32) a x).toNat < S32.size a)
instance k0_chk728.dec : ∀ (v2092 : IVec S16 32), Decidable (k0_chk728 v2092) := fun v2092 => decidable_of_iff' _ (Iff.of_eq (k0_chk728.eq_1 v2092))
theorem k0_idx728_inb : ∀ (v2092 : IVec S16 32) (k0_hw728 : k0_chk728 v2092), ∀ a x, ((![v2092] : Fin 1 → IVec S16 32) a x).toNat < S32.size a := fun v2092 k0_hw728 => k0_hw728

def k0_chk729 (v1965 : IVec S16 32) (v2104 : IVec S16 32) : Prop :=
  (∀ a x, ((![v1965, v2104] : Fin 2 → IVec S16 32) a x).toNat < S128x200.size a)
instance k0_chk729.dec : ∀ (v1965 : IVec S16 32) (v2104 : IVec S16 32), Decidable (k0_chk729 v1965 v2104) := fun v1965 v2104 => decidable_of_iff' _ (Iff.of_eq (k0_chk729.eq_1 v1965 v2104))
theorem k0_idx729_inb : ∀ (v1965 : IVec S16 32) (v2104 : IVec S16 32) (k0_hw729 : k0_chk729 v1965 v2104), ∀ a x, ((![v1965, v2104] : Fin 2 → IVec S16 32) a x).toNat < S128x200.size a := fun v1965 v2104 k0_hw729 => k0_hw729

def k0_chk730 (v2105 : IVec S16 32) : Prop :=
  (∀ a x, ((![v2105] : Fin 1 → IVec S16 32) a x).toNat < S32.size a)
instance k0_chk730.dec : ∀ (v2105 : IVec S16 32), Decidable (k0_chk730 v2105) := fun v2105 => decidable_of_iff' _ (Iff.of_eq (k0_chk730.eq_1 v2105))
theorem k0_idx730_inb : ∀ (v2105 : IVec S16 32) (k0_hw730 : k0_chk730 v2105), ∀ a x, ((![v2105] : Fin 1 → IVec S16 32) a x).toNat < S32.size a := fun v2105 k0_hw730 => k0_hw730

def k0_chk731 (v1965 : IVec S16 32) (v2117 : IVec S16 32) : Prop :=
  (∀ a x, ((![v1965, v2117] : Fin 2 → IVec S16 32) a x).toNat < S128x200.size a)
instance k0_chk731.dec : ∀ (v1965 : IVec S16 32) (v2117 : IVec S16 32), Decidable (k0_chk731 v1965 v2117) := fun v1965 v2117 => decidable_of_iff' _ (Iff.of_eq (k0_chk731.eq_1 v1965 v2117))
theorem k0_idx731_inb : ∀ (v1965 : IVec S16 32) (v2117 : IVec S16 32) (k0_hw731 : k0_chk731 v1965 v2117), ∀ a x, ((![v1965, v2117] : Fin 2 → IVec S16 32) a x).toNat < S128x200.size a := fun v1965 v2117 k0_hw731 => k0_hw731

def k0_chk732 (v2118 : IVec S16 32) : Prop :=
  (∀ a x, ((![v2118] : Fin 1 → IVec S16 32) a x).toNat < S32.size a)
instance k0_chk732.dec : ∀ (v2118 : IVec S16 32), Decidable (k0_chk732 v2118) := fun v2118 => decidable_of_iff' _ (Iff.of_eq (k0_chk732.eq_1 v2118))
theorem k0_idx732_inb : ∀ (v2118 : IVec S16 32) (k0_hw732 : k0_chk732 v2118), ∀ a x, ((![v2118] : Fin 1 → IVec S16 32) a x).toNat < S32.size a := fun v2118 k0_hw732 => k0_hw732

def k0_chk733 (v1965 : IVec S16 32) (v2024 : IVec S16 32) : Prop :=
  (∀ a x, ((![v1965, v2024] : Fin 2 → IVec S16 32) a x).toNat < S128x32.size a)
instance k0_chk733.dec : ∀ (v1965 : IVec S16 32) (v2024 : IVec S16 32), Decidable (k0_chk733 v1965 v2024) := fun v1965 v2024 => decidable_of_iff' _ (Iff.of_eq (k0_chk733.eq_1 v1965 v2024))
theorem k0_idx733_inb : ∀ (v1965 : IVec S16 32) (v2024 : IVec S16 32) (k0_hw733 : k0_chk733 v1965 v2024), ∀ a x, ((![v1965, v2024] : Fin 2 → IVec S16 32) a x).toNat < S128x32.size a := fun v1965 v2024 k0_hw733 => k0_hw733

def k0_chk734 (v1965 : IVec S16 32) (v1967 : IVec S16 32) : Prop :=
  (∀ a x, ((![v1965, v1967] : Fin 2 → IVec S16 32) a x).toNat < S128x32.size a)
instance k0_chk734.dec : ∀ (v1965 : IVec S16 32) (v1967 : IVec S16 32), Decidable (k0_chk734 v1965 v1967) := fun v1965 v1967 => decidable_of_iff' _ (Iff.of_eq (k0_chk734.eq_1 v1965 v1967))
theorem k0_idx734_inb : ∀ (v1965 : IVec S16 32) (v1967 : IVec S16 32) (k0_hw734 : k0_chk734 v1965 v1967), ∀ a x, ((![v1965, v1967] : Fin 2 → IVec S16 32) a x).toNat < S128x32.size a := fun v1965 v1967 k0_hw734 => k0_hw734

def k0_chk735 (v1965 : IVec S16 32) (v2025 : IVec S16 32) : Prop :=
  (∀ a x, ((![v1965, v2025] : Fin 2 → IVec S16 32) a x).toNat < S128x32.size a)
instance k0_chk735.dec : ∀ (v1965 : IVec S16 32) (v2025 : IVec S16 32), Decidable (k0_chk735 v1965 v2025) := fun v1965 v2025 => decidable_of_iff' _ (Iff.of_eq (k0_chk735.eq_1 v1965 v2025))
theorem k0_idx735_inb : ∀ (v1965 : IVec S16 32) (v2025 : IVec S16 32) (k0_hw735 : k0_chk735 v1965 v2025), ∀ a x, ((![v1965, v2025] : Fin 2 → IVec S16 32) a x).toNat < S128x32.size a := fun v1965 v2025 k0_hw735 => k0_hw735

def k0_chk736 (v1965 : IVec S16 32) (v2026 : IVec S16 32) : Prop :=
  (∀ a x, ((![v1965, v2026] : Fin 2 → IVec S16 32) a x).toNat < S128x32.size a)
instance k0_chk736.dec : ∀ (v1965 : IVec S16 32) (v2026 : IVec S16 32), Decidable (k0_chk736 v1965 v2026) := fun v1965 v2026 => decidable_of_iff' _ (Iff.of_eq (k0_chk736.eq_1 v1965 v2026))
theorem k0_idx736_inb : ∀ (v1965 : IVec S16 32) (v2026 : IVec S16 32) (k0_hw736 : k0_chk736 v1965 v2026), ∀ a x, ((![v1965, v2026] : Fin 2 → IVec S16 32) a x).toNat < S128x32.size a := fun v1965 v2026 k0_hw736 => k0_hw736
def k0_off9 (i : grid0.Coords) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c512_i32_749 : BitVec 32 := 512#32
  let v1521 : BitVec 32 := Scalar.muli v2 c512_i32_749
  let c384_i32 : BitVec 32 := 384#32
  let v1522 : BitVec 32 := Scalar.addi v1521 c384_i32
  let c0_i32_1006_r12 : BitVec 32 := 0#32
  ![v1522.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  h_S128x200 : 0 < S128x200.numel
  h_S32 : 0 < S32.numel
  natLt_1_32 : 1 < 32
  h_S128x32 : 0 < S128x32.numel
  hcc0_scoped0 : 0 + S_.numel ≤ 13
  hcc0_scoped1 : 1 + S_.numel ≤ 13
  hcc0_scoped2 : 2 + S_.numel ≤ 13
  hcc0_scoped3 : 3 + S_.numel ≤ 13
  hcc0_scoped4 : 4 + S_.numel ≤ 13
  hcc0_scoped5 : 5 + S_.numel ≤ 13
  hcc0_scoped6 : 6 + S_.numel ≤ 13
  hcc0_scoped7 : 7 + S_.numel ≤ 13
  hcc0_scoped8 : 8 + S_.numel ≤ 13
  hcc0_scoped9 : 9 + S_.numel ≤ 13
  hcc0_scoped10 : 10 + S_.numel ≤ 13
  hcc0_scoped11 : 11 + S_.numel ≤ 13
  hcc0_scoped12 : 12 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128x200.size a ≤ S16384x200.size a
  k0_off2_inb : ∀ i : grid0.Coords, ∀ a, (k0_off2 i) a + S128x32.size a ≤ S16384x32.size a
  k0_t1_ok : k0_t1_loop.OK
  k0_t2_ok : k0_t2_loop.OK
  k0_t3_ok : k0_t3_loop.OK
  k0_t4_ok : k0_t4_loop.OK
  k0_t5_ok : k0_t5_loop.OK
  k0_t6_ok : k0_t6_loop.OK
  k0_t7_ok : k0_t7_loop.OK
  k0_t8_ok : k0_t8_loop.OK
  k0_off3_inb : ∀ i : grid0.Coords, ∀ (r : Fin 2), ∀ a, (k0_off3 i (BitVec.ofNat 32 (128 * r.val))) a + S128x32.size a ≤ S16384x32.size a
  k0_off4_inb : ∀ i : grid0.Coords, ∀ a, (k0_off4 i) a + S128x200.size a ≤ S16384x200.size a
  k0_t9_ok : k0_t9_loop.OK
  k0_t10_ok : k0_t10_loop.OK
  k0_t11_ok : k0_t11_loop.OK
  k0_t12_ok : k0_t12_loop.OK
  k0_t13_ok : k0_t13_loop.OK
  k0_t14_ok : k0_t14_loop.OK
  k0_t15_ok : k0_t15_loop.OK
  k0_t16_ok : k0_t16_loop.OK
  k0_off5_inb : ∀ i : grid0.Coords, ∀ (r : Fin 2), ∀ a, (k0_off5 i (BitVec.ofNat 32 (128 + 128 * r.val))) a + S128x32.size a ≤ S16384x32.size a
  k0_off6_inb : ∀ i : grid0.Coords, ∀ a, (k0_off6 i) a + S128x200.size a ≤ S16384x200.size a
  k0_t17_ok : k0_t17_loop.OK
  k0_t18_ok : k0_t18_loop.OK
  k0_t19_ok : k0_t19_loop.OK
  k0_t20_ok : k0_t20_loop.OK
  k0_t21_ok : k0_t21_loop.OK
  k0_t22_ok : k0_t22_loop.OK
  k0_t23_ok : k0_t23_loop.OK
  k0_t24_ok : k0_t24_loop.OK
  k0_off7_inb : ∀ i : grid0.Coords, ∀ (r : Fin 2), ∀ a, (k0_off7 i (BitVec.ofNat 32 (256 + 128 * r.val))) a + S128x32.size a ≤ S16384x32.size a
  k0_off8_inb : ∀ i : grid0.Coords, ∀ a, (k0_off8 i) a + S128x200.size a ≤ S16384x200.size a
  k0_t25_ok : k0_t25_loop.OK
  k0_t26_ok : k0_t26_loop.OK
  k0_t27_ok : k0_t27_loop.OK
  k0_t28_ok : k0_t28_loop.OK
  k0_t29_ok : k0_t29_loop.OK
  k0_t30_ok : k0_t30_loop.OK
  k0_t31_ok : k0_t31_loop.OK
  k0_t32_ok : k0_t32_loop.OK
  k0_off9_inb : ∀ i : grid0.Coords, ∀ a, (k0_off9 i) a + S128x32.size a ≤ S16384x32.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7
abbrev cc0_scoped8 : DmaSems sig S_ := SemArray.consecutive 8 S_ hcc0_scoped8
abbrev cc0_scoped9 : DmaSems sig S_ := SemArray.consecutive 9 S_ hcc0_scoped9
abbrev cc0_scoped10 : DmaSems sig S_ := SemArray.consecutive 10 S_ hcc0_scoped10
abbrev cc0_scoped11 : DmaSems sig S_ := SemArray.consecutive 11 S_ hcc0_scoped11
abbrev cc0_scoped12 : DmaSems sig S_ := SemArray.consecutive 12 S_ hcc0_scoped12

class Facts : Prop extends Facts₀ where

variable [Facts]
-- ==== ReferenceIdeal.lean ====
abbrev S16384x32 : Shape := ⟨2, ![16384, 32]⟩
abbrev S16384x200 : Shape := ⟨2, ![16384, 200]⟩
abbrev S_ : Shape := ⟨0, ![]⟩
abbrev S32 : Shape := ⟨1, ![32]⟩
abbrev S16384 : Shape := ⟨1, ![16384]⟩
abbrev S200x16384 : Shape := ⟨2, ![200, 16384]⟩
abbrev S1x16384 : Shape := ⟨2, ![1, 16384]⟩
abbrev S16384x1 : Shape := ⟨2, ![16384, 1]⟩
abbrev S16384x199 : Shape := ⟨2, ![16384, 199]⟩
abbrev S16384x3 : Shape := ⟨2, ![16384, 3]⟩
abbrev S1x32 : Shape := ⟨2, ![1, 32]⟩

abbrev nBuf : Space → Nat
  | .hbm => 146
  | .vmem => 0
  | .smem => 0
  | _ => 0

abbrev hbmTy0_0 (i : Nat) : BufTy := match i % 128 with
  | 0 => ⟨S16384x32, .f32⟩
  | 1 => ⟨S16384x200, .i32⟩
  | 2 => ⟨S_, .i32⟩
  | 3 => ⟨S32, .i1⟩
  | 4 => ⟨S32, .i32⟩
  | 5 => ⟨S32, .i1⟩
  | 6 => ⟨S_, .i32⟩
  | 7 => ⟨S16384x200, .i32⟩
  | 8 => ⟨S16384x200, .i1⟩
  | 9 => ⟨S_, .i32⟩
  | 10 => ⟨S16384x200, .i32⟩
  | 11 => ⟨S16384x200, .i1⟩
  | 12 => ⟨S16384x200, .i1⟩
  | 13 => ⟨S_, .i32⟩
  | 14 => ⟨S16384x200, .i32⟩
  | 15 => ⟨S16384x200, .i1⟩
  | 16 => ⟨S_, .i32⟩
  | 17 => ⟨S16384x200, .i32⟩
  | 18 => ⟨S16384x200, .i1⟩
  | 19 => ⟨S16384x200, .i1⟩
  | 20 => ⟨S_, .i32⟩
  | 21 => ⟨S16384, .i32⟩
  | 22 => ⟨S200x16384, .i1⟩
  | 23 => ⟨S200x16384, .i1⟩
  | 24 => ⟨S_, .i32⟩
  | 25 => ⟨S200x16384, .i1⟩
  | 26 => ⟨S200x16384, .i1⟩
  | 27 => ⟨S_, .i32⟩
  | 28 => ⟨S16384, .i32⟩
  | 29 => ⟨S_, .i32⟩
  | 30 => ⟨S_, .i1⟩
  | 31 => ⟨S_, .i32⟩
  | 32 => ⟨S1x16384, .i1⟩
  | 33 => ⟨S16384, .i1⟩
  | 34 => ⟨S_, .i32⟩
  | 35 => ⟨S1x16384, .i1⟩
  | 36 => ⟨S16384, .i1⟩
  | 37 => ⟨S_, .i32⟩
  | 38 => ⟨S16384, .i32⟩
  | 39 => ⟨S16384, .i32⟩
  | 40 => ⟨S_, .i32⟩
  | 41 => ⟨S16384, .i32⟩
  | 42 => ⟨S16384, .i32⟩
  | 43 => ⟨S_, .i32⟩
  | 44 => ⟨S16384, .i32⟩
  | 45 => ⟨S16384, .i32⟩
  | 46 => ⟨S16384, .i32⟩
  | 47 => ⟨S16384, .i32⟩
  | 48 => ⟨S_, .i32⟩
  | 49 => ⟨S_, .i32⟩
  | 50 => ⟨S_, .i32⟩
  | 51 => ⟨S16384, .i32⟩
  | 52 => ⟨S16384, .i1⟩
  | 53 => ⟨S16384x1, .i32⟩
  | 54 => ⟨S16384, .i32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S16384, .i1⟩
  | 64 => ⟨S16384x199, .i32⟩
  | 65 => ⟨S16384x1, .i32⟩
  | 66 => ⟨S16384x199, .i32⟩
  | 67 => ⟨S16384x199, .i1⟩
  | 68 => ⟨S16384x199, .i32⟩
  | 69 => ⟨S_, .i32⟩
  | 70 => ⟨S16384x199, .i32⟩
  | 71 => ⟨S16384x199, .i1⟩
  | 72 => ⟨S16384x199, .i1⟩
  | 73 => ⟨S_, .i1⟩
  | 74 => ⟨S16384, .i1⟩
  | 75 => ⟨S16384, .i1⟩
  | 76 => ⟨S16384x3, .i32⟩
  | 77 => ⟨S_, .i32⟩
  | 78 => ⟨S16384x3, .i32⟩
  | 79 => ⟨S16384x3, .i1⟩
  | 80 => ⟨S16384x3, .i32⟩
  | 81 => ⟨S_, .i32⟩
  | 82 => ⟨S16384x3, .i32⟩
  | 83 => ⟨S16384x3, .i1⟩
  | 84 => ⟨S16384x3, .i1⟩
  | 85 => ⟨S16384x3, .i32⟩
  | 86 => ⟨S_, .i32⟩
  | 87 => ⟨S16384, .i32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S16384, .i1⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S16384, .i32⟩
  | 106 => ⟨S16384, .i1⟩
  | 107 => ⟨S16384, .i1⟩
  | 108 => ⟨S32, .i32⟩
  | 109 => ⟨S16384x1, .i1⟩
  | 110 => ⟨S_, .i32⟩
  | 111 => ⟨S32, .i32⟩
  | 112 => ⟨S32, .i1⟩
  | 113 => ⟨S1x32, .i1⟩
  | 114 => ⟨S16384x32, .i1⟩
  | 115 => ⟨S16384x32, .i1⟩
  | 116 => ⟨S16384x32, .i1⟩
  | 117 => ⟨S16384x1, .i1⟩
  | 118 => ⟨S1x32, .i32⟩
  | 119 => ⟨S16384x1, .i32⟩
  | 120 => ⟨S16384x32, .i32⟩
  | 121 => ⟨S16384x32, .i32⟩
  | 122 => ⟨S16384x32, .i1⟩
  | 123 => ⟨S16384x32, .i1⟩
  | 124 => ⟨S16384x32, .i1⟩
  | 125 => ⟨S16384x32, .i1⟩
  | 126 => ⟨S16384x1, .i1⟩
  | 127 => ⟨S_, .i32⟩
  | _ => ⟨S16384x32, .f32⟩

abbrev hbmTy0_1 (i : Nat) : BufTy := match i % 128 with
  | 0 => ⟨S32, .i32⟩
  | 1 => ⟨S32, .i1⟩
  | 2 => ⟨S_, .i32⟩
  | 3 => ⟨S32, .i32⟩
  | 4 => ⟨S32, .i1⟩
  | 5 => ⟨S32, .i1⟩
  | 6 => ⟨S1x32, .i1⟩
  | 7 => ⟨S16384x32, .i1⟩
  | 8 => ⟨S16384x32, .i1⟩
  | 9 => ⟨S16384x32, .i1⟩
  | 10 => ⟨S16384x32, .i1⟩
  | 11 => ⟨S_, .f32⟩
  | 12 => ⟨S_, .f32⟩
  | 13 => ⟨S16384x32, .f32⟩
  | 14 => ⟨S16384x32, .f32⟩
  | 15 => ⟨S16384x32, .f32⟩
  | 16 => ⟨S16384x32, .f32⟩
  | 17 => ⟨S16384x32, .f32⟩
  | _ => ⟨S16384x32, .f32⟩

abbrev hbmTy (i : Nat) : BufTy := match i / 128 with
  | 0 => hbmTy0_0 i
  | 1 => hbmTy0_1 i
  | _ => ⟨S16384x32, .f32⟩

abbrev bufTy : (tb : Table) → Fin (tcTables nBuf tb) → BufTy
  | .hbm, ⟨i, _⟩ => hbmTy i
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_c_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_4 : Ref sig .tc := ⟨.hbm, 13, rfl⟩
abbrev main_v5 : Ref sig .tc := ⟨.hbm, 14, rfl⟩
abbrev main_v6 : Ref sig .tc := ⟨.hbm, 15, rfl⟩
abbrev main_c_5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_6 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_7 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_while0c_c_27 : Ref sig .tc := ⟨.hbm, 29, rfl⟩
abbrev main_while0c_v91 : Ref sig .tc := ⟨.hbm, 30, rfl⟩
abbrev main_while0b_call0_c : Ref sig .tc := ⟨.hbm, 31, rfl⟩
abbrev main_while0b_call0_v0 : Ref sig .tc := ⟨.hbm, 32, rfl⟩
abbrev main_while0b_v91 : Ref sig .tc := ⟨.hbm, 33, rfl⟩
abbrev main_while0b_call1_c : Ref sig .tc := ⟨.hbm, 34, rfl⟩
abbrev main_while0b_call1_v0 : Ref sig .tc := ⟨.hbm, 35, rfl⟩
abbrev main_while0b_v92 : Ref sig .tc := ⟨.hbm, 36, rfl⟩
abbrev main_while0b_call2_c : Ref sig .tc := ⟨.hbm, 37, rfl⟩
abbrev main_while0b_call2_v0 : Ref sig .tc := ⟨.hbm, 38, rfl⟩
abbrev main_while0b_call2_v1 : Ref sig .tc := ⟨.hbm, 39, rfl⟩
abbrev main_while0b_call2_c_0 : Ref sig .tc := ⟨.hbm, 40, rfl⟩
abbrev main_while0b_call2_v2 : Ref sig .tc := ⟨.hbm, 41, rfl⟩
abbrev main_while0b_call2_v3 : Ref sig .tc := ⟨.hbm, 42, rfl⟩
abbrev main_while0b_call2_c_1 : Ref sig .tc := ⟨.hbm, 43, rfl⟩
abbrev main_while0b_call2_v4 : Ref sig .tc := ⟨.hbm, 44, rfl⟩
abbrev main_while0b_call2_v5 : Ref sig .tc := ⟨.hbm, 45, rfl⟩
abbrev main_while0b_call2_v6 : Ref sig .tc := ⟨.hbm, 46, rfl⟩
abbrev main_while0b_v93 : Ref sig .tc := ⟨.hbm, 47, rfl⟩
abbrev main_while0b_c_27 : Ref sig .tc := ⟨.hbm, 48, rfl⟩
abbrev main_while0b_v94 : Ref sig .tc := ⟨.hbm, 49, rfl⟩
abbrev main_c_8 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_c_9 : Ref sig .tc := ⟨.hbm, 55, rfl⟩
abbrev main_v18 : Ref sig .tc := ⟨.hbm, 56, rfl⟩
abbrev main_v19 : Ref sig .tc := ⟨.hbm, 57, rfl⟩
abbrev main_c_10 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_c_11 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_c_12 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_c_13 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_c_14 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_c_15 : Ref sig .tc := ⟨.hbm, 86, rfl⟩
abbrev main_v43 : Ref sig .tc := ⟨.hbm, 87, rfl⟩
abbrev main_c_16 : Ref sig .tc := ⟨.hbm, 88, rfl⟩
abbrev main_v44 : Ref sig .tc := ⟨.hbm, 89, rfl⟩
abbrev main_v45 : Ref sig .tc := ⟨.hbm, 90, rfl⟩
abbrev main_c_17 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_c_18 : Ref sig .tc := ⟨.hbm, 97, rfl⟩
abbrev main_v51 : Ref sig .tc := ⟨.hbm, 98, rfl⟩
abbrev main_v52 : Ref sig .tc := ⟨.hbm, 99, rfl⟩
abbrev main_c_19 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_c_20 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_c_21 : Ref sig .tc := ⟨.hbm, 127, rfl⟩
abbrev main_v78 : Ref sig .tc := ⟨.hbm, 128, rfl⟩
abbrev main_v79 : Ref sig .tc := ⟨.hbm, 129, rfl⟩
abbrev main_c_22 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst : Ref sig .tc := ⟨.hbm, 139, rfl⟩
abbrev main_cst_23 : Ref sig .tc := ⟨.hbm, 140, rfl⟩
abbrev main_call3_v0 : Ref sig .tc := ⟨.hbm, 141, rfl⟩
abbrev main_call3_v1 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩

abbrev nD : Nat := 1
abbrev τ : Topo := Topo.v7x

variable {F : FTy → Type} [FloatOps F]

abbrev main_while0_count : Scf.Loop 32 := ⟨0#32, 200#32, 1#32⟩

class Facts₀ : Prop where
  bcast_S_S16384x200 : S_.BroadcastsInDim S16384x200 (![] : Fin 0 → Fin S16384x200.rank)
  bcast_S_S16384 : S_.BroadcastsInDim S16384 (![] : Fin 0 → Fin S16384.rank)
  transposes_S16384x200_S200x16384_1_0 : S16384x200.Transposes [1, 0] S200x16384
  sliceFits_S200x16384_S1x16384 : S200x16384.Slices (fun _ => 0) S1x16384
  h_S_ : 0 < S_.numel
  shapeCasts_S1x16384_S16384 : S1x16384.ShapeCasts S16384
  slices_S16384x200_S16384x1_0_199 : S16384x200.Slices ![0, 199] S16384x1
  shapeCasts_S16384x1_S16384 : S16384x1.ShapeCasts S16384
  bcast_S16384_S16384x1_0 : S16384.BroadcastsInDim S16384x1 (![0] : Fin 1 → Fin S16384x1.rank)
  slices_S16384x200_S16384x199_0_0 : S16384x200.Slices ![0, 0] S16384x199
  bcast_S16384x1_S16384x199_0_1 : S16384x1.BroadcastsInDim S16384x199 (![0, 1] : Fin 2 → Fin S16384x199.rank)
  slices_S16384x200_S16384x199_0_1 : S16384x200.Slices ![0, 1] S16384x199
  bcast_S_S16384x199 : S_.BroadcastsInDim S16384x199 (![] : Fin 0 → Fin S16384x199.rank)
  reducesTo_S16384x199_S16384_d1 : S16384x199.ReducesTo [1] S16384
  slices_S16384x200_S16384x3_0_197 : S16384x200.Slices ![0, 197] S16384x3
  bcast_S_S16384x3 : S_.BroadcastsInDim S16384x3 (![] : Fin 0 → Fin S16384x3.rank)
  natLt_1_32 : 1 < 32
  reducesTo_S16384x3_S16384_d1 : S16384x3.ReducesTo [1] S16384
  bcast_S_S32 : S_.BroadcastsInDim S32 (![] : Fin 0 → Fin S32.rank)
  bcast_S32_S1x32_1 : S32.BroadcastsInDim S1x32 (![1] : Fin 1 → Fin S1x32.rank)
  bcast_S16384x1_S16384x32_0_1 : S16384x1.BroadcastsInDim S16384x32 (![0, 1] : Fin 2 → Fin S16384x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  gather_S32_S16384x1_S16384_n_0_n_n_0_1_1_wf : GatherDims.WF S32 S16384x1 S16384 [] [0] [] [0] [] 1 ![1]
  main_while0_ok : main_while0_count.OK

variable [Facts₀]

def gather_S32_S16384x1_S16384_n_0_n_n_0_1_1 : GatherDims S32 S16384x1 S16384 where
  offsetDims := []
  collapsedSliceDims := [0]
  operandBatchingDims := []
  startIndicesBatchingDims := []
  startIndexMap := [0]
  indexVectorDim := 1
  sliceSizes := ![1]
  wf := gather_S32_S16384x1_S16384_n_0_n_n_0_1_1_wf

class Facts : Prop extends Facts₀ where

variable [Facts]
-- ==== Proof.Pre.lean ====
/-
  What the certificate's precondition says of the tokens: the domain predicate's middle conjunct is
  `all (0 ≤ tokens) ∧ (tokens ≤ 31)` as signed comparisons, reduced by `and` over the whole array; if the predicate
  is all ones, every token, read as an unsigned word, is below 32 — so it names an entry of the 32-entry table and a
  column of a logits row.
-/
import proofs.«215955_g3427383902409_cont_8to1_b_1893_7_alg».proof.Defs
import proofs.«215955_g3427383902409_cont_8to1_b_1893_7_alg».proof.Proof.Gen.Pre_input_domain
import Idealize.ShloMosaic.Lib.ReduceAll

noncomputable section

namespace Cert.Proof.Pre

open Idealize.ShloMosaic
open Cert.Pre_input_domain

instance : Subsingleton S_.Idx := ⟨fun a b => funext fun d => d.elim0⟩

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A word that is at least 0 and at most 31 as a signed number is below 32 as an unsigned one. -/
theorem key (v : BitVec 32) (e : IntOp.andi (IntOp.cmpi .sge v 0#32) (IntOp.cmpi .sle v 31#32) = 1#1) : v.toNat < 32 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

variable {F : FTy → Type} [FloatOps F] [Facts]

/-- The domain predicate all ones: every token is below 32. -/
theorem tok_lt (x : FVec F S16384x32 .f32) (t : IVec S16384x200 32) (s : IVec S_ 32)
    (h : fn (F := F) x t s = fun _ => 1#1) (i : S16384x200.Idx) : (t i).toNat < 32 := by
  have e := congrFun h (fun dd => dd.elim0)
  dsimp only [fn] at e
  have e1 := (IntOp.andi_eq_one.1 (show IntOp.andi _ _ = 1#1 from e)).1
  have e9 := (IntOp.andi_eq_one.1 (show IntOp.andi _ _ = 1#1 from e1)).2
  have e8 := Host.reduce_andi_all _ _ _ _ _ e9 i
  exact key _ e8

end Cert.Proof.Pre

end
-- ==== Proof.RefFrame.lean ====
/-
  The reference program never writes its three argument arrays: each of its host operations writes one buffer of
  its own, and none of those is an argument. So the arguments hold their launch contents before every trip of the
  scan's loop (by induction on the trip) and after the operations that follow it: the reference's frame.
-/
import proofs.«215955_g3427383902409_cont_8to1_b_1893_7_alg».proof.Defs
import proofs.«215955_g3427383902409_cont_8to1_b_1893_7_alg».proof.Proof.Gen.ReferenceIdeal.Run

noncomputable section

namespace Cert.Proof.Ref

open Cert.ReferenceIdeal Cert.ReferenceIdeal.Gen Cert.ReferenceIdeal.Value
open Idealize.ShloMosaic Idealize.ShloMosaic.TcCoe Idealize.ShloMosaic.Tactic
open Idealize.SL.Sem
open Idealize.ShloMosaic.StableHlo

variable {F : FTy → Type} [FloatOps F]

/-- No operation of the list writes the buffer `b`. -/
def Keeps (ops : List (HloOp τ sig (Elt F))) (b : Ref sig .tc) : Prop := ∀ op ∈ ops, Proc.devRef .tc b ∉ op.writes

omit [FloatOps F] in
theorem Keeps.after {ops : List (HloOp τ sig (Elt F))} {b : Ref sig .tc} (h : Keeps ops b) (V : Valuation τ sig (Elt F)) :
    after ops V b = V b := after_of_forall_not_mem ops V h

/-- A buffer no stretch of the program writes. -/
structure Kept (b : Ref sig .tc) : Prop where
  cond : Keeps (condOps (F := F)) b
  pre0 : Keeps (hostOps0 (F := F)) b
  b0 : Keeps (while0Ops0 (F := F)) b
  b1 : Keeps (while0Ops0_1 (F := F)) b
  b2 : Keeps (while0Ops0_2 (F := F)) b
  b3 : Keeps (while0Ops0_3 (F := F)) b
  p1 : Keeps (hostOps0_1 (F := F)) b
  p2 : Keeps (hostOps0_2 (F := F)) b
  p3 : Keeps (hostOps0_3 (F := F)) b

variable (m : (ℓ : Loc nD τ sig) → Buf (Elt F) ℓ)

/-- A kept buffer holds its launch contents before every trip. -/
theorem atK_kept {b : Ref sig .tc} (h : Kept (F := F) b) (c : Dev nD) : ∀ k, atK m k c b = launchContents m c b
  | 0 => by
    rw [show atK m 0 c = entryContents preI m c from rfl]
    simp only [entryContents, afterL_cons, afterL_nil]
    rw [h.pre0.after]
  | k + 1 => by
    rw [show atK m (k + 1) c = afterL bodyI (after condOps (atK m k c)) from rfl]
    simp only [afterL_cons, afterL_nil]
    rw [h.b3.after, h.b2.after, h.b1.after, h.b0.after, h.cond.after, atK_kept h c k]

/-- A kept buffer holds its launch contents at the program's end. -/
theorem final_kept {b : Ref sig .tc} (h : Kept (F := F) b) (c : Dev nD) :
    finalContents condOps preI bodyI postI 200 m c b = launchContents m c b := by
  show afterL postI (after condOps (atK m 200 c)) b = _
  simp only [afterL_cons, afterL_nil]
  rw [h.p3.after, h.p2.after, h.p1.after, h.cond.after, atK_kept m h c 200]

set_option maxRecDepth 100000 in
set_option maxHeartbeats 4000000 in
theorem kept_arg0 : Kept (F := F) main_arg0 := by
  refine ⟨?_, ?_, ?_, ?_, ?_, ?_, ?_, ?_, ?_⟩ <;>
    (intro op hop; fin_cases hop <;> exact fun h => devRef_ne_of_ne (by decide) (Finset.mem_singleton.mp h))
set_option maxRecDepth 100000 in
set_option maxHeartbeats 4000000 in
theorem kept_arg1 : Kept (F := F) main_arg1 := by
  refine ⟨?_, ?_, ?_, ?_, ?_, ?_, ?_, ?_, ?_⟩ <;>
    (intro op hop; fin_cases hop <;> exact fun h => devRef_ne_of_ne (by decide) (Finset.mem_singleton.mp h))
set_option maxRecDepth 100000 in
set_option maxHeartbeats 4000000 in
theorem kept_arg2 : Kept (F := F) main_arg2 := by
  refine ⟨?_, ?_, ?_, ?_, ?_, ?_, ?_, ?_, ?_⟩ <;>
    (intro op hop; fin_cases hop <;> exact fun h => devRef_ne_of_ne (by decide) (Finset.mem_singleton.mp h))

/-- The reference runs to its end, faults nowhere, and leaves its three arguments as they were. -/
theorem frame [∀ e, Nonempty (Elt F e)] (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := F)) _ _).mono (fun r h c =>
    ⟨(h c main_arg0 (by decide)).trans (final_kept m kept_arg0 c),
     (h c main_arg1 (by decide)).trans (final_kept m kept_arg1 c),
     (h c main_arg2 (by decide)).trans (final_kept m kept_arg2 c)⟩) (run_fold m ρ)

end Cert.Proof.Ref

end
-- ==== Proof.Spec.lean ====
/-
  What the masking computes, stated once, index by index, over the token array (16384 rows of 200 tokens, each a
  32-bit word) and the logits array (16384 rows of 32 floats). Row `r` of the tokens decides three rules:

  * the BRACKET rule: scan the row left to right with a depth that starts at 0, goes up by one at an opening bracket
    (tokens 6 and 8), down by one — never below 0 — at a closing bracket (tokens 7 and 9), and stays otherwise; the
    rule hits when the depth after all 200 tokens is positive, and masks column 25;
  * the RING rule: the row's last token is a digit (tokens 15 … 24) and somewhere an occurrence of that token is
    directly followed by token 14; it masks the column of that last token;
  * the VALENCE rule: the last token is 0, 1 or 2 and among the last three tokens at least 4, 2 or 3 (respectively)
    are bond tokens (10 or 11); it masks columns 10 and 11.

  A masked entry is the logit plus the constant `-1e9` (as the scratch memory's add-on-store adds it); every other
  entry is the logit itself.
-/
import Idealize.ShloMosaic.PureOps.Ideal
import Idealize.ShloMosaic.Lib.ValueIdx

noncomputable section

namespace Cert.Spec

open Idealize.ShloMosaic
open Classical

abbrev STok : Shape := ⟨2, ![16384, 200]⟩
abbrev SLog : Shape := ⟨2, ![16384, 32]⟩

/-- Token `j` of row `r` (the word 0 past the row's end, which nothing reads). -/
def tokAt (tok : STok.Idx → BitVec 32) (r : Fin 16384) (j : ℕ) : BitVec 32 :=
  if h : j < 200 then tok (ValueIdx.ix2 r ⟨j, h⟩) else 0#32

def isOpen (t : BitVec 32) : Prop := t = 6#32 ∨ t = 8#32
def isClose (t : BitVec 32) : Prop := t = 7#32 ∨ t = 9#32
def isBond (t : BitVec 32) : Prop := t = 10#32 ∨ t = 11#32
def isDigit (t : BitVec 32) : Prop := 15 ≤ t.toNat ∧ t.toNat ≤ 24

/-- The bracket depth after the first `j` tokens of a row `T`. -/
def depth (T : ℕ → BitVec 32) : ℕ → ℕ
  | 0 => 0
  | j + 1 => if isOpen (T j) then depth T j + 1 else if isClose (T j) then depth T j - 1 else depth T j

def bracketHit (T : ℕ → BitVec 32) : Prop := 0 < depth T 200

def ringHit (T : ℕ → BitVec 32) : Prop := isDigit (T 199) ∧ ∃ j, j < 199 ∧ T j = T 199 ∧ T (j + 1) = 14#32

/-- How many of the last three tokens are bond tokens. -/
def bond (T : ℕ → BitVec 32) : ℕ :=
  (if isBond (T 197) then 1 else 0) + (if isBond (T 198) then 1 else 0) + (if isBond (T 199) then 1 else 0)

def valHit (T : ℕ → BitVec 32) : Prop :=
  (T 199 = 0#32 ∧ 4 ≤ bond T) ∨ (T 199 = 1#32 ∧ 2 ≤ bond T) ∨ (T 199 = 2#32 ∧ 3 ≤ bond T)

/-- Column `col` of a row with tokens `T` is masked. -/
def hit (T : ℕ → BitVec 32) (col : ℕ) : Prop :=
  (bracketHit T ∧ col = 25) ∨ (ringHit T ∧ col = (T 199).toNat) ∨ (valHit T ∧ (col = 10 ∨ col = 11))

/-- The masked logits, as one function of the two arrays. -/
def G {F : FTy → Type} [FloatOps F] (x : SLog.Idx → F .f32) (tok : STok.Idx → BitVec 32) : SLog.Idx → F .f32 :=
  fun i => if hit (tokAt tok (i 0)) (i 1).val then FloatOps.idxAddf (x i) (Scalar.ofBits .f32 0xCE6E6B28#32) else x i

end Cert.Spec

end
-- ==== Proof.RefValueOps.lean ====
/-
  The reference's host operations read at ONE index. A layout operation (a broadcast, a slice, the reshape that
  drops or adds a unit axis, the transpose, the clamped dynamic slice of one row, the gather from a table of 32
  entries) is its operand at an index named by coordinates; a reduction along a row is a fold over the row's
  columns: an `or` that is 1 exactly when some column is, a sum of three words.
-/
import proofs.«215955_g3427383902409_cont_8to1_b_1893_7_alg».proof.Proof.Spec
import proofs.«215955_g3427383902409_cont_8to1_b_1893_7_alg».proof.Proof.RefFrame
import Idealize.ShloMosaic.Lib.Pipeline.Value
import Idealize.ShloMosaic.Lib.DynamicIndex
import Idealize.ShloMosaic.Lib.ReduceAll

noncomputable section

namespace Cert.Proof.RefValue

open Cert.ReferenceIdeal Cert.ReferenceIdeal.Gen
open Idealize.ShloMosaic Idealize.ShloMosaic.ValueIdx

section Layout
variable {α : Type}

/-- A scalar broadcast to any shape reads the scalar everywhere. -/
theorem bcast_scalar_at (t : Shape) (dims : Fin S_.rank → Fin t.rank) (h : S_.BroadcastsInDim t dims) (x : S_.Idx → α)
    (j : t.Idx) : broadcastInDim t dims h x j = x ix0 :=
  broadcastInDim_apply dims h x j ix0 (fun a => a.elim0)

/-- A vector over the rows as a one-column array. -/
theorem bcast_col_at (h : S16384.BroadcastsInDim S16384x1 ![0]) (x : S16384.Idx → α) (r : Fin 16384) (z : Fin 1) :
    broadcastInDim S16384x1 ![0] h x (ix2 r z) = x (ix1 r) :=
  broadcastInDim_apply _ h x (ix2 r z) (ix1 r) (Fin.forall_fin_one.2 rfl)

/-- A one-column array stretched along 199 columns. -/
theorem bcast_row199_at (h : S16384x1.BroadcastsInDim S16384x199 ![0, 1]) (x : S16384x1.Idx → α) (r : Fin 16384)
    (j : Fin 199) : broadcastInDim S16384x199 ![0, 1] h x (ix2 r j) = x (ix2 r 0) :=
  broadcastInDim_apply _ h x (ix2 r j) (ix2 r 0) (Fin.forall_fin_two.2 ⟨rfl, rfl⟩)

/-- A one-column array stretched along 32 columns. -/
theorem bcast_row32_at (h : S16384x1.BroadcastsInDim S16384x32 ![0, 1]) (x : S16384x1.Idx → α) (r : Fin 16384)
    (c : Fin 32) : broadcastInDim S16384x32 ![0, 1] h x (ix2 r c) = x (ix2 r 0) :=
  broadcastInDim_apply _ h x (ix2 r c) (ix2 r 0) (Fin.forall_fin_two.2 ⟨rfl, rfl⟩)

/-- A vector over the columns as a one-row array. -/
theorem bcast_1x32_at (h : S32.BroadcastsInDim S1x32 ![1]) (x : S32.Idx → α) (z : Fin 1) (c : Fin 32) :
    broadcastInDim S1x32 ![1] h x (ix2 z c) = x (ix1 c) :=
  broadcastInDim_apply _ h x (ix2 z c) (ix1 c) (Fin.forall_fin_one.2 rfl)

/-- A one-row array stretched along the rows. -/
theorem bcast_col32_at (h : S1x32.BroadcastsInDim S16384x32 ![0, 1]) (x : S1x32.Idx → α) (r : Fin 16384) (c : Fin 32) :
    broadcastInDim S16384x32 ![0, 1] h x (ix2 r c) = x (ix2 0 c) :=
  broadcastInDim_apply _ h x (ix2 r c) (ix2 0 c) (Fin.forall_fin_two.2 ⟨rfl, rfl⟩)

/-- The last column. -/
theorem slice_last_at (h : S16384x200.Slices ![0, 199] S16384x1) (x : S16384x200.Idx → α) (r : Fin 16384) (z : Fin 1) :
    extractStridedSlice S16384x1 ![0, 199] x h (ix2 r z) = x (ix2 r ⟨199, by omega⟩) :=
  extractStridedSlice_apply _ x h (ix2 r z) (ix2 r ⟨199, by omega⟩) (Fin.forall_fin_two.2
    ⟨by show (r : ℕ) = 0 + (r : ℕ); omega, by have := z.isLt; show 199 = 199 + (z : ℕ); omega⟩)

/-- All columns but the last. -/
theorem slice_lo_at (h : S16384x200.Slices ![0, 0] S16384x199) (x : S16384x200.Idx → α) (r : Fin 16384) (j : Fin 199) :
    extractStridedSlice S16384x199 ![0, 0] x h (ix2 r j) = x (ix2 r ⟨j.val, by omega⟩) :=
  extractStridedSlice_apply _ x h (ix2 r j) (ix2 r ⟨j.val, by omega⟩) (Fin.forall_fin_two.2
    ⟨by show (r : ℕ) = 0 + (r : ℕ); omega, by show (j : ℕ) = 0 + (j : ℕ); omega⟩)

/-- All columns but the first. -/
theorem slice_hi_at (h : S16384x200.Slices ![0, 1] S16384x199) (x : S16384x200.Idx → α) (r : Fin 16384) (j : Fin 199) :
    extractStridedSlice S16384x199 ![0, 1] x h (ix2 r j) = x (ix2 r ⟨j.val + 1, by omega⟩) :=
  extractStridedSlice_apply _ x h (ix2 r j) (ix2 r ⟨j.val + 1, by omega⟩) (Fin.forall_fin_two.2
    ⟨by show (r : ℕ) = 0 + (r : ℕ); omega, by show (j : ℕ) + 1 = 1 + (j : ℕ); omega⟩)

/-- The last three columns. -/
theorem slice3_at (h : S16384x200.Slices ![0, 197] S16384x3) (x : S16384x200.Idx → α) (r : Fin 16384) (j : Fin 3) :
    extractStridedSlice S16384x3 ![0, 197] x h (ix2 r j) = x (ix2 r ⟨197 + j.val, by omega⟩) :=
  extractStridedSlice_apply _ x h (ix2 r j) (ix2 r ⟨197 + j.val, by omega⟩) (Fin.forall_fin_two.2
    ⟨by show (r : ℕ) = 0 + (r : ℕ); omega, by show 197 + (j : ℕ) = 197 + (j : ℕ); rfl⟩)

/-- The transpose of a rows-by-positions array. -/
theorem transpose_at (h : S16384x200.Transposes [1, 0] S200x16384) (x : S16384x200.Idx → α) (k : Fin 200) (r : Fin 16384) :
    transpose S200x16384 [1, 0] x h (ix2 k r) = x (ix2 r k) :=
  transpose_apply _ x h (ix2 k r) (ix2 r k) (Fin.forall_fin_two.2 ⟨rfl, rfl⟩)

/-- A one-column array as a vector over the rows. -/
theorem reshape_col_at (h : S16384x1.ShapeCasts S16384) (x : S16384x1.Idx → α) (r : Fin 16384) :
    shapeCast S16384 x h (ix1 r) = x (ix2 r 0) :=
  shapeCast_apply x h (ix1 r) (ix2 r 0) (by
    rw [Shape.rowMajor_val_two, Shape.rowMajor_val_one]
    show (r : ℕ) * 1 + 0 = (r : ℕ); omega)

/-- A one-row array as a vector over its columns. -/
theorem reshape_row_at (h : S1x16384.ShapeCasts S16384) (x : S1x16384.Idx → α) (r : Fin 16384) :
    shapeCast S16384 x h (ix1 r) = x (ix2 0 r) :=
  shapeCast_apply x h (ix1 r) (ix2 0 r) (by
    rw [Shape.rowMajor_val_two, Shape.rowMajor_val_one]
    show 0 * 16384 + (r : ℕ) = (r : ℕ); omega)

/-- The dynamic slice of one row, at a start inside the array: that row. -/
theorem dynslice_at (h : S200x16384.Slices (fun _ => 0) S1x16384) (x : S200x16384.Idx → α)
    (start : Fin S200x16384.rank → Int) (k : ℕ) (hk : k < 200) (h0 : start 0 = (k : Int)) (h1 : start 1 = 0)
    (z : Fin 1) (r : Fin 16384) :
    Host.dynamicSlice S1x16384 x start h (ix2 z r) = x (ix2 ⟨k, hk⟩ r) := by
  have hoff : S200x16384.Slices ![k, 0] S1x16384 :=
    ⟨h.1, Fin.forall_fin_two.2 ⟨by show k + 1 ≤ 200; omega, by show 0 + 16384 ≤ 16384; omega⟩⟩
  rw [Host.dynamicSlice_eq_extractStridedSlice S1x16384 x start ![k, 0] h hoff
    (Fin.forall_fin_two.2 ⟨by rw [h0]; rfl, by rw [h1]; rfl⟩)]
  exact extractStridedSlice_apply _ x hoff (ix2 z r) (ix2 ⟨k, hk⟩ r) (Fin.forall_fin_two.2
    ⟨by have := z.isLt; show k = k + (z : ℕ); omega, by show (r : ℕ) = 0 + (r : ℕ); omega⟩)

end Layout

section Gather
variable {α : Type}

/-- The gather from a 32-entry table at a one-column array of start indices: row `r` reads the table at its start
    index, read signed and clamped into the table. -/
theorem gather_at (x : S32.Idx → α) (idx : IVec S16384x1 32) (r : Fin 16384) :
    Host.gather gather_S32_S16384x1_S16384_n_0_n_n_0_1_1 x idx (ix1 r)
      = x (ix1 ⟨min (idx (ix2 r 0)).toInt.toNat 31, by omega⟩) := by
  unfold Host.gather
  congr 1
  funext a
  obtain rfl : a = 0 := Subsingleton.elim _ _
  refine Fin.ext ?_
  show gather_S32_S16384x1_S16384_n_0_n_n_0_1_1.start (ix1 r) idx 0
      + gather_S32_S16384x1_S16384_n_0_n_n_0_1_1.batchCoord (ix1 r) 0
      + gather_S32_S16384x1_S16384_n_0_n_n_0_1_1.offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S32_S16384x1_S16384_n_0_n_n_0_1_1.startIndexMap from List.mem_singleton.mpr rfl)]
  have hsi : gather_S32_S16384x1_S16384_n_0_n_n_0_1_1.siIdx (ix1 r)
      ⟨List.idxOf (0 : Fin 1) gather_S32_S16384x1_S16384_n_0_n_n_0_1_1.startIndexMap,
        List.idxOf_lt_length_iff.2 (List.mem_singleton.mpr rfl)⟩ = ix2 r 0 := by
    funext b; refine Fin.ext ?_
    match b with
    | ⟨0, _⟩ => rfl
    | ⟨1, _⟩ => rfl
  rw [hsi]
  rfl

end Gather

section Reduce

/-- An `or`-fold over a finite set is 1 exactly when it starts at 1 or meets a 1. -/
theorem fold_ori_eq_one {ι : Type} [DecidableEq ι] (S : Finset ι) (b : BitVec 1) (f : ι → BitVec 1) :
    S.fold IntOp.ori b f = 1#1 ↔ b = 1#1 ∨ ∃ i ∈ S, f i = 1#1 := by
  refine Finset.induction_on S ?_ ?_
  · simp
  · intro a S ha ih
    rw [Finset.fold_insert ha, IntOp.ori_eq_one, ih]
    constructor
    · rintro (h | h | ⟨i, hi, h⟩)
      · exact Or.inr ⟨a, Finset.mem_insert_self _ _, h⟩
      · exact Or.inl h
      · exact Or.inr ⟨i, Finset.mem_insert_of_mem hi, h⟩
    · rintro (h | ⟨i, hi, h⟩)
      · exact Or.inr (Or.inl h)
      · rcases Finset.mem_insert.mp hi with rfl | hi
        · exact Or.inl h
        · exact Or.inr (Or.inr ⟨i, hi, h⟩)

/-- The indices of a 199-column array that reduce into row `r` are that row's. -/
theorem drop199_iff (h : S16384x199.ReducesTo [1] S16384) (i : S16384x199.Idx) (r : Fin 16384) :
    h.drop i = ix1 r ↔ i 0 = r := by
  have hv : (h.drop i 0 : ℕ) = i 0 := Shape.ReducesTo.drop_apply_val_of_eq h i 0 0
  constructor
  · intro e
    have := congrArg (fun f => ((f 0 : Fin 16384) : ℕ)) e
    exact Fin.ext (hv.symm.trans this)
  · intro e
    funext b
    obtain rfl : b = 0 := Subsingleton.elim _ _
    exact Fin.ext (hv.trans (congrArg Fin.val e))

/-- The same for a 3-column array. -/
theorem drop3_iff (h : S16384x3.ReducesTo [1] S16384) (i : S16384x3.Idx) (r : Fin 16384) :
    h.drop i = ix1 r ↔ i 0 = r := by
  have hv : (h.drop i 0 : ℕ) = i 0 := Shape.ReducesTo.drop_apply_val_of_eq h i 0 0
  constructor
  · intro e
    have := congrArg (fun f => ((f 0 : Fin 16384) : ℕ)) e
    exact Fin.ext (hv.symm.trans this)
  · intro e
    funext b
    obtain rfl : b = 0 := Subsingleton.elim _ _
    exact Fin.ext (hv.trans (congrArg Fin.val e))

/-- The `or` along a row, from 0: 1 exactly when some column of the row is 1. -/
theorem reduce_or_row (h : S16384x199.ReducesTo [1] S16384) (hu : 0 < S_.numel) (x : IVec S16384x199 1) (init : IVec S_ 1)
    (hinit : init (Shape.Idx.first hu) = 0#1) (r : Fin 16384) :
    Host.reduce IntOp.ori x init h hu (ix1 r) = 1#1 ↔ ∃ j : Fin 199, x (ix2 r j) = 1#1 := by
  rw [Host.reduce_eq_fold, fold_ori_eq_one, hinit]
  constructor
  · rintro (h0 | ⟨i, hi, hx⟩)
    · exact absurd h0 (by decide)
    · have hr : i 0 = r := (drop199_iff h i r).1 (Finset.mem_filter.mp hi).2
      subst hr
      exact ⟨i 1, (congrArg x (eq_ix2 i).symm).trans hx⟩
  · rintro ⟨j, hx⟩
    exact Or.inr ⟨ix2 r j, Finset.mem_filter.mpr ⟨Finset.mem_univ _, (drop199_iff h _ r).2 rfl⟩, hx⟩

/-- The sum along a row of three words, from 0. -/
theorem reduce_add_row3 (h : S16384x3.ReducesTo [1] S16384) (hu : 0 < S_.numel) (x : IVec S16384x3 32) (init : IVec S_ 32)
    (hinit : init (Shape.Idx.first hu) = 0#32) (r : Fin 16384) :
    Host.reduce IntOp.addi x init h hu (ix1 r) = x (ix2 r 0) + x (ix2 r 1) + x (ix2 r 2) := by
  rw [Host.reduce_eq_fold, hinit]
  have hset : (Finset.univ.filter fun i : S16384x3.Idx => h.drop i = ix1 r)
      = insert (ix2 r 0) (insert (ix2 r 1) {ix2 r 2}) := by
    ext i
    simp only [Finset.mem_filter, Finset.mem_univ, true_and, Finset.mem_insert, Finset.mem_singleton, drop3_iff]
    constructor
    · intro hr
      have h1 : ((i 1 : Fin 3) : ℕ) < 3 := (i 1).isLt
      have hi := eq_ix2 i
      rw [hr] at hi
      have hc : ((i 1 : Fin 3) : ℕ) = 0 ∨ ((i 1 : Fin 3) : ℕ) = 1 ∨ ((i 1 : Fin 3) : ℕ) = 2 := by omega
      rcases hc with hc | hc | hc
      · left; rw [hi]; congr 1; exact Fin.ext hc
      · right; left; rw [hi]; congr 1; exact Fin.ext hc
      · right; right; rw [hi]; congr 1; exact Fin.ext hc
    · rintro (rfl | rfl | rfl) <;> rfl
  have hne : ∀ a b : Fin 3, a ≠ b → (ix2 r a : S16384x3.Idx) ≠ ix2 r b := fun a b hab e => hab (congrFun e 1)
  rw [hset, Finset.fold_insert (by
      simp only [Finset.mem_insert, Finset.mem_singleton, not_or]
      exact ⟨hne 0 1 (by decide), hne 0 2 (by decide)⟩),
    Finset.fold_insert (by simp only [Finset.mem_singleton]; exact hne 1 2 (by decide)), Finset.fold_singleton]
  show x (ix2 r 0) + (x (ix2 r 1) + (x (ix2 r 2) + 0#32)) = _
  rw [BitVec.add_zero, BitVec.add_assoc]

end Reduce

end Cert.Proof.RefValue

end
-- ==== Proof.RefValueLoop.lean ====
/-
  The scan over positions. The loop carries, for all rows at once, the bracket depth so far: before trip `k` the
  carried buffer holds at row `r` the 32-bit word of the depth after the row's first `k` tokens (a number at most
  `k ≤ 200`, so no word arithmetic wraps). One trip reads the two precomputed flag arrays (token is an opening
  bracket, token is a closing bracket; transposed, positions by rows) at the counter's position by a dynamic slice that
  is inside the array, and sets the depth to `where(open, d + 1, where(close, max(d - 1, 0), d))`: the specification's
  successor case, word by word.
-/
import proofs.«215955_g3427383902409_cont_8to1_b_1893_7_alg».proof.Proof.RefValueOps

noncomputable section

namespace Cert.Proof.RefValue

open Cert.ReferenceIdeal Cert.ReferenceIdeal.Gen Cert.ReferenceIdeal.Value
open Idealize.ShloMosaic Idealize.ShloMosaic.TcCoe Idealize.ShloMosaic.StableHlo Idealize.SL.Sem
open Idealize.ShloMosaic.Tactic Idealize.ShloMosaic.ValueIdx
open Cert.Proof.Ref (Keeps)

/-! ## Words -/

/-- The depth after `k` tokens is at most `k`. -/
theorem depth_le (T : ℕ → BitVec 32) : ∀ k, Cert.Spec.depth T k ≤ k
  | 0 => Nat.le_refl 0
  | k + 1 => by
    have := depth_le T k
    simp only [Cert.Spec.depth]
    split_ifs <;> omega

/-- A word below 200 plus one. -/
theorem add_one_word : ∀ n : Fin 200, IntOp.addi (BitVec.ofNat 32 n.val) 1#32 = BitVec.ofNat 32 (n.val + 1) := by
  decide +kernel

/-- A word below 200 minus one, not below zero. -/
theorem sub_one_word : ∀ n : Fin 200,
    IntOp.maxsi (IntOp.subi (BitVec.ofNat 32 n.val) 1#32) 0#32 = BitVec.ofNat 32 (n.val - 1) := by
  decide +kernel

/-- A token of a row, inside the row. -/
theorem tokAt_lt (tok : Cert.Spec.STok.Idx → BitVec 32) (r : Fin 16384) (k : ℕ) (hk : k < 200) :
    Cert.Spec.tokAt tok r k = tok (ix2 r ⟨k, hk⟩) := dif_pos hk

/-- One trip's update of a depth word is the specification's successor case. -/
theorem depth_succ_word (T : ℕ → BitVec 32) (k : ℕ) (hd : Cert.Spec.depth T k < 200) :
    Scalar.select (IntOp.ori (IntOp.cmpi .eq (T k) 6#32) (IntOp.cmpi .eq (T k) 8#32))
        (IntOp.addi (BitVec.ofNat 32 (Cert.Spec.depth T k)) 1#32)
        (Scalar.select (IntOp.ori (IntOp.cmpi .eq (T k) 7#32) (IntOp.cmpi .eq (T k) 9#32))
          (IntOp.maxsi (IntOp.subi (BitVec.ofNat 32 (Cert.Spec.depth T k)) 1#32) 0#32)
          (BitVec.ofNat 32 (Cert.Spec.depth T k)))
      = BitVec.ofNat 32 (Cert.Spec.depth T (k + 1)) := by
  have ho : IntOp.ori (IntOp.cmpi .eq (T k) 6#32) (IntOp.cmpi .eq (T k) 8#32) = 1#1 ↔ Cert.Spec.isOpen (T k) := by
    rw [IntOp.ori_eq_one, IntOp.cmpi_eq, IntOp.cmpi_eq]; rfl
  have hc : IntOp.ori (IntOp.cmpi .eq (T k) 7#32) (IntOp.cmpi .eq (T k) 9#32) = 1#1 ↔ Cert.Spec.isClose (T k) := by
    rw [IntOp.ori_eq_one, IntOp.cmpi_eq, IntOp.cmpi_eq]; rfl
  by_cases hO : Cert.Spec.isOpen (T k)
  · rw [ho.2 hO, select_one]
    simp only [Cert.Spec.depth, if_pos hO]
    exact add_one_word ⟨_, hd⟩
  · rw [eq_zero_of_ne_one (mt ho.1 hO), select_zero]
    by_cases hC : Cert.Spec.isClose (T k)
    · rw [hc.2 hC, select_one]
      simp only [Cert.Spec.depth, if_neg hO, if_pos hC]
      exact sub_one_word ⟨_, hd⟩
    · rw [eq_zero_of_ne_one (mt hc.1 hC), select_zero]
      simp only [Cert.Spec.depth, if_neg hO, if_neg hC]

/-- The loop counter's word at trip `k`. -/
theorem iv_word (k : ℕ) : Scf.iv 0#32 1#32 k = BitVec.ofNat 32 k := by
  simp [Scf.iv]

/-! ## Buffers the loop does not write -/

/-- A buffer that neither the condition nor the body writes. -/
structure KeptL (b : Ref sig .tc) : Prop where
  cond : Keeps (condOps (F := Ideal)) b
  b0 : Keeps (while0Ops0 (F := Ideal)) b
  b1 : Keeps (while0Ops0_1 (F := Ideal)) b
  b2 : Keeps (while0Ops0_2 (F := Ideal)) b
  b3 : Keeps (while0Ops0_3 (F := Ideal)) b

variable (m : (ℓ : Loc nD τ sig) → Buf (Elt Ideal) ℓ)

/-- Such a buffer holds before every trip what it held at the loop's entry. -/
theorem atK_keptL {b : Ref sig .tc} (h : KeptL b) (c : Dev nD) :
    ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [h.b3.after, h.b2.after, h.b1.after, h.b0.after, h.cond.after, atK_keptL h c k]
    rfl

set_option maxRecDepth 100000 in
set_option maxHeartbeats 4000000 in
theorem keptL_open : KeptL main_v13_0 := by
  refine ⟨?_, ?_, ?_, ?_, ?_⟩ <;>
    (intro op hop; fin_cases hop <;> exact fun h => devRef_ne_of_ne (by decide) (Finset.mem_singleton.mp h))
set_option maxRecDepth 100000 in
set_option maxHeartbeats 4000000 in
theorem keptL_close : KeptL main_v13_1 := by
  refine ⟨?_, ?_, ?_, ?_, ?_⟩ <;>
    (intro op hop; fin_cases hop <;> exact fun h => devRef_ne_of_ne (by decide) (Finset.mem_singleton.mp h))
set_option maxRecDepth 100000 in
set_option maxHeartbeats 4000000 in
theorem keptL_c : KeptL main_c := by
  refine ⟨?_, ?_, ?_, ?_, ?_⟩ <;>
    (intro op hop; fin_cases hop <;> exact fun h => devRef_ne_of_ne (by decide) (Finset.mem_singleton.mp h))
set_option maxRecDepth 100000 in
set_option maxHeartbeats 4000000 in
theorem keptL_c_0 : KeptL main_c_0 := by
  refine ⟨?_, ?_, ?_, ?_, ?_⟩ <;>
    (intro op hop; fin_cases hop <;> exact fun h => devRef_ne_of_ne (by decide) (Finset.mem_singleton.mp h))
set_option maxRecDepth 100000 in
set_option maxHeartbeats 4000000 in
theorem keptL_c_1 : KeptL main_c_1 := by
  refine ⟨?_, ?_, ?_, ?_, ?_⟩ <;>
    (intro op hop; fin_cases hop <;> exact fun h => devRef_ne_of_ne (by decide) (Finset.mem_singleton.mp h))

set_option maxRecDepth 100000 in
set_option maxHeartbeats 4000000 in
/-- The depth buffer is written by the body's last stretch only. -/
theorem depth_keeps : Keeps (condOps (F := Ideal)) main_v13_3 ∧ Keeps (while0Ops0 (F := Ideal)) main_v13_3
    ∧ Keeps (while0Ops0_1 (F := Ideal)) main_v13_3 := by
  refine ⟨?_, ?_, ?_⟩ <;>
    (intro op hop; fin_cases hop <;> exact fun h => devRef_ne_of_ne (by decide) (Finset.mem_singleton.mp h))

set_option maxRecDepth 100000 in
set_option maxHeartbeats 4000000 in
/-- The open flags' row, once sliced, is kept by the second slice's stretch. -/
theorem v91_keeps : Keeps (while0Ops0_1 (F := Ideal)) main_while0b_v91 := by
  intro op hop; fin_cases hop <;> exact fun h => devRef_ne_of_ne (by decide) (Finset.mem_singleton.mp h)

/-! ## One trip, stretch by stretch -/

set_option maxRecDepth 100000 in
set_option maxHeartbeats 4000000 in
/-- The last stretch copies the new depths into the carried buffer. -/
theorem step3 (Y : Valuation τ sig (Elt Ideal)) :
    after while0Ops0_3 Y (Proc.devRef .tc main_v13_3) = Y (Proc.devRef .tc main_while0b_v93) := by
  after_results
  rfl

set_option maxRecDepth 100000 in
set_option maxHeartbeats 4000000 in
/-- The third stretch computes the new depth of a row from the old one and the two flags. -/
theorem step2_at (Y : Valuation τ sig (Elt Ideal)) (r : Fin 16384) :
    after while0Ops0_2 Y (Proc.devRef .tc main_while0b_v93) (ix1 r)
      = Scalar.select (Y (Proc.devRef .tc main_while0b_v91) (ix1 r)) (IntOp.addi (Y (Proc.devRef .tc main_v13_3) (ix1 r)) 1#32)
          (Scalar.select (Y (Proc.devRef .tc main_while0b_v92) (ix1 r))
            (IntOp.maxsi (IntOp.subi (Y (Proc.devRef .tc main_v13_3) (ix1 r)) 1#32) 0#32)
            (Y (Proc.devRef .tc main_v13_3) (ix1 r))) := by
  after_results
  rfl

set_option maxRecDepth 100000 in
set_option maxHeartbeats 4000000 in
/-- The second stretch slices the close flags at the counter's position. -/
theorem step1_at (Y : Valuation τ sig (Elt Ideal)) (k : ℕ) (hk : k < 200)
    (hY : Y (Proc.devRef .tc main_v13_2) = fun _ => BitVec.ofNat 32 k) (r : Fin 16384) :
    after while0Ops0_1 Y (Proc.devRef .tc main_while0b_v92) (ix1 r) = Y (Proc.devRef .tc main_v13_1) (ix2 ⟨k, hk⟩ r) := by
  after_results
  show shapeCast S16384 (Host.dynamicSlice S1x16384 (Y (Proc.devRef .tc main_v13_1)) _ sliceFits_S200x16384_S1x16384)
      shapeCasts_S1x16384_S16384 (ix1 r) = _
  rw [reshape_row_at]
  refine dynslice_at _ _ _ k hk ?_ ?_ 0 r
  · show BitVec.toInt ((StableHlo.TRef.nullary (.of main_while0b_call1_c : StableHlo.TRef sig ⟨S_, .i32⟩)
        (constantI S_ 32 0#32) : HloOp τ sig (Elt Ideal)).result Y (Proc.devRef .tc main_v13_2) (Shape.Idx.first h_S_)) = (k : Int)
    rw [nullary_result_ne _ _ _ _ (by decide), hY]
    exact toInt_ofNat_of_lt (by omega)
  · show BitVec.toInt ((StableHlo.TRef.nullary (.of main_while0b_call1_c : StableHlo.TRef sig ⟨S_, .i32⟩)
        (constantI S_ 32 0#32) : HloOp τ sig (Elt Ideal)).result Y (Proc.devRef .tc main_while0b_call1_c) (Shape.Idx.first h_S_)) = 0
    rw [nullary_result]
    rfl

set_option maxRecDepth 100000 in
set_option maxHeartbeats 4000000 in
/-- The first stretch slices the open flags at the counter's position. -/
theorem step0_at (Y : Valuation τ sig (Elt Ideal)) (k : ℕ) (hk : k < 200)
    (hY : Y (Proc.devRef .tc main_v13_2) = fun _ => BitVec.ofNat 32 k) (r : Fin 16384) :
    after while0Ops0 Y (Proc.devRef .tc main_while0b_v91) (ix1 r) = Y (Proc.devRef .tc main_v13_0) (ix2 ⟨k, hk⟩ r) := by
  after_results
  show shapeCast S16384 (Host.dynamicSlice S1x16384 (Y (Proc.devRef .tc main_v13_0)) _ sliceFits_S200x16384_S1x16384)
      shapeCasts_S1x16384_S16384 (ix1 r) = _
  rw [reshape_row_at]
  refine dynslice_at _ _ _ k hk ?_ ?_ 0 r
  · show BitVec.toInt ((StableHlo.TRef.nullary (.of main_while0b_call0_c : StableHlo.TRef sig ⟨S_, .i32⟩)
        (constantI S_ 32 0#32) : HloOp τ sig (Elt Ideal)).result Y (Proc.devRef .tc main_v13_2) (Shape.Idx.first h_S_)) = (k : Int)
    rw [nullary_result_ne _ _ _ _ (by decide), hY]
    exact toInt_ofNat_of_lt (by omega)
  · show BitVec.toInt ((StableHlo.TRef.nullary (.of main_while0b_call0_c : StableHlo.TRef sig ⟨S_, .i32⟩)
        (constantI S_ 32 0#32) : HloOp τ sig (Elt Ideal)).result Y (Proc.devRef .tc main_while0b_call0_c) (Shape.Idx.first h_S_)) = 0
    rw [nullary_result]
    rfl

/-- One trip at row `r`, from any contents whose counter is `k < 200`. -/
theorem body_step_at (X : Valuation τ sig (Elt Ideal)) (k : ℕ) (hk : k < 200)
    (hX : X (Proc.devRef .tc main_v13_2) = fun _ => BitVec.ofNat 32 k) (r : Fin 16384) :
    afterL bodyI (after condOps X) (Proc.devRef .tc main_v13_3) (ix1 r)
      = Scalar.select (X (Proc.devRef .tc main_v13_0) (ix2 ⟨k, hk⟩ r)) (IntOp.addi (X (Proc.devRef .tc main_v13_3) (ix1 r)) 1#32)
          (Scalar.select (X (Proc.devRef .tc main_v13_1) (ix2 ⟨k, hk⟩ r))
            (IntOp.maxsi (IntOp.subi (X (Proc.devRef .tc main_v13_3) (ix1 r)) 1#32) 0#32)
            (X (Proc.devRef .tc main_v13_3) (ix1 r))) := by
  have hc0 : after condOps X (Proc.devRef .tc main_v13_2) = fun _ => BitVec.ofNat 32 k := by
    rw [after_of_forall_not_mem _ _ ctr_cond, hX]
  have hc1 : after while0Ops0 (after condOps X) (Proc.devRef .tc main_v13_2) = fun _ => BitVec.ofNat 32 k := by
    rw [after_of_forall_not_mem _ _ ctr_while0Ops0, hc0]
  simp only [afterL_cons, afterL_nil]
  rw [step3, step2_at, step1_at _ k hk hc1 r, v91_keeps.after, step0_at _ k hk hc0 r,
    depth_keeps.2.2.after, depth_keeps.2.1.after, depth_keeps.1.after,
    keptL_close.b0.after, keptL_close.cond.after, keptL_open.cond.after]

/-! ## The loop's entry -/

set_option maxRecDepth 100000 in
set_option maxHeartbeats 4000000 in
/-- At the entry the depths are zero. -/
theorem entry_depth (c : Dev nD) : entryContents preI m c (Proc.devRef .tc main_v13_3) = fun _ => (0#32 : BitVec 32) := by
  simp only [entryContents, afterL_cons, afterL_nil]
  after_results
  rfl

set_option maxRecDepth 100000 in
set_option maxHeartbeats 4000000 in
/-- The carried open flags: position `k` of row `r` is token 6 or token 8. -/
theorem entry_open_at (c : Dev nD) (k : Fin 200) (r : Fin 16384) :
    entryContents preI m c (Proc.devRef .tc main_v13_0) (ix2 k r)
      = IntOp.ori (IntOp.cmpi .eq (m ((c.tc : Thread nD τ).loc main_arg1) (ix2 r k)) 6#32)
          (IntOp.cmpi .eq (m ((c.tc : Thread nD τ).loc main_arg1) (ix2 r k)) 8#32) := by
  simp only [entryContents, afterL_cons, afterL_nil]
  after_results
  show transpose S200x16384 [1, 0] _ transposes_S16384x200_S200x16384_1_0 (ix2 k r) = _
  rw [transpose_at]
  rfl

set_option maxRecDepth 100000 in
set_option maxHeartbeats 4000000 in
/-- The carried close flags: position `k` of row `r` is token 7 or token 9. -/
theorem entry_close_at (c : Dev nD) (k : Fin 200) (r : Fin 16384) :
    entryContents preI m c (Proc.devRef .tc main_v13_1) (ix2 k r)
      = IntOp.ori (IntOp.cmpi .eq (m ((c.tc : Thread nD τ).loc main_arg1) (ix2 r k)) 7#32)
          (IntOp.cmpi .eq (m ((c.tc : Thread nD τ).loc main_arg1) (ix2 r k)) 9#32) := by
  simp only [entryContents, afterL_cons, afterL_nil]
  after_results
  show transpose S200x16384 [1, 0] _ transposes_S16384x200_S200x16384_1_0 (ix2 k r) = _
  rw [transpose_at]
  rfl

/-! ## The invariant -/

/-- Before trip `k ≤ 200` the carried buffer holds at row `r` the depth after the row's first `k` tokens. -/
theorem atK_depth (c : Dev nD) : ∀ k, k ≤ 200 → ∀ r : Fin 16384,
    atK m k c (Proc.devRef .tc main_v13_3) (ix1 r)
      = BitVec.ofNat 32 (Cert.Spec.depth (Cert.Spec.tokAt (m ((c.tc : Thread nD τ).loc main_arg1)) r) k)
  | 0, _, r => by
    rw [show atK m 0 c = entryContents preI m c from rfl, entry_depth]
    rfl
  | k + 1, hk, r => by
    have hk' : k < 200 := by omega
    have hctr : atK m k c (Proc.devRef .tc main_v13_2) = fun _ => BitVec.ofNat 32 k := by
      rw [atK_ctr m c k, iv_word]
    rw [show atK m (k + 1) c = afterL bodyI (after condOps (atK m k c)) from rfl,
      body_step_at (atK m k c) k hk' hctr r, atK_depth c k (by omega) r,
      atK_keptL m keptL_open c k, atK_keptL m keptL_close c k, entry_open_at, entry_close_at,
      ← tokAt_lt (m ((c.tc : Thread nD τ).loc main_arg1)) r k hk']
    exact depth_succ_word _ k (Nat.lt_of_le_of_lt (depth_le _ k) hk')

end Cert.Proof.RefValue

end
-- ==== Proof.RefValuePost.lean ====
/-
  After the loop. From the final depths and the tokens the reference computes, per row: the bracket rule's bit (the
  depth is positive), the row's last token, the ring rule's bit (the last token is a digit, read from a 32-entry table
  at the token, and some earlier occurrence of it is followed by token 14: an `or` along the row), the valence rule's
  bit (two more table reads at the last token and a sum of three flags); then the mask over the 32 columns, the select
  between the two constants and the sum with the logits. Each is read here at one row and one column.
-/
import proofs.«215955_g3427383902409_cont_8to1_b_1893_7_alg».proof.Proof.RefValueLoop

noncomputable section

namespace Cert.Proof.RefValue

open Cert.ReferenceIdeal Cert.ReferenceIdeal.Gen Cert.ReferenceIdeal.Value
open Idealize.ShloMosaic Idealize.ShloMosaic.TcCoe Idealize.ShloMosaic.StableHlo Idealize.SL.Sem
open Idealize.ShloMosaic.Tactic Idealize.ShloMosaic.ValueIdx
open Cert.Proof.Ref (Keeps)
open Classical

/-! ## Words -/

/-- A word below 32, read signed, is itself. -/
theorem toInt_of_lt32 (t : BitVec 32) (h : t.toNat < 32) : t.toInt = (t.toNat : Int) := by
  rw [BitVec.toInt_eq_toNat_cond]; split <;> omega

/-- An index below 32 is not negative: the wrap-around select keeps it. -/
theorem wrap_index (t : BitVec 32) (h : t.toNat < 32) :
    Scalar.select (IntOp.cmpi .slt t 0#32) (IntOp.addi t 32#32) t = t := by
  have h0 : IntOp.cmpi .slt t 0#32 = 0#1 := eq_zero_of_ne_one (fun e => by
    have h1 := IntOp.cmpi_slt.1 e
    rw [toInt_of_lt32 t h, show (0#32 : BitVec 32).toInt = 0 from rfl] at h1
    omega)
  rw [h0, select_zero]

/-- An index below 32 is inside a table of 32 entries: the clamp keeps it. -/
theorem clamp_index (t : BitVec 32) (h : t.toNat < 32) : min t.toInt.toNat 31 = t.toNat := by
  rw [toInt_of_lt32 t h]; omega

/-- A literal table read at an entry. -/
theorem table_at {α : Type} (lit : Fin 32 → α) (a : Fin 32) :
    (fun i : S32.Idx => lit (S32.rowMajor i)) (ix1 a) = lit a :=
  congrArg lit (Fin.ext (Shape.rowMajor_val_one _))

/-- The three tables: the digits are tokens 15 to 24; the valence tokens are 0, 1, 2; their bond limits 4, 2, 3. -/
theorem lit0_spec : ∀ i : Fin 32, lit0 i = 1#1 ↔ (15 ≤ i.val ∧ i.val ≤ 24) := by decide +kernel
theorem lit2_spec : ∀ i : Fin 32, lit2 i = 1#1 ↔ i.val ≤ 2 := by decide +kernel
theorem lit1_spec : ∀ i : Fin 32, (lit1 i).toInt
    = if i.val = 0 then 4 else if i.val = 1 then 2 else if i.val = 2 then 3 else 1000000 := by decide +kernel

/-- A column number equals a word exactly when it is the word's value. -/
theorem cmp_col (col : ℕ) (hc : col < 32) (t : BitVec 32) :
    IntOp.cmpi .eq (BitVec.ofNat 32 col) t = 1#1 ↔ col = t.toNat := by
  rw [IntOp.cmpi_eq]
  constructor
  · intro e; rw [← e, BitVec.toNat_ofNat]; omega
  · intro e; subst e
    exact BitVec.eq_of_toNat_eq (by have := t.isLt; rw [BitVec.toNat_ofNat]; omega)

/-- A flag widened to a word is the word of 0 or 1. -/
theorem flag_word (b : BitVec 1) (P : Prop) [Decidable P] (h : b = 1#1 ↔ P) :
    b.setWidth 32 = BitVec.ofNat 32 (if P then 1 else 0) := by
  rcases BitVec.eq_zero_or_eq_one b with rfl | rfl
  · rw [if_neg (fun hp => absurd (h.2 hp) (by decide))]; rfl
  · rw [if_pos (h.1 rfl)]; rfl

/-- A sum of three flags' words, read signed, is the sum of the flags. -/
theorem sum3_toInt : ∀ a b c : Fin 2, (BitVec.ofNat 32 a.val + BitVec.ofNat 32 b.val + BitVec.ofNat 32 c.val).toInt
    = ((a.val + b.val + c.val : ℕ) : Int) := by decide +kernel

/-- The valence rule's arithmetic: the table's limit at a token below 3, against at most three bonds. -/
theorem valence_iff (n bond : ℕ) :
    (n ≤ 2 ∧ (if n = 0 then (4 : Int) else if n = 1 then 2 else if n = 2 then 3 else 1000000) ≤ (bond : Int))
      ↔ ((n = 0 ∧ 4 ≤ bond) ∨ (n = 1 ∧ 2 ≤ bond) ∨ (n = 2 ∧ 3 ≤ bond)) := by
  split_ifs <;> omega

/-- A word is a small literal exactly when its value is. -/
theorem word_eq_lit (t : BitVec 32) (n : ℕ) (hn : n < 32) : t = BitVec.ofNat 32 n ↔ t.toNat = n :=
  ⟨fun h => by rw [h, BitVec.toNat_ofNat]; omega,
   fun h => BitVec.eq_of_toNat_eq (by rw [h, BitVec.toNat_ofNat]; omega)⟩

/-! ## The operations after the loop, in two parts: the rows' bits, then the mask -/

/-- The operations up to the valence rule's bit. -/
abbrev opsA : List (HloOp τ sig (Elt Ideal)) := (hostOps0_1 (F := Ideal)).take 58
/-- The operations from the column numbers on. -/
abbrev opsB : List (HloOp τ sig (Elt Ideal)) := (hostOps0_1 (F := Ideal)).drop 58

theorem after_ops_split (V : Valuation τ sig (Elt Ideal)) : after hostOps0_1 V = after opsB (after opsA V) := by
  rw [← after_append, List.take_append_drop]

/-! ## Reading through unnamed arrays: each lemma takes the arrays as they come and asks for their values at the row -/

/-- The gather of a table at a row whose start index is a word below 32: the table at that word. -/
theorem gather_row_at {α : Type} (x : S32.Idx → α) (idx : IVec S16384x1 32) (r : Fin 16384) (t : BitVec 32)
    (ht : t.toNat < 32) (hidx : idx (ix2 r 0) = t) :
    Host.gather gather_S32_S16384x1_S16384_n_0_n_n_0_1_1 x idx (ix1 r) = x (ix1 ⟨t.toNat, ht⟩) := by
  rw [gather_at]
  exact congrArg x (congrArg (fun a : Fin 32 => (ix1 a : S32.Idx)) (Fin.ext (by
    show min (idx (ix2 r 0)).toInt.toNat 31 = t.toNat
    rw [hidx]; exact clamp_index t ht)))

/-- The wrap-around select on an index array, as a one-column array, at a row whose index is a word below 32. -/
theorem wrap_sel_at (L Z C : IVec S16384 32) (r : Fin 16384) (t : BitVec 32) (ht : t.toNat < 32)
    (hL : L (ix1 r) = t) (hZ : Z (ix1 r) = 0#32) (hC : C (ix1 r) = 32#32)
    (hb : S16384.BroadcastsInDim S16384x1 ![0]) :
    broadcastInDim S16384x1 ![0] hb (select (cmpi .slt L Z) (addi L C) L) (ix2 r 0) = t := by
  rw [bcast_col_at]
  show Scalar.select (IntOp.cmpi .slt (L (ix1 r)) (Z (ix1 r))) (IntOp.addi (L (ix1 r)) (C (ix1 r))) (L (ix1 r)) = t
  rw [hL, hZ, hC, wrap_index t ht]

/-- Two equality tests and their `and`, at an index. -/
theorem and_eq_at {s : Shape} (a b c d : IVec s 32) (i : s.Idx) (u v w z : BitVec 32)
    (ha : a i = u) (hb : b i = v) (hc : c i = w) (hd : d i = z) :
    andi (cmpi .eq a b) (cmpi .eq c d) i = 1#1 ↔ (u = v ∧ w = z) := by
  show IntOp.andi (IntOp.cmpi .eq (a i) (b i)) (IntOp.cmpi .eq (c i) (d i)) = 1#1 ↔ _
  rw [IntOp.andi_eq_one, IntOp.cmpi_eq, IntOp.cmpi_eq, ha, hb, hc, hd]

/-- A bond flag widened to a word, at an index. -/
theorem bond_flag_at {s : Shape} (a b c d : IVec s 32) (h : 1 < 32) (i : s.Idx) (t : BitVec 32)
    (ha : a i = t) (hb : b i = 10#32) (hc : c i = t) (hd : d i = 11#32) :
    extui 32 (ori (cmpi .eq a b) (cmpi .eq c d)) h i = BitVec.ofNat 32 (if Cert.Spec.isBond t then 1 else 0) := by
  show (IntOp.ori (IntOp.cmpi .eq (a i) (b i)) (IntOp.cmpi .eq (c i) (d i))).setWidth 32 = _
  rw [ha, hb, hc, hd]
  exact flag_word _ _ (by rw [IntOp.ori_eq_one, IntOp.cmpi_eq, IntOp.cmpi_eq]; rfl)

theorem sum3_toInt' (a b c : ℕ) (ha : a < 2) (hb : b < 2) (hc : c < 2) :
    (BitVec.ofNat 32 a + BitVec.ofNat 32 b + BitVec.ofNat 32 c).toInt = ((a + b + c : ℕ) : Int) :=
  sum3_toInt ⟨a, ha⟩ ⟨b, hb⟩ ⟨c, hc⟩

theorem flag_lt (P : Prop) [Decidable P] : (if P then 1 else 0) < 2 := by split_ifs <;> omega

/-! ## The rows' bits -/

set_option maxRecDepth 100000 in
set_option maxHeartbeats 8000000 in
/-- The bracket rule's bit of a row. -/
theorem bracket_at (V : Valuation τ sig (Elt Ideal)) (r : Fin 16384) :
    after opsA V (Proc.devRef .tc main_v15) (ix1 r) = IntOp.cmpi .sgt (V (Proc.devRef .tc main_v13_3) (ix1 r)) 0#32 := by
  simp only [opsA, hostOps0_1, List.take_succ_cons, List.take_zero]
  after_results_simp
  rfl

set_option maxRecDepth 100000 in
set_option maxHeartbeats 8000000 in
/-- The last token of a row. -/
theorem last_at (V : Valuation τ sig (Elt Ideal)) (r : Fin 16384) :
    after opsA V (Proc.devRef .tc main_v17) (ix1 r) = V (Proc.devRef .tc main_arg1) (ix2 r ⟨199, by omega⟩) := by
  simp only [opsA, hostOps0_1, List.take_succ_cons, List.take_zero]
  after_results_simp
  show shapeCast S16384 (extractStridedSlice S16384x1 ![0, 199] (V (Proc.devRef .tc main_arg1)) slices_S16384x200_S16384x1_0_199)
      shapeCasts_S16384x1_S16384 (ix1 r) = _
  rw [reshape_col_at, slice_last_at]

set_option maxRecDepth 100000 in
set_option maxHeartbeats 8000000 in
/-- The ring rule's bit of a row. -/
theorem ring_at (V : Valuation τ sig (Elt Ideal)) (r : Fin 16384)
    (hc : V (Proc.devRef .tc main_c) = fun i => lit0 (S32.rowMajor i))
    (hl : (V (Proc.devRef .tc main_arg1) (ix2 r ⟨199, by omega⟩)).toNat < 32) :
    after opsA V (Proc.devRef .tc main_v34) (ix1 r) = 1#1 ↔
      (Cert.Spec.isDigit (V (Proc.devRef .tc main_arg1) (ix2 r ⟨199, by omega⟩))
        ∧ ∃ j : Fin 199, V (Proc.devRef .tc main_arg1) (ix2 r ⟨j.val, by omega⟩) = V (Proc.devRef .tc main_arg1) (ix2 r ⟨199, by omega⟩)
            ∧ V (Proc.devRef .tc main_arg1) (ix2 r ⟨j.val + 1, by omega⟩) = 14#32) := by
  simp only [opsA, hostOps0_1, List.take_succ_cons, List.take_zero]
  after_results_simp
  show IntOp.andi (Host.gather gather_S32_S16384x1_S16384_n_0_n_n_0_1_1 (V (Proc.devRef .tc main_c)) _ (ix1 r))
      (Host.reduce IntOp.ori _ (constantI S_ 1 0#1) reducesTo_S16384x199_S16384_d1 h_S_ (ix1 r)) = 1#1 ↔ _
  rw [IntOp.andi_eq_one, gather_row_at _ _ r _ hl ?hidx, reduce_or_row _ _ _ _ rfl r, hc, table_at, lit0_spec]
  case hidx =>
    exact wrap_sel_at _ _ _ r _ hl ((reshape_col_at _ _ r).trans (slice_last_at _ _ r _)) rfl rfl _
  refine and_congr Iff.rfl (exists_congr fun j => ?_)
  exact and_eq_at _ _ _ _ _ _ _ _ _ (slice_lo_at _ _ r j)
    ((bcast_row199_at _ _ r j).trans ((bcast_col_at _ _ r 0).trans ((reshape_col_at _ _ r).trans (slice_last_at _ _ r _))))
    (slice_hi_at _ _ r j) rfl

set_option maxRecDepth 100000 in
set_option maxHeartbeats 8000000 in
/-- The valence rule's bit of a row. -/
theorem val_at (V : Valuation τ sig (Elt Ideal)) (r : Fin 16384)
    (hc1 : V (Proc.devRef .tc main_c_1) = fun i => lit2 (S32.rowMajor i))
    (hc0 : V (Proc.devRef .tc main_c_0) = fun i => lit1 (S32.rowMajor i))
    (hl : (V (Proc.devRef .tc main_arg1) (ix2 r ⟨199, by omega⟩)).toNat < 32) :
    after opsA V (Proc.devRef .tc main_v59) (ix1 r) = 1#1 ↔
      (((V (Proc.devRef .tc main_arg1) (ix2 r ⟨199, by omega⟩)).toNat = 0 ∧ 4 ≤
          (if Cert.Spec.isBond (V (Proc.devRef .tc main_arg1) (ix2 r ⟨197, by omega⟩)) then 1 else 0)
          + (if Cert.Spec.isBond (V (Proc.devRef .tc main_arg1) (ix2 r ⟨198, by omega⟩)) then 1 else 0)
          + (if Cert.Spec.isBond (V (Proc.devRef .tc main_arg1) (ix2 r ⟨199, by omega⟩)) then 1 else 0))
       ∨ ((V (Proc.devRef .tc main_arg1) (ix2 r ⟨199, by omega⟩)).toNat = 1 ∧ 2 ≤
          (if Cert.Spec.isBond (V (Proc.devRef .tc main_arg1) (ix2 r ⟨197, by omega⟩)) then 1 else 0)
          + (if Cert.Spec.isBond (V (Proc.devRef .tc main_arg1) (ix2 r ⟨198, by omega⟩)) then 1 else 0)
          + (if Cert.Spec.isBond (V (Proc.devRef .tc main_arg1) (ix2 r ⟨199, by omega⟩)) then 1 else 0))
       ∨ ((V (Proc.devRef .tc main_arg1) (ix2 r ⟨199, by omega⟩)).toNat = 2 ∧ 3 ≤
          (if Cert.Spec.isBond (V (Proc.devRef .tc main_arg1) (ix2 r ⟨197, by omega⟩)) then 1 else 0)
          + (if Cert.Spec.isBond (V (Proc.devRef .tc main_arg1) (ix2 r ⟨198, by omega⟩)) then 1 else 0)
          + (if Cert.Spec.isBond (V (Proc.devRef .tc main_arg1) (ix2 r ⟨199, by omega⟩)) then 1 else 0))) := by
  simp only [opsA, hostOps0_1, List.take_succ_cons, List.take_zero]
  after_results_simp
  show IntOp.andi (Host.gather gather_S32_S16384x1_S16384_n_0_n_n_0_1_1 (V (Proc.devRef .tc main_c_1)) _ (ix1 r))
      (IntOp.cmpi .sge (Host.reduce IntOp.addi _ (constantI S_ 32 0#32) reducesTo_S16384x3_S16384_d1 h_S_ (ix1 r))
        (Host.gather gather_S32_S16384x1_S16384_n_0_n_n_0_1_1 (V (Proc.devRef .tc main_c_0)) _ (ix1 r))) = 1#1 ↔ _
  rw [IntOp.andi_eq_one, IntOp.cmpi_sge, gather_row_at _ _ r _ hl ?h1, gather_row_at _ _ r _ hl ?h2,
    reduce_add_row3 _ _ _ _ rfl r, hc1, hc0, table_at, table_at, lit2_spec, lit1_spec,
    bond_flag_at _ _ _ _ _ (ix2 r 0) _ (slice3_at _ _ r 0) ?b0 (slice3_at _ _ r 0) ?d0,
    bond_flag_at _ _ _ _ _ (ix2 r 1) _ (slice3_at _ _ r 1) ?b1 (slice3_at _ _ r 1) ?d1,
    bond_flag_at _ _ _ _ _ (ix2 r 2) _ (slice3_at _ _ r 2) ?b2 (slice3_at _ _ r 2) ?d2,
    sum3_toInt' _ _ _ (flag_lt _) (flag_lt _) (flag_lt _)]
  case h1 =>
    exact wrap_sel_at _ _ _ r _ hl ((reshape_col_at _ _ r).trans (slice_last_at _ _ r _)) rfl rfl _
  case h2 =>
    exact wrap_sel_at _ _ _ r _ hl ((reshape_col_at _ _ r).trans (slice_last_at _ _ r _)) rfl rfl _
  case b0 => rfl
  case d0 => rfl
  case b1 => rfl
  case d1 => rfl
  case b2 => rfl
  case d2 => rfl
  exact valence_iff _ _

/-! ## The mask, the select and the sum -/

set_option maxRecDepth 100000 in
set_option maxHeartbeats 8000000 in
/-- The mask at a row and a column, from the row's three bits and its last token. -/
theorem mask_at (V : Valuation τ sig (Elt Ideal)) (r : Fin 16384) (col : Fin 32) :
    after opsB V (Proc.devRef .tc main_v87) (ix2 r col)
      = IntOp.ori (IntOp.ori (IntOp.andi (V (Proc.devRef .tc main_v15) (ix1 r)) (IntOp.cmpi .eq (BitVec.ofNat 32 col.val) 25#32))
            (IntOp.andi (V (Proc.devRef .tc main_v34) (ix1 r))
              (IntOp.cmpi .eq (BitVec.ofNat 32 col.val) (V (Proc.devRef .tc main_v17) (ix1 r)))))
          (IntOp.andi (V (Proc.devRef .tc main_v59) (ix1 r))
            (IntOp.ori (IntOp.cmpi .eq (BitVec.ofNat 32 col.val) 10#32) (IntOp.cmpi .eq (BitVec.ofNat 32 col.val) 11#32))) := by
  simp only [opsB, hostOps0_1, List.drop_succ_cons, List.drop_zero]
  after_results_simp
  simp only [ori, andi, cmpi]
  repeat rw [bcast_row32_at]
  repeat rw [bcast_col_at]
  repeat rw [bcast_col32_at]
  repeat rw [bcast_1x32_at]
  rfl

set_option maxRecDepth 100000 in
set_option maxHeartbeats 8000000 in
/-- The two float constants. -/
theorem cst_at (V : Valuation τ sig (Elt Ideal)) :
    after hostOps0_1 V (Proc.devRef .tc main_cst) = constant (F := Ideal) S_ .f32 0xCE6E6B28#32 := by
  after_results_simp
set_option maxRecDepth 100000 in
set_option maxHeartbeats 8000000 in
theorem cst23_at (V : Valuation τ sig (Elt Ideal)) :
    after hostOps0_1 V (Proc.devRef .tc main_cst_23) = constant (F := Ideal) S_ .f32 0x00000000#32 := by
  after_results_simp

set_option maxRecDepth 100000 in
set_option maxHeartbeats 4000000 in
/-- The select between the two constants, at an index. -/
theorem post2_at (Y : Valuation τ sig (Elt Ideal)) (i : S16384x32.Idx) :
    after hostOps0_2 Y (Proc.devRef .tc main_v88) i
      = Scalar.select (Y (Proc.devRef .tc main_v87) i) (Y (Proc.devRef .tc main_cst) ix0) (Y (Proc.devRef .tc main_cst_23) ix0) := by
  after_results
  show Scalar.select (Y (Proc.devRef .tc main_v87) i)
      (broadcastInDim S16384x32 ![] bcast_S_S16384x32 (Y (Proc.devRef .tc main_cst)) i)
      (broadcastInDim S16384x32 ![] bcast_S_S16384x32 (Y (Proc.devRef .tc main_cst_23)) i) = _
  rw [bcast_scalar_at, bcast_scalar_at]

set_option maxRecDepth 100000 in
set_option maxHeartbeats 4000000 in
/-- The sum with the logits, at an index. -/
theorem post3_at (Y : Valuation τ sig (Elt Ideal)) (i : S16384x32.Idx) :
    after hostOps0_3 Y (Proc.devRef .tc main_v90) i
      = FloatOps.addf (F := Ideal) (φ := .f32) (Y (Proc.devRef .tc main_arg0) i) (Y (Proc.devRef .tc main_v88) i) := by
  after_results
  rfl

/-! ## The rules, word by word -/

/-- The ring rule over a row's tokens, as the reference reads them. -/
theorem ring_iff (tok : Cert.Spec.STok.Idx → BitVec 32) (r : Fin 16384) :
    (Cert.Spec.isDigit (tok (ix2 r ⟨199, by omega⟩))
        ∧ ∃ j : Fin 199, tok (ix2 r ⟨j.val, by omega⟩) = tok (ix2 r ⟨199, by omega⟩) ∧ tok (ix2 r ⟨j.val + 1, by omega⟩) = 14#32)
      ↔ Cert.Spec.ringHit (Cert.Spec.tokAt tok r) := by
  unfold Cert.Spec.ringHit
  rw [tokAt_lt tok r 199 (by omega)]
  refine and_congr Iff.rfl ⟨?_, ?_⟩
  · rintro ⟨j, h1, h2⟩
    refine ⟨j.val, j.isLt, ?_, ?_⟩
    · rw [tokAt_lt tok r j.val (by have := j.isLt; omega)]; exact h1
    · rw [tokAt_lt tok r (j.val + 1) (by have := j.isLt; omega)]; exact h2
  · rintro ⟨j, hj, h1, h2⟩
    refine ⟨⟨j, hj⟩, ?_, ?_⟩
    · rw [tokAt_lt tok r j (by omega)] at h1; exact h1
    · rw [tokAt_lt tok r (j + 1) (by omega)] at h2; exact h2

/-- The valence rule over a row's tokens, as the reference reads them. -/
theorem val_iff (tok : Cert.Spec.STok.Idx → BitVec 32) (r : Fin 16384) :
    (((tok (ix2 r ⟨199, by omega⟩)).toNat = 0 ∧ 4 ≤
          (if Cert.Spec.isBond (tok (ix2 r ⟨197, by omega⟩)) then 1 else 0)
          + (if Cert.Spec.isBond (tok (ix2 r ⟨198, by omega⟩)) then 1 else 0)
          + (if Cert.Spec.isBond (tok (ix2 r ⟨199, by omega⟩)) then 1 else 0))
       ∨ ((tok (ix2 r ⟨199, by omega⟩)).toNat = 1 ∧ 2 ≤
          (if Cert.Spec.isBond (tok (ix2 r ⟨197, by omega⟩)) then 1 else 0)
          + (if Cert.Spec.isBond (tok (ix2 r ⟨198, by omega⟩)) then 1 else 0)
          + (if Cert.Spec.isBond (tok (ix2 r ⟨199, by omega⟩)) then 1 else 0))
       ∨ ((tok (ix2 r ⟨199, by omega⟩)).toNat = 2 ∧ 3 ≤
          (if Cert.Spec.isBond (tok (ix2 r ⟨197, by omega⟩)) then 1 else 0)
          + (if Cert.Spec.isBond (tok (ix2 r ⟨198, by omega⟩)) then 1 else 0)
          + (if Cert.Spec.isBond (tok (ix2 r ⟨199, by omega⟩)) then 1 else 0)))
      ↔ Cert.Spec.valHit (Cert.Spec.tokAt tok r) := by
  unfold Cert.Spec.valHit Cert.Spec.bond
  rw [tokAt_lt tok r 199 (by omega), tokAt_lt tok r 198 (by omega), tokAt_lt tok r 197 (by omega),
    word_eq_lit _ 0 (by omega), word_eq_lit _ 1 (by omega), word_eq_lit _ 2 (by omega)]

/-- The mask bit is the specification's `hit`. -/
theorem hit_word (T : ℕ → BitVec 32) (col : ℕ) (hcol : col < 32) (B R Vb : BitVec 1)
    (hB : B = 1#1 ↔ Cert.Spec.bracketHit T) (hR : R = 1#1 ↔ Cert.Spec.ringHit T) (hV : Vb = 1#1 ↔ Cert.Spec.valHit T) :
    IntOp.ori (IntOp.ori (IntOp.andi B (IntOp.cmpi .eq (BitVec.ofNat 32 col) 25#32))
        (IntOp.andi R (IntOp.cmpi .eq (BitVec.ofNat 32 col) (T 199))))
      (IntOp.andi Vb (IntOp.ori (IntOp.cmpi .eq (BitVec.ofNat 32 col) 10#32) (IntOp.cmpi .eq (BitVec.ofNat 32 col) 11#32))) = 1#1
    ↔ Cert.Spec.hit T col := by
  rw [IntOp.ori_eq_one, IntOp.ori_eq_one, IntOp.andi_eq_one, IntOp.andi_eq_one, IntOp.andi_eq_one, IntOp.ori_eq_one,
    cmp_col col hcol, cmp_col col hcol, cmp_col col hcol, cmp_col col hcol, hB, hR, hV, or_assoc]
  exact Iff.rfl

end Cert.Proof.RefValue

end
-- ==== Proof.RefValue.lean ====
/-
  The reference's value. After 200 trips the carried depths are the rows' final bracket depths; the constant tables
  written before the loop and the two argument arrays come through the loop as they were; the operations after the
  loop turn them into the three rules' bits, the mask, and the masked sum, which is the specification's `G` entry by
  entry: a masked entry is the logit plus the constant, an unmasked one the logit plus zero.
-/
import proofs.«215955_g3427383902409_cont_8to1_b_1893_7_alg».proof.Proof.Spec
import proofs.«215955_g3427383902409_cont_8to1_b_1893_7_alg».proof.Proof.RefFrame
import proofs.«215955_g3427383902409_cont_8to1_b_1893_7_alg».proof.Proof.RefValuePost
import Idealize.ShloMosaic.PureOps.Ideal.Laws

noncomputable section

namespace Cert.Proof.RefValue

open Cert.ReferenceIdeal Cert.ReferenceIdeal.Gen Cert.ReferenceIdeal.Value
open Idealize.ShloMosaic Idealize.ShloMosaic.TcCoe Idealize.ShloMosaic.StableHlo Idealize.SL.Sem
open Idealize.ShloMosaic.Tactic Idealize.ShloMosaic.ValueIdx
open Cert.Proof.Ref (Keeps)

section Rows

variable (m : (ℓ : Loc nD τ sig) → Buf (Elt Ideal) ℓ) (c : Dev nD)

set_option maxRecDepth 100000 in
set_option maxHeartbeats 4000000 in
/-- The three constant tables at the loop's entry. -/
theorem entry_c : entryContents preI m c (Proc.devRef .tc main_c) = fun i => lit0 (S32.rowMajor i) := by
  simp only [entryContents, afterL_cons, afterL_nil]
  after_results
  rfl
set_option maxRecDepth 100000 in
set_option maxHeartbeats 4000000 in
theorem entry_c_0 : entryContents preI m c (Proc.devRef .tc main_c_0) = fun i => lit1 (S32.rowMajor i) := by
  simp only [entryContents, afterL_cons, afterL_nil]
  after_results
  rfl
set_option maxRecDepth 100000 in
set_option maxHeartbeats 4000000 in
theorem entry_c_1 : entryContents preI m c (Proc.devRef .tc main_c_1) = fun i => lit2 (S32.rowMajor i) := by
  simp only [entryContents, afterL_cons, afterL_nil]
  after_results
  rfl

/-- The buffers after the loop's last test. -/
abbrev Wv : Valuation τ sig (Elt Ideal) := after condOps (atK m 200 c)

theorem W_depth (r : Fin 16384) : Wv m c (Proc.devRef .tc main_v13_3) (ix1 r)
    = BitVec.ofNat 32 (Cert.Spec.depth (Cert.Spec.tokAt (m ((c.tc : Thread nD τ).loc main_arg1)) r) 200) := by
  show after condOps (atK m 200 c) (Proc.devRef .tc main_v13_3) (ix1 r) = _
  rw [depth_keeps.1.after, atK_depth m c 200 (Nat.le_refl _) r]

theorem W_tok : Wv m c (Proc.devRef .tc main_arg1) = m ((c.tc : Thread nD τ).loc main_arg1) :=
  ((Cert.Proof.Ref.kept_arg1 (F := Ideal)).cond.after _).trans (Cert.Proof.Ref.atK_kept m Cert.Proof.Ref.kept_arg1 c 200)

theorem W_x : Wv m c (Proc.devRef .tc main_arg0) = m ((c.tc : Thread nD τ).loc main_arg0) :=
  ((Cert.Proof.Ref.kept_arg0 (F := Ideal)).cond.after _).trans (Cert.Proof.Ref.atK_kept m Cert.Proof.Ref.kept_arg0 c 200)

theorem W_c : Wv m c (Proc.devRef .tc main_c) = fun i => lit0 (S32.rowMajor i) :=
  (keptL_c.cond.after _).trans ((atK_keptL m keptL_c c 200).trans (entry_c m c))
theorem W_c_0 : Wv m c (Proc.devRef .tc main_c_0) = fun i => lit1 (S32.rowMajor i) :=
  (keptL_c_0.cond.after _).trans ((atK_keptL m keptL_c_0 c 200).trans (entry_c_0 m c))
theorem W_c_1 : Wv m c (Proc.devRef .tc main_c_1) = fun i => lit2 (S32.rowMajor i) :=
  (keptL_c_1.cond.after _).trans ((atK_keptL m keptL_c_1 c 200).trans (entry_c_1 m c))

variable (hpre : ∀ i, (m ((c.tc : Thread nD τ).loc main_arg1) i).toNat < 32)

/-- The bracket rule's bit of a row is the specification's. -/
theorem row_bracket (r : Fin 16384) : after opsA (Wv m c) (Proc.devRef .tc main_v15) (ix1 r) = 1#1
    ↔ Cert.Spec.bracketHit (Cert.Spec.tokAt (m ((c.tc : Thread nD τ).loc main_arg1)) r) := by
  rw [bracket_at, W_depth, IntOp.cmpi_sgt,
    toInt_ofNat_of_lt (Nat.lt_of_le_of_lt (depth_le _ 200) (by omega)), show (0#32 : BitVec 32).toInt = 0 from rfl]
  unfold Cert.Spec.bracketHit
  omega

/-- The last token of a row. -/
theorem row_last (r : Fin 16384) : after opsA (Wv m c) (Proc.devRef .tc main_v17) (ix1 r)
    = Cert.Spec.tokAt (m ((c.tc : Thread nD τ).loc main_arg1)) r 199 := by
  rw [last_at, W_tok, tokAt_lt _ r 199 (by omega)]

include hpre in
/-- The ring rule's bit of a row is the specification's. -/
theorem row_ring (r : Fin 16384) : after opsA (Wv m c) (Proc.devRef .tc main_v34) (ix1 r) = 1#1
    ↔ Cert.Spec.ringHit (Cert.Spec.tokAt (m ((c.tc : Thread nD τ).loc main_arg1)) r) := by
  have hl : (Wv m c (Proc.devRef .tc main_arg1) (ix2 r ⟨199, by omega⟩)).toNat < 32 := by rw [W_tok]; exact hpre _
  rw [ring_at (Wv m c) r (W_c m c) hl, W_tok]
  exact ring_iff _ r

include hpre in
/-- The valence rule's bit of a row is the specification's. -/
theorem row_val (r : Fin 16384) : after opsA (Wv m c) (Proc.devRef .tc main_v59) (ix1 r) = 1#1
    ↔ Cert.Spec.valHit (Cert.Spec.tokAt (m ((c.tc : Thread nD τ).loc main_arg1)) r) := by
  have hl : (Wv m c (Proc.devRef .tc main_arg1) (ix2 r ⟨199, by omega⟩)).toNat < 32 := by rw [W_tok]; exact hpre _
  rw [val_at (Wv m c) r (W_c_1 m c) (W_c_0 m c) hl, W_tok]
  exact val_iff _ r

include hpre in
/-- The mask bit at a row and a column is the specification's `hit`. -/
theorem row_hit (r : Fin 16384) (col : Fin 32) : after hostOps0_1 (Wv m c) (Proc.devRef .tc main_v87) (ix2 r col) = 1#1
    ↔ Cert.Spec.hit (Cert.Spec.tokAt (m ((c.tc : Thread nD τ).loc main_arg1)) r) col.val := by
  rw [after_ops_split, mask_at, row_last]
  exact hit_word _ col.val col.isLt _ _ _ (row_bracket m c r) (row_ring m c hpre r) (row_val m c hpre r)

end Rows

/-- Adding the zero constant leaves a logit as it is. -/
theorem addf_zero_const (a : Ideal .f32) :
    FloatOps.addf (F := Ideal) a (constant (F := Ideal) S_ .f32 0x00000000#32 ix0) = a := by
  show a + Ideal.ofBits .f32 0x00000000#32 = a
  rw [Ideal.ofBits_zero_f32, add_zero]

open Classical in
/-- The specification at a row and a column. -/
theorem G_at (x : Cert.Spec.SLog.Idx → Ideal .f32) (tok : Cert.Spec.STok.Idx → BitVec 32) (r : Fin 16384) (col : Fin 32) :
    Cert.Spec.G (F := Ideal) x tok (ix2 r col)
      = if Cert.Spec.hit (Cert.Spec.tokAt tok r) col.val
          then FloatOps.idxAddf (x (ix2 r col)) (Scalar.ofBits .f32 0xCE6E6B28#32) else x (ix2 r col) := rfl

theorem final_value (m : (ℓ : Loc nD τ sig) → Buf (Elt Ideal) ℓ) (c : Dev nD)
    (hpre : ∀ i, (m ((c.tc : Thread nD τ).loc main_arg1) i).toNat < 32) :
    finalContents condOps preI bodyI postI 200 m c (Proc.devRef .tc main_v90)
      = Cert.Spec.G (F := Ideal) (m ((c.tc : Thread nD τ).loc main_arg0)) (m ((c.tc : Thread nD τ).loc main_arg1)) := by
  funext i
  obtain ⟨r, col, rfl⟩ : ∃ (r : Fin 16384) (col : Fin 32), i = ix2 r col := ⟨i 0, i 1, eq_ix2 i⟩
  show afterL postI (Wv m c) (Proc.devRef .tc main_v90) (ix2 r col) = _
  simp only [afterL_cons, afterL_nil]
  rw [post3_at, post2_at, (Cert.Proof.Ref.kept_arg0 (F := Ideal)).p2.after, (Cert.Proof.Ref.kept_arg0 (F := Ideal)).p1.after,
    W_x, cst_at, cst23_at, G_at]
  by_cases h : Cert.Spec.hit (Cert.Spec.tokAt (m ((c.tc : Thread nD τ).loc main_arg1)) r) col.val
  · rw [(row_hit m c hpre r col).2 h, select_one, if_pos h]
    rfl
  · rw [eq_zero_of_ne_one (mt (row_hit m c hpre r col).1 h), select_zero, if_neg h]
    exact addf_zero_const _

end Cert.Proof.RefValue

end
-- ==== Proof.KI.Setup.lean ====
/-
  The launch of the masking kernel as the SparseCore launch theorem sees it. The device's thirty-two vector
  subcores (two SparseCores of sixteen) each own 512 consecutive rows of the batch: subcore `s` of SparseCore `c`
  is worker `2 s + c` and owns rows `[512 (2 s + c), 512 (2 s + c) + 512)`, which it treats as four blocks of 128
  rows. A worker only READS the token array, the logits array and the 32-entry bracket-delta table, so each is
  handed to it whole as one of thirty-two read shares; it WRITES only its own four 128-row blocks of the result,
  which it is handed outright. What a worker hands back is the same, its four result blocks now holding some
  contents of which a stated property `Q` holds (for the value claim: that they are the masked logits at its rows).
-/
import proofs.«215955_g3427383902409_cont_8to1_b_1893_7_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«215955_g3427383902409_cont_8to1_b_1893_7_alg».proof.Proof.Gen.KernelIdeal
import proofs.«215955_g3427383902409_cont_8to1_b_1893_7_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The logits, the tokens, the step (never read), the bracket-delta table, the result: as locations of device `d`. -/
abbrev xLoc (d : Dev nD) : Loc nD τ sig := (SparseCore.T d).loc main_arg0
abbrev tLoc (d : Dev nD) : Loc nD τ sig := (SparseCore.T d).loc main_arg1
abbrev sLoc (d : Dev nD) : Loc nD τ sig := (SparseCore.T d).loc main_arg2
abbrev cLoc (d : Dev nD) : Loc nD τ sig := (SparseCore.T d).loc main_c
abbrev oLoc (d : Dev nD) : Loc nD τ sig := (SparseCore.T d).loc main_v0

/-- The table's contents: `+1` at the two opening brackets (tokens 6, 8), `-1` at the two closing ones (7, 9), else `0`. -/
def tblVal (d : Dev nD) : Buf (Elt F) (cLoc d) := fun i => lit0 (S32.rowMajor i)

variable [FloatOps F]

/-- The arrays as a vector subcore's memrefs address them. -/
abbrev tokV : Memref sig .scVector .hbm S16384x200 .i32 := Memref.whole main_arg1_scv
abbrev logV : Memref sig .scVector .hbm S16384x32 .f32 := Memref.whole main_arg0_scv
abbrev tblV : Memref sig .scVector .hbm S32 .i32 := Memref.whole main_c_scv
abbrev outV : Memref sig .scVector .hbm S16384x32 .f32 := Memref.whole main_v0_scv
/-- A worker's scratch: a block of tokens, a block of logits being masked, the table. -/
abbrev sTok : Memref sig .scVector .vmem S128x200 .i32 := Memref.whole cc0_scratch0
abbrev sOut : Memref sig .scVector .vmem S128x32 .f32 := Memref.whole cc0_scratch1
abbrev sTbl : Memref sig .scVector .vmem S32 .i32 := Memref.whole cc0_scratch2

/-! ## A worker's coordinates, its number, its four result blocks -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- A numbering of the thirty-two workers (which read share of the read-only arrays each is handed): `s + 16 c`. -/
def wid (L : grid0.Coords) : Fin 32 := ⟨(L 1).val + 16 * (L 0).val, by
  have h0 : (L 0).val < 2 := (L 0).isLt
  have h1 : (L 1).val < 16 := (L 1).isLt
  omega⟩

/-- The worker's four result blocks, as the body slices them out of the result array. -/
abbrev oS0 (L : grid0.Coords) : Memref sig .scVector .hbm S128x32 .f32 :=
  (outV).slice (Rect.unit (s := S16384x32) (k0_off3 L 0#32) S128x32.size (k0_off3_inb L 0)) (fun _ => rfl)
abbrev oS1 (L : grid0.Coords) : Memref sig .scVector .hbm S128x32 .f32 :=
  (outV).slice (Rect.unit (s := S16384x32) (k0_off5 L 128#32) S128x32.size (k0_off5_inb L 0)) (fun _ => rfl)
abbrev oS2 (L : grid0.Coords) : Memref sig .scVector .hbm S128x32 .f32 :=
  (outV).slice (Rect.unit (s := S16384x32) (k0_off7 L 256#32) S128x32.size (k0_off7_inb L 0)) (fun _ => rfl)
abbrev oS3 (L : grid0.Coords) : Memref sig .scVector .hbm S128x32 .f32 :=
  (outV).slice (Rect.unit (s := S16384x32) (k0_off9 L) S128x32.size (k0_off9_inb L)) (fun _ => rfl)

/-- What the call hands a worker of the three arrays it reads: one read share of each, whole. -/
def tileRd (d : Dev nD) (L : grid0.Coords) : sProp 𝕄 :=
  iprop((tLoc d ↦{Transfers.shareTok fullShare 32 (wid L)} m (tLoc d))
    ∗ (xLoc d ↦{Transfers.shareTok fullShare 32 (wid L)} m (xLoc d))
    ∗ (cLoc d ↦{Transfers.shareTok fullShare 32 (wid L)} tblVal d))

/-- The worker's four result blocks, each holding `f` at its rows. -/
def tileWr (d : Dev nD) (L : grid0.Coords) (f : Buf (Elt F) (oLoc d)) : sProp 𝕄 :=
  iprop((oLoc d ↦[(oS0 L).view.set]{fullShare} f) ∗ (oLoc d ↦[(oS1 L).view.set]{fullShare} f)
    ∗ (oLoc d ↦[(oS2 L).view.set]{fullShare} f) ∗ (oLoc d ↦[(oS3 L).view.set]{fullShare} f))

/-- What a worker is handed, and what it hands back: its result blocks, from the launch contents to some contents `f` of
    which `Q d L f` holds (what the worker's rows of the result are, stated by whoever proves the body). -/
def tileIn (d : Dev nD) (L : grid0.Coords) : sProp 𝕄 := iprop(tileRd m d L ∗ tileWr d L (m (oLoc d)))
def tileOut (Q : (d : Dev nD) → grid0.Coords → Buf (Elt F) (oLoc d) → Prop) (d : Dev nD) (L : grid0.Coords) : sProp 𝕄 :=
  iprop(tileRd m d L ∗ ∃ f, ⌜Q d L f⌝ ∗ tileWr d L f)

instance tileIn_storable (d : Dev nD) (L : grid0.Coords) : BI.Storable (upEmb : UEmb _ 𝕄) (tileIn m d L) := by
  unfold tileIn tileRd tileWr; infer_instance
instance tileOut_storable (Q : (d : Dev nD) → grid0.Coords → Buf (Elt F) (oLoc d) → Prop) (d : Dev nD) (L : grid0.Coords) : BI.Storable (upEmb : UEmb _ 𝕄) (tileOut m Q d L) := by
  unfold tileOut tileRd tileWr; infer_instance

theorem bound_zero : grid0.bound 0 = 2 := rfl
theorem bound_one : grid0.bound 1 = 16 := rfl

/-- The coordinates of task `i` of SparseCore `c` of the call. -/
abbrev Lof (c : Fin ((K (F := F)).nCore 0)) (i : Fin ((K (F := F)).nSub 0)) : grid0.Coords :=
  coordsV (Fin.cast (nCore_zero.trans bound_zero.symm) c) (Fin.cast (nSub_zero.trans bound_one.symm) i)

/-- The one call: a SparseCore is handed its sixteen workers' shares and blocks, each worker its own. -/
def P (Q : (d : Dev nD) → grid0.Coords → Buf (Elt F) (oLoc d) → Prop) : (K (F := F)).Pay (nD := nD) (Val := Elt F) (Name := ℕ) (U := UU) where
  st := fun q d c => match q with | 0 => bigSep Finset.univ fun i : Fin ((K (F := F)).nSub 0) => tileIn m d (Lof c i)
  dn := fun q d c => match q with | 0 => bigSep Finset.univ fun i : Fin ((K (F := F)).nSub 0) => tileOut m Q d (Lof c i)
  go := fun q d c i => match q with | 0 => tileIn m d (Lof c i)
  td := fun q d c i => match q with | 0 => tileOut m Q d (Lof c i)
  x := fun _ _ => iprop(emp)

instance P_storable (Q : (d : Dev nD) → grid0.Coords → Buf (Elt F) (oLoc d) → Prop) : (P (F := F) m Q).IsStorable where
  st q d c := match q with | 0 => (inferInstance : BI.Storable (upEmb : UEmb _ 𝕄) (bigSep Finset.univ fun i : Fin ((K (F := F)).nSub 0) => tileIn m d (Lof c i)))
  dn q d c := match q with | 0 => (inferInstance : BI.Storable (upEmb : UEmb _ 𝕄) (bigSep Finset.univ fun i : Fin ((K (F := F)).nSub 0) => tileOut m Q d (Lof c i)))
  go q d c i := match q with | 0 => (inferInstance : BI.Storable (upEmb : UEmb _ 𝕄) (tileIn m d (Lof c i)))
  td q d c i := match q with | 0 => (inferInstance : BI.Storable (upEmb : UEmb _ 𝕄) (tileOut m Q d (Lof c i)))

/-- The sequencer's split of what it is handed among its workers is the identity. -/
theorem vecSplit (Q : (d : Dev nD) → grid0.Coords → Buf (Elt F) (oLoc d) → Prop) : (K (F := F)).VecSplit' (P m Q) 0 := by
  intro d c
  show (bigSep Finset.univ fun i : Fin ((K (F := F)).nSub 0) => tileIn m d (Lof c i)) ⊢ |={Set.univ}=> iprop(
      (bigSep Finset.univ fun i : Fin ((K (F := F)).nSub 0) => tileIn m d (Lof c i))
      ∗ ((bigSep Finset.univ fun i : Fin ((K (F := F)).nSub 0) => tileOut m Q d (Lof c i))
          -∗ (bigSep Finset.univ fun i : Fin ((K (F := F)).nSub 0) => tileOut m Q d (Lof c i))))
  iintro H; imodintro
  isplitl [H]; · iexact H
  iintro H; iexact H

end Cert.Proof.KI

end
-- ==== Proof.KI.LaunchBlocks.lean ====
/-
  The arithmetic of the launch. The result array's 16384 rows are cut into 128 blocks of 128 rows; worker
  `(c, s)` — SparseCore `c`, vector subcore `s` — writes the four consecutive blocks that start at row
  `1024 s + 512 c`, i.e. rows `[512 (2 s + c), 512 (2 s + c) + 512)`. Distinct workers have distinct numbers
  `2 s + c < 32`, so their row ranges are disjoint, and every row `r < 16384` lies in the range of worker
  `s = r / 1024`, `c = (r / 512) mod 2`. The thirty-two read shares of an array are numbered `s + 16 c`,
  which is the value of the pair `(c, s)` under the standard bijection `Fin 2 × Fin 16 ≃ Fin 32`.
-/
import proofs.«215955_g3427383902409_cont_8to1_b_1893_7_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## A worker's rows -/

/-- The first row of worker `L`. -/
def row0 (L : grid0.Coords) : ℕ := 1024 * (L 1).val + 512 * (L 0).val

theorem L0_lt (L : grid0.Coords) : (L 0).val < 2 := (L 0).isLt
theorem L1_lt (L : grid0.Coords) : (L 1).val < 16 := (L 1).isLt

/-- Membership in a unit rectangle of 128 whole rows of the result, by the row. -/
theorem mem_rows {off : Fin S16384x32.rank → Nat} {inb} (r : ℕ) (h : off = ![r, 0]) (j : S16384x32.Idx) :
    j ∈ (Rect.unit (s := S16384x32) off S128x32.size inb).set ↔ r ≤ (j 0).val ∧ (j 0).val < r + 128 := by
  subst h
  rw [Rect.mem_set_unit]
  constructor
  · intro H; exact H 0
  · intro H a
    match a with
    | 0 => exact H
    | 1 => exact ⟨Nat.zero_le _, by have := (j 1).isLt; simpa using this⟩

theorem set_oS0 (L : grid0.Coords) : (oS0 L).view.set = (Rect.unit (s := S16384x32) (k0_off3 L 0#32) S128x32.size (k0_off3_inb L 0)).set :=
  View.set_slice_whole (main_v0_scv : Ref sig .scVector) _
theorem set_oS1 (L : grid0.Coords) : (oS1 L).view.set = (Rect.unit (s := S16384x32) (k0_off5 L 128#32) S128x32.size (k0_off5_inb L 0)).set :=
  View.set_slice_whole (main_v0_scv : Ref sig .scVector) _
theorem set_oS2 (L : grid0.Coords) : (oS2 L).view.set = (Rect.unit (s := S16384x32) (k0_off7 L 256#32) S128x32.size (k0_off7_inb L 0)).set :=
  View.set_slice_whole (main_v0_scv : Ref sig .scVector) _
theorem set_oS3 (L : grid0.Coords) : (oS3 L).view.set = (Rect.unit (s := S16384x32) (k0_off9 L) S128x32.size (k0_off9_inb L)).set :=
  View.set_slice_whole (main_v0_scv : Ref sig .scVector) _

theorem off0_eq (L : grid0.Coords) : k0_off3 L 0#32 = ![row0 L, 0] := by
  have h := k0_off3_eq L 0
  simpa [row0] using h
theorem off1_eq (L : grid0.Coords) : k0_off5 L 128#32 = ![row0 L + 128, 0] := by
  have h := k0_off5_eq L 0
  simpa [row0] using h
theorem off2_eq (L : grid0.Coords) : k0_off7 L 256#32 = ![row0 L + 256, 0] := by
  have h := k0_off7_eq L 0
  simpa [row0] using h
theorem off3_eq (L : grid0.Coords) : k0_off9 L = ![row0 L + 384, 0] := by
  rw [k0_off9_eq]; rfl

theorem mem_oS0 (L : grid0.Coords) (j : S16384x32.Idx) : j ∈ (oS0 L).view.set ↔ row0 L ≤ (j 0).val ∧ (j 0).val < row0 L + 128 := by
  rw [set_oS0]; exact mem_rows (row0 L) (off0_eq L) j
theorem mem_oS1 (L : grid0.Coords) (j : S16384x32.Idx) : j ∈ (oS1 L).view.set ↔ row0 L + 128 ≤ (j 0).val ∧ (j 0).val < row0 L + 128 + 128 := by
  rw [set_oS1]; exact mem_rows (row0 L + 128) (off1_eq L) j
theorem mem_oS2 (L : grid0.Coords) (j : S16384x32.Idx) : j ∈ (oS2 L).view.set ↔ row0 L + 256 ≤ (j 0).val ∧ (j 0).val < row0 L + 256 + 128 := by
  rw [set_oS2]; exact mem_rows (row0 L + 256) (off2_eq L) j
theorem mem_oS3 (L : grid0.Coords) (j : S16384x32.Idx) : j ∈ (oS3 L).view.set ↔ row0 L + 384 ≤ (j 0).val ∧ (j 0).val < row0 L + 384 + 128 := by
  rw [set_oS3]; exact mem_rows (row0 L + 384) (off3_eq L) j

/-- The rows of the result a worker writes: its four blocks. -/
def tset (L : grid0.Coords) : Finset S16384x32.Idx := (oS0 L).view.set ∪ (oS1 L).view.set ∪ (oS2 L).view.set ∪ (oS3 L).view.set

theorem mem_tset (L : grid0.Coords) (j : S16384x32.Idx) : j ∈ tset L ↔ row0 L ≤ (j 0).val ∧ (j 0).val < row0 L + 512 := by
  unfold tset
  rw [Finset.mem_union, Finset.mem_union, Finset.mem_union, mem_oS0, mem_oS1, mem_oS2, mem_oS3]
  omega

/-- The four blocks of one worker are pairwise disjoint. -/
theorem oS01_disjoint (L : grid0.Coords) : Disjoint (oS0 L).view.set (oS1 L).view.set :=
  Finset.disjoint_left.mpr fun j h0 h1 => by rw [mem_oS0] at h0; rw [mem_oS1] at h1; omega
theorem oS012_disjoint (L : grid0.Coords) : Disjoint ((oS0 L).view.set ∪ (oS1 L).view.set) (oS2 L).view.set :=
  Finset.disjoint_left.mpr fun j h0 h1 => by rw [Finset.mem_union, mem_oS0, mem_oS1] at h0; rw [mem_oS2] at h1; omega
theorem oS0123_disjoint (L : grid0.Coords) :
    Disjoint ((oS0 L).view.set ∪ (oS1 L).view.set ∪ (oS2 L).view.set) (oS3 L).view.set :=
  Finset.disjoint_left.mpr fun j h0 h1 => by rw [Finset.mem_union, Finset.mem_union, mem_oS0, mem_oS1, mem_oS2] at h0; rw [mem_oS3] at h1; omega

/-- Two workers that differ in a coordinate write disjoint rows. -/
theorem tset_disjoint (L L' : grid0.Coords) (h : (L 0).val ≠ (L' 0).val ∨ (L 1).val ≠ (L' 1).val) : Disjoint (tset L) (tset L') :=
  Finset.disjoint_left.mpr fun j h0 h1 => by
    rw [mem_tset] at h0 h1
    unfold row0 at h0 h1
    have := L0_lt L; have := L0_lt L'; have := L1_lt L; have := L1_lt L'
    omega

/-! ## The workers of the call, as pairs (SparseCore, task) -/

/-- The call's workers. -/
abbrev W : Type := Fin ((K (F := F)).nCore 0) × Fin ((K (F := F)).nSub 0)
/-- A worker's coordinates. -/
abbrev LW (p : W (F := F)) : grid0.Coords := Lof p.1 p.2

theorem LW0 (p : W (F := F)) : (LW p 0).val = p.1.val := rfl
theorem LW1 (p : W (F := F)) : (LW p 1).val = p.2.val := rfl

theorem tsetW_disjoint : ∀ p ∈ (Finset.univ : Finset (W (F := F))), ∀ p' ∈ (Finset.univ : Finset (W (F := F))), p ≠ p' → Disjoint (tset (LW p)) (tset (LW p')) :=
  fun p _ p' _ hne => tset_disjoint _ _ (by
    rw [LW0, LW0, LW1, LW1]
    by_contra hc
    have h0 : ¬ p.1.val ≠ p'.1.val ∧ ¬ p.2.val ≠ p'.2.val := not_or.mp hc
    exact hne (Prod.ext (Fin.ext (not_not.mp h0.1)) (Fin.ext (not_not.mp h0.2))))

/-- Every entry of the result lies in some worker's rows. -/
theorem tsetW_cover_mem (j : S16384x32.Idx) : ∃ p : W (F := F), j ∈ tset (LW p) := by
  have hj : (j 0).val < 16384 := (j 0).isLt
  refine ⟨(⟨((j 0).val / 512) % 2, Nat.mod_lt _ (by decide)⟩, ⟨(j 0).val / 1024, by show _ < 16; omega⟩), ?_⟩
  rw [mem_tset]; unfold row0; rw [LW0, LW1]
  show 1024 * ((j 0).val / 1024) + 512 * (((j 0).val / 512) % 2) ≤ (j 0).val ∧ (j 0).val < 1024 * ((j 0).val / 1024) + 512 * (((j 0).val / 512) % 2) + 512
  omega

theorem tsetW_cover : (Finset.univ : Finset (W (F := F))).biUnion (fun p => tset (LW p)) = Finset.univ :=
  Finset.eq_univ_of_forall fun j => by
    obtain ⟨p, hp⟩ := tsetW_cover_mem (F := F) j
    exact Finset.mem_biUnion.mpr ⟨p, Finset.mem_univ _, hp⟩

/-! ## Re-indexing: thirty-two numbered shares as one per worker -/

/-- The worker's number is its pair's value under the standard bijection. -/
theorem wid_LW (p : W (F := F)) : wid (LW p) = (finProdFinEquiv : Fin 2 × Fin 16 ≃ Fin (2 * 16)) p := Fin.ext rfl

/-- A family over the thirty-two numbers, as a family over the workers. -/
theorem bigSep_workers (Φ : Fin 32 → sProp 𝕄) :
    bigSep Finset.univ Φ = bigSep Finset.univ fun p : W (F := F) => Φ (wid (LW p)) := by
  rw [bigSep_univ_equiv (finProdFinEquiv : Fin 2 × Fin 16 ≃ Fin (2 * 16)) Φ]
  exact bigSep_congr fun p _ => congrArg Φ (wid_LW p).symm

/-- A family over the workers, SparseCore by SparseCore. -/
theorem bigSep_W (Φ : W (F := F) → sProp 𝕄) :
    bigSep Finset.univ Φ = bigSep Finset.univ fun c : Fin ((K (F := F)).nCore 0) => bigSep Finset.univ fun i : Fin ((K (F := F)).nSub 0) => Φ (c, i) :=
  bigSep_univ_prod Φ

end Cert.Proof.KI

end
-- ==== Proof.KI.Launch.lean ====
/-
  The launch of the masking kernel: from "each vector subcore's task is proved" to the run of the whole program.
  @main on the TensorCore writes the 32-entry bracket-delta table, then makes the one SparseCore call. Before the call
  it cuts what it holds for the thirty-two workers: of each array a worker only reads (tokens, logits, table) one of
  thirty-two read shares, the remainder kept aside; of the result, the worker's own 512 rows (its four blocks of 128),
  which are pairwise disjoint and together are the whole array. After the call the read shares come back unchanged and
  rejoin their remainders; each worker's rows come back at some contents of which the worker's stated property holds,
  and since the rows are disjoint and cover the array there is one contents of the whole result that agrees with each
  worker's on its rows. The final memory then reads: the three arguments as they were, and every entry of the result
  inside some worker's rows, at what that worker left there.
-/
import proofs.«215955_g3427383902409_cont_8to1_b_1893_7_alg».proof.Proof.KI.LaunchBlocks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

section Work

variable (m : (ℓ : Loc nD τ sig) → Buf (Elt F) ℓ) (ρ : Dev nD → PrngReg)
variable [FloatOps F]
variable (Q : (d : Dev nD) → grid0.Coords → Buf (Elt F) (oLoc d) → Prop)

/-! ## An array read by every worker: the remainder and one read share per worker -/

theorem shares_split (ℓ : Loc nD τ sig) (f : Buf (Elt F) ℓ) :
    (ℓ ↦{fullShare} f : sProp 𝕄)
      ⊢ iprop((ℓ ↦{Transfers.shareDrop fullShare 32} f) ∗ bigSep Finset.univ fun p : W (F := F) => ℓ ↦{Transfers.shareTok fullShare 32 (wid (LW p))} f) :=
  (Transfers.pointsTo_toks_split fullShare 32).trans
    (sep_mono_right (Entails.of_eq (bigSep_workers (F := F) (fun w : Fin 32 => (ℓ ↦{Transfers.shareTok fullShare 32 w} f : sProp 𝕄)))))

theorem shares_join (ℓ : Loc nD τ sig) (f : Buf (Elt F) ℓ) :
    iprop((ℓ ↦{Transfers.shareDrop fullShare 32} f) ∗ bigSep Finset.univ fun p : W (F := F) => ℓ ↦{Transfers.shareTok fullShare 32 (wid (LW p))} f)
      ⊢ (ℓ ↦{fullShare} f : sProp 𝕄) :=
  (sep_mono_right (Entails.of_eq (bigSep_workers (F := F) (fun w : Fin 32 => (ℓ ↦{Transfers.shareTok fullShare 32 w} f : sProp 𝕄))).symm)).trans
    (Transfers.pointsTo_toks_join fullShare 32)

/-! ## The result: each worker's four blocks are its rows; the workers' rows are the array -/

theorem sep4_assoc (A B C D : sProp 𝕄) : iprop(((A ∗ B) ∗ C) ∗ D) = iprop(A ∗ B ∗ C ∗ D) := by
  have e1 : iprop(((A ∗ B) ∗ C) ∗ D) ⊢ iprop(A ∗ B ∗ C ∗ D) := by
    iintro ⟨⟨⟨H0, H1⟩, H2⟩, H3⟩
    isplitl [H0]; · iexact H0
    isplitl [H1]; · iexact H1
    isplitl [H2] <;> iassumption
  have e2 : iprop(A ∗ B ∗ C ∗ D) ⊢ iprop(((A ∗ B) ∗ C) ∗ D) := by
    iintro ⟨H0, H1, H2, H3⟩
    isplitl [H0 H1 H2]
    · isplitl [H0 H1]
      · isplitl [H0] <;> iassumption
      · iexact H2
    · iexact H3
  exact BI.equiv_iff.mp ⟨e1, e2⟩

theorem tileWr_eq (d : Dev nD) (L : grid0.Coords) (f : Buf (Elt F) (oLoc d)) :
    (tileWr d L f : sProp 𝕄) = (oLoc d ↦[tset L]{fullShare} f) := by
  have h3 : (oLoc d ↦[(oS0 L).view.set ∪ (oS1 L).view.set ∪ (oS2 L).view.set ∪ (oS3 L).view.set]{fullShare} f : sProp 𝕄)
      ⊣⊢ iprop((oLoc d ↦[(oS0 L).view.set ∪ (oS1 L).view.set ∪ (oS2 L).view.set]{fullShare} f) ∗ oLoc d ↦[(oS3 L).view.set]{fullShare} f) :=
    pointsTo_union (oS0123_disjoint L)
  have h2 : (oLoc d ↦[(oS0 L).view.set ∪ (oS1 L).view.set ∪ (oS2 L).view.set]{fullShare} f : sProp 𝕄)
      ⊣⊢ iprop((oLoc d ↦[(oS0 L).view.set ∪ (oS1 L).view.set]{fullShare} f) ∗ oLoc d ↦[(oS2 L).view.set]{fullShare} f) :=
    pointsTo_union (oS012_disjoint L)
  have h1 : (oLoc d ↦[(oS0 L).view.set ∪ (oS1 L).view.set]{fullShare} f : sProp 𝕄)
      ⊣⊢ iprop((oLoc d ↦[(oS0 L).view.set]{fullShare} f) ∗ oLoc d ↦[(oS1 L).view.set]{fullShare} f) :=
    pointsTo_union (oS01_disjoint L)
  unfold tileWr tset
  rw [BI.equiv_iff.mp ⟨h3.1, h3.2⟩, BI.equiv_iff.mp ⟨h2.1, h2.2⟩, BI.equiv_iff.mp ⟨h1.1, h1.2⟩]
  exact (sep4_assoc _ _ _ _).symm

/-- The result whole is every worker's four blocks. -/
theorem out_blocks (d : Dev nD) (f : Buf (Elt F) (oLoc d)) :
    (oLoc d ↦{fullShare} f : sProp 𝕄) = bigSep Finset.univ fun p : W (F := F) => tileWr d (LW p) f := by
  rw [bigSep_congr fun (p : W (F := F)) _ => tileWr_eq (F := F) d (LW p) f,
    ← pointsTo_biUnion Finset.univ (ℓ := oLoc d) (fun p : W (F := F) => tset (LW p)) (tsetW_disjoint (F := F)), tsetW_cover]; try rfl

/-- What the workers hand back of the result — each its rows at some contents its property holds of — is the result
    whole at one contents that agrees with each worker's on its rows. -/
theorem out_join (d : Dev nD) :
    (bigSep Finset.univ fun p : W (F := F) => iprop(∃ f, ⌜Q d (LW p) f⌝ ∗ tileWr d (LW p) f))
      ⊢ (iprop(∃ g : Buf (Elt F) (oLoc d), ⌜∀ j, ∃ (L : grid0.Coords) (f : Buf (Elt F) (oLoc d)), Q d L f ∧ j ∈ tset L ∧ g j = f j⌝ ∗ oLoc d ↦{fullShare} g) : sProp 𝕄) := by
  refine (bigSep_exists_pi Finset.univ (fun (p : W (F := F)) (f : Buf (Elt F) (oLoc d)) => iprop(⌜Q d (LW p) f⌝ ∗ tileWr d (LW p) f))).trans ?_
  iintro ⟨%fs, H⟩
  ihave H' := (bigSep_pure_sep Finset.univ (fun p : W (F := F) => Q d (LW p) (fs p)) (fun p : W (F := F) => tileWr d (LW p) (fs p))) $$ H
  icases H' with ⟨%hQ, Hw⟩
  ihave Hw' := (Entails.of_eq (bigSep_congr fun (p : W (F := F)) _ => tileWr_eq (F := F) d (LW p) (fs p))) $$ Hw
  ihave Hg := (pointsTo_biUnion_join Finset.univ (fun p : W (F := F) => tset (LW p)) fs
      (fs (Fin.cast nCore_zero.symm 0, Fin.cast nSub_zero.symm 0)) (tsetW_disjoint (F := F))) $$ Hw'
  icases Hg with ⟨%g, %hg, Hg⟩
  rw [tsetW_cover]
  iexists g
  isplitr
  · ipureintro
    intro j
    obtain ⟨p, hp⟩ := tsetW_cover_mem (F := F) j
    exact ⟨LW p, fs p, hQ p (Finset.mem_univ p), hp, hg p (Finset.mem_univ p) j hp⟩
  · iexact Hg

/-! ## What the call takes and hands back, worker by worker -/

theorem st0_eq (d : Dev nD) :
    (bigSep Finset.univ fun c : Fin ((K (F := F)).nCore 0) => (P m Q).st 0 d c) = bigSep Finset.univ fun p : W (F := F) => tileIn m d (LW p) :=
  (bigSep_W (F := F) (fun p : W (F := F) => tileIn m d (LW p))).symm
theorem dn0_eq (d : Dev nD) :
    (bigSep Finset.univ fun c : Fin ((K (F := F)).nCore 0) => (P m Q).dn 0 d c) = bigSep Finset.univ fun p : W (F := F) => tileOut m Q d (LW p) :=
  (bigSep_W (F := F) (fun p : W (F := F) => tileOut m Q d (LW p))).symm

theorem tileIn_all (d : Dev nD) :
    (bigSep Finset.univ fun p : W (F := F) => tileIn m d (LW p))
      = iprop(((bigSep Finset.univ fun p : W (F := F) => tLoc d ↦{Transfers.shareTok fullShare 32 (wid (LW p))} m (tLoc d))
          ∗ (bigSep Finset.univ fun p : W (F := F) => xLoc d ↦{Transfers.shareTok fullShare 32 (wid (LW p))} m (xLoc d))
          ∗ (bigSep Finset.univ fun p : W (F := F) => cLoc d ↦{Transfers.shareTok fullShare 32 (wid (LW p))} tblVal d))
        ∗ bigSep Finset.univ fun p : W (F := F) => tileWr d (LW p) (m (oLoc d))) := by
  unfold tileIn tileRd
  rw [bigSep_sep', bigSep_sep', bigSep_sep']
theorem tileOut_all (d : Dev nD) :
    (bigSep Finset.univ fun p : W (F := F) => tileOut m Q d (LW p))
      = iprop(((bigSep Finset.univ fun p : W (F := F) => tLoc d ↦{Transfers.shareTok fullShare 32 (wid (LW p))} m (tLoc d))
          ∗ (bigSep Finset.univ fun p : W (F := F) => xLoc d ↦{Transfers.shareTok fullShare 32 (wid (LW p))} m (xLoc d))
          ∗ (bigSep Finset.univ fun p : W (F := F) => cLoc d ↦{Transfers.shareTok fullShare 32 (wid (LW p))} tblVal d))
        ∗ bigSep Finset.univ fun p : W (F := F) => iprop(∃ f, ⌜Q d (LW p) f⌝ ∗ tileWr d (LW p) f)) := by
  unfold tileOut tileRd
  rw [bigSep_sep', bigSep_sep', bigSep_sep']

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m Q).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev c' : DevRef τ sig := Proc.devRef .tc (main_c : Ref sig .tc)
/-- The table's constant. -/
abbrev opC : HloOp τ sig (Elt F) := StableHlo.nullary main_c (fun i => lit0 (S32.rowMajor i))
/-- The launch valuation. -/
abbrev V0 (d : Dev nD) : Valuation τ sig (Elt F) := fun b => m (d, b)

theorem unscopedBufs_eq (d : Dev nD) (Wv : (b : Ref sig .tc) → Buf (Elt F) ((d.tc : Thread nD τ).loc b)) :
    (unscopedBufs d Wv : sProp 𝕄) = iprop((xLoc d ↦{fullShare} Wv main_arg0) ∗ (tLoc d ↦{fullShare} Wv main_arg1) ∗ (sLoc d ↦{fullShare} Wv main_arg2)
      ∗ (cLoc d ↦{fullShare} Wv main_c) ∗ oLoc d ↦{fullShare} Wv main_v0) := by
  unfold unscopedBufs
  rw [show (Finset.univ.filter fun b : Ref sig .tc => ¬ b.isScoped) = {main_arg0, main_arg1, main_arg2, main_c, main_v0} by decide,
    SparseCore.bigSep_insert' (by decide), SparseCore.bigSep_insert' (by decide), SparseCore.bigSep_insert' (by decide),
    SparseCore.bigSep_insert' (by decide), bigSep_singleton]

theorem held_c (d : Dev nD) (Wv : Valuation τ sig (Elt F)) : (held (T d) {c'} Wv : sProp 𝕄) = (cLoc d ↦{fullShare} Wv c') := by
  unfold held; exact bigSep_singleton

/-- After the constant the table's buffer holds the table. -/
theorem held_c_after (d : Dev nD) : (held (T d) {c'} ((opC (F := F)).result (V0 m d)) : sProp 𝕄) = (cLoc d ↦{fullShare} tblVal d) := by
  rw [held_c]
  exact congrArg (fun f : Buf (Elt F) (cLoc d) => (cLoc d ↦{fullShare} f : sProp 𝕄)) (StableHlo.nullary_result main_c _ _ (V0 m d))

/-- What @main leaves the claim: the three arguments at their launch contents, the result at contents every entry of
    which is, inside some worker's rows, what that worker left. -/
def FIN (d : Dev nD) : sProp 𝕄 :=
  iprop((xLoc d ↦{fullShare} m (xLoc d)) ∗ (tLoc d ↦{fullShare} m (tLoc d)) ∗ (sLoc d ↦{fullShare} m (sLoc d))
    ∗ ∃ g : Buf (Elt F) (oLoc d), ⌜∀ j, ∃ (L : grid0.Coords) (f : Buf (Elt F) (oLoc d)), Q d L f ∧ j ∈ tset L ∧ g j = f j⌝ ∗ oLoc d ↦{fullShare} g)

/-- @main on device `d`'s TensorCore: the constant into the table, the shares and blocks cut, the call, the shares
    rejoined and the blocks gathered. -/
theorem hmain (κ : GSem nD τ sig → ℕ) (d : Dev nD) :
    iprop((K (F := F)).ctx EH (P m Q) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m Q d) := by
  unfold SparseCore.Cfg.tcRes
  rw [unscopedBufs_eq]
  simp only [main, wp_bind, wp_pure]
  iintro ⟨#Hctx, Hst, ⟨Hb, ⟨Hx, Ht, Hs, Hc, Ho⟩, -, -⟩, -⟩
  -- the constant into the table
  iapply (wp_hlo_within 𝒱 (SparseCore.T d) none Set.univ (op := opC) (S := {c'}) (Finset.Subset.refl _) (V := V0 m d)) $$ [Hb Hc]
  · isplitl [Hb]; · iexact Hb
    rw [held_c]; iexact Hc
  iintro ⟨Hb, Hheld⟩
  ihave Hc := (Entails.of_eq (held_c_after m d)) $$ Hheld
  rw [wp_ret]; imodintro
  -- the read shares and the result's blocks
  ihave Ht' := (shares_split (F := F) (tLoc d) _) $$ Ht
  icases Ht' with ⟨Htd, Hts⟩
  ihave Hx' := (shares_split (F := F) (xLoc d) _) $$ Hx
  icases Hx' with ⟨Hxd, Hxs⟩
  ihave Hc' := (shares_split (F := F) (cLoc d) _) $$ Hc
  icases Hc' with ⟨Hcd, Hcs⟩
  ihave Ho' := (Entails.of_eq (out_blocks (F := F) d _)) $$ Ho
  -- the call
  iapply ((K (F := F)).wp_run (D (F := F)) 𝒱 (EH := EH) (P := P m Q) κ d 0) $$ [Hst Hts Hxs Hcs Ho' Htd Hxd Hcd Hs]
  isplitr; · iexact Hctx
  isplitl [Hst]; · iexact Hst
  isplitl [Hts Hxs Hcs Ho']
  · rw [st0_eq, tileIn_all]
    isplitl [Hts Hxs Hcs]
    · isplitl [Hts]; · iexact Hts
      isplitl [Hxs]; · iexact Hxs
      iexact Hcs
    · iexact Ho'
  iintro ⟨Hst, Hdn⟩
  ihave Hdn' := (Entails.of_eq ((dn0_eq m Q d).trans (tileOut_all m Q d))) $$ Hdn
  icases Hdn' with ⟨⟨Hts, Hxs, Hcs⟩, Hout⟩
  ihave Ht := (shares_join (F := F) (tLoc d) _) $$ [Htd Hts]
  · isplitl [Htd] <;> iassumption
  ihave Hx := (shares_join (F := F) (xLoc d) _) $$ [Hxd Hxs]
  · isplitl [Hxd] <;> iassumption
  ihave Hg := (out_join Q d) $$ Hout
  imodintro
  isplitl [Hst]; · iexact Hst
  unfold FIN
  isplitl [Hx]; · iexact Hx
  isplitl [Ht]; · iexact Ht
  isplitl [Hs]; · iexact Hs
  iexact Hg

/-- What the final memory is read to say, device by device. -/
def fq (d : Dev nD) (s' : Phys nD τ sig (Elt F)) : Prop :=
  s'.mem.mem (xLoc d) = m (xLoc d) ∧ s'.mem.mem (tLoc d) = m (tLoc d) ∧ s'.mem.mem (sLoc d) = m (sLoc d)
    ∧ ∀ i, ∃ (L : grid0.Coords) (f : Buf (Elt F) (oLoc d)), Q d L f ∧ i ∈ tset L ∧ s'.mem.mem (oLoc d) i = f i

/-- The four arrays @main holds whole at the end are what the final memory holds there. -/
theorem hfin (d : Dev nD) (s' : Phys nD τ sig (Elt F)) : iprop(FIN m Q d ∗ SI s') ⊢ (⌜fq m Q d s'⌝ : sProp 𝕄) := by
  unfold FIN
  iintro ⟨⟨Hx, Ht, Hs, Hex⟩, HSI⟩
  icases Hex with ⟨%g, %hg, Ho⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h3, HSI, -⟩
  ihave H := (SI_pointsTo_agree (st := s') (ℓ := oLoc d) (I := Finset.univ) (q := fullShare) (f := g)) $$ [HSI Ho]
  · isplitl [HSI] <;> iassumption
  icases H with %h4
  ipureintro
  refine ⟨funext fun i => h1 i (Finset.mem_univ i), funext fun i => h2 i (Finset.mem_univ i), funext fun i => h3 i (Finset.mem_univ i), fun i => ?_⟩
  obtain ⟨L, f, hq, hi, e⟩ := hg i
  exact ⟨L, f, hq, hi, (h4 i (Finset.mem_univ i)).trans e⟩

end Work

/-! ## The program's run -/

/-- What the run leaves: the three arguments as they were, and every entry of the result inside some worker's block whose contents that worker's property holds of. -/
def QC (m : (ℓ : Loc nD τ sig) → Buf (Elt F) ℓ) (Q : (d : Dev nD) → grid0.Coords → Buf (Elt F) (oLoc d) → Prop) : PUnit × MemSt nD τ sig (Elt F) → Prop := fun r => ∀ c : Dev nD,
  r.2.mem (xLoc c) = m (xLoc c) ∧ r.2.mem (tLoc c) = m (tLoc c) ∧ r.2.mem (sLoc c) = m (sLoc c)
  ∧ ∀ i, ∃ (L : grid0.Coords) (f : Buf (Elt F) (oLoc c)), Q c L f ∧ i ∈ tset L ∧ r.2.mem (oLoc c) i = f i

theorem run_main [FloatOps F] [∀ e, Nonempty (Elt F e)] (m : (ℓ : Loc nD τ sig) → Buf (Elt F) ℓ) (ρ : Dev nD → PrngReg)
    (Q : (d : Dev nD) → grid0.Coords → Buf (Elt F) (oLoc d) → Prop)
    (htile : (K (F := F)).TileObl (D (F := F)) 𝒱 (P m Q) v₀ 0) :
    θ_run (Cert.KernelIdeal.defs (F := F)) (Cert.KernelIdeal.threads (F := F)) ⟨m, fun _ => 0, ρ⟩ (QC m Q) :=
  SparseCore.Cfg.θ_run_sc (K := K (F := F)) (D := D (F := F)) (𝒱 := 𝒱) (EH := EH) (P := P m Q) facts v₀
    (fun q hq => match q with | 0 => nomatch hq)
    (fun q _ => match q with | 0 => htile)
    (fun q _ => match q with | 0 => SparseCore.Cfg.VecSplit.of_plain (vecSplit m Q))
    m ρ main (fun _ => iprop(emp)) (FIN m Q) (u₀ (F := F)) (sep_elim_left.trans (hu₀ m Q)) (hmain m ρ Q) (fq m Q) (hfin m Q) (QC m Q) (fun _ h => h)

end Cert.Proof.KI

end
-- ==== Proof.KMath.lean ====
/-
  The masking kernel's arithmetic on one block of 128 rows, as pure functions of the block's tokens `ftok`
  (128 x 200 words), the bracket-delta table `ftbl` (32 words) and the block's logits: what one worker's vector
  unit computes, sixteen rows (lanes) at a time.

  A GROUP is sixteen consecutive rows `rowv = base + lane`. Its scan carries four lane vectors — the column counter,
  the bracket depth, the previous token, the ring flag — through 200 steps (25 trips of 8): a step gathers the
  lanes' tokens at the counter's column, gathers their table entries, adds the entry to the depth and clamps at 0,
  raises the ring flag where the previous token is the row's last token and this token is 14, and advances.
  After the scan three masks are formed from the depth, the flag, the last token and the two tokens before it,
  and the constant `-1e9` is added, under each mask, into the lanes' rows of the block's logits at column 25, at the
  last token's column, and at columns 10 and 11. A BLOCK is eight groups, one after the other.
-/
import Idealize.ShloMosaic.PureOps.Ideal
import Idealize.ShloMosaic.Lib.ValueIdx
import proofs.«215955_g3427383902409_cont_8to1_b_1893_7_alg».proof.Proof.Spec

noncomputable section

namespace Cert.KMath

open Idealize.ShloMosaic
open Classical

abbrev S16 : Shape := ⟨1, ![16]⟩
abbrev S32 : Shape := ⟨1, ![32]⟩
abbrev SB : Shape := ⟨2, ![128, 200]⟩
abbrev SO : Shape := ⟨2, ![128, 32]⟩

/-- The lanes' tokens at rows `r` and columns `c` of the block (the word 0 where a lane's pair names no entry). -/
def gatTok (f : SB.Idx → BitVec 32) (r c : IVec S16 32) : IVec S16 32 :=
  fun x => if h : (r x).toNat < 128 ∧ (c x).toNat < 200 then f (ValueIdx.ix2 ⟨(r x).toNat, h.1⟩ ⟨(c x).toNat, h.2⟩) else 0#32

/-- The lanes' table entries at the words `t` (0 where a word names no entry). -/
def gatTbl (g : S32.Idx → BitVec 32) (t : IVec S16 32) : IVec S16 32 :=
  fun x => if h : (t x).toNat < 32 then g (ValueIdx.ix1 ⟨(t x).toNat, h⟩) else 0#32

/-- The scan's carried lane vectors: column counter, bracket depth, previous token, ring flag. -/
abbrev St : Type := IVec S16 32 × IVec S16 32 × IVec S16 32 × IVec S16 32

/-- One step of the scan. -/
def step1 (f : SB.Idx → BitVec 32) (g : S32.Idx → BitVec 32) (rowv lastv : IVec S16 32) (s : St) : St :=
  (addi s.1 (broadcast S16 1#32),
   maxsi (addi s.2.1 (gatTbl g (gatTok f rowv s.1))) (broadcast S16 0#32),
   gatTok f rowv s.1,
   select (andi (cmpi .eq s.2.2.1 lastv) (cmpi .eq (gatTok f rowv s.1) (broadcast S16 14#32))) (broadcast S16 1#32) s.2.2.2)

/-- One trip: eight steps. -/
def trip (f : SB.Idx → BitVec 32) (g : S32.Idx → BitVec 32) (rowv lastv : IVec S16 32) (s : St) : St :=
  step1 f g rowv lastv (step1 f g rowv lastv (step1 f g rowv lastv (step1 f g rowv lastv
    (step1 f g rowv lastv (step1 f g rowv lastv (step1 f g rowv lastv (step1 f g rowv lastv s)))))))

/-- The scan's start: counter 0, depth 0, previous token -1 (no token), flag 0. -/
def init : St := (broadcast S16 0#32, broadcast S16 0#32, broadcast S16 4294967295#32, broadcast S16 0#32)

/-- The carried vectors before trip `k`. -/
def st (f : SB.Idx → BitVec 32) (g : S32.Idx → BitVec 32) (rowv lastv : IVec S16 32) : ℕ → St
  | 0 => init
  | k + 1 => trip f g rowv lastv (st f g rowv lastv k)

/-- The three masks. -/
def mBr (cfin : IVec S16 32) : IVec S16 1 := cmpi .sgt cfin (broadcast S16 0#32)
def mRing (rfin lastv : IVec S16 32) : IVec S16 1 :=
  andi (andi (cmpi .sgt rfin (broadcast S16 0#32)) (cmpi .sge lastv (broadcast S16 15#32))) (cmpi .sle lastv (broadcast S16 24#32))
def isBondV (t : IVec S16 32) : IVec S16 32 :=
  extui 32 (ori (cmpi .eq t (broadcast S16 10#32)) (cmpi .eq t (broadcast S16 11#32))) (by decide)
def bondV (t197 t198 lastv : IVec S16 32) : IVec S16 32 := addi (addi (isBondV t197) (isBondV t198)) (isBondV lastv)
def maxbV (lastv : IVec S16 32) : IVec S16 32 :=
  select (cmpi .eq lastv (broadcast S16 0#32)) (broadcast S16 4#32)
    (select (cmpi .eq lastv (broadcast S16 1#32)) (broadcast S16 2#32)
      (select (cmpi .eq lastv (broadcast S16 2#32)) (broadcast S16 3#32) (broadcast S16 99#32)))
def mVal (t197 t198 lastv : IVec S16 32) : IVec S16 1 :=
  andi (cmpi .sle lastv (broadcast S16 2#32)) (cmpi .sge (bondV t197 t198 lastv) (maxbV lastv))

variable {F : FTy → Type} [FloatOps F]

/-- The constant added under a mask, in every lane. -/
def negV : FVec F S16 .f32 := broadcast S16 (Scalar.ofBits .f32 0xCE6E6B28#32)

/-- A row-and-column index pair of lane vectors, inside the logits block. -/
def InB (r c : IVec S16 32) : Prop := ∀ (a : Fin 2) (x : S16.Idx), ((![r, c] : Fin 2 → IVec S16 32) a x).toNat < SO.size a

/-- What a group leaves of the block's logits `fo`: the four masked add-stores, in the kernel's order. -/
def groupOut (rowv lastv t197 t198 cfin rfin : IVec S16 32) (fo : Vec F SO .f32)
    (h25 : InB rowv (broadcast S16 25#32)) (hl : InB rowv lastv) (h10 : InB rowv (broadcast S16 10#32)) (h11 : InB rowv (broadcast S16 11#32)) :
    Vec F SO .f32 :=
  storeIdx (storeIdx (storeIdx (storeIdx fo ![rowv, broadcast S16 25#32] negV (mBr cfin) true h25)
      ![rowv, lastv] negV (mRing rfin lastv) true hl)
    ![rowv, broadcast S16 10#32] negV (mVal t197 t198 lastv) true h10)
  ![rowv, broadcast S16 11#32] negV (mVal t197 t198 lastv) true h11

/-- Row `r` of the block, as the function of the position the specification reads (0 past the row's end). -/
def rowTok (f : SB.Idx → BitVec 32) (r : Fin 128) (n : ℕ) : BitVec 32 :=
  if h : n < 200 then f (ValueIdx.ix2 r ⟨n, h⟩) else 0#32

/-- The block's masked logits, as the specification states them of its rows. -/
def blockSpec (f : SB.Idx → BitVec 32) (fo : Vec F SO .f32) : Vec F SO .f32 :=
  fun j => if Cert.Spec.hit (rowTok f (j 0)) (j 1).val then FloatOps.idxAddf (fo j) (Scalar.ofBits .f32 0xCE6E6B28#32) else fo j

end Cert.KMath

end
-- ==== Proof.KI.Region.lean ====
/-
  One trip of a group's scan. A group is sixteen rows of the worker's current 128-row token block; the scan carries
  four lane vectors (column counter, bracket depth, previous token, ring flag) and each trip advances them by eight
  columns: eight gathers of the lanes' tokens at the counter's column and eight gathers of their table entries.
  The invariant before trip `k` is that the carried vectors are the pure scan state `KMath.st … k` of the block's
  tokens and the table (in particular the counter is `8 k` in every lane, so every gather is inside the block, and
  every gathered token is below 32, so it names a table entry); the token block and the table are held and never
  written.
-/
import proofs.«215955_g3427383902409_cont_8to1_b_1893_7_alg».proof.Proof.KI.Setup
import proofs.«215955_g3427383902409_cont_8to1_b_1893_7_alg».proof.Proof.KMath

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

abbrev thrV (d : Dev nD) (L : grid0.Coords) : Thread nD τ := V d (cV L) (jV L)

/-- The indexed load and the indexed add-store of a worker's scratch, ahead of a continuation: a load of the whole
    scratch and the gather of what it read; a load, the scatter-add, and a store of the whole scratch. -/
theorem vli_bind {s t : Shape} {e : EltTy} {α : Type} (c : Fin τ.nSC) (i : Fin τ.nSub) (base : Memref sig .scVector .vmem s e)
    (idxs : Fin s.rank → IVec t 32) (h : ∀ a x, (idxs a x).toNat < s.size a) (hl : base.view.Loads)
    (k : Vec F t e → Prog (TpuEff nD τ sig (Elt F) Λ₀ (.scVector c i)) α) :
    SparseCore.vectorLoadIdx base idxs h hl >>= k = .op (.load base (.whole s) (View.loadsAt_whole hl)) fun f => k (loadIdx f idxs h) := rfl

theorem vsi_bind {s : Shape} {e : EltTy} {α : Type} {dd : Fin 1 → Nat} (c : Fin τ.nSC) (i : Fin τ.nSub) (base : Memref sig .scVector .vmem s e)
    (idxs : Fin s.rank → IVec ⟨1, dd⟩ 32) (v : Vec F ⟨1, dd⟩ e) (mask : IVec ⟨1, dd⟩ 1) (add : Bool)
    (h : ∀ a x, (idxs a x).toNat < s.size a) (hs : (base.access (.whole s)).Stores Finset.univ)
    (k : PUnit → Prog (TpuEff nD τ sig (Elt F) Λ₀ (.scVector c i)) α) :
    SparseCore.vectorStoreIdx base idxs v mask add h hs >>= k
      = .op (.load base (.whole s) (View.loadsAt_rect hs.loads)) fun f =>
        .op (.store base (.whole s) (storeIdx f idxs v mask add h) Finset.univ hs (.inl rfl)) k := rfl

/-- A gather out of a token block whose entries are all below 32 yields entries below 32. -/
theorem tok_lt {f : Vec F S128x200 .i32} (hf : ∀ j, (f j).toNat < 32)
    (idxs : Fin S128x200.rank → IVec S16 32) (h : ∀ a x, (idxs a x).toNat < S128x200.size a) (x : S16.Idx) :
    (loadIdx (View.readAt (Elt F) (sTok).view (LoadRect.whole S128x200) f) idxs h x).toNat < 32 := by
  have e : View.readAt (Elt F) (sTok).view (LoadRect.whole S128x200) f = f := Memref.readAt_whole (Elt F) cc0_scratch0 f
  rw [e]; exact hf _

/-- The sixteen rows of a group: a base row plus the lane number stays inside the block of 128. -/
theorem row_ok (c : BitVec 32) (hc : c.toNat + 15 < 128) (h : S16.Iotas .scVector 32 [0]) (x : S16.Idx) :
    ((addi (broadcast S16 c) (iota .scVector S16 32 [0] h)) x).toNat < 128 := by
  have hx : (x 0).val < 16 := (x 0).isLt
  simp only [addi, IntOp.addi, broadcast, iota, List.foldl, BitVec.toNat_add, BitVec.toNat_ofNat]
  omega

/-- A row-and-column index pair is inside a block when each coordinate is. -/
theorem chk2 {n0 n1 : ℕ} (r c : IVec S16 32) (hr : ∀ x, (r x).toNat < n0) (hc : ∀ x, (c x).toNat < n1) :
    ∀ (a : Fin 2) (x : S16.Idx), ((![r, c] : Fin 2 → IVec S16 32) a x).toNat < (⟨2, ![n0, n1]⟩ : Shape).size a
  | 0, x => hr x
  | 1, x => hc x

theorem chk1 {n0 : ℕ} (t : IVec S16 32) (ht : ∀ x, (t x).toNat < n0) :
    ∀ (a : Fin 1) (x : S16.Idx), ((![t] : Fin 1 → IVec S16 32) a x).toNat < (⟨1, ![n0]⟩ : Shape).size a
  | 0, x => ht x

/-! ## The indexed loads as total gathers -/

/-- An indexed load of the token scratch, its indices in range, is the total gather of the block's contents. -/
theorem loadIdx_tok (f : Vec F S128x200 .i32) (r c : IVec S16 32)
    (h : ∀ a x, ((![r, c] : Fin 2 → IVec S16 32) a x).toNat < S128x200.size a) :
    loadIdx (View.readAt (Elt F) (sTok).view (LoadRect.whole S128x200) f) ![r, c] h = Cert.KMath.gatTok f r c := by
  have e : View.readAt (Elt F) (sTok).view (LoadRect.whole S128x200) f = f := Memref.readAt_whole (Elt F) cc0_scratch0 f
  rw [e]
  funext x
  have h0 : (r x).toNat < 128 := h 0 x
  have h1 : (c x).toNat < 200 := h 1 x
  unfold loadIdx Cert.KMath.gatTok
  rw [dif_pos ⟨h0, h1⟩]
  congr 1
  funext a; match a with | ⟨0, _⟩ => rfl | ⟨1, _⟩ => rfl

/-- An indexed load of the table scratch, its indices in range, is the total gather of the table. -/
theorem loadIdx_tbl (g : Vec F S32 .i32) (t : IVec S16 32)
    (h : ∀ a x, ((![t] : Fin 1 → IVec S16 32) a x).toNat < S32.size a) :
    loadIdx (View.readAt (Elt F) (sTbl).view (LoadRect.whole S32) g) ![t] h = Cert.KMath.gatTbl g t := by
  have e : View.readAt (Elt F) (sTbl).view (LoadRect.whole S32) g = g := Memref.readAt_whole (Elt F) cc0_scratch2 g
  rw [e]
  funext x
  have h0 : (t x).toNat < 32 := h 0 x
  unfold loadIdx Cert.KMath.gatTbl
  rw [dif_pos h0]
  congr 1
  funext a; match a with | ⟨0, _⟩ => rfl

/-- The same two facts with the scratch views spelt out. -/
theorem loadIdx_tok' (f : Vec F S128x200 .i32) (r c : IVec S16 32)
    (h : ∀ a x, ((![r, c] : Fin 2 → IVec S16 32) a x).toNat < S128x200.size a) :
    loadIdx (View.readAt (Elt F) (View.whole (cc0_scratch0 : Ref sig .scVector)) (LoadRect.whole S128x200) f) ![r, c] h = Cert.KMath.gatTok f r c :=
  loadIdx_tok f r c h
theorem loadIdx_tbl' (g : Vec F S32 .i32) (t : IVec S16 32)
    (h : ∀ a x, ((![t] : Fin 1 → IVec S16 32) a x).toNat < S32.size a) :
    loadIdx (View.readAt (Elt F) (View.whole (cc0_scratch2 : Ref sig .scVector)) (LoadRect.whole S32) g) ![t] h = Cert.KMath.gatTbl g t :=
  loadIdx_tbl g t h

/-- A table gather at a gathered token, both indexed loads at once (the table load's side condition speaks of the
    token load, so the two are rewritten together). -/
theorem loadIdx_tbl_tok (f : Vec F S128x200 .i32) (g : Vec F S32 .i32) (r c : IVec S16 32)
    (h1 : ∀ a x, ((![r, c] : Fin 2 → IVec S16 32) a x).toNat < S128x200.size a)
    (h2 : ∀ a x, ((![loadIdx (View.readAt (Elt F) (View.whole (cc0_scratch0 : Ref sig .scVector)) (LoadRect.whole S128x200) f) ![r, c] h1]
        : Fin 1 → IVec S16 32) a x).toNat < S32.size a) :
    loadIdx (View.readAt (Elt F) (View.whole (cc0_scratch2 : Ref sig .scVector)) (LoadRect.whole S32) g)
        ![loadIdx (View.readAt (Elt F) (View.whole (cc0_scratch0 : Ref sig .scVector)) (LoadRect.whole S128x200) f) ![r, c] h1] h2
      = Cert.KMath.gatTbl g (Cert.KMath.gatTok f r c) := by
  have e := loadIdx_tok' f r c h1
  revert h2
  rw [e]
  intro h2
  exact loadIdx_tbl' g _ h2

/-- The scan's column counter before trip `k` is `8 k` in every lane. -/
theorem st_col (f : Vec F S128x200 .i32) (g : Vec F S32 .i32) (rowv lastv : IVec S16 32) :
    ∀ k, k ≤ 25 → (Cert.KMath.st f g rowv lastv k).1 = broadcast S16 (BitVec.ofNat 32 (8 * k))
  | 0, _ => rfl
  | k + 1, hk => by
    have ih := st_col f g rowv lastv k (by omega)
    show (Cert.KMath.trip f g rowv lastv (Cert.KMath.st f g rowv lastv k)).1 = _
    simp only [Cert.KMath.trip, Cert.KMath.step1, ih]
    funext x
    apply BitVec.eq_of_toNat_eq
    simp only [addi, IntOp.addi, broadcast, BitVec.toNat_add, BitVec.toNat_ofNat]
    omega

/-- What the scan of one group of sixteen rows keeps from trip to trip. -/
def inv (ftok : Vec F S128x200 .i32) (ftbl : Vec F S32 .i32) (rowv lastv : IVec S16 32)
    (k : Nat) (acc : IVec S16 32 × IVec S16 32 × IVec S16 32 × IVec S16 32) : sProp 𝕄 :=
  iprop(⌜acc = Cert.KMath.st ftok ftbl rowv lastv k⌝
    ∗ ((sTok).view.loc (thrV d L) ↦{fullShare} ftok) ∗ ((sTbl).view.loc (thrV d L) ↦{fullShare} ftbl))

macro "colok" : tactic => `(tactic| (intro x; simp only [addi, IntOp.addi, broadcast, BitVec.toNat_add, BitVec.toNat_ofNat]; omega))
set_option hygiene false in
macro "colokR" : tactic => `(tactic| (intro x; (try delta region_ok.sl.r_7); (try delta region_ok.sl.r_3); (try simp only [k0_pay326]); simp only [addi, IntOp.addi, broadcast, BitVec.toNat_add, BitVec.toNat_ofNat]; omega))
/-- The side condition of an indexed access inside the scan: a table index is a gathered token; a row-and-column
    pair is the group's rows and the column counter advanced a few times. -/
syntax "dchkR " term:max term:max : tactic
macro_rules
  | `(tactic| dchkR $h $hr) => `(tactic| first
    | exact chk1 _ (fun x => tok_lt $h _ _ x)
    | exact chk2 _ _ $hr (by first | colok | colokR))

theorem region_ok (ftok : Vec F S128x200 .i32) (htok : ∀ j, (ftok j).toNat < 32) (ftbl : Vec F S32 .i32)
    (rowv : IVec S16 32) (hrow : ∀ x, (rowv x).toNat < 128) (lastv : Vec F S16 .i32) :
    ∀ (k : Fin k0_t1_loop.trips) (acc : IVec S16 32 × IVec S16 32 × IVec S16 32 × IVec S16 32),
      inv d L ftok ftbl rowv lastv k acc ⊢ wp frame (wpE (defs₀ (F := F)) 𝒱₀ (thrV d L) none) Set.univ
        (k0_t1_body L tokV (Memref.isWhole_whole _) logV (Memref.isWhole_whole _) tblV (Memref.isWhole_whole _) outV (Memref.isWhole_whole _)
          sTok (Memref.isWhole_whole _) sOut (Memref.isWhole_whole _) sTbl (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12
          rowv lastv k acc)
        (inv d L ftok ftbl rowv lastv (k.val + 1)) := by
  intro k acc
  obtain ⟨a10, a11, a12, a13⟩ := acc
  have hk : k.val < 25 := lt_of_lt_of_le k.isLt k0_t1_abs.2.1
  unfold k0_t1_body inv
  iintro ⟨%hacc, Hs6', Hs8'⟩
  have hcol : a10 = broadcast S16 (BitVec.ofNat 32 (8 * k.val)) :=
    (congrArg Prod.fst hacc).trans (st_col ftok ftbl rowv lastv k.val (by omega))
  subst hcol
  sl_exec (disch := dchkR htok hrow)
  conv => rhs; simp only [vli_bind, vsi_bind]
  sl_exec (disch := dchkR htok hrow)
  conv => rhs; simp only [vli_bind, vsi_bind]
  sl_exec (disch := dchkR htok hrow)
  rw [wp_ret]; imodintro
  isplitr
  · ipureintro
    show _ = Cert.KMath.trip ftok ftbl rowv lastv (Cert.KMath.st ftok ftbl rowv lastv k.val)
    rw [← hacc]
    repeat delta region_ok.sl.r_9 region_ok.sl.r_8 region_ok.sl.r_7 region_ok.sl.r_6 region_ok.sl.r_5 region_ok.sl.r_4 region_ok.sl.r_3 region_ok.sl.r_2 region_ok.sl.r_1 region_ok.sl.r
    simp only [k0_pay326, k0_pay327, k0_pay328, k0_pay329]
    simp only [loadIdx_tok, loadIdx_tbl, loadIdx_tok', loadIdx_tbl', Cert.KMath.trip, Cert.KMath.step1]
    refine Prod.ext ?_ (Prod.ext ?_ (Prod.ext ?_ ?_))
    · with_reducible rfl
    · show maxsi (addi _ _) _ = maxsi (addi _ _) _
      congr 2
      all_goals first | exact loadIdx_tbl_tok ftok ftbl rowv _ _ _ | with_reducible rfl
    · exact loadIdx_tok' ftok rowv _ _
    · show select (andi _ (cmpi .eq _ _)) _ _ = select (andi _ (cmpi .eq _ _)) _ _
      congr 3
      all_goals first | exact loadIdx_tok' ftok rowv _ _ | with_reducible rfl
  isplitl [Hs6']
  · iexact Hs6'
  · iexact Hs8'

end Cert.Proof.KI
end
-- ==== Proof.KMathStore.lean ====
/-
  A masked add-store of one constant, when the lanes name pairwise different entries: the entry a masked lane names
  gets the constant added once, every other entry stays. Proved over the fold that defines the store, lane by lane:
  a lane that is not masked changes nothing; a masked lane changes the one entry it names, and by the lanes' distinctness
  no other lane of the fold names that entry. Then the store of a GROUP of sixteen rows: lane `x` names row
  `16·gi + x` and its column word, so the entry at row `r`, column `col` is touched exactly when `r` is the row of a
  masked lane whose column word is `col`.
-/
import proofs.«215955_g3427383902409_cont_8to1_b_1893_7_alg».proof.Proof.KMath

noncomputable section

namespace Cert.KMath

open Idealize.ShloMosaic
open Classical

variable {F : FTy → Type} [FloatOps F]

section Fold
variable {s : Shape} {e : EltTy} {d : Fin 1 → ℕ}

/-- One lane's effect on the stored-to contents. -/
def stepS (idxs : Fin s.rank → IVec ⟨1, d⟩ 32) (v : Vec F ⟨1, d⟩ e) (mask : IVec ⟨1, d⟩ 1)
    (h : ∀ a x, (idxs a x).toNat < s.size a) (g : Vec F s e) (k : Fin (d 0)) : Vec F s e :=
  if mask (Shape.ofLane k) = 1 then
    fun j => if (∀ a, (j a).val = ((idxAt idxs h (Shape.ofLane k)) a).val)
      then Elt.idxAdd e (g (idxAt idxs h (Shape.ofLane k))) (v (Shape.ofLane k)) else g j
  else g

/-- The add-store is the fold of the lanes' effects. -/
theorem storeIdx_eq_foldl (f : Vec F s e) (idxs : Fin s.rank → IVec ⟨1, d⟩ 32) (v : Vec F ⟨1, d⟩ e) (mask : IVec ⟨1, d⟩ 1)
    (h : ∀ a x, (idxs a x).toNat < s.size a) :
    storeIdx f idxs v mask true h = (List.finRange (d 0)).foldl (stepS idxs v mask h) f := rfl

theorem idx_eq_iff (j i : s.Idx) : (∀ a, (j a).val = (i a).val) ↔ j = i :=
  ⟨fun h => funext fun a => Fin.ext (h a), fun h a => by rw [h]⟩

/-- The fold over lanes that name pairwise different entries, all storing the constant `cst`. -/
theorem foldl_stepS (idxs : Fin s.rank → IVec ⟨1, d⟩ 32) (v : Vec F ⟨1, d⟩ e) (mask : IVec ⟨1, d⟩ 1)
    (h : ∀ a x, (idxs a x).toNat < s.size a) (cst : Elt F e) (hv : ∀ x, v x = cst)
    (hinj : ∀ k k' : Fin (d 0), idxAt idxs h (Shape.ofLane k) = idxAt idxs h (Shape.ofLane k') → k = k') (j : s.Idx) :
    ∀ (l : List (Fin (d 0))), l.Nodup → ∀ f : Vec F s e,
      l.foldl (stepS idxs v mask h) f j
        = if ∃ k ∈ l, mask (Shape.ofLane k) = 1 ∧ idxAt idxs h (Shape.ofLane k) = j then Elt.idxAdd e (f j) cst else f j
  | [], _, f => by simp
  | a :: l, hnd, f => by
    have hal : a ∉ l := (List.nodup_cons.mp hnd).1
    rw [List.foldl_cons, foldl_stepS idxs v mask h cst hv hinj j l (List.nodup_cons.mp hnd).2]
    by_cases hm : mask (Shape.ofLane a) = 1
    · by_cases hj : idxAt idxs h (Shape.ofLane a) = j
      · have hno : ¬ ∃ k ∈ l, mask (Shape.ofLane k) = 1 ∧ idxAt idxs h (Shape.ofLane k) = j := by
          rintro ⟨k, hk, _, hkj⟩
          exact hal (hinj k a (hkj.trans hj.symm) ▸ hk)
        have hyes : ∃ k ∈ a :: l, mask (Shape.ofLane k) = 1 ∧ idxAt idxs h (Shape.ofLane k) = j :=
          ⟨a, List.mem_cons_self, hm, hj⟩
        rw [if_neg hno, if_pos hyes]
        unfold stepS
        rw [if_pos hm, if_pos ((idx_eq_iff _ _).2 hj.symm), hj, hv]
      · have hiff : (∃ k ∈ a :: l, mask (Shape.ofLane k) = 1 ∧ idxAt idxs h (Shape.ofLane k) = j)
            ↔ ∃ k ∈ l, mask (Shape.ofLane k) = 1 ∧ idxAt idxs h (Shape.ofLane k) = j := by
          constructor
          · rintro ⟨k, hk, hkm, hkj⟩
            rcases List.mem_cons.mp hk with rfl | hk
            · exact absurd hkj hj
            · exact ⟨k, hk, hkm, hkj⟩
          · rintro ⟨k, hk, hkm, hkj⟩
            exact ⟨k, List.mem_cons_of_mem _ hk, hkm, hkj⟩
        have hs : stepS idxs v mask h f a j = f j := by
          unfold stepS
          rw [if_pos hm, if_neg (fun hh => hj ((idx_eq_iff _ _).1 hh).symm)]
        rw [hs, if_congr hiff rfl rfl]
    · have hiff : (∃ k ∈ a :: l, mask (Shape.ofLane k) = 1 ∧ idxAt idxs h (Shape.ofLane k) = j)
          ↔ ∃ k ∈ l, mask (Shape.ofLane k) = 1 ∧ idxAt idxs h (Shape.ofLane k) = j := by
        constructor
        · rintro ⟨k, hk, hkm, hkj⟩
          rcases List.mem_cons.mp hk with rfl | hk
          · exact absurd hkm hm
          · exact ⟨k, hk, hkm, hkj⟩
        · rintro ⟨k, hk, hkm, hkj⟩
          exact ⟨k, List.mem_cons_of_mem _ hk, hkm, hkj⟩
      have hs : stepS idxs v mask h f a = f := by
        unfold stepS
        rw [if_neg hm]
      rw [hs, if_congr hiff rfl rfl]

/-- THE ADD-STORE OF A CONSTANT over lanes that name pairwise different entries. -/
theorem storeIdx_add_const (f : Vec F s e) (idxs : Fin s.rank → IVec ⟨1, d⟩ 32) (v : Vec F ⟨1, d⟩ e) (mask : IVec ⟨1, d⟩ 1)
    (h : ∀ a x, (idxs a x).toNat < s.size a) (cst : Elt F e) (hv : ∀ x, v x = cst)
    (hinj : ∀ k k' : Fin (d 0), idxAt idxs h (Shape.ofLane k) = idxAt idxs h (Shape.ofLane k') → k = k') (j : s.Idx) :
    storeIdx f idxs v mask true h j
      = if ∃ k : Fin (d 0), mask (Shape.ofLane k) = 1 ∧ idxAt idxs h (Shape.ofLane k) = j then Elt.idxAdd e (f j) cst else f j := by
  rw [storeIdx_eq_foldl, foldl_stepS idxs v mask h cst hv hinj j _ (List.nodup_finRange _) f]
  refine if_congr ⟨?_, ?_⟩ rfl rfl
  · rintro ⟨k, _, hk⟩; exact ⟨k, hk⟩
  · rintro ⟨k, hk⟩; exact ⟨k, List.mem_finRange k, hk⟩

end Fold

/-! ## A group's store -/

/-- A lane's one coordinate. -/
theorem ofLane_lane (x : S16.Idx) : (Shape.ofLane (d := ![16]) (x 0) : S16.Idx) = x := by
  funext a
  obtain rfl : a = 0 := Subsingleton.elim _ _
  exact Fin.ext rfl

/-- The add-store of the constant by a group whose lane `x` names row `16·gi + x` and the column word `colv x`. -/
theorem store_at (rowv colv : IVec S16 32) (gi : ℕ) (hrow : ∀ x : S16.Idx, (rowv x).toNat = 16 * gi + (x 0).val)
    (fo : Vec F SO .f32) (mask : IVec S16 1) (h : InB rowv colv) (j : SO.Idx) :
    storeIdx fo ![rowv, colv] (negV (F := F)) mask true h j
      = if ∃ x : S16.Idx, 16 * gi + (x 0).val = (j 0).val ∧ mask x = 1#1 ∧ (colv x).toNat = (j 1).val
          then FloatOps.idxAddf (fo j) (Scalar.ofBits .f32 0xCE6E6B28#32) else fo j := by
  have h' : ∀ (a : Fin SO.rank) (x : S16.Idx), ((![rowv, colv] : Fin SO.rank → IVec S16 32) a x).toNat < SO.size a := h
  show storeIdx fo ![rowv, colv] (negV (F := F)) mask true h' j = _
  have hinj : ∀ k k' : Fin ((![16] : Fin 1 → ℕ) 0),
      idxAt (s := SO) (t := S16) ![rowv, colv] h' (Shape.ofLane k) = idxAt (s := SO) (t := S16) ![rowv, colv] h' (Shape.ofLane k') → k = k' := by
    intro k k' hkk
    have h1 : (rowv (Shape.ofLane k)).toNat = (rowv (Shape.ofLane k')).toNat :=
      congrArg (fun i : SO.Idx => ((i 0 : Fin 128) : ℕ)) hkk
    rw [hrow, hrow] at h1
    have e1 : ((Shape.ofLane (d := ![16]) k : S16.Idx) 0 : ℕ) = k.val := rfl
    have e2 : ((Shape.ofLane (d := ![16]) k' : S16.Idx) 0 : ℕ) = k'.val := rfl
    exact Fin.ext (by omega)
  rw [storeIdx_add_const fo ![rowv, colv] (negV (F := F)) mask h' (Scalar.ofBits .f32 0xCE6E6B28#32) (fun _ => rfl) hinj j]
  refine if_congr ⟨?_, ?_⟩ rfl rfl
  · rintro ⟨k, hm, hk⟩
    refine ⟨Shape.ofLane k, ?_, hm, ?_⟩
    · have h1 : (rowv (Shape.ofLane k)).toNat = (j 0).val := congrArg (fun i : SO.Idx => ((i 0 : Fin 128) : ℕ)) hk
      rw [← hrow]; exact h1
    · exact congrArg (fun i : SO.Idx => ((i 1 : Fin 32) : ℕ)) hk
  · rintro ⟨x, hx, hm, hc⟩
    refine ⟨x 0, ?_, ?_⟩
    · rw [ofLane_lane]; exact hm
    · rw [ofLane_lane]
      funext a
      refine Fin.ext ?_
      match a with
      | ⟨0, _⟩ => show (rowv x).toNat = (j 0).val; rw [hrow]; exact hx
      | ⟨1, _⟩ => exact hc

end Cert.KMath

end
-- ==== Proof.KMathScan.lean ====
/-
  One lane of a group's scan, against the specification's row. With `T` the row's tokens (every one below 32) the
  carried vectors after `n ≤ 200` steps hold, in that lane: the counter `n`; the word of the bracket depth after `n`
  tokens (the table adds 1 at tokens 6 and 8 and the word -1 at 7 and 9, and the signed maximum with 0 is the clamp; a
  depth is at most 200, so nothing wraps); the previous token (the word -1 before the first, which is no token); and
  the flag "some position `1 ≤ j < n` has the row's last token at `j - 1` and token 14 at `j`". A trip is eight
  steps, so the vectors before trip `k` are those after `8 k` steps. Then the three masks, in a lane, are the
  specification's three rules of the row.
-/
import proofs.«215955_g3427383902409_cont_8to1_b_1893_7_alg».proof.Proof.KMathStore
import Idealize.ShloMosaic.Lib.Affine
import Idealize.ShloMosaic.Lib.DynamicIndex

noncomputable section

namespace Cert.KMath

open Idealize.ShloMosaic Idealize.ShloMosaic.ValueIdx
open Classical

/-! ## Words -/

theorem word_eq_lit (t : BitVec 32) (n : ℕ) (hn : n < 32) : t = BitVec.ofNat 32 n ↔ t.toNat = n :=
  ⟨fun h => by rw [h, BitVec.toNat_ofNat]; omega,
   fun h => BitVec.eq_of_toNat_eq (by rw [h, BitVec.toNat_ofNat]; omega)⟩

theorem toInt_of_lt32 (t : BitVec 32) (h : t.toNat < 32) : t.toInt = (t.toNat : Int) := by
  rw [BitVec.toInt_eq_toNat_cond]; split <;> omega

theorem depth_le (T : ℕ → BitVec 32) : ∀ k, Cert.Spec.depth T k ≤ k
  | 0 => Nat.le_refl 0
  | k + 1 => by
    have := depth_le T k
    simp only [Cert.Spec.depth]
    split_ifs <;> omega

/-- A depth word below 200 after the table's three possible entries, clamped at 0. -/
theorem add_pos_word : ∀ d : Fin 200,
    IntOp.maxsi (IntOp.addi (BitVec.ofNat 32 d.val) 1#32) 0#32 = BitVec.ofNat 32 (d.val + 1) := by decide +kernel
theorem add_neg_word : ∀ d : Fin 200,
    IntOp.maxsi (IntOp.addi (BitVec.ofNat 32 d.val) 4294967295#32) 0#32 = BitVec.ofNat 32 (d.val - 1) := by decide +kernel
theorem add_zero_word : ∀ d : Fin 200,
    IntOp.maxsi (IntOp.addi (BitVec.ofNat 32 d.val) 0#32) 0#32 = BitVec.ofNat 32 d.val := by decide +kernel

/-- One step's depth word is the specification's successor case. -/
theorem depth_word (T : ℕ → BitVec 32) (n : ℕ) (hd : Cert.Spec.depth T n < 200) (hT : (T n).toNat < 32) :
    IntOp.maxsi (IntOp.addi (BitVec.ofNat 32 (Cert.Spec.depth T n))
        (if (T n).toNat = 6 ∨ (T n).toNat = 8 then 1#32
          else if (T n).toNat = 7 ∨ (T n).toNat = 9 then 4294967295#32 else 0#32)) 0#32
      = BitVec.ofNat 32 (Cert.Spec.depth T (n + 1)) := by
  have ho : Cert.Spec.isOpen (T n) ↔ ((T n).toNat = 6 ∨ (T n).toNat = 8) := by
    unfold Cert.Spec.isOpen; rw [word_eq_lit _ 6 (by omega), word_eq_lit _ 8 (by omega)]
  have hc : Cert.Spec.isClose (T n) ↔ ((T n).toNat = 7 ∨ (T n).toNat = 9) := by
    unfold Cert.Spec.isClose; rw [word_eq_lit _ 7 (by omega), word_eq_lit _ 9 (by omega)]
  simp only [Cert.Spec.depth]
  by_cases hO : Cert.Spec.isOpen (T n)
  · rw [if_pos hO, if_pos (ho.1 hO)]; exact add_pos_word ⟨_, hd⟩
  · rw [if_neg hO, if_neg (mt ho.2 hO)]
    by_cases hC : Cert.Spec.isClose (T n)
    · rw [if_pos hC, if_pos (hc.1 hC)]; exact add_neg_word ⟨_, hd⟩
    · rw [if_neg hC, if_neg (mt hc.2 hC)]; exact add_zero_word ⟨_, hd⟩

/-- One step's ring flag. -/
theorem flag_step (T : ℕ → BitVec 32) (n : ℕ) (hl : (T 199).toNat < 32) :
    Scalar.select (IntOp.andi (IntOp.cmpi .eq (if n = 0 then 4294967295#32 else T (n - 1)) (T 199)) (IntOp.cmpi .eq (T n) 14#32))
        1#32 (if ∃ j, 1 ≤ j ∧ j < n ∧ T (j - 1) = T 199 ∧ T j = 14#32 then 1#32 else 0#32)
      = if ∃ j, 1 ≤ j ∧ j < n + 1 ∧ T (j - 1) = T 199 ∧ T j = 14#32 then 1#32 else 0#32 := by
  have hb : IntOp.andi (IntOp.cmpi .eq (if n = 0 then 4294967295#32 else T (n - 1)) (T 199)) (IntOp.cmpi .eq (T n) 14#32) = 1#1
      ↔ (1 ≤ n ∧ T (n - 1) = T 199 ∧ T n = 14#32) := by
    rw [IntOp.andi_eq_one, IntOp.cmpi_eq, IntOp.cmpi_eq]
    by_cases h0 : n = 0
    · rw [if_pos h0]
      constructor
      · rintro ⟨h1, _⟩
        exfalso
        have h2 := congrArg BitVec.toNat h1
        rw [show (4294967295#32 : BitVec 32).toNat = 4294967295 from rfl] at h2
        omega
      · rintro ⟨h1, _⟩; omega
    · rw [if_neg h0]
      exact ⟨fun ⟨a, b⟩ => ⟨by omega, a, b⟩, fun ⟨_, a, b⟩ => ⟨a, b⟩⟩
  have hP : (∃ j, 1 ≤ j ∧ j < n + 1 ∧ T (j - 1) = T 199 ∧ T j = 14#32)
      ↔ ((∃ j, 1 ≤ j ∧ j < n ∧ T (j - 1) = T 199 ∧ T j = 14#32) ∨ (1 ≤ n ∧ T (n - 1) = T 199 ∧ T n = 14#32)) := by
    constructor
    · rintro ⟨j, h1, h2, h3, h4⟩
      by_cases hj : j < n
      · exact Or.inl ⟨j, h1, hj, h3, h4⟩
      · have hjn : j = n := by omega
        subst hjn; exact Or.inr ⟨h1, h3, h4⟩
    · rintro (⟨j, h1, h2, h3, h4⟩ | ⟨h1, h3, h4⟩)
      · exact ⟨j, h1, by omega, h3, h4⟩
      · exact ⟨n, h1, by omega, h3, h4⟩
  by_cases hq : (1 ≤ n ∧ T (n - 1) = T 199 ∧ T n = 14#32)
  · rw [hb.2 hq, select_one, if_pos (hP.2 (Or.inr hq))]
  · rw [eq_zero_of_ne_one (mt hb.1 hq), select_zero]
    by_cases hp : ∃ j, 1 ≤ j ∧ j < n ∧ T (j - 1) = T 199 ∧ T j = 14#32
    · rw [if_pos hp, if_pos (hP.2 (Or.inl hp))]
    · rw [if_neg hp, if_neg (fun h => (hP.1 h).elim hp hq)]

/-! ## The scan -/

section Scan
variable (f : SB.Idx → BitVec 32) (g : S32.Idx → BitVec 32) (rowv lastv : IVec S16 32)

/-- The carried vectors after `n` steps. -/
def stepN (n : ℕ) : St := (step1 f g rowv lastv)^[n] init

theorem stepN_succ (n : ℕ) : stepN f g rowv lastv (n + 1) = step1 f g rowv lastv (stepN f g rowv lastv n) :=
  Function.iterate_succ_apply' _ _ _

/-- Before trip `k`: after `8 k` steps. -/
theorem st_eq_stepN : ∀ k, st f g rowv lastv k = stepN f g rowv lastv (8 * k)
  | 0 => rfl
  | k + 1 => by
    show trip f g rowv lastv (st f g rowv lastv k) = _
    rw [st_eq_stepN k]
    unfold stepN
    rw [show 8 * (k + 1) = 8 + 8 * k by ring, Function.iterate_add_apply]
    rfl

/-- What a lane holds after `n` steps, for a row with tokens `T`. -/
structure LaneInv (T : ℕ → BitVec 32) (n : ℕ) (s : St) (x : S16.Idx) : Prop where
  ctr : s.1 x = BitVec.ofNat 32 n
  dep : s.2.1 x = BitVec.ofNat 32 (Cert.Spec.depth T n)
  prev : s.2.2.1 x = if n = 0 then 4294967295#32 else T (n - 1)
  flag : s.2.2.2 x = if ∃ j, 1 ≤ j ∧ j < n ∧ T (j - 1) = T 199 ∧ T j = 14#32 then 1#32 else 0#32

/-- A table entry at a token below 32. -/
theorem tbl_at
    (hg : ∀ t : Fin 32, g (ValueIdx.ix1 t) = if t.val = 6 ∨ t.val = 8 then 1#32 else if t.val = 7 ∨ t.val = 9 then 4294967295#32 else 0#32)
    (t : IVec S16 32) (x : S16.Idx) (w : BitVec 32) (hw : w.toNat < 32) (e : t x = w) :
    gatTbl g t x = if w.toNat = 6 ∨ w.toNat = 8 then 1#32 else if w.toNat = 7 ∨ w.toNat = 9 then 4294967295#32 else 0#32 := by
  subst e
  unfold gatTbl
  rw [dif_pos hw, hg]

variable (x : S16.Idx) (T : ℕ → BitVec 32)
  (htok : ∀ (c : IVec S16 32) (n : ℕ), n < 200 → (c x).toNat = n → gatTok f rowv c x = T n)
  (hlast : lastv x = T 199) (hT : ∀ n, (T n).toNat < 32)
  (hg : ∀ t : Fin 32, g (ValueIdx.ix1 t) = if t.val = 6 ∨ t.val = 8 then 1#32 else if t.val = 7 ∨ t.val = 9 then 4294967295#32 else 0#32)

include htok hlast hT hg in
/-- One step keeps the lane's invariant. -/
theorem inv_step (n : ℕ) (hn : n < 200) (s : St) (h : LaneInv T n s x) : LaneInv T (n + 1) (step1 f g rowv lastv s) x := by
  have hc : (s.1 x).toNat = n := by rw [h.ctr, BitVec.toNat_ofNat]; omega
  have htk : gatTok f rowv s.1 x = T n := htok s.1 n hn hc
  refine ⟨?_, ?_, ?_, ?_⟩
  · show IntOp.addi (s.1 x) 1#32 = _
    rw [h.ctr]; exact (BitVec.ofNat_add ..).symm
  · show IntOp.maxsi (IntOp.addi (s.2.1 x) (gatTbl g (gatTok f rowv s.1) x)) 0#32 = _
    rw [h.dep, tbl_at g hg _ x (T n) (hT n) htk]
    exact depth_word T n (Nat.lt_of_le_of_lt (depth_le T n) hn) (hT n)
  · show gatTok f rowv s.1 x = _
    rw [htk, if_neg (Nat.succ_ne_zero n)]; rfl
  · show Scalar.select (IntOp.andi (IntOp.cmpi .eq (s.2.2.1 x) (lastv x)) (IntOp.cmpi .eq (gatTok f rowv s.1 x) 14#32)) 1#32 (s.2.2.2 x) = _
    rw [h.prev, h.flag, hlast, htk]
    exact flag_step T n (hT 199)

include htok hlast hT hg in
/-- The lane's invariant after every number of steps up to 200. -/
theorem inv_all : ∀ n, n ≤ 200 → LaneInv T n (stepN f g rowv lastv n) x
  | 0, _ => ⟨rfl, rfl, rfl, (if_neg (fun ⟨j, h1, h2, _⟩ => by omega)).symm⟩
  | n + 1, hn => by
    rw [stepN_succ]
    exact inv_step f g rowv lastv x T htok hlast hT hg n (by omega) _ (inv_all n (by omega))

end Scan

/-! ## The masks, in a lane -/

theorem mBr_at (cfin : IVec S16 32) (x : S16.Idx) (T : ℕ → BitVec 32)
    (hc : cfin x = BitVec.ofNat 32 (Cert.Spec.depth T 200)) : mBr cfin x = 1#1 ↔ Cert.Spec.bracketHit T := by
  show IntOp.cmpi .sgt (cfin x) 0#32 = 1#1 ↔ _
  rw [hc, IntOp.cmpi_sgt, toInt_ofNat_of_lt (Nat.lt_of_le_of_lt (depth_le T 200) (by omega)),
    show (0#32 : BitVec 32).toInt = 0 from rfl]
  unfold Cert.Spec.bracketHit
  omega

theorem flag_pos (P : Prop) [Decidable P] :
    (0#32 : BitVec 32).toInt < (if P then 1#32 else 0#32 : BitVec 32).toInt ↔ P := by
  by_cases h : P
  · rw [if_pos h]; exact ⟨fun _ => h, fun _ => by decide⟩
  · rw [if_neg h]; exact ⟨fun hh => absurd hh (by decide), fun hh => absurd hh h⟩

theorem mRing_at (rfin lastv : IVec S16 32) (x : S16.Idx) (T : ℕ → BitVec 32) (hl : (T 199).toNat < 32)
    (hlast : lastv x = T 199)
    (hr : rfin x = if ∃ j, 1 ≤ j ∧ j < 200 ∧ T (j - 1) = T 199 ∧ T j = 14#32 then 1#32 else 0#32) :
    mRing rfin lastv x = 1#1 ↔ Cert.Spec.ringHit T := by
  show IntOp.andi (IntOp.andi (IntOp.cmpi .sgt (rfin x) 0#32) (IntOp.cmpi .sge (lastv x) 15#32)) (IntOp.cmpi .sle (lastv x) 24#32) = 1#1 ↔ _
  have hP : (∃ j, 1 ≤ j ∧ j < 200 ∧ T (j - 1) = T 199 ∧ T j = 14#32) ↔ ∃ j, j < 199 ∧ T j = T 199 ∧ T (j + 1) = 14#32 := by
    constructor
    · rintro ⟨j, h1, h2, h3, h4⟩
      exact ⟨j - 1, by omega, h3, by rw [Nat.sub_add_cancel h1]; exact h4⟩
    · rintro ⟨j, h1, h2, h3⟩
      exact ⟨j + 1, by omega, by omega, by rw [Nat.add_sub_cancel]; exact h2, h3⟩
  rw [IntOp.andi_eq_one, IntOp.andi_eq_one, IntOp.cmpi_sgt, IntOp.cmpi_sge, IntOp.cmpi_sle, hlast, hr, flag_pos,
    toInt_of_lt32 _ hl, show (15#32 : BitVec 32).toInt = 15 from rfl, show (24#32 : BitVec 32).toInt = 24 from rfl, hP]
  unfold Cert.Spec.ringHit Cert.Spec.isDigit
  constructor
  · rintro ⟨⟨hp, h15⟩, h24⟩; exact ⟨⟨by omega, by omega⟩, hp⟩
  · rintro ⟨⟨h15, h24⟩, he⟩; exact ⟨⟨he, by omega⟩, by omega⟩

/-- A flag widened to a word is the word of 0 or 1. -/
theorem flag_word (b : BitVec 1) (P : Prop) [Decidable P] (h : b = 1#1 ↔ P) :
    b.setWidth 32 = BitVec.ofNat 32 (if P then 1 else 0) := by
  rcases BitVec.eq_zero_or_eq_one b with rfl | rfl
  · rw [if_neg (fun hp => absurd (h.2 hp) (by decide))]; rfl
  · rw [if_pos (h.1 rfl)]; rfl

theorem isBond_at (t : IVec S16 32) (x : S16.Idx) (w : BitVec 32) (e : t x = w) :
    isBondV t x = BitVec.ofNat 32 (if Cert.Spec.isBond w then 1 else 0) := by
  show (IntOp.ori (IntOp.cmpi .eq (t x) 10#32) (IntOp.cmpi .eq (t x) 11#32)).setWidth 32 = _
  rw [e]
  exact flag_word _ _ (by rw [IntOp.ori_eq_one, IntOp.cmpi_eq, IntOp.cmpi_eq]; rfl)

theorem sel_eq (a b u v : BitVec 32) : Scalar.select (IntOp.cmpi .eq a b) u v = if a = b then u else v := by
  by_cases h : a = b
  · rw [IntOp.cmpi_eq.2 h, select_one, if_pos h]
  · rw [eq_zero_of_ne_one (mt IntOp.cmpi_eq.1 h), select_zero, if_neg h]

theorem sum3_toInt : ∀ a b c : Fin 2, (BitVec.ofNat 32 a.val + BitVec.ofNat 32 b.val + BitVec.ofNat 32 c.val).toInt
    = ((a.val + b.val + c.val : ℕ) : Int) := by decide +kernel

theorem sum3_toInt' (a b c : ℕ) (ha : a < 2) (hb : b < 2) (hc : c < 2) :
    (BitVec.ofNat 32 a + BitVec.ofNat 32 b + BitVec.ofNat 32 c).toInt = ((a + b + c : ℕ) : Int) :=
  sum3_toInt ⟨a, ha⟩ ⟨b, hb⟩ ⟨c, hc⟩

theorem flag_lt (P : Prop) [Decidable P] : (if P then 1 else 0) < 2 := by split_ifs <;> omega

theorem mVal_at (t197 t198 lastv : IVec S16 32) (x : S16.Idx) (T : ℕ → BitVec 32) (hl : (T 199).toNat < 32)
    (h7 : t197 x = T 197) (h8 : t198 x = T 198) (hlast : lastv x = T 199) :
    mVal t197 t198 lastv x = 1#1 ↔ Cert.Spec.valHit T := by
  show IntOp.andi (IntOp.cmpi .sle (lastv x) 2#32)
      (IntOp.cmpi .sge (IntOp.addi (IntOp.addi (isBondV t197 x) (isBondV t198 x)) (isBondV lastv x))
        (Scalar.select (IntOp.cmpi .eq (lastv x) 0#32) 4#32 (Scalar.select (IntOp.cmpi .eq (lastv x) 1#32) 2#32
          (Scalar.select (IntOp.cmpi .eq (lastv x) 2#32) 3#32 99#32)))) = 1#1 ↔ _
  rw [isBond_at t197 x _ h7, isBond_at t198 x _ h8, isBond_at lastv x _ hlast, hlast, sel_eq, sel_eq, sel_eq,
    IntOp.andi_eq_one, IntOp.cmpi_sle, IntOp.cmpi_sge, toInt_of_lt32 _ hl, show (2#32 : BitVec 32).toInt = 2 from rfl]
  show _ ∧ _ ≤ (BitVec.ofNat 32 (if Cert.Spec.isBond (T 197) then 1 else 0) + BitVec.ofNat 32 (if Cert.Spec.isBond (T 198) then 1 else 0)
      + BitVec.ofNat 32 (if Cert.Spec.isBond (T 199) then 1 else 0)).toInt ↔ _
  rw [sum3_toInt' _ _ _ (flag_lt _) (flag_lt _) (flag_lt _)]
  unfold Cert.Spec.valHit Cert.Spec.bond
  generalize (if Cert.Spec.isBond (T 197) then 1 else 0 : ℕ) = a
  generalize (if Cert.Spec.isBond (T 198) then 1 else 0 : ℕ) = b
  generalize (if Cert.Spec.isBond (T 199) then 1 else 0 : ℕ) = c
  have h4 : (4#32 : BitVec 32).toInt = 4 := rfl
  have h2 : (2#32 : BitVec 32).toInt = 2 := rfl
  have h3 : (3#32 : BitVec 32).toInt = 3 := rfl
  have h99 : (99#32 : BitVec 32).toInt = 99 := rfl
  simp only [word_eq_lit (T 199) 0 (by omega), word_eq_lit (T 199) 1 (by omega), word_eq_lit (T 199) 2 (by omega)]
  split_ifs <;> simp only [h4, h2, h3, h99] <;> omega

end Cert.KMath

end
-- ==== Proof.KMathLemmas.lean ====
/-
  A group's four masked add-stores against the specification. Lane `x` of group `gi` is row `16·gi + x` of the
  block; by the scan's invariant after 200 steps its three masks are the row's three rules; its stores name, in that
  row, columns 25, the last token's, 10 and 11. At one entry at most one of the four stores adds (the ring rule's
  column is a digit token, 15 to 24, so none of 25, 10, 11; and 25, 10, 11 differ), and one adds exactly when the
  specification masks the entry; entries of rows outside the group are not named by any lane.
-/
import proofs.«215955_g3427383902409_cont_8to1_b_1893_7_alg».proof.Proof.KMathScan

noncomputable section

namespace Cert.KMath

open Idealize.ShloMosaic
open Classical

variable {F : FTy → Type} [FloatOps F]

/-- Four conditional additions of which no two take place together are one. -/
theorem four_adds {α : Type} (add : α → α) (y : α) (E1 E2 E3 E4 H : Prop)
    [Decidable E1] [Decidable E2] [Decidable E3] [Decidable E4] [Decidable H]
    (h12 : ¬(E1 ∧ E2)) (h13 : ¬(E1 ∧ E3)) (h14 : ¬(E1 ∧ E4)) (h23 : ¬(E2 ∧ E3)) (h24 : ¬(E2 ∧ E4)) (h34 : ¬(E3 ∧ E4))
    (hH : H ↔ (E1 ∨ E2 ∨ E3 ∨ E4)) :
    (if E4 then add (if E3 then add (if E2 then add (if E1 then add y else y) else (if E1 then add y else y))
          else (if E2 then add (if E1 then add y else y) else (if E1 then add y else y)))
      else (if E3 then add (if E2 then add (if E1 then add y else y) else (if E1 then add y else y))
          else (if E2 then add (if E1 then add y else y) else (if E1 then add y else y))))
      = if H then add y else y := by
  by_cases e1 : E1
  · have e2 : ¬E2 := fun h => h12 ⟨e1, h⟩
    have e3 : ¬E3 := fun h => h13 ⟨e1, h⟩
    have e4 : ¬E4 := fun h => h14 ⟨e1, h⟩
    rw [if_neg e4, if_neg e3, if_neg e2, if_pos e1, if_pos (hH.2 (Or.inl e1))]
  · by_cases e2 : E2
    · have e3 : ¬E3 := fun h => h23 ⟨e2, h⟩
      have e4 : ¬E4 := fun h => h24 ⟨e2, h⟩
      rw [if_neg e4, if_neg e3, if_pos e2, if_neg e1, if_pos (hH.2 (Or.inr (Or.inl e2)))]
    · by_cases e3 : E3
      · have e4 : ¬E4 := fun h => h34 ⟨e3, h⟩
        rw [if_neg e4, if_pos e3, if_neg e2, if_neg e1, if_pos (hH.2 (Or.inr (Or.inr (Or.inl e3))))]
      · by_cases e4 : E4
        · rw [if_pos e4, if_neg e3, if_neg e2, if_neg e1, if_pos (hH.2 (Or.inr (Or.inr (Or.inr e4))))]
        · rw [if_neg e4, if_neg e3, if_neg e2, if_neg e1,
            if_neg (fun h => by rcases hH.1 h with h | h | h | h <;> contradiction)]

/-- A row of the block reads tokens below 32 everywhere. -/
theorem rowTok_lt (f : SB.Idx → BitVec 32) (hf : ∀ j, (f j).toNat < 32) (r : Fin 128) (n : ℕ) : (rowTok f r n).toNat < 32 := by
  unfold rowTok
  split
  · exact hf _
  · show (0#32 : BitVec 32).toNat < 32; decide

/-- The lanes' tokens at a column inside the row. -/
theorem gatTok_at (f : SB.Idx → BitVec 32) (rowv c : IVec S16 32) (x : S16.Idx) (r : ℕ) (hr : r < 128) (n : ℕ) (hn : n < 200)
    (er : (rowv x).toNat = r) (ec : (c x).toNat = n) : gatTok f rowv c x = rowTok f ⟨r, hr⟩ n := by
  subst er ec
  unfold gatTok rowTok
  rw [dif_pos ⟨hr, hn⟩, dif_pos hn]

/-- The lanes' rows of a group, as numbers. -/
theorem rows_toNat' (gi : ℕ) (hgi : gi < 8) (hI : S16.Iotas .scVector 32 [0]) (x : S16.Idx) :
    (addi (broadcast S16 (BitVec.ofNat 32 (16 * gi))) (iota .scVector S16 32 [0] hI) x).toNat = 16 * gi + (x 0).val := by
  have hx : ((x 0 : Fin 16) : ℕ) < 16 := (x 0).isLt
  have e : addi (broadcast S16 (BitVec.ofNat 32 (16 * gi))) (iota .scVector S16 32 [0] hI) x
      = BitVec.ofNat 32 (16 * gi + (x 0).val) := by
    show BitVec.ofNat 32 (16 * gi) + BitVec.ofNat 32 (0 * 16 + (x 0).val) = _
    rw [Nat.zero_mul, Nat.zero_add, ← BitVec.ofNat_add]
  rw [e, BitVec.toNat_ofNat]; omega

/-- A lane of a group, after the scan: its masks are its row's rules. -/
theorem lane_masks (f : SB.Idx → BitVec 32) (hf : ∀ j, (f j).toNat < 32) (g : S32.Idx → BitVec 32)
    (hg : ∀ t : Fin 32, g (ValueIdx.ix1 t) = if t.val = 6 ∨ t.val = 8 then 1#32 else if t.val = 7 ∨ t.val = 9 then 4294967295#32 else 0#32)
    (gi : ℕ) (hgi : gi < 8) (rowv : IVec S16 32) (hrow : ∀ x : S16.Idx, (rowv x).toNat = 16 * gi + (x 0).val)
    (lastv t197 t198 : IVec S16 32)
    (el : lastv = gatTok f rowv (broadcast S16 199#32))
    (e7 : t197 = gatTok f rowv (broadcast S16 197#32))
    (e8 : t198 = gatTok f rowv (broadcast S16 198#32))
    (x : S16.Idx) (r : Fin 128) (hr : r.val = 16 * gi + (x 0).val) :
    (mBr (st f g rowv lastv 25).2.1 x = 1#1 ↔ Cert.Spec.bracketHit (rowTok f r))
    ∧ (mRing (st f g rowv lastv 25).2.2.2 lastv x = 1#1 ↔ Cert.Spec.ringHit (rowTok f r))
    ∧ (mVal t197 t198 lastv x = 1#1 ↔ Cert.Spec.valHit (rowTok f r))
    ∧ lastv x = rowTok f r 199 := by
  have htok : ∀ (c : IVec S16 32) (n : ℕ), n < 200 → (c x).toNat = n → gatTok f rowv c x = rowTok f r n := by
    intro c n hn hc
    exact gatTok_at f rowv c x r.val r.isLt n hn ((hrow x).trans hr.symm) hc
  have hlast : lastv x = rowTok f r 199 := by rw [el]; exact htok _ 199 (by omega) rfl
  have h7 : t197 x = rowTok f r 197 := by rw [e7]; exact htok _ 197 (by omega) rfl
  have h8 : t198 x = rowTok f r 198 := by rw [e8]; exact htok _ 198 (by omega) rfl
  have hT : ∀ n, (rowTok f r n).toNat < 32 := rowTok_lt f hf r
  have hinv := inv_all f g rowv lastv x (rowTok f r) htok hlast hT hg 200 (Nat.le_refl _)
  have hst : st f g rowv lastv 25 = stepN f g rowv lastv 200 := st_eq_stepN f g rowv lastv 25
  rw [hst]
  exact ⟨mBr_at _ x _ hinv.dep, mRing_at _ lastv x _ (hT 199) hlast hinv.flag, mVal_at t197 t198 lastv x _ (hT 199) h7 h8 hlast, hlast⟩

/-- A group's stores, for any lane rows `rowv` that are `16·gi + lane`. -/
theorem group_core (f : SB.Idx → BitVec 32) (hf : ∀ j, (f j).toNat < 32)
    (g : S32.Idx → BitVec 32)
    (hg : ∀ t : Fin 32, g (ValueIdx.ix1 t) = if t.val = 6 ∨ t.val = 8 then 1#32 else if t.val = 7 ∨ t.val = 9 then 4294967295#32 else 0#32)
    (gi : ℕ) (hgi : gi < 8) (rowv : IVec S16 32) (hrow : ∀ x : S16.Idx, (rowv x).toNat = 16 * gi + (x 0).val)
    (lastv t197 t198 : IVec S16 32)
    (el : lastv = gatTok f rowv (broadcast S16 199#32))
    (e7 : t197 = gatTok f rowv (broadcast S16 197#32))
    (e8 : t198 = gatTok f rowv (broadcast S16 198#32))
    (fo : Vec F SO .f32)
    (h25 : InB rowv (broadcast S16 25#32)) (hl : InB rowv lastv)
    (h10 : InB rowv (broadcast S16 10#32)) (h11 : InB rowv (broadcast S16 11#32)) (j : SO.Idx) :
    groupOut rowv lastv t197 t198 (st f g rowv lastv 25).2.1 (st f g rowv lastv 25).2.2.2 fo h25 hl h10 h11 j
      = if 16 * gi ≤ (j 0).val ∧ (j 0).val < 16 * gi + 16 then blockSpec f fo j else fo j := by
  unfold groupOut
  rw [store_at rowv _ gi hrow _ _ h11 j, store_at rowv _ gi hrow _ _ h10 j, store_at rowv _ gi hrow _ _ hl j,
    store_at rowv _ gi hrow _ _ h25 j]
  by_cases hin : 16 * gi ≤ (j 0).val ∧ (j 0).val < 16 * gi + 16
  · rw [if_pos hin]
    -- the one lane of the entry's row
    have hk : (j 0).val - 16 * gi < 16 := by omega
    obtain ⟨x, hx0⟩ : ∃ x : S16.Idx, ((x 0 : Fin 16) : ℕ) = (j 0).val - 16 * gi :=
      ⟨ValueIdx.ix1 (⟨(j 0).val - 16 * gi, hk⟩ : Fin 16), rfl⟩
    have hxr : (j 0).val = 16 * gi + (x 0).val := by rw [hx0]; omega
    obtain ⟨hB, hR, hV, hlast⟩ := lane_masks f hf g hg gi hgi rowv hrow lastv t197 t198 el e7 e8 x (j 0) hxr
    have hlane : ∀ (P : S16.Idx → Prop), (∃ x' : S16.Idx, 16 * gi + (x' 0).val = (j 0).val ∧ P x') ↔ P x := by
      intro P
      constructor
      · rintro ⟨x', h1, h2⟩
        have hxx : x' = x := by
          funext a
          obtain rfl : a = 0 := Subsingleton.elim _ _
          exact Fin.ext (by show ((x' 0 : Fin 16) : ℕ) = ((x 0 : Fin 16) : ℕ); omega)
        rw [← hxx]; exact h2
      · intro h; exact ⟨x, hxr.symm, h⟩
    have e25 : (broadcast S16 25#32 x).toNat = 25 := rfl
    have e10 : (broadcast S16 10#32 x).toNat = 10 := rfl
    have e11 : (broadcast S16 11#32 x).toNat = 11 := rfl
    simp only [hlane, hB, hR, hV, hlast, e25, e10, e11]
    unfold blockSpec
    refine four_adds (fun y => FloatOps.idxAddf y (Scalar.ofBits .f32 0xCE6E6B28#32)) (fo j)
      (Cert.Spec.bracketHit (rowTok f (j 0)) ∧ 25 = (j 1).val)
      (Cert.Spec.ringHit (rowTok f (j 0)) ∧ (rowTok f (j 0) 199).toNat = (j 1).val)
      (Cert.Spec.valHit (rowTok f (j 0)) ∧ 10 = (j 1).val) (Cert.Spec.valHit (rowTok f (j 0)) ∧ 11 = (j 1).val)
      (Cert.Spec.hit (rowTok f (j 0)) (j 1).val) ?_ ?_ ?_ ?_ ?_ ?_ ?_
    · rintro ⟨⟨_, a⟩, ⟨hr, b⟩⟩
      unfold Cert.Spec.ringHit Cert.Spec.isDigit at hr
      obtain ⟨⟨h15, h24⟩, _⟩ := hr
      omega
    · rintro ⟨⟨_, a⟩, ⟨_, b⟩⟩; omega
    · rintro ⟨⟨_, a⟩, ⟨_, b⟩⟩; omega
    · rintro ⟨⟨hr, a⟩, ⟨_, b⟩⟩
      unfold Cert.Spec.ringHit Cert.Spec.isDigit at hr
      obtain ⟨⟨h15, h24⟩, _⟩ := hr
      omega
    · rintro ⟨⟨hr, a⟩, ⟨_, b⟩⟩
      unfold Cert.Spec.ringHit Cert.Spec.isDigit at hr
      obtain ⟨⟨h15, h24⟩, _⟩ := hr
      omega
    · rintro ⟨⟨_, a⟩, ⟨_, b⟩⟩; omega
    · unfold Cert.Spec.hit
      constructor
      · rintro (⟨a, b⟩ | ⟨a, b⟩ | ⟨a, b | b⟩)
        · exact Or.inl ⟨a, b.symm⟩
        · exact Or.inr (Or.inl ⟨a, b.symm⟩)
        · exact Or.inr (Or.inr (Or.inl ⟨a, b.symm⟩))
        · exact Or.inr (Or.inr (Or.inr ⟨a, b.symm⟩))
      · rintro (⟨a, b⟩ | ⟨a, b⟩ | ⟨a, b⟩ | ⟨a, b⟩)
        · exact Or.inl ⟨a, b.symm⟩
        · exact Or.inr (Or.inl ⟨a, b.symm⟩)
        · exact Or.inr (Or.inr ⟨a, Or.inl b.symm⟩)
        · exact Or.inr (Or.inr ⟨a, Or.inr b.symm⟩)
  · rw [if_neg hin]
    have hno : ∀ (P : S16.Idx → Prop), ¬ ∃ x' : S16.Idx, 16 * gi + (x' 0).val = (j 0).val ∧ P x' := by
      rintro P ⟨x', h1, _⟩
      have hx' : ((x' 0 : Fin 16) : ℕ) < 16 := (x' 0).isLt
      exact hin ⟨by omega, by omega⟩
    rw [if_neg (hno _), if_neg (hno _), if_neg (hno _), if_neg (hno _)]

/-- The lanes' rows of group number `gi` (0 ≤ gi < 8): `16 gi + lane`. -/
def rowsOf (gi : ℕ) (h : S16.Iotas .scVector 32 [0]) : IVec S16 32 := addi (broadcast S16 (BitVec.ofNat 32 (16 * gi))) (iota .scVector S16 32 [0] h)

theorem group_spec (f : SB.Idx → BitVec 32) (hf : ∀ j, (f j).toNat < 32)
    (g : S32.Idx → BitVec 32)
    (hg : ∀ t : Fin 32, g (ValueIdx.ix1 t) = if t.val = 6 ∨ t.val = 8 then 1#32 else if t.val = 7 ∨ t.val = 9 then 4294967295#32 else 0#32)
    (gi : ℕ) (hgi : gi < 8) (hI : S16.Iotas .scVector 32 [0])
    (lastv t197 t198 : IVec S16 32)
    (el : lastv = gatTok f (rowsOf gi hI) (broadcast S16 199#32))
    (e7 : t197 = gatTok f (rowsOf gi hI) (broadcast S16 197#32))
    (e8 : t198 = gatTok f (rowsOf gi hI) (broadcast S16 198#32))
    (fo : Vec F SO .f32)
    (h25 : InB (rowsOf gi hI) (broadcast S16 25#32)) (hl : InB (rowsOf gi hI) lastv)
    (h10 : InB (rowsOf gi hI) (broadcast S16 10#32)) (h11 : InB (rowsOf gi hI) (broadcast S16 11#32)) (j : SO.Idx) :
    groupOut (rowsOf gi hI) lastv t197 t198 (st f g (rowsOf gi hI) lastv 25).2.1 (st f g (rowsOf gi hI) lastv 25).2.2.2 fo h25 hl h10 h11 j
      = if 16 * gi ≤ (j 0).val ∧ (j 0).val < 16 * gi + 16 then blockSpec f fo j else fo j :=
  group_core f hf g hg gi hgi (rowsOf gi hI) (fun x => rows_toNat' gi hgi hI x) lastv t197 t198 el e7 e8 fo h25 hl h10 h11 j

end Cert.KMath

end
-- ==== Proof.KMathBlock.lean ====
/-
  The eight groups of a block, one after the other. Group `gi` rewrites exactly the rows `16·gi … 16·gi + 15` to the
  specification of the logits it starts from and leaves the other rows; the specification of an entry depends on
  that entry's logit only, and the groups' rows are disjoint; so after group `gi` the rows below `16·(gi + 1)` hold
  the specification of the block's first logits and the rows from there on still hold those logits. After the eighth
  group that is every row.
-/
import proofs.«215955_g3427383902409_cont_8to1_b_1893_7_alg».proof.Proof.KMathLemmas

noncomputable section

namespace Cert.KMath

open Idealize.ShloMosaic
open Classical

variable {F : FTy → Type} [FloatOps F]

/-- Group number `gi` takes the block's logits from `fo` to `fo'`. -/
def GroupStep (f : SB.Idx → BitVec 32) (g : S32.Idx → BitVec 32) (hI : S16.Iotas .scVector 32 [0]) (gi : ℕ) (fo fo' : Vec F SO .f32) : Prop :=
  ∃ (lastv t197 t198 : IVec S16 32) (h25 : InB (rowsOf gi hI) (broadcast S16 25#32)) (hl : InB (rowsOf gi hI) lastv)
    (h10 : InB (rowsOf gi hI) (broadcast S16 10#32)) (h11 : InB (rowsOf gi hI) (broadcast S16 11#32)),
    lastv = gatTok f (rowsOf gi hI) (broadcast S16 199#32) ∧ t197 = gatTok f (rowsOf gi hI) (broadcast S16 197#32)
    ∧ t198 = gatTok f (rowsOf gi hI) (broadcast S16 198#32)
    ∧ fo' = groupOut (rowsOf gi hI) lastv t197 t198 (st f g (rowsOf gi hI) lastv 25).2.1 (st f g (rowsOf gi hI) lastv 25).2.2.2 fo h25 hl h10 h11

/-- One group extends the rows that hold the specification of the first logits by its sixteen. -/
theorem group_step_inv (f : SB.Idx → BitVec 32) (hf : ∀ j, (f j).toNat < 32) (g : S32.Idx → BitVec 32)
    (hg : ∀ t : Fin 32, g (ValueIdx.ix1 t) = if t.val = 6 ∨ t.val = 8 then 1#32 else if t.val = 7 ∨ t.val = 9 then 4294967295#32 else 0#32)
    (hI : S16.Iotas .scVector 32 [0]) (gi : ℕ) (hgi : gi < 8) (fo0 fo fo' : Vec F SO .f32)
    (s : GroupStep f g hI gi fo fo')
    (h : ∀ j : SO.Idx, fo j = if (j 0).val < 16 * gi then blockSpec f fo0 j else fo0 j) :
    ∀ j : SO.Idx, fo' j = if (j 0).val < 16 * (gi + 1) then blockSpec f fo0 j else fo0 j := by
  obtain ⟨lastv, t197, t198, h25, hl, h10, h11, el, e7, e8, e⟩ := s
  intro j
  rw [e, group_spec f hf g hg gi hgi hI lastv t197 t198 el e7 e8 fo h25 hl h10 h11 j]
  by_cases hin : 16 * gi ≤ (j 0).val ∧ (j 0).val < 16 * gi + 16
  · rw [if_pos hin, if_pos (by omega)]
    have hj : fo j = fo0 j := by rw [h j, if_neg (by omega)]
    show (if Cert.Spec.hit (rowTok f (j 0)) (j 1).val then FloatOps.idxAddf (fo j) (Scalar.ofBits .f32 0xCE6E6B28#32) else fo j)
      = (if Cert.Spec.hit (rowTok f (j 0)) (j 1).val then FloatOps.idxAddf (fo0 j) (Scalar.ofBits .f32 0xCE6E6B28#32) else fo0 j)
    rw [hj]
  · rw [if_neg hin, h j]
    by_cases hlt : (j 0).val < 16 * gi
    · rw [if_pos hlt, if_pos (by omega)]
    · rw [if_neg hlt, if_neg (by omega)]

theorem block_spec (f : SB.Idx → BitVec 32) (hf : ∀ j, (f j).toNat < 32) (g : S32.Idx → BitVec 32)
    (hg : ∀ t : Fin 32, g (ValueIdx.ix1 t) = if t.val = 6 ∨ t.val = 8 then 1#32 else if t.val = 7 ∨ t.val = 9 then 4294967295#32 else 0#32)
    (hI : S16.Iotas .scVector 32 [0]) (fo0 fo1 fo2 fo3 fo4 fo5 fo6 fo7 fo8 : Vec F SO .f32)
    (s0 : GroupStep f g hI 0 fo0 fo1) (s1 : GroupStep f g hI 1 fo1 fo2) (s2 : GroupStep f g hI 2 fo2 fo3) (s3 : GroupStep f g hI 3 fo3 fo4)
    (s4 : GroupStep f g hI 4 fo4 fo5) (s5 : GroupStep f g hI 5 fo5 fo6) (s6 : GroupStep f g hI 6 fo6 fo7) (s7 : GroupStep f g hI 7 fo7 fo8) :
    fo8 = blockSpec f fo0 := by
  have i0 : ∀ j : SO.Idx, fo0 j = if (j 0).val < 16 * 0 then blockSpec f fo0 j else fo0 j := fun j => by
    rw [if_neg (by omega)]
  have i1 := group_step_inv f hf g hg hI 0 (by omega) fo0 fo0 fo1 s0 i0
  have i2 := group_step_inv f hf g hg hI 1 (by omega) fo0 fo1 fo2 s1 i1
  have i3 := group_step_inv f hf g hg hI 2 (by omega) fo0 fo2 fo3 s2 i2
  have i4 := group_step_inv f hf g hg hI 3 (by omega) fo0 fo3 fo4 s3 i3
  have i5 := group_step_inv f hf g hg hI 4 (by omega) fo0 fo4 fo5 s4 i4
  have i6 := group_step_inv f hf g hg hI 5 (by omega) fo0 fo5 fo6 s5 i5
  have i7 := group_step_inv f hf g hg hI 6 (by omega) fo0 fo6 fo7 s6 i6
  have i8 := group_step_inv f hf g hg hI 7 (by omega) fo0 fo7 fo8 s7 i7
  funext j
  have hj : ((j 0 : Fin 128) : ℕ) < 128 := (j 0).isLt
  rw [i8 j, if_pos (by omega)]

end Cert.KMath

end
-- ==== Proof.KI.GroupBridge.lean ====
/-
  From what a group's four add-stores leave in the logits scratch to the group's step, as a pure fact. Each of the
  four is a store of the WHOLE scratch: the scratch is loaded whole, the constant is added under a mask at the
  lanes' (row, column) entries, and the result is stored back whole. A whole store over anything leaves exactly its
  payload, and a whole load after it reads exactly that payload; so the four, one after the other from contents
  `fo`, leave the fourth update of the third of the second of the first of `fo` — which, with the masks read as
  the bracket, ring and valence masks of the scan's final depth and flag, is the group's step.
-/
import proofs.«215955_g3427383902409_cont_8to1_b_1893_7_alg».proof.Proof.KI.Region
import proofs.«215955_g3427383902409_cont_8to1_b_1893_7_alg».proof.Proof.KMathBlock

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

open Cert.KMath (rowsOf gatTok st mBr mRing mVal negV InB groupOut GroupStep)

/-! ## Whole stores and whole loads of the logits scratch -/

/-- A store of the whole scratch, over anything, leaves its payload. -/
theorem writes_whole_cons (f : Vec F S128x32 .f32) (w : Vec F S128x32 .f32) (L : List (View.Piece (Elt F) S128x32 .f32)) :
    (sOut).view.writes (Elt F) f (⟨Rect.whole S128x32, w⟩ :: L) = w :=
  Memref.write_access_whole_univ (Elt F) cc0_scratch1 _ w

/-- A load of the whole scratch after such a store reads that payload. -/
theorem readCov_whole_cons (w : Vec F S128x32 .f32) (L : List (View.Piece (Elt F) S128x32 .f32)) :
    (sOut).view.readCov (⟨Rect.whole S128x32, w⟩ :: L) (LoadRect.whole S128x32) = w := by
  show View.readAt (Elt F) (sOut).view (LoadRect.whole S128x32) ((sOut).view.writes (Elt F) (sOut).view.junk (⟨Rect.whole S128x32, w⟩ :: L)) = w
  rw [writes_whole_cons]
  exact Memref.readAt_whole (Elt F) cc0_scratch1 w

/-- The first add-store of a run, from contents `fo`: load whole, update, store whole. -/
abbrev L1 (fo : Vec F S128x32 .f32) (p : Vec F S16 .f32) (i : Fin S128x32.rank → IVec S16 32) (mk : IVec S16 1)
    (h : ∀ a x, (i a x).toNat < S128x32.size a) : List (View.Piece (Elt F) S128x32 .f32) :=
  [⟨Rect.whole S128x32, storeIdx (View.readAt (Elt F) (sOut).view (LoadRect.whole S128x32) fo) i p mk true h⟩]
/-- A further add-store, after the stores `L`. -/
abbrev Lnext (L : List (View.Piece (Elt F) S128x32 .f32)) (p : Vec F S16 .f32) (i : Fin S128x32.rank → IVec S16 32) (mk : IVec S16 1)
    (h : ∀ a x, (i a x).toNat < S128x32.size a) : List (View.Piece (Elt F) S128x32 .f32) :=
  ⟨Rect.whole S128x32, storeIdx ((sOut).view.readCov L (LoadRect.whole S128x32)) i p mk true h⟩ :: L

/-- Four add-stores from `fo` leave the four updates of `fo`, nested in their order. -/
theorem bridge4 (fo : Vec F S128x32 .f32) (p1 p2 p3 p4 : Vec F S16 .f32) (i1 i2 i3 i4 : Fin S128x32.rank → IVec S16 32)
    (m1 m2 m3 m4 : IVec S16 1) (h1 : ∀ a x, (i1 a x).toNat < S128x32.size a) (h2 : ∀ a x, (i2 a x).toNat < S128x32.size a)
    (h3 : ∀ a x, (i3 a x).toNat < S128x32.size a) (h4 : ∀ a x, (i4 a x).toNat < S128x32.size a) :
    (sOut).view.writes (Elt F) (sOut).view.junk (Lnext (Lnext (Lnext (L1 fo p1 i1 m1 h1) p2 i2 m2 h2) p3 i3 m3 h3) p4 i4 m4 h4)
      = storeIdx (storeIdx (storeIdx (storeIdx fo i1 p1 m1 true h1) i2 p2 m2 true h2) i3 p3 m3 true h3) i4 p4 m4 true h4 := by
  have e : View.readAt (Elt F) (sOut).view (LoadRect.whole S128x32) fo = fo := Memref.readAt_whole (Elt F) cc0_scratch1 fo
  rw [writes_whole_cons, readCov_whole_cons, readCov_whole_cons, readCov_whole_cons, e]

/-! ## The side conditions of a group's add-stores -/

theorem rowsOf_lt (gi : ℕ) (hgi : gi < 8) (hI : S16.Iotas .scVector 32 [0]) (x : S16.Idx) : ((rowsOf gi hI) x).toNat < 128 := by
  have hx : (x 0).val < 16 := (x 0).isLt
  have e := Cert.KMath.rows_toNat' gi hgi hI x
  unfold Cert.KMath.rowsOf
  rw [e]; omega

theorem inB_const (gi : ℕ) (hgi : gi < 8) (hI : S16.Iotas .scVector 32 [0]) (c : ℕ) (hc : c < 32) :
    InB (rowsOf gi hI) (broadcast S16 (BitVec.ofNat 32 c)) :=
  chk2 _ _ (rowsOf_lt gi hgi hI) (fun x => by simp only [broadcast, BitVec.toNat_ofNat]; omega)

theorem inB_tok (gi : ℕ) (hgi : gi < 8) (hI : S16.Iotas .scVector 32 [0]) (t : IVec S16 32) (ht : ∀ x, (t x).toNat < 32) :
    InB (rowsOf gi hI) t :=
  chk2 _ _ (rowsOf_lt gi hgi hI) ht

/-! ## The group's step -/

/-- What the four add-stores of group `gi` leave, from `fo`, is the group's step — the masks those of the scan's final
    depth and flag, the columns 25, the last token's, 10 and 11. -/
theorem groupStep_of_writes (f : Vec F S128x200 .i32) (g : Vec F S32 .i32) (hI : S16.Iotas .scVector 32 [0]) (gi : ℕ)
    (fo fo' : Vec F S128x32 .f32) (lastv t197 t198 : IVec S16 32)
    (el : lastv = gatTok f (rowsOf gi hI) (broadcast S16 199#32)) (e7 : t197 = gatTok f (rowsOf gi hI) (broadcast S16 197#32))
    (e8 : t198 = gatTok f (rowsOf gi hI) (broadcast S16 198#32))
    (h25 : InB (rowsOf gi hI) (broadcast S16 25#32)) (hl : InB (rowsOf gi hI) lastv)
    (h10 : InB (rowsOf gi hI) (broadcast S16 10#32)) (h11 : InB (rowsOf gi hI) (broadcast S16 11#32))
    (hw : (sOut).view.writes (Elt F) (sOut).view.junk
        (Lnext (Lnext (Lnext (L1 fo negV ![rowsOf gi hI, broadcast S16 25#32] (mBr (st f g (rowsOf gi hI) lastv 25).2.1) h25)
            negV ![rowsOf gi hI, lastv] (mRing (st f g (rowsOf gi hI) lastv 25).2.2.2 lastv) hl)
          negV ![rowsOf gi hI, broadcast S16 10#32] (mVal t197 t198 lastv) h10)
        negV ![rowsOf gi hI, broadcast S16 11#32] (mVal t197 t198 lastv) h11) = fo') :
    GroupStep f g hI gi fo fo' :=
  ⟨lastv, t197, t198, h25, hl, h10, h11, el, e7, e8, hw.symm.trans (bridge4 fo _ _ _ _ _ _ _ _ _ _ _ _ _ _ _ _)⟩

/-- The lanes' tokens of group `gi` at the constant column `c`, as the task's indexed load of the token scratch reads them. -/
def ldTok (f : Vec F S128x200 .i32) (gi : ℕ) (hgi : gi < 8) (hI : S16.Iotas .scVector 32 [0]) (c : ℕ) (hc : c < 200) : IVec S16 32 :=
  loadIdx (View.readAt (Elt F) (sTok).view (LoadRect.whole S128x200) f) ![rowsOf gi hI, broadcast S16 (BitVec.ofNat 32 c)]
    (chk2 _ _ (rowsOf_lt gi hgi hI) (fun x => by simp only [broadcast, BitVec.toNat_ofNat]; omega))

theorem ldTok_eq (f : Vec F S128x200 .i32) (gi : ℕ) (hgi : gi < 8) (hI : S16.Iotas .scVector 32 [0]) (c : ℕ) (hc : c < 200) :
    ldTok f gi hgi hI c hc = gatTok f (rowsOf gi hI) (broadcast S16 (BitVec.ofNat 32 c)) :=
  loadIdx_tok f _ _ _

theorem ldTok_lt (f : Vec F S128x200 .i32) (hf : ∀ j, (f j).toNat < 32) (gi : ℕ) (hgi : gi < 8) (hI : S16.Iotas .scVector 32 [0]) (c : ℕ) (hc : c < 200)
    (x : S16.Idx) : (ldTok f gi hgi hI c hc x).toNat < 32 :=
  tok_lt hf _ _ x

/-- The same, with the last three tokens the task's own indexed loads and every side condition supplied: from the
    tokens' bound and the equation that names what the stores left. -/
theorem groupStep_exec (f : Vec F S128x200 .i32) (hf : ∀ j, (f j).toNat < 32) (g : Vec F S32 .i32) (hI : S16.Iotas .scVector 32 [0])
    (gi : ℕ) (hgi : gi < 8) (fo fo' : Vec F S128x32 .f32)
    (hw : (sOut).view.writes (Elt F) (sOut).view.junk
        (Lnext (Lnext (Lnext (L1 fo negV ![rowsOf gi hI, broadcast S16 25#32]
              (mBr (st f g (rowsOf gi hI) (ldTok f gi hgi hI 199 (by decide)) 25).2.1) (inB_const gi hgi hI 25 (by decide)))
            negV ![rowsOf gi hI, ldTok f gi hgi hI 199 (by decide)]
              (mRing (st f g (rowsOf gi hI) (ldTok f gi hgi hI 199 (by decide)) 25).2.2.2 (ldTok f gi hgi hI 199 (by decide)))
              (inB_tok gi hgi hI _ (ldTok_lt f hf gi hgi hI 199 (by decide))))
          negV ![rowsOf gi hI, broadcast S16 10#32]
            (mVal (ldTok f gi hgi hI 197 (by decide)) (ldTok f gi hgi hI 198 (by decide)) (ldTok f gi hgi hI 199 (by decide))) (inB_const gi hgi hI 10 (by decide)))
        negV ![rowsOf gi hI, broadcast S16 11#32]
          (mVal (ldTok f gi hgi hI 197 (by decide)) (ldTok f gi hgi hI 198 (by decide)) (ldTok f gi hgi hI 199 (by decide))) (inB_const gi hgi hI 11 (by decide))) = fo') :
    GroupStep f g hI gi fo fo' :=
  groupStep_of_writes f g hI gi fo fo' _ _ _ (ldTok_eq f gi hgi hI 199 (by decide)) (ldTok_eq f gi hgi hI 197 (by decide)) (ldTok_eq f gi hgi hI 198 (by decide))
    _ _ _ _ hw

/-! ## The same over any prior contents

A block's last group is followed by no scan, so what the four add-stores leave is stated over the scratch's contents
before them rather than over arbitrary ones. A whole store leaves its payload whatever was there, so nothing changes. -/

/-- Four add-stores from `fo`, over any prior contents `b`, leave the four updates of `fo`. -/
theorem bridge4_base (b fo : Vec F S128x32 .f32) (p1 p2 p3 p4 : Vec F S16 .f32) (i1 i2 i3 i4 : Fin S128x32.rank → IVec S16 32)
    (m1 m2 m3 m4 : IVec S16 1) (h1 : ∀ a x, (i1 a x).toNat < S128x32.size a) (h2 : ∀ a x, (i2 a x).toNat < S128x32.size a)
    (h3 : ∀ a x, (i3 a x).toNat < S128x32.size a) (h4 : ∀ a x, (i4 a x).toNat < S128x32.size a) :
    (sOut).view.writes (Elt F) b (Lnext (Lnext (Lnext (L1 fo p1 i1 m1 h1) p2 i2 m2 h2) p3 i3 m3 h3) p4 i4 m4 h4)
      = storeIdx (storeIdx (storeIdx (storeIdx fo i1 p1 m1 true h1) i2 p2 m2 true h2) i3 p3 m3 true h3) i4 p4 m4 true h4 := by
  have e : View.readAt (Elt F) (sOut).view (LoadRect.whole S128x32) fo = fo := Memref.readAt_whole (Elt F) cc0_scratch1 fo
  rw [writes_whole_cons, readCov_whole_cons, readCov_whole_cons, readCov_whole_cons, e]

/-- `groupStep_of_writes` with the stores stated over prior contents `b`. -/
theorem groupStep_of_writes_base (f : Vec F S128x200 .i32) (g : Vec F S32 .i32) (hI : S16.Iotas .scVector 32 [0]) (gi : ℕ)
    (b fo fo' : Vec F S128x32 .f32) (lastv t197 t198 : IVec S16 32)
    (el : lastv = gatTok f (rowsOf gi hI) (broadcast S16 199#32)) (e7 : t197 = gatTok f (rowsOf gi hI) (broadcast S16 197#32))
    (e8 : t198 = gatTok f (rowsOf gi hI) (broadcast S16 198#32))
    (h25 : InB (rowsOf gi hI) (broadcast S16 25#32)) (hl : InB (rowsOf gi hI) lastv)
    (h10 : InB (rowsOf gi hI) (broadcast S16 10#32)) (h11 : InB (rowsOf gi hI) (broadcast S16 11#32))
    (hw : (sOut).view.writes (Elt F) b
        (Lnext (Lnext (Lnext (L1 fo negV ![rowsOf gi hI, broadcast S16 25#32] (mBr (st f g (rowsOf gi hI) lastv 25).2.1) h25)
            negV ![rowsOf gi hI, lastv] (mRing (st f g (rowsOf gi hI) lastv 25).2.2.2 lastv) hl)
          negV ![rowsOf gi hI, broadcast S16 10#32] (mVal t197 t198 lastv) h10)
        negV ![rowsOf gi hI, broadcast S16 11#32] (mVal t197 t198 lastv) h11) = fo') :
    GroupStep f g hI gi fo fo' :=
  ⟨lastv, t197, t198, h25, hl, h10, h11, el, e7, e8, hw.symm.trans (bridge4_base b fo _ _ _ _ _ _ _ _ _ _ _ _ _ _ _ _)⟩

/-- `groupStep_exec` for a group after which no scan follows: the four add-stores are stated over the contents `fo`
    they started from. -/
theorem groupStep_exec7 (f : Vec F S128x200 .i32) (hf : ∀ j, (f j).toNat < 32) (g : Vec F S32 .i32) (hI : S16.Iotas .scVector 32 [0])
    (gi : ℕ) (hgi : gi < 8) (fo fo' : Vec F S128x32 .f32)
    (hw : (sOut).view.writes (Elt F) fo
        (Lnext (Lnext (Lnext (L1 fo negV ![rowsOf gi hI, broadcast S16 25#32]
              (mBr (st f g (rowsOf gi hI) (ldTok f gi hgi hI 199 (by decide)) 25).2.1) (inB_const gi hgi hI 25 (by decide)))
            negV ![rowsOf gi hI, ldTok f gi hgi hI 199 (by decide)]
              (mRing (st f g (rowsOf gi hI) (ldTok f gi hgi hI 199 (by decide)) 25).2.2.2 (ldTok f gi hgi hI 199 (by decide)))
              (inB_tok gi hgi hI _ (ldTok_lt f hf gi hgi hI 199 (by decide))))
          negV ![rowsOf gi hI, broadcast S16 10#32]
            (mVal (ldTok f gi hgi hI 197 (by decide)) (ldTok f gi hgi hI 198 (by decide)) (ldTok f gi hgi hI 199 (by decide))) (inB_const gi hgi hI 10 (by decide)))
        negV ![rowsOf gi hI, broadcast S16 11#32]
          (mVal (ldTok f gi hgi hI 197 (by decide)) (ldTok f gi hgi hI 198 (by decide)) (ldTok f gi hgi hI 199 (by decide))) (inB_const gi hgi hI 11 (by decide))) = fo') :
    GroupStep f g hI gi fo fo' :=
  groupStep_of_writes_base f g hI gi fo fo fo' _ _ _ (ldTok_eq f gi hgi hI 199 (by decide)) (ldTok_eq f gi hgi hI 197 (by decide)) (ldTok_eq f gi hgi hI 198 (by decide))
    _ _ _ _ hw

end Cert.Proof.KI

end
-- ==== Proof.KI.BlockGlobal.lean ====
/-
  From one block's result to the whole array. Block `b` of worker `L` is rows `[R, R + 128)` with
  `R = 1024 (L 1) + 512 (L 0) + 128 b` — the same rows of the token array, of the logits array and of the result.
  A slice of 128 whole rows at row `R` places its index `(r, n)` at `(R + r, n)` of the array. So: an entry `i` of the
  result inside the block is the slice's `(r, col)` with `i = (R + r, col)`; writing the whole slice puts the payload's
  entry `(r, col)` there; the payload is the block's masked logits, whose row `r` reads the token slice at `(r, n)`,
  which is the token array at `(R + r, n)` — row `i 0` of the array, the row the specification reads — and whose logit
  is the logits array's at `i`. Both sides are therefore the same choice, by the same rule of the same row, between
  the same logit and the same logit plus the constant.
-/
import proofs.«215955_g3427383902409_cont_8to1_b_1893_7_alg».proof.Proof.KI.LaunchBlocks
import proofs.«215955_g3427383902409_cont_8to1_b_1893_7_alg».proof.Proof.KMath
import proofs.«215955_g3427383902409_cont_8to1_b_1893_7_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## The worker's input slices, as its task slices them -/

abbrev tS0 (L : grid0.Coords) : Memref sig .scVector .hbm S128x200 .i32 := (tokV).slice (Rect.unit (s := S16384x200) (k0_off1 L) S128x200.size (k0_off1_inb L)) (fun _ => rfl)
abbrev tS1 (L : grid0.Coords) : Memref sig .scVector .hbm S128x200 .i32 := (tokV).slice (Rect.unit (s := S16384x200) (k0_off4 L) S128x200.size (k0_off4_inb L)) (fun _ => rfl)
abbrev tS2 (L : grid0.Coords) : Memref sig .scVector .hbm S128x200 .i32 := (tokV).slice (Rect.unit (s := S16384x200) (k0_off6 L) S128x200.size (k0_off6_inb L)) (fun _ => rfl)
abbrev tS3 (L : grid0.Coords) : Memref sig .scVector .hbm S128x200 .i32 := (tokV).slice (Rect.unit (s := S16384x200) (k0_off8 L) S128x200.size (k0_off8_inb L)) (fun _ => rfl)
abbrev xS0 (L : grid0.Coords) : Memref sig .scVector .hbm S128x32 .f32 := (logV).slice (Rect.unit (s := S16384x32) (k0_off2 L) S128x32.size (k0_off2_inb L)) (fun _ => rfl)
abbrev xS1 (L : grid0.Coords) : Memref sig .scVector .hbm S128x32 .f32 := (logV).slice (Rect.unit (s := S16384x32) (k0_off3 L 128#32) S128x32.size (k0_off3_inb L 1)) (fun _ => rfl)
abbrev xS2 (L : grid0.Coords) : Memref sig .scVector .hbm S128x32 .f32 := (logV).slice (Rect.unit (s := S16384x32) (k0_off5 L 256#32) S128x32.size (k0_off5_inb L 1)) (fun _ => rfl)
abbrev xS3 (L : grid0.Coords) : Memref sig .scVector .hbm S128x32 .f32 := (logV).slice (Rect.unit (s := S16384x32) (k0_off7 L 384#32) S128x32.size (k0_off7_inb L 1)) (fun _ => rfl)

/-! ## Where the blocks start -/

theorem tOff0_eq (L : grid0.Coords) : k0_off1 L = ![row0 L, 0] := by rw [k0_off1_eq]; rfl
theorem tOff1_eq (L : grid0.Coords) : k0_off4 L = ![row0 L + 128, 0] := by rw [k0_off4_eq]; rfl
theorem tOff2_eq (L : grid0.Coords) : k0_off6 L = ![row0 L + 256, 0] := by rw [k0_off6_eq]; rfl
theorem tOff3_eq (L : grid0.Coords) : k0_off8 L = ![row0 L + 384, 0] := by rw [k0_off8_eq]; rfl
theorem xOff0_eq (L : grid0.Coords) : k0_off2 L = ![row0 L, 0] := by rw [k0_off2_eq]; rfl
theorem xOff1_eq (L : grid0.Coords) : k0_off3 L 128#32 = ![row0 L + 128, 0] := by
  have h := k0_off3_eq L 1
  simpa [row0] using h
theorem xOff2_eq (L : grid0.Coords) : k0_off5 L 256#32 = ![row0 L + 256, 0] := by
  have h := k0_off5_eq L 1
  simpa [row0] using h
theorem xOff3_eq (L : grid0.Coords) : k0_off7 L 384#32 = ![row0 L + 384, 0] := by
  have h := k0_off7_eq L 1
  simpa [row0] using h

/-! ## Slices of 128 whole rows at a given row -/

/-- 128 rows of the token array from row `off 0`. -/
abbrev vT (off : Fin S16384x200.rank → ℕ) (inb : ∀ a, off a + S128x200.size a ≤ S16384x200.size a) : View sig .scVector .hbm S128x200 .i32 :=
  (View.whole (main_arg1_scv : Ref sig .scVector)).slice (Rect.unit (s := S16384x200) off S128x200.size inb)
/-- 128 rows of the logits array. -/
abbrev vX (off : Fin S16384x32.rank → ℕ) (inb : ∀ a, off a + S128x32.size a ≤ S16384x32.size a) : View sig .scVector .hbm S128x32 .f32 :=
  (View.whole (main_arg0_scv : Ref sig .scVector)).slice (Rect.unit (s := S16384x32) off S128x32.size inb)
/-- 128 rows of the result. -/
abbrev vO (off : Fin S16384x32.rank → ℕ) (inb : ∀ a, off a + S128x32.size a ≤ S16384x32.size a) : View sig .scVector .hbm S128x32 .f32 :=
  (View.whole (main_v0_scv : Ref sig .scVector)).slice (Rect.unit (s := S16384x32) off S128x32.size inb)

/-- A slice at row `R` places `(r, n)` at `(R + r, n)`: the coordinates, as numbers. -/
theorem vT_emb_val (R : ℕ) (inb) (j : S128x200.Idx) (a : Fin 2) :
    ((vT ![R, 0] inb).emb j a : ℕ) = (![R, 0] : Fin 2 → ℕ) a + (j a : ℕ) := by
  show (![R, 0] : Fin 2 → ℕ) a + 1 * (j a : ℕ) = _
  rw [Nat.one_mul]
theorem vO_emb_val (R : ℕ) (inb) (j : S128x32.Idx) (a : Fin 2) :
    ((vO ![R, 0] inb).emb j a : ℕ) = (![R, 0] : Fin 2 → ℕ) a + (j a : ℕ) := by
  show (![R, 0] : Fin 2 → ℕ) a + 1 * (j a : ℕ) = _
  rw [Nat.one_mul]

/-- The logits slice and the result slice at one row place an index at the same entry. -/
theorem vX_emb_eq (R : ℕ) (inbX inbO) (j : S128x32.Idx) : (vX ![R, 0] inbX).emb j = (vO ![R, 0] inbO).emb j := rfl

/-- The token slice's row `r` is the token array's row `R + r`. -/
theorem vT_emb_row (R : ℕ) (inbT inbO) (j : S128x32.Idx) (n : ℕ) (h : n < 200) :
    (vT ![R, 0] inbT).emb (ValueIdx.ix2 (j 0) ⟨n, h⟩) = ValueIdx.ix2 ((vO ![R, 0] inbO).emb j 0) ⟨n, h⟩ := by
  funext a
  apply Fin.ext
  rw [vT_emb_val]
  match a with
  | 0 => exact (vO_emb_val R inbO j 0).symm
  | 1 => show (0 : ℕ) + n = n; rw [Nat.zero_add]

/-- What is read through the token slice at row `r` is the specification's row `R + r` of the token array. -/
theorem rowTok_read (R : ℕ) (inbT inbO) (ft : Vec F S16384x200 .i32) (j : S128x32.Idx) :
    Cert.KMath.rowTok ((vT ![R, 0] inbT).read (Elt F) ft) (j 0) = Cert.Spec.tokAt ft ((vO ![R, 0] inbO).emb j 0) := by
  funext n
  unfold Cert.KMath.rowTok Cert.Spec.tokAt
  by_cases h : n < 200
  · rw [dif_pos h, dif_pos h]
    exact ((View.read_apply _ _).trans (cast_eq _ _)).trans (congrArg ft (vT_emb_row R inbT inbO j n h))
  · rw [dif_neg h, dif_neg h]

/-- The logit read through the logits slice at `(r, col)` is the logits array's at the result's entry. -/
theorem logit_read (R : ℕ) (inbX inbO) (fx : Vec F S16384x32 .f32) (j : S128x32.Idx) :
    (vX ![R, 0] inbX).read (Elt F) fx j = fx ((vO ![R, 0] inbO).emb j) :=
  ((View.read_apply _ _).trans (cast_eq _ _)).trans (congrArg fx (vX_emb_eq R inbX inbO j))

/-- The column of the result's entry is the slice's column. -/
theorem col_eq (R : ℕ) (inbO) (j : S128x32.Idx) : ((vO ![R, 0] inbO).emb j 1 : ℕ) = (j 1 : ℕ) := by
  rw [vO_emb_val]; show (0 : ℕ) + (j 1 : ℕ) = _; rw [Nat.zero_add]

/-- One block, at any row: the block's masked logits, written through the result's slice, are the masked logits of the
    whole arrays at every entry of the slice. -/
theorem block_core (R : ℕ) {offT : Fin S16384x200.rank → ℕ} {inbT} {offX : Fin S16384x32.rank → ℕ} {inbX} {offO : Fin S16384x32.rank → ℕ} {inbO}
    (hT : offT = ![R, 0]) (hX : offX = ![R, 0]) (hO : offO = ![R, 0])
    (ft : Vec F S16384x200 .i32) (fx fo : Vec F S16384x32 .f32) (i : S16384x32.Idx) (hi : i ∈ (vO offO inbO).set) :
    (vO offO inbO).write (Elt F) fo (Cert.KMath.blockSpec ((vT offT inbT).read (Elt F) ft) ((vX offX inbX).read (Elt F) fx)) Finset.univ i
      = Cert.Spec.G fx ft i := by
  subst hT hX hO
  obtain ⟨j, -, rfl⟩ := Finset.mem_map.mp hi
  refine ((View.write_emb_of_mem _ _ (Finset.mem_univ j)).trans (cast_eq _ _)).trans ?_
  unfold Cert.KMath.blockSpec Cert.Spec.G
  rw [rowTok_read R inbT inbO ft j, logit_read R inbX inbO fx j, col_eq R inbO j]

/-! ## The worker's four blocks -/

theorem block_global0 (L : grid0.Coords) (ft : Vec F S16384x200 .i32) (fx fo : Vec F S16384x32 .f32) (i : S16384x32.Idx) (hi : i ∈ (oS0 L).view.set) :
    (oS0 L).view.write (Elt F) fo (Cert.KMath.blockSpec ((tS0 L).view.read (Elt F) ft) ((xS0 L).view.read (Elt F) fx)) Finset.univ i
      = Cert.Spec.G fx ft i :=
  block_core (row0 L) (tOff0_eq L) (xOff0_eq L) (off0_eq L) ft fx fo i hi
theorem block_global1 (L : grid0.Coords) (ft : Vec F S16384x200 .i32) (fx fo : Vec F S16384x32 .f32) (i : S16384x32.Idx) (hi : i ∈ (oS1 L).view.set) :
    (oS1 L).view.write (Elt F) fo (Cert.KMath.blockSpec ((tS1 L).view.read (Elt F) ft) ((xS1 L).view.read (Elt F) fx)) Finset.univ i
      = Cert.Spec.G fx ft i :=
  block_core (row0 L + 128) (tOff1_eq L) (xOff1_eq L) (off1_eq L) ft fx fo i hi
theorem block_global2 (L : grid0.Coords) (ft : Vec F S16384x200 .i32) (fx fo : Vec F S16384x32 .f32) (i : S16384x32.Idx) (hi : i ∈ (oS2 L).view.set) :
    (oS2 L).view.write (Elt F) fo (Cert.KMath.blockSpec ((tS2 L).view.read (Elt F) ft) ((xS2 L).view.read (Elt F) fx)) Finset.univ i
      = Cert.Spec.G fx ft i :=
  block_core (row0 L + 256) (tOff2_eq L) (xOff2_eq L) (off2_eq L) ft fx fo i hi
theorem block_global3 (L : grid0.Coords) (ft : Vec F S16384x200 .i32) (fx fo : Vec F S16384x32 .f32) (i : S16384x32.Idx) (hi : i ∈ (oS3 L).view.set) :
    (oS3 L).view.write (Elt F) fo (Cert.KMath.blockSpec ((tS3 L).view.read (Elt F) ft) ((xS3 L).view.read (Elt F) fx)) Finset.univ i
      = Cert.Spec.G fx ft i :=
  block_core (row0 L + 384) (tOff3_eq L) (xOff3_eq L) (off3_eq L) ft fx fo i hi

end Cert.Proof.KI

end
-- ==== Proof.KI.BlockValue.lean ====
/-
  One block's value. The eight groups of a block, chained, leave the specification of the block's first logits; the
  block's tokens are a slice of the token array, so every one is below 32 as the array's are; the table is the printed
  literal, whose entries are 1 at 6 and 8, the word -1 at 7 and 9, and 0 elsewhere; and the block's masked logits written
  through the result's slice are the specification of the whole arrays at every entry of the slice.
-/
import proofs.«215955_g3427383902409_cont_8to1_b_1893_7_alg».proof.Proof.KI.BlockGlobal
import proofs.«215955_g3427383902409_cont_8to1_b_1893_7_alg».proof.Proof.KMathBlock

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- The bracket-delta table, entry by entry. -/
theorem tbl_facts (d : Dev nD) (t : Fin 32) : (tblVal (F := F) d) (ValueIdx.ix1 t)
    = if t.val = 6 ∨ t.val = 8 then 1#32 else if t.val = 7 ∨ t.val = 9 then 4294967295#32 else 0#32 := by
  show lit0 (S32.rowMajor (ValueIdx.ix1 t)) = _
  rw [show S32.rowMajor (ValueIdx.ix1 t) = t from Fin.ext (Shape.rowMajor_val_one _)]
  revert t
  decide

theorem block_value0 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS0 L).view.read (Elt F) (m (tLoc d))) (efo : fo0 = (xS0 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (fm : Vec F S16384x32 .f32) (i : S16384x32.Idx) (hi : i ∈ (oS0 L).view.set) :
    View.write (Elt F) (oS0 L).view fm fo8 Finset.univ i = Cert.Spec.G (m (xLoc d)) (m (tLoc d)) i := by
  have hf : ∀ j, (ftok j).toNat < 32 := by
    intro j; rw [eft, View.read_apply]; simp only [cast_eq]; exact hpre _
  have hg : ∀ t : Fin 32, ftbl (ValueIdx.ix1 t)
      = if t.val = 6 ∨ t.val = 8 then 1#32 else if t.val = 7 ∨ t.val = 9 then 4294967295#32 else 0#32 := by
    intro t; rw [efb]; exact tbl_facts d t
  have e8 : fo8 = Cert.KMath.blockSpec ftok fo0 :=
    Cert.KMath.block_spec ftok hf ftbl hg iota_S16_d0_w32_scVector fo0 fo1 fo2 fo3 fo4 fo5 fo6 fo7 fo8 s0 s1 s2 s3 s4 s5 s6 s7
  rw [e8, eft, efo]
  exact block_global0 L (m (tLoc d)) (m (xLoc d)) fm i hi

theorem block_value1 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS1 L).view.read (Elt F) (m (tLoc d))) (efo : fo0 = (xS1 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (fm : Vec F S16384x32 .f32) (i : S16384x32.Idx) (hi : i ∈ (oS1 L).view.set) :
    View.write (Elt F) (oS1 L).view fm fo8 Finset.univ i = Cert.Spec.G (m (xLoc d)) (m (tLoc d)) i := by
  have hf : ∀ j, (ftok j).toNat < 32 := by
    intro j; rw [eft, View.read_apply]; simp only [cast_eq]; exact hpre _
  have hg : ∀ t : Fin 32, ftbl (ValueIdx.ix1 t)
      = if t.val = 6 ∨ t.val = 8 then 1#32 else if t.val = 7 ∨ t.val = 9 then 4294967295#32 else 0#32 := by
    intro t; rw [efb]; exact tbl_facts d t
  have e8 : fo8 = Cert.KMath.blockSpec ftok fo0 :=
    Cert.KMath.block_spec ftok hf ftbl hg iota_S16_d0_w32_scVector fo0 fo1 fo2 fo3 fo4 fo5 fo6 fo7 fo8 s0 s1 s2 s3 s4 s5 s6 s7
  rw [e8, eft, efo]
  exact block_global1 L (m (tLoc d)) (m (xLoc d)) fm i hi

theorem block_value2 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS2 L).view.read (Elt F) (m (tLoc d))) (efo : fo0 = (xS2 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (fm : Vec F S16384x32 .f32) (i : S16384x32.Idx) (hi : i ∈ (oS2 L).view.set) :
    View.write (Elt F) (oS2 L).view fm fo8 Finset.univ i = Cert.Spec.G (m (xLoc d)) (m (tLoc d)) i := by
  have hf : ∀ j, (ftok j).toNat < 32 := by
    intro j; rw [eft, View.read_apply]; simp only [cast_eq]; exact hpre _
  have hg : ∀ t : Fin 32, ftbl (ValueIdx.ix1 t)
      = if t.val = 6 ∨ t.val = 8 then 1#32 else if t.val = 7 ∨ t.val = 9 then 4294967295#32 else 0#32 := by
    intro t; rw [efb]; exact tbl_facts d t
  have e8 : fo8 = Cert.KMath.blockSpec ftok fo0 :=
    Cert.KMath.block_spec ftok hf ftbl hg iota_S16_d0_w32_scVector fo0 fo1 fo2 fo3 fo4 fo5 fo6 fo7 fo8 s0 s1 s2 s3 s4 s5 s6 s7
  rw [e8, eft, efo]
  exact block_global2 L (m (tLoc d)) (m (xLoc d)) fm i hi

theorem block_value3 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS3 L).view.read (Elt F) (m (tLoc d))) (efo : fo0 = (xS3 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (fm : Vec F S16384x32 .f32) (i : S16384x32.Idx) (hi : i ∈ (oS3 L).view.set) :
    View.write (Elt F) (oS3 L).view fm fo8 Finset.univ i = Cert.Spec.G (m (xLoc d)) (m (tLoc d)) i := by
  have hf : ∀ j, (ftok j).toNat < 32 := by
    intro j; rw [eft, View.read_apply]; simp only [cast_eq]; exact hpre _
  have hg : ∀ t : Fin 32, ftbl (ValueIdx.ix1 t)
      = if t.val = 6 ∨ t.val = 8 then 1#32 else if t.val = 7 ∨ t.val = 9 then 4294967295#32 else 0#32 := by
    intro t; rw [efb]; exact tbl_facts d t
  have e8 : fo8 = Cert.KMath.blockSpec ftok fo0 :=
    Cert.KMath.block_spec ftok hf ftbl hg iota_S16_d0_w32_scVector fo0 fo1 fo2 fo3 fo4 fo5 fo6 fo7 fo8 s0 s1 s2 s3 s4 s5 s6 s7
  rw [e8, eft, efo]
  exact block_global3 L (m (tLoc d)) (m (xLoc d)) fm i hi

end Cert.Proof.KI

end
-- ==== Proof.KI.BlockOut.lean ====
/-
  One block's value, as the copied-out block is spelt: one unmasked write through the whole rectangle of the result's
  slice. The whole rectangle places every index at itself, so at an entry of the slice that write is the slice's own
  write of the same payload; the rest is the block's value.
-/
import proofs.«215955_g3427383902409_cont_8to1_b_1893_7_alg».proof.Proof.KI.BlockValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- One write through the whole rectangle of a view is the view's write, at every element of the view. -/
theorem writes_whole_apply {κ : Kind} {sp : Space} {s : Shape} {e : EltTy} {Val : EltTy → Type}
    (v : View sig κ sp s e) (f : v.ty.Contents Val) (w : s.Idx → Val e) (i : v.ty.Idx) (hi : i ∈ v.set) :
    v.writes Val f [⟨Rect.whole s, w⟩] i = v.write Val f w Finset.univ i := by
  obtain ⟨y, -, rfl⟩ := Finset.mem_map.mp hi
  rw [View.writes_singleton]
  have e : v.emb y = (v.slice (Rect.whole s)).emb y := by
    show v.emb y = v.emb ((Rect.whole s).emb y)
    rw [Rect.emb_whole_apply]
  conv_lhs => rw [e, View.write_emb_of_mem _ _ (Finset.mem_univ _)]
  rw [View.write_emb_of_mem _ _ (Finset.mem_univ _)]

theorem block_out0 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS0 L).view.read (Elt F) (m (tLoc d))) (efo : fo0 = (xS0 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (base : Vec F S16384x32 .f32) (pay : Vec F S128x32 .f32) (hp : pay = fo8) (i : S16384x32.Idx) (hi : i ∈ (oS0 L).view.set) :
    View.writes (oS0 L).view (Elt F) base [⟨Rect.whole S128x32, pay⟩] i = Cert.Spec.G (m (xLoc d)) (m (tLoc d)) i := by
  subst hp
  rw [writes_whole_apply (oS0 L).view base pay i hi]
  exact block_value0 m d L hpre ftok ftbl fo0 fo1 fo2 fo3 fo4 fo5 fo6 fo7 pay eft efo efb s0 s1 s2 s3 s4 s5 s6 s7 base i hi

theorem block_out1 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS1 L).view.read (Elt F) (m (tLoc d))) (efo : fo0 = (xS1 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (base : Vec F S16384x32 .f32) (pay : Vec F S128x32 .f32) (hp : pay = fo8) (i : S16384x32.Idx) (hi : i ∈ (oS1 L).view.set) :
    View.writes (oS1 L).view (Elt F) base [⟨Rect.whole S128x32, pay⟩] i = Cert.Spec.G (m (xLoc d)) (m (tLoc d)) i := by
  subst hp
  rw [writes_whole_apply (oS1 L).view base pay i hi]
  exact block_value1 m d L hpre ftok ftbl fo0 fo1 fo2 fo3 fo4 fo5 fo6 fo7 pay eft efo efb s0 s1 s2 s3 s4 s5 s6 s7 base i hi

theorem block_out2 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS2 L).view.read (Elt F) (m (tLoc d))) (efo : fo0 = (xS2 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (base : Vec F S16384x32 .f32) (pay : Vec F S128x32 .f32) (hp : pay = fo8) (i : S16384x32.Idx) (hi : i ∈ (oS2 L).view.set) :
    View.writes (oS2 L).view (Elt F) base [⟨Rect.whole S128x32, pay⟩] i = Cert.Spec.G (m (xLoc d)) (m (tLoc d)) i := by
  subst hp
  rw [writes_whole_apply (oS2 L).view base pay i hi]
  exact block_value2 m d L hpre ftok ftbl fo0 fo1 fo2 fo3 fo4 fo5 fo6 fo7 pay eft efo efb s0 s1 s2 s3 s4 s5 s6 s7 base i hi

theorem block_out3 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS3 L).view.read (Elt F) (m (tLoc d))) (efo : fo0 = (xS3 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (base : Vec F S16384x32 .f32) (pay : Vec F S128x32 .f32) (hp : pay = fo8) (i : S16384x32.Idx) (hi : i ∈ (oS3 L).view.set) :
    View.writes (oS3 L).view (Elt F) base [⟨Rect.whole S128x32, pay⟩] i = Cert.Spec.G (m (xLoc d)) (m (tLoc d)) i := by
  subst hp
  rw [writes_whole_apply (oS3 L).view base pay i hi]
  exact block_value3 m d L hpre ftok ftbl fo0 fo1 fo2 fo3 fo4 fo5 fo6 fo7 pay eft efo efb s0 s1 s2 s3 s4 s5 s6 s7 base i hi

end Cert.Proof.KI

end
-- ==== Proof.KI.Body.lean ====
/-
  A worker's task, from what it is handed to what it hands back. The worker copies the bracket-delta table into its
  scratch once; then, for each of its four blocks of 128 rows: it copies the block's tokens and logits into scratch,
  runs eight groups of sixteen rows — per group three gathers of the rows' last three tokens, the scan of the 200
  columns (25 trips of 8, by its invariant: one trip is `region_ok`), three masks and four masked add-stores of the
  constant into the logits scratch — and copies the logits scratch out to its block of the result. Every gather is
  in range because the counter is `8 k` before trip `k` and every token is below 32 (the precondition); every copy is
  waited for before its buffers are touched again. The VALUE: after group `gi` the logits scratch is the group's
  step of what it was (`KMath.GroupStep`, read off the four whole-scratch stores); eight steps are the block's
  specification (`KMath.block_spec`), and a block copied out at its rows is the whole-array specification there
  (`block_out0..3`). So the worker hands back its four blocks holding the masked logits `Spec.G`.
-/
import proofs.«215955_g3427383902409_cont_8to1_b_1893_7_alg».proof.Proof.KI.Region
import proofs.«215955_g3427383902409_cont_8to1_b_1893_7_alg».proof.Proof.KI.GroupBridge
import proofs.«215955_g3427383902409_cont_8to1_b_1893_7_alg».proof.Proof.KI.BlockOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]
variable (d : Dev nD) (L : grid0.Coords)

/-! ## A worker's own semaphores and scratch -/

omit [FloatOps F] in
theorem scopedSet : (Finset.univ.filter fun sm : SemLoc sig => sm.isScoped Kind.scVector)
    = {SemLoc.dma cc0_scoped0.sem, SemLoc.dma cc0_scoped1.sem, SemLoc.dma cc0_scoped2.sem, SemLoc.dma cc0_scoped3.sem, SemLoc.dma cc0_scoped4.sem,
       SemLoc.dma cc0_scoped5.sem, SemLoc.dma cc0_scoped6.sem, SemLoc.dma cc0_scoped7.sem, SemLoc.dma cc0_scoped8.sem, SemLoc.dma cc0_scoped9.sem,
       SemLoc.dma cc0_scoped10.sem, SemLoc.dma cc0_scoped11.sem, SemLoc.dma cc0_scoped12.sem} := by decide

omit [FloatOps F] in
theorem ownSems0_V :
    (ownSems0 (thrV d L) : sProp 𝕄)
      = iprop(semVal (thrV d L, SemLoc.dma cc0_scoped0.sem) 0 ∗ semVal (thrV d L, SemLoc.dma cc0_scoped1.sem) 0 ∗ semVal (thrV d L, SemLoc.dma cc0_scoped2.sem) 0
          ∗ semVal (thrV d L, SemLoc.dma cc0_scoped3.sem) 0 ∗ semVal (thrV d L, SemLoc.dma cc0_scoped4.sem) 0 ∗ semVal (thrV d L, SemLoc.dma cc0_scoped5.sem) 0
          ∗ semVal (thrV d L, SemLoc.dma cc0_scoped6.sem) 0 ∗ semVal (thrV d L, SemLoc.dma cc0_scoped7.sem) 0 ∗ semVal (thrV d L, SemLoc.dma cc0_scoped8.sem) 0
          ∗ semVal (thrV d L, SemLoc.dma cc0_scoped9.sem) 0 ∗ semVal (thrV d L, SemLoc.dma cc0_scoped10.sem) 0 ∗ semVal (thrV d L, SemLoc.dma cc0_scoped11.sem) 0
          ∗ semVal (thrV d L, SemLoc.dma cc0_scoped12.sem) 0) := by
  rw [SparseCore.Cfg.ownSems0_eq]
  show (bigSep (Finset.univ.filter fun sm : SemLoc sig => sm.isScoped Kind.scVector) fun sm => semVal (thrV d L, sm) 0) = _
  rw [scopedSet]
  repeat rw [SparseCore.bigSep_insert' (by decide)]
  rw [bigSep_singleton]

omit [FloatOps F] in
/-- The three scratch buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The arrays as the worker's memrefs address them -/

omit [FloatOps F] in
theorem pts_tok (q : PosShare TreeShare) (f : Buf (Elt F) (tLoc d)) :
    ((tokV).view.loc (thrV d L) ↦{q} f : sProp 𝕄) = tLoc d ↦{q} f := by
  simp only [Memref.view_whole, View.set_whole]
omit [FloatOps F] in
theorem pts_log (q : PosShare TreeShare) (f : Buf (Elt F) (xLoc d)) :
    ((logV).view.loc (thrV d L) ↦{q} f : sProp 𝕄) = xLoc d ↦{q} f := by
  simp only [Memref.view_whole, View.set_whole]
omit [FloatOps F] in
theorem pts_tbl (q : PosShare TreeShare) (f : Buf (Elt F) (cLoc d)) :
    ((tblV).view.loc (thrV d L) ↦{q} f : sProp 𝕄) = cLoc d ↦{q} f := by
  simp only [Memref.view_whole, View.set_whole]

omit [FloatOps F] in
theorem pts_s6 (f : Buf (Elt F) ((thrV d L).loc cc0_scratch0)) :
    ((sTok).view.loc (thrV d L) ↦{fullShare} f : sProp 𝕄) = (thrV d L).loc cc0_scratch0 ↦{fullShare} f := rfl
omit [FloatOps F] in
theorem pts_s7 (f : Buf (Elt F) ((thrV d L).loc cc0_scratch1)) :
    ((sOut).view.loc (thrV d L) ↦{fullShare} f : sProp 𝕄) = (thrV d L).loc cc0_scratch1 ↦{fullShare} f := rfl
omit [FloatOps F] in
theorem pts_s8 (f : Buf (Elt F) ((thrV d L).loc cc0_scratch2)) :
    ((sTbl).view.loc (thrV d L) ↦{fullShare} f : sProp 𝕄) = (thrV d L).loc cc0_scratch2 ↦{fullShare} f := rfl
omit [FloatOps F] in
theorem pts_o0 (f : Buf (Elt F) (oLoc d)) :
    ((oS0 L).view.loc (thrV d L) ↦[(oS0 L).view.set]{fullShare} f : sProp 𝕄) = oLoc d ↦[(oS0 L).view.set]{fullShare} f := rfl
omit [FloatOps F] in
theorem pts_o1 (f : Buf (Elt F) (oLoc d)) :
    ((oS1 L).view.loc (thrV d L) ↦[(oS1 L).view.set]{fullShare} f : sProp 𝕄) = oLoc d ↦[(oS1 L).view.set]{fullShare} f := rfl
omit [FloatOps F] in
theorem pts_o2 (f : Buf (Elt F) (oLoc d)) :
    ((oS2 L).view.loc (thrV d L) ↦[(oS2 L).view.set]{fullShare} f : sProp 𝕄) = oLoc d ↦[(oS2 L).view.set]{fullShare} f := rfl
omit [FloatOps F] in
theorem pts_o3 (f : Buf (Elt F) (oLoc d)) :
    ((oS3 L).view.loc (thrV d L) ↦[(oS3 L).view.set]{fullShare} f : sProp 𝕄) = oLoc d ↦[(oS3 L).view.set]{fullShare} f := rfl

/-- The rows of group `gi` are rows of the block. -/
theorem rows_lt (gi : ℕ) (hgi : gi < 8) (x : S16.Idx) : ((Cert.KMath.rowsOf gi iota_S16_d0_w32_scVector) x).toNat < 128 := by
  have hx : (x 0).val < 16 := (x 0).isLt
  simp only [Cert.KMath.rowsOf, addi, IntOp.addi, broadcast, iota, List.foldl, BitVec.toNat_add, BitVec.toNat_ofNat]
  omega

/-- The side condition of an indexed access outside the scan: the group's rows with a constant column, or with the
    row's last token as the column of a logits row. -/
syntax "dchkM " term:max : tactic
macro_rules
  | `(tactic| dchkM $h) => `(tactic| first
    | exact chk2 _ _ (row_ok _ (by decide) _) (by first | colok | (with_reducible exact fun x => tok_lt $h _ _ x))
    | assumption)

omit [FloatOps F] in
theorem wr_tok (f w : Vec F S128x200 .i32) : View.write (Elt F) (sTok).view f w Finset.univ = w := View.write_whole_univ cc0_scratch0 f w
omit [FloatOps F] in
theorem wr_tbl (f w : Vec F S32 .i32) : View.write (Elt F) (sTbl).view f w Finset.univ = w := View.write_whole_univ cc0_scratch2 f w
omit [FloatOps F] in
theorem wr_out (f w : Vec F S128x32 .f32) : View.write (Elt F) (sOut).view f w Finset.univ = w := View.write_whole_univ cc0_scratch1 f w

/-- The lanes' tokens of group `gi` at the constant column `c`, as the body's indexed load of the token scratch. -/
def tokAtCol (ftok : Vec F S128x200 .i32) (gi : Fin 8) (c : ℕ) (hc : c < 200) : IVec S16 32 :=
  loadIdx (View.readAt (Elt F) (sTok).view (LoadRect.whole S128x200) ftok)
    ![Cert.KMath.rowsOf gi.val iota_S16_d0_w32_scVector, broadcast S16 (BitVec.ofNat 32 c)]
    (chk2 _ _ (rows_lt gi.val gi.isLt) (fun x => by
      simp only [broadcast, BitVec.toNat_ofNat]; omega))

/-- One stretch of the body: the indexed loads and stores ahead restated as whole-scratch loads and stores, then run. -/
syntax "adv " term:max : tactic
macro_rules
  | `(tactic| adv $h) => `(tactic| ((conv => rhs; simp only [vli_bind, vsi_bind]); sl_exec (disch := dchkM $h)))

omit [FloatOps F] in
/-- Whatever a scratch holds can be given a name. -/
theorem name_it (ℓ : Loc nD τ sig) (q : PosShare TreeShare) (W : Buf (Elt F) ℓ) :
    (ℓ ↦{q} W : sProp 𝕄) ⊢ iprop(∃ fo', ⌜W = fo'⌝ ∗ ℓ ↦{q} fo') := by
  iintro H; iexists W; isplitr
  · ipureintro; rfl
  · iexact H
omit [FloatOps F] in
/-- The same under a later whole write (the next block's logits copied in over it). -/
theorem name_inner (q : PosShare TreeShare) (W pay : Vec F S128x32 .f32) :
    ((sOut).view.loc (thrV d L) ↦{q} View.write (Elt F) (sOut).view W pay Finset.univ : sProp 𝕄)
      ⊢ iprop(∃ fo', ⌜W = fo'⌝ ∗ (sOut).view.loc (thrV d L) ↦{q} View.write (Elt F) (sOut).view fo' pay Finset.univ) := by
  iintro H; iexists W; isplitr
  · ipureintro; rfl
  · iexact H

/-- A worker's blocks hold the masked logits at their rows. -/
def Qv (m : (ℓ : Loc nD τ sig) → Buf (Elt F) ℓ) : (d : Dev nD) → grid0.Coords → Buf (Elt F) (oLoc d) → Prop :=
  fun d L f => ∀ i ∈ tset L, f i = Cert.Spec.G (m (xLoc d)) (m (tLoc d)) i

set_option maxHeartbeats 8000000 in
set_option maxRecDepth 100000 in
theorem tile_body (hF : (K (F := F)).Facts) (hpre : ∀ i, (m (tLoc d) i).toNat < 32)
    (O : CellTallies nD τ sig (HIx 1)) (W : Waits sig (HIx 1)) (hO : ∀ g, O g none = 0) :
    iprop(levAts (K (F := F)).L (K (F := F)).lev ∗ emp ∗ tileIn m d L
        ∗ scopedBufs (thrV d L) ∗ scopedSems0 (thrV d L) ∗ owes (thrV d L) O W)
      ⊢ wp frame (wpE (defs₀ (F := F)) 𝒱₀ (thrV d L) none) Set.univ
          (cc0_sc_kernel L tokV (Memref.isWhole_whole _) logV (Memref.isWhole_whole _) tblV (Memref.isWhole_whole _) outV (Memref.isWhole_whole _)
            sTok (Memref.isWhole_whole _) sOut (Memref.isWhole_whole _) sTbl (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12)
          fun _ => iprop(tileOut m (Qv m) d L ∗ scopedBufs (thrV d L) ∗ scopedSems0 (thrV d L)
            ∗ ∃ W', ⌜∀ p ∈ W', p ∈ W ∨ p.2 = none⌝ ∗ owes (thrV d L) O W') := by
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  unfold tileIn tileRd tileWr
  iintro ⟨#Hlv, -, ⟨⟨Htok, Hlog, Htbl⟩, ⟨Ho0, Ho1, Ho2, Ho3⟩⟩, ⟨⟨%f6, Hs6⟩, ⟨%f7, Hs7⟩, ⟨%f8, Hs8⟩, Hbufs⟩,
    ⟨Hm0, Hm1, Hm2, Hm3, Hm4, Hm5, Hm6, Hm7, Hm8, Hm9, Hm10, Hm11, Hm12⟩, HO⟩
  ihave Hmw := ((K (F := F)).mayWaits_none (thr := thrV d L) hO) $$ Hlv
  ihave Htok' := (Entails.of_eq (pts_tok (F := F) d L _ _).symm) $$ Htok
  ihave Hlog' := (Entails.of_eq (pts_log (F := F) d L _ _).symm) $$ Hlog
  ihave Htbl' := (Entails.of_eq (pts_tbl (F := F) d L _ _).symm) $$ Htbl
  ihave Hs6' := (Entails.of_eq (pts_s6 (F := F) d L _).symm) $$ Hs6
  ihave Hs7' := (Entails.of_eq (pts_s7 (F := F) d L _).symm) $$ Hs7
  ihave Hs8' := (Entails.of_eq (pts_s8 (F := F) d L _).symm) $$ Hs8
  ihave Ho0' := (Entails.of_eq (pts_o0 (F := F) d L _).symm) $$ Ho0
  ihave Ho1' := (Entails.of_eq (pts_o1 (F := F) d L _).symm) $$ Ho1
  ihave Ho2' := (Entails.of_eq (pts_o2 (F := F) d L _).symm) $$ Ho2
  ihave Ho3' := (Entails.of_eq (pts_o3 (F := F) d L _).symm) $$ Ho3
  sl_exec
  generalize hft0 : View.write (Elt F) sTok.view _ _ Finset.univ = ftok0
  generalize hfb : View.write (Elt F) sTbl.view _ _ Finset.univ = ftbl
  generalize hfo0 : View.write (Elt F) sOut.view _ _ Finset.univ = fo0_0
  have efb : ftbl = tblVal d := hfb.symm.trans (wr_tbl _ _)
  have eft0 : ftok0 = (tS0 L).view.read (Elt F) (m (tLoc d)) := hft0.symm.trans (wr_tok _ _)
  have efo0 : fo0_0 = (xS0 L).view.read (Elt F) (m (xLoc d)) := hfo0.symm.trans (wr_out _ _)
  have htok0 : ∀ j : S128x200.Idx, ((ftok0 : Vec F S128x200 .i32) j).toNat < 32 := by
    intro j; rw [eft0, View.read_apply]; simp only [cast_eq]; exact hpre _
  adv htok0
  try (adv htok0)
  -- block 0, group 0: the scan by its invariant, the masks, the four add-stores, on to the next scan; then the group's step
  sl_for (inv d L ftok0 ftbl (Cert.KMath.rowsOf 0 iota_S16_d0_w32_scVector) (tokAtCol ftok0 0 199 (by decide))) $$ [Hs6' Hs8']
  case region =>
    exact region_ok d L ftok0 htok0 ftbl (Cert.KMath.rowsOf 0 iota_S16_d0_w32_scVector) (rows_lt 0 (by decide)) (tokAtCol ftok0 0 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_1, %hfo0_1, Hs7'⟩
  have hs0_0 : Cert.KMath.GroupStep ftok0 ftbl iota_S16_d0_w32_scVector 0 fo0_0 fo0_1 :=
    groupStep_exec ftok0 htok0 ftbl iota_S16_d0_w32_scVector 0 (by decide) fo0_0 fo0_1 hfo0_1
  -- block 0, group 1: the scan by its invariant, the masks, the four add-stores, on to the next scan; then the group's step
  sl_for (inv d L ftok0 ftbl (Cert.KMath.rowsOf 1 iota_S16_d0_w32_scVector) (tokAtCol ftok0 1 199 (by decide))) $$ [Hs6' Hs8']
  case region =>
    exact region_ok d L ftok0 htok0 ftbl (Cert.KMath.rowsOf 1 iota_S16_d0_w32_scVector) (rows_lt 1 (by decide)) (tokAtCol ftok0 1 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_2, %hfo0_2, Hs7'⟩
  have hs0_1 : Cert.KMath.GroupStep ftok0 ftbl iota_S16_d0_w32_scVector 1 fo0_1 fo0_2 :=
    groupStep_exec ftok0 htok0 ftbl iota_S16_d0_w32_scVector 1 (by decide) fo0_1 fo0_2 hfo0_2
  -- block 0, group 2: the scan by its invariant, the masks, the four add-stores, on to the next scan; then the group's step
  sl_for (inv d L ftok0 ftbl (Cert.KMath.rowsOf 2 iota_S16_d0_w32_scVector) (tokAtCol ftok0 2 199 (by decide))) $$ [Hs6' Hs8']
  case region =>
    exact region_ok d L ftok0 htok0 ftbl (Cert.KMath.rowsOf 2 iota_S16_d0_w32_scVector) (rows_lt 2 (by decide)) (tokAtCol ftok0 2 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_3, %hfo0_3, Hs7'⟩
  have hs0_2 : Cert.KMath.GroupStep ftok0 ftbl iota_S16_d0_w32_scVector 2 fo0_2 fo0_3 :=
    groupStep_exec ftok0 htok0 ftbl iota_S16_d0_w32_scVector 2 (by decide) fo0_2 fo0_3 hfo0_3
  -- block 0, group 3: the scan by its invariant, the masks, the four add-stores, on to the next scan; then the group's step
  sl_for (inv d L ftok0 ftbl (Cert.KMath.rowsOf 3 iota_S16_d0_w32_scVector) (tokAtCol ftok0 3 199 (by decide))) $$ [Hs6' Hs8']
  case region =>
    exact region_ok d L ftok0 htok0 ftbl (Cert.KMath.rowsOf 3 iota_S16_d0_w32_scVector) (rows_lt 3 (by decide)) (tokAtCol ftok0 3 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_4, %hfo0_4, Hs7'⟩
  have hs0_3 : Cert.KMath.GroupStep ftok0 ftbl iota_S16_d0_w32_scVector 3 fo0_3 fo0_4 :=
    groupStep_exec ftok0 htok0 ftbl iota_S16_d0_w32_scVector 3 (by decide) fo0_3 fo0_4 hfo0_4
  -- block 0, group 4: the scan by its invariant, the masks, the four add-stores, on to the next scan; then the group's step
  sl_for (inv d L ftok0 ftbl (Cert.KMath.rowsOf 4 iota_S16_d0_w32_scVector) (tokAtCol ftok0 4 199 (by decide))) $$ [Hs6' Hs8']
  case region =>
    exact region_ok d L ftok0 htok0 ftbl (Cert.KMath.rowsOf 4 iota_S16_d0_w32_scVector) (rows_lt 4 (by decide)) (tokAtCol ftok0 4 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_5, %hfo0_5, Hs7'⟩
  have hs0_4 : Cert.KMath.GroupStep ftok0 ftbl iota_S16_d0_w32_scVector 4 fo0_4 fo0_5 :=
    groupStep_exec ftok0 htok0 ftbl iota_S16_d0_w32_scVector 4 (by decide) fo0_4 fo0_5 hfo0_5
  -- block 0, group 5: the scan by its invariant, the masks, the four add-stores, on to the next scan; then the group's step
  sl_for (inv d L ftok0 ftbl (Cert.KMath.rowsOf 5 iota_S16_d0_w32_scVector) (tokAtCol ftok0 5 199 (by decide))) $$ [Hs6' Hs8']
  case region =>
    exact region_ok d L ftok0 htok0 ftbl (Cert.KMath.rowsOf 5 iota_S16_d0_w32_scVector) (rows_lt 5 (by decide)) (tokAtCol ftok0 5 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_6, %hfo0_6, Hs7'⟩
  have hs0_5 : Cert.KMath.GroupStep ftok0 ftbl iota_S16_d0_w32_scVector 5 fo0_5 fo0_6 :=
    groupStep_exec ftok0 htok0 ftbl iota_S16_d0_w32_scVector 5 (by decide) fo0_5 fo0_6 hfo0_6
  -- block 0, group 6: the scan by its invariant, the masks, the four add-stores, on to the next scan; then the group's step
  sl_for (inv d L ftok0 ftbl (Cert.KMath.rowsOf 6 iota_S16_d0_w32_scVector) (tokAtCol ftok0 6 199 (by decide))) $$ [Hs6' Hs8']
  case region =>
    exact region_ok d L ftok0 htok0 ftbl (Cert.KMath.rowsOf 6 iota_S16_d0_w32_scVector) (rows_lt 6 (by decide)) (tokAtCol ftok0 6 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_7, %hfo0_7, Hs7'⟩
  have hs0_6 : Cert.KMath.GroupStep ftok0 ftbl iota_S16_d0_w32_scVector 6 fo0_6 fo0_7 :=
    groupStep_exec ftok0 htok0 ftbl iota_S16_d0_w32_scVector 6 (by decide) fo0_6 fo0_7 hfo0_7
  -- block 0, group 7: the scan by its invariant, the masks, the four add-stores, on to the next scan; then the group's step
  sl_for (inv d L ftok0 ftbl (Cert.KMath.rowsOf 7 iota_S16_d0_w32_scVector) (tokAtCol ftok0 7 199 (by decide))) $$ [Hs6' Hs8']
  case region =>
    exact region_ok d L ftok0 htok0 ftbl (Cert.KMath.rowsOf 7 iota_S16_d0_w32_scVector) (rows_lt 7 (by decide)) (tokAtCol ftok0 7 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_inner (F := F) d L _ _ _) $$ Hs7'
  icases Hx with ⟨%fo0_8, %hfo0_8, Hs7'⟩
  have hs0_7 : Cert.KMath.GroupStep ftok0 ftbl iota_S16_d0_w32_scVector 7 fo0_7 fo0_8 :=
    groupStep_exec7 ftok0 htok0 ftbl iota_S16_d0_w32_scVector 7 (by decide) fo0_7 fo0_8 hfo0_8
  -- block 1: its tokens and logits are in the scratch
  generalize hft1 : View.write (Elt F) sTok.view _ _ Finset.univ = ftok1
  generalize hfo1 : View.write (Elt F) sOut.view _ _ Finset.univ = fo1_0
  have eft1 : ftok1 = (tS1 L).view.read (Elt F) (m (tLoc d)) := hft1.symm.trans (wr_tok _ _)
  have efo1 : fo1_0 = (xS1 L).view.read (Elt F) (m (xLoc d)) := hfo1.symm.trans (wr_out _ _)
  have htok1 : ∀ j : S128x200.Idx, ((ftok1 : Vec F S128x200 .i32) j).toNat < 32 := by
    intro j; rw [eft1, View.read_apply]; simp only [cast_eq]; exact hpre _
  adv htok1
  try (adv htok1)
  -- block 1, group 0: the scan by its invariant, the masks, the four add-stores, on to the next scan; then the group's step
  sl_for (inv d L ftok1 ftbl (Cert.KMath.rowsOf 0 iota_S16_d0_w32_scVector) (tokAtCol ftok1 0 199 (by decide))) $$ [Hs6' Hs8']
  case region =>
    exact region_ok d L ftok1 htok1 ftbl (Cert.KMath.rowsOf 0 iota_S16_d0_w32_scVector) (rows_lt 0 (by decide)) (tokAtCol ftok1 0 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_1, %hfo1_1, Hs7'⟩
  have hs1_0 : Cert.KMath.GroupStep ftok1 ftbl iota_S16_d0_w32_scVector 0 fo1_0 fo1_1 :=
    groupStep_exec ftok1 htok1 ftbl iota_S16_d0_w32_scVector 0 (by decide) fo1_0 fo1_1 hfo1_1
  -- block 1, group 1: the scan by its invariant, the masks, the four add-stores, on to the next scan; then the group's step
  sl_for (inv d L ftok1 ftbl (Cert.KMath.rowsOf 1 iota_S16_d0_w32_scVector) (tokAtCol ftok1 1 199 (by decide))) $$ [Hs6' Hs8']
  case region =>
    exact region_ok d L ftok1 htok1 ftbl (Cert.KMath.rowsOf 1 iota_S16_d0_w32_scVector) (rows_lt 1 (by decide)) (tokAtCol ftok1 1 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_2, %hfo1_2, Hs7'⟩
  have hs1_1 : Cert.KMath.GroupStep ftok1 ftbl iota_S16_d0_w32_scVector 1 fo1_1 fo1_2 :=
    groupStep_exec ftok1 htok1 ftbl iota_S16_d0_w32_scVector 1 (by decide) fo1_1 fo1_2 hfo1_2
  -- block 1, group 2: the scan by its invariant, the masks, the four add-stores, on to the next scan; then the group's step
  sl_for (inv d L ftok1 ftbl (Cert.KMath.rowsOf 2 iota_S16_d0_w32_scVector) (tokAtCol ftok1 2 199 (by decide))) $$ [Hs6' Hs8']
  case region =>
    exact region_ok d L ftok1 htok1 ftbl (Cert.KMath.rowsOf 2 iota_S16_d0_w32_scVector) (rows_lt 2 (by decide)) (tokAtCol ftok1 2 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_3, %hfo1_3, Hs7'⟩
  have hs1_2 : Cert.KMath.GroupStep ftok1 ftbl iota_S16_d0_w32_scVector 2 fo1_2 fo1_3 :=
    groupStep_exec ftok1 htok1 ftbl iota_S16_d0_w32_scVector 2 (by decide) fo1_2 fo1_3 hfo1_3
  -- block 1, group 3: the scan by its invariant, the masks, the four add-stores, on to the next scan; then the group's step
  sl_for (inv d L ftok1 ftbl (Cert.KMath.rowsOf 3 iota_S16_d0_w32_scVector) (tokAtCol ftok1 3 199 (by decide))) $$ [Hs6' Hs8']
  case region =>
    exact region_ok d L ftok1 htok1 ftbl (Cert.KMath.rowsOf 3 iota_S16_d0_w32_scVector) (rows_lt 3 (by decide)) (tokAtCol ftok1 3 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_4, %hfo1_4, Hs7'⟩
  have hs1_3 : Cert.KMath.GroupStep ftok1 ftbl iota_S16_d0_w32_scVector 3 fo1_3 fo1_4 :=
    groupStep_exec ftok1 htok1 ftbl iota_S16_d0_w32_scVector 3 (by decide) fo1_3 fo1_4 hfo1_4
  -- block 1, group 4: the scan by its invariant, the masks, the four add-stores, on to the next scan; then the group's step
  sl_for (inv d L ftok1 ftbl (Cert.KMath.rowsOf 4 iota_S16_d0_w32_scVector) (tokAtCol ftok1 4 199 (by decide))) $$ [Hs6' Hs8']
  case region =>
    exact region_ok d L ftok1 htok1 ftbl (Cert.KMath.rowsOf 4 iota_S16_d0_w32_scVector) (rows_lt 4 (by decide)) (tokAtCol ftok1 4 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_5, %hfo1_5, Hs7'⟩
  have hs1_4 : Cert.KMath.GroupStep ftok1 ftbl iota_S16_d0_w32_scVector 4 fo1_4 fo1_5 :=
    groupStep_exec ftok1 htok1 ftbl iota_S16_d0_w32_scVector 4 (by decide) fo1_4 fo1_5 hfo1_5
  -- block 1, group 5: the scan by its invariant, the masks, the four add-stores, on to the next scan; then the group's step
  sl_for (inv d L ftok1 ftbl (Cert.KMath.rowsOf 5 iota_S16_d0_w32_scVector) (tokAtCol ftok1 5 199 (by decide))) $$ [Hs6' Hs8']
  case region =>
    exact region_ok d L ftok1 htok1 ftbl (Cert.KMath.rowsOf 5 iota_S16_d0_w32_scVector) (rows_lt 5 (by decide)) (tokAtCol ftok1 5 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_6, %hfo1_6, Hs7'⟩
  have hs1_5 : Cert.KMath.GroupStep ftok1 ftbl iota_S16_d0_w32_scVector 5 fo1_5 fo1_6 :=
    groupStep_exec ftok1 htok1 ftbl iota_S16_d0_w32_scVector 5 (by decide) fo1_5 fo1_6 hfo1_6
  -- block 1, group 6: the scan by its invariant, the masks, the four add-stores, on to the next scan; then the group's step
  sl_for (inv d L ftok1 ftbl (Cert.KMath.rowsOf 6 iota_S16_d0_w32_scVector) (tokAtCol ftok1 6 199 (by decide))) $$ [Hs6' Hs8']
  case region =>
    exact region_ok d L ftok1 htok1 ftbl (Cert.KMath.rowsOf 6 iota_S16_d0_w32_scVector) (rows_lt 6 (by decide)) (tokAtCol ftok1 6 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_7, %hfo1_7, Hs7'⟩
  have hs1_6 : Cert.KMath.GroupStep ftok1 ftbl iota_S16_d0_w32_scVector 6 fo1_6 fo1_7 :=
    groupStep_exec ftok1 htok1 ftbl iota_S16_d0_w32_scVector 6 (by decide) fo1_6 fo1_7 hfo1_7
  -- block 1, group 7: the scan by its invariant, the masks, the four add-stores, on to the next scan; then the group's step
  sl_for (inv d L ftok1 ftbl (Cert.KMath.rowsOf 7 iota_S16_d0_w32_scVector) (tokAtCol ftok1 7 199 (by decide))) $$ [Hs6' Hs8']
  case region =>
    exact region_ok d L ftok1 htok1 ftbl (Cert.KMath.rowsOf 7 iota_S16_d0_w32_scVector) (rows_lt 7 (by decide)) (tokAtCol ftok1 7 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_inner (F := F) d L _ _ _) $$ Hs7'
  icases Hx with ⟨%fo1_8, %hfo1_8, Hs7'⟩
  have hs1_7 : Cert.KMath.GroupStep ftok1 ftbl iota_S16_d0_w32_scVector 7 fo1_7 fo1_8 :=
    groupStep_exec7 ftok1 htok1 ftbl iota_S16_d0_w32_scVector 7 (by decide) fo1_7 fo1_8 hfo1_8
  -- block 2: its tokens and logits are in the scratch
  generalize hft2 : View.write (Elt F) sTok.view _ _ Finset.univ = ftok2
  generalize hfo2 : View.write (Elt F) sOut.view _ _ Finset.univ = fo2_0
  have eft2 : ftok2 = (tS2 L).view.read (Elt F) (m (tLoc d)) := hft2.symm.trans (wr_tok _ _)
  have efo2 : fo2_0 = (xS2 L).view.read (Elt F) (m (xLoc d)) := hfo2.symm.trans (wr_out _ _)
  have htok2 : ∀ j : S128x200.Idx, ((ftok2 : Vec F S128x200 .i32) j).toNat < 32 := by
    intro j; rw [eft2, View.read_apply]; simp only [cast_eq]; exact hpre _
  adv htok2
  try (adv htok2)
  -- block 2, group 0: the scan by its invariant, the masks, the four add-stores, on to the next scan; then the group's step
  sl_for (inv d L ftok2 ftbl (Cert.KMath.rowsOf 0 iota_S16_d0_w32_scVector) (tokAtCol ftok2 0 199 (by decide))) $$ [Hs6' Hs8']
  case region =>
    exact region_ok d L ftok2 htok2 ftbl (Cert.KMath.rowsOf 0 iota_S16_d0_w32_scVector) (rows_lt 0 (by decide)) (tokAtCol ftok2 0 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_1, %hfo2_1, Hs7'⟩
  have hs2_0 : Cert.KMath.GroupStep ftok2 ftbl iota_S16_d0_w32_scVector 0 fo2_0 fo2_1 :=
    groupStep_exec ftok2 htok2 ftbl iota_S16_d0_w32_scVector 0 (by decide) fo2_0 fo2_1 hfo2_1
  -- block 2, group 1: the scan by its invariant, the masks, the four add-stores, on to the next scan; then the group's step
  sl_for (inv d L ftok2 ftbl (Cert.KMath.rowsOf 1 iota_S16_d0_w32_scVector) (tokAtCol ftok2 1 199 (by decide))) $$ [Hs6' Hs8']
  case region =>
    exact region_ok d L ftok2 htok2 ftbl (Cert.KMath.rowsOf 1 iota_S16_d0_w32_scVector) (rows_lt 1 (by decide)) (tokAtCol ftok2 1 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_2, %hfo2_2, Hs7'⟩
  have hs2_1 : Cert.KMath.GroupStep ftok2 ftbl iota_S16_d0_w32_scVector 1 fo2_1 fo2_2 :=
    groupStep_exec ftok2 htok2 ftbl iota_S16_d0_w32_scVector 1 (by decide) fo2_1 fo2_2 hfo2_2
  -- block 2, group 2: the scan by its invariant, the masks, the four add-stores, on to the next scan; then the group's step
  sl_for (inv d L ftok2 ftbl (Cert.KMath.rowsOf 2 iota_S16_d0_w32_scVector) (tokAtCol ftok2 2 199 (by decide))) $$ [Hs6' Hs8']
  case region =>
    exact region_ok d L ftok2 htok2 ftbl (Cert.KMath.rowsOf 2 iota_S16_d0_w32_scVector) (rows_lt 2 (by decide)) (tokAtCol ftok2 2 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_3, %hfo2_3, Hs7'⟩
  have hs2_2 : Cert.KMath.GroupStep ftok2 ftbl iota_S16_d0_w32_scVector 2 fo2_2 fo2_3 :=
    groupStep_exec ftok2 htok2 ftbl iota_S16_d0_w32_scVector 2 (by decide) fo2_2 fo2_3 hfo2_3
  -- block 2, group 3: the scan by its invariant, the masks, the four add-stores, on to the next scan; then the group's step
  sl_for (inv d L ftok2 ftbl (Cert.KMath.rowsOf 3 iota_S16_d0_w32_scVector) (tokAtCol ftok2 3 199 (by decide))) $$ [Hs6' Hs8']
  case region =>
    exact region_ok d L ftok2 htok2 ftbl (Cert.KMath.rowsOf 3 iota_S16_d0_w32_scVector) (rows_lt 3 (by decide)) (tokAtCol ftok2 3 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_4, %hfo2_4, Hs7'⟩
  have hs2_3 : Cert.KMath.GroupStep ftok2 ftbl iota_S16_d0_w32_scVector 3 fo2_3 fo2_4 :=
    groupStep_exec ftok2 htok2 ftbl iota_S16_d0_w32_scVector 3 (by decide) fo2_3 fo2_4 hfo2_4
  -- block 2, group 4: the scan by its invariant, the masks, the four add-stores, on to the next scan; then the group's step
  sl_for (inv d L ftok2 ftbl (Cert.KMath.rowsOf 4 iota_S16_d0_w32_scVector) (tokAtCol ftok2 4 199 (by decide))) $$ [Hs6' Hs8']
  case region =>
    exact region_ok d L ftok2 htok2 ftbl (Cert.KMath.rowsOf 4 iota_S16_d0_w32_scVector) (rows_lt 4 (by decide)) (tokAtCol ftok2 4 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_5, %hfo2_5, Hs7'⟩
  have hs2_4 : Cert.KMath.GroupStep ftok2 ftbl iota_S16_d0_w32_scVector 4 fo2_4 fo2_5 :=
    groupStep_exec ftok2 htok2 ftbl iota_S16_d0_w32_scVector 4 (by decide) fo2_4 fo2_5 hfo2_5
  -- block 2, group 5: the scan by its invariant, the masks, the four add-stores, on to the next scan; then the group's step
  sl_for (inv d L ftok2 ftbl (Cert.KMath.rowsOf 5 iota_S16_d0_w32_scVector) (tokAtCol ftok2 5 199 (by decide))) $$ [Hs6' Hs8']
  case region =>
    exact region_ok d L ftok2 htok2 ftbl (Cert.KMath.rowsOf 5 iota_S16_d0_w32_scVector) (rows_lt 5 (by decide)) (tokAtCol ftok2 5 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_6, %hfo2_6, Hs7'⟩
  have hs2_5 : Cert.KMath.GroupStep ftok2 ftbl iota_S16_d0_w32_scVector 5 fo2_5 fo2_6 :=
    groupStep_exec ftok2 htok2 ftbl iota_S16_d0_w32_scVector 5 (by decide) fo2_5 fo2_6 hfo2_6
  -- block 2, group 6: the scan by its invariant, the masks, the four add-stores, on to the next scan; then the group's step
  sl_for (inv d L ftok2 ftbl (Cert.KMath.rowsOf 6 iota_S16_d0_w32_scVector) (tokAtCol ftok2 6 199 (by decide))) $$ [Hs6' Hs8']
  case region =>
    exact region_ok d L ftok2 htok2 ftbl (Cert.KMath.rowsOf 6 iota_S16_d0_w32_scVector) (rows_lt 6 (by decide)) (tokAtCol ftok2 6 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_7, %hfo2_7, Hs7'⟩
  have hs2_6 : Cert.KMath.GroupStep ftok2 ftbl iota_S16_d0_w32_scVector 6 fo2_6 fo2_7 :=
    groupStep_exec ftok2 htok2 ftbl iota_S16_d0_w32_scVector 6 (by decide) fo2_6 fo2_7 hfo2_7
  -- block 2, group 7: the scan by its invariant, the masks, the four add-stores, on to the next scan; then the group's step
  sl_for (inv d L ftok2 ftbl (Cert.KMath.rowsOf 7 iota_S16_d0_w32_scVector) (tokAtCol ftok2 7 199 (by decide))) $$ [Hs6' Hs8']
  case region =>
    exact region_ok d L ftok2 htok2 ftbl (Cert.KMath.rowsOf 7 iota_S16_d0_w32_scVector) (rows_lt 7 (by decide)) (tokAtCol ftok2 7 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_inner (F := F) d L _ _ _) $$ Hs7'
  icases Hx with ⟨%fo2_8, %hfo2_8, Hs7'⟩
  have hs2_7 : Cert.KMath.GroupStep ftok2 ftbl iota_S16_d0_w32_scVector 7 fo2_7 fo2_8 :=
    groupStep_exec7 ftok2 htok2 ftbl iota_S16_d0_w32_scVector 7 (by decide) fo2_7 fo2_8 hfo2_8
  -- block 3: its tokens and logits are in the scratch
  generalize hft3 : View.write (Elt F) sTok.view _ _ Finset.univ = ftok3
  generalize hfo3 : View.write (Elt F) sOut.view _ _ Finset.univ = fo3_0
  have eft3 : ftok3 = (tS3 L).view.read (Elt F) (m (tLoc d)) := hft3.symm.trans (wr_tok _ _)
  have efo3 : fo3_0 = (xS3 L).view.read (Elt F) (m (xLoc d)) := hfo3.symm.trans (wr_out _ _)
  have htok3 : ∀ j : S128x200.Idx, ((ftok3 : Vec F S128x200 .i32) j).toNat < 32 := by
    intro j; rw [eft3, View.read_apply]; simp only [cast_eq]; exact hpre _
  adv htok3
  try (adv htok3)
  -- block 3, group 0: the scan by its invariant, the masks, the four add-stores, on to the next scan; then the group's step
  sl_for (inv d L ftok3 ftbl (Cert.KMath.rowsOf 0 iota_S16_d0_w32_scVector) (tokAtCol ftok3 0 199 (by decide))) $$ [Hs6' Hs8']
  case region =>
    exact region_ok d L ftok3 htok3 ftbl (Cert.KMath.rowsOf 0 iota_S16_d0_w32_scVector) (rows_lt 0 (by decide)) (tokAtCol ftok3 0 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_1, %hfo3_1, Hs7'⟩
  have hs3_0 : Cert.KMath.GroupStep ftok3 ftbl iota_S16_d0_w32_scVector 0 fo3_0 fo3_1 :=
    groupStep_exec ftok3 htok3 ftbl iota_S16_d0_w32_scVector 0 (by decide) fo3_0 fo3_1 hfo3_1
  -- block 3, group 1: the scan by its invariant, the masks, the four add-stores, on to the next scan; then the group's step
  sl_for (inv d L ftok3 ftbl (Cert.KMath.rowsOf 1 iota_S16_d0_w32_scVector) (tokAtCol ftok3 1 199 (by decide))) $$ [Hs6' Hs8']
  case region =>
    exact region_ok d L ftok3 htok3 ftbl (Cert.KMath.rowsOf 1 iota_S16_d0_w32_scVector) (rows_lt 1 (by decide)) (tokAtCol ftok3 1 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_2, %hfo3_2, Hs7'⟩
  have hs3_1 : Cert.KMath.GroupStep ftok3 ftbl iota_S16_d0_w32_scVector 1 fo3_1 fo3_2 :=
    groupStep_exec ftok3 htok3 ftbl iota_S16_d0_w32_scVector 1 (by decide) fo3_1 fo3_2 hfo3_2
  -- block 3, group 2: the scan by its invariant, the masks, the four add-stores, on to the next scan; then the group's step
  sl_for (inv d L ftok3 ftbl (Cert.KMath.rowsOf 2 iota_S16_d0_w32_scVector) (tokAtCol ftok3 2 199 (by decide))) $$ [Hs6' Hs8']
  case region =>
    exact region_ok d L ftok3 htok3 ftbl (Cert.KMath.rowsOf 2 iota_S16_d0_w32_scVector) (rows_lt 2 (by decide)) (tokAtCol ftok3 2 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_3, %hfo3_3, Hs7'⟩
  have hs3_2 : Cert.KMath.GroupStep ftok3 ftbl iota_S16_d0_w32_scVector 2 fo3_2 fo3_3 :=
    groupStep_exec ftok3 htok3 ftbl iota_S16_d0_w32_scVector 2 (by decide) fo3_2 fo3_3 hfo3_3
  -- block 3, group 3: the scan by its invariant, the masks, the four add-stores, on to the next scan; then the group's step
  sl_for (inv d L ftok3 ftbl (Cert.KMath.rowsOf 3 iota_S16_d0_w32_scVector) (tokAtCol ftok3 3 199 (by decide))) $$ [Hs6' Hs8']
  case region =>
    exact region_ok d L ftok3 htok3 ftbl (Cert.KMath.rowsOf 3 iota_S16_d0_w32_scVector) (rows_lt 3 (by decide)) (tokAtCol ftok3 3 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_4, %hfo3_4, Hs7'⟩
  have hs3_3 : Cert.KMath.GroupStep ftok3 ftbl iota_S16_d0_w32_scVector 3 fo3_3 fo3_4 :=
    groupStep_exec ftok3 htok3 ftbl iota_S16_d0_w32_scVector 3 (by decide) fo3_3 fo3_4 hfo3_4
  -- block 3, group 4: the scan by its invariant, the masks, the four add-stores, on to the next scan; then the group's step
  sl_for (inv d L ftok3 ftbl (Cert.KMath.rowsOf 4 iota_S16_d0_w32_scVector) (tokAtCol ftok3 4 199 (by decide))) $$ [Hs6' Hs8']
  case region =>
    exact region_ok d L ftok3 htok3 ftbl (Cert.KMath.rowsOf 4 iota_S16_d0_w32_scVector) (rows_lt 4 (by decide)) (tokAtCol ftok3 4 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_5, %hfo3_5, Hs7'⟩
  have hs3_4 : Cert.KMath.GroupStep ftok3 ftbl iota_S16_d0_w32_scVector 4 fo3_4 fo3_5 :=
    groupStep_exec ftok3 htok3 ftbl iota_S16_d0_w32_scVector 4 (by decide) fo3_4 fo3_5 hfo3_5
  -- block 3, group 5: the scan by its invariant, the masks, the four add-stores, on to the next scan; then the group's step
  sl_for (inv d L ftok3 ftbl (Cert.KMath.rowsOf 5 iota_S16_d0_w32_scVector) (tokAtCol ftok3 5 199 (by decide))) $$ [Hs6' Hs8']
  case region =>
    exact region_ok d L ftok3 htok3 ftbl (Cert.KMath.rowsOf 5 iota_S16_d0_w32_scVector) (rows_lt 5 (by decide)) (tokAtCol ftok3 5 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_6, %hfo3_6, Hs7'⟩
  have hs3_5 : Cert.KMath.GroupStep ftok3 ftbl iota_S16_d0_w32_scVector 5 fo3_5 fo3_6 :=
    groupStep_exec ftok3 htok3 ftbl iota_S16_d0_w32_scVector 5 (by decide) fo3_5 fo3_6 hfo3_6
  -- block 3, group 6: the scan by its invariant, the masks, the four add-stores, on to the next scan; then the group's step
  sl_for (inv d L ftok3 ftbl (Cert.KMath.rowsOf 6 iota_S16_d0_w32_scVector) (tokAtCol ftok3 6 199 (by decide))) $$ [Hs6' Hs8']
  case region =>
    exact region_ok d L ftok3 htok3 ftbl (Cert.KMath.rowsOf 6 iota_S16_d0_w32_scVector) (rows_lt 6 (by decide)) (tokAtCol ftok3 6 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_7, %hfo3_7, Hs7'⟩
  have hs3_6 : Cert.KMath.GroupStep ftok3 ftbl iota_S16_d0_w32_scVector 6 fo3_6 fo3_7 :=
    groupStep_exec ftok3 htok3 ftbl iota_S16_d0_w32_scVector 6 (by decide) fo3_6 fo3_7 hfo3_7
  -- block 3, group 7: the scan by its invariant, the masks, the four add-stores, on to the next scan; then the group's step
  sl_for (inv d L ftok3 ftbl (Cert.KMath.rowsOf 7 iota_S16_d0_w32_scVector) (tokAtCol ftok3 7 199 (by decide))) $$ [Hs6' Hs8']
  case region =>
    exact region_ok d L ftok3 htok3 ftbl (Cert.KMath.rowsOf 7 iota_S16_d0_w32_scVector) (rows_lt 7 (by decide)) (tokAtCol ftok3 7 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_8, %hfo3_8, Hs7'⟩
  have hs3_7 : Cert.KMath.GroupStep ftok3 ftbl iota_S16_d0_w32_scVector 7 fo3_7 fo3_8 :=
    groupStep_exec7 ftok3 htok3 ftbl iota_S16_d0_w32_scVector 7 (by decide) fo3_7 fo3_8 hfo3_8
  -- the body has returned: what the worker hands back
  rw [wp_ret]; imodintro
  unfold tileOut tileRd tileWr
  isplitl [Htok' Hlog' Htbl' Ho0' Ho1' Ho2' Ho3']
  · isplitl [Htok' Hlog' Htbl']
    · isplitl [Htok']
      · iapply (Entails.of_eq (pts_tok (F := F) d L _ _)); iexact Htok'
      isplitl [Hlog']
      · iapply (Entails.of_eq (pts_log (F := F) d L _ _)); iexact Hlog'
      · iapply (Entails.of_eq (pts_tbl (F := F) d L _ _)); iexact Htbl'
    · iexists (Cert.Spec.G (m (xLoc d)) (m (tLoc d)))
      isplitr
      · ipureintro; intro i _; rfl
      isplitl [Ho0']
      · iapply (Entails.of_eq ((pointsTo_congr (fun i hi => block_out0 m d L hpre ftok0 ftbl fo0_0 fo0_1 fo0_2 fo0_3 fo0_4 fo0_5 fo0_6 fo0_7 fo0_8 eft0 efo0 efb
            hs0_0 hs0_1 hs0_2 hs0_3 hs0_4 hs0_5 hs0_6 hs0_7 _ _ hfo0_8 i hi)).trans (pts_o0 (F := F) d L _)))
        iexact Ho0'
      isplitl [Ho1']
      · iapply (Entails.of_eq ((pointsTo_congr (fun i hi => block_out1 m d L hpre ftok1 ftbl fo1_0 fo1_1 fo1_2 fo1_3 fo1_4 fo1_5 fo1_6 fo1_7 fo1_8 eft1 efo1 efb
            hs1_0 hs1_1 hs1_2 hs1_3 hs1_4 hs1_5 hs1_6 hs1_7 _ _ hfo1_8 i hi)).trans (pts_o1 (F := F) d L _)))
        iexact Ho1'
      isplitl [Ho2']
      · iapply (Entails.of_eq ((pointsTo_congr (fun i hi => block_out2 m d L hpre ftok2 ftbl fo2_0 fo2_1 fo2_2 fo2_3 fo2_4 fo2_5 fo2_6 fo2_7 fo2_8 eft2 efo2 efb
            hs2_0 hs2_1 hs2_2 hs2_3 hs2_4 hs2_5 hs2_6 hs2_7 _ _ hfo2_8 i hi)).trans (pts_o2 (F := F) d L _)))
        iexact Ho2'
      · iapply (Entails.of_eq ((pointsTo_congr (fun i hi => block_out3 m d L hpre ftok3 ftbl fo3_0 fo3_1 fo3_2 fo3_3 fo3_4 fo3_5 fo3_6 fo3_7 fo3_8 eft3 efo3 efb
            hs3_0 hs3_1 hs3_2 hs3_3 hs3_4 hs3_5 hs3_6 hs3_7 _ _ hfo3_8 i hi)).trans (pts_o3 (F := F) d L _)))
        iexact Ho3'
  isplitl [Hs6' Hs7' Hs8' Hbufs]
  · isplitl [Hs6']
    · iexists _; iapply (Entails.of_eq (pts_s6 (F := F) d L _)); iexact Hs6'
    isplitl [Hs7']
    · iexists _; iapply (Entails.of_eq (pts_s7 (F := F) d L _)); iexact Hs7'
    isplitl [Hs8']
    · iexists _; iapply (Entails.of_eq (pts_s8 (F := F) d L _)); iexact Hs8'
    · iexact Hbufs
  isplitl [Hm0 Hm1 Hm2 Hm3 Hm4 Hm5 Hm6 Hm7 Hm8 Hm9 Hm10 Hm11 Hm12]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    iexact Hm12
  iexists _
  isplitr
  swap
  · iexact HO
  · ipureintro
    intro p hp
    simp only [Finset.mem_insert] at hp
    rcases hp with rfl | rfl | rfl | rfl | rfl | rfl | rfl | rfl | rfl | rfl | rfl | rfl | rfl | hp
    all_goals first | exact .inl hp | exact .inr rfl

/-! ## The launch theorem's obligation -/

theorem defs₀_vector (c : Fin τ.nSC) (s : Fin τ.nSub) :
    defs₀ (F := F) (.scVector c s) 0 ()
      = SparseCore.onTile hcore0 hsub0 (fun c s => cc0_sc_kernel (coordsV c s)
          tokV (Memref.isWhole_whole _) logV (Memref.isWhole_whole _) tblV (Memref.isWhole_whole _) outV (Memref.isWhole_whole _)
          sTok (Memref.isWhole_whole _) sOut (Memref.isWhole_whole _) sTbl (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task obligation of the one call: every worker's body, from its share of the operands to its four blocks of
    the result holding the masked logits. -/
theorem tileObl (m : (ℓ : Loc nD τ sig) → Buf (Elt F) ℓ) (hpre : ∀ (d : Dev nD) i, (m (tLoc d) i).toNat < 32) :
    (K (F := F)).TileObl (D (F := F)) 𝒱 (P m (Qv m)) v₀ 0 := by
  intro d c i O W hO _ _
  simp only [show (P m (Qv m)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts (hpre d) O W hO).trans (wp_mono frame _ _ fun _ => obl_post)

end Cert.Proof.KI

end
-- ==== Proof.KB.Setup.lean ====
/-
  The launch of the masking kernel as the SparseCore launch theorem sees it. The device's thirty-two vector
  subcores (two SparseCores of sixteen) each own 512 consecutive rows of the batch: subcore `s` of SparseCore `c`
  is worker `2 s + c` and owns rows `[512 (2 s + c), 512 (2 s + c) + 512)`, which it treats as four blocks of 128
  rows. A worker only READS the token array, the logits array and the 32-entry bracket-delta table, so each is
  handed to it whole as one of thirty-two read shares; it WRITES only its own four 128-row blocks of the result,
  which it is handed outright. What a worker hands back is the same, its four result blocks now holding some
  contents of which a stated property `Q` holds (for the value claim: that they are the masked logits at its rows).
-/
import proofs.«215955_g3427383902409_cont_8to1_b_1893_7_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«215955_g3427383902409_cont_8to1_b_1893_7_alg».proof.Proof.Gen.Kernel
import proofs.«215955_g3427383902409_cont_8to1_b_1893_7_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The logits, the tokens, the step (never read), the bracket-delta table, the result: as locations of device `d`. -/
abbrev xLoc (d : Dev nD) : Loc nD τ sig := (SparseCore.T d).loc main_arg0
abbrev tLoc (d : Dev nD) : Loc nD τ sig := (SparseCore.T d).loc main_arg1
abbrev sLoc (d : Dev nD) : Loc nD τ sig := (SparseCore.T d).loc main_arg2
abbrev cLoc (d : Dev nD) : Loc nD τ sig := (SparseCore.T d).loc main_c
abbrev oLoc (d : Dev nD) : Loc nD τ sig := (SparseCore.T d).loc main_v0

/-- The table's contents: `+1` at the two opening brackets (tokens 6, 8), `-1` at the two closing ones (7, 9), else `0`. -/
def tblVal (d : Dev nD) : Buf (Elt F) (cLoc d) := fun i => lit0 (S32.rowMajor i)

variable [FloatOps F]

/-- The arrays as a vector subcore's memrefs address them. -/
abbrev tokV : Memref sig .scVector .hbm S16384x200 .i32 := Memref.whole main_arg1_scv
abbrev logV : Memref sig .scVector .hbm S16384x32 .f32 := Memref.whole main_arg0_scv
abbrev tblV : Memref sig .scVector .hbm S32 .i32 := Memref.whole main_c_scv
abbrev outV : Memref sig .scVector .hbm S16384x32 .f32 := Memref.whole main_v0_scv
/-- A worker's scratch: a block of tokens, a block of logits being masked, the table. -/
abbrev sTok : Memref sig .scVector .vmem S128x200 .i32 := Memref.whole cc0_scratch0
abbrev sOut : Memref sig .scVector .vmem S128x32 .f32 := Memref.whole cc0_scratch1
abbrev sTbl : Memref sig .scVector .vmem S32 .i32 := Memref.whole cc0_scratch2

/-! ## A worker's coordinates, its number, its four result blocks -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- A numbering of the thirty-two workers (which read share of the read-only arrays each is handed): `s + 16 c`. -/
def wid (L : grid0.Coords) : Fin 32 := ⟨(L 1).val + 16 * (L 0).val, by
  have h0 : (L 0).val < 2 := (L 0).isLt
  have h1 : (L 1).val < 16 := (L 1).isLt
  omega⟩

/-- The worker's four result blocks, as the body slices them out of the result array. -/
abbrev oS0 (L : grid0.Coords) : Memref sig .scVector .hbm S128x32 .f32 :=
  (outV).slice (Rect.unit (s := S16384x32) (k0_off3 L 0#32) S128x32.size (k0_off3_inb L 0)) (fun _ => rfl)
abbrev oS1 (L : grid0.Coords) : Memref sig .scVector .hbm S128x32 .f32 :=
  (outV).slice (Rect.unit (s := S16384x32) (k0_off5 L 128#32) S128x32.size (k0_off5_inb L 0)) (fun _ => rfl)
abbrev oS2 (L : grid0.Coords) : Memref sig .scVector .hbm S128x32 .f32 :=
  (outV).slice (Rect.unit (s := S16384x32) (k0_off7 L 256#32) S128x32.size (k0_off7_inb L 0)) (fun _ => rfl)
abbrev oS3 (L : grid0.Coords) : Memref sig .scVector .hbm S128x32 .f32 :=
  (outV).slice (Rect.unit (s := S16384x32) (k0_off9 L) S128x32.size (k0_off9_inb L)) (fun _ => rfl)

/-- What the call hands a worker of the three arrays it reads: one read share of each, whole. -/
def tileRd (d : Dev nD) (L : grid0.Coords) : sProp 𝕄 :=
  iprop((tLoc d ↦{Transfers.shareTok fullShare 32 (wid L)} m (tLoc d))
    ∗ (xLoc d ↦{Transfers.shareTok fullShare 32 (wid L)} m (xLoc d))
    ∗ (cLoc d ↦{Transfers.shareTok fullShare 32 (wid L)} tblVal d))

/-- The worker's four result blocks, each holding `f` at its rows. -/
def tileWr (d : Dev nD) (L : grid0.Coords) (f : Buf (Elt F) (oLoc d)) : sProp 𝕄 :=
  iprop((oLoc d ↦[(oS0 L).view.set]{fullShare} f) ∗ (oLoc d ↦[(oS1 L).view.set]{fullShare} f)
    ∗ (oLoc d ↦[(oS2 L).view.set]{fullShare} f) ∗ (oLoc d ↦[(oS3 L).view.set]{fullShare} f))

/-- What a worker is handed, and what it hands back: its result blocks, from the launch contents to some contents `f` of
    which `Q d L f` holds (what the worker's rows of the result are, stated by whoever proves the body). -/
def tileIn (d : Dev nD) (L : grid0.Coords) : sProp 𝕄 := iprop(tileRd m d L ∗ tileWr d L (m (oLoc d)))
def tileOut (Q : (d : Dev nD) → grid0.Coords → Buf (Elt F) (oLoc d) → Prop) (d : Dev nD) (L : grid0.Coords) : sProp 𝕄 :=
  iprop(tileRd m d L ∗ ∃ f, ⌜Q d L f⌝ ∗ tileWr d L f)

instance tileIn_storable (d : Dev nD) (L : grid0.Coords) : BI.Storable (upEmb : UEmb _ 𝕄) (tileIn m d L) := by
  unfold tileIn tileRd tileWr; infer_instance
instance tileOut_storable (Q : (d : Dev nD) → grid0.Coords → Buf (Elt F) (oLoc d) → Prop) (d : Dev nD) (L : grid0.Coords) : BI.Storable (upEmb : UEmb _ 𝕄) (tileOut m Q d L) := by
  unfold tileOut tileRd tileWr; infer_instance

theorem bound_zero : grid0.bound 0 = 2 := rfl
theorem bound_one : grid0.bound 1 = 16 := rfl

/-- The coordinates of task `i` of SparseCore `c` of the call. -/
abbrev Lof (c : Fin ((K (F := F)).nCore 0)) (i : Fin ((K (F := F)).nSub 0)) : grid0.Coords :=
  coordsV (Fin.cast (nCore_zero.trans bound_zero.symm) c) (Fin.cast (nSub_zero.trans bound_one.symm) i)

/-- The one call: a SparseCore is handed its sixteen workers' shares and blocks, each worker its own. -/
def P (Q : (d : Dev nD) → grid0.Coords → Buf (Elt F) (oLoc d) → Prop) : (K (F := F)).Pay (nD := nD) (Val := Elt F) (Name := ℕ) (U := UU) where
  st := fun q d c => match q with | 0 => bigSep Finset.univ fun i : Fin ((K (F := F)).nSub 0) => tileIn m d (Lof c i)
  dn := fun q d c => match q with | 0 => bigSep Finset.univ fun i : Fin ((K (F := F)).nSub 0) => tileOut m Q d (Lof c i)
  go := fun q d c i => match q with | 0 => tileIn m d (Lof c i)
  td := fun q d c i => match q with | 0 => tileOut m Q d (Lof c i)
  x := fun _ _ => iprop(emp)

instance P_storable (Q : (d : Dev nD) → grid0.Coords → Buf (Elt F) (oLoc d) → Prop) : (P (F := F) m Q).IsStorable where
  st q d c := match q with | 0 => (inferInstance : BI.Storable (upEmb : UEmb _ 𝕄) (bigSep Finset.univ fun i : Fin ((K (F := F)).nSub 0) => tileIn m d (Lof c i)))
  dn q d c := match q with | 0 => (inferInstance : BI.Storable (upEmb : UEmb _ 𝕄) (bigSep Finset.univ fun i : Fin ((K (F := F)).nSub 0) => tileOut m Q d (Lof c i)))
  go q d c i := match q with | 0 => (inferInstance : BI.Storable (upEmb : UEmb _ 𝕄) (tileIn m d (Lof c i)))
  td q d c i := match q with | 0 => (inferInstance : BI.Storable (upEmb : UEmb _ 𝕄) (tileOut m Q d (Lof c i)))

/-- The sequencer's split of what it is handed among its workers is the identity. -/
theorem vecSplit (Q : (d : Dev nD) → grid0.Coords → Buf (Elt F) (oLoc d) → Prop) : (K (F := F)).VecSplit' (P m Q) 0 := by
  intro d c
  show (bigSep Finset.univ fun i : Fin ((K (F := F)).nSub 0) => tileIn m d (Lof c i)) ⊢ |={Set.univ}=> iprop(
      (bigSep Finset.univ fun i : Fin ((K (F := F)).nSub 0) => tileIn m d (Lof c i))
      ∗ ((bigSep Finset.univ fun i : Fin ((K (F := F)).nSub 0) => tileOut m Q d (Lof c i))
          -∗ (bigSep Finset.univ fun i : Fin ((K (F := F)).nSub 0) => tileOut m Q d (Lof c i))))
  iintro H; imodintro
  isplitl [H]; · iexact H
  iintro H; iexact H

end Cert.Proof.KB

end
-- ==== Proof.KB.LaunchBlocks.lean ====
/-
  The arithmetic of the launch. The result array's 16384 rows are cut into 128 blocks of 128 rows; worker
  `(c, s)` — SparseCore `c`, vector subcore `s` — writes the four consecutive blocks that start at row
  `1024 s + 512 c`, i.e. rows `[512 (2 s + c), 512 (2 s + c) + 512)`. Distinct workers have distinct numbers
  `2 s + c < 32`, so their row ranges are disjoint, and every row `r < 16384` lies in the range of worker
  `s = r / 1024`, `c = (r / 512) mod 2`. The thirty-two read shares of an array are numbered `s + 16 c`,
  which is the value of the pair `(c, s)` under the standard bijection `Fin 2 × Fin 16 ≃ Fin 32`.
-/
import proofs.«215955_g3427383902409_cont_8to1_b_1893_7_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## A worker's rows -/

/-- The first row of worker `L`. -/
def row0 (L : grid0.Coords) : ℕ := 1024 * (L 1).val + 512 * (L 0).val

theorem L0_lt (L : grid0.Coords) : (L 0).val < 2 := (L 0).isLt
theorem L1_lt (L : grid0.Coords) : (L 1).val < 16 := (L 1).isLt

/-- Membership in a unit rectangle of 128 whole rows of the result, by the row. -/
theorem mem_rows {off : Fin S16384x32.rank → Nat} {inb} (r : ℕ) (h : off = ![r, 0]) (j : S16384x32.Idx) :
    j ∈ (Rect.unit (s := S16384x32) off S128x32.size inb).set ↔ r ≤ (j 0).val ∧ (j 0).val < r + 128 := by
  subst h
  rw [Rect.mem_set_unit]
  constructor
  · intro H; exact H 0
  · intro H a
    match a with
    | 0 => exact H
    | 1 => exact ⟨Nat.zero_le _, by have := (j 1).isLt; simpa using this⟩

theorem set_oS0 (L : grid0.Coords) : (oS0 L).view.set = (Rect.unit (s := S16384x32) (k0_off3 L 0#32) S128x32.size (k0_off3_inb L 0)).set :=
  View.set_slice_whole (main_v0_scv : Ref sig .scVector) _
theorem set_oS1 (L : grid0.Coords) : (oS1 L).view.set = (Rect.unit (s := S16384x32) (k0_off5 L 128#32) S128x32.size (k0_off5_inb L 0)).set :=
  View.set_slice_whole (main_v0_scv : Ref sig .scVector) _
theorem set_oS2 (L : grid0.Coords) : (oS2 L).view.set = (Rect.unit (s := S16384x32) (k0_off7 L 256#32) S128x32.size (k0_off7_inb L 0)).set :=
  View.set_slice_whole (main_v0_scv : Ref sig .scVector) _
theorem set_oS3 (L : grid0.Coords) : (oS3 L).view.set = (Rect.unit (s := S16384x32) (k0_off9 L) S128x32.size (k0_off9_inb L)).set :=
  View.set_slice_whole (main_v0_scv : Ref sig .scVector) _

theorem off0_eq (L : grid0.Coords) : k0_off3 L 0#32 = ![row0 L, 0] := by
  have h := k0_off3_eq L 0
  simpa [row0] using h
theorem off1_eq (L : grid0.Coords) : k0_off5 L 128#32 = ![row0 L + 128, 0] := by
  have h := k0_off5_eq L 0
  simpa [row0] using h
theorem off2_eq (L : grid0.Coords) : k0_off7 L 256#32 = ![row0 L + 256, 0] := by
  have h := k0_off7_eq L 0
  simpa [row0] using h
theorem off3_eq (L : grid0.Coords) : k0_off9 L = ![row0 L + 384, 0] := by
  rw [k0_off9_eq]; rfl

theorem mem_oS0 (L : grid0.Coords) (j : S16384x32.Idx) : j ∈ (oS0 L).view.set ↔ row0 L ≤ (j 0).val ∧ (j 0).val < row0 L + 128 := by
  rw [set_oS0]; exact mem_rows (row0 L) (off0_eq L) j
theorem mem_oS1 (L : grid0.Coords) (j : S16384x32.Idx) : j ∈ (oS1 L).view.set ↔ row0 L + 128 ≤ (j 0).val ∧ (j 0).val < row0 L + 128 + 128 := by
  rw [set_oS1]; exact mem_rows (row0 L + 128) (off1_eq L) j
theorem mem_oS2 (L : grid0.Coords) (j : S16384x32.Idx) : j ∈ (oS2 L).view.set ↔ row0 L + 256 ≤ (j 0).val ∧ (j 0).val < row0 L + 256 + 128 := by
  rw [set_oS2]; exact mem_rows (row0 L + 256) (off2_eq L) j
theorem mem_oS3 (L : grid0.Coords) (j : S16384x32.Idx) : j ∈ (oS3 L).view.set ↔ row0 L + 384 ≤ (j 0).val ∧ (j 0).val < row0 L + 384 + 128 := by
  rw [set_oS3]; exact mem_rows (row0 L + 384) (off3_eq L) j

/-- The rows of the result a worker writes: its four blocks. -/
def tset (L : grid0.Coords) : Finset S16384x32.Idx := (oS0 L).view.set ∪ (oS1 L).view.set ∪ (oS2 L).view.set ∪ (oS3 L).view.set

theorem mem_tset (L : grid0.Coords) (j : S16384x32.Idx) : j ∈ tset L ↔ row0 L ≤ (j 0).val ∧ (j 0).val < row0 L + 512 := by
  unfold tset
  rw [Finset.mem_union, Finset.mem_union, Finset.mem_union, mem_oS0, mem_oS1, mem_oS2, mem_oS3]
  omega

/-- The four blocks of one worker are pairwise disjoint. -/
theorem oS01_disjoint (L : grid0.Coords) : Disjoint (oS0 L).view.set (oS1 L).view.set :=
  Finset.disjoint_left.mpr fun j h0 h1 => by rw [mem_oS0] at h0; rw [mem_oS1] at h1; omega
theorem oS012_disjoint (L : grid0.Coords) : Disjoint ((oS0 L).view.set ∪ (oS1 L).view.set) (oS2 L).view.set :=
  Finset.disjoint_left.mpr fun j h0 h1 => by rw [Finset.mem_union, mem_oS0, mem_oS1] at h0; rw [mem_oS2] at h1; omega
theorem oS0123_disjoint (L : grid0.Coords) :
    Disjoint ((oS0 L).view.set ∪ (oS1 L).view.set ∪ (oS2 L).view.set) (oS3 L).view.set :=
  Finset.disjoint_left.mpr fun j h0 h1 => by rw [Finset.mem_union, Finset.mem_union, mem_oS0, mem_oS1, mem_oS2] at h0; rw [mem_oS3] at h1; omega

/-- Two workers that differ in a coordinate write disjoint rows. -/
theorem tset_disjoint (L L' : grid0.Coords) (h : (L 0).val ≠ (L' 0).val ∨ (L 1).val ≠ (L' 1).val) : Disjoint (tset L) (tset L') :=
  Finset.disjoint_left.mpr fun j h0 h1 => by
    rw [mem_tset] at h0 h1
    unfold row0 at h0 h1
    have := L0_lt L; have := L0_lt L'; have := L1_lt L; have := L1_lt L'
    omega

/-! ## The workers of the call, as pairs (SparseCore, task) -/

/-- The call's workers. -/
abbrev W : Type := Fin ((K (F := F)).nCore 0) × Fin ((K (F := F)).nSub 0)
/-- A worker's coordinates. -/
abbrev LW (p : W (F := F)) : grid0.Coords := Lof p.1 p.2

theorem LW0 (p : W (F := F)) : (LW p 0).val = p.1.val := rfl
theorem LW1 (p : W (F := F)) : (LW p 1).val = p.2.val := rfl

theorem tsetW_disjoint : ∀ p ∈ (Finset.univ : Finset (W (F := F))), ∀ p' ∈ (Finset.univ : Finset (W (F := F))), p ≠ p' → Disjoint (tset (LW p)) (tset (LW p')) :=
  fun p _ p' _ hne => tset_disjoint _ _ (by
    rw [LW0, LW0, LW1, LW1]
    by_contra hc
    have h0 : ¬ p.1.val ≠ p'.1.val ∧ ¬ p.2.val ≠ p'.2.val := not_or.mp hc
    exact hne (Prod.ext (Fin.ext (not_not.mp h0.1)) (Fin.ext (not_not.mp h0.2))))

/-- Every entry of the result lies in some worker's rows. -/
theorem tsetW_cover_mem (j : S16384x32.Idx) : ∃ p : W (F := F), j ∈ tset (LW p) := by
  have hj : (j 0).val < 16384 := (j 0).isLt
  refine ⟨(⟨((j 0).val / 512) % 2, Nat.mod_lt _ (by decide)⟩, ⟨(j 0).val / 1024, by show _ < 16; omega⟩), ?_⟩
  rw [mem_tset]; unfold row0; rw [LW0, LW1]
  show 1024 * ((j 0).val / 1024) + 512 * (((j 0).val / 512) % 2) ≤ (j 0).val ∧ (j 0).val < 1024 * ((j 0).val / 1024) + 512 * (((j 0).val / 512) % 2) + 512
  omega

theorem tsetW_cover : (Finset.univ : Finset (W (F := F))).biUnion (fun p => tset (LW p)) = Finset.univ :=
  Finset.eq_univ_of_forall fun j => by
    obtain ⟨p, hp⟩ := tsetW_cover_mem (F := F) j
    exact Finset.mem_biUnion.mpr ⟨p, Finset.mem_univ _, hp⟩

/-! ## Re-indexing: thirty-two numbered shares as one per worker -/

/-- The worker's number is its pair's value under the standard bijection. -/
theorem wid_LW (p : W (F := F)) : wid (LW p) = (finProdFinEquiv : Fin 2 × Fin 16 ≃ Fin (2 * 16)) p := Fin.ext rfl

/-- A family over the thirty-two numbers, as a family over the workers. -/
theorem bigSep_workers (Φ : Fin 32 → sProp 𝕄) :
    bigSep Finset.univ Φ = bigSep Finset.univ fun p : W (F := F) => Φ (wid (LW p)) := by
  rw [bigSep_univ_equiv (finProdFinEquiv : Fin 2 × Fin 16 ≃ Fin (2 * 16)) Φ]
  exact bigSep_congr fun p _ => congrArg Φ (wid_LW p).symm

/-- A family over the workers, SparseCore by SparseCore. -/
theorem bigSep_W (Φ : W (F := F) → sProp 𝕄) :
    bigSep Finset.univ Φ = bigSep Finset.univ fun c : Fin ((K (F := F)).nCore 0) => bigSep Finset.univ fun i : Fin ((K (F := F)).nSub 0) => Φ (c, i) :=
  bigSep_univ_prod Φ

end Cert.Proof.KB

end
-- ==== Proof.KB.Launch.lean ====
/-
  The launch of the masking kernel: from "each vector subcore's task is proved" to the run of the whole program.
  @main on the TensorCore writes the 32-entry bracket-delta table, then makes the one SparseCore call. Before the call
  it cuts what it holds for the thirty-two workers: of each array a worker only reads (tokens, logits, table) one of
  thirty-two read shares, the remainder kept aside; of the result, the worker's own 512 rows (its four blocks of 128),
  which are pairwise disjoint and together are the whole array. After the call the read shares come back unchanged and
  rejoin their remainders; each worker's rows come back at some contents of which the worker's stated property holds,
  and since the rows are disjoint and cover the array there is one contents of the whole result that agrees with each
  worker's on its rows. The final memory then reads: the three arguments as they were, and every entry of the result
  inside some worker's rows, at what that worker left there.
-/
import proofs.«215955_g3427383902409_cont_8to1_b_1893_7_alg».proof.Proof.KB.LaunchBlocks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

section Work

variable (m : (ℓ : Loc nD τ sig) → Buf (Elt F) ℓ) (ρ : Dev nD → PrngReg)
variable [FloatOps F]
variable (Q : (d : Dev nD) → grid0.Coords → Buf (Elt F) (oLoc d) → Prop)

/-! ## An array read by every worker: the remainder and one read share per worker -/

theorem shares_split (ℓ : Loc nD τ sig) (f : Buf (Elt F) ℓ) :
    (ℓ ↦{fullShare} f : sProp 𝕄)
      ⊢ iprop((ℓ ↦{Transfers.shareDrop fullShare 32} f) ∗ bigSep Finset.univ fun p : W (F := F) => ℓ ↦{Transfers.shareTok fullShare 32 (wid (LW p))} f) :=
  (Transfers.pointsTo_toks_split fullShare 32).trans
    (sep_mono_right (Entails.of_eq (bigSep_workers (F := F) (fun w : Fin 32 => (ℓ ↦{Transfers.shareTok fullShare 32 w} f : sProp 𝕄)))))

theorem shares_join (ℓ : Loc nD τ sig) (f : Buf (Elt F) ℓ) :
    iprop((ℓ ↦{Transfers.shareDrop fullShare 32} f) ∗ bigSep Finset.univ fun p : W (F := F) => ℓ ↦{Transfers.shareTok fullShare 32 (wid (LW p))} f)
      ⊢ (ℓ ↦{fullShare} f : sProp 𝕄) :=
  (sep_mono_right (Entails.of_eq (bigSep_workers (F := F) (fun w : Fin 32 => (ℓ ↦{Transfers.shareTok fullShare 32 w} f : sProp 𝕄))).symm)).trans
    (Transfers.pointsTo_toks_join fullShare 32)

/-! ## The result: each worker's four blocks are its rows; the workers' rows are the array -/

theorem sep4_assoc (A B C D : sProp 𝕄) : iprop(((A ∗ B) ∗ C) ∗ D) = iprop(A ∗ B ∗ C ∗ D) := by
  have e1 : iprop(((A ∗ B) ∗ C) ∗ D) ⊢ iprop(A ∗ B ∗ C ∗ D) := by
    iintro ⟨⟨⟨H0, H1⟩, H2⟩, H3⟩
    isplitl [H0]; · iexact H0
    isplitl [H1]; · iexact H1
    isplitl [H2] <;> iassumption
  have e2 : iprop(A ∗ B ∗ C ∗ D) ⊢ iprop(((A ∗ B) ∗ C) ∗ D) := by
    iintro ⟨H0, H1, H2, H3⟩
    isplitl [H0 H1 H2]
    · isplitl [H0 H1]
      · isplitl [H0] <;> iassumption
      · iexact H2
    · iexact H3
  exact BI.equiv_iff.mp ⟨e1, e2⟩

theorem tileWr_eq (d : Dev nD) (L : grid0.Coords) (f : Buf (Elt F) (oLoc d)) :
    (tileWr d L f : sProp 𝕄) = (oLoc d ↦[tset L]{fullShare} f) := by
  have h3 : (oLoc d ↦[(oS0 L).view.set ∪ (oS1 L).view.set ∪ (oS2 L).view.set ∪ (oS3 L).view.set]{fullShare} f : sProp 𝕄)
      ⊣⊢ iprop((oLoc d ↦[(oS0 L).view.set ∪ (oS1 L).view.set ∪ (oS2 L).view.set]{fullShare} f) ∗ oLoc d ↦[(oS3 L).view.set]{fullShare} f) :=
    pointsTo_union (oS0123_disjoint L)
  have h2 : (oLoc d ↦[(oS0 L).view.set ∪ (oS1 L).view.set ∪ (oS2 L).view.set]{fullShare} f : sProp 𝕄)
      ⊣⊢ iprop((oLoc d ↦[(oS0 L).view.set ∪ (oS1 L).view.set]{fullShare} f) ∗ oLoc d ↦[(oS2 L).view.set]{fullShare} f) :=
    pointsTo_union (oS012_disjoint L)
  have h1 : (oLoc d ↦[(oS0 L).view.set ∪ (oS1 L).view.set]{fullShare} f : sProp 𝕄)
      ⊣⊢ iprop((oLoc d ↦[(oS0 L).view.set]{fullShare} f) ∗ oLoc d ↦[(oS1 L).view.set]{fullShare} f) :=
    pointsTo_union (oS01_disjoint L)
  unfold tileWr tset
  rw [BI.equiv_iff.mp ⟨h3.1, h3.2⟩, BI.equiv_iff.mp ⟨h2.1, h2.2⟩, BI.equiv_iff.mp ⟨h1.1, h1.2⟩]
  exact (sep4_assoc _ _ _ _).symm

/-- The result whole is every worker's four blocks. -/
theorem out_blocks (d : Dev nD) (f : Buf (Elt F) (oLoc d)) :
    (oLoc d ↦{fullShare} f : sProp 𝕄) = bigSep Finset.univ fun p : W (F := F) => tileWr d (LW p) f := by
  rw [bigSep_congr fun (p : W (F := F)) _ => tileWr_eq (F := F) d (LW p) f,
    ← pointsTo_biUnion Finset.univ (ℓ := oLoc d) (fun p : W (F := F) => tset (LW p)) (tsetW_disjoint (F := F)), tsetW_cover]; try rfl

/-- What the workers hand back of the result — each its rows at some contents its property holds of — is the result
    whole at one contents that agrees with each worker's on its rows. -/
theorem out_join (d : Dev nD) :
    (bigSep Finset.univ fun p : W (F := F) => iprop(∃ f, ⌜Q d (LW p) f⌝ ∗ tileWr d (LW p) f))
      ⊢ (iprop(∃ g : Buf (Elt F) (oLoc d), ⌜∀ j, ∃ (L : grid0.Coords) (f : Buf (Elt F) (oLoc d)), Q d L f ∧ j ∈ tset L ∧ g j = f j⌝ ∗ oLoc d ↦{fullShare} g) : sProp 𝕄) := by
  refine (bigSep_exists_pi Finset.univ (fun (p : W (F := F)) (f : Buf (Elt F) (oLoc d)) => iprop(⌜Q d (LW p) f⌝ ∗ tileWr d (LW p) f))).trans ?_
  iintro ⟨%fs, H⟩
  ihave H' := (bigSep_pure_sep Finset.univ (fun p : W (F := F) => Q d (LW p) (fs p)) (fun p : W (F := F) => tileWr d (LW p) (fs p))) $$ H
  icases H' with ⟨%hQ, Hw⟩
  ihave Hw' := (Entails.of_eq (bigSep_congr fun (p : W (F := F)) _ => tileWr_eq (F := F) d (LW p) (fs p))) $$ Hw
  ihave Hg := (pointsTo_biUnion_join Finset.univ (fun p : W (F := F) => tset (LW p)) fs
      (fs (Fin.cast nCore_zero.symm 0, Fin.cast nSub_zero.symm 0)) (tsetW_disjoint (F := F))) $$ Hw'
  icases Hg with ⟨%g, %hg, Hg⟩
  rw [tsetW_cover]
  iexists g
  isplitr
  · ipureintro
    intro j
    obtain ⟨p, hp⟩ := tsetW_cover_mem (F := F) j
    exact ⟨LW p, fs p, hQ p (Finset.mem_univ p), hp, hg p (Finset.mem_univ p) j hp⟩
  · iexact Hg

/-! ## What the call takes and hands back, worker by worker -/

theorem st0_eq (d : Dev nD) :
    (bigSep Finset.univ fun c : Fin ((K (F := F)).nCore 0) => (P m Q).st 0 d c) = bigSep Finset.univ fun p : W (F := F) => tileIn m d (LW p) :=
  (bigSep_W (F := F) (fun p : W (F := F) => tileIn m d (LW p))).symm
theorem dn0_eq (d : Dev nD) :
    (bigSep Finset.univ fun c : Fin ((K (F := F)).nCore 0) => (P m Q).dn 0 d c) = bigSep Finset.univ fun p : W (F := F) => tileOut m Q d (LW p) :=
  (bigSep_W (F := F) (fun p : W (F := F) => tileOut m Q d (LW p))).symm

theorem tileIn_all (d : Dev nD) :
    (bigSep Finset.univ fun p : W (F := F) => tileIn m d (LW p))
      = iprop(((bigSep Finset.univ fun p : W (F := F) => tLoc d ↦{Transfers.shareTok fullShare 32 (wid (LW p))} m (tLoc d))
          ∗ (bigSep Finset.univ fun p : W (F := F) => xLoc d ↦{Transfers.shareTok fullShare 32 (wid (LW p))} m (xLoc d))
          ∗ (bigSep Finset.univ fun p : W (F := F) => cLoc d ↦{Transfers.shareTok fullShare 32 (wid (LW p))} tblVal d))
        ∗ bigSep Finset.univ fun p : W (F := F) => tileWr d (LW p) (m (oLoc d))) := by
  unfold tileIn tileRd
  rw [bigSep_sep', bigSep_sep', bigSep_sep']
theorem tileOut_all (d : Dev nD) :
    (bigSep Finset.univ fun p : W (F := F) => tileOut m Q d (LW p))
      = iprop(((bigSep Finset.univ fun p : W (F := F) => tLoc d ↦{Transfers.shareTok fullShare 32 (wid (LW p))} m (tLoc d))
          ∗ (bigSep Finset.univ fun p : W (F := F) => xLoc d ↦{Transfers.shareTok fullShare 32 (wid (LW p))} m (xLoc d))
          ∗ (bigSep Finset.univ fun p : W (F := F) => cLoc d ↦{Transfers.shareTok fullShare 32 (wid (LW p))} tblVal d))
        ∗ bigSep Finset.univ fun p : W (F := F) => iprop(∃ f, ⌜Q d (LW p) f⌝ ∗ tileWr d (LW p) f)) := by
  unfold tileOut tileRd
  rw [bigSep_sep', bigSep_sep', bigSep_sep']

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m Q).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev c' : DevRef τ sig := Proc.devRef .tc (main_c : Ref sig .tc)
/-- The table's constant. -/
abbrev opC : HloOp τ sig (Elt F) := StableHlo.nullary main_c (fun i => lit0 (S32.rowMajor i))
/-- The launch valuation. -/
abbrev V0 (d : Dev nD) : Valuation τ sig (Elt F) := fun b => m (d, b)

theorem unscopedBufs_eq (d : Dev nD) (Wv : (b : Ref sig .tc) → Buf (Elt F) ((d.tc : Thread nD τ).loc b)) :
    (unscopedBufs d Wv : sProp 𝕄) = iprop((xLoc d ↦{fullShare} Wv main_arg0) ∗ (tLoc d ↦{fullShare} Wv main_arg1) ∗ (sLoc d ↦{fullShare} Wv main_arg2)
      ∗ (cLoc d ↦{fullShare} Wv main_c) ∗ oLoc d ↦{fullShare} Wv main_v0) := by
  unfold unscopedBufs
  rw [show (Finset.univ.filter fun b : Ref sig .tc => ¬ b.isScoped) = {main_arg0, main_arg1, main_arg2, main_c, main_v0} by decide,
    SparseCore.bigSep_insert' (by decide), SparseCore.bigSep_insert' (by decide), SparseCore.bigSep_insert' (by decide),
    SparseCore.bigSep_insert' (by decide), bigSep_singleton]

theorem held_c (d : Dev nD) (Wv : Valuation τ sig (Elt F)) : (held (T d) {c'} Wv : sProp 𝕄) = (cLoc d ↦{fullShare} Wv c') := by
  unfold held; exact bigSep_singleton

/-- After the constant the table's buffer holds the table. -/
theorem held_c_after (d : Dev nD) : (held (T d) {c'} ((opC (F := F)).result (V0 m d)) : sProp 𝕄) = (cLoc d ↦{fullShare} tblVal d) := by
  rw [held_c]
  exact congrArg (fun f : Buf (Elt F) (cLoc d) => (cLoc d ↦{fullShare} f : sProp 𝕄)) (StableHlo.nullary_result main_c _ _ (V0 m d))

/-- What @main leaves the claim: the three arguments at their launch contents, the result at contents every entry of
    which is, inside some worker's rows, what that worker left. -/
def FIN (d : Dev nD) : sProp 𝕄 :=
  iprop((xLoc d ↦{fullShare} m (xLoc d)) ∗ (tLoc d ↦{fullShare} m (tLoc d)) ∗ (sLoc d ↦{fullShare} m (sLoc d))
    ∗ ∃ g : Buf (Elt F) (oLoc d), ⌜∀ j, ∃ (L : grid0.Coords) (f : Buf (Elt F) (oLoc d)), Q d L f ∧ j ∈ tset L ∧ g j = f j⌝ ∗ oLoc d ↦{fullShare} g)

/-- @main on device `d`'s TensorCore: the constant into the table, the shares and blocks cut, the call, the shares
    rejoined and the blocks gathered. -/
theorem hmain (κ : GSem nD τ sig → ℕ) (d : Dev nD) :
    iprop((K (F := F)).ctx EH (P m Q) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m Q d) := by
  unfold SparseCore.Cfg.tcRes
  rw [unscopedBufs_eq]
  simp only [main, wp_bind, wp_pure]
  iintro ⟨#Hctx, Hst, ⟨Hb, ⟨Hx, Ht, Hs, Hc, Ho⟩, -, -⟩, -⟩
  -- the constant into the table
  iapply (wp_hlo_within 𝒱 (SparseCore.T d) none Set.univ (op := opC) (S := {c'}) (Finset.Subset.refl _) (V := V0 m d)) $$ [Hb Hc]
  · isplitl [Hb]; · iexact Hb
    rw [held_c]; iexact Hc
  iintro ⟨Hb, Hheld⟩
  ihave Hc := (Entails.of_eq (held_c_after m d)) $$ Hheld
  rw [wp_ret]; imodintro
  -- the read shares and the result's blocks
  ihave Ht' := (shares_split (F := F) (tLoc d) _) $$ Ht
  icases Ht' with ⟨Htd, Hts⟩
  ihave Hx' := (shares_split (F := F) (xLoc d) _) $$ Hx
  icases Hx' with ⟨Hxd, Hxs⟩
  ihave Hc' := (shares_split (F := F) (cLoc d) _) $$ Hc
  icases Hc' with ⟨Hcd, Hcs⟩
  ihave Ho' := (Entails.of_eq (out_blocks (F := F) d _)) $$ Ho
  -- the call
  iapply ((K (F := F)).wp_run (D (F := F)) 𝒱 (EH := EH) (P := P m Q) κ d 0) $$ [Hst Hts Hxs Hcs Ho' Htd Hxd Hcd Hs]
  isplitr; · iexact Hctx
  isplitl [Hst]; · iexact Hst
  isplitl [Hts Hxs Hcs Ho']
  · rw [st0_eq, tileIn_all]
    isplitl [Hts Hxs Hcs]
    · isplitl [Hts]; · iexact Hts
      isplitl [Hxs]; · iexact Hxs
      iexact Hcs
    · iexact Ho'
  iintro ⟨Hst, Hdn⟩
  ihave Hdn' := (Entails.of_eq ((dn0_eq m Q d).trans (tileOut_all m Q d))) $$ Hdn
  icases Hdn' with ⟨⟨Hts, Hxs, Hcs⟩, Hout⟩
  ihave Ht := (shares_join (F := F) (tLoc d) _) $$ [Htd Hts]
  · isplitl [Htd] <;> iassumption
  ihave Hx := (shares_join (F := F) (xLoc d) _) $$ [Hxd Hxs]
  · isplitl [Hxd] <;> iassumption
  ihave Hg := (out_join Q d) $$ Hout
  imodintro
  isplitl [Hst]; · iexact Hst
  unfold FIN
  isplitl [Hx]; · iexact Hx
  isplitl [Ht]; · iexact Ht
  isplitl [Hs]; · iexact Hs
  iexact Hg

/-- What the final memory is read to say, device by device. -/
def fq (d : Dev nD) (s' : Phys nD τ sig (Elt F)) : Prop :=
  s'.mem.mem (xLoc d) = m (xLoc d) ∧ s'.mem.mem (tLoc d) = m (tLoc d) ∧ s'.mem.mem (sLoc d) = m (sLoc d)
    ∧ ∀ i, ∃ (L : grid0.Coords) (f : Buf (Elt F) (oLoc d)), Q d L f ∧ i ∈ tset L ∧ s'.mem.mem (oLoc d) i = f i

/-- The four arrays @main holds whole at the end are what the final memory holds there. -/
theorem hfin (d : Dev nD) (s' : Phys nD τ sig (Elt F)) : iprop(FIN m Q d ∗ SI s') ⊢ (⌜fq m Q d s'⌝ : sProp 𝕄) := by
  unfold FIN
  iintro ⟨⟨Hx, Ht, Hs, Hex⟩, HSI⟩
  icases Hex with ⟨%g, %hg, Ho⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h3, HSI, -⟩
  ihave H := (SI_pointsTo_agree (st := s') (ℓ := oLoc d) (I := Finset.univ) (q := fullShare) (f := g)) $$ [HSI Ho]
  · isplitl [HSI] <;> iassumption
  icases H with %h4
  ipureintro
  refine ⟨funext fun i => h1 i (Finset.mem_univ i), funext fun i => h2 i (Finset.mem_univ i), funext fun i => h3 i (Finset.mem_univ i), fun i => ?_⟩
  obtain ⟨L, f, hq, hi, e⟩ := hg i
  exact ⟨L, f, hq, hi, (h4 i (Finset.mem_univ i)).trans e⟩

end Work

/-! ## The program's run -/

/-- What the run leaves: the three arguments as they were, and every entry of the result inside some worker's block whose contents that worker's property holds of. -/
def QC (m : (ℓ : Loc nD τ sig) → Buf (Elt F) ℓ) (Q : (d : Dev nD) → grid0.Coords → Buf (Elt F) (oLoc d) → Prop) : PUnit × MemSt nD τ sig (Elt F) → Prop := fun r => ∀ c : Dev nD,
  r.2.mem (xLoc c) = m (xLoc c) ∧ r.2.mem (tLoc c) = m (tLoc c) ∧ r.2.mem (sLoc c) = m (sLoc c)
  ∧ ∀ i, ∃ (L : grid0.Coords) (f : Buf (Elt F) (oLoc c)), Q c L f ∧ i ∈ tset L ∧ r.2.mem (oLoc c) i = f i

theorem run_main [FloatOps F] [∀ e, Nonempty (Elt F e)] (m : (ℓ : Loc nD τ sig) → Buf (Elt F) ℓ) (ρ : Dev nD → PrngReg)
    (Q : (d : Dev nD) → grid0.Coords → Buf (Elt F) (oLoc d) → Prop)
    (htile : (K (F := F)).TileObl (D (F := F)) 𝒱 (P m Q) v₀ 0) :
    θ_run (Cert.Kernel.defs (F := F)) (Cert.Kernel.threads (F := F)) ⟨m, fun _ => 0, ρ⟩ (QC m Q) :=
  SparseCore.Cfg.θ_run_sc (K := K (F := F)) (D := D (F := F)) (𝒱 := 𝒱) (EH := EH) (P := P m Q) facts v₀
    (fun q hq => match q with | 0 => nomatch hq)
    (fun q _ => match q with | 0 => htile)
    (fun q _ => match q with | 0 => SparseCore.Cfg.VecSplit.of_plain (vecSplit m Q))
    m ρ main (fun _ => iprop(emp)) (FIN m Q) (u₀ (F := F)) (sep_elim_left.trans (hu₀ m Q)) (hmain m ρ Q) (fq m Q) (hfin m Q) (QC m Q) (fun _ h => h)

end Cert.Proof.KB

end
-- ==== Proof.KB.Region.lean ====
/-
  One trip of a group's scan. A group is sixteen rows of the worker's current 128-row token block; the scan carries
  four lane vectors (column counter, bracket depth, previous token, ring flag) and each trip advances them by eight
  columns: eight gathers of the lanes' tokens at the counter's column and eight gathers of their table entries.
  The invariant before trip `k` is that the carried vectors are the pure scan state `KMath.st … k` of the block's
  tokens and the table (in particular the counter is `8 k` in every lane, so every gather is inside the block, and
  every gathered token is below 32, so it names a table entry); the token block and the table are held and never
  written.
-/
import proofs.«215955_g3427383902409_cont_8to1_b_1893_7_alg».proof.Proof.KB.Setup
import proofs.«215955_g3427383902409_cont_8to1_b_1893_7_alg».proof.Proof.KMath

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

abbrev thrV (d : Dev nD) (L : grid0.Coords) : Thread nD τ := V d (cV L) (jV L)

/-- The indexed load and the indexed add-store of a worker's scratch, ahead of a continuation: a load of the whole
    scratch and the gather of what it read; a load, the scatter-add, and a store of the whole scratch. -/
theorem vli_bind {s t : Shape} {e : EltTy} {α : Type} (c : Fin τ.nSC) (i : Fin τ.nSub) (base : Memref sig .scVector .vmem s e)
    (idxs : Fin s.rank → IVec t 32) (h : ∀ a x, (idxs a x).toNat < s.size a) (hl : base.view.Loads)
    (k : Vec F t e → Prog (TpuEff nD τ sig (Elt F) Λ₀ (.scVector c i)) α) :
    SparseCore.vectorLoadIdx base idxs h hl >>= k = .op (.load base (.whole s) (View.loadsAt_whole hl)) fun f => k (loadIdx f idxs h) := rfl

theorem vsi_bind {s : Shape} {e : EltTy} {α : Type} {dd : Fin 1 → Nat} (c : Fin τ.nSC) (i : Fin τ.nSub) (base : Memref sig .scVector .vmem s e)
    (idxs : Fin s.rank → IVec ⟨1, dd⟩ 32) (v : Vec F ⟨1, dd⟩ e) (mask : IVec ⟨1, dd⟩ 1) (add : Bool)
    (h : ∀ a x, (idxs a x).toNat < s.size a) (hs : (base.access (.whole s)).Stores Finset.univ)
    (k : PUnit → Prog (TpuEff nD τ sig (Elt F) Λ₀ (.scVector c i)) α) :
    SparseCore.vectorStoreIdx base idxs v mask add h hs >>= k
      = .op (.load base (.whole s) (View.loadsAt_rect hs.loads)) fun f =>
        .op (.store base (.whole s) (storeIdx f idxs v mask add h) Finset.univ hs (.inl rfl)) k := rfl

/-- A gather out of a token block whose entries are all below 32 yields entries below 32. -/
theorem tok_lt {f : Vec F S128x200 .i32} (hf : ∀ j, (f j).toNat < 32)
    (idxs : Fin S128x200.rank → IVec S16 32) (h : ∀ a x, (idxs a x).toNat < S128x200.size a) (x : S16.Idx) :
    (loadIdx (View.readAt (Elt F) (sTok).view (LoadRect.whole S128x200) f) idxs h x).toNat < 32 := by
  have e : View.readAt (Elt F) (sTok).view (LoadRect.whole S128x200) f = f := Memref.readAt_whole (Elt F) cc0_scratch0 f
  rw [e]; exact hf _

/-- The sixteen rows of a group: a base row plus the lane number stays inside the block of 128. -/
theorem row_ok (c : BitVec 32) (hc : c.toNat + 15 < 128) (h : S16.Iotas .scVector 32 [0]) (x : S16.Idx) :
    ((addi (broadcast S16 c) (iota .scVector S16 32 [0] h)) x).toNat < 128 := by
  have hx : (x 0).val < 16 := (x 0).isLt
  simp only [addi, IntOp.addi, broadcast, iota, List.foldl, BitVec.toNat_add, BitVec.toNat_ofNat]
  omega

/-- A row-and-column index pair is inside a block when each coordinate is. -/
theorem chk2 {n0 n1 : ℕ} (r c : IVec S16 32) (hr : ∀ x, (r x).toNat < n0) (hc : ∀ x, (c x).toNat < n1) :
    ∀ (a : Fin 2) (x : S16.Idx), ((![r, c] : Fin 2 → IVec S16 32) a x).toNat < (⟨2, ![n0, n1]⟩ : Shape).size a
  | 0, x => hr x
  | 1, x => hc x

theorem chk1 {n0 : ℕ} (t : IVec S16 32) (ht : ∀ x, (t x).toNat < n0) :
    ∀ (a : Fin 1) (x : S16.Idx), ((![t] : Fin 1 → IVec S16 32) a x).toNat < (⟨1, ![n0]⟩ : Shape).size a
  | 0, x => ht x

/-! ## The indexed loads as total gathers -/

/-- An indexed load of the token scratch, its indices in range, is the total gather of the block's contents. -/
theorem loadIdx_tok (f : Vec F S128x200 .i32) (r c : IVec S16 32)
    (h : ∀ a x, ((![r, c] : Fin 2 → IVec S16 32) a x).toNat < S128x200.size a) :
    loadIdx (View.readAt (Elt F) (sTok).view (LoadRect.whole S128x200) f) ![r, c] h = Cert.KMath.gatTok f r c := by
  have e : View.readAt (Elt F) (sTok).view (LoadRect.whole S128x200) f = f := Memref.readAt_whole (Elt F) cc0_scratch0 f
  rw [e]
  funext x
  have h0 : (r x).toNat < 128 := h 0 x
  have h1 : (c x).toNat < 200 := h 1 x
  unfold loadIdx Cert.KMath.gatTok
  rw [dif_pos ⟨h0, h1⟩]
  congr 1
  funext a; match a with | ⟨0, _⟩ => rfl | ⟨1, _⟩ => rfl

/-- An indexed load of the table scratch, its indices in range, is the total gather of the table. -/
theorem loadIdx_tbl (g : Vec F S32 .i32) (t : IVec S16 32)
    (h : ∀ a x, ((![t] : Fin 1 → IVec S16 32) a x).toNat < S32.size a) :
    loadIdx (View.readAt (Elt F) (sTbl).view (LoadRect.whole S32) g) ![t] h = Cert.KMath.gatTbl g t := by
  have e : View.readAt (Elt F) (sTbl).view (LoadRect.whole S32) g = g := Memref.readAt_whole (Elt F) cc0_scratch2 g
  rw [e]
  funext x
  have h0 : (t x).toNat < 32 := h 0 x
  unfold loadIdx Cert.KMath.gatTbl
  rw [dif_pos h0]
  congr 1
  funext a; match a with | ⟨0, _⟩ => rfl

/-- The same two facts with the scratch views spelt out. -/
theorem loadIdx_tok' (f : Vec F S128x200 .i32) (r c : IVec S16 32)
    (h : ∀ a x, ((![r, c] : Fin 2 → IVec S16 32) a x).toNat < S128x200.size a) :
    loadIdx (View.readAt (Elt F) (View.whole (cc0_scratch0 : Ref sig .scVector)) (LoadRect.whole S128x200) f) ![r, c] h = Cert.KMath.gatTok f r c :=
  loadIdx_tok f r c h
theorem loadIdx_tbl' (g : Vec F S32 .i32) (t : IVec S16 32)
    (h : ∀ a x, ((![t] : Fin 1 → IVec S16 32) a x).toNat < S32.size a) :
    loadIdx (View.readAt (Elt F) (View.whole (cc0_scratch2 : Ref sig .scVector)) (LoadRect.whole S32) g) ![t] h = Cert.KMath.gatTbl g t :=
  loadIdx_tbl g t h

/-- A table gather at a gathered token, both indexed loads at once (the table load's side condition speaks of the
    token load, so the two are rewritten together). -/
theorem loadIdx_tbl_tok (f : Vec F S128x200 .i32) (g : Vec F S32 .i32) (r c : IVec S16 32)
    (h1 : ∀ a x, ((![r, c] : Fin 2 → IVec S16 32) a x).toNat < S128x200.size a)
    (h2 : ∀ a x, ((![loadIdx (View.readAt (Elt F) (View.whole (cc0_scratch0 : Ref sig .scVector)) (LoadRect.whole S128x200) f) ![r, c] h1]
        : Fin 1 → IVec S16 32) a x).toNat < S32.size a) :
    loadIdx (View.readAt (Elt F) (View.whole (cc0_scratch2 : Ref sig .scVector)) (LoadRect.whole S32) g)
        ![loadIdx (View.readAt (Elt F) (View.whole (cc0_scratch0 : Ref sig .scVector)) (LoadRect.whole S128x200) f) ![r, c] h1] h2
      = Cert.KMath.gatTbl g (Cert.KMath.gatTok f r c) := by
  have e := loadIdx_tok' f r c h1
  revert h2
  rw [e]
  intro h2
  exact loadIdx_tbl' g _ h2

/-- The scan's column counter before trip `k` is `8 k` in every lane. -/
theorem st_col (f : Vec F S128x200 .i32) (g : Vec F S32 .i32) (rowv lastv : IVec S16 32) :
    ∀ k, k ≤ 25 → (Cert.KMath.st f g rowv lastv k).1 = broadcast S16 (BitVec.ofNat 32 (8 * k))
  | 0, _ => rfl
  | k + 1, hk => by
    have ih := st_col f g rowv lastv k (by omega)
    show (Cert.KMath.trip f g rowv lastv (Cert.KMath.st f g rowv lastv k)).1 = _
    simp only [Cert.KMath.trip, Cert.KMath.step1, ih]
    funext x
    apply BitVec.eq_of_toNat_eq
    simp only [addi, IntOp.addi, broadcast, BitVec.toNat_add, BitVec.toNat_ofNat]
    omega

/-- What the scan of one group of sixteen rows keeps from trip to trip. -/
def inv (ftok : Vec F S128x200 .i32) (ftbl : Vec F S32 .i32) (rowv lastv : IVec S16 32)
    (k : Nat) (acc : IVec S16 32 × IVec S16 32 × IVec S16 32 × IVec S16 32) : sProp 𝕄 :=
  iprop(⌜acc = Cert.KMath.st ftok ftbl rowv lastv k⌝
    ∗ ((sTok).view.loc (thrV d L) ↦{fullShare} ftok) ∗ ((sTbl).view.loc (thrV d L) ↦{fullShare} ftbl))

macro "colok" : tactic => `(tactic| (intro x; simp only [addi, IntOp.addi, broadcast, BitVec.toNat_add, BitVec.toNat_ofNat]; omega))
set_option hygiene false in
macro "colokR" : tactic => `(tactic| (intro x; (try delta region_ok.sl.r_7); (try delta region_ok.sl.r_3); (try simp only [k0_pay326]); simp only [addi, IntOp.addi, broadcast, BitVec.toNat_add, BitVec.toNat_ofNat]; omega))
/-- The side condition of an indexed access inside the scan: a table index is a gathered token; a row-and-column
    pair is the group's rows and the column counter advanced a few times. -/
syntax "dchkR " term:max term:max : tactic
macro_rules
  | `(tactic| dchkR $h $hr) => `(tactic| first
    | exact chk1 _ (fun x => tok_lt $h _ _ x)
    | exact chk2 _ _ $hr (by first | colok | colokR))

theorem region_ok (ftok : Vec F S128x200 .i32) (htok : ∀ j, (ftok j).toNat < 32) (ftbl : Vec F S32 .i32)
    (rowv : IVec S16 32) (hrow : ∀ x, (rowv x).toNat < 128) (lastv : Vec F S16 .i32) :
    ∀ (k : Fin k0_t1_loop.trips) (acc : IVec S16 32 × IVec S16 32 × IVec S16 32 × IVec S16 32),
      inv d L ftok ftbl rowv lastv k acc ⊢ wp frame (wpE (defs₀ (F := F)) 𝒱₀ (thrV d L) none) Set.univ
        (k0_t1_body L tokV (Memref.isWhole_whole _) logV (Memref.isWhole_whole _) tblV (Memref.isWhole_whole _) outV (Memref.isWhole_whole _)
          sTok (Memref.isWhole_whole _) sOut (Memref.isWhole_whole _) sTbl (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12
          rowv lastv k acc)
        (inv d L ftok ftbl rowv lastv (k.val + 1)) := by
  intro k acc
  obtain ⟨a10, a11, a12, a13⟩ := acc
  have hk : k.val < 25 := lt_of_lt_of_le k.isLt k0_t1_abs.2.1
  unfold k0_t1_body inv
  iintro ⟨%hacc, Hs6', Hs8'⟩
  have hcol : a10 = broadcast S16 (BitVec.ofNat 32 (8 * k.val)) :=
    (congrArg Prod.fst hacc).trans (st_col ftok ftbl rowv lastv k.val (by omega))
  subst hcol
  sl_exec (disch := dchkR htok hrow)
  conv => rhs; simp only [vli_bind, vsi_bind]
  sl_exec (disch := dchkR htok hrow)
  conv => rhs; simp only [vli_bind, vsi_bind]
  sl_exec (disch := dchkR htok hrow)
  rw [wp_ret]; imodintro
  isplitr
  · ipureintro
    show _ = Cert.KMath.trip ftok ftbl rowv lastv (Cert.KMath.st ftok ftbl rowv lastv k.val)
    rw [← hacc]
    repeat delta region_ok.sl.r_9 region_ok.sl.r_8 region_ok.sl.r_7 region_ok.sl.r_6 region_ok.sl.r_5 region_ok.sl.r_4 region_ok.sl.r_3 region_ok.sl.r_2 region_ok.sl.r_1 region_ok.sl.r
    simp only [k0_pay326, k0_pay327, k0_pay328, k0_pay329]
    simp only [loadIdx_tok, loadIdx_tbl, loadIdx_tok', loadIdx_tbl', Cert.KMath.trip, Cert.KMath.step1]
    refine Prod.ext ?_ (Prod.ext ?_ (Prod.ext ?_ ?_))
    · with_reducible rfl
    · show maxsi (addi _ _) _ = maxsi (addi _ _) _
      congr 2
      all_goals first | exact loadIdx_tbl_tok ftok ftbl rowv _ _ _ | with_reducible rfl
    · exact loadIdx_tok' ftok rowv _ _
    · show select (andi _ (cmpi .eq _ _)) _ _ = select (andi _ (cmpi .eq _ _)) _ _
      congr 3
      all_goals first | exact loadIdx_tok' ftok rowv _ _ | with_reducible rfl
  isplitl [Hs6']
  · iexact Hs6'
  · iexact Hs8'

end Cert.Proof.KB
end
-- ==== Proof.KB.GroupBridge.lean ====
/-
  From what a group's four add-stores leave in the logits scratch to the group's step, as a pure fact. Each of the
  four is a store of the WHOLE scratch: the scratch is loaded whole, the constant is added under a mask at the
  lanes' (row, column) entries, and the result is stored back whole. A whole store over anything leaves exactly its
  payload, and a whole load after it reads exactly that payload; so the four, one after the other from contents
  `fo`, leave the fourth update of the third of the second of the first of `fo` — which, with the masks read as
  the bracket, ring and valence masks of the scan's final depth and flag, is the group's step.
-/
import proofs.«215955_g3427383902409_cont_8to1_b_1893_7_alg».proof.Proof.KB.Region
import proofs.«215955_g3427383902409_cont_8to1_b_1893_7_alg».proof.Proof.KMathBlock

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

open Cert.KMath (rowsOf gatTok st mBr mRing mVal negV InB groupOut GroupStep)

/-! ## Whole stores and whole loads of the logits scratch -/

/-- A store of the whole scratch, over anything, leaves its payload. -/
theorem writes_whole_cons (f : Vec F S128x32 .f32) (w : Vec F S128x32 .f32) (L : List (View.Piece (Elt F) S128x32 .f32)) :
    (sOut).view.writes (Elt F) f (⟨Rect.whole S128x32, w⟩ :: L) = w :=
  Memref.write_access_whole_univ (Elt F) cc0_scratch1 _ w

/-- A load of the whole scratch after such a store reads that payload. -/
theorem readCov_whole_cons (w : Vec F S128x32 .f32) (L : List (View.Piece (Elt F) S128x32 .f32)) :
    (sOut).view.readCov (⟨Rect.whole S128x32, w⟩ :: L) (LoadRect.whole S128x32) = w := by
  show View.readAt (Elt F) (sOut).view (LoadRect.whole S128x32) ((sOut).view.writes (Elt F) (sOut).view.junk (⟨Rect.whole S128x32, w⟩ :: L)) = w
  rw [writes_whole_cons]
  exact Memref.readAt_whole (Elt F) cc0_scratch1 w

/-- The first add-store of a run, from contents `fo`: load whole, update, store whole. -/
abbrev L1 (fo : Vec F S128x32 .f32) (p : Vec F S16 .f32) (i : Fin S128x32.rank → IVec S16 32) (mk : IVec S16 1)
    (h : ∀ a x, (i a x).toNat < S128x32.size a) : List (View.Piece (Elt F) S128x32 .f32) :=
  [⟨Rect.whole S128x32, storeIdx (View.readAt (Elt F) (sOut).view (LoadRect.whole S128x32) fo) i p mk true h⟩]
/-- A further add-store, after the stores `L`. -/
abbrev Lnext (L : List (View.Piece (Elt F) S128x32 .f32)) (p : Vec F S16 .f32) (i : Fin S128x32.rank → IVec S16 32) (mk : IVec S16 1)
    (h : ∀ a x, (i a x).toNat < S128x32.size a) : List (View.Piece (Elt F) S128x32 .f32) :=
  ⟨Rect.whole S128x32, storeIdx ((sOut).view.readCov L (LoadRect.whole S128x32)) i p mk true h⟩ :: L

/-- Four add-stores from `fo` leave the four updates of `fo`, nested in their order. -/
theorem bridge4 (fo : Vec F S128x32 .f32) (p1 p2 p3 p4 : Vec F S16 .f32) (i1 i2 i3 i4 : Fin S128x32.rank → IVec S16 32)
    (m1 m2 m3 m4 : IVec S16 1) (h1 : ∀ a x, (i1 a x).toNat < S128x32.size a) (h2 : ∀ a x, (i2 a x).toNat < S128x32.size a)
    (h3 : ∀ a x, (i3 a x).toNat < S128x32.size a) (h4 : ∀ a x, (i4 a x).toNat < S128x32.size a) :
    (sOut).view.writes (Elt F) (sOut).view.junk (Lnext (Lnext (Lnext (L1 fo p1 i1 m1 h1) p2 i2 m2 h2) p3 i3 m3 h3) p4 i4 m4 h4)
      = storeIdx (storeIdx (storeIdx (storeIdx fo i1 p1 m1 true h1) i2 p2 m2 true h2) i3 p3 m3 true h3) i4 p4 m4 true h4 := by
  have e : View.readAt (Elt F) (sOut).view (LoadRect.whole S128x32) fo = fo := Memref.readAt_whole (Elt F) cc0_scratch1 fo
  rw [writes_whole_cons, readCov_whole_cons, readCov_whole_cons, readCov_whole_cons, e]

/-! ## The side conditions of a group's add-stores -/

theorem rowsOf_lt (gi : ℕ) (hgi : gi < 8) (hI : S16.Iotas .scVector 32 [0]) (x : S16.Idx) : ((rowsOf gi hI) x).toNat < 128 := by
  have hx : (x 0).val < 16 := (x 0).isLt
  have e := Cert.KMath.rows_toNat' gi hgi hI x
  unfold Cert.KMath.rowsOf
  rw [e]; omega

theorem inB_const (gi : ℕ) (hgi : gi < 8) (hI : S16.Iotas .scVector 32 [0]) (c : ℕ) (hc : c < 32) :
    InB (rowsOf gi hI) (broadcast S16 (BitVec.ofNat 32 c)) :=
  chk2 _ _ (rowsOf_lt gi hgi hI) (fun x => by simp only [broadcast, BitVec.toNat_ofNat]; omega)

theorem inB_tok (gi : ℕ) (hgi : gi < 8) (hI : S16.Iotas .scVector 32 [0]) (t : IVec S16 32) (ht : ∀ x, (t x).toNat < 32) :
    InB (rowsOf gi hI) t :=
  chk2 _ _ (rowsOf_lt gi hgi hI) ht

/-! ## The group's step -/

/-- What the four add-stores of group `gi` leave, from `fo`, is the group's step — the masks those of the scan's final
    depth and flag, the columns 25, the last token's, 10 and 11. -/
theorem groupStep_of_writes (f : Vec F S128x200 .i32) (g : Vec F S32 .i32) (hI : S16.Iotas .scVector 32 [0]) (gi : ℕ)
    (fo fo' : Vec F S128x32 .f32) (lastv t197 t198 : IVec S16 32)
    (el : lastv = gatTok f (rowsOf gi hI) (broadcast S16 199#32)) (e7 : t197 = gatTok f (rowsOf gi hI) (broadcast S16 197#32))
    (e8 : t198 = gatTok f (rowsOf gi hI) (broadcast S16 198#32))
    (h25 : InB (rowsOf gi hI) (broadcast S16 25#32)) (hl : InB (rowsOf gi hI) lastv)
    (h10 : InB (rowsOf gi hI) (broadcast S16 10#32)) (h11 : InB (rowsOf gi hI) (broadcast S16 11#32))
    (hw : (sOut).view.writes (Elt F) (sOut).view.junk
        (Lnext (Lnext (Lnext (L1 fo negV ![rowsOf gi hI, broadcast S16 25#32] (mBr (st f g (rowsOf gi hI) lastv 25).2.1) h25)
            negV ![rowsOf gi hI, lastv] (mRing (st f g (rowsOf gi hI) lastv 25).2.2.2 lastv) hl)
          negV ![rowsOf gi hI, broadcast S16 10#32] (mVal t197 t198 lastv) h10)
        negV ![rowsOf gi hI, broadcast S16 11#32] (mVal t197 t198 lastv) h11) = fo') :
    GroupStep f g hI gi fo fo' :=
  ⟨lastv, t197, t198, h25, hl, h10, h11, el, e7, e8, hw.symm.trans (bridge4 fo _ _ _ _ _ _ _ _ _ _ _ _ _ _ _ _)⟩

/-- The lanes' tokens of group `gi` at the constant column `c`, as the task's indexed load of the token scratch reads them. -/
def ldTok (f : Vec F S128x200 .i32) (gi : ℕ) (hgi : gi < 8) (hI : S16.Iotas .scVector 32 [0]) (c : ℕ) (hc : c < 200) : IVec S16 32 :=
  loadIdx (View.readAt (Elt F) (sTok).view (LoadRect.whole S128x200) f) ![rowsOf gi hI, broadcast S16 (BitVec.ofNat 32 c)]
    (chk2 _ _ (rowsOf_lt gi hgi hI) (fun x => by simp only [broadcast, BitVec.toNat_ofNat]; omega))

theorem ldTok_eq (f : Vec F S128x200 .i32) (gi : ℕ) (hgi : gi < 8) (hI : S16.Iotas .scVector 32 [0]) (c : ℕ) (hc : c < 200) :
    ldTok f gi hgi hI c hc = gatTok f (rowsOf gi hI) (broadcast S16 (BitVec.ofNat 32 c)) :=
  loadIdx_tok f _ _ _

theorem ldTok_lt (f : Vec F S128x200 .i32) (hf : ∀ j, (f j).toNat < 32) (gi : ℕ) (hgi : gi < 8) (hI : S16.Iotas .scVector 32 [0]) (c : ℕ) (hc : c < 200)
    (x : S16.Idx) : (ldTok f gi hgi hI c hc x).toNat < 32 :=
  tok_lt hf _ _ x

/-- The same, with the last three tokens the task's own indexed loads and every side condition supplied: from the
    tokens' bound and the equation that names what the stores left. -/
theorem groupStep_exec (f : Vec F S128x200 .i32) (hf : ∀ j, (f j).toNat < 32) (g : Vec F S32 .i32) (hI : S16.Iotas .scVector 32 [0])
    (gi : ℕ) (hgi : gi < 8) (fo fo' : Vec F S128x32 .f32)
    (hw : (sOut).view.writes (Elt F) (sOut).view.junk
        (Lnext (Lnext (Lnext (L1 fo negV ![rowsOf gi hI, broadcast S16 25#32]
              (mBr (st f g (rowsOf gi hI) (ldTok f gi hgi hI 199 (by decide)) 25).2.1) (inB_const gi hgi hI 25 (by decide)))
            negV ![rowsOf gi hI, ldTok f gi hgi hI 199 (by decide)]
              (mRing (st f g (rowsOf gi hI) (ldTok f gi hgi hI 199 (by decide)) 25).2.2.2 (ldTok f gi hgi hI 199 (by decide)))
              (inB_tok gi hgi hI _ (ldTok_lt f hf gi hgi hI 199 (by decide))))
          negV ![rowsOf gi hI, broadcast S16 10#32]
            (mVal (ldTok f gi hgi hI 197 (by decide)) (ldTok f gi hgi hI 198 (by decide)) (ldTok f gi hgi hI 199 (by decide))) (inB_const gi hgi hI 10 (by decide)))
        negV ![rowsOf gi hI, broadcast S16 11#32]
          (mVal (ldTok f gi hgi hI 197 (by decide)) (ldTok f gi hgi hI 198 (by decide)) (ldTok f gi hgi hI 199 (by decide))) (inB_const gi hgi hI 11 (by decide))) = fo') :
    GroupStep f g hI gi fo fo' :=
  groupStep_of_writes f g hI gi fo fo' _ _ _ (ldTok_eq f gi hgi hI 199 (by decide)) (ldTok_eq f gi hgi hI 197 (by decide)) (ldTok_eq f gi hgi hI 198 (by decide))
    _ _ _ _ hw

/-! ## The same over any prior contents

A block's last group is followed by no scan, so what the four add-stores leave is stated over the scratch's contents
before them rather than over arbitrary ones. A whole store leaves its payload whatever was there, so nothing changes. -/

/-- Four add-stores from `fo`, over any prior contents `b`, leave the four updates of `fo`. -/
theorem bridge4_base (b fo : Vec F S128x32 .f32) (p1 p2 p3 p4 : Vec F S16 .f32) (i1 i2 i3 i4 : Fin S128x32.rank → IVec S16 32)
    (m1 m2 m3 m4 : IVec S16 1) (h1 : ∀ a x, (i1 a x).toNat < S128x32.size a) (h2 : ∀ a x, (i2 a x).toNat < S128x32.size a)
    (h3 : ∀ a x, (i3 a x).toNat < S128x32.size a) (h4 : ∀ a x, (i4 a x).toNat < S128x32.size a) :
    (sOut).view.writes (Elt F) b (Lnext (Lnext (Lnext (L1 fo p1 i1 m1 h1) p2 i2 m2 h2) p3 i3 m3 h3) p4 i4 m4 h4)
      = storeIdx (storeIdx (storeIdx (storeIdx fo i1 p1 m1 true h1) i2 p2 m2 true h2) i3 p3 m3 true h3) i4 p4 m4 true h4 := by
  have e : View.readAt (Elt F) (sOut).view (LoadRect.whole S128x32) fo = fo := Memref.readAt_whole (Elt F) cc0_scratch1 fo
  rw [writes_whole_cons, readCov_whole_cons, readCov_whole_cons, readCov_whole_cons, e]

/-- `groupStep_of_writes` with the stores stated over prior contents `b`. -/
theorem groupStep_of_writes_base (f : Vec F S128x200 .i32) (g : Vec F S32 .i32) (hI : S16.Iotas .scVector 32 [0]) (gi : ℕ)
    (b fo fo' : Vec F S128x32 .f32) (lastv t197 t198 : IVec S16 32)
    (el : lastv = gatTok f (rowsOf gi hI) (broadcast S16 199#32)) (e7 : t197 = gatTok f (rowsOf gi hI) (broadcast S16 197#32))
    (e8 : t198 = gatTok f (rowsOf gi hI) (broadcast S16 198#32))
    (h25 : InB (rowsOf gi hI) (broadcast S16 25#32)) (hl : InB (rowsOf gi hI) lastv)
    (h10 : InB (rowsOf gi hI) (broadcast S16 10#32)) (h11 : InB (rowsOf gi hI) (broadcast S16 11#32))
    (hw : (sOut).view.writes (Elt F) b
        (Lnext (Lnext (Lnext (L1 fo negV ![rowsOf gi hI, broadcast S16 25#32] (mBr (st f g (rowsOf gi hI) lastv 25).2.1) h25)
            negV ![rowsOf gi hI, lastv] (mRing (st f g (rowsOf gi hI) lastv 25).2.2.2 lastv) hl)
          negV ![rowsOf gi hI, broadcast S16 10#32] (mVal t197 t198 lastv) h10)
        negV ![rowsOf gi hI, broadcast S16 11#32] (mVal t197 t198 lastv) h11) = fo') :
    GroupStep f g hI gi fo fo' :=
  ⟨lastv, t197, t198, h25, hl, h10, h11, el, e7, e8, hw.symm.trans (bridge4_base b fo _ _ _ _ _ _ _ _ _ _ _ _ _ _ _ _)⟩

/-- `groupStep_exec` for a group after which no scan follows: the four add-stores are stated over the contents `fo`
    they started from. -/
theorem groupStep_exec7 (f : Vec F S128x200 .i32) (hf : ∀ j, (f j).toNat < 32) (g : Vec F S32 .i32) (hI : S16.Iotas .scVector 32 [0])
    (gi : ℕ) (hgi : gi < 8) (fo fo' : Vec F S128x32 .f32)
    (hw : (sOut).view.writes (Elt F) fo
        (Lnext (Lnext (Lnext (L1 fo negV ![rowsOf gi hI, broadcast S16 25#32]
              (mBr (st f g (rowsOf gi hI) (ldTok f gi hgi hI 199 (by decide)) 25).2.1) (inB_const gi hgi hI 25 (by decide)))
            negV ![rowsOf gi hI, ldTok f gi hgi hI 199 (by decide)]
              (mRing (st f g (rowsOf gi hI) (ldTok f gi hgi hI 199 (by decide)) 25).2.2.2 (ldTok f gi hgi hI 199 (by decide)))
              (inB_tok gi hgi hI _ (ldTok_lt f hf gi hgi hI 199 (by decide))))
          negV ![rowsOf gi hI, broadcast S16 10#32]
            (mVal (ldTok f gi hgi hI 197 (by decide)) (ldTok f gi hgi hI 198 (by decide)) (ldTok f gi hgi hI 199 (by decide))) (inB_const gi hgi hI 10 (by decide)))
        negV ![rowsOf gi hI, broadcast S16 11#32]
          (mVal (ldTok f gi hgi hI 197 (by decide)) (ldTok f gi hgi hI 198 (by decide)) (ldTok f gi hgi hI 199 (by decide))) (inB_const gi hgi hI 11 (by decide))) = fo') :
    GroupStep f g hI gi fo fo' :=
  groupStep_of_writes_base f g hI gi fo fo fo' _ _ _ (ldTok_eq f gi hgi hI 199 (by decide)) (ldTok_eq f gi hgi hI 197 (by decide)) (ldTok_eq f gi hgi hI 198 (by decide))
    _ _ _ _ hw

end Cert.Proof.KB

end
-- ==== Proof.KB.BlockGlobal.lean ====
/-
  From one block's result to the whole array. Block `b` of worker `L` is rows `[R, R + 128)` with
  `R = 1024 (L 1) + 512 (L 0) + 128 b` — the same rows of the token array, of the logits array and of the result.
  A slice of 128 whole rows at row `R` places its index `(r, n)` at `(R + r, n)` of the array. So: an entry `i` of the
  result inside the block is the slice's `(r, col)` with `i = (R + r, col)`; writing the whole slice puts the payload's
  entry `(r, col)` there; the payload is the block's masked logits, whose row `r` reads the token slice at `(r, n)`,
  which is the token array at `(R + r, n)` — row `i 0` of the array, the row the specification reads — and whose logit
  is the logits array's at `i`. Both sides are therefore the same choice, by the same rule of the same row, between
  the same logit and the same logit plus the constant.
-/
import proofs.«215955_g3427383902409_cont_8to1_b_1893_7_alg».proof.Proof.KB.LaunchBlocks
import proofs.«215955_g3427383902409_cont_8to1_b_1893_7_alg».proof.Proof.KMath
import proofs.«215955_g3427383902409_cont_8to1_b_1893_7_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## The worker's input slices, as its task slices them -/

abbrev tS0 (L : grid0.Coords) : Memref sig .scVector .hbm S128x200 .i32 := (tokV).slice (Rect.unit (s := S16384x200) (k0_off1 L) S128x200.size (k0_off1_inb L)) (fun _ => rfl)
abbrev tS1 (L : grid0.Coords) : Memref sig .scVector .hbm S128x200 .i32 := (tokV).slice (Rect.unit (s := S16384x200) (k0_off4 L) S128x200.size (k0_off4_inb L)) (fun _ => rfl)
abbrev tS2 (L : grid0.Coords) : Memref sig .scVector .hbm S128x200 .i32 := (tokV).slice (Rect.unit (s := S16384x200) (k0_off6 L) S128x200.size (k0_off6_inb L)) (fun _ => rfl)
abbrev tS3 (L : grid0.Coords) : Memref sig .scVector .hbm S128x200 .i32 := (tokV).slice (Rect.unit (s := S16384x200) (k0_off8 L) S128x200.size (k0_off8_inb L)) (fun _ => rfl)
abbrev xS0 (L : grid0.Coords) : Memref sig .scVector .hbm S128x32 .f32 := (logV).slice (Rect.unit (s := S16384x32) (k0_off2 L) S128x32.size (k0_off2_inb L)) (fun _ => rfl)
abbrev xS1 (L : grid0.Coords) : Memref sig .scVector .hbm S128x32 .f32 := (logV).slice (Rect.unit (s := S16384x32) (k0_off3 L 128#32) S128x32.size (k0_off3_inb L 1)) (fun _ => rfl)
abbrev xS2 (L : grid0.Coords) : Memref sig .scVector .hbm S128x32 .f32 := (logV).slice (Rect.unit (s := S16384x32) (k0_off5 L 256#32) S128x32.size (k0_off5_inb L 1)) (fun _ => rfl)
abbrev xS3 (L : grid0.Coords) : Memref sig .scVector .hbm S128x32 .f32 := (logV).slice (Rect.unit (s := S16384x32) (k0_off7 L 384#32) S128x32.size (k0_off7_inb L 1)) (fun _ => rfl)

/-! ## Where the blocks start -/

theorem tOff0_eq (L : grid0.Coords) : k0_off1 L = ![row0 L, 0] := by rw [k0_off1_eq]; rfl
theorem tOff1_eq (L : grid0.Coords) : k0_off4 L = ![row0 L + 128, 0] := by rw [k0_off4_eq]; rfl
theorem tOff2_eq (L : grid0.Coords) : k0_off6 L = ![row0 L + 256, 0] := by rw [k0_off6_eq]; rfl
theorem tOff3_eq (L : grid0.Coords) : k0_off8 L = ![row0 L + 384, 0] := by rw [k0_off8_eq]; rfl
theorem xOff0_eq (L : grid0.Coords) : k0_off2 L = ![row0 L, 0] := by rw [k0_off2_eq]; rfl
theorem xOff1_eq (L : grid0.Coords) : k0_off3 L 128#32 = ![row0 L + 128, 0] := by
  have h := k0_off3_eq L 1
  simpa [row0] using h
theorem xOff2_eq (L : grid0.Coords) : k0_off5 L 256#32 = ![row0 L + 256, 0] := by
  have h := k0_off5_eq L 1
  simpa [row0] using h
theorem xOff3_eq (L : grid0.Coords) : k0_off7 L 384#32 = ![row0 L + 384, 0] := by
  have h := k0_off7_eq L 1
  simpa [row0] using h

/-! ## Slices of 128 whole rows at a given row -/

/-- 128 rows of the token array from row `off 0`. -/
abbrev vT (off : Fin S16384x200.rank → ℕ) (inb : ∀ a, off a + S128x200.size a ≤ S16384x200.size a) : View sig .scVector .hbm S128x200 .i32 :=
  (View.whole (main_arg1_scv : Ref sig .scVector)).slice (Rect.unit (s := S16384x200) off S128x200.size inb)
/-- 128 rows of the logits array. -/
abbrev vX (off : Fin S16384x32.rank → ℕ) (inb : ∀ a, off a + S128x32.size a ≤ S16384x32.size a) : View sig .scVector .hbm S128x32 .f32 :=
  (View.whole (main_arg0_scv : Ref sig .scVector)).slice (Rect.unit (s := S16384x32) off S128x32.size inb)
/-- 128 rows of the result. -/
abbrev vO (off : Fin S16384x32.rank → ℕ) (inb : ∀ a, off a + S128x32.size a ≤ S16384x32.size a) : View sig .scVector .hbm S128x32 .f32 :=
  (View.whole (main_v0_scv : Ref sig .scVector)).slice (Rect.unit (s := S16384x32) off S128x32.size inb)

/-- A slice at row `R` places `(r, n)` at `(R + r, n)`: the coordinates, as numbers. -/
theorem vT_emb_val (R : ℕ) (inb) (j : S128x200.Idx) (a : Fin 2) :
    ((vT ![R, 0] inb).emb j a : ℕ) = (![R, 0] : Fin 2 → ℕ) a + (j a : ℕ) := by
  show (![R, 0] : Fin 2 → ℕ) a + 1 * (j a : ℕ) = _
  rw [Nat.one_mul]
theorem vO_emb_val (R : ℕ) (inb) (j : S128x32.Idx) (a : Fin 2) :
    ((vO ![R, 0] inb).emb j a : ℕ) = (![R, 0] : Fin 2 → ℕ) a + (j a : ℕ) := by
  show (![R, 0] : Fin 2 → ℕ) a + 1 * (j a : ℕ) = _
  rw [Nat.one_mul]

/-- The logits slice and the result slice at one row place an index at the same entry. -/
theorem vX_emb_eq (R : ℕ) (inbX inbO) (j : S128x32.Idx) : (vX ![R, 0] inbX).emb j = (vO ![R, 0] inbO).emb j := rfl

/-- The token slice's row `r` is the token array's row `R + r`. -/
theorem vT_emb_row (R : ℕ) (inbT inbO) (j : S128x32.Idx) (n : ℕ) (h : n < 200) :
    (vT ![R, 0] inbT).emb (ValueIdx.ix2 (j 0) ⟨n, h⟩) = ValueIdx.ix2 ((vO ![R, 0] inbO).emb j 0) ⟨n, h⟩ := by
  funext a
  apply Fin.ext
  rw [vT_emb_val]
  match a with
  | 0 => exact (vO_emb_val R inbO j 0).symm
  | 1 => show (0 : ℕ) + n = n; rw [Nat.zero_add]

/-- What is read through the token slice at row `r` is the specification's row `R + r` of the token array. -/
theorem rowTok_read (R : ℕ) (inbT inbO) (ft : Vec F S16384x200 .i32) (j : S128x32.Idx) :
    Cert.KMath.rowTok ((vT ![R, 0] inbT).read (Elt F) ft) (j 0) = Cert.Spec.tokAt ft ((vO ![R, 0] inbO).emb j 0) := by
  funext n
  unfold Cert.KMath.rowTok Cert.Spec.tokAt
  by_cases h : n < 200
  · rw [dif_pos h, dif_pos h]
    exact ((View.read_apply _ _).trans (cast_eq _ _)).trans (congrArg ft (vT_emb_row R inbT inbO j n h))
  · rw [dif_neg h, dif_neg h]

/-- The logit read through the logits slice at `(r, col)` is the logits array's at the result's entry. -/
theorem logit_read (R : ℕ) (inbX inbO) (fx : Vec F S16384x32 .f32) (j : S128x32.Idx) :
    (vX ![R, 0] inbX).read (Elt F) fx j = fx ((vO ![R, 0] inbO).emb j) :=
  ((View.read_apply _ _).trans (cast_eq _ _)).trans (congrArg fx (vX_emb_eq R inbX inbO j))

/-- The column of the result's entry is the slice's column. -/
theorem col_eq (R : ℕ) (inbO) (j : S128x32.Idx) : ((vO ![R, 0] inbO).emb j 1 : ℕ) = (j 1 : ℕ) := by
  rw [vO_emb_val]; show (0 : ℕ) + (j 1 : ℕ) = _; rw [Nat.zero_add]

/-- One block, at any row: the block's masked logits, written through the result's slice, are the masked logits of the
    whole arrays at every entry of the slice. -/
theorem block_core (R : ℕ) {offT : Fin S16384x200.rank → ℕ} {inbT} {offX : Fin S16384x32.rank → ℕ} {inbX} {offO : Fin S16384x32.rank → ℕ} {inbO}
    (hT : offT = ![R, 0]) (hX : offX = ![R, 0]) (hO : offO = ![R, 0])
    (ft : Vec F S16384x200 .i32) (fx fo : Vec F S16384x32 .f32) (i : S16384x32.Idx) (hi : i ∈ (vO offO inbO).set) :
    (vO offO inbO).write (Elt F) fo (Cert.KMath.blockSpec ((vT offT inbT).read (Elt F) ft) ((vX offX inbX).read (Elt F) fx)) Finset.univ i
      = Cert.Spec.G fx ft i := by
  subst hT hX hO
  obtain ⟨j, -, rfl⟩ := Finset.mem_map.mp hi
  refine ((View.write_emb_of_mem _ _ (Finset.mem_univ j)).trans (cast_eq _ _)).trans ?_
  unfold Cert.KMath.blockSpec Cert.Spec.G
  rw [rowTok_read R inbT inbO ft j, logit_read R inbX inbO fx j, col_eq R inbO j]

/-! ## The worker's four blocks -/

theorem block_global0 (L : grid0.Coords) (ft : Vec F S16384x200 .i32) (fx fo : Vec F S16384x32 .f32) (i : S16384x32.Idx) (hi : i ∈ (oS0 L).view.set) :
    (oS0 L).view.write (Elt F) fo (Cert.KMath.blockSpec ((tS0 L).view.read (Elt F) ft) ((xS0 L).view.read (Elt F) fx)) Finset.univ i
      = Cert.Spec.G fx ft i :=
  block_core (row0 L) (tOff0_eq L) (xOff0_eq L) (off0_eq L) ft fx fo i hi
theorem block_global1 (L : grid0.Coords) (ft : Vec F S16384x200 .i32) (fx fo : Vec F S16384x32 .f32) (i : S16384x32.Idx) (hi : i ∈ (oS1 L).view.set) :
    (oS1 L).view.write (Elt F) fo (Cert.KMath.blockSpec ((tS1 L).view.read (Elt F) ft) ((xS1 L).view.read (Elt F) fx)) Finset.univ i
      = Cert.Spec.G fx ft i :=
  block_core (row0 L + 128) (tOff1_eq L) (xOff1_eq L) (off1_eq L) ft fx fo i hi
theorem block_global2 (L : grid0.Coords) (ft : Vec F S16384x200 .i32) (fx fo : Vec F S16384x32 .f32) (i : S16384x32.Idx) (hi : i ∈ (oS2 L).view.set) :
    (oS2 L).view.write (Elt F) fo (Cert.KMath.blockSpec ((tS2 L).view.read (Elt F) ft) ((xS2 L).view.read (Elt F) fx)) Finset.univ i
      = Cert.Spec.G fx ft i :=
  block_core (row0 L + 256) (tOff2_eq L) (xOff2_eq L) (off2_eq L) ft fx fo i hi
theorem block_global3 (L : grid0.Coords) (ft : Vec F S16384x200 .i32) (fx fo : Vec F S16384x32 .f32) (i : S16384x32.Idx) (hi : i ∈ (oS3 L).view.set) :
    (oS3 L).view.write (Elt F) fo (Cert.KMath.blockSpec ((tS3 L).view.read (Elt F) ft) ((xS3 L).view.read (Elt F) fx)) Finset.univ i
      = Cert.Spec.G fx ft i :=
  block_core (row0 L + 384) (tOff3_eq L) (xOff3_eq L) (off3_eq L) ft fx fo i hi

end Cert.Proof.KB

end
-- ==== Proof.KB.BlockValue.lean ====
/-
  One block's value. The eight groups of a block, chained, leave the specification of the block's first logits; the
  block's tokens are a slice of the token array, so every one is below 32 as the array's are; the table is the printed
  literal, whose entries are 1 at 6 and 8, the word -1 at 7 and 9, and 0 elsewhere; and the block's masked logits written
  through the result's slice are the specification of the whole arrays at every entry of the slice.
-/
import proofs.«215955_g3427383902409_cont_8to1_b_1893_7_alg».proof.Proof.KB.BlockGlobal
import proofs.«215955_g3427383902409_cont_8to1_b_1893_7_alg».proof.Proof.KMathBlock

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- The bracket-delta table, entry by entry. -/
theorem tbl_facts (d : Dev nD) (t : Fin 32) : (tblVal (F := F) d) (ValueIdx.ix1 t)
    = if t.val = 6 ∨ t.val = 8 then 1#32 else if t.val = 7 ∨ t.val = 9 then 4294967295#32 else 0#32 := by
  show lit0 (S32.rowMajor (ValueIdx.ix1 t)) = _
  rw [show S32.rowMajor (ValueIdx.ix1 t) = t from Fin.ext (Shape.rowMajor_val_one _)]
  revert t
  decide

theorem block_value0 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS0 L).view.read (Elt F) (m (tLoc d))) (efo : fo0 = (xS0 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (fm : Vec F S16384x32 .f32) (i : S16384x32.Idx) (hi : i ∈ (oS0 L).view.set) :
    View.write (Elt F) (oS0 L).view fm fo8 Finset.univ i = Cert.Spec.G (m (xLoc d)) (m (tLoc d)) i := by
  have hf : ∀ j, (ftok j).toNat < 32 := by
    intro j; rw [eft, View.read_apply]; simp only [cast_eq]; exact hpre _
  have hg : ∀ t : Fin 32, ftbl (ValueIdx.ix1 t)
      = if t.val = 6 ∨ t.val = 8 then 1#32 else if t.val = 7 ∨ t.val = 9 then 4294967295#32 else 0#32 := by
    intro t; rw [efb]; exact tbl_facts d t
  have e8 : fo8 = Cert.KMath.blockSpec ftok fo0 :=
    Cert.KMath.block_spec ftok hf ftbl hg iota_S16_d0_w32_scVector fo0 fo1 fo2 fo3 fo4 fo5 fo6 fo7 fo8 s0 s1 s2 s3 s4 s5 s6 s7
  rw [e8, eft, efo]
  exact block_global0 L (m (tLoc d)) (m (xLoc d)) fm i hi

theorem block_value1 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS1 L).view.read (Elt F) (m (tLoc d))) (efo : fo0 = (xS1 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (fm : Vec F S16384x32 .f32) (i : S16384x32.Idx) (hi : i ∈ (oS1 L).view.set) :
    View.write (Elt F) (oS1 L).view fm fo8 Finset.univ i = Cert.Spec.G (m (xLoc d)) (m (tLoc d)) i := by
  have hf : ∀ j, (ftok j).toNat < 32 := by
    intro j; rw [eft, View.read_apply]; simp only [cast_eq]; exact hpre _
  have hg : ∀ t : Fin 32, ftbl (ValueIdx.ix1 t)
      = if t.val = 6 ∨ t.val = 8 then 1#32 else if t.val = 7 ∨ t.val = 9 then 4294967295#32 else 0#32 := by
    intro t; rw [efb]; exact tbl_facts d t
  have e8 : fo8 = Cert.KMath.blockSpec ftok fo0 :=
    Cert.KMath.block_spec ftok hf ftbl hg iota_S16_d0_w32_scVector fo0 fo1 fo2 fo3 fo4 fo5 fo6 fo7 fo8 s0 s1 s2 s3 s4 s5 s6 s7
  rw [e8, eft, efo]
  exact block_global1 L (m (tLoc d)) (m (xLoc d)) fm i hi

theorem block_value2 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS2 L).view.read (Elt F) (m (tLoc d))) (efo : fo0 = (xS2 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (fm : Vec F S16384x32 .f32) (i : S16384x32.Idx) (hi : i ∈ (oS2 L).view.set) :
    View.write (Elt F) (oS2 L).view fm fo8 Finset.univ i = Cert.Spec.G (m (xLoc d)) (m (tLoc d)) i := by
  have hf : ∀ j, (ftok j).toNat < 32 := by
    intro j; rw [eft, View.read_apply]; simp only [cast_eq]; exact hpre _
  have hg : ∀ t : Fin 32, ftbl (ValueIdx.ix1 t)
      = if t.val = 6 ∨ t.val = 8 then 1#32 else if t.val = 7 ∨ t.val = 9 then 4294967295#32 else 0#32 := by
    intro t; rw [efb]; exact tbl_facts d t
  have e8 : fo8 = Cert.KMath.blockSpec ftok fo0 :=
    Cert.KMath.block_spec ftok hf ftbl hg iota_S16_d0_w32_scVector fo0 fo1 fo2 fo3 fo4 fo5 fo6 fo7 fo8 s0 s1 s2 s3 s4 s5 s6 s7
  rw [e8, eft, efo]
  exact block_global2 L (m (tLoc d)) (m (xLoc d)) fm i hi

theorem block_value3 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS3 L).view.read (Elt F) (m (tLoc d))) (efo : fo0 = (xS3 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (fm : Vec F S16384x32 .f32) (i : S16384x32.Idx) (hi : i ∈ (oS3 L).view.set) :
    View.write (Elt F) (oS3 L).view fm fo8 Finset.univ i = Cert.Spec.G (m (xLoc d)) (m (tLoc d)) i := by
  have hf : ∀ j, (ftok j).toNat < 32 := by
    intro j; rw [eft, View.read_apply]; simp only [cast_eq]; exact hpre _
  have hg : ∀ t : Fin 32, ftbl (ValueIdx.ix1 t)
      = if t.val = 6 ∨ t.val = 8 then 1#32 else if t.val = 7 ∨ t.val = 9 then 4294967295#32 else 0#32 := by
    intro t; rw [efb]; exact tbl_facts d t
  have e8 : fo8 = Cert.KMath.blockSpec ftok fo0 :=
    Cert.KMath.block_spec ftok hf ftbl hg iota_S16_d0_w32_scVector fo0 fo1 fo2 fo3 fo4 fo5 fo6 fo7 fo8 s0 s1 s2 s3 s4 s5 s6 s7
  rw [e8, eft, efo]
  exact block_global3 L (m (tLoc d)) (m (xLoc d)) fm i hi

end Cert.Proof.KB

end
-- ==== Proof.KB.BlockOut.lean ====
/-
  One block's value, as the copied-out block is spelt: one unmasked write through the whole rectangle of the result's
  slice. The whole rectangle places every index at itself, so at an entry of the slice that write is the slice's own
  write of the same payload; the rest is the block's value.
-/
import proofs.«215955_g3427383902409_cont_8to1_b_1893_7_alg».proof.Proof.KB.BlockValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- One write through the whole rectangle of a view is the view's write, at every element of the view. -/
theorem writes_whole_apply {κ : Kind} {sp : Space} {s : Shape} {e : EltTy} {Val : EltTy → Type}
    (v : View sig κ sp s e) (f : v.ty.Contents Val) (w : s.Idx → Val e) (i : v.ty.Idx) (hi : i ∈ v.set) :
    v.writes Val f [⟨Rect.whole s, w⟩] i = v.write Val f w Finset.univ i := by
  obtain ⟨y, -, rfl⟩ := Finset.mem_map.mp hi
  rw [View.writes_singleton]
  have e : v.emb y = (v.slice (Rect.whole s)).emb y := by
    show v.emb y = v.emb ((Rect.whole s).emb y)
    rw [Rect.emb_whole_apply]
  conv_lhs => rw [e, View.write_emb_of_mem _ _ (Finset.mem_univ _)]
  rw [View.write_emb_of_mem _ _ (Finset.mem_univ _)]

theorem block_out0 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS0 L).view.read (Elt F) (m (tLoc d))) (efo : fo0 = (xS0 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (base : Vec F S16384x32 .f32) (pay : Vec F S128x32 .f32) (hp : pay = fo8) (i : S16384x32.Idx) (hi : i ∈ (oS0 L).view.set) :
    View.writes (oS0 L).view (Elt F) base [⟨Rect.whole S128x32, pay⟩] i = Cert.Spec.G (m (xLoc d)) (m (tLoc d)) i := by
  subst hp
  rw [writes_whole_apply (oS0 L).view base pay i hi]
  exact block_value0 m d L hpre ftok ftbl fo0 fo1 fo2 fo3 fo4 fo5 fo6 fo7 pay eft efo efb s0 s1 s2 s3 s4 s5 s6 s7 base i hi

theorem block_out1 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS1 L).view.read (Elt F) (m (tLoc d))) (efo : fo0 = (xS1 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (base : Vec F S16384x32 .f32) (pay : Vec F S128x32 .f32) (hp : pay = fo8) (i : S16384x32.Idx) (hi : i ∈ (oS1 L).view.set) :
    View.writes (oS1 L).view (Elt F) base [⟨Rect.whole S128x32, pay⟩] i = Cert.Spec.G (m (xLoc d)) (m (tLoc d)) i := by
  subst hp
  rw [writes_whole_apply (oS1 L).view base pay i hi]
  exact block_value1 m d L hpre ftok ftbl fo0 fo1 fo2 fo3 fo4 fo5 fo6 fo7 pay eft efo efb s0 s1 s2 s3 s4 s5 s6 s7 base i hi

theorem block_out2 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS2 L).view.read (Elt F) (m (tLoc d))) (efo : fo0 = (xS2 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (base : Vec F S16384x32 .f32) (pay : Vec F S128x32 .f32) (hp : pay = fo8) (i : S16384x32.Idx) (hi : i ∈ (oS2 L).view.set) :
    View.writes (oS2 L).view (Elt F) base [⟨Rect.whole S128x32, pay⟩] i = Cert.Spec.G (m (xLoc d)) (m (tLoc d)) i := by
  subst hp
  rw [writes_whole_apply (oS2 L).view base pay i hi]
  exact block_value2 m d L hpre ftok ftbl fo0 fo1 fo2 fo3 fo4 fo5 fo6 fo7 pay eft efo efb s0 s1 s2 s3 s4 s5 s6 s7 base i hi

theorem block_out3 (m : (ℓ : Loc nD τ sig) → Buf (Elt F) ℓ) (d : Dev nD) (L : grid0.Coords)
    (hpre : ∀ i, (m (tLoc d) i).toNat < 32)
    (ftok : Vec F S128x200 .i32) (ftbl : Vec F S32 .i32) (fo0 fo1 fo2 fo3 fo4 fo5 fo6 fo7 fo8 : Vec F S128x32 .f32)
    (eft : ftok = (tS3 L).view.read (Elt F) (m (tLoc d))) (efo : fo0 = (xS3 L).view.read (Elt F) (m (xLoc d))) (efb : ftbl = tblVal d)
    (s0 : Cert.KMath.GroupStep ftok ftbl iota_S16_d0_w32_scVector 0 fo0 fo1) (s1 : Cert.KMath.GroupStep ftok ftbl iota_S16_d0_w32_scVector 1 fo1 fo2)
    (s2 : Cert.KMath.GroupStep ftok ftbl iota_S16_d0_w32_scVector 2 fo2 fo3) (s3 : Cert.KMath.GroupStep ftok ftbl iota_S16_d0_w32_scVector 3 fo3 fo4)
    (s4 : Cert.KMath.GroupStep ftok ftbl iota_S16_d0_w32_scVector 4 fo4 fo5) (s5 : Cert.KMath.GroupStep ftok ftbl iota_S16_d0_w32_scVector 5 fo5 fo6)
    (s6 : Cert.KMath.GroupStep ftok ftbl iota_S16_d0_w32_scVector 6 fo6 fo7) (s7 : Cert.KMath.GroupStep ftok ftbl iota_S16_d0_w32_scVector 7 fo7 fo8)
    (base : Vec F S16384x32 .f32) (pay : Vec F S128x32 .f32) (hp : pay = fo8) (i : S16384x32.Idx) (hi : i ∈ (oS3 L).view.set) :
    View.writes (oS3 L).view (Elt F) base [⟨Rect.whole S128x32, pay⟩] i = Cert.Spec.G (m (xLoc d)) (m (tLoc d)) i := by
  subst hp
  rw [writes_whole_apply (oS3 L).view base pay i hi]
  exact block_value3 m d L hpre ftok ftbl fo0 fo1 fo2 fo3 fo4 fo5 fo6 fo7 pay eft efo efb s0 s1 s2 s3 s4 s5 s6 s7 base i hi

end Cert.Proof.KB

end
-- ==== Proof.KB.Body.lean ====
/-
  A worker's task, from what it is handed to what it hands back. The worker copies the bracket-delta table into its
  scratch once; then, for each of its four blocks of 128 rows: it copies the block's tokens and logits into scratch,
  runs eight groups of sixteen rows — per group three gathers of the rows' last three tokens, the scan of the 200
  columns (25 trips of 8, by its invariant: one trip is `region_ok`), three masks and four masked add-stores of the
  constant into the logits scratch — and copies the logits scratch out to its block of the result. Every gather is
  in range because the counter is `8 k` before trip `k` and every token is below 32 (the precondition); every copy is
  waited for before its buffers are touched again. The VALUE: after group `gi` the logits scratch is the group's
  step of what it was (`KMath.GroupStep`, read off the four whole-scratch stores); eight steps are the block's
  specification (`KMath.block_spec`), and a block copied out at its rows is the whole-array specification there
  (`block_out0..3`). So the worker hands back its four blocks holding the masked logits `Spec.G`.
-/
import proofs.«215955_g3427383902409_cont_8to1_b_1893_7_alg».proof.Proof.KB.Region
import proofs.«215955_g3427383902409_cont_8to1_b_1893_7_alg».proof.Proof.KB.GroupBridge
import proofs.«215955_g3427383902409_cont_8to1_b_1893_7_alg».proof.Proof.KB.BlockOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]
variable (d : Dev nD) (L : grid0.Coords)

/-! ## A worker's own semaphores and scratch -/

omit [FloatOps F] in
theorem scopedSet : (Finset.univ.filter fun sm : SemLoc sig => sm.isScoped Kind.scVector)
    = {SemLoc.dma cc0_scoped0.sem, SemLoc.dma cc0_scoped1.sem, SemLoc.dma cc0_scoped2.sem, SemLoc.dma cc0_scoped3.sem, SemLoc.dma cc0_scoped4.sem,
       SemLoc.dma cc0_scoped5.sem, SemLoc.dma cc0_scoped6.sem, SemLoc.dma cc0_scoped7.sem, SemLoc.dma cc0_scoped8.sem, SemLoc.dma cc0_scoped9.sem,
       SemLoc.dma cc0_scoped10.sem, SemLoc.dma cc0_scoped11.sem, SemLoc.dma cc0_scoped12.sem} := by decide

omit [FloatOps F] in
theorem ownSems0_V :
    (ownSems0 (thrV d L) : sProp 𝕄)
      = iprop(semVal (thrV d L, SemLoc.dma cc0_scoped0.sem) 0 ∗ semVal (thrV d L, SemLoc.dma cc0_scoped1.sem) 0 ∗ semVal (thrV d L, SemLoc.dma cc0_scoped2.sem) 0
          ∗ semVal (thrV d L, SemLoc.dma cc0_scoped3.sem) 0 ∗ semVal (thrV d L, SemLoc.dma cc0_scoped4.sem) 0 ∗ semVal (thrV d L, SemLoc.dma cc0_scoped5.sem) 0
          ∗ semVal (thrV d L, SemLoc.dma cc0_scoped6.sem) 0 ∗ semVal (thrV d L, SemLoc.dma cc0_scoped7.sem) 0 ∗ semVal (thrV d L, SemLoc.dma cc0_scoped8.sem) 0
          ∗ semVal (thrV d L, SemLoc.dma cc0_scoped9.sem) 0 ∗ semVal (thrV d L, SemLoc.dma cc0_scoped10.sem) 0 ∗ semVal (thrV d L, SemLoc.dma cc0_scoped11.sem) 0
          ∗ semVal (thrV d L, SemLoc.dma cc0_scoped12.sem) 0) := by
  rw [SparseCore.Cfg.ownSems0_eq]
  show (bigSep (Finset.univ.filter fun sm : SemLoc sig => sm.isScoped Kind.scVector) fun sm => semVal (thrV d L, sm) 0) = _
  rw [scopedSet]
  repeat rw [SparseCore.bigSep_insert' (by decide)]
  rw [bigSep_singleton]

omit [FloatOps F] in
/-- The three scratch buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The arrays as the worker's memrefs address them -/

omit [FloatOps F] in
theorem pts_tok (q : PosShare TreeShare) (f : Buf (Elt F) (tLoc d)) :
    ((tokV).view.loc (thrV d L) ↦{q} f : sProp 𝕄) = tLoc d ↦{q} f := by
  simp only [Memref.view_whole, View.set_whole]
omit [FloatOps F] in
theorem pts_log (q : PosShare TreeShare) (f : Buf (Elt F) (xLoc d)) :
    ((logV).view.loc (thrV d L) ↦{q} f : sProp 𝕄) = xLoc d ↦{q} f := by
  simp only [Memref.view_whole, View.set_whole]
omit [FloatOps F] in
theorem pts_tbl (q : PosShare TreeShare) (f : Buf (Elt F) (cLoc d)) :
    ((tblV).view.loc (thrV d L) ↦{q} f : sProp 𝕄) = cLoc d ↦{q} f := by
  simp only [Memref.view_whole, View.set_whole]

omit [FloatOps F] in
theorem pts_s6 (f : Buf (Elt F) ((thrV d L).loc cc0_scratch0)) :
    ((sTok).view.loc (thrV d L) ↦{fullShare} f : sProp 𝕄) = (thrV d L).loc cc0_scratch0 ↦{fullShare} f := rfl
omit [FloatOps F] in
theorem pts_s7 (f : Buf (Elt F) ((thrV d L).loc cc0_scratch1)) :
    ((sOut).view.loc (thrV d L) ↦{fullShare} f : sProp 𝕄) = (thrV d L).loc cc0_scratch1 ↦{fullShare} f := rfl
omit [FloatOps F] in
theorem pts_s8 (f : Buf (Elt F) ((thrV d L).loc cc0_scratch2)) :
    ((sTbl).view.loc (thrV d L) ↦{fullShare} f : sProp 𝕄) = (thrV d L).loc cc0_scratch2 ↦{fullShare} f := rfl
omit [FloatOps F] in
theorem pts_o0 (f : Buf (Elt F) (oLoc d)) :
    ((oS0 L).view.loc (thrV d L) ↦[(oS0 L).view.set]{fullShare} f : sProp 𝕄) = oLoc d ↦[(oS0 L).view.set]{fullShare} f := rfl
omit [FloatOps F] in
theorem pts_o1 (f : Buf (Elt F) (oLoc d)) :
    ((oS1 L).view.loc (thrV d L) ↦[(oS1 L).view.set]{fullShare} f : sProp 𝕄) = oLoc d ↦[(oS1 L).view.set]{fullShare} f := rfl
omit [FloatOps F] in
theorem pts_o2 (f : Buf (Elt F) (oLoc d)) :
    ((oS2 L).view.loc (thrV d L) ↦[(oS2 L).view.set]{fullShare} f : sProp 𝕄) = oLoc d ↦[(oS2 L).view.set]{fullShare} f := rfl
omit [FloatOps F] in
theorem pts_o3 (f : Buf (Elt F) (oLoc d)) :
    ((oS3 L).view.loc (thrV d L) ↦[(oS3 L).view.set]{fullShare} f : sProp 𝕄) = oLoc d ↦[(oS3 L).view.set]{fullShare} f := rfl

/-- The rows of group `gi` are rows of the block. -/
theorem rows_lt (gi : ℕ) (hgi : gi < 8) (x : S16.Idx) : ((Cert.KMath.rowsOf gi iota_S16_d0_w32_scVector) x).toNat < 128 := by
  have hx : (x 0).val < 16 := (x 0).isLt
  simp only [Cert.KMath.rowsOf, addi, IntOp.addi, broadcast, iota, List.foldl, BitVec.toNat_add, BitVec.toNat_ofNat]
  omega

/-- The side condition of an indexed access outside the scan: the group's rows with a constant column, or with the
    row's last token as the column of a logits row. -/
syntax "dchkM " term:max : tactic
macro_rules
  | `(tactic| dchkM $h) => `(tactic| first
    | exact chk2 _ _ (row_ok _ (by decide) _) (by first | colok | (with_reducible exact fun x => tok_lt $h _ _ x))
    | assumption)

omit [FloatOps F] in
theorem wr_tok (f w : Vec F S128x200 .i32) : View.write (Elt F) (sTok).view f w Finset.univ = w := View.write_whole_univ cc0_scratch0 f w
omit [FloatOps F] in
theorem wr_tbl (f w : Vec F S32 .i32) : View.write (Elt F) (sTbl).view f w Finset.univ = w := View.write_whole_univ cc0_scratch2 f w
omit [FloatOps F] in
theorem wr_out (f w : Vec F S128x32 .f32) : View.write (Elt F) (sOut).view f w Finset.univ = w := View.write_whole_univ cc0_scratch1 f w

/-- The lanes' tokens of group `gi` at the constant column `c`, as the body's indexed load of the token scratch. -/
def tokAtCol (ftok : Vec F S128x200 .i32) (gi : Fin 8) (c : ℕ) (hc : c < 200) : IVec S16 32 :=
  loadIdx (View.readAt (Elt F) (sTok).view (LoadRect.whole S128x200) ftok)
    ![Cert.KMath.rowsOf gi.val iota_S16_d0_w32_scVector, broadcast S16 (BitVec.ofNat 32 c)]
    (chk2 _ _ (rows_lt gi.val gi.isLt) (fun x => by
      simp only [broadcast, BitVec.toNat_ofNat]; omega))

/-- One stretch of the body: the indexed loads and stores ahead restated as whole-scratch loads and stores, then run. -/
syntax "adv " term:max : tactic
macro_rules
  | `(tactic| adv $h) => `(tactic| ((conv => rhs; simp only [vli_bind, vsi_bind]); sl_exec (disch := dchkM $h)))

omit [FloatOps F] in
/-- Whatever a scratch holds can be given a name. -/
theorem name_it (ℓ : Loc nD τ sig) (q : PosShare TreeShare) (W : Buf (Elt F) ℓ) :
    (ℓ ↦{q} W : sProp 𝕄) ⊢ iprop(∃ fo', ⌜W = fo'⌝ ∗ ℓ ↦{q} fo') := by
  iintro H; iexists W; isplitr
  · ipureintro; rfl
  · iexact H
omit [FloatOps F] in
/-- The same under a later whole write (the next block's logits copied in over it). -/
theorem name_inner (q : PosShare TreeShare) (W pay : Vec F S128x32 .f32) :
    ((sOut).view.loc (thrV d L) ↦{q} View.write (Elt F) (sOut).view W pay Finset.univ : sProp 𝕄)
      ⊢ iprop(∃ fo', ⌜W = fo'⌝ ∗ (sOut).view.loc (thrV d L) ↦{q} View.write (Elt F) (sOut).view fo' pay Finset.univ) := by
  iintro H; iexists W; isplitr
  · ipureintro; rfl
  · iexact H

/-- A worker's blocks hold the masked logits at their rows. -/
def Qv (m : (ℓ : Loc nD τ sig) → Buf (Elt F) ℓ) : (d : Dev nD) → grid0.Coords → Buf (Elt F) (oLoc d) → Prop :=
  fun d L f => ∀ i ∈ tset L, f i = Cert.Spec.G (m (xLoc d)) (m (tLoc d)) i

set_option maxHeartbeats 8000000 in
set_option maxRecDepth 100000 in
theorem tile_body (hF : (K (F := F)).Facts) (hpre : ∀ i, (m (tLoc d) i).toNat < 32)
    (O : CellTallies nD τ sig (HIx 1)) (W : Waits sig (HIx 1)) (hO : ∀ g, O g none = 0) :
    iprop(levAts (K (F := F)).L (K (F := F)).lev ∗ emp ∗ tileIn m d L
        ∗ scopedBufs (thrV d L) ∗ scopedSems0 (thrV d L) ∗ owes (thrV d L) O W)
      ⊢ wp frame (wpE (defs₀ (F := F)) 𝒱₀ (thrV d L) none) Set.univ
          (cc0_sc_kernel L tokV (Memref.isWhole_whole _) logV (Memref.isWhole_whole _) tblV (Memref.isWhole_whole _) outV (Memref.isWhole_whole _)
            sTok (Memref.isWhole_whole _) sOut (Memref.isWhole_whole _) sTbl (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12)
          fun _ => iprop(tileOut m (Qv m) d L ∗ scopedBufs (thrV d L) ∗ scopedSems0 (thrV d L)
            ∗ ∃ W', ⌜∀ p ∈ W', p ∈ W ∨ p.2 = none⌝ ∗ owes (thrV d L) O W') := by
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  unfold tileIn tileRd tileWr
  iintro ⟨#Hlv, -, ⟨⟨Htok, Hlog, Htbl⟩, ⟨Ho0, Ho1, Ho2, Ho3⟩⟩, ⟨⟨%f6, Hs6⟩, ⟨%f7, Hs7⟩, ⟨%f8, Hs8⟩, Hbufs⟩,
    ⟨Hm0, Hm1, Hm2, Hm3, Hm4, Hm5, Hm6, Hm7, Hm8, Hm9, Hm10, Hm11, Hm12⟩, HO⟩
  ihave Hmw := ((K (F := F)).mayWaits_none (thr := thrV d L) hO) $$ Hlv
  ihave Htok' := (Entails.of_eq (pts_tok (F := F) d L _ _).symm) $$ Htok
  ihave Hlog' := (Entails.of_eq (pts_log (F := F) d L _ _).symm) $$ Hlog
  ihave Htbl' := (Entails.of_eq (pts_tbl (F := F) d L _ _).symm) $$ Htbl
  ihave Hs6' := (Entails.of_eq (pts_s6 (F := F) d L _).symm) $$ Hs6
  ihave Hs7' := (Entails.of_eq (pts_s7 (F := F) d L _).symm) $$ Hs7
  ihave Hs8' := (Entails.of_eq (pts_s8 (F := F) d L _).symm) $$ Hs8
  ihave Ho0' := (Entails.of_eq (pts_o0 (F := F) d L _).symm) $$ Ho0
  ihave Ho1' := (Entails.of_eq (pts_o1 (F := F) d L _).symm) $$ Ho1
  ihave Ho2' := (Entails.of_eq (pts_o2 (F := F) d L _).symm) $$ Ho2
  ihave Ho3' := (Entails.of_eq (pts_o3 (F := F) d L _).symm) $$ Ho3
  sl_exec
  generalize hft0 : View.write (Elt F) sTok.view _ _ Finset.univ = ftok0
  generalize hfb : View.write (Elt F) sTbl.view _ _ Finset.univ = ftbl
  generalize hfo0 : View.write (Elt F) sOut.view _ _ Finset.univ = fo0_0
  have efb : ftbl = tblVal d := hfb.symm.trans (wr_tbl _ _)
  have eft0 : ftok0 = (tS0 L).view.read (Elt F) (m (tLoc d)) := hft0.symm.trans (wr_tok _ _)
  have efo0 : fo0_0 = (xS0 L).view.read (Elt F) (m (xLoc d)) := hfo0.symm.trans (wr_out _ _)
  have htok0 : ∀ j : S128x200.Idx, ((ftok0 : Vec F S128x200 .i32) j).toNat < 32 := by
    intro j; rw [eft0, View.read_apply]; simp only [cast_eq]; exact hpre _
  adv htok0
  try (adv htok0)
  -- block 0, group 0: the scan by its invariant, the masks, the four add-stores, on to the next scan; then the group's step
  sl_for (inv d L ftok0 ftbl (Cert.KMath.rowsOf 0 iota_S16_d0_w32_scVector) (tokAtCol ftok0 0 199 (by decide))) $$ [Hs6' Hs8']
  case region =>
    exact region_ok d L ftok0 htok0 ftbl (Cert.KMath.rowsOf 0 iota_S16_d0_w32_scVector) (rows_lt 0 (by decide)) (tokAtCol ftok0 0 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_1, %hfo0_1, Hs7'⟩
  have hs0_0 : Cert.KMath.GroupStep ftok0 ftbl iota_S16_d0_w32_scVector 0 fo0_0 fo0_1 :=
    groupStep_exec ftok0 htok0 ftbl iota_S16_d0_w32_scVector 0 (by decide) fo0_0 fo0_1 hfo0_1
  -- block 0, group 1: the scan by its invariant, the masks, the four add-stores, on to the next scan; then the group's step
  sl_for (inv d L ftok0 ftbl (Cert.KMath.rowsOf 1 iota_S16_d0_w32_scVector) (tokAtCol ftok0 1 199 (by decide))) $$ [Hs6' Hs8']
  case region =>
    exact region_ok d L ftok0 htok0 ftbl (Cert.KMath.rowsOf 1 iota_S16_d0_w32_scVector) (rows_lt 1 (by decide)) (tokAtCol ftok0 1 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_2, %hfo0_2, Hs7'⟩
  have hs0_1 : Cert.KMath.GroupStep ftok0 ftbl iota_S16_d0_w32_scVector 1 fo0_1 fo0_2 :=
    groupStep_exec ftok0 htok0 ftbl iota_S16_d0_w32_scVector 1 (by decide) fo0_1 fo0_2 hfo0_2
  -- block 0, group 2: the scan by its invariant, the masks, the four add-stores, on to the next scan; then the group's step
  sl_for (inv d L ftok0 ftbl (Cert.KMath.rowsOf 2 iota_S16_d0_w32_scVector) (tokAtCol ftok0 2 199 (by decide))) $$ [Hs6' Hs8']
  case region =>
    exact region_ok d L ftok0 htok0 ftbl (Cert.KMath.rowsOf 2 iota_S16_d0_w32_scVector) (rows_lt 2 (by decide)) (tokAtCol ftok0 2 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_3, %hfo0_3, Hs7'⟩
  have hs0_2 : Cert.KMath.GroupStep ftok0 ftbl iota_S16_d0_w32_scVector 2 fo0_2 fo0_3 :=
    groupStep_exec ftok0 htok0 ftbl iota_S16_d0_w32_scVector 2 (by decide) fo0_2 fo0_3 hfo0_3
  -- block 0, group 3: the scan by its invariant, the masks, the four add-stores, on to the next scan; then the group's step
  sl_for (inv d L ftok0 ftbl (Cert.KMath.rowsOf 3 iota_S16_d0_w32_scVector) (tokAtCol ftok0 3 199 (by decide))) $$ [Hs6' Hs8']
  case region =>
    exact region_ok d L ftok0 htok0 ftbl (Cert.KMath.rowsOf 3 iota_S16_d0_w32_scVector) (rows_lt 3 (by decide)) (tokAtCol ftok0 3 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_4, %hfo0_4, Hs7'⟩
  have hs0_3 : Cert.KMath.GroupStep ftok0 ftbl iota_S16_d0_w32_scVector 3 fo0_3 fo0_4 :=
    groupStep_exec ftok0 htok0 ftbl iota_S16_d0_w32_scVector 3 (by decide) fo0_3 fo0_4 hfo0_4
  -- block 0, group 4: the scan by its invariant, the masks, the four add-stores, on to the next scan; then the group's step
  sl_for (inv d L ftok0 ftbl (Cert.KMath.rowsOf 4 iota_S16_d0_w32_scVector) (tokAtCol ftok0 4 199 (by decide))) $$ [Hs6' Hs8']
  case region =>
    exact region_ok d L ftok0 htok0 ftbl (Cert.KMath.rowsOf 4 iota_S16_d0_w32_scVector) (rows_lt 4 (by decide)) (tokAtCol ftok0 4 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_5, %hfo0_5, Hs7'⟩
  have hs0_4 : Cert.KMath.GroupStep ftok0 ftbl iota_S16_d0_w32_scVector 4 fo0_4 fo0_5 :=
    groupStep_exec ftok0 htok0 ftbl iota_S16_d0_w32_scVector 4 (by decide) fo0_4 fo0_5 hfo0_5
  -- block 0, group 5: the scan by its invariant, the masks, the four add-stores, on to the next scan; then the group's step
  sl_for (inv d L ftok0 ftbl (Cert.KMath.rowsOf 5 iota_S16_d0_w32_scVector) (tokAtCol ftok0 5 199 (by decide))) $$ [Hs6' Hs8']
  case region =>
    exact region_ok d L ftok0 htok0 ftbl (Cert.KMath.rowsOf 5 iota_S16_d0_w32_scVector) (rows_lt 5 (by decide)) (tokAtCol ftok0 5 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_6, %hfo0_6, Hs7'⟩
  have hs0_5 : Cert.KMath.GroupStep ftok0 ftbl iota_S16_d0_w32_scVector 5 fo0_5 fo0_6 :=
    groupStep_exec ftok0 htok0 ftbl iota_S16_d0_w32_scVector 5 (by decide) fo0_5 fo0_6 hfo0_6
  -- block 0, group 6: the scan by its invariant, the masks, the four add-stores, on to the next scan; then the group's step
  sl_for (inv d L ftok0 ftbl (Cert.KMath.rowsOf 6 iota_S16_d0_w32_scVector) (tokAtCol ftok0 6 199 (by decide))) $$ [Hs6' Hs8']
  case region =>
    exact region_ok d L ftok0 htok0 ftbl (Cert.KMath.rowsOf 6 iota_S16_d0_w32_scVector) (rows_lt 6 (by decide)) (tokAtCol ftok0 6 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_it (F := F) _ _ _) $$ Hs7'
  icases Hx with ⟨%fo0_7, %hfo0_7, Hs7'⟩
  have hs0_6 : Cert.KMath.GroupStep ftok0 ftbl iota_S16_d0_w32_scVector 6 fo0_6 fo0_7 :=
    groupStep_exec ftok0 htok0 ftbl iota_S16_d0_w32_scVector 6 (by decide) fo0_6 fo0_7 hfo0_7
  -- block 0, group 7: the scan by its invariant, the masks, the four add-stores, on to the next scan; then the group's step
  sl_for (inv d L ftok0 ftbl (Cert.KMath.rowsOf 7 iota_S16_d0_w32_scVector) (tokAtCol ftok0 7 199 (by decide))) $$ [Hs6' Hs8']
  case region =>
    exact region_ok d L ftok0 htok0 ftbl (Cert.KMath.rowsOf 7 iota_S16_d0_w32_scVector) (rows_lt 7 (by decide)) (tokAtCol ftok0 7 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok0
  try (adv htok0)
  try (adv htok0)
  try (adv htok0)
  try (adv htok0)
  try (adv htok0)
  ihave Hx := (name_inner (F := F) d L _ _ _) $$ Hs7'
  icases Hx with ⟨%fo0_8, %hfo0_8, Hs7'⟩
  have hs0_7 : Cert.KMath.GroupStep ftok0 ftbl iota_S16_d0_w32_scVector 7 fo0_7 fo0_8 :=
    groupStep_exec7 ftok0 htok0 ftbl iota_S16_d0_w32_scVector 7 (by decide) fo0_7 fo0_8 hfo0_8
  -- block 1: its tokens and logits are in the scratch
  generalize hft1 : View.write (Elt F) sTok.view _ _ Finset.univ = ftok1
  generalize hfo1 : View.write (Elt F) sOut.view _ _ Finset.univ = fo1_0
  have eft1 : ftok1 = (tS1 L).view.read (Elt F) (m (tLoc d)) := hft1.symm.trans (wr_tok _ _)
  have efo1 : fo1_0 = (xS1 L).view.read (Elt F) (m (xLoc d)) := hfo1.symm.trans (wr_out _ _)
  have htok1 : ∀ j : S128x200.Idx, ((ftok1 : Vec F S128x200 .i32) j).toNat < 32 := by
    intro j; rw [eft1, View.read_apply]; simp only [cast_eq]; exact hpre _
  adv htok1
  try (adv htok1)
  -- block 1, group 0: the scan by its invariant, the masks, the four add-stores, on to the next scan; then the group's step
  sl_for (inv d L ftok1 ftbl (Cert.KMath.rowsOf 0 iota_S16_d0_w32_scVector) (tokAtCol ftok1 0 199 (by decide))) $$ [Hs6' Hs8']
  case region =>
    exact region_ok d L ftok1 htok1 ftbl (Cert.KMath.rowsOf 0 iota_S16_d0_w32_scVector) (rows_lt 0 (by decide)) (tokAtCol ftok1 0 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_1, %hfo1_1, Hs7'⟩
  have hs1_0 : Cert.KMath.GroupStep ftok1 ftbl iota_S16_d0_w32_scVector 0 fo1_0 fo1_1 :=
    groupStep_exec ftok1 htok1 ftbl iota_S16_d0_w32_scVector 0 (by decide) fo1_0 fo1_1 hfo1_1
  -- block 1, group 1: the scan by its invariant, the masks, the four add-stores, on to the next scan; then the group's step
  sl_for (inv d L ftok1 ftbl (Cert.KMath.rowsOf 1 iota_S16_d0_w32_scVector) (tokAtCol ftok1 1 199 (by decide))) $$ [Hs6' Hs8']
  case region =>
    exact region_ok d L ftok1 htok1 ftbl (Cert.KMath.rowsOf 1 iota_S16_d0_w32_scVector) (rows_lt 1 (by decide)) (tokAtCol ftok1 1 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_2, %hfo1_2, Hs7'⟩
  have hs1_1 : Cert.KMath.GroupStep ftok1 ftbl iota_S16_d0_w32_scVector 1 fo1_1 fo1_2 :=
    groupStep_exec ftok1 htok1 ftbl iota_S16_d0_w32_scVector 1 (by decide) fo1_1 fo1_2 hfo1_2
  -- block 1, group 2: the scan by its invariant, the masks, the four add-stores, on to the next scan; then the group's step
  sl_for (inv d L ftok1 ftbl (Cert.KMath.rowsOf 2 iota_S16_d0_w32_scVector) (tokAtCol ftok1 2 199 (by decide))) $$ [Hs6' Hs8']
  case region =>
    exact region_ok d L ftok1 htok1 ftbl (Cert.KMath.rowsOf 2 iota_S16_d0_w32_scVector) (rows_lt 2 (by decide)) (tokAtCol ftok1 2 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_3, %hfo1_3, Hs7'⟩
  have hs1_2 : Cert.KMath.GroupStep ftok1 ftbl iota_S16_d0_w32_scVector 2 fo1_2 fo1_3 :=
    groupStep_exec ftok1 htok1 ftbl iota_S16_d0_w32_scVector 2 (by decide) fo1_2 fo1_3 hfo1_3
  -- block 1, group 3: the scan by its invariant, the masks, the four add-stores, on to the next scan; then the group's step
  sl_for (inv d L ftok1 ftbl (Cert.KMath.rowsOf 3 iota_S16_d0_w32_scVector) (tokAtCol ftok1 3 199 (by decide))) $$ [Hs6' Hs8']
  case region =>
    exact region_ok d L ftok1 htok1 ftbl (Cert.KMath.rowsOf 3 iota_S16_d0_w32_scVector) (rows_lt 3 (by decide)) (tokAtCol ftok1 3 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_4, %hfo1_4, Hs7'⟩
  have hs1_3 : Cert.KMath.GroupStep ftok1 ftbl iota_S16_d0_w32_scVector 3 fo1_3 fo1_4 :=
    groupStep_exec ftok1 htok1 ftbl iota_S16_d0_w32_scVector 3 (by decide) fo1_3 fo1_4 hfo1_4
  -- block 1, group 4: the scan by its invariant, the masks, the four add-stores, on to the next scan; then the group's step
  sl_for (inv d L ftok1 ftbl (Cert.KMath.rowsOf 4 iota_S16_d0_w32_scVector) (tokAtCol ftok1 4 199 (by decide))) $$ [Hs6' Hs8']
  case region =>
    exact region_ok d L ftok1 htok1 ftbl (Cert.KMath.rowsOf 4 iota_S16_d0_w32_scVector) (rows_lt 4 (by decide)) (tokAtCol ftok1 4 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_5, %hfo1_5, Hs7'⟩
  have hs1_4 : Cert.KMath.GroupStep ftok1 ftbl iota_S16_d0_w32_scVector 4 fo1_4 fo1_5 :=
    groupStep_exec ftok1 htok1 ftbl iota_S16_d0_w32_scVector 4 (by decide) fo1_4 fo1_5 hfo1_5
  -- block 1, group 5: the scan by its invariant, the masks, the four add-stores, on to the next scan; then the group's step
  sl_for (inv d L ftok1 ftbl (Cert.KMath.rowsOf 5 iota_S16_d0_w32_scVector) (tokAtCol ftok1 5 199 (by decide))) $$ [Hs6' Hs8']
  case region =>
    exact region_ok d L ftok1 htok1 ftbl (Cert.KMath.rowsOf 5 iota_S16_d0_w32_scVector) (rows_lt 5 (by decide)) (tokAtCol ftok1 5 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_6, %hfo1_6, Hs7'⟩
  have hs1_5 : Cert.KMath.GroupStep ftok1 ftbl iota_S16_d0_w32_scVector 5 fo1_5 fo1_6 :=
    groupStep_exec ftok1 htok1 ftbl iota_S16_d0_w32_scVector 5 (by decide) fo1_5 fo1_6 hfo1_6
  -- block 1, group 6: the scan by its invariant, the masks, the four add-stores, on to the next scan; then the group's step
  sl_for (inv d L ftok1 ftbl (Cert.KMath.rowsOf 6 iota_S16_d0_w32_scVector) (tokAtCol ftok1 6 199 (by decide))) $$ [Hs6' Hs8']
  case region =>
    exact region_ok d L ftok1 htok1 ftbl (Cert.KMath.rowsOf 6 iota_S16_d0_w32_scVector) (rows_lt 6 (by decide)) (tokAtCol ftok1 6 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_it (F := F) _ _ _) $$ Hs7'
  icases Hx with ⟨%fo1_7, %hfo1_7, Hs7'⟩
  have hs1_6 : Cert.KMath.GroupStep ftok1 ftbl iota_S16_d0_w32_scVector 6 fo1_6 fo1_7 :=
    groupStep_exec ftok1 htok1 ftbl iota_S16_d0_w32_scVector 6 (by decide) fo1_6 fo1_7 hfo1_7
  -- block 1, group 7: the scan by its invariant, the masks, the four add-stores, on to the next scan; then the group's step
  sl_for (inv d L ftok1 ftbl (Cert.KMath.rowsOf 7 iota_S16_d0_w32_scVector) (tokAtCol ftok1 7 199 (by decide))) $$ [Hs6' Hs8']
  case region =>
    exact region_ok d L ftok1 htok1 ftbl (Cert.KMath.rowsOf 7 iota_S16_d0_w32_scVector) (rows_lt 7 (by decide)) (tokAtCol ftok1 7 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok1
  try (adv htok1)
  try (adv htok1)
  try (adv htok1)
  try (adv htok1)
  try (adv htok1)
  ihave Hx := (name_inner (F := F) d L _ _ _) $$ Hs7'
  icases Hx with ⟨%fo1_8, %hfo1_8, Hs7'⟩
  have hs1_7 : Cert.KMath.GroupStep ftok1 ftbl iota_S16_d0_w32_scVector 7 fo1_7 fo1_8 :=
    groupStep_exec7 ftok1 htok1 ftbl iota_S16_d0_w32_scVector 7 (by decide) fo1_7 fo1_8 hfo1_8
  -- block 2: its tokens and logits are in the scratch
  generalize hft2 : View.write (Elt F) sTok.view _ _ Finset.univ = ftok2
  generalize hfo2 : View.write (Elt F) sOut.view _ _ Finset.univ = fo2_0
  have eft2 : ftok2 = (tS2 L).view.read (Elt F) (m (tLoc d)) := hft2.symm.trans (wr_tok _ _)
  have efo2 : fo2_0 = (xS2 L).view.read (Elt F) (m (xLoc d)) := hfo2.symm.trans (wr_out _ _)
  have htok2 : ∀ j : S128x200.Idx, ((ftok2 : Vec F S128x200 .i32) j).toNat < 32 := by
    intro j; rw [eft2, View.read_apply]; simp only [cast_eq]; exact hpre _
  adv htok2
  try (adv htok2)
  -- block 2, group 0: the scan by its invariant, the masks, the four add-stores, on to the next scan; then the group's step
  sl_for (inv d L ftok2 ftbl (Cert.KMath.rowsOf 0 iota_S16_d0_w32_scVector) (tokAtCol ftok2 0 199 (by decide))) $$ [Hs6' Hs8']
  case region =>
    exact region_ok d L ftok2 htok2 ftbl (Cert.KMath.rowsOf 0 iota_S16_d0_w32_scVector) (rows_lt 0 (by decide)) (tokAtCol ftok2 0 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_1, %hfo2_1, Hs7'⟩
  have hs2_0 : Cert.KMath.GroupStep ftok2 ftbl iota_S16_d0_w32_scVector 0 fo2_0 fo2_1 :=
    groupStep_exec ftok2 htok2 ftbl iota_S16_d0_w32_scVector 0 (by decide) fo2_0 fo2_1 hfo2_1
  -- block 2, group 1: the scan by its invariant, the masks, the four add-stores, on to the next scan; then the group's step
  sl_for (inv d L ftok2 ftbl (Cert.KMath.rowsOf 1 iota_S16_d0_w32_scVector) (tokAtCol ftok2 1 199 (by decide))) $$ [Hs6' Hs8']
  case region =>
    exact region_ok d L ftok2 htok2 ftbl (Cert.KMath.rowsOf 1 iota_S16_d0_w32_scVector) (rows_lt 1 (by decide)) (tokAtCol ftok2 1 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_2, %hfo2_2, Hs7'⟩
  have hs2_1 : Cert.KMath.GroupStep ftok2 ftbl iota_S16_d0_w32_scVector 1 fo2_1 fo2_2 :=
    groupStep_exec ftok2 htok2 ftbl iota_S16_d0_w32_scVector 1 (by decide) fo2_1 fo2_2 hfo2_2
  -- block 2, group 2: the scan by its invariant, the masks, the four add-stores, on to the next scan; then the group's step
  sl_for (inv d L ftok2 ftbl (Cert.KMath.rowsOf 2 iota_S16_d0_w32_scVector) (tokAtCol ftok2 2 199 (by decide))) $$ [Hs6' Hs8']
  case region =>
    exact region_ok d L ftok2 htok2 ftbl (Cert.KMath.rowsOf 2 iota_S16_d0_w32_scVector) (rows_lt 2 (by decide)) (tokAtCol ftok2 2 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_3, %hfo2_3, Hs7'⟩
  have hs2_2 : Cert.KMath.GroupStep ftok2 ftbl iota_S16_d0_w32_scVector 2 fo2_2 fo2_3 :=
    groupStep_exec ftok2 htok2 ftbl iota_S16_d0_w32_scVector 2 (by decide) fo2_2 fo2_3 hfo2_3
  -- block 2, group 3: the scan by its invariant, the masks, the four add-stores, on to the next scan; then the group's step
  sl_for (inv d L ftok2 ftbl (Cert.KMath.rowsOf 3 iota_S16_d0_w32_scVector) (tokAtCol ftok2 3 199 (by decide))) $$ [Hs6' Hs8']
  case region =>
    exact region_ok d L ftok2 htok2 ftbl (Cert.KMath.rowsOf 3 iota_S16_d0_w32_scVector) (rows_lt 3 (by decide)) (tokAtCol ftok2 3 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_4, %hfo2_4, Hs7'⟩
  have hs2_3 : Cert.KMath.GroupStep ftok2 ftbl iota_S16_d0_w32_scVector 3 fo2_3 fo2_4 :=
    groupStep_exec ftok2 htok2 ftbl iota_S16_d0_w32_scVector 3 (by decide) fo2_3 fo2_4 hfo2_4
  -- block 2, group 4: the scan by its invariant, the masks, the four add-stores, on to the next scan; then the group's step
  sl_for (inv d L ftok2 ftbl (Cert.KMath.rowsOf 4 iota_S16_d0_w32_scVector) (tokAtCol ftok2 4 199 (by decide))) $$ [Hs6' Hs8']
  case region =>
    exact region_ok d L ftok2 htok2 ftbl (Cert.KMath.rowsOf 4 iota_S16_d0_w32_scVector) (rows_lt 4 (by decide)) (tokAtCol ftok2 4 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_5, %hfo2_5, Hs7'⟩
  have hs2_4 : Cert.KMath.GroupStep ftok2 ftbl iota_S16_d0_w32_scVector 4 fo2_4 fo2_5 :=
    groupStep_exec ftok2 htok2 ftbl iota_S16_d0_w32_scVector 4 (by decide) fo2_4 fo2_5 hfo2_5
  -- block 2, group 5: the scan by its invariant, the masks, the four add-stores, on to the next scan; then the group's step
  sl_for (inv d L ftok2 ftbl (Cert.KMath.rowsOf 5 iota_S16_d0_w32_scVector) (tokAtCol ftok2 5 199 (by decide))) $$ [Hs6' Hs8']
  case region =>
    exact region_ok d L ftok2 htok2 ftbl (Cert.KMath.rowsOf 5 iota_S16_d0_w32_scVector) (rows_lt 5 (by decide)) (tokAtCol ftok2 5 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_6, %hfo2_6, Hs7'⟩
  have hs2_5 : Cert.KMath.GroupStep ftok2 ftbl iota_S16_d0_w32_scVector 5 fo2_5 fo2_6 :=
    groupStep_exec ftok2 htok2 ftbl iota_S16_d0_w32_scVector 5 (by decide) fo2_5 fo2_6 hfo2_6
  -- block 2, group 6: the scan by its invariant, the masks, the four add-stores, on to the next scan; then the group's step
  sl_for (inv d L ftok2 ftbl (Cert.KMath.rowsOf 6 iota_S16_d0_w32_scVector) (tokAtCol ftok2 6 199 (by decide))) $$ [Hs6' Hs8']
  case region =>
    exact region_ok d L ftok2 htok2 ftbl (Cert.KMath.rowsOf 6 iota_S16_d0_w32_scVector) (rows_lt 6 (by decide)) (tokAtCol ftok2 6 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_it (F := F) _ _ _) $$ Hs7'
  icases Hx with ⟨%fo2_7, %hfo2_7, Hs7'⟩
  have hs2_6 : Cert.KMath.GroupStep ftok2 ftbl iota_S16_d0_w32_scVector 6 fo2_6 fo2_7 :=
    groupStep_exec ftok2 htok2 ftbl iota_S16_d0_w32_scVector 6 (by decide) fo2_6 fo2_7 hfo2_7
  -- block 2, group 7: the scan by its invariant, the masks, the four add-stores, on to the next scan; then the group's step
  sl_for (inv d L ftok2 ftbl (Cert.KMath.rowsOf 7 iota_S16_d0_w32_scVector) (tokAtCol ftok2 7 199 (by decide))) $$ [Hs6' Hs8']
  case region =>
    exact region_ok d L ftok2 htok2 ftbl (Cert.KMath.rowsOf 7 iota_S16_d0_w32_scVector) (rows_lt 7 (by decide)) (tokAtCol ftok2 7 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok2
  try (adv htok2)
  try (adv htok2)
  try (adv htok2)
  try (adv htok2)
  try (adv htok2)
  ihave Hx := (name_inner (F := F) d L _ _ _) $$ Hs7'
  icases Hx with ⟨%fo2_8, %hfo2_8, Hs7'⟩
  have hs2_7 : Cert.KMath.GroupStep ftok2 ftbl iota_S16_d0_w32_scVector 7 fo2_7 fo2_8 :=
    groupStep_exec7 ftok2 htok2 ftbl iota_S16_d0_w32_scVector 7 (by decide) fo2_7 fo2_8 hfo2_8
  -- block 3: its tokens and logits are in the scratch
  generalize hft3 : View.write (Elt F) sTok.view _ _ Finset.univ = ftok3
  generalize hfo3 : View.write (Elt F) sOut.view _ _ Finset.univ = fo3_0
  have eft3 : ftok3 = (tS3 L).view.read (Elt F) (m (tLoc d)) := hft3.symm.trans (wr_tok _ _)
  have efo3 : fo3_0 = (xS3 L).view.read (Elt F) (m (xLoc d)) := hfo3.symm.trans (wr_out _ _)
  have htok3 : ∀ j : S128x200.Idx, ((ftok3 : Vec F S128x200 .i32) j).toNat < 32 := by
    intro j; rw [eft3, View.read_apply]; simp only [cast_eq]; exact hpre _
  adv htok3
  try (adv htok3)
  -- block 3, group 0: the scan by its invariant, the masks, the four add-stores, on to the next scan; then the group's step
  sl_for (inv d L ftok3 ftbl (Cert.KMath.rowsOf 0 iota_S16_d0_w32_scVector) (tokAtCol ftok3 0 199 (by decide))) $$ [Hs6' Hs8']
  case region =>
    exact region_ok d L ftok3 htok3 ftbl (Cert.KMath.rowsOf 0 iota_S16_d0_w32_scVector) (rows_lt 0 (by decide)) (tokAtCol ftok3 0 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_1, %hfo3_1, Hs7'⟩
  have hs3_0 : Cert.KMath.GroupStep ftok3 ftbl iota_S16_d0_w32_scVector 0 fo3_0 fo3_1 :=
    groupStep_exec ftok3 htok3 ftbl iota_S16_d0_w32_scVector 0 (by decide) fo3_0 fo3_1 hfo3_1
  -- block 3, group 1: the scan by its invariant, the masks, the four add-stores, on to the next scan; then the group's step
  sl_for (inv d L ftok3 ftbl (Cert.KMath.rowsOf 1 iota_S16_d0_w32_scVector) (tokAtCol ftok3 1 199 (by decide))) $$ [Hs6' Hs8']
  case region =>
    exact region_ok d L ftok3 htok3 ftbl (Cert.KMath.rowsOf 1 iota_S16_d0_w32_scVector) (rows_lt 1 (by decide)) (tokAtCol ftok3 1 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_2, %hfo3_2, Hs7'⟩
  have hs3_1 : Cert.KMath.GroupStep ftok3 ftbl iota_S16_d0_w32_scVector 1 fo3_1 fo3_2 :=
    groupStep_exec ftok3 htok3 ftbl iota_S16_d0_w32_scVector 1 (by decide) fo3_1 fo3_2 hfo3_2
  -- block 3, group 2: the scan by its invariant, the masks, the four add-stores, on to the next scan; then the group's step
  sl_for (inv d L ftok3 ftbl (Cert.KMath.rowsOf 2 iota_S16_d0_w32_scVector) (tokAtCol ftok3 2 199 (by decide))) $$ [Hs6' Hs8']
  case region =>
    exact region_ok d L ftok3 htok3 ftbl (Cert.KMath.rowsOf 2 iota_S16_d0_w32_scVector) (rows_lt 2 (by decide)) (tokAtCol ftok3 2 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_3, %hfo3_3, Hs7'⟩
  have hs3_2 : Cert.KMath.GroupStep ftok3 ftbl iota_S16_d0_w32_scVector 2 fo3_2 fo3_3 :=
    groupStep_exec ftok3 htok3 ftbl iota_S16_d0_w32_scVector 2 (by decide) fo3_2 fo3_3 hfo3_3
  -- block 3, group 3: the scan by its invariant, the masks, the four add-stores, on to the next scan; then the group's step
  sl_for (inv d L ftok3 ftbl (Cert.KMath.rowsOf 3 iota_S16_d0_w32_scVector) (tokAtCol ftok3 3 199 (by decide))) $$ [Hs6' Hs8']
  case region =>
    exact region_ok d L ftok3 htok3 ftbl (Cert.KMath.rowsOf 3 iota_S16_d0_w32_scVector) (rows_lt 3 (by decide)) (tokAtCol ftok3 3 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_4, %hfo3_4, Hs7'⟩
  have hs3_3 : Cert.KMath.GroupStep ftok3 ftbl iota_S16_d0_w32_scVector 3 fo3_3 fo3_4 :=
    groupStep_exec ftok3 htok3 ftbl iota_S16_d0_w32_scVector 3 (by decide) fo3_3 fo3_4 hfo3_4
  -- block 3, group 4: the scan by its invariant, the masks, the four add-stores, on to the next scan; then the group's step
  sl_for (inv d L ftok3 ftbl (Cert.KMath.rowsOf 4 iota_S16_d0_w32_scVector) (tokAtCol ftok3 4 199 (by decide))) $$ [Hs6' Hs8']
  case region =>
    exact region_ok d L ftok3 htok3 ftbl (Cert.KMath.rowsOf 4 iota_S16_d0_w32_scVector) (rows_lt 4 (by decide)) (tokAtCol ftok3 4 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_5, %hfo3_5, Hs7'⟩
  have hs3_4 : Cert.KMath.GroupStep ftok3 ftbl iota_S16_d0_w32_scVector 4 fo3_4 fo3_5 :=
    groupStep_exec ftok3 htok3 ftbl iota_S16_d0_w32_scVector 4 (by decide) fo3_4 fo3_5 hfo3_5
  -- block 3, group 5: the scan by its invariant, the masks, the four add-stores, on to the next scan; then the group's step
  sl_for (inv d L ftok3 ftbl (Cert.KMath.rowsOf 5 iota_S16_d0_w32_scVector) (tokAtCol ftok3 5 199 (by decide))) $$ [Hs6' Hs8']
  case region =>
    exact region_ok d L ftok3 htok3 ftbl (Cert.KMath.rowsOf 5 iota_S16_d0_w32_scVector) (rows_lt 5 (by decide)) (tokAtCol ftok3 5 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_6, %hfo3_6, Hs7'⟩
  have hs3_5 : Cert.KMath.GroupStep ftok3 ftbl iota_S16_d0_w32_scVector 5 fo3_5 fo3_6 :=
    groupStep_exec ftok3 htok3 ftbl iota_S16_d0_w32_scVector 5 (by decide) fo3_5 fo3_6 hfo3_6
  -- block 3, group 6: the scan by its invariant, the masks, the four add-stores, on to the next scan; then the group's step
  sl_for (inv d L ftok3 ftbl (Cert.KMath.rowsOf 6 iota_S16_d0_w32_scVector) (tokAtCol ftok3 6 199 (by decide))) $$ [Hs6' Hs8']
  case region =>
    exact region_ok d L ftok3 htok3 ftbl (Cert.KMath.rowsOf 6 iota_S16_d0_w32_scVector) (rows_lt 6 (by decide)) (tokAtCol ftok3 6 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_7, %hfo3_7, Hs7'⟩
  have hs3_6 : Cert.KMath.GroupStep ftok3 ftbl iota_S16_d0_w32_scVector 6 fo3_6 fo3_7 :=
    groupStep_exec ftok3 htok3 ftbl iota_S16_d0_w32_scVector 6 (by decide) fo3_6 fo3_7 hfo3_7
  -- block 3, group 7: the scan by its invariant, the masks, the four add-stores, on to the next scan; then the group's step
  sl_for (inv d L ftok3 ftbl (Cert.KMath.rowsOf 7 iota_S16_d0_w32_scVector) (tokAtCol ftok3 7 199 (by decide))) $$ [Hs6' Hs8']
  case region =>
    exact region_ok d L ftok3 htok3 ftbl (Cert.KMath.rowsOf 7 iota_S16_d0_w32_scVector) (rows_lt 7 (by decide)) (tokAtCol ftok3 7 199 (by decide))
  · unfold inv
    isplitr
    · ipureintro; rfl
    isplitl [Hs6']
    · iexact Hs6'
    · iexact Hs8'
  iintro %acc HI
  unfold inv
  icases HI with ⟨%hacc, Hs6', Hs8'⟩
  subst hacc
  adv htok3
  try (adv htok3)
  try (adv htok3)
  try (adv htok3)
  try (adv htok3)
  try (adv htok3)
  ihave Hx := (name_it (F := F) _ _ _) $$ Hs7'
  icases Hx with ⟨%fo3_8, %hfo3_8, Hs7'⟩
  have hs3_7 : Cert.KMath.GroupStep ftok3 ftbl iota_S16_d0_w32_scVector 7 fo3_7 fo3_8 :=
    groupStep_exec7 ftok3 htok3 ftbl iota_S16_d0_w32_scVector 7 (by decide) fo3_7 fo3_8 hfo3_8
  -- the body has returned: what the worker hands back
  rw [wp_ret]; imodintro
  unfold tileOut tileRd tileWr
  isplitl [Htok' Hlog' Htbl' Ho0' Ho1' Ho2' Ho3']
  · isplitl [Htok' Hlog' Htbl']
    · isplitl [Htok']
      · iapply (Entails.of_eq (pts_tok (F := F) d L _ _)); iexact Htok'
      isplitl [Hlog']
      · iapply (Entails.of_eq (pts_log (F := F) d L _ _)); iexact Hlog'
      · iapply (Entails.of_eq (pts_tbl (F := F) d L _ _)); iexact Htbl'
    · iexists (Cert.Spec.G (m (xLoc d)) (m (tLoc d)))
      isplitr
      · ipureintro; intro i _; rfl
      isplitl [Ho0']
      · iapply (Entails.of_eq ((pointsTo_congr (fun i hi => block_out0 m d L hpre ftok0 ftbl fo0_0 fo0_1 fo0_2 fo0_3 fo0_4 fo0_5 fo0_6 fo0_7 fo0_8 eft0 efo0 efb
            hs0_0 hs0_1 hs0_2 hs0_3 hs0_4 hs0_5 hs0_6 hs0_7 _ _ hfo0_8 i hi)).trans (pts_o0 (F := F) d L _)))
        iexact Ho0'
      isplitl [Ho1']
      · iapply (Entails.of_eq ((pointsTo_congr (fun i hi => block_out1 m d L hpre ftok1 ftbl fo1_0 fo1_1 fo1_2 fo1_3 fo1_4 fo1_5 fo1_6 fo1_7 fo1_8 eft1 efo1 efb
            hs1_0 hs1_1 hs1_2 hs1_3 hs1_4 hs1_5 hs1_6 hs1_7 _ _ hfo1_8 i hi)).trans (pts_o1 (F := F) d L _)))
        iexact Ho1'
      isplitl [Ho2']
      · iapply (Entails.of_eq ((pointsTo_congr (fun i hi => block_out2 m d L hpre ftok2 ftbl fo2_0 fo2_1 fo2_2 fo2_3 fo2_4 fo2_5 fo2_6 fo2_7 fo2_8 eft2 efo2 efb
            hs2_0 hs2_1 hs2_2 hs2_3 hs2_4 hs2_5 hs2_6 hs2_7 _ _ hfo2_8 i hi)).trans (pts_o2 (F := F) d L _)))
        iexact Ho2'
      · iapply (Entails.of_eq ((pointsTo_congr (fun i hi => block_out3 m d L hpre ftok3 ftbl fo3_0 fo3_1 fo3_2 fo3_3 fo3_4 fo3_5 fo3_6 fo3_7 fo3_8 eft3 efo3 efb
            hs3_0 hs3_1 hs3_2 hs3_3 hs3_4 hs3_5 hs3_6 hs3_7 _ _ hfo3_8 i hi)).trans (pts_o3 (F := F) d L _)))
        iexact Ho3'
  isplitl [Hs6' Hs7' Hs8' Hbufs]
  · isplitl [Hs6']
    · iexists _; iapply (Entails.of_eq (pts_s6 (F := F) d L _)); iexact Hs6'
    isplitl [Hs7']
    · iexists _; iapply (Entails.of_eq (pts_s7 (F := F) d L _)); iexact Hs7'
    isplitl [Hs8']
    · iexists _; iapply (Entails.of_eq (pts_s8 (F := F) d L _)); iexact Hs8'
    · iexact Hbufs
  isplitl [Hm0 Hm1 Hm2 Hm3 Hm4 Hm5 Hm6 Hm7 Hm8 Hm9 Hm10 Hm11 Hm12]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    iexact Hm12
  iexists _
  isplitr
  swap
  · iexact HO
  · ipureintro
    intro p hp
    simp only [Finset.mem_insert] at hp
    rcases hp with rfl | rfl | rfl | rfl | rfl | rfl | rfl | rfl | rfl | rfl | rfl | rfl | rfl | hp
    all_goals first | exact .inl hp | exact .inr rfl

/-! ## The launch theorem's obligation -/

theorem defs₀_vector (c : Fin τ.nSC) (s : Fin τ.nSub) :
    defs₀ (F := F) (.scVector c s) 0 ()
      = SparseCore.onTile hcore0 hsub0 (fun c s => cc0_sc_kernel (coordsV c s)
          tokV (Memref.isWhole_whole _) logV (Memref.isWhole_whole _) tblV (Memref.isWhole_whole _) outV (Memref.isWhole_whole _)
          sTok (Memref.isWhole_whole _) sOut (Memref.isWhole_whole _) sTbl (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task obligation of the one call: every worker's body, from its share of the operands to its four blocks of
    the result holding the masked logits. -/
theorem tileObl (m : (ℓ : Loc nD τ sig) → Buf (Elt F) ℓ) (hpre : ∀ (d : Dev nD) i, (m (tLoc d) i).toNat < 32) :
    (K (F := F)).TileObl (D (F := F)) 𝒱 (P m (Qv m)) v₀ 0 := by
  intro d c i O W hO _ _
  simp only [show (P m (Qv m)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts (hpre d) O W hO).trans (wp_mono frame _ _ fun _ => obl_post)

end Cert.Proof.KB

end
-- ==== Proof.lean ====
/-
  The certificate's five claims, assembled. The kernel's two frames (the printed program read at the machine's
  floats and at the ideal ones) are the SparseCore launch's run with the values dropped: every worker's task is
  proved once, for every place, from the one fact the precondition gives about the data — every token is below 32,
  so it names an entry of the 32-entry table and a column of a logits row. The reference's frame is its own run.
  The algebraic claim pairs the two runs at the ideal floats: the kernel's run leaves every entry of the result
  inside some worker's rows at the masked logits there, the reference's fold ends at the masked logits too, and
  from memories that agree on the arguments the two are the same function of the same two arrays.
-/
import proofs.«215955_g3427383902409_cont_8to1_b_1893_7_alg».proof.Defs
import proofs.«215955_g3427383902409_cont_8to1_b_1893_7_alg».proof.Proof.Gen.Kernel
import proofs.«215955_g3427383902409_cont_8to1_b_1893_7_alg».proof.Proof.Gen.Kernel.Skeleton
import proofs.«215955_g3427383902409_cont_8to1_b_1893_7_alg».proof.Proof.Gen.KernelIdeal
import proofs.«215955_g3427383902409_cont_8to1_b_1893_7_alg».proof.Proof.Gen.KernelIdeal.Skeleton
import proofs.«215955_g3427383902409_cont_8to1_b_1893_7_alg».proof.Proof.Gen.ReferenceIdeal
import proofs.«215955_g3427383902409_cont_8to1_b_1893_7_alg».proof.Proof.Gen.Pre_input_domain
import proofs.«215955_g3427383902409_cont_8to1_b_1893_7_alg».proof.Proof.Gen.ReferenceIdeal.Run
import Idealize.ShloMosaic.Adequacy
import Idealize.ShloMosaic.Init
import proofs.«215955_g3427383902409_cont_8to1_b_1893_7_alg».proof.Proof.Pre
import proofs.«215955_g3427383902409_cont_8to1_b_1893_7_alg».proof.Proof.RefFrame
import proofs.«215955_g3427383902409_cont_8to1_b_1893_7_alg».proof.Proof.RefValue
import proofs.«215955_g3427383902409_cont_8to1_b_1893_7_alg».proof.Proof.KI.Launch
import proofs.«215955_g3427383902409_cont_8to1_b_1893_7_alg».proof.Proof.KI.Body
import proofs.«215955_g3427383902409_cont_8to1_b_1893_7_alg».proof.Proof.KB.Launch
import proofs.«215955_g3427383902409_cont_8to1_b_1893_7_alg».proof.Proof.KB.Body

noncomputable section

namespace Cert.Proof

open Idealize.ShloMosaic Idealize.SL.Sem

/-- The precondition at the ideal floats: every token of every device's token array is below 32. -/
theorem tokI (m : (ℓ : Loc Cert.KernelIdeal.nD Cert.KernelIdeal.τ Cert.KernelIdeal.sig) → Buf (Elt Ideal) ℓ) (hpre : Cert.Pre_KernelIdeal m)
    (d : Dev Cert.KernelIdeal.nD) (i : Cert.KernelIdeal.S16384x200.Idx) : (m (KI.tLoc d) i).toNat < 32 :=
  Pre.tok_lt (F := Ideal) _ _ _ (hpre d) i

/-- The same at the machine's floats. -/
theorem tokB (m : (ℓ : Loc Cert.Kernel.nD Cert.Kernel.τ Cert.Kernel.sig) → Buf (Elt Bits) ℓ) (hpre : Cert.Pre_Kernel m)
    (d : Dev Cert.Kernel.nD) (i : Cert.Kernel.S16384x200.Idx) : (m (KB.tLoc d) i).toNat < 32 :=
  Pre.tok_lt (F := Bits) _ _ _ (hpre d) i

/-- The kernel as printed runs and leaves its arguments as they were. -/
theorem frame_Kernel : Cert.frame_Kernel := fun m ρ hpre =>
  (θ_run Cert.Kernel.defs _ _).mono (fun r h c => ⟨(h c).1, (h c).2.1, (h c).2.2.1⟩)
    (KB.run_main (F := Bits) m ρ (KB.Qv m) (KB.tileObl m (tokB m hpre)))

/-- The kernel at the ideal floats runs and leaves its arguments as they were. -/
theorem frame_KernelIdeal : Cert.frame_KernelIdeal := fun m ρ hpre =>
  (θ_run Cert.KernelIdeal.defs _ _).mono (fun r h c => ⟨(h c).1, (h c).2.1, (h c).2.2.1⟩)
    (KI.run_main (F := Ideal) m ρ (KI.Qv m) (KI.tileObl m (tokI m hpre)))

/-- The reference runs and leaves its arguments as they were. -/
theorem frame_ReferenceIdeal : Cert.frame_ReferenceIdeal := fun m ρ _ => Ref.frame (F := Ideal) m ρ

/-- At the ideal floats, from memories that agree on the arguments, the kernel and the reference both end with the
    masked logits — one function of the logits and the tokens — as their result, their arguments unchanged. -/
theorem algebraic : Cert.algebraic_KernelIdeal_ReferenceIdeal := fun m ρ m' ρ' hpre hagree => by
  have htok := tokI m hpre
  refine ⟨fun c => Cert.Spec.G (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · -- the kernel: every entry of the result lies in some worker's rows, where that worker left the masked logit
    refine (θ_run Cert.KernelIdeal.defs _ _).mono (fun r h c => ?_) (KI.run_main (F := Ideal) m ρ (KI.Qv m) (KI.tileObl m htok))
    refine ⟨?_, (h c).1, (h c).2.1, (h c).2.2.1⟩
    funext i
    obtain ⟨L, f, hQ, hi, e⟩ := (h c).2.2.2 i
    exact e.trans (hQ i hi)
  · -- the reference: its fold ends at the masked logits of its own arguments, which are the kernel's
    have htok' : ∀ (c : Dev Cert.ReferenceIdeal.nD) i, (m' ((c.tc : Thread Cert.ReferenceIdeal.nD Cert.ReferenceIdeal.τ).loc Cert.ReferenceIdeal.main_arg1) i).toNat < 32 :=
      fun c i => by rw [(hagree c).2.1]; exact htok c i
    refine (θ_run Cert.ReferenceIdeal.defs _ _).mono (fun r h c => ?_) (Cert.ReferenceIdeal.Value.run_fold (F := Ideal) m' ρ')
    refine ⟨?_, (h c Cert.ReferenceIdeal.main_arg0 (by decide)).trans (Ref.final_kept m' Ref.kept_arg0 c),
      (h c Cert.ReferenceIdeal.main_arg1 (by decide)).trans (Ref.final_kept m' Ref.kept_arg1 c),
      (h c Cert.ReferenceIdeal.main_arg2 (by decide)).trans (Ref.final_kept m' Ref.kept_arg2 c)⟩
    rw [h c Cert.ReferenceIdeal.main_v90 (by decide), RefValue.final_value m' c (htok' c), (hagree c).1, (hagree c).2.1]

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, trivial, algebraic⟩

end Cert.Proof

end
